-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v293)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v293) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v843) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4095x256 : Shape := ⟨3, ![32, 4095, 256]⟩
abbrev S1280x256 : Shape := ⟨2, ![1280, 256]⟩
abbrev S1280 : Shape := ⟨1, ![1280]⟩
abbrev S_ : Shape := ⟨0, ![]⟩

class Facts : Prop where
  bcast_S_S32x4095x256 : S_.BroadcastsInDim S32x4095x256 (![] : Fin 0 → Fin S32x4095x256.rank)
  reducesTo_S32x4095x256_S_d0_1_2 : S32x4095x256.ReducesTo [0, 1, 2] S_
  h_S_ : 0 < S_.numel
  bcast_S_S1280x256 : S_.BroadcastsInDim S1280x256 (![] : Fin 0 → Fin S1280x256.rank)
  reducesTo_S1280x256_S_d0_1 : S1280x256.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280 .f32) (main_arg5 : FVec F S1280 .f32) (main_arg6 : FVec F S1280 .f32) (main_v13 : IVec S_ 1) (main_v16 : IVec S1280x256 1) : IVec S_ 1 :=
  let main_c_5 : IVec S_ 1 := constantI S_ 1 1#1
  let main_v17 : IVec S_ 1 := (fun x v => Host.reduce IntOp.andi x v reducesTo_S1280x256_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  let main_v24 : FVec F S1280 .f32 := Host.absf main_arg5
  let main_cst_8 : FVec F S_ .f32 := constant S_ .f32 0x7F800000#32
  let main_v25 : FVec F S1280 .f32 := broadcastInDim S1280 ![] bcast_S_S1280 main_cst_8
  let main_v26 : IVec S1280 1 := cmpf .olt main_v24 main_v25
  let main_c_9 : IVec S_ 1 := constantI S_ 1 1#1
  let main_v27 : IVec S_ 1 := (fun x v => Host.reduce IntOp.andi x v reducesTo_S1280_S_d0 h_S_) main_v26 main_c_9
  let main_v28 : IVec S_ 1 := andi main_v23 main_v27
  let main_v29 : FVec F S1280 .f32 := Host.absf main_arg6
  let main_cst_10 : FVec F S_ .f32 := constant S_ .f32 0x7F800000#32
  let main_v30 : FVec F S1280 .f32 := broadcastInDim S1280 ![] bcast_S_S1280 main_cst_10
  let main_v31 : IVec S1280 1 := cmpf .olt main_v29 main_v30
  let main_c_11 : IVec S_ 1 := constantI S_ 1 1#1
  let main_v32 : IVec S_ 1 := (fun x v => Host.reduce IntOp.andi x v reducesTo_S1280_S_d0 h_S_) main_v31 main_c_11
  let main_v33 : IVec S_ 1 := andi main_v28 main_v32
  main_v33

def fn {F : FTy → Type} [FloatOps F] (main_arg0 : FVec F S32x4095x256 .f32) (main_arg1 : FVec F S1280x256 .f32) (main_arg2 : FVec F S1280x256 .f32) (main_arg3 : FVec F S1280x256 .f32) (main_arg4 : FVec F S1280 .f32) (main_arg5 : FVec F S1280 .f32) (main_arg6 : FVec F S1280 .f32) : IVec S_ 1 :=
  let main_v0 : FVec F S32x4095x256 .f32 := Host.absf main_arg0
  let main_cst : FVec F S_ .f32 := constant S_ .f32 0x7F800000#32
  let main_v1 : FVec F S32x4095x256 .f32 := broadcastInDim S32x4095x256 ![] bcast_S_S32x4095x256 main_cst
  let main_v2 : IVec S32x4095x256 1 := cmpf .olt main_v0 main_v1
  let main_c : IVec S_ 1 := constantI S_ 1 1#1
  let main_v3 : IVec S_ 1 := (fun x v => Host.reduce IntOp.andi x v reducesTo_S32x4095x256_S_d0_1_2 h_S_) main_v2 main_c
  let main_v4 : FVec F S1280x256 .f32 := Host.absf main_arg1
  let main_cst_0 : FVec F S_ .f32 := constant S_ .f32 0x7F800000#32
  let main_v5 : FVec F S1280x256 .f32 := broadcastInDim S1280x256 ![] bcast_S_S1280x256 main_cst_0
  let main_v6 : IVec S1280x256 1 := cmpf .olt main_v4 main_v5
  let main_c_1 : IVec S_ 1 := constantI S_ 1 1#1
  let main_v7 : IVec S_ 1 := (fun x v => Host.reduce IntOp.andi x v reducesTo_S1280x256_S_d0_1 h_S_) main_v6 main_c_1
  let main_v8 : IVec S_ 1 := andi main_v3 main_v7
  let main_v9 : FVec F S1280x256 .f32 := Host.absf main_arg2
  let main_cst_2 : FVec F S_ .f32 := constant S_ .f32 0x7F800000#32
  let main_v10 : FVec F S1280x256 .f32 := broadcastInDim S1280x256 ![] bcast_S_S1280x256 main_cst_2
  let main_v11 : IVec S1280x256 1 := cmpf .olt main_v9 main_v10
  let main_c_3 : IVec S_ 1 := constantI S_ 1 1#1
  let main_v12 : IVec S_ 1 := (fun x v => Host.reduce IntOp.andi x v reducesTo_S1280x256_S_d0_1 h_S_) main_v11 main_c_3
  let main_v13 : IVec S_ 1 := andi main_v8 main_v12
  let main_v14 : FVec F S1280x256 .f32 := Host.absf main_arg3
  let main_cst_4 : FVec F S_ .f32 := constant S_ .f32 0x7F800000#32
  let main_v15 : FVec F S1280x256 .f32 := broadcastInDim S1280x256 ![] bcast_S_S1280x256 main_cst_4
  let main_v16 : IVec S1280x256 1 := cmpf .olt main_v14 main_v15
  fn_part1 (F := F) main_arg4 main_arg5 main_arg6 main_v13 main_v16
-- ==== Kernel.lean ====
abbrev S32x4095x256 : Shape := ⟨3, ![32, 4095, 256]⟩
abbrev S1280x256 : Shape := ⟨2, ![1280, 256]⟩
abbrev S1280 : Shape := ⟨1, ![1280]⟩
abbrev S256x1280 : Shape := ⟨2, ![256, 1280]⟩
abbrev S131040x256 : Shape := ⟨2, ![131040, 256]⟩
abbrev S131040x1280 : Shape := ⟨2, ![131040, 1280]⟩
abbrev S1248x256 : Shape := ⟨2, ![1248, 256]⟩
abbrev S1248x1280 : Shape := ⟨2, ![1248, 1280]⟩
abbrev S1x1280 : Shape := ⟨2, ![1, 1280]⟩
abbrev S32x4095x1280 : Shape := ⟨3, ![32, 4095, 1280]⟩
abbrev S_ : Shape := ⟨0, ![]⟩
abbrev S32x2048x1280 : Shape := ⟨3, ![32, 2048, 1280]⟩
abbrev S65536x1280 : Shape := ⟨2, ![65536, 1280]⟩
abbrev S65536x256 : Shape := ⟨2, ![65536, 256]⟩
abbrev S1024x1280 : Shape := ⟨2, ![1024, 1280]⟩
abbrev S1024x256 : Shape := ⟨2, ![1024, 256]⟩
abbrev S32x2048x256 : Shape := ⟨3, ![32, 2048, 256]⟩
abbrev S1 : Shape := ⟨1, ![1]⟩
abbrev S32x1024x2x256 : Shape := ⟨4, ![32, 1024, 2, 256]⟩
abbrev S32x1024x1x256 : Shape := ⟨4, ![32, 1024, 1, 256]⟩
abbrev S32x1024x256 : Shape := ⟨3, ![32, 1024, 256]⟩
abbrev S32768x256 : Shape := ⟨2, ![32768, 256]⟩
abbrev S32x1024x1280 : Shape := ⟨3, ![32, 1024, 1280]⟩
abbrev S32768x1280 : Shape := ⟨2, ![32768, 1280]⟩
abbrev S512x1280 : Shape := ⟨2, ![512, 1280]⟩
abbrev S512x256 : Shape := ⟨2, ![512, 256]⟩
abbrev S32x512x2x256 : Shape := ⟨4, ![32, 512, 2, 256]⟩
abbrev S32x512x1x256 : Shape := ⟨4, ![32, 512, 1, 256]⟩
abbrev S32x512x256 : Shape := ⟨3, ![32, 512, 256]⟩
abbrev S16384x256 : Shape := ⟨2, ![16384, 256]⟩
abbrev S32x512x1280 : Shape := ⟨3, ![32, 512, 1280]⟩
abbrev S16384x1280 : Shape := ⟨2, ![16384, 1280]⟩
abbrev S32x256x2x256 : Shape := ⟨4, ![32, 256, 2, 256]⟩
abbrev S32x256x1x256 : Shape := ⟨4, ![32, 256, 1, 256]⟩
abbrev S32x256x256 : Shape := ⟨3, ![32, 256, 256]⟩
abbrev S8192x256 : Shape := ⟨2, ![8192, 256]⟩
abbrev S32x256x1280 : Shape := ⟨3, ![32, 256, 1280]⟩
abbrev S8192x1280 : Shape := ⟨2, ![8192, 1280]⟩
abbrev S32x128x2x256 : Shape := ⟨4, ![32, 128, 2, 256]⟩
abbrev S32x128x1x256 : Shape := ⟨4, ![32, 128, 1, 256]⟩
abbrev S32x128x256 : Shape := ⟨3, ![32, 128, 256]⟩
abbrev S4096x256 : Shape := ⟨2, ![4096, 256]⟩
abbrev S32x128x1280 : Shape := ⟨3, ![32, 128, 1280]⟩
abbrev S4096x1280 : Shape := ⟨2, ![4096, 1280]⟩
abbrev S32x64x2x256 : Shape := ⟨4, ![32, 64, 2, 256]⟩
abbrev S32x64x1x256 : Shape := ⟨4, ![32, 64, 1, 256]⟩
abbrev S32x64x256 : Shape := ⟨3, ![32, 64, 256]⟩
abbrev S2048x256 : Shape := ⟨2, ![2048, 256]⟩
abbrev S32x64x1280 : Shape := ⟨3, ![32, 64, 1280]⟩
abbrev S2048x1280 : Shape := ⟨2, ![2048, 1280]⟩
abbrev S32x32x2x256 : Shape := ⟨4, ![32, 32, 2, 256]⟩
abbrev S32x32x1x256 : Shape := ⟨4, ![32, 32, 1, 256]⟩
abbrev S32x32x256 : Shape := ⟨3, ![32, 32, 256]⟩
abbrev S32x32x1280 : Shape := ⟨3, ![32, 32, 1280]⟩
abbrev S32x16x2x256 : Shape := ⟨4, ![32, 16, 2, 256]⟩
abbrev S32x16x1x256 : Shape := ⟨4, ![32, 16, 1, 256]⟩
abbrev S32x16x256 : Shape := ⟨3, ![32, 16, 256]⟩
abbrev S32x16x1280 : Shape := ⟨3, ![32, 16, 1280]⟩
abbrev S32x8x2x256 : Shape := ⟨4, ![32, 8, 2, 256]⟩
abbrev S32x8x1x256 : Shape := ⟨4, ![32, 8, 1, 256]⟩
abbrev S32x8x256 : Shape := ⟨3, ![32, 8, 256]⟩
abbrev S256x256 : Shape := ⟨2, ![256, 256]⟩
abbrev S32x8x1280 : Shape := ⟨3, ![32, 8, 1280]⟩
abbrev S32x4x2x256 : Shape := ⟨4, ![32, 4, 2, 256]⟩
abbrev S32x4x1x256 : Shape := ⟨4, ![32, 4, 1, 256]⟩
abbrev S32x4x256 : Shape := ⟨3, ![32, 4, 256]⟩
abbrev S128x256 : Shape := ⟨2, ![128, 256]⟩
abbrev S32x4x1280 : Shape := ⟨3, ![32, 4, 1280]⟩
abbrev S128x1280 : Shape := ⟨2, ![128, 1280]⟩
abbrev S32x2x2x256 : Shape := ⟨4, ![32, 2, 2, 256]⟩
abbrev S32x2x1x256 : Shape := ⟨4, ![32, 2, 1, 256]⟩
abbrev S32x2x256 : Shape := ⟨3, ![32, 2, 256]⟩
abbrev S64x256 : Shape := ⟨2, ![64, 256]⟩
abbrev S32x2x1280 : Shape := ⟨3, ![32, 2, 1280]⟩
abbrev S64x1280 : Shape := ⟨2, ![64, 1280]⟩
abbrev S32x1x2x256 : Shape := ⟨4, ![32, 1, 2, 256]⟩
abbrev S32x1x1x256 : Shape := ⟨4, ![32, 1, 1, 256]⟩
abbrev S32x1x256 : Shape := ⟨3, ![32, 1, 256]⟩
abbrev S32x256 : Shape := ⟨2, ![32, 256]⟩
abbrev S32x1x1280 : Shape := ⟨3, ![32, 1, 1280]⟩
abbrev S32x1280 : Shape := ⟨2, ![32, 1280]⟩

abbrev nBuf : Space → Nat
  | .hbm => 339
  | .vmem => 175
  | .smem => 0
  | _ => 0

abbrev hbmTy0_0 (i : Nat) : BufTy := match i % 128 with
  | 0 => ⟨S32x4095x256, .f32⟩
  | 1 => ⟨S1280x256, .f32⟩
  | 2 => ⟨S1280x256, .f32⟩
  | 3 => ⟨S1280x256, .f32⟩
  | 4 => ⟨S1280, .f32⟩
  | 5 => ⟨S1280, .f32⟩
  | 6 => ⟨S1280, .f32⟩
  | 7 => ⟨S256x1280, .f32⟩
  | 8 => ⟨S256x1280, .f32⟩
  | 9 => ⟨S256x1280, .f32⟩
  | 10 => ⟨S131040x256, .f32⟩
  | 11 => ⟨S131040x1280, .f32⟩
  | 12 => ⟨S32x4095x1280, .f32⟩
  | 13 => ⟨S_, .f32⟩
  | 14 => ⟨S32x4095x256, .f32⟩
  | 15 => ⟨S_, .f32⟩
  | 16 => ⟨S32x4095x256, .f32⟩
  | 17 => ⟨S32x2048x1280, .f32⟩
  | 18 => ⟨S65536x1280, .f32⟩
  | 19 => ⟨S65536x256, .f32⟩
  | 20 => ⟨S65536x256, .f32⟩
  | 21 => ⟨S32x2048x256, .f32⟩
  | 22 => ⟨S_, .i32⟩
  | 23 => ⟨S1, .i32⟩
  | 24 => ⟨S32x4095x256, .f32⟩
  | 25 => ⟨S32x2048x256, .f32⟩
  | 26 => ⟨S_, .i32⟩
  | 27 => ⟨S1, .i32⟩
  | 28 => ⟨S32x4095x256, .f32⟩
  | 29 => ⟨S32x2048x256, .f32⟩
  | 30 => ⟨S32x1024x2x256, .f32⟩
  | 31 => ⟨S32x2048x256, .f32⟩
  | 32 => ⟨S32x1024x2x256, .f32⟩
  | 33 => ⟨S32x1024x1x256, .f32⟩
  | 34 => ⟨S32x1024x256, .f32⟩
  | 35 => ⟨S32768x256, .f32⟩
  | 36 => ⟨S32x1024x1x256, .f32⟩
  | 37 => ⟨S32x1024x256, .f32⟩
  | 38 => ⟨S32768x256, .f32⟩
  | 39 => ⟨S32x1024x1x256, .f32⟩
  | 40 => ⟨S32x1024x256, .f32⟩
  | 41 => ⟨S32768x256, .f32⟩
  | 42 => ⟨S32x1024x1x256, .f32⟩
  | 43 => ⟨S32x1024x256, .f32⟩
  | 44 => ⟨S32768x256, .f32⟩
  | 45 => ⟨S32x1024x1280, .f32⟩
  | 46 => ⟨S32768x1280, .f32⟩
  | 47 => ⟨S32768x256, .f32⟩
  | 48 => ⟨S32768x256, .f32⟩
  | 49 => ⟨S32x1024x256, .f32⟩
  | 50 => ⟨S_, .i32⟩
  | 51 => ⟨S1, .i32⟩
  | 52 => ⟨S32x4095x256, .f32⟩
  | 53 => ⟨S32x1024x256, .f32⟩
  | 54 => ⟨S_, .i32⟩
  | 55 => ⟨S1, .i32⟩
  | 56 => ⟨S32x4095x256, .f32⟩
  | 57 => ⟨S32x1024x256, .f32⟩
  | 58 => ⟨S32x512x2x256, .f32⟩
  | 59 => ⟨S32x1024x256, .f32⟩
  | 60 => ⟨S32x512x2x256, .f32⟩
  | 61 => ⟨S32x512x1x256, .f32⟩
  | 62 => ⟨S32x512x256, .f32⟩
  | 63 => ⟨S16384x256, .f32⟩
  | 64 => ⟨S32x512x1x256, .f32⟩
  | 65 => ⟨S32x512x256, .f32⟩
  | 66 => ⟨S16384x256, .f32⟩
  | 67 => ⟨S32x512x1x256, .f32⟩
  | 68 => ⟨S32x512x256, .f32⟩
  | 69 => ⟨S16384x256, .f32⟩
  | 70 => ⟨S32x512x1x256, .f32⟩
  | 71 => ⟨S32x512x256, .f32⟩
  | 72 => ⟨S16384x256, .f32⟩
  | 73 => ⟨S32x512x1280, .f32⟩
  | 74 => ⟨S16384x1280, .f32⟩
  | 75 => ⟨S16384x256, .f32⟩
  | 76 => ⟨S16384x256, .f32⟩
  | 77 => ⟨S32x512x256, .f32⟩
  | 78 => ⟨S_, .i32⟩
  | 79 => ⟨S1, .i32⟩
  | 80 => ⟨S32x4095x256, .f32⟩
  | 81 => ⟨S32x512x256, .f32⟩
  | 82 => ⟨S_, .i32⟩
  | 83 => ⟨S1, .i32⟩
  | 84 => ⟨S32x4095x256, .f32⟩
  | 85 => ⟨S32x512x256, .f32⟩
  | 86 => ⟨S32x256x2x256, .f32⟩
  | 87 => ⟨S32x512x256, .f32⟩
  | 88 => ⟨S32x256x2x256, .f32⟩
  | 89 => ⟨S32x256x1x256, .f32⟩
  | 90 => ⟨S32x256x256, .f32⟩
  | 91 => ⟨S8192x256, .f32⟩
  | 92 => ⟨S32x256x1x256, .f32⟩
  | 93 => ⟨S32x256x256, .f32⟩
  | 94 => ⟨S8192x256, .f32⟩
  | 95 => ⟨S32x256x1x256, .f32⟩
  | 96 => ⟨S32x256x256, .f32⟩
  | 97 => ⟨S8192x256, .f32⟩
  | 98 => ⟨S32x256x1x256, .f32⟩
  | 99 => ⟨S32x256x256, .f32⟩
  | 100 => ⟨S8192x256, .f32⟩
  | 101 => ⟨S32x256x1280, .f32⟩
  | 102 => ⟨S8192x1280, .f32⟩
  | 103 => ⟨S8192x256, .f32⟩
  | 104 => ⟨S8192x256, .f32⟩
  | 105 => ⟨S32x256x256, .f32⟩
  | 106 => ⟨S_, .i32⟩
  | 107 => ⟨S1, .i32⟩
  | 108 => ⟨S32x4095x256, .f32⟩
  | 109 => ⟨S32x256x256, .f32⟩
  | 110 => ⟨S_, .i32⟩
  | 111 => ⟨S1, .i32⟩
  | 112 => ⟨S32x4095x256, .f32⟩
  | 113 => ⟨S32x256x256, .f32⟩
  | 114 => ⟨S32x128x2x256, .f32⟩
  | 115 => ⟨S32x256x256, .f32⟩
  | 116 => ⟨S32x128x2x256, .f32⟩
  | 117 => ⟨S32x128x1x256, .f32⟩
  | 118 => ⟨S32x128x256, .f32⟩
  | 119 => ⟨S4096x256, .f32⟩
  | 120 => ⟨S32x128x1x256, .f32⟩
  | 121 => ⟨S32x128x256, .f32⟩
  | 122 => ⟨S4096x256, .f32⟩
  | 123 => ⟨S32x128x1x256, .f32⟩
  | 124 => ⟨S32x128x256, .f32⟩
  | 125 => ⟨S4096x256, .f32⟩
  | 126 => ⟨S32x128x1x256, .f32⟩
  | 127 => ⟨S32x128x256, .f32⟩
  | _ => ⟨S32x4095x256, .f32⟩

abbrev hbmTy0_1 (i : Nat) : BufTy := match i % 128 with
  | 0 => ⟨S4096x256, .f32⟩
  | 1 => ⟨S32x128x1280, .f32⟩
  | 2 => ⟨S4096x1280, .f32⟩
  | 3 => ⟨S4096x256, .f32⟩
  | 4 => ⟨S4096x256, .f32⟩
  | 5 => ⟨S32x128x256, .f32⟩
  | 6 => ⟨S_, .i32⟩
  | 7 => ⟨S1, .i32⟩
  | 8 => ⟨S32x4095x256, .f32⟩
  | 9 => ⟨S32x128x256, .f32⟩
  | 10 => ⟨S_, .i32⟩
  | 11 => ⟨S1, .i32⟩
  | 12 => ⟨S32x4095x256, .f32⟩
  | 13 => ⟨S32x128x256, .f32⟩
  | 14 => ⟨S32x64x2x256, .f32⟩
  | 15 => ⟨S32x128x256, .f32⟩
  | 16 => ⟨S32x64x2x256, .f32⟩
  | 17 => ⟨S32x64x1x256, .f32⟩
  | 18 => ⟨S32x64x256, .f32⟩
  | 19 => ⟨S2048x256, .f32⟩
  | 20 => ⟨S32x64x1x256, .f32⟩
  | 21 => ⟨S32x64x256, .f32⟩
  | 22 => ⟨S2048x256, .f32⟩
  | 23 => ⟨S32x64x1x256, .f32⟩
  | 24 => ⟨S32x64x256, .f32⟩
  | 25 => ⟨S2048x256, .f32⟩
  | 26 => ⟨S32x64x1x256, .f32⟩
  | 27 => ⟨S32x64x256, .f32⟩
  | 28 => ⟨S2048x256, .f32⟩
  | 29 => ⟨S32x64x1280, .f32⟩
  | 30 => ⟨S2048x1280, .f32⟩
  | 31 => ⟨S2048x256, .f32⟩
  | 32 => ⟨S2048x256, .f32⟩
  | 33 => ⟨S32x64x256, .f32⟩
  | 34 => ⟨S_, .i32⟩
  | 35 => ⟨S1, .i32⟩
  | 36 => ⟨S32x4095x256, .f32⟩
  | 37 => ⟨S32x64x256, .f32⟩
  | 38 => ⟨S_, .i32⟩
  | 39 => ⟨S1, .i32⟩
  | 40 => ⟨S32x4095x256, .f32⟩
  | 41 => ⟨S32x64x256, .f32⟩
  | 42 => ⟨S32x32x2x256, .f32⟩
  | 43 => ⟨S32x64x256, .f32⟩
  | 44 => ⟨S32x32x2x256, .f32⟩
  | 45 => ⟨S32x32x1x256, .f32⟩
  | 46 => ⟨S32x32x256, .f32⟩
  | 47 => ⟨S1024x256, .f32⟩
  | 48 => ⟨S32x32x1x256, .f32⟩
  | 49 => ⟨S32x32x256, .f32⟩
  | 50 => ⟨S1024x256, .f32⟩
  | 51 => ⟨S32x32x1x256, .f32⟩
  | 52 => ⟨S32x32x256, .f32⟩
  | 53 => ⟨S1024x256, .f32⟩
  | 54 => ⟨S32x32x1x256, .f32⟩
  | 55 => ⟨S32x32x256, .f32⟩
  | 56 => ⟨S1024x256, .f32⟩
  | 57 => ⟨S32x32x1280, .f32⟩
  | 58 => ⟨S1024x1280, .f32⟩
  | 59 => ⟨S1024x256, .f32⟩
  | 60 => ⟨S1024x256, .f32⟩
  | 61 => ⟨S32x32x256, .f32⟩
  | 62 => ⟨S_, .i32⟩
  | 63 => ⟨S1, .i32⟩
  | 64 => ⟨S32x4095x256, .f32⟩
  | 65 => ⟨S32x32x256, .f32⟩
  | 66 => ⟨S_, .i32⟩
  | 67 => ⟨S1, .i32⟩
  | 68 => ⟨S32x4095x256, .f32⟩
  | 69 => ⟨S32x32x256, .f32⟩
  | 70 => ⟨S32x16x2x256, .f32⟩
  | 71 => ⟨S32x32x256, .f32⟩
  | 72 => ⟨S32x16x2x256, .f32⟩
  | 73 => ⟨S32x16x1x256, .f32⟩
  | 74 => ⟨S32x16x256, .f32⟩
  | 75 => ⟨S512x256, .f32⟩
  | 76 => ⟨S32x16x1x256, .f32⟩
  | 77 => ⟨S32x16x256, .f32⟩
  | 78 => ⟨S512x256, .f32⟩
  | 79 => ⟨S32x16x1x256, .f32⟩
  | 80 => ⟨S32x16x256, .f32⟩
  | 81 => ⟨S512x256, .f32⟩
  | 82 => ⟨S32x16x1x256, .f32⟩
  | 83 => ⟨S32x16x256, .f32⟩
  | 84 => ⟨S512x256, .f32⟩
  | 85 => ⟨S32x16x1280, .f32⟩
  | 86 => ⟨S512x1280, .f32⟩
  | 87 => ⟨S512x256, .f32⟩
  | 88 => ⟨S512x256, .f32⟩
  | 89 => ⟨S32x16x256, .f32⟩
  | 90 => ⟨S_, .i32⟩
  | 91 => ⟨S1, .i32⟩
  | 92 => ⟨S32x4095x256, .f32⟩
  | 93 => ⟨S32x16x256, .f32⟩
  | 94 => ⟨S_, .i32⟩
  | 95 => ⟨S1, .i32⟩
  | 96 => ⟨S32x4095x256, .f32⟩
  | 97 => ⟨S32x16x256, .f32⟩
  | 98 => ⟨S32x8x2x256, .f32⟩
  | 99 => ⟨S32x16x256, .f32⟩
  | 100 => ⟨S32x8x2x256, .f32⟩
  | 101 => ⟨S32x8x1x256, .f32⟩
  | 102 => ⟨S32x8x256, .f32⟩
  | 103 => ⟨S256x256, .f32⟩
  | 104 => ⟨S32x8x1x256, .f32⟩
  | 105 => ⟨S32x8x256, .f32⟩
  | 106 => ⟨S256x256, .f32⟩
  | 107 => ⟨S32x8x1x256, .f32⟩
  | 108 => ⟨S32x8x256, .f32⟩
  | 109 => ⟨S256x256, .f32⟩
  | 110 => ⟨S32x8x1x256, .f32⟩
  | 111 => ⟨S32x8x256, .f32⟩
  | 112 => ⟨S256x256, .f32⟩
  | 113 => ⟨S32x8x1280, .f32⟩
  | 114 => ⟨S256x1280, .f32⟩
  | 115 => ⟨S256x256, .f32⟩
  | 116 => ⟨S256x256, .f32⟩
  | 117 => ⟨S32x8x256, .f32⟩
  | 118 => ⟨S_, .i32⟩
  | 119 => ⟨S1, .i32⟩
  | 120 => ⟨S32x4095x256, .f32⟩
  | 121 => ⟨S32x8x256, .f32⟩
  | 122 => ⟨S_, .i32⟩
  | 123 => ⟨S1, .i32⟩
  | 124 => ⟨S32x4095x256, .f32⟩
  | 125 => ⟨S32x8x256, .f32⟩
  | 126 => ⟨S32x4x2x256, .f32⟩
  | 127 => ⟨S32x8x256, .f32⟩
  | _ => ⟨S32x4095x256, .f32⟩

abbrev hbmTy0_2 (i : Nat) : BufTy := match i % 128 with
  | 0 => ⟨S32x4x2x256, .f32⟩
  | 1 => ⟨S32x4x1x256, .f32⟩
  | 2 => ⟨S32x4x256, .f32⟩
  | 3 => ⟨S128x256, .f32⟩
  | 4 => ⟨S32x4x1x256, .f32⟩
  | 5 => ⟨S32x4x256, .f32⟩
  | 6 => ⟨S128x256, .f32⟩
  | 7 => ⟨S32x4x1x256, .f32⟩
  | 8 => ⟨S32x4x256, .f32⟩
  | 9 => ⟨S128x256, .f32⟩
  | 10 => ⟨S32x4x1x256, .f32⟩
  | 11 => ⟨S32x4x256, .f32⟩
  | 12 => ⟨S128x256, .f32⟩
  | 13 => ⟨S32x4x1280, .f32⟩
  | 14 => ⟨S128x1280, .f32⟩
  | 15 => ⟨S128x256, .f32⟩
  | 16 => ⟨S128x256, .f32⟩
  | 17 => ⟨S32x4x256, .f32⟩
  | 18 => ⟨S_, .i32⟩
  | 19 => ⟨S1, .i32⟩
  | 20 => ⟨S32x4095x256, .f32⟩
  | 21 => ⟨S32x4x256, .f32⟩
  | 22 => ⟨S_, .i32⟩
  | 23 => ⟨S1, .i32⟩
  | 24 => ⟨S32x4095x256, .f32⟩
  | 25 => ⟨S32x4x256, .f32⟩
  | 26 => ⟨S32x2x2x256, .f32⟩
  | 27 => ⟨S32x4x256, .f32⟩
  | 28 => ⟨S32x2x2x256, .f32⟩
  | 29 => ⟨S32x2x1x256, .f32⟩
  | 30 => ⟨S32x2x256, .f32⟩
  | 31 => ⟨S64x256, .f32⟩
  | 32 => ⟨S32x2x1x256, .f32⟩
  | 33 => ⟨S32x2x256, .f32⟩
  | 34 => ⟨S64x256, .f32⟩
  | 35 => ⟨S32x2x1x256, .f32⟩
  | 36 => ⟨S32x2x256, .f32⟩
  | 37 => ⟨S64x256, .f32⟩
  | 38 => ⟨S32x2x1x256, .f32⟩
  | 39 => ⟨S32x2x256, .f32⟩
  | 40 => ⟨S64x256, .f32⟩
  | 41 => ⟨S32x2x1280, .f32⟩
  | 42 => ⟨S64x1280, .f32⟩
  | 43 => ⟨S64x256, .f32⟩
  | 44 => ⟨S64x256, .f32⟩
  | 45 => ⟨S32x2x256, .f32⟩
  | 46 => ⟨S_, .i32⟩
  | 47 => ⟨S1, .i32⟩
  | 48 => ⟨S32x4095x256, .f32⟩
  | 49 => ⟨S32x2x256, .f32⟩
  | 50 => ⟨S_, .i32⟩
  | 51 => ⟨S1, .i32⟩
  | 52 => ⟨S32x4095x256, .f32⟩
  | 53 => ⟨S32x2x256, .f32⟩
  | 54 => ⟨S32x1x2x256, .f32⟩
  | 55 => ⟨S32x2x256, .f32⟩
  | 56 => ⟨S32x1x2x256, .f32⟩
  | 57 => ⟨S32x1x1x256, .f32⟩
  | 58 => ⟨S32x1x256, .f32⟩
  | 59 => ⟨S32x256, .f32⟩
  | 60 => ⟨S32x1x1x256, .f32⟩
  | 61 => ⟨S32x1x256, .f32⟩
  | 62 => ⟨S32x256, .f32⟩
  | 63 => ⟨S32x1x1x256, .f32⟩
  | 64 => ⟨S32x1x256, .f32⟩
  | 65 => ⟨S32x256, .f32⟩
  | 66 => ⟨S32x1x1x256, .f32⟩
  | 67 => ⟨S32x1x256, .f32⟩
  | 68 => ⟨S32x256, .f32⟩
  | 69 => ⟨S32x1x1280, .f32⟩
  | 70 => ⟨S32x1280, .f32⟩
  | 71 => ⟨S32x256, .f32⟩
  | 72 => ⟨S32x256, .f32⟩
  | 73 => ⟨S32x1x256, .f32⟩
  | 74 => ⟨S_, .i32⟩
  | 75 => ⟨S1, .i32⟩
  | 76 => ⟨S32x4095x256, .f32⟩
  | 77 => ⟨S32x1x256, .f32⟩
  | 78 => ⟨S_, .i32⟩
  | 79 => ⟨S1, .i32⟩
  | 80 => ⟨S32x4095x256, .f32⟩
  | 81 => ⟨S32x1x256, .f32⟩
  | 82 => ⟨S32x256, .f32⟩
  | _ => ⟨S32x4095x256, .f32⟩

abbrev hbmTy (i : Nat) : BufTy := match i / 128 with
  | 0 => hbmTy0_0 i
  | 1 => hbmTy0_1 i
  | 2 => hbmTy0_2 i
  | _ => ⟨S32x4095x256, .f32⟩

abbrev vmemTy0_0 (i : Nat) : BufTy := match i % 128 with
  | 0 => ⟨S1248x256, .f32⟩
  | 1 => ⟨S1248x256, .f32⟩
  | 2 => ⟨S256x1280, .f32⟩
  | 3 => ⟨S1280, .f32⟩
  | 4 => ⟨S1248x1280, .f32⟩
  | 5 => ⟨S1248x1280, .f32⟩
  | 6 => ⟨S1024x1280, .f32⟩
  | 7 => ⟨S1024x1280, .f32⟩
  | 8 => ⟨S1024x256, .f32⟩
  | 9 => ⟨S1024x256, .f32⟩
  | 10 => ⟨S1024x256, .f32⟩
  | 11 => ⟨S1024x256, .f32⟩
  | 12 => ⟨S512x1280, .f32⟩
  | 13 => ⟨S512x1280, .f32⟩
  | 14 => ⟨S512x256, .f32⟩
  | 15 => ⟨S512x256, .f32⟩
  | 16 => ⟨S512x256, .f32⟩
  | 17 => ⟨S512x256, .f32⟩
  | 18 => ⟨S512x256, .f32⟩
  | 19 => ⟨S512x256, .f32⟩
  | 20 => ⟨S512x256, .f32⟩
  | 21 => ⟨S512x256, .f32⟩
  | 22 => ⟨S256x1280, .f32⟩
  | 23 => ⟨S256x1280, .f32⟩
  | 24 => ⟨S1280, .f32⟩
  | 25 => ⟨S1280, .f32⟩
  | 26 => ⟨S512x256, .f32⟩
  | 27 => ⟨S512x256, .f32⟩
  | 28 => ⟨S512x256, .f32⟩
  | 29 => ⟨S512x256, .f32⟩
  | 30 => ⟨S512x1280, .f32⟩
  | 31 => ⟨S512x1280, .f32⟩
  | 32 => ⟨S512x256, .f32⟩
  | 33 => ⟨S512x256, .f32⟩
  | 34 => ⟨S512x256, .f32⟩
  | 35 => ⟨S512x256, .f32⟩
  | 36 => ⟨S512x256, .f32⟩
  | 37 => ⟨S512x256, .f32⟩
  | 38 => ⟨S512x256, .f32⟩
  | 39 => ⟨S512x256, .f32⟩
  | 40 => ⟨S256x1280, .f32⟩
  | 41 => ⟨S256x1280, .f32⟩
  | 42 => ⟨S1280, .f32⟩
  | 43 => ⟨S1280, .f32⟩
  | 44 => ⟨S512x256, .f32⟩
  | 45 => ⟨S512x256, .f32⟩
  | 46 => ⟨S512x256, .f32⟩
  | 47 => ⟨S512x256, .f32⟩
  | 48 => ⟨S512x1280, .f32⟩
  | 49 => ⟨S512x1280, .f32⟩
  | 50 => ⟨S512x256, .f32⟩
  | 51 => ⟨S512x256, .f32⟩
  | 52 => ⟨S512x256, .f32⟩
  | 53 => ⟨S512x256, .f32⟩
  | 54 => ⟨S512x256, .f32⟩
  | 55 => ⟨S512x256, .f32⟩
  | 56 => ⟨S512x256, .f32⟩
  | 57 => ⟨S512x256, .f32⟩
  | 58 => ⟨S256x1280, .f32⟩
  | 59 => ⟨S256x1280, .f32⟩
  | 60 => ⟨S1280, .f32⟩
  | 61 => ⟨S1280, .f32⟩
  | 62 => ⟨S512x256, .f32⟩
  | 63 => ⟨S512x256, .f32⟩
  | 64 => ⟨S512x256, .f32⟩
  | 65 => ⟨S512x256, .f32⟩
  | 66 => ⟨S512x1280, .f32⟩
  | 67 => ⟨S512x1280, .f32⟩
  | 68 => ⟨S512x256, .f32⟩
  | 69 => ⟨S512x256, .f32⟩
  | 70 => ⟨S512x256, .f32⟩
  | 71 => ⟨S512x256, .f32⟩
  | 72 => ⟨S512x256, .f32⟩
  | 73 => ⟨S512x256, .f32⟩
  | 74 => ⟨S512x256, .f32⟩
  | 75 => ⟨S512x256, .f32⟩
  | 76 => ⟨S256x1280, .f32⟩
  | 77 => ⟨S256x1280, .f32⟩
  | 78 => ⟨S1280, .f32⟩
  | 79 => ⟨S1280, .f32⟩
  | 80 => ⟨S512x256, .f32⟩
  | 81 => ⟨S512x256, .f32⟩
  | 82 => ⟨S512x256, .f32⟩
  | 83 => ⟨S512x256, .f32⟩
  | 84 => ⟨S512x1280, .f32⟩
  | 85 => ⟨S512x1280, .f32⟩
  | 86 => ⟨S512x256, .f32⟩
  | 87 => ⟨S512x256, .f32⟩
  | 88 => ⟨S512x256, .f32⟩
  | 89 => ⟨S512x256, .f32⟩
  | 90 => ⟨S512x256, .f32⟩
  | 91 => ⟨S512x256, .f32⟩
  | 92 => ⟨S512x256, .f32⟩
  | 93 => ⟨S512x256, .f32⟩
  | 94 => ⟨S256x1280, .f32⟩
  | 95 => ⟨S256x1280, .f32⟩
  | 96 => ⟨S1280, .f32⟩
  | 97 => ⟨S1280, .f32⟩
  | 98 => ⟨S512x256, .f32⟩
  | 99 => ⟨S512x256, .f32⟩
  | 100 => ⟨S512x256, .f32⟩
  | 101 => ⟨S512x256, .f32⟩
  | 102 => ⟨S512x1280, .f32⟩
  | 103 => ⟨S512x1280, .f32⟩
  | 104 => ⟨S512x256, .f32⟩
  | 105 => ⟨S512x256, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S512x256, .f32⟩
  | 112 => ⟨S256x1280, .f32⟩
  | 113 => ⟨S256x1280, .f32⟩
  | 114 => ⟨S1280, .f32⟩
  | 115 => ⟨S1280, .f32⟩
  | 116 => ⟨S512x256, .f32⟩
  | 117 => ⟨S512x256, .f32⟩
  | 118 => ⟨S512x256, .f32⟩
  | 119 => ⟨S512x256, .f32⟩
  | 120 => ⟨S512x1280, .f32⟩
  | 121 => ⟨S512x256, .f32⟩
  | 122 => ⟨S512x256, .f32⟩
  | 123 => ⟨S512x256, .f32⟩
  | 124 => ⟨S512x256, .f32⟩
  | 125 => ⟨S256x1280, .f32⟩
  | 126 => ⟨S256x1280, .f32⟩
  | 127 => ⟨S1280, .f32⟩
  | _ => ⟨S32x4095x256, .f32⟩

abbrev vmemTy0_1 (i : Nat) : BufTy := match i % 128 with
  | 0 => ⟨S1280, .f32⟩
  | 1 => ⟨S512x256, .f32⟩
  | 2 => ⟨S512x256, .f32⟩
  | 3 => ⟨S256x1280, .f32⟩
  | 4 => ⟨S256x256, .f32⟩
  | 5 => ⟨S256x256, .f32⟩
  | 6 => ⟨S256x256, .f32⟩
  | 7 => ⟨S256x256, .f32⟩
  | 8 => ⟨S256x1280, .f32⟩
  | 9 => ⟨S256x1280, .f32⟩
  | 10 => ⟨S1280, .f32⟩
  | 11 => ⟨S1280, .f32⟩
  | 12 => ⟨S256x256, .f32⟩
  | 13 => ⟨S256x256, .f32⟩
  | 14 => ⟨S128x1280, .f32⟩
  | 15 => ⟨S128x256, .f32⟩
  | 16 => ⟨S128x256, .f32⟩
  | 17 => ⟨S128x256, .f32⟩
  | 18 => ⟨S128x256, .f32⟩
  | 19 => ⟨S256x1280, .f32⟩
  | 20 => ⟨S256x1280, .f32⟩
  | 21 => ⟨S1280, .f32⟩
  | 22 => ⟨S1280, .f32⟩
  | 23 => ⟨S128x256, .f32⟩
  | 24 => ⟨S128x256, .f32⟩
  | 25 => ⟨S64x1280, .f32⟩
  | 26 => ⟨S64x256, .f32⟩
  | 27 => ⟨S64x256, .f32⟩
  | 28 => ⟨S64x256, .f32⟩
  | 29 => ⟨S64x256, .f32⟩
  | 30 => ⟨S256x1280, .f32⟩
  | 31 => ⟨S256x1280, .f32⟩
  | 32 => ⟨S1280, .f32⟩
  | 33 => ⟨S1280, .f32⟩
  | 34 => ⟨S64x256, .f32⟩
  | 35 => ⟨S64x256, .f32⟩
  | 36 => ⟨S32x1280, .f32⟩
  | 37 => ⟨S32x256, .f32⟩
  | 38 => ⟨S32x256, .f32⟩
  | 39 => ⟨S32x256, .f32⟩
  | 40 => ⟨S32x256, .f32⟩
  | 41 => ⟨S256x1280, .f32⟩
  | 42 => ⟨S256x1280, .f32⟩
  | 43 => ⟨S1280, .f32⟩
  | 44 => ⟨S1280, .f32⟩
  | 45 => ⟨S32x256, .f32⟩
  | 46 => ⟨S32x256, .f32⟩
  | _ => ⟨S32x4095x256, .f32⟩

abbrev vmemTy (i : Nat) : BufTy := match i / 128 with
  | 0 => vmemTy0_0 i
  | 1 => vmemTy0_1 i
  | _ => ⟨S32x4095x256, .f32⟩

abbrev bufTy : (tb : Table) → Fin (tcTables nBuf tb) → BufTy
  | .hbm, ⟨i, _⟩ => hbmTy i
  | .local _ .vmem, ⟨i, _⟩ => vmemTy i
  | _, _ => ⟨S32x4095x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 175 → Bool
  | ⟨i, _⟩ => dmaSemScopedAt i

abbrev sig : RefSig :=
  ofTc nBuf bufTy 0 175 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v36 : Ref sig .tc := ⟨.hbm, 49, rfl⟩
abbrev main_c_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60_0 : Ref sig .tc := ⟨.hbm, 75, rfl⟩
abbrev main_v60_1 : Ref sig .tc := ⟨.hbm, 76, rfl⟩
abbrev main_v61 : Ref sig .tc := ⟨.hbm, 77, rfl⟩
abbrev main_c_4 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_5 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85_0 : Ref sig .tc := ⟨.hbm, 103, rfl⟩
abbrev main_v85_1 : Ref sig .tc := ⟨.hbm, 104, rfl⟩
abbrev main_v86 : Ref sig .tc := ⟨.hbm, 105, rfl⟩
abbrev main_c_6 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c_7 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110_0 : Ref sig .tc := ⟨.hbm, 131, rfl⟩
abbrev main_v110_1 : Ref sig .tc := ⟨.hbm, 132, rfl⟩
abbrev main_v111 : Ref sig .tc := ⟨.hbm, 133, rfl⟩
abbrev main_c_8 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_c_9 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135_0 : Ref sig .tc := ⟨.hbm, 159, rfl⟩
abbrev main_v135_1 : Ref sig .tc := ⟨.hbm, 160, rfl⟩
abbrev main_v136 : Ref sig .tc := ⟨.hbm, 161, rfl⟩
abbrev main_c_10 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_c_11 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160_0 : Ref sig .tc := ⟨.hbm, 187, rfl⟩
abbrev main_v160_1 : Ref sig .tc := ⟨.hbm, 188, rfl⟩
abbrev main_v161 : Ref sig .tc := ⟨.hbm, 189, rfl⟩
abbrev main_c_12 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_c_13 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185_0 : Ref sig .tc := ⟨.hbm, 215, rfl⟩
abbrev main_v185_1 : Ref sig .tc := ⟨.hbm, 216, rfl⟩
abbrev main_v186 : Ref sig .tc := ⟨.hbm, 217, rfl⟩
abbrev main_c_14 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_c_15 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210_0 : Ref sig .tc := ⟨.hbm, 243, rfl⟩
abbrev main_v210_1 : Ref sig .tc := ⟨.hbm, 244, rfl⟩
abbrev main_v211 : Ref sig .tc := ⟨.hbm, 245, rfl⟩
abbrev main_c_16 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_c_17 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235_0 : Ref sig .tc := ⟨.hbm, 271, rfl⟩
abbrev main_v235_1 : Ref sig .tc := ⟨.hbm, 272, rfl⟩
abbrev main_v236 : Ref sig .tc := ⟨.hbm, 273, rfl⟩
abbrev main_c_18 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_c_19 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260_0 : Ref sig .tc := ⟨.hbm, 299, rfl⟩
abbrev main_v260_1 : Ref sig .tc := ⟨.hbm, 300, rfl⟩
abbrev main_v261 : Ref sig .tc := ⟨.hbm, 301, rfl⟩
abbrev main_c_20 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_c_21 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285_0 : Ref sig .tc := ⟨.hbm, 327, rfl⟩
abbrev main_v285_1 : Ref sig .tc := ⟨.hbm, 328, rfl⟩
abbrev main_v286 : Ref sig .tc := ⟨.hbm, 329, rfl⟩
abbrev main_c_22 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_c_23 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_v293 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc2_stg10_0 : Ref sig .tc := ⟨.vmem, 28, rfl⟩
abbrev cc2_stg10_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg9_1 : Ref sig .tc := ⟨.vmem, 45, rfl⟩
abbrev cc3_stg10_0 : Ref sig .tc := ⟨.vmem, 46, rfl⟩
abbrev cc3_stg10_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg9_1 : Ref sig .tc := ⟨.vmem, 63, rfl⟩
abbrev cc4_stg10_0 : Ref sig .tc := ⟨.vmem, 64, rfl⟩
abbrev cc4_stg10_1 : Ref sig .tc := ⟨.vmem, 65, rfl⟩
abbrev cc5_stg0_0 : Ref sig .tc := ⟨.vmem, 66, rfl⟩
abbrev cc5_stg0_1 : Ref sig .tc := ⟨.vmem, 67, rfl⟩
abbrev cc5_stg1_0 : Ref sig .tc := ⟨.vmem, 68, rfl⟩
abbrev cc5_stg1_1 : Ref sig .tc := ⟨.vmem, 69, rfl⟩
abbrev cc5_stg2_0 : Ref sig .tc := ⟨.vmem, 70, rfl⟩
abbrev cc5_stg2_1 : Ref sig .tc := ⟨.vmem, 71, rfl⟩
abbrev cc5_stg3_0 : Ref sig .tc := ⟨.vmem, 72, rfl⟩
abbrev cc5_stg3_1 : Ref sig .tc := ⟨.vmem, 73, rfl⟩
abbrev cc5_stg4_0 : Ref sig .tc := ⟨.vmem, 74, rfl⟩
abbrev cc5_stg4_1 : Ref sig .tc := ⟨.vmem, 75, rfl⟩
abbrev cc5_stg5_0 : Ref sig .tc := ⟨.vmem, 76, rfl⟩
abbrev cc5_stg6_0 : Ref sig .tc := ⟨.vmem, 77, rfl⟩
abbrev cc5_stg7_0 : Ref sig .tc := ⟨.vmem, 78, rfl⟩
abbrev cc5_stg8_0 : Ref sig .tc := ⟨.vmem, 79, rfl⟩
abbrev cc5_stg9_0 : Ref sig .tc := ⟨.vmem, 80, rfl⟩
abbrev cc5_stg9_1 : Ref sig .tc := ⟨.vmem, 81, rfl⟩
abbrev cc5_stg10_0 : Ref sig .tc := ⟨.vmem, 82, rfl⟩
abbrev cc5_stg10_1 : Ref sig .tc := ⟨.vmem, 83, rfl⟩
abbrev cc6_stg0_0 : Ref sig .tc := ⟨.vmem, 84, rfl⟩
abbrev cc6_stg0_1 : Ref sig .tc := ⟨.vmem, 85, rfl⟩
abbrev cc6_stg1_0 : Ref sig .tc := ⟨.vmem, 86, rfl⟩
abbrev cc6_stg1_1 : Ref sig .tc := ⟨.vmem, 87, rfl⟩
abbrev cc6_stg2_0 : Ref sig .tc := ⟨.vmem, 88, rfl⟩
abbrev cc6_stg2_1 : Ref sig .tc := ⟨.vmem, 89, rfl⟩
abbrev cc6_stg3_0 : Ref sig .tc := ⟨.vmem, 90, rfl⟩
abbrev cc6_stg3_1 : Ref sig .tc := ⟨.vmem, 91, rfl⟩
abbrev cc6_stg4_0 : Ref sig .tc := ⟨.vmem, 92, rfl⟩
abbrev cc6_stg4_1 : Ref sig .tc := ⟨.vmem, 93, rfl⟩
abbrev cc6_stg5_0 : Ref sig .tc := ⟨.vmem, 94, rfl⟩
abbrev cc6_stg6_0 : Ref sig .tc := ⟨.vmem, 95, rfl⟩
abbrev cc6_stg7_0 : Ref sig .tc := ⟨.vmem, 96, rfl⟩
abbrev cc6_stg8_0 : Ref sig .tc := ⟨.vmem, 97, rfl⟩
abbrev cc6_stg9_0 : Ref sig .tc := ⟨.vmem, 98, rfl⟩
abbrev cc6_stg9_1 : Ref sig .tc := ⟨.vmem, 99, rfl⟩
abbrev cc6_stg10_0 : Ref sig .tc := ⟨.vmem, 100, rfl⟩
abbrev cc6_stg10_1 : Ref sig .tc := ⟨.vmem, 101, rfl⟩
abbrev cc7_stg0_0 : Ref sig .tc := ⟨.vmem, 102, rfl⟩
abbrev cc7_stg0_1 : Ref sig .tc := ⟨.vmem, 103, rfl⟩
abbrev cc7_stg1_0 : Ref sig .tc := ⟨.vmem, 104, rfl⟩
abbrev cc7_stg1_1 : Ref sig .tc := ⟨.vmem, 105, rfl⟩
abbrev cc7_stg2_0 : Ref sig .tc := ⟨.vmem, 106, rfl⟩
abbrev cc7_stg2_1 : Ref sig .tc := ⟨.vmem, 107, rfl⟩
abbrev cc7_stg3_0 : Ref sig .tc := ⟨.vmem, 108, rfl⟩
abbrev cc7_stg3_1 : Ref sig .tc := ⟨.vmem, 109, rfl⟩
abbrev cc7_stg4_0 : Ref sig .tc := ⟨.vmem, 110, rfl⟩
abbrev cc7_stg4_1 : Ref sig .tc := ⟨.vmem, 111, rfl⟩
abbrev cc7_stg5_0 : Ref sig .tc := ⟨.vmem, 112, rfl⟩
abbrev cc7_stg6_0 : Ref sig .tc := ⟨.vmem, 113, rfl⟩
abbrev cc7_stg7_0 : Ref sig .tc := ⟨.vmem, 114, rfl⟩
abbrev cc7_stg8_0 : Ref sig .tc := ⟨.vmem, 115, rfl⟩
abbrev cc7_stg9_0 : Ref sig .tc := ⟨.vmem, 116, rfl⟩
abbrev cc7_stg9_1 : Ref sig .tc := ⟨.vmem, 117, rfl⟩
abbrev cc7_stg10_0 : Ref sig .tc := ⟨.vmem, 118, rfl⟩
abbrev cc7_stg10_1 : Ref sig .tc := ⟨.vmem, 119, rfl⟩
abbrev cc8_stg0_0 : Ref sig .tc := ⟨.vmem, 120, rfl⟩
abbrev cc8_stg1_0 : Ref sig .tc := ⟨.vmem, 121, rfl⟩
abbrev cc8_stg2_0 : Ref sig .tc := ⟨.vmem, 122, rfl⟩
abbrev cc8_stg3_0 : Ref sig .tc := ⟨.vmem, 123, rfl⟩
abbrev cc8_stg4_0 : Ref sig .tc := ⟨.vmem, 124, rfl⟩
abbrev cc8_stg5_0 : Ref sig .tc := ⟨.vmem, 125, rfl⟩
abbrev cc8_stg6_0 : Ref sig .tc := ⟨.vmem, 126, rfl⟩
abbrev cc8_stg7_0 : Ref sig .tc := ⟨.vmem, 127, rfl⟩
abbrev cc8_stg8_0 : Ref sig .tc := ⟨.vmem, 128, rfl⟩
abbrev cc8_stg9_0 : Ref sig .tc := ⟨.vmem, 129, rfl⟩
abbrev cc8_stg10_0 : Ref sig .tc := ⟨.vmem, 130, rfl⟩
abbrev cc9_stg0_0 : Ref sig .tc := ⟨.vmem, 131, rfl⟩
abbrev cc9_stg1_0 : Ref sig .tc := ⟨.vmem, 132, rfl⟩
abbrev cc9_stg2_0 : Ref sig .tc := ⟨.vmem, 133, rfl⟩
abbrev cc9_stg3_0 : Ref sig .tc := ⟨.vmem, 134, rfl⟩
abbrev cc9_stg4_0 : Ref sig .tc := ⟨.vmem, 135, rfl⟩
abbrev cc9_stg5_0 : Ref sig .tc := ⟨.vmem, 136, rfl⟩
abbrev cc9_stg6_0 : Ref sig .tc := ⟨.vmem, 137, rfl⟩
abbrev cc9_stg7_0 : Ref sig .tc := ⟨.vmem, 138, rfl⟩
abbrev cc9_stg8_0 : Ref sig .tc := ⟨.vmem, 139, rfl⟩
abbrev cc9_stg9_0 : Ref sig .tc := ⟨.vmem, 140, rfl⟩
abbrev cc9_stg10_0 : Ref sig .tc := ⟨.vmem, 141, rfl⟩
abbrev cc10_stg0_0 : Ref sig .tc := ⟨.vmem, 142, rfl⟩
abbrev cc10_stg1_0 : Ref sig .tc := ⟨.vmem, 143, rfl⟩
abbrev cc10_stg2_0 : Ref sig .tc := ⟨.vmem, 144, rfl⟩
abbrev cc10_stg3_0 : Ref sig .tc := ⟨.vmem, 145, rfl⟩
abbrev cc10_stg4_0 : Ref sig .tc := ⟨.vmem, 146, rfl⟩
abbrev cc10_stg5_0 : Ref sig .tc := ⟨.vmem, 147, rfl⟩
abbrev cc10_stg6_0 : Ref sig .tc := ⟨.vmem, 148, rfl⟩
abbrev cc10_stg7_0 : Ref sig .tc := ⟨.vmem, 149, rfl⟩
abbrev cc10_stg8_0 : Ref sig .tc := ⟨.vmem, 150, rfl⟩
abbrev cc10_stg9_0 : Ref sig .tc := ⟨.vmem, 151, rfl⟩
abbrev cc10_stg10_0 : Ref sig .tc := ⟨.vmem, 152, rfl⟩
abbrev cc11_stg0_0 : Ref sig .tc := ⟨.vmem, 153, rfl⟩
abbrev cc11_stg1_0 : Ref sig .tc := ⟨.vmem, 154, rfl⟩
abbrev cc11_stg2_0 : Ref sig .tc := ⟨.vmem, 155, rfl⟩
abbrev cc11_stg3_0 : Ref sig .tc := ⟨.vmem, 156, rfl⟩
abbrev cc11_stg4_0 : Ref sig .tc := ⟨.vmem, 157, rfl⟩
abbrev cc11_stg5_0 : Ref sig .tc := ⟨.vmem, 158, rfl⟩
abbrev cc11_stg6_0 : Ref sig .tc := ⟨.vmem, 159, rfl⟩
abbrev cc11_stg7_0 : Ref sig .tc := ⟨.vmem, 160, rfl⟩
abbrev cc11_stg8_0 : Ref sig .tc := ⟨.vmem, 161, rfl⟩
abbrev cc11_stg9_0 : Ref sig .tc := ⟨.vmem, 162, rfl⟩
abbrev cc11_stg10_0 : Ref sig .tc := ⟨.vmem, 163, rfl⟩
abbrev cc12_stg0_0 : Ref sig .tc := ⟨.vmem, 164, rfl⟩
abbrev cc12_stg1_0 : Ref sig .tc := ⟨.vmem, 165, rfl⟩
abbrev cc12_stg2_0 : Ref sig .tc := ⟨.vmem, 166, rfl⟩
abbrev cc12_stg3_0 : Ref sig .tc := ⟨.vmem, 167, rfl⟩
abbrev cc12_stg4_0 : Ref sig .tc := ⟨.vmem, 168, rfl⟩
abbrev cc12_stg5_0 : Ref sig .tc := ⟨.vmem, 169, rfl⟩
abbrev cc12_stg6_0 : Ref sig .tc := ⟨.vmem, 170, rfl⟩
abbrev cc12_stg7_0 : Ref sig .tc := ⟨.vmem, 171, rfl⟩
abbrev cc12_stg8_0 : Ref sig .tc := ⟨.vmem, 172, rfl⟩
abbrev cc12_stg9_0 : Ref sig .tc := ⟨.vmem, 173, rfl⟩
abbrev cc12_stg10_0 : Ref sig .tc := ⟨.vmem, 174, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc2_sem10_0 : DmaSem sig := 28
abbrev cc2_sem10_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem4_1 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem9_1 : DmaSem sig := 45
abbrev cc3_sem10_0 : DmaSem sig := 46
abbrev cc3_sem10_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem4_1 : DmaSem sig := 57
abbrev cc4_sem5_0 : DmaSem sig := 58
abbrev cc4_sem6_0 : DmaSem sig := 59
abbrev cc4_sem7_0 : DmaSem sig := 60
abbrev cc4_sem8_0 : DmaSem sig := 61
abbrev cc4_sem9_0 : DmaSem sig := 62
abbrev cc4_sem9_1 : DmaSem sig := 63
abbrev cc4_sem10_0 : DmaSem sig := 64
abbrev cc4_sem10_1 : DmaSem sig := 65
abbrev cc5_sem0_0 : DmaSem sig := 66
abbrev cc5_sem0_1 : DmaSem sig := 67
abbrev cc5_sem1_0 : DmaSem sig := 68
abbrev cc5_sem1_1 : DmaSem sig := 69
abbrev cc5_sem2_0 : DmaSem sig := 70
abbrev cc5_sem2_1 : DmaSem sig := 71
abbrev cc5_sem3_0 : DmaSem sig := 72
abbrev cc5_sem3_1 : DmaSem sig := 73
abbrev cc5_sem4_0 : DmaSem sig := 74
abbrev cc5_sem4_1 : DmaSem sig := 75
abbrev cc5_sem5_0 : DmaSem sig := 76
abbrev cc5_sem6_0 : DmaSem sig := 77
abbrev cc5_sem7_0 : DmaSem sig := 78
abbrev cc5_sem8_0 : DmaSem sig := 79
abbrev cc5_sem9_0 : DmaSem sig := 80
abbrev cc5_sem9_1 : DmaSem sig := 81
abbrev cc5_sem10_0 : DmaSem sig := 82
abbrev cc5_sem10_1 : DmaSem sig := 83
abbrev cc6_sem0_0 : DmaSem sig := 84
abbrev cc6_sem0_1 : DmaSem sig := 85
abbrev cc6_sem1_0 : DmaSem sig := 86
abbrev cc6_sem1_1 : DmaSem sig := 87
abbrev cc6_sem2_0 : DmaSem sig := 88
abbrev cc6_sem2_1 : DmaSem sig := 89
abbrev cc6_sem3_0 : DmaSem sig := 90
abbrev cc6_sem3_1 : DmaSem sig := 91
abbrev cc6_sem4_0 : DmaSem sig := 92
abbrev cc6_sem4_1 : DmaSem sig := 93
abbrev cc6_sem5_0 : DmaSem sig := 94
abbrev cc6_sem6_0 : DmaSem sig := 95
abbrev cc6_sem7_0 : DmaSem sig := 96
abbrev cc6_sem8_0 : DmaSem sig := 97
abbrev cc6_sem9_0 : DmaSem sig := 98
abbrev cc6_sem9_1 : DmaSem sig := 99
abbrev cc6_sem10_0 : DmaSem sig := 100
abbrev cc6_sem10_1 : DmaSem sig := 101
abbrev cc7_sem0_0 : DmaSem sig := 102
abbrev cc7_sem0_1 : DmaSem sig := 103
abbrev cc7_sem1_0 : DmaSem sig := 104
abbrev cc7_sem1_1 : DmaSem sig := 105
abbrev cc7_sem2_0 : DmaSem sig := 106
abbrev cc7_sem2_1 : DmaSem sig := 107
abbrev cc7_sem3_0 : DmaSem sig := 108
abbrev cc7_sem3_1 : DmaSem sig := 109
abbrev cc7_sem4_0 : DmaSem sig := 110
abbrev cc7_sem4_1 : DmaSem sig := 111
abbrev cc7_sem5_0 : DmaSem sig := 112
abbrev cc7_sem6_0 : DmaSem sig := 113
abbrev cc7_sem7_0 : DmaSem sig := 114
abbrev cc7_sem8_0 : DmaSem sig := 115
abbrev cc7_sem9_0 : DmaSem sig := 116
abbrev cc7_sem9_1 : DmaSem sig := 117
abbrev cc7_sem10_0 : DmaSem sig := 118
abbrev cc7_sem10_1 : DmaSem sig := 119
abbrev cc8_sem0_0 : DmaSem sig := 120
abbrev cc8_sem1_0 : DmaSem sig := 121
abbrev cc8_sem2_0 : DmaSem sig := 122
abbrev cc8_sem3_0 : DmaSem sig := 123
abbrev cc8_sem4_0 : DmaSem sig := 124
abbrev cc8_sem5_0 : DmaSem sig := 125
abbrev cc8_sem6_0 : DmaSem sig := 126
abbrev cc8_sem7_0 : DmaSem sig := 127
abbrev cc8_sem8_0 : DmaSem sig := 128
abbrev cc8_sem9_0 : DmaSem sig := 129
abbrev cc8_sem10_0 : DmaSem sig := 130
abbrev cc9_sem0_0 : DmaSem sig := 131
abbrev cc9_sem1_0 : DmaSem sig := 132
abbrev cc9_sem2_0 : DmaSem sig := 133
abbrev cc9_sem3_0 : DmaSem sig := 134
abbrev cc9_sem4_0 : DmaSem sig := 135
abbrev cc9_sem5_0 : DmaSem sig := 136
abbrev cc9_sem6_0 : DmaSem sig := 137
abbrev cc9_sem7_0 : DmaSem sig := 138
abbrev cc9_sem8_0 : DmaSem sig := 139
abbrev cc9_sem9_0 : DmaSem sig := 140
abbrev cc9_sem10_0 : DmaSem sig := 141
abbrev cc10_sem0_0 : DmaSem sig := 142
abbrev cc10_sem1_0 : DmaSem sig := 143
abbrev cc10_sem2_0 : DmaSem sig := 144
abbrev cc10_sem3_0 : DmaSem sig := 145
abbrev cc10_sem4_0 : DmaSem sig := 146
abbrev cc10_sem5_0 : DmaSem sig := 147
abbrev cc10_sem6_0 : DmaSem sig := 148
abbrev cc10_sem7_0 : DmaSem sig := 149
abbrev cc10_sem8_0 : DmaSem sig := 150
abbrev cc10_sem9_0 : DmaSem sig := 151
abbrev cc10_sem10_0 : DmaSem sig := 152
abbrev cc11_sem0_0 : DmaSem sig := 153
abbrev cc11_sem1_0 : DmaSem sig := 154
abbrev cc11_sem2_0 : DmaSem sig := 155
abbrev cc11_sem3_0 : DmaSem sig := 156
abbrev cc11_sem4_0 : DmaSem sig := 157
abbrev cc11_sem5_0 : DmaSem sig := 158
abbrev cc11_sem6_0 : DmaSem sig := 159
abbrev cc11_sem7_0 : DmaSem sig := 160
abbrev cc11_sem8_0 : DmaSem sig := 161
abbrev cc11_sem9_0 : DmaSem sig := 162
abbrev cc11_sem10_0 : DmaSem sig := 163
abbrev cc12_sem0_0 : DmaSem sig := 164
abbrev cc12_sem1_0 : DmaSem sig := 165
abbrev cc12_sem2_0 : DmaSem sig := 166
abbrev cc12_sem3_0 : DmaSem sig := 167
abbrev cc12_sem4_0 : DmaSem sig := 168
abbrev cc12_sem5_0 : DmaSem sig := 169
abbrev cc12_sem6_0 : DmaSem sig := 170
abbrev cc12_sem7_0 : DmaSem sig := 171
abbrev cc12_sem8_0 : DmaSem sig := 172
abbrev cc12_sem9_0 : DmaSem sig := 173
abbrev cc12_sem10_0 : DmaSem sig := 174

abbrev nD : Nat := 1
abbrev τ : Topo := Topo.v7x

variable {F : FTy → Type} [FloatOps F]

abbrev grid0 : Pipeline.Grid := ⟨1, ![105], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1248x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1248x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S256x1280 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x1280 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1280 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1280 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S512x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S512x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x1280 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x1280 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1280 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1280 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1280 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S256x1280 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x1280 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1280 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1280 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S512x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S512x256 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x1280 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S256x1280 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S256x1280 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1280 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1280 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S512x256 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev stage5_10 : Fin 2 → Memref sig .tc .vmem S512x256 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1280 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S512x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S512x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S256x1280 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S256x1280 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1280 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1280 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S512x256 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S512x256 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![2], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x1280 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S512x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S512x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S256x1280 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S256x1280 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1280 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1280 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S512x256 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev stage7_10 : Fin 2 → Memref sig .tc .vmem S512x256 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_8 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_10 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x1280 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S512x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S512x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S512x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S512x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![true]

abbrev stage8_5 : Fin 1 → Memref sig .tc .vmem S256x1280 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S256x1280 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1280 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1280 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S512x256 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![true]

abbrev stage8_10 : Fin 1 → Memref sig .tc .vmem S512x256 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_8 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S256x1280 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x256 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S256x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![true]

abbrev stage9_5 : Fin 1 → Memref sig .tc .vmem S256x1280 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S256x1280 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1280 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1280 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S256x256 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![true]

abbrev stage9_10 : Fin 1 → Memref sig .tc .vmem S256x256 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_8 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_9 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_10 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S128x1280 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S128x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true]

abbrev stage10_2 : Fin 1 → Memref sig .tc .vmem S128x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

abbrev stage10_3 : Fin 1 → Memref sig .tc .vmem S128x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S128x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![true]

abbrev stage10_5 : Fin 1 → Memref sig .tc .vmem S256x1280 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S256x1280 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1280 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1280 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S128x256 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![true]

abbrev stage10_10 : Fin 1 → Memref sig .tc .vmem S128x256 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_8 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_9 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_10 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S64x1280 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S64x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true]

abbrev stage11_2 : Fin 1 → Memref sig .tc .vmem S64x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev stage11_3 : Fin 1 → Memref sig .tc .vmem S64x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev stage11_4 : Fin 1 → Memref sig .tc .vmem S64x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![true]

abbrev stage11_5 : Fin 1 → Memref sig .tc .vmem S256x1280 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S256x1280 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1280 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1280 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S64x256 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![true]

abbrev stage11_10 : Fin 1 → Memref sig .tc .vmem S64x256 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_8 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 1 → Memref sig .tc .vmem S32x1280 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true]

abbrev stage12_1 : Fin 1 → Memref sig .tc .vmem S32x256 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true]

abbrev stage12_2 : Fin 1 → Memref sig .tc .vmem S32x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true]

abbrev stage12_3 : Fin 1 → Memref sig .tc .vmem S32x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![true]

abbrev stage12_4 : Fin 1 → Memref sig .tc .vmem S32x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![true]

abbrev stage12_5 : Fin 1 → Memref sig .tc .vmem S256x1280 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S256x1280 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1280 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1280 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S32x256 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![true]

abbrev stage12_10 : Fin 1 → Memref sig .tc .vmem S32x256 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![true]

class Facts₀ : Prop where
  transposes_S1280x256_S256x1280_1_0 : S1280x256.Transposes [1, 0] S256x1280
  shapeCasts_S32x4095x256_S131040x256 : S32x4095x256.ShapeCasts S131040x256
  inb_S1248x256_S1248x256_0_0 : ∀ a, (![0, 0] : Fin 2 → Nat) a + S1248x256.size a ≤ S1248x256.size a
  h_S1248x256 : 0 < S1248x256.numel
  shapeCasts_S1248x256_S1248x256 : S1248x256.ShapeCasts S1248x256
  bitsLt_bf16_f32 : FTy.bits .bf16 < FTy.bits .f32
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1280_S1280_0 : ∀ a, (![0] : Fin 1 → Nat) a + S1280.size a ≤ S1280.size a
  h_S1280 : 0 < S1280.numel
  shapeCasts_S1280_S1x1280 : S1280.ShapeCasts S1x1280
  broadcasts_S1x1280_S1248x1280 : S1x1280.Broadcasts S1248x1280
  inb_S1248x1280_S1248x1280_0_0 : ∀ a, (![0, 0] : Fin 2 → Nat) a + S1248x1280.size a ≤ S1248x1280.size a
  h_S1248x1280 : 0 < S1248x1280.numel
  shapeCasts_S131040x1280_S32x4095x1280 : S131040x1280.ShapeCasts S32x4095x1280
  bcast_S_S32x4095x256 : S_.BroadcastsInDim S32x4095x256 (![] : Fin 0 → Fin S32x4095x256.rank)
  slices_S32x4095x1280_S32x2048x1280_0_2047_0 : S32x4095x1280.Slices ![0, 2047, 0] S32x2048x1280
  shapeCasts_S32x2048x1280_S65536x1280 : S32x2048x1280.ShapeCasts S65536x1280
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  slices_S1024x1280_o0_0_S1024x256 : S1024x1280.Slices ![0, 0] S1024x256
  slices_S1024x1280_o0_256_S1024x256 : S1024x1280.Slices ![0, 256] S1024x256
  slices_S1024x1280_o0_1024_S1024x256 : S1024x1280.Slices ![0, 1024] S1024x256
  inb_S1024x256_S1024x256_0_0 : ∀ a, (![0, 0] : Fin 2 → Nat) a + S1024x256.size a ≤ S1024x256.size a
  h_S1024x256 : 0 < S1024x256.numel
  shapeCasts_S65536x256_S32x2048x256 : S65536x256.ShapeCasts S32x2048x256
  bcast_S_S1 : S_.BroadcastsInDim S1 (![] : Fin 0 → Fin S1.rank)
  slices_S32x4095x256_S32x2048x256_0_2047_0 : S32x4095x256.Slices ![0, 2047, 0] S32x2048x256
  shapeCasts_S32x2048x256_S32x1024x2x256 : S32x2048x256.ShapeCasts S32x1024x2x256
  slices_S32x1024x2x256_S32x1024x1x256_0_0_0_0 : S32x1024x2x256.Slices ![0, 0, 0, 0] S32x1024x1x256
  shapeCasts_S32x1024x1x256_S32x1024x256 : S32x1024x1x256.ShapeCasts S32x1024x256
  shapeCasts_S32x1024x256_S32768x256 : S32x1024x256.ShapeCasts S32768x256
  slices_S32x1024x2x256_S32x1024x1x256_0_0_1_0 : S32x1024x2x256.Slices ![0, 0, 1, 0] S32x1024x1x256
  slices_S32x4095x1280_S32x1024x1280_0_1023_0 : S32x4095x1280.Slices ![0, 1023, 0] S32x1024x1280
  shapeCasts_S32x1024x1280_S32768x1280 : S32x1024x1280.ShapeCasts S32768x1280
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1280_S512x1280_0_0 : ∀ a, (![0, 0] : Fin 2 → Nat) a + S512x1280.size a ≤ S512x1280.size a
  h_S512x1280 : 0 < S512x1280.numel
  shapeCasts_S512x1280_S512x1280 : S512x1280.ShapeCasts S512x1280
  broadcasts_S1x1280_S512x1280 : S1x1280.Broadcasts S512x1280
  slices_S512x1280_o0_0_S512x256 : S512x1280.Slices ![0, 0] S512x256
  slices_S512x1280_o0_256_S512x256 : S512x1280.Slices ![0, 256] S512x256
  slices_S512x1280_o0_512_S512x256 : S512x1280.Slices ![0, 512] S512x256
  slices_S512x1280_o0_768_S512x256 : S512x1280.Slices ![0, 768] S512x256
  slices_S512x1280_o0_1024_S512x256 : S512x1280.Slices ![0, 1024] S512x256
  shapeCasts_S32768x256_S32x1024x256 : S32768x256.ShapeCasts S32x1024x256
  slices_S32x4095x256_S32x1024x256_0_1023_0 : S32x4095x256.Slices ![0, 1023, 0] S32x1024x256
  shapeCasts_S32x1024x256_S32x512x2x256 : S32x1024x256.ShapeCasts S32x512x2x256
  slices_S32x512x2x256_S32x512x1x256_0_0_0_0 : S32x512x2x256.Slices ![0, 0, 0, 0] S32x512x1x256
  shapeCasts_S32x512x1x256_S32x512x256 : S32x512x1x256.ShapeCasts S32x512x256
  shapeCasts_S32x512x256_S16384x256 : S32x512x256.ShapeCasts S16384x256
  slices_S32x512x2x256_S32x512x1x256_0_0_1_0 : S32x512x2x256.Slices ![0, 0, 1, 0] S32x512x1x256
  slices_S32x4095x1280_S32x512x1280_0_511_0 : S32x4095x1280.Slices ![0, 511, 0] S32x512x1280
  shapeCasts_S32x512x1280_S16384x1280 : S32x512x1280.ShapeCasts S16384x1280
  shapeCasts_S16384x256_S32x512x256 : S16384x256.ShapeCasts S32x512x256
  slices_S32x4095x256_S32x512x256_0_511_0 : S32x4095x256.Slices ![0, 511, 0] S32x512x256
  shapeCasts_S32x512x256_S32x256x2x256 : S32x512x256.ShapeCasts S32x256x2x256
  slices_S32x256x2x256_S32x256x1x256_0_0_0_0 : S32x256x2x256.Slices ![0, 0, 0, 0] S32x256x1x256
  shapeCasts_S32x256x1x256_S32x256x256 : S32x256x1x256.ShapeCasts S32x256x256
  shapeCasts_S32x256x256_S8192x256 : S32x256x256.ShapeCasts S8192x256
  slices_S32x256x2x256_S32x256x1x256_0_0_1_0 : S32x256x2x256.Slices ![0, 0, 1, 0] S32x256x1x256
  slices_S32x4095x1280_S32x256x1280_0_255_0 : S32x4095x1280.Slices ![0, 255, 0] S32x256x1280
  shapeCasts_S32x256x1280_S8192x1280 : S32x256x1280.ShapeCasts S8192x1280
  shapeCasts_S8192x256_S32x256x256 : S8192x256.ShapeCasts S32x256x256
  slices_S32x4095x256_S32x256x256_0_255_0 : S32x4095x256.Slices ![0, 255, 0] S32x256x256
  shapeCasts_S32x256x256_S32x128x2x256 : S32x256x256.ShapeCasts S32x128x2x256
  slices_S32x128x2x256_S32x128x1x256_0_0_0_0 : S32x128x2x256.Slices ![0, 0, 0, 0] S32x128x1x256
  shapeCasts_S32x128x1x256_S32x128x256 : S32x128x1x256.ShapeCasts S32x128x256
  shapeCasts_S32x128x256_S4096x256 : S32x128x256.ShapeCasts S4096x256
  slices_S32x128x2x256_S32x128x1x256_0_0_1_0 : S32x128x2x256.Slices ![0, 0, 1, 0] S32x128x1x256
  slices_S32x4095x1280_S32x128x1280_0_127_0 : S32x4095x1280.Slices ![0, 127, 0] S32x128x1280
  shapeCasts_S32x128x1280_S4096x1280 : S32x128x1280.ShapeCasts S4096x1280
  shapeCasts_S4096x256_S32x128x256 : S4096x256.ShapeCasts S32x128x256
  slices_S32x4095x256_S32x128x256_0_127_0 : S32x4095x256.Slices ![0, 127, 0] S32x128x256
  shapeCasts_S32x128x256_S32x64x2x256 : S32x128x256.ShapeCasts S32x64x2x256
  slices_S32x64x2x256_S32x64x1x256_0_0_0_0 : S32x64x2x256.Slices ![0, 0, 0, 0] S32x64x1x256
  shapeCasts_S32x64x1x256_S32x64x256 : S32x64x1x256.ShapeCasts S32x64x256
  shapeCasts_S32x64x256_S2048x256 : S32x64x256.ShapeCasts S2048x256
  slices_S32x64x2x256_S32x64x1x256_0_0_1_0 : S32x64x2x256.Slices ![0, 0, 1, 0] S32x64x1x256
  slices_S32x4095x1280_S32x64x1280_0_63_0 : S32x4095x1280.Slices ![0, 63, 0] S32x64x1280
  shapeCasts_S32x64x1280_S2048x1280 : S32x64x1280.ShapeCasts S2048x1280
  shapeCasts_S2048x256_S32x64x256 : S2048x256.ShapeCasts S32x64x256
  slices_S32x4095x256_S32x64x256_0_63_0 : S32x4095x256.Slices ![0, 63, 0] S32x64x256
  shapeCasts_S32x64x256_S32x32x2x256 : S32x64x256.ShapeCasts S32x32x2x256
  slices_S32x32x2x256_S32x32x1x256_0_0_0_0 : S32x32x2x256.Slices ![0, 0, 0, 0] S32x32x1x256
  shapeCasts_S32x32x1x256_S32x32x256 : S32x32x1x256.ShapeCasts S32x32x256
  shapeCasts_S32x32x256_S1024x256 : S32x32x256.ShapeCasts S1024x256
  slices_S32x32x2x256_S32x32x1x256_0_0_1_0 : S32x32x2x256.Slices ![0, 0, 1, 0] S32x32x1x256
  slices_S32x4095x1280_S32x32x1280_0_31_0 : S32x4095x1280.Slices ![0, 31, 0] S32x32x1280
  shapeCasts_S32x32x1280_S1024x1280 : S32x32x1280.ShapeCasts S1024x1280
  shapeCasts_S1024x256_S32x32x256 : S1024x256.ShapeCasts S32x32x256
  slices_S32x4095x256_S32x32x256_0_31_0 : S32x4095x256.Slices ![0, 31, 0] S32x32x256
  shapeCasts_S32x32x256_S32x16x2x256 : S32x32x256.ShapeCasts S32x16x2x256
  slices_S32x16x2x256_S32x16x1x256_0_0_0_0 : S32x16x2x256.Slices ![0, 0, 0, 0] S32x16x1x256
  shapeCasts_S32x16x1x256_S32x16x256 : S32x16x1x256.ShapeCasts S32x16x256
  shapeCasts_S32x16x256_S512x256 : S32x16x256.ShapeCasts S512x256
  slices_S32x16x2x256_S32x16x1x256_0_0_1_0 : S32x16x2x256.Slices ![0, 0, 1, 0] S32x16x1x256
  slices_S32x4095x1280_S32x16x1280_0_15_0 : S32x4095x1280.Slices ![0, 15, 0] S32x16x1280
  shapeCasts_S32x16x1280_S512x1280 : S32x16x1280.ShapeCasts S512x1280
  shapeCasts_S512x256_S32x16x256 : S512x256.ShapeCasts S32x16x256
  slices_S32x4095x256_S32x16x256_0_15_0 : S32x4095x256.Slices ![0, 15, 0] S32x16x256
  shapeCasts_S32x16x256_S32x8x2x256 : S32x16x256.ShapeCasts S32x8x2x256
  slices_S32x8x2x256_S32x8x1x256_0_0_0_0 : S32x8x2x256.Slices ![0, 0, 0, 0] S32x8x1x256
  shapeCasts_S32x8x1x256_S32x8x256 : S32x8x1x256.ShapeCasts S32x8x256
  shapeCasts_S32x8x256_S256x256 : S32x8x256.ShapeCasts S256x256
  slices_S32x8x2x256_S32x8x1x256_0_0_1_0 : S32x8x2x256.Slices ![0, 0, 1, 0] S32x8x1x256
  slices_S32x4095x1280_S32x8x1280_0_7_0 : S32x4095x1280.Slices ![0, 7, 0] S32x8x1280
  shapeCasts_S32x8x1280_S256x1280 : S32x8x1280.ShapeCasts S256x1280
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x1280_S256x1280 : S1x1280.Broadcasts S256x1280
  slices_S256x1280_o0_0_S256x256 : S256x1280.Slices ![0, 0] S256x256
  slices_S256x1280_o0_256_S256x256 : S256x1280.Slices ![0, 256] S256x256
  slices_S256x1280_o0_512_S256x256 : S256x1280.Slices ![0, 512] S256x256
  slices_S256x1280_o0_768_S256x256 : S256x1280.Slices ![0, 768] S256x256
  slices_S256x1280_o0_1024_S256x256 : S256x1280.Slices ![0, 1024] S256x256
  shapeCasts_S256x256_S32x8x256 : S256x256.ShapeCasts S32x8x256
  slices_S32x4095x256_S32x8x256_0_7_0 : S32x4095x256.Slices ![0, 7, 0] S32x8x256
  shapeCasts_S32x8x256_S32x4x2x256 : S32x8x256.ShapeCasts S32x4x2x256
  slices_S32x4x2x256_S32x4x1x256_0_0_0_0 : S32x4x2x256.Slices ![0, 0, 0, 0] S32x4x1x256
  shapeCasts_S32x4x1x256_S32x4x256 : S32x4x1x256.ShapeCasts S32x4x256
  shapeCasts_S32x4x256_S128x256 : S32x4x256.ShapeCasts S128x256
  slices_S32x4x2x256_S32x4x1x256_0_0_1_0 : S32x4x2x256.Slices ![0, 0, 1, 0] S32x4x1x256
  slices_S32x4095x1280_S32x4x1280_0_3_0 : S32x4095x1280.Slices ![0, 3, 0] S32x4x1280
  shapeCasts_S32x4x1280_S128x1280 : S32x4x1280.ShapeCasts S128x1280
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x1280_S128x1280_0_0 : ∀ a, (![0, 0] : Fin 2 → Nat) a + S128x1280.size a ≤ S128x1280.size a
  h_S128x1280 : 0 < S128x1280.numel
  shapeCasts_S128x1280_S128x1280 : S128x1280.ShapeCasts S128x1280
  broadcasts_S1x1280_S128x1280 : S1x1280.Broadcasts S128x1280
  slices_S128x1280_o0_0_S128x256 : S128x1280.Slices ![0, 0] S128x256
  slices_S128x1280_o0_256_S128x256 : S128x1280.Slices ![0, 256] S128x256
  slices_S128x1280_o0_512_S128x256 : S128x1280.Slices ![0, 512] S128x256
  slices_S128x1280_o0_768_S128x256 : S128x1280.Slices ![0, 768] S128x256
  slices_S128x1280_o0_1024_S128x256 : S128x1280.Slices ![0, 1024] S128x256
  shapeCasts_S128x256_S32x4x256 : S128x256.ShapeCasts S32x4x256
  slices_S32x4095x256_S32x4x256_0_3_0 : S32x4095x256.Slices ![0, 3, 0] S32x4x256
  shapeCasts_S32x4x256_S32x2x2x256 : S32x4x256.ShapeCasts S32x2x2x256
  slices_S32x2x2x256_S32x2x1x256_0_0_0_0 : S32x2x2x256.Slices ![0, 0, 0, 0] S32x2x1x256
  shapeCasts_S32x2x1x256_S32x2x256 : S32x2x1x256.ShapeCasts S32x2x256
  shapeCasts_S32x2x256_S64x256 : S32x2x256.ShapeCasts S64x256
  slices_S32x2x2x256_S32x2x1x256_0_0_1_0 : S32x2x2x256.Slices ![0, 0, 1, 0] S32x2x1x256
  slices_S32x4095x1280_S32x2x1280_0_1_0 : S32x4095x1280.Slices ![0, 1, 0] S32x2x1280
  shapeCasts_S32x2x1280_S64x1280 : S32x2x1280.ShapeCasts S64x1280
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x1280_S64x1280_0_0 : ∀ a, (![0, 0] : Fin 2 → Nat) a + S64x1280.size a ≤ S64x1280.size a
  h_S64x1280 : 0 < S64x1280.numel
  shapeCasts_S64x1280_S64x1280 : S64x1280.ShapeCasts S64x1280
  broadcasts_S1x1280_S64x1280 : S1x1280.Broadcasts S64x1280
  slices_S64x1280_o0_0_S64x256 : S64x1280.Slices ![0, 0] S64x256
  slices_S64x1280_o0_256_S64x256 : S64x1280.Slices ![0, 256] S64x256
  slices_S64x1280_o0_512_S64x256 : S64x1280.Slices ![0, 512] S64x256
  slices_S64x1280_o0_768_S64x256 : S64x1280.Slices ![0, 768] S64x256
  slices_S64x1280_o0_1024_S64x256 : S64x1280.Slices ![0, 1024] S64x256
  shapeCasts_S64x256_S32x2x256 : S64x256.ShapeCasts S32x2x256
  slices_S32x4095x256_S32x2x256_0_1_0 : S32x4095x256.Slices ![0, 1, 0] S32x2x256
  shapeCasts_S32x2x256_S32x1x2x256 : S32x2x256.ShapeCasts S32x1x2x256
  slices_S32x1x2x256_S32x1x1x256_0_0_0_0 : S32x1x2x256.Slices ![0, 0, 0, 0] S32x1x1x256
  shapeCasts_S32x1x1x256_S32x1x256 : S32x1x1x256.ShapeCasts S32x1x256
  shapeCasts_S32x1x256_S32x256 : S32x1x256.ShapeCasts S32x256
  slices_S32x1x2x256_S32x1x1x256_0_0_1_0 : S32x1x2x256.Slices ![0, 0, 1, 0] S32x1x1x256
  slices_S32x4095x1280_S32x1x1280_0_0_0 : S32x4095x1280.Slices ![0, 0, 0] S32x1x1280
  shapeCasts_S32x1x1280_S32x1280 : S32x1x1280.ShapeCasts S32x1280
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1280_S32x1280_0_0 : ∀ a, (![0, 0] : Fin 2 → Nat) a + S32x1280.size a ≤ S32x1280.size a
  h_S32x1280 : 0 < S32x1280.numel
  shapeCasts_S32x1280_S32x1280 : S32x1280.ShapeCasts S32x1280
  broadcasts_S1x1280_S32x1280 : S1x1280.Broadcasts S32x1280
  slices_S32x1280_o0_0_S32x256 : S32x1280.Slices ![0, 0] S32x256
  slices_S32x1280_o0_256_S32x256 : S32x1280.Slices ![0, 256] S32x256
  slices_S32x1280_o0_512_S32x256 : S32x1280.Slices ![0, 512] S32x256
  slices_S32x1280_o0_768_S32x256 : S32x1280.Slices ![0, 768] S32x256
  slices_S32x1280_o0_1024_S32x256 : S32x1280.Slices ![0, 1024] S32x256
  shapeCasts_S32x256_S32x1x256 : S32x256.ShapeCasts S32x1x256
  slices_S32x4095x256_S32x1x256_0_0_0 : S32x4095x256.Slices ![0, 0, 0] S32x1x256
  dot_S1248x256_S256x1280_S1248x1280_1_0_0_1_n_n_wf : DotDims.WF S1248x256 S256x1280 S1248x1280 [1] [0] [0] [1] [] []
  scatter_S32x4095x256_S1_S32x2048x256_012_n_1_0_wf : ScatterDims.WF S32x4095x256 S1 S32x2048x256 [0, 1, 2] [] [1] 0
  dot_S512x256_S256x1280_S512x1280_1_0_0_1_n_n_wf : DotDims.WF S512x256 S256x1280 S512x1280 [1] [0] [0] [1] [] []
  scatter_S32x4095x256_S1_S32x1024x256_012_n_1_0_wf : ScatterDims.WF S32x4095x256 S1 S32x1024x256 [0, 1, 2] [] [1] 0
  scatter_S32x4095x256_S1_S32x512x256_012_n_1_0_wf : ScatterDims.WF S32x4095x256 S1 S32x512x256 [0, 1, 2] [] [1] 0
  scatter_S32x4095x256_S1_S32x256x256_012_n_1_0_wf : ScatterDims.WF S32x4095x256 S1 S32x256x256 [0, 1, 2] [] [1] 0
  scatter_S32x4095x256_S1_S32x128x256_012_n_1_0_wf : ScatterDims.WF S32x4095x256 S1 S32x128x256 [0, 1, 2] [] [1] 0
  scatter_S32x4095x256_S1_S32x64x256_012_n_1_0_wf : ScatterDims.WF S32x4095x256 S1 S32x64x256 [0, 1, 2] [] [1] 0
  scatter_S32x4095x256_S1_S32x32x256_012_n_1_0_wf : ScatterDims.WF S32x4095x256 S1 S32x32x256 [0, 1, 2] [] [1] 0
  scatter_S32x4095x256_S1_S32x16x256_012_n_1_0_wf : ScatterDims.WF S32x4095x256 S1 S32x16x256 [0, 1, 2] [] [1] 0
  dot_S256x256_S256x1280_S256x1280_1_0_0_1_n_n_wf : DotDims.WF S256x256 S256x1280 S256x1280 [1] [0] [0] [1] [] []
  scatter_S32x4095x256_S1_S32x8x256_012_n_1_0_wf : ScatterDims.WF S32x4095x256 S1 S32x8x256 [0, 1, 2] [] [1] 0
  dot_S128x256_S256x1280_S128x1280_1_0_0_1_n_n_wf : DotDims.WF S128x256 S256x1280 S128x1280 [1] [0] [0] [1] [] []
  scatter_S32x4095x256_S1_S32x4x256_012_n_1_0_wf : ScatterDims.WF S32x4095x256 S1 S32x4x256 [0, 1, 2] [] [1] 0
  dot_S64x256_S256x1280_S64x1280_1_0_0_1_n_n_wf : DotDims.WF S64x256 S256x1280 S64x1280 [1] [0] [0] [1] [] []
  scatter_S32x4095x256_S1_S32x2x256_012_n_1_0_wf : ScatterDims.WF S32x4095x256 S1 S32x2x256 [0, 1, 2] [] [1] 0
  dot_S32x256_S256x1280_S32x1280_1_0_0_1_n_n_wf : DotDims.WF S32x256 S256x1280 S32x1280 [1] [0] [0] [1] [] []
  scatter_S32x4095x256_S1_S32x1x256_012_n_1_0_wf : ScatterDims.WF S32x4095x256 S1 S32x1x256 [0, 1, 2] [] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1248x256.size a ≤ S131040x256.size a
  hwx0_0 : ∀ i : grid0.Coords, EltTy.bits .f32 = 32 ∨ (Rect.block (s := S131040x256) S1248x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1280.size a ≤ S256x1280.size a
  hwx0_1 : ∀ i : grid0.Coords, EltTy.bits .f32 = 32 ∨ (Rect.block (s := S256x1280) S256x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280.size a ≤ S1280.size a
  hwx0_2 : ∀ i : grid0.Coords, EltTy.bits .f32 = 32 ∨ (Rect.block (s := S1280) S1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1248x1280.size a ≤ S131040x1280.size a
  hwx0_3 : ∀ i : grid0.Coords, EltTy.bits .f32 = 32 ∨ (Rect.block (s := S131040x1280) S1248x1280.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1280.size a ≤ S65536x1280.size a
  hwx1_0 : ∀ i : grid1.Coords, EltTy.bits .f32 = 32 ∨ (Rect.block (s := S65536x1280) S1024x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S65536x256.size a
  hwx1_1 : ∀ i : grid1.Coords, EltTy.bits .f32 = 32 ∨ (Rect.block (s := S65536x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S65536x256.size a
  hwx1_2 : ∀ i : grid1.Coords, EltTy.bits .f32 = 32 ∨ (Rect.block (s := S65536x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1280.size a ≤ S32768x1280.size a
  hwx2_0 : ∀ i : grid2.Coords, EltTy.bits .f32 = 32 ∨ (Rect.block (s := S32768x1280) S512x1280.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S32768x256.size a
  hwx2_1 : ∀ i : grid2.Coords, EltTy.bits .f32 = 32 ∨ (Rect.block (s := S32768x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x256.size a ≤ S32768x256.size a
  hwx2_2 : ∀ i : grid2.Coords, EltTy.bits .f32 = 32 ∨ (Rect.block (s := S32768x256) S512x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S32768x256.size a
  hwx2_3 : ∀ i : grid2.Coords, EltTy.bits .f32 = 32 ∨ (Rect.block (s := S32768x256) S512x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S32768x256.size a
  hwx2_4 : ∀ i : grid2.Coords, EltTy.bits .f32 = 32 ∨ (Rect.block (s := S32768x256) S512x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1280.size a ≤ S256x1280.size a
  hwx2_5 : ∀ i : grid2.Coords, EltTy.bits .f32 = 32 ∨ (Rect.block (s := S256x1280) S256x1280.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x1280.size a ≤ S256x1280.size a
  hwx2_6 : ∀ i : grid2.Coords, EltTy.bits .f32 = 32 ∨ (Rect.block (s := S256x1280) S256x1280.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1280.size a ≤ S1280.size a
  hwx2_7 : ∀ i : grid2.Coords, EltTy.bits .f32 = 32 ∨ (Rect.block (s := S1280) S1280.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1280.size a ≤ S1280.size a
  hwx2_8 : ∀ i : grid2.Coords, EltTy.bits .f32 = 32 ∨ (Rect.block (s := S1280) S1280.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S512x256.size a ≤ S32768x256.size a
  hwx2_9 : ∀ i : grid2.Coords, EltTy.bits .f32 = 32 ∨ (Rect.block (s := S32768x256) S512x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S512x256.size a ≤ S32768x256.size a
  hwx2_10 : ∀ i : grid2.Coords, EltTy.bits .f32 = 32 ∨ (Rect.block (s := S32768x256) S512x256.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1280.size a ≤ S16384x1280.size a
  hwx3_0 : ∀ i : grid3.Coords, EltTy.bits .f32 = 32 ∨ (Rect.block (s := S16384x1280) S512x1280.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x256.size a ≤ S16384x256.size a
  hwx3_1 : ∀ i : grid3.Coords, EltTy.bits .f32 = 32 ∨ (Rect.block (s := S16384x256) S512x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x256.size a ≤ S16384x256.size a
  hwx3_2 : ∀ i : grid3.Coords, EltTy.bits .f32 = 32 ∨ (Rect.block (s := S16384x256) S512x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S16384x256.size a
  hwx3_3 : ∀ i : grid3.Coords, EltTy.bits .f32 = 32 ∨ (Rect.block (s := S16384x256) S512x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x256.size a ≤ S16384x256.size a
  hwx3_4 : ∀ i : grid3.Coords, EltTy.bits .f32 = 32 ∨ (Rect.block (s := S16384x256) S512x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x1280.size a ≤ S256x1280.size a
  hwx3_5 : ∀ i : grid3.Coords, EltTy.bits .f32 = 32 ∨ (Rect.block (s := S256x1280) S256x1280.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x1280.size a ≤ S256x1280.size a
  hwx3_6 : ∀ i : grid3.Coords, EltTy.bits .f32 = 32 ∨ (Rect.block (s := S256x1280) S256x1280.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1280.size a ≤ S1280.size a
  hwx3_7 : ∀ i : grid3.Coords, EltTy.bits .f32 = 32 ∨ (Rect.block (s := S1280) S1280.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1280.size a ≤ S1280.size a
  hwx3_8 : ∀ i : grid3.Coords, EltTy.bits .f32 = 32 ∨ (Rect.block (s := S1280) S1280.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x256.size a ≤ S16384x256.size a
  hwx3_9 : ∀ i : grid3.Coords, EltTy.bits .f32 = 32 ∨ (Rect.block (s := S16384x256) S512x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x256.size a ≤ S16384x256.size a
  hwx3_10 : ∀ i : grid3.Coords, EltTy.bits .f32 = 32 ∨ (Rect.block (s := S16384x256) S512x256.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1280.size a ≤ S8192x1280.size a
  hwx4_0 : ∀ i : grid4.Coords, EltTy.bits .f32 = 32 ∨ (Rect.block (s := S8192x1280) S512x1280.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S8192x256.size a
  hwx4_1 : ∀ i : grid4.Coords, EltTy.bits .f32 = 32 ∨ (Rect.block (s := S8192x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S8192x256.size a
  hwx4_2 : ∀ i : grid4.Coords, EltTy.bits .f32 = 32 ∨ (Rect.block (s := S8192x256) S512x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x256.size a ≤ S8192x256.size a
  hwx4_3 : ∀ i : grid4.Coords, EltTy.bits .f32 = 32 ∨ (Rect.block (s := S8192x256) S512x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x256.size a ≤ S8192x256.size a
  hwx4_4 : ∀ i : grid4.Coords, EltTy.bits .f32 = 32 ∨ (Rect.block (s := S8192x256) S512x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x1280.size a ≤ S256x1280.size a
  hwx4_5 : ∀ i : grid4.Coords, EltTy.bits .f32 = 32 ∨ (Rect.block (s := S256x1280) S256x1280.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S256x1280.size a ≤ S256x1280.size a
  hwx4_6 : ∀ i : grid4.Coords, EltTy.bits .f32 = 32 ∨ (Rect.block (s := S256x1280) S256x1280.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1280.size a ≤ S1280.size a
  hwx4_7 : ∀ i : grid4.Coords, EltTy.bits .f32 = 32 ∨ (Rect.block (s := S1280) S1280.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1280.size a ≤ S1280.size a
  hwx4_8 : ∀ i : grid4.Coords, EltTy.bits .f32 = 32 ∨ (Rect.block (s := S1280) S1280.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x256.size a ≤ S8192x256.size a
  hwx4_9 : ∀ i : grid4.Coords, EltTy.bits .f32 = 32 ∨ (Rect.block (s := S8192x256) S512x256.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S512x256.size a ≤ S8192x256.size a
  hwx4_10 : ∀ i : grid4.Coords, EltTy.bits .f32 = 32 ∨ (Rect.block (s := S8192x256) S512x256.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1280.size a ≤ S4096x1280.size a
  hwx5_0 : ∀ i : grid5.Coords, EltTy.bits .f32 = 32 ∨ (Rect.block (s := S4096x1280) S512x1280.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S4096x256.size a
  hwx5_1 : ∀ i : grid5.Coords, EltTy.bits .f32 = 32 ∨ (Rect.block (s := S4096x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x256.size a ≤ S4096x256.size a
  hwx5_2 : ∀ i : grid5.Coords, EltTy.bits .f32 = 32 ∨ (Rect.block (s := S4096x256) S512x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S4096x256.size a
  hwx5_3 : ∀ i : grid5.Coords, EltTy.bits .f32 = 32 ∨ (Rect.block (s := S4096x256) S512x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S4096x256.size a
  hwx5_4 : ∀ i : grid5.Coords, EltTy.bits .f32 = 32 ∨ (Rect.block (s := S4096x256) S512x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x1280.size a ≤ S256x1280.size a
  hwx5_5 : ∀ i : grid5.Coords, EltTy.bits .f32 = 32 ∨ (Rect.block (s := S256x1280) S256x1280.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S256x1280.size a ≤ S256x1280.size a
  hwx5_6 : ∀ i : grid5.Coords, EltTy.bits .f32 = 32 ∨ (Rect.block (s := S256x1280) S256x1280.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1280.size a ≤ S1280.size a
  hwx5_7 : ∀ i : grid5.Coords, EltTy.bits .f32 = 32 ∨ (Rect.block (s := S1280) S1280.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1280.size a ≤ S1280.size a
  hwx5_8 : ∀ i : grid5.Coords, EltTy.bits .f32 = 32 ∨ (Rect.block (s := S1280) S1280.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S512x256.size a ≤ S4096x256.size a
  hwx5_9 : ∀ i : grid5.Coords, EltTy.bits .f32 = 32 ∨ (Rect.block (s := S4096x256) S512x256.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S512x256.size a ≤ S4096x256.size a
  hwx5_10 : ∀ i : grid5.Coords, EltTy.bits .f32 = 32 ∨ (Rect.block (s := S4096x256) S512x256.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x1280.size a ≤ S2048x1280.size a
  hwx6_0 : ∀ i : grid6.Coords, EltTy.bits .f32 = 32 ∨ (Rect.block (s := S2048x1280) S512x1280.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x256.size a ≤ S2048x256.size a
  hwx6_1 : ∀ i : grid6.Coords, EltTy.bits .f32 = 32 ∨ (Rect.block (s := S2048x256) S512x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x256.size a ≤ S2048x256.size a
  hwx6_2 : ∀ i : grid6.Coords, EltTy.bits .f32 = 32 ∨ (Rect.block (s := S2048x256) S512x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x256.size a ≤ S2048x256.size a
  hwx6_3 : ∀ i : grid6.Coords, EltTy.bits .f32 = 32 ∨ (Rect.block (s := S2048x256) S512x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x256.size a ≤ S2048x256.size a
  hwx6_4 : ∀ i : grid6.Coords, EltTy.bits .f32 = 32 ∨ (Rect.block (s := S2048x256) S512x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1280.size a ≤ S256x1280.size a
  hwx6_5 : ∀ i : grid6.Coords, EltTy.bits .f32 = 32 ∨ (Rect.block (s := S256x1280) S256x1280.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S256x1280.size a ≤ S256x1280.size a
  hwx6_6 : ∀ i : grid6.Coords, EltTy.bits .f32 = 32 ∨ (Rect.block (s := S256x1280) S256x1280.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1280.size a ≤ S1280.size a
  hwx6_7 : ∀ i : grid6.Coords, EltTy.bits .f32 = 32 ∨ (Rect.block (s := S1280) S1280.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1280.size a ≤ S1280.size a
  hwx6_8 : ∀ i : grid6.Coords, EltTy.bits .f32 = 32 ∨ (Rect.block (s := S1280) S1280.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S512x256.size a ≤ S2048x256.size a
  hwx6_9 : ∀ i : grid6.Coords, EltTy.bits .f32 = 32 ∨ (Rect.block (s := S2048x256) S512x256.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S512x256.size a ≤ S2048x256.size a
  hwx6_10 : ∀ i : grid6.Coords, EltTy.bits .f32 = 32 ∨ (Rect.block (s := S2048x256) S512x256.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1280.size a ≤ S1024x1280.size a
  hwx7_0 : ∀ i : grid7.Coords, EltTy.bits .f32 = 32 ∨ (Rect.block (s := S1024x1280) S512x1280.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x256.size a ≤ S1024x256.size a
  hwx7_1 : ∀ i : grid7.Coords, EltTy.bits .f32 = 32 ∨ (Rect.block (s := S1024x256) S512x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x256.size a ≤ S1024x256.size a
  hwx7_2 : ∀ i : grid7.Coords, EltTy.bits .f32 = 32 ∨ (Rect.block (s := S1024x256) S512x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x256.size a ≤ S1024x256.size a
  hwx7_3 : ∀ i : grid7.Coords, EltTy.bits .f32 = 32 ∨ (Rect.block (s := S1024x256) S512x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x256.size a ≤ S1024x256.size a
  hwx7_4 : ∀ i : grid7.Coords, EltTy.bits .f32 = 32 ∨ (Rect.block (s := S1024x256) S512x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x1280.size a ≤ S256x1280.size a
  hwx7_5 : ∀ i : grid7.Coords, EltTy.bits .f32 = 32 ∨ (Rect.block (s := S256x1280) S256x1280.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S256x1280.size a ≤ S256x1280.size a
  hwx7_6 : ∀ i : grid7.Coords, EltTy.bits .f32 = 32 ∨ (Rect.block (s := S256x1280) S256x1280.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1280.size a ≤ S1280.size a
  hwx7_7 : ∀ i : grid7.Coords, EltTy.bits .f32 = 32 ∨ (Rect.block (s := S1280) S1280.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1280.size a ≤ S1280.size a
  hwx7_8 : ∀ i : grid7.Coords, EltTy.bits .f32 = 32 ∨ (Rect.block (s := S1280) S1280.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S512x256.size a ≤ S1024x256.size a
  hwx7_9 : ∀ i : grid7.Coords, EltTy.bits .f32 = 32 ∨ (Rect.block (s := S1024x256) S512x256.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S512x256.size a ≤ S1024x256.size a
  hwx7_10 : ∀ i : grid7.Coords, EltTy.bits .f32 = 32 ∨ (Rect.block (s := S1024x256) S512x256.size (cc7_transform_10 i) (hinb7_10 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x1280.size a ≤ S512x1280.size a
  hwx8_0 : ∀ i : grid8.Coords, EltTy.bits .f32 = 32 ∨ (Rect.block (s := S512x1280) S512x1280.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S512x256.size a
  hwx8_1 : ∀ i : grid8.Coords, EltTy.bits .f32 = 32 ∨ (Rect.block (s := S512x256) S512x256.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S512x256.size a ≤ S512x256.size a
  hwx8_2 : ∀ i : grid8.Coords, EltTy.bits .f32 = 32 ∨ (Rect.block (s := S512x256) S512x256.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S512x256.size a ≤ S512x256.size a
  hwx8_3 : ∀ i : grid8.Coords, EltTy.bits .f32 = 32 ∨ (Rect.block (s := S512x256) S512x256.size (cc8_transform_3 i) (hinb8_3 i)).WholeWords (EltTy.packing .f32)
  hstage8_4 : ∀ j, (stage8_4 j).IsWhole
  nbuf8_4 : grid8.bufCount reads8_4 false = 1
  hreads8_4 : ∀ i i' : grid8.Coords, (∀ a, reads8_4 a = true → i a = i' a) → cc8_transform_4 i = cc8_transform_4 i'
  hinb8_4 : ∀ (i : grid8.Coords) a, (cc8_transform_4 i a + 1) * S512x256.size a ≤ S512x256.size a
  hwx8_4 : ∀ i : grid8.Coords, EltTy.bits .f32 = 32 ∨ (Rect.block (s := S512x256) S512x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x1280.size a ≤ S256x1280.size a
  hwx8_5 : ∀ i : grid8.Coords, EltTy.bits .f32 = 32 ∨ (Rect.block (s := S256x1280) S256x1280.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S256x1280.size a ≤ S256x1280.size a
  hwx8_6 : ∀ i : grid8.Coords, EltTy.bits .f32 = 32 ∨ (Rect.block (s := S256x1280) S256x1280.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1280.size a ≤ S1280.size a
  hwx8_7 : ∀ i : grid8.Coords, EltTy.bits .f32 = 32 ∨ (Rect.block (s := S1280) S1280.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1280.size a ≤ S1280.size a
  hwx8_8 : ∀ i : grid8.Coords, EltTy.bits .f32 = 32 ∨ (Rect.block (s := S1280) S1280.size (cc8_transform_8 i) (hinb8_8 i)).WholeWords (EltTy.packing .f32)
  hstage8_9 : ∀ j, (stage8_9 j).IsWhole
  nbuf8_9 : grid8.bufCount reads8_9 false = 1
  hreads8_9 : ∀ i i' : grid8.Coords, (∀ a, reads8_9 a = true → i a = i' a) → cc8_transform_9 i = cc8_transform_9 i'
  hinb8_9 : ∀ (i : grid8.Coords) a, (cc8_transform_9 i a + 1) * S512x256.size a ≤ S512x256.size a
  hwx8_9 : ∀ i : grid8.Coords, EltTy.bits .f32 = 32 ∨ (Rect.block (s := S512x256) S512x256.size (cc8_transform_9 i) (hinb8_9 i)).WholeWords (EltTy.packing .f32)
  hstage8_10 : ∀ j, (stage8_10 j).IsWhole
  nbuf8_10 : grid8.bufCount reads8_10 false = 1
  hreads8_10 : ∀ i i' : grid8.Coords, (∀ a, reads8_10 a = true → i a = i' a) → cc8_transform_10 i = cc8_transform_10 i'
  hinb8_10 : ∀ (i : grid8.Coords) a, (cc8_transform_10 i a + 1) * S512x256.size a ≤ S512x256.size a
  hwx8_10 : ∀ i : grid8.Coords, EltTy.bits .f32 = 32 ∨ (Rect.block (s := S512x256) S512x256.size (cc8_transform_10 i) (hinb8_10 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S256x1280.size a ≤ S256x1280.size a
  hwx9_0 : ∀ i : grid9.Coords, EltTy.bits .f32 = 32 ∨ (Rect.block (s := S256x1280) S256x1280.size (cc9_transform_0 i) (hinb9_0 i)).WholeWords (EltTy.packing .f32)
  hstage9_1 : ∀ j, (stage9_1 j).IsWhole
  nbuf9_1 : grid9.bufCount reads9_1 false = 1
  hreads9_1 : ∀ i i' : grid9.Coords, (∀ a, reads9_1 a = true → i a = i' a) → cc9_transform_1 i = cc9_transform_1 i'
  hinb9_1 : ∀ (i : grid9.Coords) a, (cc9_transform_1 i a + 1) * S256x256.size a ≤ S256x256.size a
  hwx9_1 : ∀ i : grid9.Coords, EltTy.bits .f32 = 32 ∨ (Rect.block (s := S256x256) S256x256.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 false = 1
  hreads9_4 : ∀ i i' : grid9.Coords, (∀ a, reads9_4 a = true → i a = i' a) → cc9_transform_4 i = cc9_transform_4 i'
  hinb9_4 : ∀ (i : grid9.Coords) a, (cc9_transform_4 i a + 1) * S256x256.size a ≤ S256x256.size a
  hwx9_4 : ∀ i : grid9.Coords, EltTy.bits .f32 = 32 ∨ (Rect.block (s := S256x256) S256x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x1280.size a ≤ S256x1280.size a
  hwx9_5 : ∀ i : grid9.Coords, EltTy.bits .f32 = 32 ∨ (Rect.block (s := S256x1280) S256x1280.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S256x1280.size a ≤ S256x1280.size a
  hwx9_6 : ∀ i : grid9.Coords, EltTy.bits .f32 = 32 ∨ (Rect.block (s := S256x1280) S256x1280.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1280.size a ≤ S1280.size a
  hwx9_7 : ∀ i : grid9.Coords, EltTy.bits .f32 = 32 ∨ (Rect.block (s := S1280) S1280.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1280.size a ≤ S1280.size a
  hwx9_8 : ∀ i : grid9.Coords, EltTy.bits .f32 = 32 ∨ (Rect.block (s := S1280) S1280.size (cc9_transform_8 i) (hinb9_8 i)).WholeWords (EltTy.packing .f32)
  hstage9_9 : ∀ j, (stage9_9 j).IsWhole
  nbuf9_9 : grid9.bufCount reads9_9 false = 1
  hreads9_9 : ∀ i i' : grid9.Coords, (∀ a, reads9_9 a = true → i a = i' a) → cc9_transform_9 i = cc9_transform_9 i'
  hinb9_9 : ∀ (i : grid9.Coords) a, (cc9_transform_9 i a + 1) * S256x256.size a ≤ S256x256.size a
  hwx9_9 : ∀ i : grid9.Coords, EltTy.bits .f32 = 32 ∨ (Rect.block (s := S256x256) S256x256.size (cc9_transform_9 i) (hinb9_9 i)).WholeWords (EltTy.packing .f32)
  hstage9_10 : ∀ j, (stage9_10 j).IsWhole
  nbuf9_10 : grid9.bufCount reads9_10 false = 1
  hreads9_10 : ∀ i i' : grid9.Coords, (∀ a, reads9_10 a = true → i a = i' a) → cc9_transform_10 i = cc9_transform_10 i'
  hinb9_10 : ∀ (i : grid9.Coords) a, (cc9_transform_10 i a + 1) * S256x256.size a ≤ S256x256.size a
  hwx9_10 : ∀ i : grid9.Coords, EltTy.bits .f32 = 32 ∨ (Rect.block (s := S256x256) S256x256.size (cc9_transform_10 i) (hinb9_10 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S128x1280.size a ≤ S128x1280.size a
  hwx10_0 : ∀ i : grid10.Coords, EltTy.bits .f32 = 32 ∨ (Rect.block (s := S128x1280) S128x1280.size (cc10_transform_0 i) (hinb10_0 i)).WholeWords (EltTy.packing .f32)
  hstage10_1 : ∀ j, (stage10_1 j).IsWhole
  nbuf10_1 : grid10.bufCount reads10_1 false = 1
  hreads10_1 : ∀ i i' : grid10.Coords, (∀ a, reads10_1 a = true → i a = i' a) → cc10_transform_1 i = cc10_transform_1 i'
  hinb10_1 : ∀ (i : grid10.Coords) a, (cc10_transform_1 i a + 1) * S128x256.size a ≤ S128x256.size a
  hwx10_1 : ∀ i : grid10.Coords, EltTy.bits .f32 = 32 ∨ (Rect.block (s := S128x256) S128x256.size (cc10_transform_1 i) (hinb10_1 i)).WholeWords (EltTy.packing .f32)
  hstage10_2 : ∀ j, (stage10_2 j).IsWhole
  nbuf10_2 : grid10.bufCount reads10_2 false = 1
  hreads10_2 : ∀ i i' : grid10.Coords, (∀ a, reads10_2 a = true → i a = i' a) → cc10_transform_2 i = cc10_transform_2 i'
  hinb10_2 : ∀ (i : grid10.Coords) a, (cc10_transform_2 i a + 1) * S128x256.size a ≤ S128x256.size a
  hwx10_2 : ∀ i : grid10.Coords, EltTy.bits .f32 = 32 ∨ (Rect.block (s := S128x256) S128x256.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S128x256.size a ≤ S128x256.size a
  hwx10_3 : ∀ i : grid10.Coords, EltTy.bits .f32 = 32 ∨ (Rect.block (s := S128x256) S128x256.size (cc10_transform_3 i) (hinb10_3 i)).WholeWords (EltTy.packing .f32)
  hstage10_4 : ∀ j, (stage10_4 j).IsWhole
  nbuf10_4 : grid10.bufCount reads10_4 false = 1
  hreads10_4 : ∀ i i' : grid10.Coords, (∀ a, reads10_4 a = true → i a = i' a) → cc10_transform_4 i = cc10_transform_4 i'
  hinb10_4 : ∀ (i : grid10.Coords) a, (cc10_transform_4 i a + 1) * S128x256.size a ≤ S128x256.size a
  hwx10_4 : ∀ i : grid10.Coords, EltTy.bits .f32 = 32 ∨ (Rect.block (s := S128x256) S128x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x1280.size a ≤ S256x1280.size a
  hwx10_5 : ∀ i : grid10.Coords, EltTy.bits .f32 = 32 ∨ (Rect.block (s := S256x1280) S256x1280.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S256x1280.size a ≤ S256x1280.size a
  hwx10_6 : ∀ i : grid10.Coords, EltTy.bits .f32 = 32 ∨ (Rect.block (s := S256x1280) S256x1280.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1280.size a ≤ S1280.size a
  hwx10_7 : ∀ i : grid10.Coords, EltTy.bits .f32 = 32 ∨ (Rect.block (s := S1280) S1280.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1280.size a ≤ S1280.size a
  hwx10_8 : ∀ i : grid10.Coords, EltTy.bits .f32 = 32 ∨ (Rect.block (s := S1280) S1280.size (cc10_transform_8 i) (hinb10_8 i)).WholeWords (EltTy.packing .f32)
  hstage10_9 : ∀ j, (stage10_9 j).IsWhole
  nbuf10_9 : grid10.bufCount reads10_9 false = 1
  hreads10_9 : ∀ i i' : grid10.Coords, (∀ a, reads10_9 a = true → i a = i' a) → cc10_transform_9 i = cc10_transform_9 i'
  hinb10_9 : ∀ (i : grid10.Coords) a, (cc10_transform_9 i a + 1) * S128x256.size a ≤ S128x256.size a
  hwx10_9 : ∀ i : grid10.Coords, EltTy.bits .f32 = 32 ∨ (Rect.block (s := S128x256) S128x256.size (cc10_transform_9 i) (hinb10_9 i)).WholeWords (EltTy.packing .f32)
  hstage10_10 : ∀ j, (stage10_10 j).IsWhole
  nbuf10_10 : grid10.bufCount reads10_10 false = 1
  hreads10_10 : ∀ i i' : grid10.Coords, (∀ a, reads10_10 a = true → i a = i' a) → cc10_transform_10 i = cc10_transform_10 i'
  hinb10_10 : ∀ (i : grid10.Coords) a, (cc10_transform_10 i a + 1) * S128x256.size a ≤ S128x256.size a
  hwx10_10 : ∀ i : grid10.Coords, EltTy.bits .f32 = 32 ∨ (Rect.block (s := S128x256) S128x256.size (cc10_transform_10 i) (hinb10_10 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S64x1280.size a ≤ S64x1280.size a
  hwx11_0 : ∀ i : grid11.Coords, EltTy.bits .f32 = 32 ∨ (Rect.block (s := S64x1280) S64x1280.size (cc11_transform_0 i) (hinb11_0 i)).WholeWords (EltTy.packing .f32)
  hstage11_1 : ∀ j, (stage11_1 j).IsWhole
  nbuf11_1 : grid11.bufCount reads11_1 false = 1
  hreads11_1 : ∀ i i' : grid11.Coords, (∀ a, reads11_1 a = true → i a = i' a) → cc11_transform_1 i = cc11_transform_1 i'
  hinb11_1 : ∀ (i : grid11.Coords) a, (cc11_transform_1 i a + 1) * S64x256.size a ≤ S64x256.size a
  hwx11_1 : ∀ i : grid11.Coords, EltTy.bits .f32 = 32 ∨ (Rect.block (s := S64x256) S64x256.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S64x256.size a ≤ S64x256.size a
  hwx11_2 : ∀ i : grid11.Coords, EltTy.bits .f32 = 32 ∨ (Rect.block (s := S64x256) S64x256.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S64x256.size a ≤ S64x256.size a
  hwx11_3 : ∀ i : grid11.Coords, EltTy.bits .f32 = 32 ∨ (Rect.block (s := S64x256) S64x256.size (cc11_transform_3 i) (hinb11_3 i)).WholeWords (EltTy.packing .f32)
  hstage11_4 : ∀ j, (stage11_4 j).IsWhole
  nbuf11_4 : grid11.bufCount reads11_4 false = 1
  hreads11_4 : ∀ i i' : grid11.Coords, (∀ a, reads11_4 a = true → i a = i' a) → cc11_transform_4 i = cc11_transform_4 i'
  hinb11_4 : ∀ (i : grid11.Coords) a, (cc11_transform_4 i a + 1) * S64x256.size a ≤ S64x256.size a
  hwx11_4 : ∀ i : grid11.Coords, EltTy.bits .f32 = 32 ∨ (Rect.block (s := S64x256) S64x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S256x1280.size a ≤ S256x1280.size a
  hwx11_5 : ∀ i : grid11.Coords, EltTy.bits .f32 = 32 ∨ (Rect.block (s := S256x1280) S256x1280.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S256x1280.size a ≤ S256x1280.size a
  hwx11_6 : ∀ i : grid11.Coords, EltTy.bits .f32 = 32 ∨ (Rect.block (s := S256x1280) S256x1280.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1280.size a ≤ S1280.size a
  hwx11_7 : ∀ i : grid11.Coords, EltTy.bits .f32 = 32 ∨ (Rect.block (s := S1280) S1280.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1280.size a ≤ S1280.size a
  hwx11_8 : ∀ i : grid11.Coords, EltTy.bits .f32 = 32 ∨ (Rect.block (s := S1280) S1280.size (cc11_transform_8 i) (hinb11_8 i)).WholeWords (EltTy.packing .f32)
  hstage11_9 : ∀ j, (stage11_9 j).IsWhole
  nbuf11_9 : grid11.bufCount reads11_9 false = 1
  hreads11_9 : ∀ i i' : grid11.Coords, (∀ a, reads11_9 a = true → i a = i' a) → cc11_transform_9 i = cc11_transform_9 i'
  hinb11_9 : ∀ (i : grid11.Coords) a, (cc11_transform_9 i a + 1) * S64x256.size a ≤ S64x256.size a
  hwx11_9 : ∀ i : grid11.Coords, EltTy.bits .f32 = 32 ∨ (Rect.block (s := S64x256) S64x256.size (cc11_transform_9 i) (hinb11_9 i)).WholeWords (EltTy.packing .f32)
  hstage11_10 : ∀ j, (stage11_10 j).IsWhole
  nbuf11_10 : grid11.bufCount reads11_10 false = 1
  hreads11_10 : ∀ i i' : grid11.Coords, (∀ a, reads11_10 a = true → i a = i' a) → cc11_transform_10 i = cc11_transform_10 i'
  hinb11_10 : ∀ (i : grid11.Coords) a, (cc11_transform_10 i a + 1) * S64x256.size a ≤ S64x256.size a
  hwx11_10 : ∀ i : grid11.Coords, EltTy.bits .f32 = 32 ∨ (Rect.block (s := S64x256) S64x256.size (cc11_transform_10 i) (hinb11_10 i)).WholeWords (EltTy.packing .f32)
  hrank12 : 0 < grid12.rank
  hstage12_0 : ∀ j, (stage12_0 j).IsWhole
  nbuf12_0 : grid12.bufCount reads12_0 false = 1
  hreads12_0 : ∀ i i' : grid12.Coords, (∀ a, reads12_0 a = true → i a = i' a) → cc12_transform_0 i = cc12_transform_0 i'
  hinb12_0 : ∀ (i : grid12.Coords) a, (cc12_transform_0 i a + 1) * S32x1280.size a ≤ S32x1280.size a
  hwx12_0 : ∀ i : grid12.Coords, EltTy.bits .f32 = 32 ∨ (Rect.block (s := S32x1280) S32x1280.size (cc12_transform_0 i) (hinb12_0 i)).WholeWords (EltTy.packing .f32)
  hstage12_1 : ∀ j, (stage12_1 j).IsWhole
  nbuf12_1 : grid12.bufCount reads12_1 false = 1
  hreads12_1 : ∀ i i' : grid12.Coords, (∀ a, reads12_1 a = true → i a = i' a) → cc12_transform_1 i = cc12_transform_1 i'
  hinb12_1 : ∀ (i : grid12.Coords) a, (cc12_transform_1 i a + 1) * S32x256.size a ≤ S32x256.size a
  hwx12_1 : ∀ i : grid12.Coords, EltTy.bits .f32 = 32 ∨ (Rect.block (s := S32x256) S32x256.size (cc12_transform_1 i) (hinb12_1 i)).WholeWords (EltTy.packing .f32)
  hstage12_2 : ∀ j, (stage12_2 j).IsWhole
  nbuf12_2 : grid12.bufCount reads12_2 false = 1
  hreads12_2 : ∀ i i' : grid12.Coords, (∀ a, reads12_2 a = true → i a = i' a) → cc12_transform_2 i = cc12_transform_2 i'
  hinb12_2 : ∀ (i : grid12.Coords) a, (cc12_transform_2 i a + 1) * S32x256.size a ≤ S32x256.size a
  hwx12_2 : ∀ i : grid12.Coords, EltTy.bits .f32 = 32 ∨ (Rect.block (s := S32x256) S32x256.size (cc12_transform_2 i) (hinb12_2 i)).WholeWords (EltTy.packing .f32)
  hstage12_3 : ∀ j, (stage12_3 j).IsWhole
  nbuf12_3 : grid12.bufCount reads12_3 false = 1
  hreads12_3 : ∀ i i' : grid12.Coords, (∀ a, reads12_3 a = true → i a = i' a) → cc12_transform_3 i = cc12_transform_3 i'
  hinb12_3 : ∀ (i : grid12.Coords) a, (cc12_transform_3 i a + 1) * S32x256.size a ≤ S32x256.size a
  hwx12_3 : ∀ i : grid12.Coords, EltTy.bits .f32 = 32 ∨ (Rect.block (s := S32x256) S32x256.size (cc12_transform_3 i) (hinb12_3 i)).WholeWords (EltTy.packing .f32)
  hstage12_4 : ∀ j, (stage12_4 j).IsWhole
  nbuf12_4 : grid12.bufCount reads12_4 false = 1
  hreads12_4 : ∀ i i' : grid12.Coords, (∀ a, reads12_4 a = true → i a = i' a) → cc12_transform_4 i = cc12_transform_4 i'
  hinb12_4 : ∀ (i : grid12.Coords) a, (cc12_transform_4 i a + 1) * S32x256.size a ≤ S32x256.size a
  hwx12_4 : ∀ i : grid12.Coords, EltTy.bits .f32 = 32 ∨ (Rect.block (s := S32x256) S32x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S256x1280.size a ≤ S256x1280.size a
  hwx12_5 : ∀ i : grid12.Coords, EltTy.bits .f32 = 32 ∨ (Rect.block (s := S256x1280) S256x1280.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S256x1280.size a ≤ S256x1280.size a
  hwx12_6 : ∀ i : grid12.Coords, EltTy.bits .f32 = 32 ∨ (Rect.block (s := S256x1280) S256x1280.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S1280.size a ≤ S1280.size a
  hwx12_7 : ∀ i : grid12.Coords, EltTy.bits .f32 = 32 ∨ (Rect.block (s := S1280) S1280.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1280.size a ≤ S1280.size a
  hwx12_8 : ∀ i : grid12.Coords, EltTy.bits .f32 = 32 ∨ (Rect.block (s := S1280) S1280.size (cc12_transform_8 i) (hinb12_8 i)).WholeWords (EltTy.packing .f32)
  hstage12_9 : ∀ j, (stage12_9 j).IsWhole
  nbuf12_9 : grid12.bufCount reads12_9 false = 1
  hreads12_9 : ∀ i i' : grid12.Coords, (∀ a, reads12_9 a = true → i a = i' a) → cc12_transform_9 i = cc12_transform_9 i'
  hinb12_9 : ∀ (i : grid12.Coords) a, (cc12_transform_9 i a + 1) * S32x256.size a ≤ S32x256.size a
  hwx12_9 : ∀ i : grid12.Coords, EltTy.bits .f32 = 32 ∨ (Rect.block (s := S32x256) S32x256.size (cc12_transform_9 i) (hinb12_9 i)).WholeWords (EltTy.packing .f32)
  hstage12_10 : ∀ j, (stage12_10 j).IsWhole
  nbuf12_10 : grid12.bufCount reads12_10 false = 1
  hreads12_10 : ∀ i i' : grid12.Coords, (∀ a, reads12_10 a = true → i a = i' a) → cc12_transform_10 i = cc12_transform_10 i'
  hinb12_10 : ∀ (i : grid12.Coords) a, (cc12_transform_10 i a + 1) * S32x256.size a ≤ S32x256.size a
  hwx12_10 : ∀ i : grid12.Coords, EltTy.bits .f32 = 32 ∨ (Rect.block (s := S32x256) S32x256.size (cc12_transform_10 i) (hinb12_10 i)).WholeWords (EltTy.packing .f32)

variable [Facts₀]

def dot_S1248x256_S256x1280_S1248x1280_1_0_0_1_n_n : DotDims S1248x256 S256x1280 S1248x1280 where
  lhsContracting := [1]
  rhsContracting := [0]
  lhsNonContracting := [0]
  rhsNonContracting := [1]
  lhsBatch := []
  rhsBatch := []
  wf := dot_S1248x256_S256x1280_S1248x1280_1_0_0_1_n_n_wf
def scatter_S32x4095x256_S1_S32x2048x256_012_n_1_0 : ScatterDims S32x4095x256 S1 S32x2048x256 where
  updateWindowDims := [0, 1, 2]
  insertedWindowDims := []
  scatterDimsToOperandDims := [1]
  indexVectorDim := 0
  wf := scatter_S32x4095x256_S1_S32x2048x256_012_n_1_0_wf
def dot_S512x256_S256x1280_S512x1280_1_0_0_1_n_n : DotDims S512x256 S256x1280 S512x1280 where
  lhsContracting := [1]
  rhsContracting := [0]
  lhsNonContracting := [0]
  rhsNonContracting := [1]
  lhsBatch := []
  rhsBatch := []
  wf := dot_S512x256_S256x1280_S512x1280_1_0_0_1_n_n_wf
def scatter_S32x4095x256_S1_S32x1024x256_012_n_1_0 : ScatterDims S32x4095x256 S1 S32x1024x256 where
  updateWindowDims := [0, 1, 2]
  insertedWindowDims := []
  scatterDimsToOperandDims := [1]
  indexVectorDim := 0
  wf := scatter_S32x4095x256_S1_S32x1024x256_012_n_1_0_wf
def scatter_S32x4095x256_S1_S32x512x256_012_n_1_0 : ScatterDims S32x4095x256 S1 S32x512x256 where
  updateWindowDims := [0, 1, 2]
  insertedWindowDims := []
  scatterDimsToOperandDims := [1]
  indexVectorDim := 0
  wf := scatter_S32x4095x256_S1_S32x512x256_012_n_1_0_wf
def scatter_S32x4095x256_S1_S32x256x256_012_n_1_0 : ScatterDims S32x4095x256 S1 S32x256x256 where
  updateWindowDims := [0, 1, 2]
  insertedWindowDims := []
  scatterDimsToOperandDims := [1]
  indexVectorDim := 0
  wf := scatter_S32x4095x256_S1_S32x256x256_012_n_1_0_wf
def scatter_S32x4095x256_S1_S32x128x256_012_n_1_0 : ScatterDims S32x4095x256 S1 S32x128x256 where
  updateWindowDims := [0, 1, 2]
  insertedWindowDims := []
  scatterDimsToOperandDims := [1]
  indexVectorDim := 0
  wf := scatter_S32x4095x256_S1_S32x128x256_012_n_1_0_wf
def scatter_S32x4095x256_S1_S32x64x256_012_n_1_0 : ScatterDims S32x4095x256 S1 S32x64x256 where
  updateWindowDims := [0, 1, 2]
  insertedWindowDims := []
  scatterDimsToOperandDims := [1]
  indexVectorDim := 0
  wf := scatter_S32x4095x256_S1_S32x64x256_012_n_1_0_wf
def scatter_S32x4095x256_S1_S32x32x256_012_n_1_0 : ScatterDims S32x4095x256 S1 S32x32x256 where
  updateWindowDims := [0, 1, 2]
  insertedWindowDims := []
  scatterDimsToOperandDims := [1]
  indexVectorDim := 0
  wf := scatter_S32x4095x256_S1_S32x32x256_012_n_1_0_wf
def scatter_S32x4095x256_S1_S32x16x256_012_n_1_0 : ScatterDims S32x4095x256 S1 S32x16x256 where
  updateWindowDims := [0, 1, 2]
  insertedWindowDims := []
  scatterDimsToOperandDims := [1]
  indexVectorDim := 0
  wf := scatter_S32x4095x256_S1_S32x16x256_012_n_1_0_wf
def dot_S256x256_S256x1280_S256x1280_1_0_0_1_n_n : DotDims S256x256 S256x1280 S256x1280 where
  lhsContracting := [1]
  rhsContracting := [0]
  lhsNonContracting := [0]
  rhsNonContracting := [1]
  lhsBatch := []
  rhsBatch := []
  wf := dot_S256x256_S256x1280_S256x1280_1_0_0_1_n_n_wf
def scatter_S32x4095x256_S1_S32x8x256_012_n_1_0 : ScatterDims S32x4095x256 S1 S32x8x256 where
  updateWindowDims := [0, 1, 2]
  insertedWindowDims := []
  scatterDimsToOperandDims := [1]
  indexVectorDim := 0
  wf := scatter_S32x4095x256_S1_S32x8x256_012_n_1_0_wf
def dot_S128x256_S256x1280_S128x1280_1_0_0_1_n_n : DotDims S128x256 S256x1280 S128x1280 where
  lhsContracting := [1]
  rhsContracting := [0]
  lhsNonContracting := [0]
  rhsNonContracting := [1]
  lhsBatch := []
  rhsBatch := []
  wf := dot_S128x256_S256x1280_S128x1280_1_0_0_1_n_n_wf
def scatter_S32x4095x256_S1_S32x4x256_012_n_1_0 : ScatterDims S32x4095x256 S1 S32x4x256 where
  updateWindowDims := [0, 1, 2]
  insertedWindowDims := []
  scatterDimsToOperandDims := [1]
  indexVectorDim := 0
  wf := scatter_S32x4095x256_S1_S32x4x256_012_n_1_0_wf
def dot_S64x256_S256x1280_S64x1280_1_0_0_1_n_n : DotDims S64x256 S256x1280 S64x1280 where
  lhsContracting := [1]
  rhsContracting := [0]
  lhsNonContracting := [0]
  rhsNonContracting := [1]
  lhsBatch := []
  rhsBatch := []
  wf := dot_S64x256_S256x1280_S64x1280_1_0_0_1_n_n_wf
def scatter_S32x4095x256_S1_S32x2x256_012_n_1_0 : ScatterDims S32x4095x256 S1 S32x2x256 where
  updateWindowDims := [0, 1, 2]
  insertedWindowDims := []
  scatterDimsToOperandDims := [1]
  indexVectorDim := 0
  wf := scatter_S32x4095x256_S1_S32x2x256_012_n_1_0_wf
def dot_S32x256_S256x1280_S32x1280_1_0_0_1_n_n : DotDims S32x256 S256x1280 S32x1280 where
  lhsContracting := [1]
  rhsContracting := [0]
  lhsNonContracting := [0]
  rhsNonContracting := [1]
  lhsBatch := []
  rhsBatch := []
  wf := dot_S32x256_S256x1280_S32x1280_1_0_0_1_n_n_wf
def scatter_S32x4095x256_S1_S32x1x256_012_n_1_0 : ScatterDims S32x4095x256 S1 S32x1x256 where
  updateWindowDims := [0, 1, 2]
  insertedWindowDims := []
  scatterDimsToOperandDims := [1]
  indexVectorDim := 0
  wf := scatter_S32x4095x256_S1_S32x1x256_012_n_1_0_wf

abbrev win0_0 : Pipeline.Window sig grid0 :=
  Pipeline.Window.ofSpec (Memref.whole main_v3) S1248x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1280.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1280.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1248x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1024x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_0) S1024x256.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10_1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S512x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S512x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v32) S512x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v1) S256x1280.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v2) S256x1280.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg5) S1280.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg6) S1280.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v35_0) S512x256.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v35_1) S512x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v59) S512x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S512x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S512x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S512x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v57) S512x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v1) S256x1280.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v2) S256x1280.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg5) S1280.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg6) S1280.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v60_0) S512x256.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v60_1) S512x256.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v84) S512x1280.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S512x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79) S512x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v82) S512x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v1) S256x1280.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v2) S256x1280.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg5) S1280.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg6) S1280.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v85_0) S512x256.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v85_1) S512x256.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v109) S512x1280.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v101) S512x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104) S512x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v107) S512x256.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v1) S256x1280.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v2) S256x1280.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg5) S1280.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_arg6) S1280.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v110_0) S512x256.size cc5_transform_9 reads5_9 true false 2 stage5_9 sem5_9
    hrank5 hreads5_9 hinb5_9 nbuf5_9 (Memref.isWhole_whole _) hwx5_9 hstage5_9

abbrev win5_10 : Pipeline.Window sig grid5 :=
  Pipeline.Window.ofSpec (Memref.whole main_v110_1) S512x256.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v134) S512x1280.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v123) S512x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v126) S512x256.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v129) S512x256.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v132) S512x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v1) S256x1280.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v2) S256x1280.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg5) S1280.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg6) S1280.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v135_0) S512x256.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v135_1) S512x256.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v159) S512x1280.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v148) S512x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v151) S512x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v154) S512x256.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v157) S512x256.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v1) S256x1280.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v2) S256x1280.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg5) S1280.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_arg6) S1280.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v160_0) S512x256.size cc7_transform_9 reads7_9 true false 2 stage7_9 sem7_9
    hrank7 hreads7_9 hinb7_9 nbuf7_9 (Memref.isWhole_whole _) hwx7_9 hstage7_9

abbrev win7_10 : Pipeline.Window sig grid7 :=
  Pipeline.Window.ofSpec (Memref.whole main_v160_1) S512x256.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpec (Memref.whole main_v184) S512x1280.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v173) S512x256.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v176) S512x256.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v179) S512x256.size cc8_transform_3 reads8_3 false false 1 stage8_3 sem8_3
    hrank8 hreads8_3 hinb8_3 nbuf8_3 (Memref.isWhole_whole _) hwx8_3 hstage8_3

abbrev win8_4 : Pipeline.Window sig grid8 :=
  Pipeline.Window.ofSpec (Memref.whole main_v182) S512x256.size cc8_transform_4 reads8_4 false false 1 stage8_4 sem8_4
    hrank8 hreads8_4 hinb8_4 nbuf8_4 (Memref.isWhole_whole _) hwx8_4 hstage8_4

abbrev win8_5 : Pipeline.Window sig grid8 :=
  Pipeline.Window.ofSpec (Memref.whole main_v1) S256x1280.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v2) S256x1280.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg5) S1280.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg6) S1280.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v185_0) S512x256.size cc8_transform_9 reads8_9 true false 1 stage8_9 sem8_9
    hrank8 hreads8_9 hinb8_9 nbuf8_9 (Memref.isWhole_whole _) hwx8_9 hstage8_9

abbrev win8_10 : Pipeline.Window sig grid8 :=
  Pipeline.Window.ofSpec (Memref.whole main_v185_1) S512x256.size cc8_transform_10 reads8_10 true false 1 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.ofSpec (Memref.whole main_v209) S256x1280.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v198) S256x256.size cc9_transform_1 reads9_1 false false 1 stage9_1 sem9_1
    hrank9 hreads9_1 hinb9_1 nbuf9_1 (Memref.isWhole_whole _) hwx9_1 hstage9_1

abbrev win9_2 : Pipeline.Window sig grid9 :=
  Pipeline.Window.ofSpec (Memref.whole main_v201) S256x256.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v204) S256x256.size cc9_transform_3 reads9_3 false false 1 stage9_3 sem9_3
    hrank9 hreads9_3 hinb9_3 nbuf9_3 (Memref.isWhole_whole _) hwx9_3 hstage9_3

abbrev win9_4 : Pipeline.Window sig grid9 :=
  Pipeline.Window.ofSpec (Memref.whole main_v207) S256x256.size cc9_transform_4 reads9_4 false false 1 stage9_4 sem9_4
    hrank9 hreads9_4 hinb9_4 nbuf9_4 (Memref.isWhole_whole _) hwx9_4 hstage9_4

abbrev win9_5 : Pipeline.Window sig grid9 :=
  Pipeline.Window.ofSpec (Memref.whole main_v1) S256x1280.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v2) S256x1280.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg5) S1280.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_arg6) S1280.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v210_0) S256x256.size cc9_transform_9 reads9_9 true false 1 stage9_9 sem9_9
    hrank9 hreads9_9 hinb9_9 nbuf9_9 (Memref.isWhole_whole _) hwx9_9 hstage9_9

abbrev win9_10 : Pipeline.Window sig grid9 :=
  Pipeline.Window.ofSpec (Memref.whole main_v210_1) S256x256.size cc9_transform_10 reads9_10 true false 1 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

abbrev win10_0 : Pipeline.Window sig grid10 :=
  Pipeline.Window.ofSpec (Memref.whole main_v234) S128x1280.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v223) S128x256.size cc10_transform_1 reads10_1 false false 1 stage10_1 sem10_1
    hrank10 hreads10_1 hinb10_1 nbuf10_1 (Memref.isWhole_whole _) hwx10_1 hstage10_1

abbrev win10_2 : Pipeline.Window sig grid10 :=
  Pipeline.Window.ofSpec (Memref.whole main_v226) S128x256.size cc10_transform_2 reads10_2 false false 1 stage10_2 sem10_2
    hrank10 hreads10_2 hinb10_2 nbuf10_2 (Memref.isWhole_whole _) hwx10_2 hstage10_2

abbrev win10_3 : Pipeline.Window sig grid10 :=
  Pipeline.Window.ofSpec (Memref.whole main_v229) S128x256.size cc10_transform_3 reads10_3 false false 1 stage10_3 sem10_3
    hrank10 hreads10_3 hinb10_3 nbuf10_3 (Memref.isWhole_whole _) hwx10_3 hstage10_3

abbrev win10_4 : Pipeline.Window sig grid10 :=
  Pipeline.Window.ofSpec (Memref.whole main_v232) S128x256.size cc10_transform_4 reads10_4 false false 1 stage10_4 sem10_4
    hrank10 hreads10_4 hinb10_4 nbuf10_4 (Memref.isWhole_whole _) hwx10_4 hstage10_4

abbrev win10_5 : Pipeline.Window sig grid10 :=
  Pipeline.Window.ofSpec (Memref.whole main_v1) S256x1280.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v2) S256x1280.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg5) S1280.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_arg6) S1280.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v235_0) S128x256.size cc10_transform_9 reads10_9 true false 1 stage10_9 sem10_9
    hrank10 hreads10_9 hinb10_9 nbuf10_9 (Memref.isWhole_whole _) hwx10_9 hstage10_9

abbrev win10_10 : Pipeline.Window sig grid10 :=
  Pipeline.Window.ofSpec (Memref.whole main_v235_1) S128x256.size cc10_transform_10 reads10_10 true false 1 stage10_10 sem10_10
    hrank10 hreads10_10 hinb10_10 nbuf10_10 (Memref.isWhole_whole _) hwx10_10 hstage10_10

abbrev win10 : Fin 11 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | ⟨_ + 11, h⟩ => absurd h (Nat.not_lt.2 (Nat.le_add_left _ _))
abbrev spec10 : Fin 11 → Pipeline.WinSpec sig grid10.rank := fun w => (win10 w).toWinSpec

abbrev win11_0 : Pipeline.Window sig grid11 :=
  Pipeline.Window.ofSpec (Memref.whole main_v259) S64x1280.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v248) S64x256.size cc11_transform_1 reads11_1 false false 1 stage11_1 sem11_1
    hrank11 hreads11_1 hinb11_1 nbuf11_1 (Memref.isWhole_whole _) hwx11_1 hstage11_1

abbrev win11_2 : Pipeline.Window sig grid11 :=
  Pipeline.Window.ofSpec (Memref.whole main_v251) S64x256.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v254) S64x256.size cc11_transform_3 reads11_3 false false 1 stage11_3 sem11_3
    hrank11 hreads11_3 hinb11_3 nbuf11_3 (Memref.isWhole_whole _) hwx11_3 hstage11_3

abbrev win11_4 : Pipeline.Window sig grid11 :=
  Pipeline.Window.ofSpec (Memref.whole main_v257) S64x256.size cc11_transform_4 reads11_4 false false 1 stage11_4 sem11_4
    hrank11 hreads11_4 hinb11_4 nbuf11_4 (Memref.isWhole_whole _) hwx11_4 hstage11_4

abbrev win11_5 : Pipeline.Window sig grid11 :=
  Pipeline.Window.ofSpec (Memref.whole main_v1) S256x1280.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v2) S256x1280.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_arg5) S1280.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_arg6) S1280.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v260_0) S64x256.size cc11_transform_9 reads11_9 true false 1 stage11_9 sem11_9
    hrank11 hreads11_9 hinb11_9 nbuf11_9 (Memref.isWhole_whole _) hwx11_9 hstage11_9

abbrev win11_10 : Pipeline.Window sig grid11 :=
  Pipeline.Window.ofSpec (Memref.whole main_v260_1) S64x256.size cc11_transform_10 reads11_10 true false 1 stage11_10 sem11_10
    hrank11 hreads11_10 hinb11_10 nbuf11_10 (Memref.isWhole_whole _) hwx11_10 hstage11_10

abbrev win11 : Fin 11 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | ⟨_ + 11, h⟩ => absurd h (Nat.not_lt.2 (Nat.le_add_left _ _))
abbrev spec11 : Fin 11 → Pipeline.WinSpec sig grid11.rank := fun w => (win11 w).toWinSpec

abbrev win12_0 : Pipeline.Window sig grid12 :=
  Pipeline.Window.ofSpec (Memref.whole main_v284) S32x1280.size cc12_transform_0 reads12_0 false false 1 stage12_0 sem12_0
    hrank12 hreads12_0 hinb12_0 nbuf12_0 (Memref.isWhole_whole _) hwx12_0 hstage12_0

abbrev win12_1 : Pipeline.Window sig grid12 :=
  Pipeline.Window.ofSpec (Memref.whole main_v273) S32x256.size cc12_transform_1 reads12_1 false false 1 stage12_1 sem12_1
    hrank12 hreads12_1 hinb12_1 nbuf12_1 (Memref.isWhole_whole _) hwx12_1 hstage12_1

abbrev win12_2 : Pipeline.Window sig grid12 :=
  Pipeline.Window.ofSpec (Memref.whole main_v276) S32x256.size cc12_transform_2 reads12_2 false false 1 stage12_2 sem12_2
    hrank12 hreads12_2 hinb12_2 nbuf12_2 (Memref.isWhole_whole _) hwx12_2 hstage12_2

abbrev win12_3 : Pipeline.Window sig grid12 :=
  Pipeline.Window.ofSpec (Memref.whole main_v279) S32x256.size cc12_transform_3 reads12_3 false false 1 stage12_3 sem12_3
    hrank12 hreads12_3 hinb12_3 nbuf12_3 (Memref.isWhole_whole _) hwx12_3 hstage12_3

abbrev win12_4 : Pipeline.Window sig grid12 :=
  Pipeline.Window.ofSpec (Memref.whole main_v282) S32x256.size cc12_transform_4 reads12_4 false false 1 stage12_4 sem12_4
    hrank12 hreads12_4 hinb12_4 nbuf12_4 (Memref.isWhole_whole _) hwx12_4 hstage12_4

abbrev win12_5 : Pipeline.Window sig grid12 :=
  Pipeline.Window.ofSpec (Memref.whole main_v1) S256x1280.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v2) S256x1280.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_arg5) S1280.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_arg6) S1280.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v285_0) S32x256.size cc12_transform_9 reads12_9 true false 1 stage12_9 sem12_9
    hrank12 hreads12_9 hinb12_9 nbuf12_9 (Memref.isWhole_whole _) hwx12_9 hstage12_9

abbrev win12_10 : Pipeline.Window sig grid12 :=
  Pipeline.Window.ofSpec (Memref.whole main_v285_1) S32x256.size cc12_transform_10 reads12_10 true false 1 stage12_10 sem12_10
    hrank12 hreads12_10 hinb12_10 nbuf12_10 (Memref.isWhole_whole _) hwx12_10 hstage12_10

abbrev win12 : Fin 11 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | ⟨_ + 11, h⟩ => absurd h (Nat.not_lt.2 (Nat.le_add_left _ _))
abbrev spec12 : Fin 11 → Pipeline.WinSpec sig grid12.rank := fun w => (win12 w).toWinSpec

class Facts : Prop extends Facts₀ where

variable [Facts]
-- ==== ReferenceIdeal.lean ====
abbrev S32x4095x256 : Shape := ⟨3, ![32, 4095, 256]⟩
abbrev S1280x256 : Shape := ⟨2, ![1280, 256]⟩
abbrev S1280 : Shape := ⟨1, ![1280]⟩
abbrev S1024 : Shape := ⟨1, ![1024]⟩
abbrev S512 : Shape := ⟨1, ![512]⟩
abbrev S256 : Shape := ⟨1, ![256]⟩
abbrev S128 : Shape := ⟨1, ![128]⟩
abbrev S64 : Shape := ⟨1, ![64]⟩
abbrev S32 : Shape := ⟨1, ![32]⟩
abbrev S16 : Shape := ⟨1, ![16]⟩
abbrev S8 : Shape := ⟨1, ![8]⟩
abbrev S4 : Shape := ⟨1, ![4]⟩
abbrev S2 : Shape := ⟨1, ![2]⟩
abbrev S1 : Shape := ⟨1, ![1]⟩
abbrev S32x4095x1280 : Shape := ⟨3, ![32, 4095, 1280]⟩
abbrev S1x1x1280 : Shape := ⟨3, ![1, 1, 1280]⟩
abbrev S_ : Shape := ⟨0, ![]⟩
abbrev S32x2048x1280 : Shape := ⟨3, ![32, 2048, 1280]⟩
abbrev S32x2048x256 : Shape := ⟨3, ![32, 2048, 256]⟩
abbrev S1024x1 : Shape := ⟨2, ![1024, 1]⟩
abbrev S32x1024x256 : Shape := ⟨3, ![32, 1024, 256]⟩
abbrev S32x1024x1280 : Shape := ⟨3, ![32, 1024, 1280]⟩
abbrev S512x1 : Shape := ⟨2, ![512, 1]⟩
abbrev S32x512x256 : Shape := ⟨3, ![32, 512, 256]⟩
abbrev S32x512x1280 : Shape := ⟨3, ![32, 512, 1280]⟩
abbrev S256x1 : Shape := ⟨2, ![256, 1]⟩
abbrev S32x256x256 : Shape := ⟨3, ![32, 256, 256]⟩
abbrev S32x256x1280 : Shape := ⟨3, ![32, 256, 1280]⟩
abbrev S128x1 : Shape := ⟨2, ![128, 1]⟩
abbrev S32x128x256 : Shape := ⟨3, ![32, 128, 256]⟩
abbrev S32x128x1280 : Shape := ⟨3, ![32, 128, 1280]⟩
abbrev S64x1 : Shape := ⟨2, ![64, 1]⟩
abbrev S32x64x256 : Shape := ⟨3, ![32, 64, 256]⟩
abbrev S32x64x1280 : Shape := ⟨3, ![32, 64, 1280]⟩
abbrev S32x1 : Shape := ⟨2, ![32, 1]⟩
abbrev S32x32x256 : Shape := ⟨3, ![32, 32, 256]⟩
abbrev S32x32x1280 : Shape := ⟨3, ![32, 32, 1280]⟩
abbrev S16x1 : Shape := ⟨2, ![16, 1]⟩
abbrev S32x16x256 : Shape := ⟨3, ![32, 16, 256]⟩
abbrev S32x16x1280 : Shape := ⟨3, ![32, 16, 1280]⟩
abbrev S8x1 : Shape := ⟨2, ![8, 1]⟩
abbrev S32x8x256 : Shape := ⟨3, ![32, 8, 256]⟩
abbrev S32x8x1280 : Shape := ⟨3, ![32, 8, 1280]⟩
abbrev S4x1 : Shape := ⟨2, ![4, 1]⟩
abbrev S32x4x256 : Shape := ⟨3, ![32, 4, 256]⟩
abbrev S32x4x1280 : Shape := ⟨3, ![32, 4, 1280]⟩
abbrev S2x1 : Shape := ⟨2, ![2, 1]⟩
abbrev S32x2x256 : Shape := ⟨3, ![32, 2, 256]⟩
abbrev S32x2x1280 : Shape := ⟨3, ![32, 2, 1280]⟩
abbrev S1x1 : Shape := ⟨2, ![1, 1]⟩
abbrev S32x1x256 : Shape := ⟨3, ![32, 1, 256]⟩
abbrev S32x1x1280 : Shape := ⟨3, ![32, 1, 1280]⟩
abbrev S32x256 : Shape := ⟨2, ![32, 256]⟩

abbrev nBuf : Space → Nat
  | .hbm => 1085
  | .vmem => 0
  | .smem => 0
  | _ => 0

abbrev hbmTy0_0 (i : Nat) : BufTy := match i % 128 with
  | 0 => ⟨S32x4095x256, .f32⟩
  | 1 => ⟨S1280x256, .f32⟩
  | 2 => ⟨S1280x256, .f32⟩
  | 3 => ⟨S1280x256, .f32⟩
  | 4 => ⟨S1280, .f32⟩
  | 5 => ⟨S1280, .f32⟩
  | 6 => ⟨S1280, .f32⟩
  | 7 => ⟨S1024, .i32⟩
  | 8 => ⟨S1024, .i1⟩
  | 9 => ⟨S1024, .i32⟩
  | 10 => ⟨S1024, .i1⟩
  | 11 => ⟨S1024, .i1⟩
  | 12 => ⟨S1024, .i1⟩
  | 13 => ⟨S512, .i32⟩
  | 14 => ⟨S512, .i1⟩
  | 15 => ⟨S512, .i32⟩
  | 16 => ⟨S512, .i1⟩
  | 17 => ⟨S512, .i1⟩
  | 18 => ⟨S512, .i1⟩
  | 19 => ⟨S256, .i32⟩
  | 20 => ⟨S256, .i1⟩
  | 21 => ⟨S256, .i32⟩
  | 22 => ⟨S256, .i1⟩
  | 23 => ⟨S256, .i1⟩
  | 24 => ⟨S256, .i1⟩
  | 25 => ⟨S128, .i32⟩
  | 26 => ⟨S128, .i1⟩
  | 27 => ⟨S128, .i32⟩
  | 28 => ⟨S128, .i1⟩
  | 29 => ⟨S128, .i1⟩
  | 30 => ⟨S128, .i1⟩
  | 31 => ⟨S64, .i32⟩
  | 32 => ⟨S64, .i1⟩
  | 33 => ⟨S64, .i32⟩
  | 34 => ⟨S64, .i1⟩
  | 35 => ⟨S64, .i1⟩
  | 36 => ⟨S64, .i1⟩
  | 37 => ⟨S32, .i32⟩
  | 38 => ⟨S32, .i1⟩
  | 39 => ⟨S32, .i32⟩
  | 40 => ⟨S32, .i1⟩
  | 41 => ⟨S32, .i1⟩
  | 42 => ⟨S32, .i1⟩
  | 43 => ⟨S16, .i32⟩
  | 44 => ⟨S16, .i1⟩
  | 45 => ⟨S16, .i32⟩
  | 46 => ⟨S16, .i1⟩
  | 47 => ⟨S16, .i1⟩
  | 48 => ⟨S16, .i1⟩
  | 49 => ⟨S8, .i32⟩
  | 50 => ⟨S8, .i1⟩
  | 51 => ⟨S8, .i32⟩
  | 52 => ⟨S8, .i1⟩
  | 53 => ⟨S8, .i1⟩
  | 54 => ⟨S8, .i1⟩
  | 55 => ⟨S4, .i32⟩
  | 56 => ⟨S4, .i1⟩
  | 57 => ⟨S4, .i32⟩
  | 58 => ⟨S4, .i1⟩
  | 59 => ⟨S4, .i1⟩
  | 60 => ⟨S4, .i1⟩
  | 61 => ⟨S2, .i32⟩
  | 62 => ⟨S2, .i1⟩
  | 63 => ⟨S2, .i32⟩
  | 64 => ⟨S2, .i1⟩
  | 65 => ⟨S2, .i1⟩
  | 66 => ⟨S2, .i1⟩
  | 67 => ⟨S1, .i32⟩
  | 68 => ⟨S1, .i1⟩
  | 69 => ⟨S1, .i32⟩
  | 70 => ⟨S1, .i1⟩
  | 71 => ⟨S1, .i1⟩
  | 72 => ⟨S1, .i1⟩
  | 73 => ⟨S32x4095x1280, .f32⟩
  | 74 => ⟨S1x1x1280, .f32⟩
  | 75 => ⟨S32x4095x1280, .f32⟩
  | 76 => ⟨S32x4095x1280, .f32⟩
  | 77 => ⟨S_, .f32⟩
  | 78 => ⟨S32x4095x256, .f32⟩
  | 79 => ⟨S_, .f32⟩
  | 80 => ⟨S32x4095x256, .f32⟩
  | 81 => ⟨S32x2048x1280, .f32⟩
  | 82 => ⟨S32x2048x256, .f32⟩
  | 83 => ⟨S32x2048x256, .f32⟩
  | 84 => ⟨S32x2048x256, .f32⟩
  | 85 => ⟨S32x2048x256, .f32⟩
  | 86 => ⟨S32x2048x256, .f32⟩
  | 87 => ⟨S32x2048x256, .f32⟩
  | 88 => ⟨S32x2048x256, .f32⟩
  | 89 => ⟨S_, .f32⟩
  | 90 => ⟨S32x2048x256, .f32⟩
  | 91 => ⟨S32x2048x256, .f32⟩
  | 92 => ⟨S_, .f32⟩
  | 93 => ⟨S32x2048x256, .f32⟩
  | 94 => ⟨S32x2048x256, .f32⟩
  | 95 => ⟨S32x2048x256, .f32⟩
  | 96 => ⟨S32x2048x256, .f32⟩
  | 97 => ⟨S_, .f32⟩
  | 98 => ⟨S32x2048x256, .f32⟩
  | 99 => ⟨S32x2048x256, .f32⟩
  | 100 => ⟨S_, .f32⟩
  | 101 => ⟨S32x2048x256, .f32⟩
  | 102 => ⟨S32x2048x256, .f32⟩
  | 103 => ⟨S32x2048x256, .f32⟩
  | 104 => ⟨S32x2048x256, .f32⟩
  | 105 => ⟨S_, .f32⟩
  | 106 => ⟨S32x2048x256, .f32⟩
  | 107 => ⟨S32x2048x256, .f32⟩
  | 108 => ⟨S_, .f32⟩
  | 109 => ⟨S32x2048x256, .f32⟩
  | 110 => ⟨S32x2048x256, .f32⟩
  | 111 => ⟨S32x2048x256, .f32⟩
  | 112 => ⟨S32x2048x256, .f32⟩
  | 113 => ⟨S_, .f32⟩
  | 114 => ⟨S32x2048x256, .f32⟩
  | 115 => ⟨S32x2048x256, .f32⟩
  | 116 => ⟨S_, .f32⟩
  | 117 => ⟨S32x2048x256, .f32⟩
  | 118 => ⟨S32x2048x256, .f32⟩
  | 119 => ⟨S32x2048x256, .f32⟩
  | 120 => ⟨S32x2048x256, .f32⟩
  | 121 => ⟨S_, .f32⟩
  | 122 => ⟨S32x2048x256, .f32⟩
  | 123 => ⟨S32x2048x256, .f32⟩
  | 124 => ⟨S32x2048x256, .f32⟩
  | 125 => ⟨S_, .f32⟩
  | 126 => ⟨S32x2048x256, .f32⟩
  | 127 => ⟨S32x2048x256, .f32⟩
  | _ => ⟨S32x4095x256, .f32⟩

abbrev hbmTy0_1 (i : Nat) : BufTy := match i % 128 with
  | 0 => ⟨S32x2048x256, .f32⟩
  | 1 => ⟨S32x2048x256, .f32⟩
  | 2 => ⟨S32x2048x256, .f32⟩
  | 3 => ⟨S_, .i32⟩
  | 4 => ⟨S1, .i32⟩
  | 5 => ⟨S32x4095x256, .f32⟩
  | 6 => ⟨S_, .i32⟩
  | 7 => ⟨S1, .i32⟩
  | 8 => ⟨S32x4095x256, .f32⟩
  | 9 => ⟨S_, .i32⟩
  | 10 => ⟨S1024, .i32⟩
  | 11 => ⟨S1024, .i32⟩
  | 12 => ⟨S1024, .i32⟩
  | 13 => ⟨S1024x1, .i32⟩
  | 14 => ⟨S32x1024x256, .f32⟩
  | 15 => ⟨S_, .i32⟩
  | 16 => ⟨S1024, .i32⟩
  | 17 => ⟨S1024, .i32⟩
  | 18 => ⟨S1024, .i32⟩
  | 19 => ⟨S1024x1, .i32⟩
  | 20 => ⟨S32x1024x256, .f32⟩
  | 21 => ⟨S_, .i32⟩
  | 22 => ⟨S1024, .i32⟩
  | 23 => ⟨S1024, .i32⟩
  | 24 => ⟨S1024, .i32⟩
  | 25 => ⟨S1024x1, .i32⟩
  | 26 => ⟨S32x1024x256, .f32⟩
  | 27 => ⟨S_, .i32⟩
  | 28 => ⟨S1024, .i32⟩
  | 29 => ⟨S1024, .i32⟩
  | 30 => ⟨S1024, .i32⟩
  | 31 => ⟨S1024x1, .i32⟩
  | 32 => ⟨S32x1024x256, .f32⟩
  | 33 => ⟨S32x1024x1280, .f32⟩
  | 34 => ⟨S32x1024x1280, .f32⟩
  | 35 => ⟨S32x1024x1280, .f32⟩
  | 36 => ⟨S1x1x1280, .f32⟩
  | 37 => ⟨S32x1024x1280, .f32⟩
  | 38 => ⟨S32x1024x1280, .f32⟩
  | 39 => ⟨S32x1024x1280, .f32⟩
  | 40 => ⟨S32x1024x1280, .f32⟩
  | 41 => ⟨S1x1x1280, .f32⟩
  | 42 => ⟨S32x1024x1280, .f32⟩
  | 43 => ⟨S32x1024x1280, .f32⟩
  | 44 => ⟨S32x1024x256, .f32⟩
  | 45 => ⟨S32x1024x256, .f32⟩
  | 46 => ⟨S32x1024x256, .f32⟩
  | 47 => ⟨S32x1024x256, .f32⟩
  | 48 => ⟨S32x1024x256, .f32⟩
  | 49 => ⟨S32x1024x256, .f32⟩
  | 50 => ⟨S32x1024x256, .f32⟩
  | 51 => ⟨S_, .f32⟩
  | 52 => ⟨S32x1024x256, .f32⟩
  | 53 => ⟨S32x1024x256, .f32⟩
  | 54 => ⟨S_, .f32⟩
  | 55 => ⟨S32x1024x256, .f32⟩
  | 56 => ⟨S32x1024x256, .f32⟩
  | 57 => ⟨S32x1024x256, .f32⟩
  | 58 => ⟨S32x1024x256, .f32⟩
  | 59 => ⟨S_, .f32⟩
  | 60 => ⟨S32x1024x256, .f32⟩
  | 61 => ⟨S32x1024x256, .f32⟩
  | 62 => ⟨S_, .f32⟩
  | 63 => ⟨S32x1024x256, .f32⟩
  | 64 => ⟨S32x1024x256, .f32⟩
  | 65 => ⟨S32x1024x256, .f32⟩
  | 66 => ⟨S32x1024x256, .f32⟩
  | 67 => ⟨S_, .f32⟩
  | 68 => ⟨S32x1024x256, .f32⟩
  | 69 => ⟨S32x1024x256, .f32⟩
  | 70 => ⟨S_, .f32⟩
  | 71 => ⟨S32x1024x256, .f32⟩
  | 72 => ⟨S32x1024x256, .f32⟩
  | 73 => ⟨S32x1024x256, .f32⟩
  | 74 => ⟨S32x1024x256, .f32⟩
  | 75 => ⟨S_, .f32⟩
  | 76 => ⟨S32x1024x256, .f32⟩
  | 77 => ⟨S32x1024x256, .f32⟩
  | 78 => ⟨S_, .f32⟩
  | 79 => ⟨S32x1024x256, .f32⟩
  | 80 => ⟨S32x1024x256, .f32⟩
  | 81 => ⟨S32x1024x256, .f32⟩
  | 82 => ⟨S32x1024x256, .f32⟩
  | 83 => ⟨S32x1024x256, .f32⟩
  | 84 => ⟨S32x1024x256, .f32⟩
  | 85 => ⟨S32x1024x256, .f32⟩
  | 86 => ⟨S32x1024x256, .f32⟩
  | 87 => ⟨S32x1024x256, .f32⟩
  | 88 => ⟨S32x1024x256, .f32⟩
  | 89 => ⟨S_, .i32⟩
  | 90 => ⟨S1, .i32⟩
  | 91 => ⟨S32x4095x256, .f32⟩
  | 92 => ⟨S_, .i32⟩
  | 93 => ⟨S1, .i32⟩
  | 94 => ⟨S32x4095x256, .f32⟩
  | 95 => ⟨S_, .i32⟩
  | 96 => ⟨S512, .i32⟩
  | 97 => ⟨S512, .i32⟩
  | 98 => ⟨S512, .i32⟩
  | 99 => ⟨S512x1, .i32⟩
  | 100 => ⟨S32x512x256, .f32⟩
  | 101 => ⟨S_, .i32⟩
  | 102 => ⟨S512, .i32⟩
  | 103 => ⟨S512, .i32⟩
  | 104 => ⟨S512, .i32⟩
  | 105 => ⟨S512x1, .i32⟩
  | 106 => ⟨S32x512x256, .f32⟩
  | 107 => ⟨S_, .i32⟩
  | 108 => ⟨S512, .i32⟩
  | 109 => ⟨S512, .i32⟩
  | 110 => ⟨S512, .i32⟩
  | 111 => ⟨S512x1, .i32⟩
  | 112 => ⟨S32x512x256, .f32⟩
  | 113 => ⟨S_, .i32⟩
  | 114 => ⟨S512, .i32⟩
  | 115 => ⟨S512, .i32⟩
  | 116 => ⟨S512, .i32⟩
  | 117 => ⟨S512x1, .i32⟩
  | 118 => ⟨S32x512x256, .f32⟩
  | 119 => ⟨S32x512x1280, .f32⟩
  | 120 => ⟨S32x512x1280, .f32⟩
  | 121 => ⟨S32x512x1280, .f32⟩
  | 122 => ⟨S1x1x1280, .f32⟩
  | 123 => ⟨S32x512x1280, .f32⟩
  | 124 => ⟨S32x512x1280, .f32⟩
  | 125 => ⟨S32x512x1280, .f32⟩
  | 126 => ⟨S32x512x1280, .f32⟩
  | 127 => ⟨S1x1x1280, .f32⟩
  | _ => ⟨S32x4095x256, .f32⟩

abbrev hbmTy0_2 (i : Nat) : BufTy := match i % 128 with
  | 0 => ⟨S32x512x1280, .f32⟩
  | 1 => ⟨S32x512x1280, .f32⟩
  | 2 => ⟨S32x512x256, .f32⟩
  | 3 => ⟨S32x512x256, .f32⟩
  | 4 => ⟨S32x512x256, .f32⟩
  | 5 => ⟨S32x512x256, .f32⟩
  | 6 => ⟨S32x512x256, .f32⟩
  | 7 => ⟨S32x512x256, .f32⟩
  | 8 => ⟨S32x512x256, .f32⟩
  | 9 => ⟨S_, .f32⟩
  | 10 => ⟨S32x512x256, .f32⟩
  | 11 => ⟨S32x512x256, .f32⟩
  | 12 => ⟨S_, .f32⟩
  | 13 => ⟨S32x512x256, .f32⟩
  | 14 => ⟨S32x512x256, .f32⟩
  | 15 => ⟨S32x512x256, .f32⟩
  | 16 => ⟨S32x512x256, .f32⟩
  | 17 => ⟨S_, .f32⟩
  | 18 => ⟨S32x512x256, .f32⟩
  | 19 => ⟨S32x512x256, .f32⟩
  | 20 => ⟨S_, .f32⟩
  | 21 => ⟨S32x512x256, .f32⟩
  | 22 => ⟨S32x512x256, .f32⟩
  | 23 => ⟨S32x512x256, .f32⟩
  | 24 => ⟨S32x512x256, .f32⟩
  | 25 => ⟨S_, .f32⟩
  | 26 => ⟨S32x512x256, .f32⟩
  | 27 => ⟨S32x512x256, .f32⟩
  | 28 => ⟨S_, .f32⟩
  | 29 => ⟨S32x512x256, .f32⟩
  | 30 => ⟨S32x512x256, .f32⟩
  | 31 => ⟨S32x512x256, .f32⟩
  | 32 => ⟨S32x512x256, .f32⟩
  | 33 => ⟨S_, .f32⟩
  | 34 => ⟨S32x512x256, .f32⟩
  | 35 => ⟨S32x512x256, .f32⟩
  | 36 => ⟨S_, .f32⟩
  | 37 => ⟨S32x512x256, .f32⟩
  | 38 => ⟨S32x512x256, .f32⟩
  | 39 => ⟨S32x512x256, .f32⟩
  | 40 => ⟨S32x512x256, .f32⟩
  | 41 => ⟨S32x512x256, .f32⟩
  | 42 => ⟨S32x512x256, .f32⟩
  | 43 => ⟨S32x512x256, .f32⟩
  | 44 => ⟨S32x512x256, .f32⟩
  | 45 => ⟨S32x512x256, .f32⟩
  | 46 => ⟨S32x512x256, .f32⟩
  | 47 => ⟨S_, .i32⟩
  | 48 => ⟨S1, .i32⟩
  | 49 => ⟨S32x4095x256, .f32⟩
  | 50 => ⟨S_, .i32⟩
  | 51 => ⟨S1, .i32⟩
  | 52 => ⟨S32x4095x256, .f32⟩
  | 53 => ⟨S_, .i32⟩
  | 54 => ⟨S256, .i32⟩
  | 55 => ⟨S256, .i32⟩
  | 56 => ⟨S256, .i32⟩
  | 57 => ⟨S256x1, .i32⟩
  | 58 => ⟨S32x256x256, .f32⟩
  | 59 => ⟨S_, .i32⟩
  | 60 => ⟨S256, .i32⟩
  | 61 => ⟨S256, .i32⟩
  | 62 => ⟨S256, .i32⟩
  | 63 => ⟨S256x1, .i32⟩
  | 64 => ⟨S32x256x256, .f32⟩
  | 65 => ⟨S_, .i32⟩
  | 66 => ⟨S256, .i32⟩
  | 67 => ⟨S256, .i32⟩
  | 68 => ⟨S256, .i32⟩
  | 69 => ⟨S256x1, .i32⟩
  | 70 => ⟨S32x256x256, .f32⟩
  | 71 => ⟨S_, .i32⟩
  | 72 => ⟨S256, .i32⟩
  | 73 => ⟨S256, .i32⟩
  | 74 => ⟨S256, .i32⟩
  | 75 => ⟨S256x1, .i32⟩
  | 76 => ⟨S32x256x256, .f32⟩
  | 77 => ⟨S32x256x1280, .f32⟩
  | 78 => ⟨S32x256x1280, .f32⟩
  | 79 => ⟨S32x256x1280, .f32⟩
  | 80 => ⟨S1x1x1280, .f32⟩
  | 81 => ⟨S32x256x1280, .f32⟩
  | 82 => ⟨S32x256x1280, .f32⟩
  | 83 => ⟨S32x256x1280, .f32⟩
  | 84 => ⟨S32x256x1280, .f32⟩
  | 85 => ⟨S1x1x1280, .f32⟩
  | 86 => ⟨S32x256x1280, .f32⟩
  | 87 => ⟨S32x256x1280, .f32⟩
  | 88 => ⟨S32x256x256, .f32⟩
  | 89 => ⟨S32x256x256, .f32⟩
  | 90 => ⟨S32x256x256, .f32⟩
  | 91 => ⟨S32x256x256, .f32⟩
  | 92 => ⟨S32x256x256, .f32⟩
  | 93 => ⟨S32x256x256, .f32⟩
  | 94 => ⟨S32x256x256, .f32⟩
  | 95 => ⟨S_, .f32⟩
  | 96 => ⟨S32x256x256, .f32⟩
  | 97 => ⟨S32x256x256, .f32⟩
  | 98 => ⟨S_, .f32⟩
  | 99 => ⟨S32x256x256, .f32⟩
  | 100 => ⟨S32x256x256, .f32⟩
  | 101 => ⟨S32x256x256, .f32⟩
  | 102 => ⟨S32x256x256, .f32⟩
  | 103 => ⟨S_, .f32⟩
  | 104 => ⟨S32x256x256, .f32⟩
  | 105 => ⟨S32x256x256, .f32⟩
  | 106 => ⟨S_, .f32⟩
  | 107 => ⟨S32x256x256, .f32⟩
  | 108 => ⟨S32x256x256, .f32⟩
  | 109 => ⟨S32x256x256, .f32⟩
  | 110 => ⟨S32x256x256, .f32⟩
  | 111 => ⟨S_, .f32⟩
  | 112 => ⟨S32x256x256, .f32⟩
  | 113 => ⟨S32x256x256, .f32⟩
  | 114 => ⟨S_, .f32⟩
  | 115 => ⟨S32x256x256, .f32⟩
  | 116 => ⟨S32x256x256, .f32⟩
  | 117 => ⟨S32x256x256, .f32⟩
  | 118 => ⟨S32x256x256, .f32⟩
  | 119 => ⟨S_, .f32⟩
  | 120 => ⟨S32x256x256, .f32⟩
  | 121 => ⟨S32x256x256, .f32⟩
  | 122 => ⟨S_, .f32⟩
  | 123 => ⟨S32x256x256, .f32⟩
  | 124 => ⟨S32x256x256, .f32⟩
  | 125 => ⟨S32x256x256, .f32⟩
  | 126 => ⟨S32x256x256, .f32⟩
  | 127 => ⟨S32x256x256, .f32⟩
  | _ => ⟨S32x4095x256, .f32⟩

abbrev hbmTy0_3 (i : Nat) : BufTy := match i % 128 with
  | 0 => ⟨S32x256x256, .f32⟩
  | 1 => ⟨S32x256x256, .f32⟩
  | 2 => ⟨S32x256x256, .f32⟩
  | 3 => ⟨S32x256x256, .f32⟩
  | 4 => ⟨S32x256x256, .f32⟩
  | 5 => ⟨S_, .i32⟩
  | 6 => ⟨S1, .i32⟩
  | 7 => ⟨S32x4095x256, .f32⟩
  | 8 => ⟨S_, .i32⟩
  | 9 => ⟨S1, .i32⟩
  | 10 => ⟨S32x4095x256, .f32⟩
  | 11 => ⟨S_, .i32⟩
  | 12 => ⟨S128, .i32⟩
  | 13 => ⟨S128, .i32⟩
  | 14 => ⟨S128, .i32⟩
  | 15 => ⟨S128x1, .i32⟩
  | 16 => ⟨S32x128x256, .f32⟩
  | 17 => ⟨S_, .i32⟩
  | 18 => ⟨S128, .i32⟩
  | 19 => ⟨S128, .i32⟩
  | 20 => ⟨S128, .i32⟩
  | 21 => ⟨S128x1, .i32⟩
  | 22 => ⟨S32x128x256, .f32⟩
  | 23 => ⟨S_, .i32⟩
  | 24 => ⟨S128, .i32⟩
  | 25 => ⟨S128, .i32⟩
  | 26 => ⟨S128, .i32⟩
  | 27 => ⟨S128x1, .i32⟩
  | 28 => ⟨S32x128x256, .f32⟩
  | 29 => ⟨S_, .i32⟩
  | 30 => ⟨S128, .i32⟩
  | 31 => ⟨S128, .i32⟩
  | 32 => ⟨S128, .i32⟩
  | 33 => ⟨S128x1, .i32⟩
  | 34 => ⟨S32x128x256, .f32⟩
  | 35 => ⟨S32x128x1280, .f32⟩
  | 36 => ⟨S32x128x1280, .f32⟩
  | 37 => ⟨S32x128x1280, .f32⟩
  | 38 => ⟨S1x1x1280, .f32⟩
  | 39 => ⟨S32x128x1280, .f32⟩
  | 40 => ⟨S32x128x1280, .f32⟩
  | 41 => ⟨S32x128x1280, .f32⟩
  | 42 => ⟨S32x128x1280, .f32⟩
  | 43 => ⟨S1x1x1280, .f32⟩
  | 44 => ⟨S32x128x1280, .f32⟩
  | 45 => ⟨S32x128x1280, .f32⟩
  | 46 => ⟨S32x128x256, .f32⟩
  | 47 => ⟨S32x128x256, .f32⟩
  | 48 => ⟨S32x128x256, .f32⟩
  | 49 => ⟨S32x128x256, .f32⟩
  | 50 => ⟨S32x128x256, .f32⟩
  | 51 => ⟨S32x128x256, .f32⟩
  | 52 => ⟨S32x128x256, .f32⟩
  | 53 => ⟨S_, .f32⟩
  | 54 => ⟨S32x128x256, .f32⟩
  | 55 => ⟨S32x128x256, .f32⟩
  | 56 => ⟨S_, .f32⟩
  | 57 => ⟨S32x128x256, .f32⟩
  | 58 => ⟨S32x128x256, .f32⟩
  | 59 => ⟨S32x128x256, .f32⟩
  | 60 => ⟨S32x128x256, .f32⟩
  | 61 => ⟨S_, .f32⟩
  | 62 => ⟨S32x128x256, .f32⟩
  | 63 => ⟨S32x128x256, .f32⟩
  | 64 => ⟨S_, .f32⟩
  | 65 => ⟨S32x128x256, .f32⟩
  | 66 => ⟨S32x128x256, .f32⟩
  | 67 => ⟨S32x128x256, .f32⟩
  | 68 => ⟨S32x128x256, .f32⟩
  | 69 => ⟨S_, .f32⟩
  | 70 => ⟨S32x128x256, .f32⟩
  | 71 => ⟨S32x128x256, .f32⟩
  | 72 => ⟨S_, .f32⟩
  | 73 => ⟨S32x128x256, .f32⟩
  | 74 => ⟨S32x128x256, .f32⟩
  | 75 => ⟨S32x128x256, .f32⟩
  | 76 => ⟨S32x128x256, .f32⟩
  | 77 => ⟨S_, .f32⟩
  | 78 => ⟨S32x128x256, .f32⟩
  | 79 => ⟨S32x128x256, .f32⟩
  | 80 => ⟨S_, .f32⟩
  | 81 => ⟨S32x128x256, .f32⟩
  | 82 => ⟨S32x128x256, .f32⟩
  | 83 => ⟨S32x128x256, .f32⟩
  | 84 => ⟨S32x128x256, .f32⟩
  | 85 => ⟨S32x128x256, .f32⟩
  | 86 => ⟨S32x128x256, .f32⟩
  | 87 => ⟨S32x128x256, .f32⟩
  | 88 => ⟨S32x128x256, .f32⟩
  | 89 => ⟨S32x128x256, .f32⟩
  | 90 => ⟨S32x128x256, .f32⟩
  | 91 => ⟨S_, .i32⟩
  | 92 => ⟨S1, .i32⟩
  | 93 => ⟨S32x4095x256, .f32⟩
  | 94 => ⟨S_, .i32⟩
  | 95 => ⟨S1, .i32⟩
  | 96 => ⟨S32x4095x256, .f32⟩
  | 97 => ⟨S_, .i32⟩
  | 98 => ⟨S64, .i32⟩
  | 99 => ⟨S64, .i32⟩
  | 100 => ⟨S64, .i32⟩
  | 101 => ⟨S64x1, .i32⟩
  | 102 => ⟨S32x64x256, .f32⟩
  | 103 => ⟨S_, .i32⟩
  | 104 => ⟨S64, .i32⟩
  | 105 => ⟨S64, .i32⟩
  | 106 => ⟨S64, .i32⟩
  | 107 => ⟨S64x1, .i32⟩
  | 108 => ⟨S32x64x256, .f32⟩
  | 109 => ⟨S_, .i32⟩
  | 110 => ⟨S64, .i32⟩
  | 111 => ⟨S64, .i32⟩
  | 112 => ⟨S64, .i32⟩
  | 113 => ⟨S64x1, .i32⟩
  | 114 => ⟨S32x64x256, .f32⟩
  | 115 => ⟨S_, .i32⟩
  | 116 => ⟨S64, .i32⟩
  | 117 => ⟨S64, .i32⟩
  | 118 => ⟨S64, .i32⟩
  | 119 => ⟨S64x1, .i32⟩
  | 120 => ⟨S32x64x256, .f32⟩
  | 121 => ⟨S32x64x1280, .f32⟩
  | 122 => ⟨S32x64x1280, .f32⟩
  | 123 => ⟨S32x64x1280, .f32⟩
  | 124 => ⟨S1x1x1280, .f32⟩
  | 125 => ⟨S32x64x1280, .f32⟩
  | 126 => ⟨S32x64x1280, .f32⟩
  | 127 => ⟨S32x64x1280, .f32⟩
  | _ => ⟨S32x4095x256, .f32⟩

abbrev hbmTy0_4 (i : Nat) : BufTy := match i % 128 with
  | 0 => ⟨S32x64x1280, .f32⟩
  | 1 => ⟨S1x1x1280, .f32⟩
  | 2 => ⟨S32x64x1280, .f32⟩
  | 3 => ⟨S32x64x1280, .f32⟩
  | 4 => ⟨S32x64x256, .f32⟩
  | 5 => ⟨S32x64x256, .f32⟩
  | 6 => ⟨S32x64x256, .f32⟩
  | 7 => ⟨S32x64x256, .f32⟩
  | 8 => ⟨S32x64x256, .f32⟩
  | 9 => ⟨S32x64x256, .f32⟩
  | 10 => ⟨S32x64x256, .f32⟩
  | 11 => ⟨S_, .f32⟩
  | 12 => ⟨S32x64x256, .f32⟩
  | 13 => ⟨S32x64x256, .f32⟩
  | 14 => ⟨S_, .f32⟩
  | 15 => ⟨S32x64x256, .f32⟩
  | 16 => ⟨S32x64x256, .f32⟩
  | 17 => ⟨S32x64x256, .f32⟩
  | 18 => ⟨S32x64x256, .f32⟩
  | 19 => ⟨S_, .f32⟩
  | 20 => ⟨S32x64x256, .f32⟩
  | 21 => ⟨S32x64x256, .f32⟩
  | 22 => ⟨S_, .f32⟩
  | 23 => ⟨S32x64x256, .f32⟩
  | 24 => ⟨S32x64x256, .f32⟩
  | 25 => ⟨S32x64x256, .f32⟩
  | 26 => ⟨S32x64x256, .f32⟩
  | 27 => ⟨S_, .f32⟩
  | 28 => ⟨S32x64x256, .f32⟩
  | 29 => ⟨S32x64x256, .f32⟩
  | 30 => ⟨S_, .f32⟩
  | 31 => ⟨S32x64x256, .f32⟩
  | 32 => ⟨S32x64x256, .f32⟩
  | 33 => ⟨S32x64x256, .f32⟩
  | 34 => ⟨S32x64x256, .f32⟩
  | 35 => ⟨S_, .f32⟩
  | 36 => ⟨S32x64x256, .f32⟩
  | 37 => ⟨S32x64x256, .f32⟩
  | 38 => ⟨S_, .f32⟩
  | 39 => ⟨S32x64x256, .f32⟩
  | 40 => ⟨S32x64x256, .f32⟩
  | 41 => ⟨S32x64x256, .f32⟩
  | 42 => ⟨S32x64x256, .f32⟩
  | 43 => ⟨S32x64x256, .f32⟩
  | 44 => ⟨S32x64x256, .f32⟩
  | 45 => ⟨S32x64x256, .f32⟩
  | 46 => ⟨S32x64x256, .f32⟩
  | 47 => ⟨S32x64x256, .f32⟩
  | 48 => ⟨S32x64x256, .f32⟩
  | 49 => ⟨S_, .i32⟩
  | 50 => ⟨S1, .i32⟩
  | 51 => ⟨S32x4095x256, .f32⟩
  | 52 => ⟨S_, .i32⟩
  | 53 => ⟨S1, .i32⟩
  | 54 => ⟨S32x4095x256, .f32⟩
  | 55 => ⟨S_, .i32⟩
  | 56 => ⟨S32, .i32⟩
  | 57 => ⟨S32, .i32⟩
  | 58 => ⟨S32, .i32⟩
  | 59 => ⟨S32x1, .i32⟩
  | 60 => ⟨S32x32x256, .f32⟩
  | 61 => ⟨S_, .i32⟩
  | 62 => ⟨S32, .i32⟩
  | 63 => ⟨S32, .i32⟩
  | 64 => ⟨S32, .i32⟩
  | 65 => ⟨S32x1, .i32⟩
  | 66 => ⟨S32x32x256, .f32⟩
  | 67 => ⟨S_, .i32⟩
  | 68 => ⟨S32, .i32⟩
  | 69 => ⟨S32, .i32⟩
  | 70 => ⟨S32, .i32⟩
  | 71 => ⟨S32x1, .i32⟩
  | 72 => ⟨S32x32x256, .f32⟩
  | 73 => ⟨S_, .i32⟩
  | 74 => ⟨S32, .i32⟩
  | 75 => ⟨S32, .i32⟩
  | 76 => ⟨S32, .i32⟩
  | 77 => ⟨S32x1, .i32⟩
  | 78 => ⟨S32x32x256, .f32⟩
  | 79 => ⟨S32x32x1280, .f32⟩
  | 80 => ⟨S32x32x1280, .f32⟩
  | 81 => ⟨S32x32x1280, .f32⟩
  | 82 => ⟨S1x1x1280, .f32⟩
  | 83 => ⟨S32x32x1280, .f32⟩
  | 84 => ⟨S32x32x1280, .f32⟩
  | 85 => ⟨S32x32x1280, .f32⟩
  | 86 => ⟨S32x32x1280, .f32⟩
  | 87 => ⟨S1x1x1280, .f32⟩
  | 88 => ⟨S32x32x1280, .f32⟩
  | 89 => ⟨S32x32x1280, .f32⟩
  | 90 => ⟨S32x32x256, .f32⟩
  | 91 => ⟨S32x32x256, .f32⟩
  | 92 => ⟨S32x32x256, .f32⟩
  | 93 => ⟨S32x32x256, .f32⟩
  | 94 => ⟨S32x32x256, .f32⟩
  | 95 => ⟨S32x32x256, .f32⟩
  | 96 => ⟨S32x32x256, .f32⟩
  | 97 => ⟨S_, .f32⟩
  | 98 => ⟨S32x32x256, .f32⟩
  | 99 => ⟨S32x32x256, .f32⟩
  | 100 => ⟨S_, .f32⟩
  | 101 => ⟨S32x32x256, .f32⟩
  | 102 => ⟨S32x32x256, .f32⟩
  | 103 => ⟨S32x32x256, .f32⟩
  | 104 => ⟨S32x32x256, .f32⟩
  | 105 => ⟨S_, .f32⟩
  | 106 => ⟨S32x32x256, .f32⟩
  | 107 => ⟨S32x32x256, .f32⟩
  | 108 => ⟨S_, .f32⟩
  | 109 => ⟨S32x32x256, .f32⟩
  | 110 => ⟨S32x32x256, .f32⟩
  | 111 => ⟨S32x32x256, .f32⟩
  | 112 => ⟨S32x32x256, .f32⟩
  | 113 => ⟨S_, .f32⟩
  | 114 => ⟨S32x32x256, .f32⟩
  | 115 => ⟨S32x32x256, .f32⟩
  | 116 => ⟨S_, .f32⟩
  | 117 => ⟨S32x32x256, .f32⟩
  | 118 => ⟨S32x32x256, .f32⟩
  | 119 => ⟨S32x32x256, .f32⟩
  | 120 => ⟨S32x32x256, .f32⟩
  | 121 => ⟨S_, .f32⟩
  | 122 => ⟨S32x32x256, .f32⟩
  | 123 => ⟨S32x32x256, .f32⟩
  | 124 => ⟨S_, .f32⟩
  | 125 => ⟨S32x32x256, .f32⟩
  | 126 => ⟨S32x32x256, .f32⟩
  | 127 => ⟨S32x32x256, .f32⟩
  | _ => ⟨S32x4095x256, .f32⟩

abbrev hbmTy0_5 (i : Nat) : BufTy := match i % 128 with
  | 0 => ⟨S32x32x256, .f32⟩
  | 1 => ⟨S32x32x256, .f32⟩
  | 2 => ⟨S32x32x256, .f32⟩
  | 3 => ⟨S32x32x256, .f32⟩
  | 4 => ⟨S32x32x256, .f32⟩
  | 5 => ⟨S32x32x256, .f32⟩
  | 6 => ⟨S32x32x256, .f32⟩
  | 7 => ⟨S_, .i32⟩
  | 8 => ⟨S1, .i32⟩
  | 9 => ⟨S32x4095x256, .f32⟩
  | 10 => ⟨S_, .i32⟩
  | 11 => ⟨S1, .i32⟩
  | 12 => ⟨S32x4095x256, .f32⟩
  | 13 => ⟨S_, .i32⟩
  | 14 => ⟨S16, .i32⟩
  | 15 => ⟨S16, .i32⟩
  | 16 => ⟨S16, .i32⟩
  | 17 => ⟨S16x1, .i32⟩
  | 18 => ⟨S32x16x256, .f32⟩
  | 19 => ⟨S_, .i32⟩
  | 20 => ⟨S16, .i32⟩
  | 21 => ⟨S16, .i32⟩
  | 22 => ⟨S16, .i32⟩
  | 23 => ⟨S16x1, .i32⟩
  | 24 => ⟨S32x16x256, .f32⟩
  | 25 => ⟨S_, .i32⟩
  | 26 => ⟨S16, .i32⟩
  | 27 => ⟨S16, .i32⟩
  | 28 => ⟨S16, .i32⟩
  | 29 => ⟨S16x1, .i32⟩
  | 30 => ⟨S32x16x256, .f32⟩
  | 31 => ⟨S_, .i32⟩
  | 32 => ⟨S16, .i32⟩
  | 33 => ⟨S16, .i32⟩
  | 34 => ⟨S16, .i32⟩
  | 35 => ⟨S16x1, .i32⟩
  | 36 => ⟨S32x16x256, .f32⟩
  | 37 => ⟨S32x16x1280, .f32⟩
  | 38 => ⟨S32x16x1280, .f32⟩
  | 39 => ⟨S32x16x1280, .f32⟩
  | 40 => ⟨S1x1x1280, .f32⟩
  | 41 => ⟨S32x16x1280, .f32⟩
  | 42 => ⟨S32x16x1280, .f32⟩
  | 43 => ⟨S32x16x1280, .f32⟩
  | 44 => ⟨S32x16x1280, .f32⟩
  | 45 => ⟨S1x1x1280, .f32⟩
  | 46 => ⟨S32x16x1280, .f32⟩
  | 47 => ⟨S32x16x1280, .f32⟩
  | 48 => ⟨S32x16x256, .f32⟩
  | 49 => ⟨S32x16x256, .f32⟩
  | 50 => ⟨S32x16x256, .f32⟩
  | 51 => ⟨S32x16x256, .f32⟩
  | 52 => ⟨S32x16x256, .f32⟩
  | 53 => ⟨S32x16x256, .f32⟩
  | 54 => ⟨S32x16x256, .f32⟩
  | 55 => ⟨S_, .f32⟩
  | 56 => ⟨S32x16x256, .f32⟩
  | 57 => ⟨S32x16x256, .f32⟩
  | 58 => ⟨S_, .f32⟩
  | 59 => ⟨S32x16x256, .f32⟩
  | 60 => ⟨S32x16x256, .f32⟩
  | 61 => ⟨S32x16x256, .f32⟩
  | 62 => ⟨S32x16x256, .f32⟩
  | 63 => ⟨S_, .f32⟩
  | 64 => ⟨S32x16x256, .f32⟩
  | 65 => ⟨S32x16x256, .f32⟩
  | 66 => ⟨S_, .f32⟩
  | 67 => ⟨S32x16x256, .f32⟩
  | 68 => ⟨S32x16x256, .f32⟩
  | 69 => ⟨S32x16x256, .f32⟩
  | 70 => ⟨S32x16x256, .f32⟩
  | 71 => ⟨S_, .f32⟩
  | 72 => ⟨S32x16x256, .f32⟩
  | 73 => ⟨S32x16x256, .f32⟩
  | 74 => ⟨S_, .f32⟩
  | 75 => ⟨S32x16x256, .f32⟩
  | 76 => ⟨S32x16x256, .f32⟩
  | 77 => ⟨S32x16x256, .f32⟩
  | 78 => ⟨S32x16x256, .f32⟩
  | 79 => ⟨S_, .f32⟩
  | 80 => ⟨S32x16x256, .f32⟩
  | 81 => ⟨S32x16x256, .f32⟩
  | 82 => ⟨S_, .f32⟩
  | 83 => ⟨S32x16x256, .f32⟩
  | 84 => ⟨S32x16x256, .f32⟩
  | 85 => ⟨S32x16x256, .f32⟩
  | 86 => ⟨S32x16x256, .f32⟩
  | 87 => ⟨S32x16x256, .f32⟩
  | 88 => ⟨S32x16x256, .f32⟩
  | 89 => ⟨S32x16x256, .f32⟩
  | 90 => ⟨S32x16x256, .f32⟩
  | 91 => ⟨S32x16x256, .f32⟩
  | 92 => ⟨S32x16x256, .f32⟩
  | 93 => ⟨S_, .i32⟩
  | 94 => ⟨S1, .i32⟩
  | 95 => ⟨S32x4095x256, .f32⟩
  | 96 => ⟨S_, .i32⟩
  | 97 => ⟨S1, .i32⟩
  | 98 => ⟨S32x4095x256, .f32⟩
  | 99 => ⟨S_, .i32⟩
  | 100 => ⟨S8, .i32⟩
  | 101 => ⟨S8, .i32⟩
  | 102 => ⟨S8, .i32⟩
  | 103 => ⟨S8x1, .i32⟩
  | 104 => ⟨S32x8x256, .f32⟩
  | 105 => ⟨S_, .i32⟩
  | 106 => ⟨S8, .i32⟩
  | 107 => ⟨S8, .i32⟩
  | 108 => ⟨S8, .i32⟩
  | 109 => ⟨S8x1, .i32⟩
  | 110 => ⟨S32x8x256, .f32⟩
  | 111 => ⟨S_, .i32⟩
  | 112 => ⟨S8, .i32⟩
  | 113 => ⟨S8, .i32⟩
  | 114 => ⟨S8, .i32⟩
  | 115 => ⟨S8x1, .i32⟩
  | 116 => ⟨S32x8x256, .f32⟩
  | 117 => ⟨S_, .i32⟩
  | 118 => ⟨S8, .i32⟩
  | 119 => ⟨S8, .i32⟩
  | 120 => ⟨S8, .i32⟩
  | 121 => ⟨S8x1, .i32⟩
  | 122 => ⟨S32x8x256, .f32⟩
  | 123 => ⟨S32x8x1280, .f32⟩
  | 124 => ⟨S32x8x1280, .f32⟩
  | 125 => ⟨S32x8x1280, .f32⟩
  | 126 => ⟨S1x1x1280, .f32⟩
  | 127 => ⟨S32x8x1280, .f32⟩
  | _ => ⟨S32x4095x256, .f32⟩

abbrev hbmTy0_6 (i : Nat) : BufTy := match i % 128 with
  | 0 => ⟨S32x8x1280, .f32⟩
  | 1 => ⟨S32x8x1280, .f32⟩
  | 2 => ⟨S32x8x1280, .f32⟩
  | 3 => ⟨S1x1x1280, .f32⟩
  | 4 => ⟨S32x8x1280, .f32⟩
  | 5 => ⟨S32x8x1280, .f32⟩
  | 6 => ⟨S32x8x256, .f32⟩
  | 7 => ⟨S32x8x256, .f32⟩
  | 8 => ⟨S32x8x256, .f32⟩
  | 9 => ⟨S32x8x256, .f32⟩
  | 10 => ⟨S32x8x256, .f32⟩
  | 11 => ⟨S32x8x256, .f32⟩
  | 12 => ⟨S32x8x256, .f32⟩
  | 13 => ⟨S_, .f32⟩
  | 14 => ⟨S32x8x256, .f32⟩
  | 15 => ⟨S32x8x256, .f32⟩
  | 16 => ⟨S_, .f32⟩
  | 17 => ⟨S32x8x256, .f32⟩
  | 18 => ⟨S32x8x256, .f32⟩
  | 19 => ⟨S32x8x256, .f32⟩
  | 20 => ⟨S32x8x256, .f32⟩
  | 21 => ⟨S_, .f32⟩
  | 22 => ⟨S32x8x256, .f32⟩
  | 23 => ⟨S32x8x256, .f32⟩
  | 24 => ⟨S_, .f32⟩
  | 25 => ⟨S32x8x256, .f32⟩
  | 26 => ⟨S32x8x256, .f32⟩
  | 27 => ⟨S32x8x256, .f32⟩
  | 28 => ⟨S32x8x256, .f32⟩
  | 29 => ⟨S_, .f32⟩
  | 30 => ⟨S32x8x256, .f32⟩
  | 31 => ⟨S32x8x256, .f32⟩
  | 32 => ⟨S_, .f32⟩
  | 33 => ⟨S32x8x256, .f32⟩
  | 34 => ⟨S32x8x256, .f32⟩
  | 35 => ⟨S32x8x256, .f32⟩
  | 36 => ⟨S32x8x256, .f32⟩
  | 37 => ⟨S_, .f32⟩
  | 38 => ⟨S32x8x256, .f32⟩
  | 39 => ⟨S32x8x256, .f32⟩
  | 40 => ⟨S_, .f32⟩
  | 41 => ⟨S32x8x256, .f32⟩
  | 42 => ⟨S32x8x256, .f32⟩
  | 43 => ⟨S32x8x256, .f32⟩
  | 44 => ⟨S32x8x256, .f32⟩
  | 45 => ⟨S32x8x256, .f32⟩
  | 46 => ⟨S32x8x256, .f32⟩
  | 47 => ⟨S32x8x256, .f32⟩
  | 48 => ⟨S32x8x256, .f32⟩
  | 49 => ⟨S32x8x256, .f32⟩
  | 50 => ⟨S32x8x256, .f32⟩
  | 51 => ⟨S_, .i32⟩
  | 52 => ⟨S1, .i32⟩
  | 53 => ⟨S32x4095x256, .f32⟩
  | 54 => ⟨S_, .i32⟩
  | 55 => ⟨S1, .i32⟩
  | 56 => ⟨S32x4095x256, .f32⟩
  | 57 => ⟨S_, .i32⟩
  | 58 => ⟨S4, .i32⟩
  | 59 => ⟨S4, .i32⟩
  | 60 => ⟨S4, .i32⟩
  | 61 => ⟨S4x1, .i32⟩
  | 62 => ⟨S32x4x256, .f32⟩
  | 63 => ⟨S_, .i32⟩
  | 64 => ⟨S4, .i32⟩
  | 65 => ⟨S4, .i32⟩
  | 66 => ⟨S4, .i32⟩
  | 67 => ⟨S4x1, .i32⟩
  | 68 => ⟨S32x4x256, .f32⟩
  | 69 => ⟨S_, .i32⟩
  | 70 => ⟨S4, .i32⟩
  | 71 => ⟨S4, .i32⟩
  | 72 => ⟨S4, .i32⟩
  | 73 => ⟨S4x1, .i32⟩
  | 74 => ⟨S32x4x256, .f32⟩
  | 75 => ⟨S_, .i32⟩
  | 76 => ⟨S4, .i32⟩
  | 77 => ⟨S4, .i32⟩
  | 78 => ⟨S4, .i32⟩
  | 79 => ⟨S4x1, .i32⟩
  | 80 => ⟨S32x4x256, .f32⟩
  | 81 => ⟨S32x4x1280, .f32⟩
  | 82 => ⟨S32x4x1280, .f32⟩
  | 83 => ⟨S32x4x1280, .f32⟩
  | 84 => ⟨S1x1x1280, .f32⟩
  | 85 => ⟨S32x4x1280, .f32⟩
  | 86 => ⟨S32x4x1280, .f32⟩
  | 87 => ⟨S32x4x1280, .f32⟩
  | 88 => ⟨S32x4x1280, .f32⟩
  | 89 => ⟨S1x1x1280, .f32⟩
  | 90 => ⟨S32x4x1280, .f32⟩
  | 91 => ⟨S32x4x1280, .f32⟩
  | 92 => ⟨S32x4x256, .f32⟩
  | 93 => ⟨S32x4x256, .f32⟩
  | 94 => ⟨S32x4x256, .f32⟩
  | 95 => ⟨S32x4x256, .f32⟩
  | 96 => ⟨S32x4x256, .f32⟩
  | 97 => ⟨S32x4x256, .f32⟩
  | 98 => ⟨S32x4x256, .f32⟩
  | 99 => ⟨S_, .f32⟩
  | 100 => ⟨S32x4x256, .f32⟩
  | 101 => ⟨S32x4x256, .f32⟩
  | 102 => ⟨S_, .f32⟩
  | 103 => ⟨S32x4x256, .f32⟩
  | 104 => ⟨S32x4x256, .f32⟩
  | 105 => ⟨S32x4x256, .f32⟩
  | 106 => ⟨S32x4x256, .f32⟩
  | 107 => ⟨S_, .f32⟩
  | 108 => ⟨S32x4x256, .f32⟩
  | 109 => ⟨S32x4x256, .f32⟩
  | 110 => ⟨S_, .f32⟩
  | 111 => ⟨S32x4x256, .f32⟩
  | 112 => ⟨S32x4x256, .f32⟩
  | 113 => ⟨S32x4x256, .f32⟩
  | 114 => ⟨S32x4x256, .f32⟩
  | 115 => ⟨S_, .f32⟩
  | 116 => ⟨S32x4x256, .f32⟩
  | 117 => ⟨S32x4x256, .f32⟩
  | 118 => ⟨S_, .f32⟩
  | 119 => ⟨S32x4x256, .f32⟩
  | 120 => ⟨S32x4x256, .f32⟩
  | 121 => ⟨S32x4x256, .f32⟩
  | 122 => ⟨S32x4x256, .f32⟩
  | 123 => ⟨S_, .f32⟩
  | 124 => ⟨S32x4x256, .f32⟩
  | 125 => ⟨S32x4x256, .f32⟩
  | 126 => ⟨S_, .f32⟩
  | 127 => ⟨S32x4x256, .f32⟩
  | _ => ⟨S32x4095x256, .f32⟩

abbrev hbmTy0_7 (i : Nat) : BufTy := match i % 128 with
  | 0 => ⟨S32x4x256, .f32⟩
  | 1 => ⟨S32x4x256, .f32⟩
  | 2 => ⟨S32x4x256, .f32⟩
  | 3 => ⟨S32x4x256, .f32⟩
  | 4 => ⟨S32x4x256, .f32⟩
  | 5 => ⟨S32x4x256, .f32⟩
  | 6 => ⟨S32x4x256, .f32⟩
  | 7 => ⟨S32x4x256, .f32⟩
  | 8 => ⟨S32x4x256, .f32⟩
  | 9 => ⟨S_, .i32⟩
  | 10 => ⟨S1, .i32⟩
  | 11 => ⟨S32x4095x256, .f32⟩
  | 12 => ⟨S_, .i32⟩
  | 13 => ⟨S1, .i32⟩
  | 14 => ⟨S32x4095x256, .f32⟩
  | 15 => ⟨S_, .i32⟩
  | 16 => ⟨S2, .i32⟩
  | 17 => ⟨S2, .i32⟩
  | 18 => ⟨S2, .i32⟩
  | 19 => ⟨S2x1, .i32⟩
  | 20 => ⟨S32x2x256, .f32⟩
  | 21 => ⟨S_, .i32⟩
  | 22 => ⟨S2, .i32⟩
  | 23 => ⟨S2, .i32⟩
  | 24 => ⟨S2, .i32⟩
  | 25 => ⟨S2x1, .i32⟩
  | 26 => ⟨S32x2x256, .f32⟩
  | 27 => ⟨S_, .i32⟩
  | 28 => ⟨S2, .i32⟩
  | 29 => ⟨S2, .i32⟩
  | 30 => ⟨S2, .i32⟩
  | 31 => ⟨S2x1, .i32⟩
  | 32 => ⟨S32x2x256, .f32⟩
  | 33 => ⟨S_, .i32⟩
  | 34 => ⟨S2, .i32⟩
  | 35 => ⟨S2, .i32⟩
  | 36 => ⟨S2, .i32⟩
  | 37 => ⟨S2x1, .i32⟩
  | 38 => ⟨S32x2x256, .f32⟩
  | 39 => ⟨S32x2x1280, .f32⟩
  | 40 => ⟨S32x2x1280, .f32⟩
  | 41 => ⟨S32x2x1280, .f32⟩
  | 42 => ⟨S1x1x1280, .f32⟩
  | 43 => ⟨S32x2x1280, .f32⟩
  | 44 => ⟨S32x2x1280, .f32⟩
  | 45 => ⟨S32x2x1280, .f32⟩
  | 46 => ⟨S32x2x1280, .f32⟩
  | 47 => ⟨S1x1x1280, .f32⟩
  | 48 => ⟨S32x2x1280, .f32⟩
  | 49 => ⟨S32x2x1280, .f32⟩
  | 50 => ⟨S32x2x256, .f32⟩
  | 51 => ⟨S32x2x256, .f32⟩
  | 52 => ⟨S32x2x256, .f32⟩
  | 53 => ⟨S32x2x256, .f32⟩
  | 54 => ⟨S32x2x256, .f32⟩
  | 55 => ⟨S32x2x256, .f32⟩
  | 56 => ⟨S32x2x256, .f32⟩
  | 57 => ⟨S_, .f32⟩
  | 58 => ⟨S32x2x256, .f32⟩
  | 59 => ⟨S32x2x256, .f32⟩
  | 60 => ⟨S_, .f32⟩
  | 61 => ⟨S32x2x256, .f32⟩
  | 62 => ⟨S32x2x256, .f32⟩
  | 63 => ⟨S32x2x256, .f32⟩
  | 64 => ⟨S32x2x256, .f32⟩
  | 65 => ⟨S_, .f32⟩
  | 66 => ⟨S32x2x256, .f32⟩
  | 67 => ⟨S32x2x256, .f32⟩
  | 68 => ⟨S_, .f32⟩
  | 69 => ⟨S32x2x256, .f32⟩
  | 70 => ⟨S32x2x256, .f32⟩
  | 71 => ⟨S32x2x256, .f32⟩
  | 72 => ⟨S32x2x256, .f32⟩
  | 73 => ⟨S_, .f32⟩
  | 74 => ⟨S32x2x256, .f32⟩
  | 75 => ⟨S32x2x256, .f32⟩
  | 76 => ⟨S_, .f32⟩
  | 77 => ⟨S32x2x256, .f32⟩
  | 78 => ⟨S32x2x256, .f32⟩
  | 79 => ⟨S32x2x256, .f32⟩
  | 80 => ⟨S32x2x256, .f32⟩
  | 81 => ⟨S_, .f32⟩
  | 82 => ⟨S32x2x256, .f32⟩
  | 83 => ⟨S32x2x256, .f32⟩
  | 84 => ⟨S_, .f32⟩
  | 85 => ⟨S32x2x256, .f32⟩
  | 86 => ⟨S32x2x256, .f32⟩
  | 87 => ⟨S32x2x256, .f32⟩
  | 88 => ⟨S32x2x256, .f32⟩
  | 89 => ⟨S32x2x256, .f32⟩
  | 90 => ⟨S32x2x256, .f32⟩
  | 91 => ⟨S32x2x256, .f32⟩
  | 92 => ⟨S32x2x256, .f32⟩
  | 93 => ⟨S32x2x256, .f32⟩
  | 94 => ⟨S32x2x256, .f32⟩
  | 95 => ⟨S_, .i32⟩
  | 96 => ⟨S1, .i32⟩
  | 97 => ⟨S32x4095x256, .f32⟩
  | 98 => ⟨S_, .i32⟩
  | 99 => ⟨S1, .i32⟩
  | 100 => ⟨S32x4095x256, .f32⟩
  | 101 => ⟨S_, .i32⟩
  | 102 => ⟨S1, .i32⟩
  | 103 => ⟨S1, .i32⟩
  | 104 => ⟨S1, .i32⟩
  | 105 => ⟨S1x1, .i32⟩
  | 106 => ⟨S32x1x256, .f32⟩
  | 107 => ⟨S_, .i32⟩
  | 108 => ⟨S1, .i32⟩
  | 109 => ⟨S1, .i32⟩
  | 110 => ⟨S1, .i32⟩
  | 111 => ⟨S1x1, .i32⟩
  | 112 => ⟨S32x1x256, .f32⟩
  | 113 => ⟨S_, .i32⟩
  | 114 => ⟨S1, .i32⟩
  | 115 => ⟨S1, .i32⟩
  | 116 => ⟨S1, .i32⟩
  | 117 => ⟨S1x1, .i32⟩
  | 118 => ⟨S32x1x256, .f32⟩
  | 119 => ⟨S_, .i32⟩
  | 120 => ⟨S1, .i32⟩
  | 121 => ⟨S1, .i32⟩
  | 122 => ⟨S1, .i32⟩
  | 123 => ⟨S1x1, .i32⟩
  | 124 => ⟨S32x1x256, .f32⟩
  | 125 => ⟨S32x1x1280, .f32⟩
  | 126 => ⟨S32x1x1280, .f32⟩
  | 127 => ⟨S32x1x1280, .f32⟩
  | _ => ⟨S32x4095x256, .f32⟩

abbrev hbmTy0_8 (i : Nat) : BufTy := match i % 128 with
  | 0 => ⟨S1x1x1280, .f32⟩
  | 1 => ⟨S32x1x1280, .f32⟩
  | 2 => ⟨S32x1x1280, .f32⟩
  | 3 => ⟨S32x1x1280, .f32⟩
  | 4 => ⟨S32x1x1280, .f32⟩
  | 5 => ⟨S1x1x1280, .f32⟩
  | 6 => ⟨S32x1x1280, .f32⟩
  | 7 => ⟨S32x1x1280, .f32⟩
  | 8 => ⟨S32x1x256, .f32⟩
  | 9 => ⟨S32x1x256, .f32⟩
  | 10 => ⟨S32x1x256, .f32⟩
  | 11 => ⟨S32x1x256, .f32⟩
  | 12 => ⟨S32x1x256, .f32⟩
  | 13 => ⟨S32x1x256, .f32⟩
  | 14 => ⟨S32x1x256, .f32⟩
  | 15 => ⟨S_, .f32⟩
  | 16 => ⟨S32x1x256, .f32⟩
  | 17 => ⟨S32x1x256, .f32⟩
  | 18 => ⟨S_, .f32⟩
  | 19 => ⟨S32x1x256, .f32⟩
  | 20 => ⟨S32x1x256, .f32⟩
  | 21 => ⟨S32x1x256, .f32⟩
  | 22 => ⟨S32x1x256, .f32⟩
  | 23 => ⟨S_, .f32⟩
  | 24 => ⟨S32x1x256, .f32⟩
  | 25 => ⟨S32x1x256, .f32⟩
  | 26 => ⟨S_, .f32⟩
  | 27 => ⟨S32x1x256, .f32⟩
  | 28 => ⟨S32x1x256, .f32⟩
  | 29 => ⟨S32x1x256, .f32⟩
  | 30 => ⟨S32x1x256, .f32⟩
  | 31 => ⟨S_, .f32⟩
  | 32 => ⟨S32x1x256, .f32⟩
  | 33 => ⟨S32x1x256, .f32⟩
  | 34 => ⟨S_, .f32⟩
  | 35 => ⟨S32x1x256, .f32⟩
  | 36 => ⟨S32x1x256, .f32⟩
  | 37 => ⟨S32x1x256, .f32⟩
  | 38 => ⟨S32x1x256, .f32⟩
  | 39 => ⟨S_, .f32⟩
  | 40 => ⟨S32x1x256, .f32⟩
  | 41 => ⟨S32x1x256, .f32⟩
  | 42 => ⟨S_, .f32⟩
  | 43 => ⟨S32x1x256, .f32⟩
  | 44 => ⟨S32x1x256, .f32⟩
  | 45 => ⟨S32x1x256, .f32⟩
  | 46 => ⟨S32x1x256, .f32⟩
  | 47 => ⟨S32x1x256, .f32⟩
  | 48 => ⟨S32x1x256, .f32⟩
  | 49 => ⟨S32x1x256, .f32⟩
  | 50 => ⟨S32x1x256, .f32⟩
  | 51 => ⟨S32x1x256, .f32⟩
  | 52 => ⟨S32x1x256, .f32⟩
  | 53 => ⟨S_, .i32⟩
  | 54 => ⟨S1, .i32⟩
  | 55 => ⟨S32x4095x256, .f32⟩
  | 56 => ⟨S_, .i32⟩
  | 57 => ⟨S1, .i32⟩
  | 58 => ⟨S32x4095x256, .f32⟩
  | 59 => ⟨S32x1x256, .f32⟩
  | 60 => ⟨S32x256, .f32⟩
  | _ => ⟨S32x4095x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S32x4095x256, .f32⟩

abbrev bufTy : (tb : Table) → Fin (tcTables nBuf tb) → BufTy
  | .hbm, ⟨i, _⟩ => hbmTy i
  | _, _ => ⟨S32x4095x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_c_7 : Ref sig .tc := ⟨.hbm, 15, rfl⟩
abbrev main_c_8 : Ref sig .tc := ⟨.hbm, 16, rfl⟩
abbrev main_c_9 : Ref sig .tc := ⟨.hbm, 17, rfl⟩
abbrev main_c_10 : Ref sig .tc := ⟨.hbm, 18, rfl⟩
abbrev main_c_11 : Ref sig .tc := ⟨.hbm, 19, rfl⟩
abbrev main_c_12 : Ref sig .tc := ⟨.hbm, 20, rfl⟩
abbrev main_c_13 : Ref sig .tc := ⟨.hbm, 21, rfl⟩
abbrev main_c_14 : Ref sig .tc := ⟨.hbm, 22, rfl⟩
abbrev main_c_15 : Ref sig .tc := ⟨.hbm, 23, rfl⟩
abbrev main_c_16 : Ref sig .tc := ⟨.hbm, 24, rfl⟩
abbrev main_c_17 : Ref sig .tc := ⟨.hbm, 25, rfl⟩
abbrev main_c_18 : Ref sig .tc := ⟨.hbm, 26, rfl⟩
abbrev main_c_19 : Ref sig .tc := ⟨.hbm, 27, rfl⟩
abbrev main_c_20 : Ref sig .tc := ⟨.hbm, 28, rfl⟩
abbrev main_c_21 : Ref sig .tc := ⟨.hbm, 29, rfl⟩
abbrev main_c_22 : Ref sig .tc := ⟨.hbm, 30, rfl⟩
abbrev main_c_23 : Ref sig .tc := ⟨.hbm, 31, rfl⟩
abbrev main_c_24 : Ref sig .tc := ⟨.hbm, 32, rfl⟩
abbrev main_c_25 : Ref sig .tc := ⟨.hbm, 33, rfl⟩
abbrev main_c_26 : Ref sig .tc := ⟨.hbm, 34, rfl⟩
abbrev main_c_27 : Ref sig .tc := ⟨.hbm, 35, rfl⟩
abbrev main_c_28 : Ref sig .tc := ⟨.hbm, 36, rfl⟩
abbrev main_c_29 : Ref sig .tc := ⟨.hbm, 37, rfl⟩
abbrev main_c_30 : Ref sig .tc := ⟨.hbm, 38, rfl⟩
abbrev main_c_31 : Ref sig .tc := ⟨.hbm, 39, rfl⟩
abbrev main_c_32 : Ref sig .tc := ⟨.hbm, 40, rfl⟩
abbrev main_c_33 : Ref sig .tc := ⟨.hbm, 41, rfl⟩
abbrev main_c_34 : Ref sig .tc := ⟨.hbm, 42, rfl⟩
abbrev main_c_35 : Ref sig .tc := ⟨.hbm, 43, rfl⟩
abbrev main_c_36 : Ref sig .tc := ⟨.hbm, 44, rfl⟩
abbrev main_c_37 : Ref sig .tc := ⟨.hbm, 45, rfl⟩
abbrev main_c_38 : Ref sig .tc := ⟨.hbm, 46, rfl⟩
abbrev main_c_39 : Ref sig .tc := ⟨.hbm, 47, rfl⟩
abbrev main_c_40 : Ref sig .tc := ⟨.hbm, 48, rfl⟩
abbrev main_c_41 : Ref sig .tc := ⟨.hbm, 49, rfl⟩
abbrev main_c_42 : Ref sig .tc := ⟨.hbm, 50, rfl⟩
abbrev main_c_43 : Ref sig .tc := ⟨.hbm, 51, rfl⟩
abbrev main_c_44 : Ref sig .tc := ⟨.hbm, 52, rfl⟩
abbrev main_c_45 : Ref sig .tc := ⟨.hbm, 53, rfl⟩
abbrev main_c_46 : Ref sig .tc := ⟨.hbm, 54, rfl⟩
abbrev main_c_47 : Ref sig .tc := ⟨.hbm, 55, rfl⟩
abbrev main_c_48 : Ref sig .tc := ⟨.hbm, 56, rfl⟩
abbrev main_c_49 : Ref sig .tc := ⟨.hbm, 57, rfl⟩
abbrev main_c_50 : Ref sig .tc := ⟨.hbm, 58, rfl⟩
abbrev main_c_51 : Ref sig .tc := ⟨.hbm, 59, rfl⟩
abbrev main_c_52 : Ref sig .tc := ⟨.hbm, 60, rfl⟩
abbrev main_c_53 : Ref sig .tc := ⟨.hbm, 61, rfl⟩
abbrev main_c_54 : Ref sig .tc := ⟨.hbm, 62, rfl⟩
abbrev main_c_55 : Ref sig .tc := ⟨.hbm, 63, rfl⟩
abbrev main_c_56 : Ref sig .tc := ⟨.hbm, 64, rfl⟩
abbrev main_c_57 : Ref sig .tc := ⟨.hbm, 65, rfl⟩
abbrev main_c_58 : Ref sig .tc := ⟨.hbm, 66, rfl⟩
abbrev main_c_59 : Ref sig .tc := ⟨.hbm, 67, rfl⟩
abbrev main_c_60 : Ref sig .tc := ⟨.hbm, 68, rfl⟩
abbrev main_c_61 : Ref sig .tc := ⟨.hbm, 69, rfl⟩
abbrev main_c_62 : Ref sig .tc := ⟨.hbm, 70, rfl⟩
abbrev main_c_63 : Ref sig .tc := ⟨.hbm, 71, rfl⟩
abbrev main_c_64 : Ref sig .tc := ⟨.hbm, 72, rfl⟩
abbrev main_v0 : Ref sig .tc := ⟨.hbm, 73, rfl⟩
abbrev main_v1 : Ref sig .tc := ⟨.hbm, 74, rfl⟩
abbrev main_v2 : Ref sig .tc := ⟨.hbm, 75, rfl⟩
abbrev main_v3 : Ref sig .tc := ⟨.hbm, 76, rfl⟩
abbrev main_cst : Ref sig .tc := ⟨.hbm, 77, rfl⟩
abbrev main_v4 : Ref sig .tc := ⟨.hbm, 78, rfl⟩
abbrev main_cst_65 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_v8 : Ref sig .tc := ⟨.hbm, 83, rfl⟩
abbrev main_v9 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_cst_66 : Ref sig .tc := ⟨.hbm, 89, rfl⟩
abbrev main_v14 : Ref sig .tc := ⟨.hbm, 90, rfl⟩
abbrev main_v15 : Ref sig .tc := ⟨.hbm, 91, rfl⟩
abbrev main_cst_67 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_cst_68 : Ref sig .tc := ⟨.hbm, 97, rfl⟩
abbrev main_v20 : Ref sig .tc := ⟨.hbm, 98, rfl⟩
abbrev main_v21 : Ref sig .tc := ⟨.hbm, 99, rfl⟩
abbrev main_cst_69 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_cst_70 : Ref sig .tc := ⟨.hbm, 105, rfl⟩
abbrev main_v26 : Ref sig .tc := ⟨.hbm, 106, rfl⟩
abbrev main_v27 : Ref sig .tc := ⟨.hbm, 107, rfl⟩
abbrev main_cst_71 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_cst_72 : Ref sig .tc := ⟨.hbm, 113, rfl⟩
abbrev main_v32 : Ref sig .tc := ⟨.hbm, 114, rfl⟩
abbrev main_v33 : Ref sig .tc := ⟨.hbm, 115, rfl⟩
abbrev main_cst_73 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_cst_74 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_cst_75 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_c_76 : Ref sig .tc := ⟨.hbm, 131, rfl⟩
abbrev main_v46 : Ref sig .tc := ⟨.hbm, 132, rfl⟩
abbrev main_v47 : Ref sig .tc := ⟨.hbm, 133, rfl⟩
abbrev main_c_77 : Ref sig .tc := ⟨.hbm, 134, rfl⟩
abbrev main_v48 : Ref sig .tc := ⟨.hbm, 135, rfl⟩
abbrev main_v49 : Ref sig .tc := ⟨.hbm, 136, rfl⟩
abbrev main_c_78 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_c_79 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_c_80 : Ref sig .tc := ⟨.hbm, 149, rfl⟩
abbrev main_v60 : Ref sig .tc := ⟨.hbm, 150, rfl⟩
abbrev main_v61 : Ref sig .tc := ⟨.hbm, 151, rfl⟩
abbrev main_v62 : Ref sig .tc := ⟨.hbm, 152, rfl⟩
abbrev main_v63 : Ref sig .tc := ⟨.hbm, 153, rfl⟩
abbrev main_v64 : Ref sig .tc := ⟨.hbm, 154, rfl⟩
abbrev main_c_81 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_cst_82 : Ref sig .tc := ⟨.hbm, 179, rfl⟩
abbrev main_v88 : Ref sig .tc := ⟨.hbm, 180, rfl⟩
abbrev main_v89 : Ref sig .tc := ⟨.hbm, 181, rfl⟩
abbrev main_cst_83 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_cst_84 : Ref sig .tc := ⟨.hbm, 187, rfl⟩
abbrev main_v94 : Ref sig .tc := ⟨.hbm, 188, rfl⟩
abbrev main_v95 : Ref sig .tc := ⟨.hbm, 189, rfl⟩
abbrev main_cst_85 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_cst_86 : Ref sig .tc := ⟨.hbm, 195, rfl⟩
abbrev main_v100 : Ref sig .tc := ⟨.hbm, 196, rfl⟩
abbrev main_v101 : Ref sig .tc := ⟨.hbm, 197, rfl⟩
abbrev main_cst_87 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_cst_88 : Ref sig .tc := ⟨.hbm, 203, rfl⟩
abbrev main_v106 : Ref sig .tc := ⟨.hbm, 204, rfl⟩
abbrev main_v107 : Ref sig .tc := ⟨.hbm, 205, rfl⟩
abbrev main_cst_89 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_c_90 : Ref sig .tc := ⟨.hbm, 217, rfl⟩
abbrev main_v118 : Ref sig .tc := ⟨.hbm, 218, rfl⟩
abbrev main_v119 : Ref sig .tc := ⟨.hbm, 219, rfl⟩
abbrev main_c_91 : Ref sig .tc := ⟨.hbm, 220, rfl⟩
abbrev main_v120 : Ref sig .tc := ⟨.hbm, 221, rfl⟩
abbrev main_v121 : Ref sig .tc := ⟨.hbm, 222, rfl⟩
abbrev main_c_92 : Ref sig .tc := ⟨.hbm, 223, rfl⟩
abbrev main_v122 : Ref sig .tc := ⟨.hbm, 224, rfl⟩
abbrev main_v123 : Ref sig .tc := ⟨.hbm, 225, rfl⟩
abbrev main_v124 : Ref sig .tc := ⟨.hbm, 226, rfl⟩
abbrev main_v125 : Ref sig .tc := ⟨.hbm, 227, rfl⟩
abbrev main_v126 : Ref sig .tc := ⟨.hbm, 228, rfl⟩
abbrev main_c_93 : Ref sig .tc := ⟨.hbm, 229, rfl⟩
abbrev main_v127 : Ref sig .tc := ⟨.hbm, 230, rfl⟩
abbrev main_v128 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_c_94 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_c_95 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_96 : Ref sig .tc := ⟨.hbm, 265, rfl⟩
abbrev main_v160 : Ref sig .tc := ⟨.hbm, 266, rfl⟩
abbrev main_v161 : Ref sig .tc := ⟨.hbm, 267, rfl⟩
abbrev main_cst_97 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_cst_98 : Ref sig .tc := ⟨.hbm, 273, rfl⟩
abbrev main_v166 : Ref sig .tc := ⟨.hbm, 274, rfl⟩
abbrev main_v167 : Ref sig .tc := ⟨.hbm, 275, rfl⟩
abbrev main_cst_99 : Ref sig .tc := ⟨.hbm, 276, rfl⟩
abbrev main_v168 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_cst_100 : Ref sig .tc := ⟨.hbm, 281, rfl⟩
abbrev main_v172 : Ref sig .tc := ⟨.hbm, 282, rfl⟩
abbrev main_v173 : Ref sig .tc := ⟨.hbm, 283, rfl⟩
abbrev main_cst_101 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_cst_102 : Ref sig .tc := ⟨.hbm, 289, rfl⟩
abbrev main_v178 : Ref sig .tc := ⟨.hbm, 290, rfl⟩
abbrev main_v179 : Ref sig .tc := ⟨.hbm, 291, rfl⟩
abbrev main_cst_103 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_c_104 : Ref sig .tc := ⟨.hbm, 303, rfl⟩
abbrev main_v190 : Ref sig .tc := ⟨.hbm, 304, rfl⟩
abbrev main_v191 : Ref sig .tc := ⟨.hbm, 305, rfl⟩
abbrev main_c_105 : Ref sig .tc := ⟨.hbm, 306, rfl⟩
abbrev main_v192 : Ref sig .tc := ⟨.hbm, 307, rfl⟩
abbrev main_v193 : Ref sig .tc := ⟨.hbm, 308, rfl⟩
abbrev main_c_106 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_c_107 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_c_108 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_v208 : Ref sig .tc := ⟨.hbm, 326, rfl⟩
abbrev main_c_109 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_v212 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_v216 : Ref sig .tc := ⟨.hbm, 335, rfl⟩
abbrev main_v217 : Ref sig .tc := ⟨.hbm, 336, rfl⟩
abbrev main_v218 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_cst_110 : Ref sig .tc := ⟨.hbm, 351, rfl⟩
abbrev main_v232 : Ref sig .tc := ⟨.hbm, 352, rfl⟩
abbrev main_v233 : Ref sig .tc := ⟨.hbm, 353, rfl⟩
abbrev main_cst_111 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_cst_112 : Ref sig .tc := ⟨.hbm, 359, rfl⟩
abbrev main_v238 : Ref sig .tc := ⟨.hbm, 360, rfl⟩
abbrev main_v239 : Ref sig .tc := ⟨.hbm, 361, rfl⟩
abbrev main_cst_113 : Ref sig .tc := ⟨.hbm, 362, rfl⟩
abbrev main_v240 : Ref sig .tc := ⟨.hbm, 363, rfl⟩
abbrev main_v241 : Ref sig .tc := ⟨.hbm, 364, rfl⟩
abbrev main_v242 : Ref sig .tc := ⟨.hbm, 365, rfl⟩
abbrev main_v243 : Ref sig .tc := ⟨.hbm, 366, rfl⟩
abbrev main_cst_114 : Ref sig .tc := ⟨.hbm, 367, rfl⟩
abbrev main_v244 : Ref sig .tc := ⟨.hbm, 368, rfl⟩
abbrev main_v245 : Ref sig .tc := ⟨.hbm, 369, rfl⟩
abbrev main_cst_115 : Ref sig .tc := ⟨.hbm, 370, rfl⟩
abbrev main_v246 : Ref sig .tc := ⟨.hbm, 371, rfl⟩
abbrev main_v247 : Ref sig .tc := ⟨.hbm, 372, rfl⟩
abbrev main_v248 : Ref sig .tc := ⟨.hbm, 373, rfl⟩
abbrev main_v249 : Ref sig .tc := ⟨.hbm, 374, rfl⟩
abbrev main_cst_116 : Ref sig .tc := ⟨.hbm, 375, rfl⟩
abbrev main_v250 : Ref sig .tc := ⟨.hbm, 376, rfl⟩
abbrev main_v251 : Ref sig .tc := ⟨.hbm, 377, rfl⟩
abbrev main_cst_117 : Ref sig .tc := ⟨.hbm, 378, rfl⟩
abbrev main_v252 : Ref sig .tc := ⟨.hbm, 379, rfl⟩
abbrev main_v253 : Ref sig .tc := ⟨.hbm, 380, rfl⟩
abbrev main_v254 : Ref sig .tc := ⟨.hbm, 381, rfl⟩
abbrev main_v255 : Ref sig .tc := ⟨.hbm, 382, rfl⟩
abbrev main_v256 : Ref sig .tc := ⟨.hbm, 383, rfl⟩
abbrev main_v257 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_c_118 : Ref sig .tc := ⟨.hbm, 389, rfl⟩
abbrev main_v262 : Ref sig .tc := ⟨.hbm, 390, rfl⟩
abbrev main_v263 : Ref sig .tc := ⟨.hbm, 391, rfl⟩
abbrev main_c_119 : Ref sig .tc := ⟨.hbm, 392, rfl⟩
abbrev main_v264 : Ref sig .tc := ⟨.hbm, 393, rfl⟩
abbrev main_v265 : Ref sig .tc := ⟨.hbm, 394, rfl⟩
abbrev main_c_120 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_c_121 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_c_122 : Ref sig .tc := ⟨.hbm, 407, rfl⟩
abbrev main_v276 : Ref sig .tc := ⟨.hbm, 408, rfl⟩
abbrev main_v277 : Ref sig .tc := ⟨.hbm, 409, rfl⟩
abbrev main_v278 : Ref sig .tc := ⟨.hbm, 410, rfl⟩
abbrev main_v279 : Ref sig .tc := ⟨.hbm, 411, rfl⟩
abbrev main_v280 : Ref sig .tc := ⟨.hbm, 412, rfl⟩
abbrev main_c_123 : Ref sig .tc := ⟨.hbm, 413, rfl⟩
abbrev main_v281 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_v291 : Ref sig .tc := ⟨.hbm, 424, rfl⟩
abbrev main_v292 : Ref sig .tc := ⟨.hbm, 425, rfl⟩
abbrev main_v293 : Ref sig .tc := ⟨.hbm, 426, rfl⟩
abbrev main_v294 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_v298 : Ref sig .tc := ⟨.hbm, 431, rfl⟩
abbrev main_v299 : Ref sig .tc := ⟨.hbm, 432, rfl⟩
abbrev main_v300 : Ref sig .tc := ⟨.hbm, 433, rfl⟩
abbrev main_v301 : Ref sig .tc := ⟨.hbm, 434, rfl⟩
abbrev main_v302 : Ref sig .tc := ⟨.hbm, 435, rfl⟩
abbrev main_v303 : Ref sig .tc := ⟨.hbm, 436, rfl⟩
abbrev main_cst_124 : Ref sig .tc := ⟨.hbm, 437, rfl⟩
abbrev main_v304 : Ref sig .tc := ⟨.hbm, 438, rfl⟩
abbrev main_v305 : Ref sig .tc := ⟨.hbm, 439, rfl⟩
abbrev main_cst_125 : Ref sig .tc := ⟨.hbm, 440, rfl⟩
abbrev main_v306 : Ref sig .tc := ⟨.hbm, 441, rfl⟩
abbrev main_v307 : Ref sig .tc := ⟨.hbm, 442, rfl⟩
abbrev main_v308 : Ref sig .tc := ⟨.hbm, 443, rfl⟩
abbrev main_v309 : Ref sig .tc := ⟨.hbm, 444, rfl⟩
abbrev main_cst_126 : Ref sig .tc := ⟨.hbm, 445, rfl⟩
abbrev main_v310 : Ref sig .tc := ⟨.hbm, 446, rfl⟩
abbrev main_v311 : Ref sig .tc := ⟨.hbm, 447, rfl⟩
abbrev main_cst_127 : Ref sig .tc := ⟨.hbm, 448, rfl⟩
abbrev main_v312 : Ref sig .tc := ⟨.hbm, 449, rfl⟩
abbrev main_v313 : Ref sig .tc := ⟨.hbm, 450, rfl⟩
abbrev main_v314 : Ref sig .tc := ⟨.hbm, 451, rfl⟩
abbrev main_v315 : Ref sig .tc := ⟨.hbm, 452, rfl⟩
abbrev main_cst_128 : Ref sig .tc := ⟨.hbm, 453, rfl⟩
abbrev main_v316 : Ref sig .tc := ⟨.hbm, 454, rfl⟩
abbrev main_v317 : Ref sig .tc := ⟨.hbm, 455, rfl⟩
abbrev main_cst_129 : Ref sig .tc := ⟨.hbm, 456, rfl⟩
abbrev main_v318 : Ref sig .tc := ⟨.hbm, 457, rfl⟩
abbrev main_v319 : Ref sig .tc := ⟨.hbm, 458, rfl⟩
abbrev main_v320 : Ref sig .tc := ⟨.hbm, 459, rfl⟩
abbrev main_v321 : Ref sig .tc := ⟨.hbm, 460, rfl⟩
abbrev main_cst_130 : Ref sig .tc := ⟨.hbm, 461, rfl⟩
abbrev main_v322 : Ref sig .tc := ⟨.hbm, 462, rfl⟩
abbrev main_v323 : Ref sig .tc := ⟨.hbm, 463, rfl⟩
abbrev main_cst_131 : Ref sig .tc := ⟨.hbm, 464, rfl⟩
abbrev main_v324 : Ref sig .tc := ⟨.hbm, 465, rfl⟩
abbrev main_v325 : Ref sig .tc := ⟨.hbm, 466, rfl⟩
abbrev main_v326 : Ref sig .tc := ⟨.hbm, 467, rfl⟩
abbrev main_v327 : Ref sig .tc := ⟨.hbm, 468, rfl⟩
abbrev main_v328 : Ref sig .tc := ⟨.hbm, 469, rfl⟩
abbrev main_v329 : Ref sig .tc := ⟨.hbm, 470, rfl⟩
abbrev main_v330 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_c_132 : Ref sig .tc := ⟨.hbm, 475, rfl⟩
abbrev main_v334 : Ref sig .tc := ⟨.hbm, 476, rfl⟩
abbrev main_v335 : Ref sig .tc := ⟨.hbm, 477, rfl⟩
abbrev main_c_133 : Ref sig .tc := ⟨.hbm, 478, rfl⟩
abbrev main_v336 : Ref sig .tc := ⟨.hbm, 479, rfl⟩
abbrev main_v337 : Ref sig .tc := ⟨.hbm, 480, rfl⟩
abbrev main_c_134 : Ref sig .tc := ⟨.hbm, 481, rfl⟩
abbrev main_v338 : Ref sig .tc := ⟨.hbm, 482, rfl⟩
abbrev main_v339 : Ref sig .tc := ⟨.hbm, 483, rfl⟩
abbrev main_v340 : Ref sig .tc := ⟨.hbm, 484, rfl⟩
abbrev main_v341 : Ref sig .tc := ⟨.hbm, 485, rfl⟩
abbrev main_v342 : Ref sig .tc := ⟨.hbm, 486, rfl⟩
abbrev main_c_135 : Ref sig .tc := ⟨.hbm, 487, rfl⟩
abbrev main_v343 : Ref sig .tc := ⟨.hbm, 488, rfl⟩
abbrev main_v344 : Ref sig .tc := ⟨.hbm, 489, rfl⟩
abbrev main_v345 : Ref sig .tc := ⟨.hbm, 490, rfl⟩
abbrev main_v346 : Ref sig .tc := ⟨.hbm, 491, rfl⟩
abbrev main_v347 : Ref sig .tc := ⟨.hbm, 492, rfl⟩
abbrev main_c_136 : Ref sig .tc := ⟨.hbm, 493, rfl⟩
abbrev main_v348 : Ref sig .tc := ⟨.hbm, 494, rfl⟩
abbrev main_v349 : Ref sig .tc := ⟨.hbm, 495, rfl⟩
abbrev main_v350 : Ref sig .tc := ⟨.hbm, 496, rfl⟩
abbrev main_v351 : Ref sig .tc := ⟨.hbm, 497, rfl⟩
abbrev main_v352 : Ref sig .tc := ⟨.hbm, 498, rfl⟩
abbrev main_c_137 : Ref sig .tc := ⟨.hbm, 499, rfl⟩
abbrev main_v353 : Ref sig .tc := ⟨.hbm, 500, rfl⟩
abbrev main_v354 : Ref sig .tc := ⟨.hbm, 501, rfl⟩
abbrev main_v355 : Ref sig .tc := ⟨.hbm, 502, rfl⟩
abbrev main_v356 : Ref sig .tc := ⟨.hbm, 503, rfl⟩
abbrev main_v357 : Ref sig .tc := ⟨.hbm, 504, rfl⟩
abbrev main_v358 : Ref sig .tc := ⟨.hbm, 505, rfl⟩
abbrev main_v359 : Ref sig .tc := ⟨.hbm, 506, rfl⟩
abbrev main_v360 : Ref sig .tc := ⟨.hbm, 507, rfl⟩
abbrev main_v361 : Ref sig .tc := ⟨.hbm, 508, rfl⟩
abbrev main_v362 : Ref sig .tc := ⟨.hbm, 509, rfl⟩
abbrev main_v363 : Ref sig .tc := ⟨.hbm, 510, rfl⟩
abbrev main_v364 : Ref sig .tc := ⟨.hbm, 511, rfl⟩
abbrev main_v365 : Ref sig .tc := ⟨.hbm, 512, rfl⟩
abbrev main_v366 : Ref sig .tc := ⟨.hbm, 513, rfl⟩
abbrev main_v367 : Ref sig .tc := ⟨.hbm, 514, rfl⟩
abbrev main_v368 : Ref sig .tc := ⟨.hbm, 515, rfl⟩
abbrev main_v369 : Ref sig .tc := ⟨.hbm, 516, rfl⟩
abbrev main_v370 : Ref sig .tc := ⟨.hbm, 517, rfl⟩
abbrev main_v371 : Ref sig .tc := ⟨.hbm, 518, rfl⟩
abbrev main_v372 : Ref sig .tc := ⟨.hbm, 519, rfl⟩
abbrev main_v373 : Ref sig .tc := ⟨.hbm, 520, rfl⟩
abbrev main_v374 : Ref sig .tc := ⟨.hbm, 521, rfl⟩
abbrev main_v375 : Ref sig .tc := ⟨.hbm, 522, rfl⟩
abbrev main_cst_138 : Ref sig .tc := ⟨.hbm, 523, rfl⟩
abbrev main_v376 : Ref sig .tc := ⟨.hbm, 524, rfl⟩
abbrev main_v377 : Ref sig .tc := ⟨.hbm, 525, rfl⟩
abbrev main_cst_139 : Ref sig .tc := ⟨.hbm, 526, rfl⟩
abbrev main_v378 : Ref sig .tc := ⟨.hbm, 527, rfl⟩
abbrev main_v379 : Ref sig .tc := ⟨.hbm, 528, rfl⟩
abbrev main_v380 : Ref sig .tc := ⟨.hbm, 529, rfl⟩
abbrev main_v381 : Ref sig .tc := ⟨.hbm, 530, rfl⟩
abbrev main_cst_140 : Ref sig .tc := ⟨.hbm, 531, rfl⟩
abbrev main_v382 : Ref sig .tc := ⟨.hbm, 532, rfl⟩
abbrev main_v383 : Ref sig .tc := ⟨.hbm, 533, rfl⟩
abbrev main_cst_141 : Ref sig .tc := ⟨.hbm, 534, rfl⟩
abbrev main_v384 : Ref sig .tc := ⟨.hbm, 535, rfl⟩
abbrev main_v385 : Ref sig .tc := ⟨.hbm, 536, rfl⟩
abbrev main_v386 : Ref sig .tc := ⟨.hbm, 537, rfl⟩
abbrev main_v387 : Ref sig .tc := ⟨.hbm, 538, rfl⟩
abbrev main_cst_142 : Ref sig .tc := ⟨.hbm, 539, rfl⟩
abbrev main_v388 : Ref sig .tc := ⟨.hbm, 540, rfl⟩
abbrev main_v389 : Ref sig .tc := ⟨.hbm, 541, rfl⟩
abbrev main_cst_143 : Ref sig .tc := ⟨.hbm, 542, rfl⟩
abbrev main_v390 : Ref sig .tc := ⟨.hbm, 543, rfl⟩
abbrev main_v391 : Ref sig .tc := ⟨.hbm, 544, rfl⟩
abbrev main_v392 : Ref sig .tc := ⟨.hbm, 545, rfl⟩
abbrev main_v393 : Ref sig .tc := ⟨.hbm, 546, rfl⟩
abbrev main_cst_144 : Ref sig .tc := ⟨.hbm, 547, rfl⟩
abbrev main_v394 : Ref sig .tc := ⟨.hbm, 548, rfl⟩
abbrev main_v395 : Ref sig .tc := ⟨.hbm, 549, rfl⟩
abbrev main_cst_145 : Ref sig .tc := ⟨.hbm, 550, rfl⟩
abbrev main_v396 : Ref sig .tc := ⟨.hbm, 551, rfl⟩
abbrev main_v397 : Ref sig .tc := ⟨.hbm, 552, rfl⟩
abbrev main_v398 : Ref sig .tc := ⟨.hbm, 553, rfl⟩
abbrev main_v399 : Ref sig .tc := ⟨.hbm, 554, rfl⟩
abbrev main_v400 : Ref sig .tc := ⟨.hbm, 555, rfl⟩
abbrev main_v401 : Ref sig .tc := ⟨.hbm, 556, rfl⟩
abbrev main_v402 : Ref sig .tc := ⟨.hbm, 557, rfl⟩
abbrev main_v403 : Ref sig .tc := ⟨.hbm, 558, rfl⟩
abbrev main_v404 : Ref sig .tc := ⟨.hbm, 559, rfl⟩
abbrev main_v405 : Ref sig .tc := ⟨.hbm, 560, rfl⟩
abbrev main_c_146 : Ref sig .tc := ⟨.hbm, 561, rfl⟩
abbrev main_v406 : Ref sig .tc := ⟨.hbm, 562, rfl⟩
abbrev main_v407 : Ref sig .tc := ⟨.hbm, 563, rfl⟩
abbrev main_c_147 : Ref sig .tc := ⟨.hbm, 564, rfl⟩
abbrev main_v408 : Ref sig .tc := ⟨.hbm, 565, rfl⟩
abbrev main_v409 : Ref sig .tc := ⟨.hbm, 566, rfl⟩
abbrev main_c_148 : Ref sig .tc := ⟨.hbm, 567, rfl⟩
abbrev main_v410 : Ref sig .tc := ⟨.hbm, 568, rfl⟩
abbrev main_v411 : Ref sig .tc := ⟨.hbm, 569, rfl⟩
abbrev main_v412 : Ref sig .tc := ⟨.hbm, 570, rfl⟩
abbrev main_v413 : Ref sig .tc := ⟨.hbm, 571, rfl⟩
abbrev main_v414 : Ref sig .tc := ⟨.hbm, 572, rfl⟩
abbrev main_c_149 : Ref sig .tc := ⟨.hbm, 573, rfl⟩
abbrev main_v415 : Ref sig .tc := ⟨.hbm, 574, rfl⟩
abbrev main_v416 : Ref sig .tc := ⟨.hbm, 575, rfl⟩
abbrev main_v417 : Ref sig .tc := ⟨.hbm, 576, rfl⟩
abbrev main_v418 : Ref sig .tc := ⟨.hbm, 577, rfl⟩
abbrev main_v419 : Ref sig .tc := ⟨.hbm, 578, rfl⟩
abbrev main_c_150 : Ref sig .tc := ⟨.hbm, 579, rfl⟩
abbrev main_v420 : Ref sig .tc := ⟨.hbm, 580, rfl⟩
abbrev main_v421 : Ref sig .tc := ⟨.hbm, 581, rfl⟩
abbrev main_v422 : Ref sig .tc := ⟨.hbm, 582, rfl⟩
abbrev main_v423 : Ref sig .tc := ⟨.hbm, 583, rfl⟩
abbrev main_v424 : Ref sig .tc := ⟨.hbm, 584, rfl⟩
abbrev main_c_151 : Ref sig .tc := ⟨.hbm, 585, rfl⟩
abbrev main_v425 : Ref sig .tc := ⟨.hbm, 586, rfl⟩
abbrev main_v426 : Ref sig .tc := ⟨.hbm, 587, rfl⟩
abbrev main_v427 : Ref sig .tc := ⟨.hbm, 588, rfl⟩
abbrev main_v428 : Ref sig .tc := ⟨.hbm, 589, rfl⟩
abbrev main_v429 : Ref sig .tc := ⟨.hbm, 590, rfl⟩
abbrev main_v430 : Ref sig .tc := ⟨.hbm, 591, rfl⟩
abbrev main_v431 : Ref sig .tc := ⟨.hbm, 592, rfl⟩
abbrev main_v432 : Ref sig .tc := ⟨.hbm, 593, rfl⟩
abbrev main_v433 : Ref sig .tc := ⟨.hbm, 594, rfl⟩
abbrev main_v434 : Ref sig .tc := ⟨.hbm, 595, rfl⟩
abbrev main_v435 : Ref sig .tc := ⟨.hbm, 596, rfl⟩
abbrev main_v436 : Ref sig .tc := ⟨.hbm, 597, rfl⟩
abbrev main_v437 : Ref sig .tc := ⟨.hbm, 598, rfl⟩
abbrev main_v438 : Ref sig .tc := ⟨.hbm, 599, rfl⟩
abbrev main_v439 : Ref sig .tc := ⟨.hbm, 600, rfl⟩
abbrev main_v440 : Ref sig .tc := ⟨.hbm, 601, rfl⟩
abbrev main_v441 : Ref sig .tc := ⟨.hbm, 602, rfl⟩
abbrev main_v442 : Ref sig .tc := ⟨.hbm, 603, rfl⟩
abbrev main_v443 : Ref sig .tc := ⟨.hbm, 604, rfl⟩
abbrev main_v444 : Ref sig .tc := ⟨.hbm, 605, rfl⟩
abbrev main_v445 : Ref sig .tc := ⟨.hbm, 606, rfl⟩
abbrev main_v446 : Ref sig .tc := ⟨.hbm, 607, rfl⟩
abbrev main_v447 : Ref sig .tc := ⟨.hbm, 608, rfl⟩
abbrev main_cst_152 : Ref sig .tc := ⟨.hbm, 609, rfl⟩
abbrev main_v448 : Ref sig .tc := ⟨.hbm, 610, rfl⟩
abbrev main_v449 : Ref sig .tc := ⟨.hbm, 611, rfl⟩
abbrev main_cst_153 : Ref sig .tc := ⟨.hbm, 612, rfl⟩
abbrev main_v450 : Ref sig .tc := ⟨.hbm, 613, rfl⟩
abbrev main_v451 : Ref sig .tc := ⟨.hbm, 614, rfl⟩
abbrev main_v452 : Ref sig .tc := ⟨.hbm, 615, rfl⟩
abbrev main_v453 : Ref sig .tc := ⟨.hbm, 616, rfl⟩
abbrev main_cst_154 : Ref sig .tc := ⟨.hbm, 617, rfl⟩
abbrev main_v454 : Ref sig .tc := ⟨.hbm, 618, rfl⟩
abbrev main_v455 : Ref sig .tc := ⟨.hbm, 619, rfl⟩
abbrev main_cst_155 : Ref sig .tc := ⟨.hbm, 620, rfl⟩
abbrev main_v456 : Ref sig .tc := ⟨.hbm, 621, rfl⟩
abbrev main_v457 : Ref sig .tc := ⟨.hbm, 622, rfl⟩
abbrev main_v458 : Ref sig .tc := ⟨.hbm, 623, rfl⟩
abbrev main_v459 : Ref sig .tc := ⟨.hbm, 624, rfl⟩
abbrev main_cst_156 : Ref sig .tc := ⟨.hbm, 625, rfl⟩
abbrev main_v460 : Ref sig .tc := ⟨.hbm, 626, rfl⟩
abbrev main_v461 : Ref sig .tc := ⟨.hbm, 627, rfl⟩
abbrev main_cst_157 : Ref sig .tc := ⟨.hbm, 628, rfl⟩
abbrev main_v462 : Ref sig .tc := ⟨.hbm, 629, rfl⟩
abbrev main_v463 : Ref sig .tc := ⟨.hbm, 630, rfl⟩
abbrev main_v464 : Ref sig .tc := ⟨.hbm, 631, rfl⟩
abbrev main_v465 : Ref sig .tc := ⟨.hbm, 632, rfl⟩
abbrev main_cst_158 : Ref sig .tc := ⟨.hbm, 633, rfl⟩
abbrev main_v466 : Ref sig .tc := ⟨.hbm, 634, rfl⟩
abbrev main_v467 : Ref sig .tc := ⟨.hbm, 635, rfl⟩
abbrev main_cst_159 : Ref sig .tc := ⟨.hbm, 636, rfl⟩
abbrev main_v468 : Ref sig .tc := ⟨.hbm, 637, rfl⟩
abbrev main_v469 : Ref sig .tc := ⟨.hbm, 638, rfl⟩
abbrev main_v470 : Ref sig .tc := ⟨.hbm, 639, rfl⟩
abbrev main_v471 : Ref sig .tc := ⟨.hbm, 640, rfl⟩
abbrev main_v472 : Ref sig .tc := ⟨.hbm, 641, rfl⟩
abbrev main_v473 : Ref sig .tc := ⟨.hbm, 642, rfl⟩
abbrev main_v474 : Ref sig .tc := ⟨.hbm, 643, rfl⟩
abbrev main_v475 : Ref sig .tc := ⟨.hbm, 644, rfl⟩
abbrev main_v476 : Ref sig .tc := ⟨.hbm, 645, rfl⟩
abbrev main_v477 : Ref sig .tc := ⟨.hbm, 646, rfl⟩
abbrev main_c_160 : Ref sig .tc := ⟨.hbm, 647, rfl⟩
abbrev main_v478 : Ref sig .tc := ⟨.hbm, 648, rfl⟩
abbrev main_v479 : Ref sig .tc := ⟨.hbm, 649, rfl⟩
abbrev main_c_161 : Ref sig .tc := ⟨.hbm, 650, rfl⟩
abbrev main_v480 : Ref sig .tc := ⟨.hbm, 651, rfl⟩
abbrev main_v481 : Ref sig .tc := ⟨.hbm, 652, rfl⟩
abbrev main_c_162 : Ref sig .tc := ⟨.hbm, 653, rfl⟩
abbrev main_v482 : Ref sig .tc := ⟨.hbm, 654, rfl⟩
abbrev main_v483 : Ref sig .tc := ⟨.hbm, 655, rfl⟩
abbrev main_v484 : Ref sig .tc := ⟨.hbm, 656, rfl⟩
abbrev main_v485 : Ref sig .tc := ⟨.hbm, 657, rfl⟩
abbrev main_v486 : Ref sig .tc := ⟨.hbm, 658, rfl⟩
abbrev main_c_163 : Ref sig .tc := ⟨.hbm, 659, rfl⟩
abbrev main_v487 : Ref sig .tc := ⟨.hbm, 660, rfl⟩
abbrev main_v488 : Ref sig .tc := ⟨.hbm, 661, rfl⟩
abbrev main_v489 : Ref sig .tc := ⟨.hbm, 662, rfl⟩
abbrev main_v490 : Ref sig .tc := ⟨.hbm, 663, rfl⟩
abbrev main_v491 : Ref sig .tc := ⟨.hbm, 664, rfl⟩
abbrev main_c_164 : Ref sig .tc := ⟨.hbm, 665, rfl⟩
abbrev main_v492 : Ref sig .tc := ⟨.hbm, 666, rfl⟩
abbrev main_v493 : Ref sig .tc := ⟨.hbm, 667, rfl⟩
abbrev main_v494 : Ref sig .tc := ⟨.hbm, 668, rfl⟩
abbrev main_v495 : Ref sig .tc := ⟨.hbm, 669, rfl⟩
abbrev main_v496 : Ref sig .tc := ⟨.hbm, 670, rfl⟩
abbrev main_c_165 : Ref sig .tc := ⟨.hbm, 671, rfl⟩
abbrev main_v497 : Ref sig .tc := ⟨.hbm, 672, rfl⟩
abbrev main_v498 : Ref sig .tc := ⟨.hbm, 673, rfl⟩
abbrev main_v499 : Ref sig .tc := ⟨.hbm, 674, rfl⟩
abbrev main_v500 : Ref sig .tc := ⟨.hbm, 675, rfl⟩
abbrev main_v501 : Ref sig .tc := ⟨.hbm, 676, rfl⟩
abbrev main_v502 : Ref sig .tc := ⟨.hbm, 677, rfl⟩
abbrev main_v503 : Ref sig .tc := ⟨.hbm, 678, rfl⟩
abbrev main_v504 : Ref sig .tc := ⟨.hbm, 679, rfl⟩
abbrev main_v505 : Ref sig .tc := ⟨.hbm, 680, rfl⟩
abbrev main_v506 : Ref sig .tc := ⟨.hbm, 681, rfl⟩
abbrev main_v507 : Ref sig .tc := ⟨.hbm, 682, rfl⟩
abbrev main_v508 : Ref sig .tc := ⟨.hbm, 683, rfl⟩
abbrev main_v509 : Ref sig .tc := ⟨.hbm, 684, rfl⟩
abbrev main_v510 : Ref sig .tc := ⟨.hbm, 685, rfl⟩
abbrev main_v511 : Ref sig .tc := ⟨.hbm, 686, rfl⟩
abbrev main_v512 : Ref sig .tc := ⟨.hbm, 687, rfl⟩
abbrev main_v513 : Ref sig .tc := ⟨.hbm, 688, rfl⟩
abbrev main_v514 : Ref sig .tc := ⟨.hbm, 689, rfl⟩
abbrev main_v515 : Ref sig .tc := ⟨.hbm, 690, rfl⟩
abbrev main_v516 : Ref sig .tc := ⟨.hbm, 691, rfl⟩
abbrev main_v517 : Ref sig .tc := ⟨.hbm, 692, rfl⟩
abbrev main_v518 : Ref sig .tc := ⟨.hbm, 693, rfl⟩
abbrev main_v519 : Ref sig .tc := ⟨.hbm, 694, rfl⟩
abbrev main_cst_166 : Ref sig .tc := ⟨.hbm, 695, rfl⟩
abbrev main_v520 : Ref sig .tc := ⟨.hbm, 696, rfl⟩
abbrev main_v521 : Ref sig .tc := ⟨.hbm, 697, rfl⟩
abbrev main_cst_167 : Ref sig .tc := ⟨.hbm, 698, rfl⟩
abbrev main_v522 : Ref sig .tc := ⟨.hbm, 699, rfl⟩
abbrev main_v523 : Ref sig .tc := ⟨.hbm, 700, rfl⟩
abbrev main_v524 : Ref sig .tc := ⟨.hbm, 701, rfl⟩
abbrev main_v525 : Ref sig .tc := ⟨.hbm, 702, rfl⟩
abbrev main_cst_168 : Ref sig .tc := ⟨.hbm, 703, rfl⟩
abbrev main_v526 : Ref sig .tc := ⟨.hbm, 704, rfl⟩
abbrev main_v527 : Ref sig .tc := ⟨.hbm, 705, rfl⟩
abbrev main_cst_169 : Ref sig .tc := ⟨.hbm, 706, rfl⟩
abbrev main_v528 : Ref sig .tc := ⟨.hbm, 707, rfl⟩
abbrev main_v529 : Ref sig .tc := ⟨.hbm, 708, rfl⟩
abbrev main_v530 : Ref sig .tc := ⟨.hbm, 709, rfl⟩
abbrev main_v531 : Ref sig .tc := ⟨.hbm, 710, rfl⟩
abbrev main_cst_170 : Ref sig .tc := ⟨.hbm, 711, rfl⟩
abbrev main_v532 : Ref sig .tc := ⟨.hbm, 712, rfl⟩
abbrev main_v533 : Ref sig .tc := ⟨.hbm, 713, rfl⟩
abbrev main_cst_171 : Ref sig .tc := ⟨.hbm, 714, rfl⟩
abbrev main_v534 : Ref sig .tc := ⟨.hbm, 715, rfl⟩
abbrev main_v535 : Ref sig .tc := ⟨.hbm, 716, rfl⟩
abbrev main_v536 : Ref sig .tc := ⟨.hbm, 717, rfl⟩
abbrev main_v537 : Ref sig .tc := ⟨.hbm, 718, rfl⟩
abbrev main_cst_172 : Ref sig .tc := ⟨.hbm, 719, rfl⟩
abbrev main_v538 : Ref sig .tc := ⟨.hbm, 720, rfl⟩
abbrev main_v539 : Ref sig .tc := ⟨.hbm, 721, rfl⟩
abbrev main_cst_173 : Ref sig .tc := ⟨.hbm, 722, rfl⟩
abbrev main_v540 : Ref sig .tc := ⟨.hbm, 723, rfl⟩
abbrev main_v541 : Ref sig .tc := ⟨.hbm, 724, rfl⟩
abbrev main_v542 : Ref sig .tc := ⟨.hbm, 725, rfl⟩
abbrev main_v543 : Ref sig .tc := ⟨.hbm, 726, rfl⟩
abbrev main_v544 : Ref sig .tc := ⟨.hbm, 727, rfl⟩
abbrev main_v545 : Ref sig .tc := ⟨.hbm, 728, rfl⟩
abbrev main_v546 : Ref sig .tc := ⟨.hbm, 729, rfl⟩
abbrev main_v547 : Ref sig .tc := ⟨.hbm, 730, rfl⟩
abbrev main_v548 : Ref sig .tc := ⟨.hbm, 731, rfl⟩
abbrev main_v549 : Ref sig .tc := ⟨.hbm, 732, rfl⟩
abbrev main_c_174 : Ref sig .tc := ⟨.hbm, 733, rfl⟩
abbrev main_v550 : Ref sig .tc := ⟨.hbm, 734, rfl⟩
abbrev main_v551 : Ref sig .tc := ⟨.hbm, 735, rfl⟩
abbrev main_c_175 : Ref sig .tc := ⟨.hbm, 736, rfl⟩
abbrev main_v552 : Ref sig .tc := ⟨.hbm, 737, rfl⟩
abbrev main_v553 : Ref sig .tc := ⟨.hbm, 738, rfl⟩
abbrev main_c_176 : Ref sig .tc := ⟨.hbm, 739, rfl⟩
abbrev main_v554 : Ref sig .tc := ⟨.hbm, 740, rfl⟩
abbrev main_v555 : Ref sig .tc := ⟨.hbm, 741, rfl⟩
abbrev main_v556 : Ref sig .tc := ⟨.hbm, 742, rfl⟩
abbrev main_v557 : Ref sig .tc := ⟨.hbm, 743, rfl⟩
abbrev main_v558 : Ref sig .tc := ⟨.hbm, 744, rfl⟩
abbrev main_c_177 : Ref sig .tc := ⟨.hbm, 745, rfl⟩
abbrev main_v559 : Ref sig .tc := ⟨.hbm, 746, rfl⟩
abbrev main_v560 : Ref sig .tc := ⟨.hbm, 747, rfl⟩
abbrev main_v561 : Ref sig .tc := ⟨.hbm, 748, rfl⟩
abbrev main_v562 : Ref sig .tc := ⟨.hbm, 749, rfl⟩
abbrev main_v563 : Ref sig .tc := ⟨.hbm, 750, rfl⟩
abbrev main_c_178 : Ref sig .tc := ⟨.hbm, 751, rfl⟩
abbrev main_v564 : Ref sig .tc := ⟨.hbm, 752, rfl⟩
abbrev main_v565 : Ref sig .tc := ⟨.hbm, 753, rfl⟩
abbrev main_v566 : Ref sig .tc := ⟨.hbm, 754, rfl⟩
abbrev main_v567 : Ref sig .tc := ⟨.hbm, 755, rfl⟩
abbrev main_v568 : Ref sig .tc := ⟨.hbm, 756, rfl⟩
abbrev main_c_179 : Ref sig .tc := ⟨.hbm, 757, rfl⟩
abbrev main_v569 : Ref sig .tc := ⟨.hbm, 758, rfl⟩
abbrev main_v570 : Ref sig .tc := ⟨.hbm, 759, rfl⟩
abbrev main_v571 : Ref sig .tc := ⟨.hbm, 760, rfl⟩
abbrev main_v572 : Ref sig .tc := ⟨.hbm, 761, rfl⟩
abbrev main_v573 : Ref sig .tc := ⟨.hbm, 762, rfl⟩
abbrev main_v574 : Ref sig .tc := ⟨.hbm, 763, rfl⟩
abbrev main_v575 : Ref sig .tc := ⟨.hbm, 764, rfl⟩
abbrev main_v576 : Ref sig .tc := ⟨.hbm, 765, rfl⟩
abbrev main_v577 : Ref sig .tc := ⟨.hbm, 766, rfl⟩
abbrev main_v578 : Ref sig .tc := ⟨.hbm, 767, rfl⟩
abbrev main_v579 : Ref sig .tc := ⟨.hbm, 768, rfl⟩
abbrev main_v580 : Ref sig .tc := ⟨.hbm, 769, rfl⟩
abbrev main_v581 : Ref sig .tc := ⟨.hbm, 770, rfl⟩
abbrev main_v582 : Ref sig .tc := ⟨.hbm, 771, rfl⟩
abbrev main_v583 : Ref sig .tc := ⟨.hbm, 772, rfl⟩
abbrev main_v584 : Ref sig .tc := ⟨.hbm, 773, rfl⟩
abbrev main_v585 : Ref sig .tc := ⟨.hbm, 774, rfl⟩
abbrev main_v586 : Ref sig .tc := ⟨.hbm, 775, rfl⟩
abbrev main_v587 : Ref sig .tc := ⟨.hbm, 776, rfl⟩
abbrev main_v588 : Ref sig .tc := ⟨.hbm, 777, rfl⟩
abbrev main_v589 : Ref sig .tc := ⟨.hbm, 778, rfl⟩
abbrev main_v590 : Ref sig .tc := ⟨.hbm, 779, rfl⟩
abbrev main_v591 : Ref sig .tc := ⟨.hbm, 780, rfl⟩
abbrev main_cst_180 : Ref sig .tc := ⟨.hbm, 781, rfl⟩
abbrev main_v592 : Ref sig .tc := ⟨.hbm, 782, rfl⟩
abbrev main_v593 : Ref sig .tc := ⟨.hbm, 783, rfl⟩
abbrev main_cst_181 : Ref sig .tc := ⟨.hbm, 784, rfl⟩
abbrev main_v594 : Ref sig .tc := ⟨.hbm, 785, rfl⟩
abbrev main_v595 : Ref sig .tc := ⟨.hbm, 786, rfl⟩
abbrev main_v596 : Ref sig .tc := ⟨.hbm, 787, rfl⟩
abbrev main_v597 : Ref sig .tc := ⟨.hbm, 788, rfl⟩
abbrev main_cst_182 : Ref sig .tc := ⟨.hbm, 789, rfl⟩
abbrev main_v598 : Ref sig .tc := ⟨.hbm, 790, rfl⟩
abbrev main_v599 : Ref sig .tc := ⟨.hbm, 791, rfl⟩
abbrev main_cst_183 : Ref sig .tc := ⟨.hbm, 792, rfl⟩
abbrev main_v600 : Ref sig .tc := ⟨.hbm, 793, rfl⟩
abbrev main_v601 : Ref sig .tc := ⟨.hbm, 794, rfl⟩
abbrev main_v602 : Ref sig .tc := ⟨.hbm, 795, rfl⟩
abbrev main_v603 : Ref sig .tc := ⟨.hbm, 796, rfl⟩
abbrev main_cst_184 : Ref sig .tc := ⟨.hbm, 797, rfl⟩
abbrev main_v604 : Ref sig .tc := ⟨.hbm, 798, rfl⟩
abbrev main_v605 : Ref sig .tc := ⟨.hbm, 799, rfl⟩
abbrev main_cst_185 : Ref sig .tc := ⟨.hbm, 800, rfl⟩
abbrev main_v606 : Ref sig .tc := ⟨.hbm, 801, rfl⟩
abbrev main_v607 : Ref sig .tc := ⟨.hbm, 802, rfl⟩
abbrev main_v608 : Ref sig .tc := ⟨.hbm, 803, rfl⟩
abbrev main_v609 : Ref sig .tc := ⟨.hbm, 804, rfl⟩
abbrev main_cst_186 : Ref sig .tc := ⟨.hbm, 805, rfl⟩
abbrev main_v610 : Ref sig .tc := ⟨.hbm, 806, rfl⟩
abbrev main_v611 : Ref sig .tc := ⟨.hbm, 807, rfl⟩
abbrev main_cst_187 : Ref sig .tc := ⟨.hbm, 808, rfl⟩
abbrev main_v612 : Ref sig .tc := ⟨.hbm, 809, rfl⟩
abbrev main_v613 : Ref sig .tc := ⟨.hbm, 810, rfl⟩
abbrev main_v614 : Ref sig .tc := ⟨.hbm, 811, rfl⟩
abbrev main_v615 : Ref sig .tc := ⟨.hbm, 812, rfl⟩
abbrev main_v616 : Ref sig .tc := ⟨.hbm, 813, rfl⟩
abbrev main_v617 : Ref sig .tc := ⟨.hbm, 814, rfl⟩
abbrev main_v618 : Ref sig .tc := ⟨.hbm, 815, rfl⟩
abbrev main_v619 : Ref sig .tc := ⟨.hbm, 816, rfl⟩
abbrev main_v620 : Ref sig .tc := ⟨.hbm, 817, rfl⟩
abbrev main_v621 : Ref sig .tc := ⟨.hbm, 818, rfl⟩
abbrev main_c_188 : Ref sig .tc := ⟨.hbm, 819, rfl⟩
abbrev main_v622 : Ref sig .tc := ⟨.hbm, 820, rfl⟩
abbrev main_v623 : Ref sig .tc := ⟨.hbm, 821, rfl⟩
abbrev main_c_189 : Ref sig .tc := ⟨.hbm, 822, rfl⟩
abbrev main_v624 : Ref sig .tc := ⟨.hbm, 823, rfl⟩
abbrev main_v625 : Ref sig .tc := ⟨.hbm, 824, rfl⟩
abbrev main_c_190 : Ref sig .tc := ⟨.hbm, 825, rfl⟩
abbrev main_v626 : Ref sig .tc := ⟨.hbm, 826, rfl⟩
abbrev main_v627 : Ref sig .tc := ⟨.hbm, 827, rfl⟩
abbrev main_v628 : Ref sig .tc := ⟨.hbm, 828, rfl⟩
abbrev main_v629 : Ref sig .tc := ⟨.hbm, 829, rfl⟩
abbrev main_v630 : Ref sig .tc := ⟨.hbm, 830, rfl⟩
abbrev main_c_191 : Ref sig .tc := ⟨.hbm, 831, rfl⟩
abbrev main_v631 : Ref sig .tc := ⟨.hbm, 832, rfl⟩
abbrev main_v632 : Ref sig .tc := ⟨.hbm, 833, rfl⟩
abbrev main_v633 : Ref sig .tc := ⟨.hbm, 834, rfl⟩
abbrev main_v634 : Ref sig .tc := ⟨.hbm, 835, rfl⟩
abbrev main_v635 : Ref sig .tc := ⟨.hbm, 836, rfl⟩
abbrev main_c_192 : Ref sig .tc := ⟨.hbm, 837, rfl⟩
abbrev main_v636 : Ref sig .tc := ⟨.hbm, 838, rfl⟩
abbrev main_v637 : Ref sig .tc := ⟨.hbm, 839, rfl⟩
abbrev main_v638 : Ref sig .tc := ⟨.hbm, 840, rfl⟩
abbrev main_v639 : Ref sig .tc := ⟨.hbm, 841, rfl⟩
abbrev main_v640 : Ref sig .tc := ⟨.hbm, 842, rfl⟩
abbrev main_c_193 : Ref sig .tc := ⟨.hbm, 843, rfl⟩
abbrev main_v641 : Ref sig .tc := ⟨.hbm, 844, rfl⟩
abbrev main_v642 : Ref sig .tc := ⟨.hbm, 845, rfl⟩
abbrev main_v643 : Ref sig .tc := ⟨.hbm, 846, rfl⟩
abbrev main_v644 : Ref sig .tc := ⟨.hbm, 847, rfl⟩
abbrev main_v645 : Ref sig .tc := ⟨.hbm, 848, rfl⟩
abbrev main_v646 : Ref sig .tc := ⟨.hbm, 849, rfl⟩
abbrev main_v647 : Ref sig .tc := ⟨.hbm, 850, rfl⟩
abbrev main_v648 : Ref sig .tc := ⟨.hbm, 851, rfl⟩
abbrev main_v649 : Ref sig .tc := ⟨.hbm, 852, rfl⟩
abbrev main_v650 : Ref sig .tc := ⟨.hbm, 853, rfl⟩
abbrev main_v651 : Ref sig .tc := ⟨.hbm, 854, rfl⟩
abbrev main_v652 : Ref sig .tc := ⟨.hbm, 855, rfl⟩
abbrev main_v653 : Ref sig .tc := ⟨.hbm, 856, rfl⟩
abbrev main_v654 : Ref sig .tc := ⟨.hbm, 857, rfl⟩
abbrev main_v655 : Ref sig .tc := ⟨.hbm, 858, rfl⟩
abbrev main_v656 : Ref sig .tc := ⟨.hbm, 859, rfl⟩
abbrev main_v657 : Ref sig .tc := ⟨.hbm, 860, rfl⟩
abbrev main_v658 : Ref sig .tc := ⟨.hbm, 861, rfl⟩
abbrev main_v659 : Ref sig .tc := ⟨.hbm, 862, rfl⟩
abbrev main_v660 : Ref sig .tc := ⟨.hbm, 863, rfl⟩
abbrev main_v661 : Ref sig .tc := ⟨.hbm, 864, rfl⟩
abbrev main_v662 : Ref sig .tc := ⟨.hbm, 865, rfl⟩
abbrev main_v663 : Ref sig .tc := ⟨.hbm, 866, rfl⟩
abbrev main_cst_194 : Ref sig .tc := ⟨.hbm, 867, rfl⟩
abbrev main_v664 : Ref sig .tc := ⟨.hbm, 868, rfl⟩
abbrev main_v665 : Ref sig .tc := ⟨.hbm, 869, rfl⟩
abbrev main_cst_195 : Ref sig .tc := ⟨.hbm, 870, rfl⟩
abbrev main_v666 : Ref sig .tc := ⟨.hbm, 871, rfl⟩
abbrev main_v667 : Ref sig .tc := ⟨.hbm, 872, rfl⟩
abbrev main_v668 : Ref sig .tc := ⟨.hbm, 873, rfl⟩
abbrev main_v669 : Ref sig .tc := ⟨.hbm, 874, rfl⟩
abbrev main_cst_196 : Ref sig .tc := ⟨.hbm, 875, rfl⟩
abbrev main_v670 : Ref sig .tc := ⟨.hbm, 876, rfl⟩
abbrev main_v671 : Ref sig .tc := ⟨.hbm, 877, rfl⟩
abbrev main_cst_197 : Ref sig .tc := ⟨.hbm, 878, rfl⟩
abbrev main_v672 : Ref sig .tc := ⟨.hbm, 879, rfl⟩
abbrev main_v673 : Ref sig .tc := ⟨.hbm, 880, rfl⟩
abbrev main_v674 : Ref sig .tc := ⟨.hbm, 881, rfl⟩
abbrev main_v675 : Ref sig .tc := ⟨.hbm, 882, rfl⟩
abbrev main_cst_198 : Ref sig .tc := ⟨.hbm, 883, rfl⟩
abbrev main_v676 : Ref sig .tc := ⟨.hbm, 884, rfl⟩
abbrev main_v677 : Ref sig .tc := ⟨.hbm, 885, rfl⟩
abbrev main_cst_199 : Ref sig .tc := ⟨.hbm, 886, rfl⟩
abbrev main_v678 : Ref sig .tc := ⟨.hbm, 887, rfl⟩
abbrev main_v679 : Ref sig .tc := ⟨.hbm, 888, rfl⟩
abbrev main_v680 : Ref sig .tc := ⟨.hbm, 889, rfl⟩
abbrev main_v681 : Ref sig .tc := ⟨.hbm, 890, rfl⟩
abbrev main_cst_200 : Ref sig .tc := ⟨.hbm, 891, rfl⟩
abbrev main_v682 : Ref sig .tc := ⟨.hbm, 892, rfl⟩
abbrev main_v683 : Ref sig .tc := ⟨.hbm, 893, rfl⟩
abbrev main_cst_201 : Ref sig .tc := ⟨.hbm, 894, rfl⟩
abbrev main_v684 : Ref sig .tc := ⟨.hbm, 895, rfl⟩
abbrev main_v685 : Ref sig .tc := ⟨.hbm, 896, rfl⟩
abbrev main_v686 : Ref sig .tc := ⟨.hbm, 897, rfl⟩
abbrev main_v687 : Ref sig .tc := ⟨.hbm, 898, rfl⟩
abbrev main_v688 : Ref sig .tc := ⟨.hbm, 899, rfl⟩
abbrev main_v689 : Ref sig .tc := ⟨.hbm, 900, rfl⟩
abbrev main_v690 : Ref sig .tc := ⟨.hbm, 901, rfl⟩
abbrev main_v691 : Ref sig .tc := ⟨.hbm, 902, rfl⟩
abbrev main_v692 : Ref sig .tc := ⟨.hbm, 903, rfl⟩
abbrev main_v693 : Ref sig .tc := ⟨.hbm, 904, rfl⟩
abbrev main_c_202 : Ref sig .tc := ⟨.hbm, 905, rfl⟩
abbrev main_v694 : Ref sig .tc := ⟨.hbm, 906, rfl⟩
abbrev main_v695 : Ref sig .tc := ⟨.hbm, 907, rfl⟩
abbrev main_c_203 : Ref sig .tc := ⟨.hbm, 908, rfl⟩
abbrev main_v696 : Ref sig .tc := ⟨.hbm, 909, rfl⟩
abbrev main_v697 : Ref sig .tc := ⟨.hbm, 910, rfl⟩
abbrev main_c_204 : Ref sig .tc := ⟨.hbm, 911, rfl⟩
abbrev main_v698 : Ref sig .tc := ⟨.hbm, 912, rfl⟩
abbrev main_v699 : Ref sig .tc := ⟨.hbm, 913, rfl⟩
abbrev main_v700 : Ref sig .tc := ⟨.hbm, 914, rfl⟩
abbrev main_v701 : Ref sig .tc := ⟨.hbm, 915, rfl⟩
abbrev main_v702 : Ref sig .tc := ⟨.hbm, 916, rfl⟩
abbrev main_c_205 : Ref sig .tc := ⟨.hbm, 917, rfl⟩
abbrev main_v703 : Ref sig .tc := ⟨.hbm, 918, rfl⟩
abbrev main_v704 : Ref sig .tc := ⟨.hbm, 919, rfl⟩
abbrev main_v705 : Ref sig .tc := ⟨.hbm, 920, rfl⟩
abbrev main_v706 : Ref sig .tc := ⟨.hbm, 921, rfl⟩
abbrev main_v707 : Ref sig .tc := ⟨.hbm, 922, rfl⟩
abbrev main_c_206 : Ref sig .tc := ⟨.hbm, 923, rfl⟩
abbrev main_v708 : Ref sig .tc := ⟨.hbm, 924, rfl⟩
abbrev main_v709 : Ref sig .tc := ⟨.hbm, 925, rfl⟩
abbrev main_v710 : Ref sig .tc := ⟨.hbm, 926, rfl⟩
abbrev main_v711 : Ref sig .tc := ⟨.hbm, 927, rfl⟩
abbrev main_v712 : Ref sig .tc := ⟨.hbm, 928, rfl⟩
abbrev main_c_207 : Ref sig .tc := ⟨.hbm, 929, rfl⟩
abbrev main_v713 : Ref sig .tc := ⟨.hbm, 930, rfl⟩
abbrev main_v714 : Ref sig .tc := ⟨.hbm, 931, rfl⟩
abbrev main_v715 : Ref sig .tc := ⟨.hbm, 932, rfl⟩
abbrev main_v716 : Ref sig .tc := ⟨.hbm, 933, rfl⟩
abbrev main_v717 : Ref sig .tc := ⟨.hbm, 934, rfl⟩
abbrev main_v718 : Ref sig .tc := ⟨.hbm, 935, rfl⟩
abbrev main_v719 : Ref sig .tc := ⟨.hbm, 936, rfl⟩
abbrev main_v720 : Ref sig .tc := ⟨.hbm, 937, rfl⟩
abbrev main_v721 : Ref sig .tc := ⟨.hbm, 938, rfl⟩
abbrev main_v722 : Ref sig .tc := ⟨.hbm, 939, rfl⟩
abbrev main_v723 : Ref sig .tc := ⟨.hbm, 940, rfl⟩
abbrev main_v724 : Ref sig .tc := ⟨.hbm, 941, rfl⟩
abbrev main_v725 : Ref sig .tc := ⟨.hbm, 942, rfl⟩
abbrev main_v726 : Ref sig .tc := ⟨.hbm, 943, rfl⟩
abbrev main_v727 : Ref sig .tc := ⟨.hbm, 944, rfl⟩
abbrev main_v728 : Ref sig .tc := ⟨.hbm, 945, rfl⟩
abbrev main_v729 : Ref sig .tc := ⟨.hbm, 946, rfl⟩
abbrev main_v730 : Ref sig .tc := ⟨.hbm, 947, rfl⟩
abbrev main_v731 : Ref sig .tc := ⟨.hbm, 948, rfl⟩
abbrev main_v732 : Ref sig .tc := ⟨.hbm, 949, rfl⟩
abbrev main_v733 : Ref sig .tc := ⟨.hbm, 950, rfl⟩
abbrev main_v734 : Ref sig .tc := ⟨.hbm, 951, rfl⟩
abbrev main_v735 : Ref sig .tc := ⟨.hbm, 952, rfl⟩
abbrev main_cst_208 : Ref sig .tc := ⟨.hbm, 953, rfl⟩
abbrev main_v736 : Ref sig .tc := ⟨.hbm, 954, rfl⟩
abbrev main_v737 : Ref sig .tc := ⟨.hbm, 955, rfl⟩
abbrev main_cst_209 : Ref sig .tc := ⟨.hbm, 956, rfl⟩
abbrev main_v738 : Ref sig .tc := ⟨.hbm, 957, rfl⟩
abbrev main_v739 : Ref sig .tc := ⟨.hbm, 958, rfl⟩
abbrev main_v740 : Ref sig .tc := ⟨.hbm, 959, rfl⟩
abbrev main_v741 : Ref sig .tc := ⟨.hbm, 960, rfl⟩
abbrev main_cst_210 : Ref sig .tc := ⟨.hbm, 961, rfl⟩
abbrev main_v742 : Ref sig .tc := ⟨.hbm, 962, rfl⟩
abbrev main_v743 : Ref sig .tc := ⟨.hbm, 963, rfl⟩
abbrev main_cst_211 : Ref sig .tc := ⟨.hbm, 964, rfl⟩
abbrev main_v744 : Ref sig .tc := ⟨.hbm, 965, rfl⟩
abbrev main_v745 : Ref sig .tc := ⟨.hbm, 966, rfl⟩
abbrev main_v746 : Ref sig .tc := ⟨.hbm, 967, rfl⟩
abbrev main_v747 : Ref sig .tc := ⟨.hbm, 968, rfl⟩
abbrev main_cst_212 : Ref sig .tc := ⟨.hbm, 969, rfl⟩
abbrev main_v748 : Ref sig .tc := ⟨.hbm, 970, rfl⟩
abbrev main_v749 : Ref sig .tc := ⟨.hbm, 971, rfl⟩
abbrev main_cst_213 : Ref sig .tc := ⟨.hbm, 972, rfl⟩
abbrev main_v750 : Ref sig .tc := ⟨.hbm, 973, rfl⟩
abbrev main_v751 : Ref sig .tc := ⟨.hbm, 974, rfl⟩
abbrev main_v752 : Ref sig .tc := ⟨.hbm, 975, rfl⟩
abbrev main_v753 : Ref sig .tc := ⟨.hbm, 976, rfl⟩
abbrev main_cst_214 : Ref sig .tc := ⟨.hbm, 977, rfl⟩
abbrev main_v754 : Ref sig .tc := ⟨.hbm, 978, rfl⟩
abbrev main_v755 : Ref sig .tc := ⟨.hbm, 979, rfl⟩
abbrev main_cst_215 : Ref sig .tc := ⟨.hbm, 980, rfl⟩
abbrev main_v756 : Ref sig .tc := ⟨.hbm, 981, rfl⟩
abbrev main_v757 : Ref sig .tc := ⟨.hbm, 982, rfl⟩
abbrev main_v758 : Ref sig .tc := ⟨.hbm, 983, rfl⟩
abbrev main_v759 : Ref sig .tc := ⟨.hbm, 984, rfl⟩
abbrev main_v760 : Ref sig .tc := ⟨.hbm, 985, rfl⟩
abbrev main_v761 : Ref sig .tc := ⟨.hbm, 986, rfl⟩
abbrev main_v762 : Ref sig .tc := ⟨.hbm, 987, rfl⟩
abbrev main_v763 : Ref sig .tc := ⟨.hbm, 988, rfl⟩
abbrev main_v764 : Ref sig .tc := ⟨.hbm, 989, rfl⟩
abbrev main_v765 : Ref sig .tc := ⟨.hbm, 990, rfl⟩
abbrev main_c_216 : Ref sig .tc := ⟨.hbm, 991, rfl⟩
abbrev main_v766 : Ref sig .tc := ⟨.hbm, 992, rfl⟩
abbrev main_v767 : Ref sig .tc := ⟨.hbm, 993, rfl⟩
abbrev main_c_217 : Ref sig .tc := ⟨.hbm, 994, rfl⟩
abbrev main_v768 : Ref sig .tc := ⟨.hbm, 995, rfl⟩
abbrev main_v769 : Ref sig .tc := ⟨.hbm, 996, rfl⟩
abbrev main_c_218 : Ref sig .tc := ⟨.hbm, 997, rfl⟩
abbrev main_v770 : Ref sig .tc := ⟨.hbm, 998, rfl⟩
abbrev main_v771 : Ref sig .tc := ⟨.hbm, 999, rfl⟩
abbrev main_v772 : Ref sig .tc := ⟨.hbm, 1000, rfl⟩
abbrev main_v773 : Ref sig .tc := ⟨.hbm, 1001, rfl⟩
abbrev main_v774 : Ref sig .tc := ⟨.hbm, 1002, rfl⟩
abbrev main_c_219 : Ref sig .tc := ⟨.hbm, 1003, rfl⟩
abbrev main_v775 : Ref sig .tc := ⟨.hbm, 1004, rfl⟩
abbrev main_v776 : Ref sig .tc := ⟨.hbm, 1005, rfl⟩
abbrev main_v777 : Ref sig .tc := ⟨.hbm, 1006, rfl⟩
abbrev main_v778 : Ref sig .tc := ⟨.hbm, 1007, rfl⟩
abbrev main_v779 : Ref sig .tc := ⟨.hbm, 1008, rfl⟩
abbrev main_c_220 : Ref sig .tc := ⟨.hbm, 1009, rfl⟩
abbrev main_v780 : Ref sig .tc := ⟨.hbm, 1010, rfl⟩
abbrev main_v781 : Ref sig .tc := ⟨.hbm, 1011, rfl⟩
abbrev main_v782 : Ref sig .tc := ⟨.hbm, 1012, rfl⟩
abbrev main_v783 : Ref sig .tc := ⟨.hbm, 1013, rfl⟩
abbrev main_v784 : Ref sig .tc := ⟨.hbm, 1014, rfl⟩
abbrev main_c_221 : Ref sig .tc := ⟨.hbm, 1015, rfl⟩
abbrev main_v785 : Ref sig .tc := ⟨.hbm, 1016, rfl⟩
abbrev main_v786 : Ref sig .tc := ⟨.hbm, 1017, rfl⟩
abbrev main_v787 : Ref sig .tc := ⟨.hbm, 1018, rfl⟩
abbrev main_v788 : Ref sig .tc := ⟨.hbm, 1019, rfl⟩
abbrev main_v789 : Ref sig .tc := ⟨.hbm, 1020, rfl⟩
abbrev main_v790 : Ref sig .tc := ⟨.hbm, 1021, rfl⟩
abbrev main_v791 : Ref sig .tc := ⟨.hbm, 1022, rfl⟩
abbrev main_v792 : Ref sig .tc := ⟨.hbm, 1023, rfl⟩
abbrev main_v793 : Ref sig .tc := ⟨.hbm, 1024, rfl⟩
abbrev main_v794 : Ref sig .tc := ⟨.hbm, 1025, rfl⟩
abbrev main_v795 : Ref sig .tc := ⟨.hbm, 1026, rfl⟩
abbrev main_v796 : Ref sig .tc := ⟨.hbm, 1027, rfl⟩
abbrev main_v797 : Ref sig .tc := ⟨.hbm, 1028, rfl⟩
abbrev main_v798 : Ref sig .tc := ⟨.hbm, 1029, rfl⟩
abbrev main_v799 : Ref sig .tc := ⟨.hbm, 1030, rfl⟩
abbrev main_v800 : Ref sig .tc := ⟨.hbm, 1031, rfl⟩
abbrev main_v801 : Ref sig .tc := ⟨.hbm, 1032, rfl⟩
abbrev main_v802 : Ref sig .tc := ⟨.hbm, 1033, rfl⟩
abbrev main_v803 : Ref sig .tc := ⟨.hbm, 1034, rfl⟩
abbrev main_v804 : Ref sig .tc := ⟨.hbm, 1035, rfl⟩
abbrev main_v805 : Ref sig .tc := ⟨.hbm, 1036, rfl⟩
abbrev main_v806 : Ref sig .tc := ⟨.hbm, 1037, rfl⟩
abbrev main_v807 : Ref sig .tc := ⟨.hbm, 1038, rfl⟩
abbrev main_cst_222 : Ref sig .tc := ⟨.hbm, 1039, rfl⟩
abbrev main_v808 : Ref sig .tc := ⟨.hbm, 1040, rfl⟩
abbrev main_v809 : Ref sig .tc := ⟨.hbm, 1041, rfl⟩
abbrev main_cst_223 : Ref sig .tc := ⟨.hbm, 1042, rfl⟩
abbrev main_v810 : Ref sig .tc := ⟨.hbm, 1043, rfl⟩
abbrev main_v811 : Ref sig .tc := ⟨.hbm, 1044, rfl⟩
abbrev main_v812 : Ref sig .tc := ⟨.hbm, 1045, rfl⟩
abbrev main_v813 : Ref sig .tc := ⟨.hbm, 1046, rfl⟩
abbrev main_cst_224 : Ref sig .tc := ⟨.hbm, 1047, rfl⟩
abbrev main_v814 : Ref sig .tc := ⟨.hbm, 1048, rfl⟩
abbrev main_v815 : Ref sig .tc := ⟨.hbm, 1049, rfl⟩
abbrev main_cst_225 : Ref sig .tc := ⟨.hbm, 1050, rfl⟩
abbrev main_v816 : Ref sig .tc := ⟨.hbm, 1051, rfl⟩
abbrev main_v817 : Ref sig .tc := ⟨.hbm, 1052, rfl⟩
abbrev main_v818 : Ref sig .tc := ⟨.hbm, 1053, rfl⟩
abbrev main_v819 : Ref sig .tc := ⟨.hbm, 1054, rfl⟩
abbrev main_cst_226 : Ref sig .tc := ⟨.hbm, 1055, rfl⟩
abbrev main_v820 : Ref sig .tc := ⟨.hbm, 1056, rfl⟩
abbrev main_v821 : Ref sig .tc := ⟨.hbm, 1057, rfl⟩
abbrev main_cst_227 : Ref sig .tc := ⟨.hbm, 1058, rfl⟩
abbrev main_v822 : Ref sig .tc := ⟨.hbm, 1059, rfl⟩
abbrev main_v823 : Ref sig .tc := ⟨.hbm, 1060, rfl⟩
abbrev main_v824 : Ref sig .tc := ⟨.hbm, 1061, rfl⟩
abbrev main_v825 : Ref sig .tc := ⟨.hbm, 1062, rfl⟩
abbrev main_cst_228 : Ref sig .tc := ⟨.hbm, 1063, rfl⟩
abbrev main_v826 : Ref sig .tc := ⟨.hbm, 1064, rfl⟩
abbrev main_v827 : Ref sig .tc := ⟨.hbm, 1065, rfl⟩
abbrev main_cst_229 : Ref sig .tc := ⟨.hbm, 1066, rfl⟩
abbrev main_v828 : Ref sig .tc := ⟨.hbm, 1067, rfl⟩
abbrev main_v829 : Ref sig .tc := ⟨.hbm, 1068, rfl⟩
abbrev main_v830 : Ref sig .tc := ⟨.hbm, 1069, rfl⟩
abbrev main_v831 : Ref sig .tc := ⟨.hbm, 1070, rfl⟩
abbrev main_v832 : Ref sig .tc := ⟨.hbm, 1071, rfl⟩
abbrev main_v833 : Ref sig .tc := ⟨.hbm, 1072, rfl⟩
abbrev main_v834 : Ref sig .tc := ⟨.hbm, 1073, rfl⟩
abbrev main_v835 : Ref sig .tc := ⟨.hbm, 1074, rfl⟩
abbrev main_v836 : Ref sig .tc := ⟨.hbm, 1075, rfl⟩
abbrev main_v837 : Ref sig .tc := ⟨.hbm, 1076, rfl⟩
abbrev main_c_230 : Ref sig .tc := ⟨.hbm, 1077, rfl⟩
abbrev main_v838 : Ref sig .tc := ⟨.hbm, 1078, rfl⟩
abbrev main_v839 : Ref sig .tc := ⟨.hbm, 1079, rfl⟩
abbrev main_c_231 : Ref sig .tc := ⟨.hbm, 1080, rfl⟩
abbrev main_v840 : Ref sig .tc := ⟨.hbm, 1081, rfl⟩
abbrev main_v841 : Ref sig .tc := ⟨.hbm, 1082, rfl⟩
abbrev main_v842 : Ref sig .tc := ⟨.hbm, 1083, rfl⟩
abbrev main_v843 : Ref sig .tc := ⟨.hbm, 1084, rfl⟩

abbrev nD : Nat := 1
abbrev τ : Topo := Topo.v7x

variable {F : FTy → Type} [FloatOps F]

class Facts₀ : Prop where
  bcast_S1280_S1x1x1280_2 : S1280.BroadcastsInDim S1x1x1280 (![2] : Fin 1 → Fin S1x1x1280.rank)
  bcast_S1x1x1280_S32x4095x1280_0_1_2 : S1x1x1280.BroadcastsInDim S32x4095x1280 (![0, 1, 2] : Fin 3 → Fin S32x4095x1280.rank)
  bcast_S_S32x4095x256 : S_.BroadcastsInDim S32x4095x256 (![] : Fin 0 → Fin S32x4095x256.rank)
  slices_S32x4095x1280_S32x2048x1280_0_2047_0 : S32x4095x1280.Slices ![0, 2047, 0] S32x2048x1280
  slices_S32x2048x1280_S32x2048x256_0_0_0 : S32x2048x1280.Slices ![0, 0, 0] S32x2048x256
  slices_S32x2048x1280_S32x2048x256_0_0_256 : S32x2048x1280.Slices ![0, 0, 256] S32x2048x256
  slices_S32x2048x1280_S32x2048x256_0_0_512 : S32x2048x1280.Slices ![0, 0, 512] S32x2048x256
  slices_S32x2048x1280_S32x2048x256_0_0_768 : S32x2048x1280.Slices ![0, 0, 768] S32x2048x256
  slices_S32x2048x1280_S32x2048x256_0_0_1024 : S32x2048x1280.Slices ![0, 0, 1024] S32x2048x256
  bcast_S_S32x2048x256 : S_.BroadcastsInDim S32x2048x256 (![] : Fin 0 → Fin S32x2048x256.rank)
  bcast_S_S1 : S_.BroadcastsInDim S1 (![] : Fin 0 → Fin S1.rank)
  bcast_S_S1024 : S_.BroadcastsInDim S1024 (![] : Fin 0 → Fin S1024.rank)
  bcast_S1024_S1024x1_0 : S1024.BroadcastsInDim S1024x1 (![0] : Fin 1 → Fin S1024x1.rank)
  slices_S32x4095x1280_S32x1024x1280_0_1023_0 : S32x4095x1280.Slices ![0, 1023, 0] S32x1024x1280
  bcast_S1x1x1280_S32x1024x1280_0_1_2 : S1x1x1280.BroadcastsInDim S32x1024x1280 (![0, 1, 2] : Fin 3 → Fin S32x1024x1280.rank)
  slices_S32x1024x1280_S32x1024x256_0_0_0 : S32x1024x1280.Slices ![0, 0, 0] S32x1024x256
  slices_S32x1024x1280_S32x1024x256_0_0_256 : S32x1024x1280.Slices ![0, 0, 256] S32x1024x256
  slices_S32x1024x1280_S32x1024x256_0_0_512 : S32x1024x1280.Slices ![0, 0, 512] S32x1024x256
  slices_S32x1024x1280_S32x1024x256_0_0_768 : S32x1024x1280.Slices ![0, 0, 768] S32x1024x256
  slices_S32x1024x1280_S32x1024x256_0_0_1024 : S32x1024x1280.Slices ![0, 0, 1024] S32x1024x256
  bcast_S_S32x1024x256 : S_.BroadcastsInDim S32x1024x256 (![] : Fin 0 → Fin S32x1024x256.rank)
  bcast_S_S512 : S_.BroadcastsInDim S512 (![] : Fin 0 → Fin S512.rank)
  bcast_S512_S512x1_0 : S512.BroadcastsInDim S512x1 (![0] : Fin 1 → Fin S512x1.rank)
  slices_S32x4095x1280_S32x512x1280_0_511_0 : S32x4095x1280.Slices ![0, 511, 0] S32x512x1280
  bcast_S1x1x1280_S32x512x1280_0_1_2 : S1x1x1280.BroadcastsInDim S32x512x1280 (![0, 1, 2] : Fin 3 → Fin S32x512x1280.rank)
  slices_S32x512x1280_S32x512x256_0_0_0 : S32x512x1280.Slices ![0, 0, 0] S32x512x256
  slices_S32x512x1280_S32x512x256_0_0_256 : S32x512x1280.Slices ![0, 0, 256] S32x512x256
  slices_S32x512x1280_S32x512x256_0_0_512 : S32x512x1280.Slices ![0, 0, 512] S32x512x256
  slices_S32x512x1280_S32x512x256_0_0_768 : S32x512x1280.Slices ![0, 0, 768] S32x512x256
  slices_S32x512x1280_S32x512x256_0_0_1024 : S32x512x1280.Slices ![0, 0, 1024] S32x512x256
  bcast_S_S32x512x256 : S_.BroadcastsInDim S32x512x256 (![] : Fin 0 → Fin S32x512x256.rank)
  bcast_S_S256 : S_.BroadcastsInDim S256 (![] : Fin 0 → Fin S256.rank)
  bcast_S256_S256x1_0 : S256.BroadcastsInDim S256x1 (![0] : Fin 1 → Fin S256x1.rank)
  slices_S32x4095x1280_S32x256x1280_0_255_0 : S32x4095x1280.Slices ![0, 255, 0] S32x256x1280
  bcast_S1x1x1280_S32x256x1280_0_1_2 : S1x1x1280.BroadcastsInDim S32x256x1280 (![0, 1, 2] : Fin 3 → Fin S32x256x1280.rank)
  slices_S32x256x1280_S32x256x256_0_0_0 : S32x256x1280.Slices ![0, 0, 0] S32x256x256
  slices_S32x256x1280_S32x256x256_0_0_256 : S32x256x1280.Slices ![0, 0, 256] S32x256x256
  slices_S32x256x1280_S32x256x256_0_0_512 : S32x256x1280.Slices ![0, 0, 512] S32x256x256
  slices_S32x256x1280_S32x256x256_0_0_768 : S32x256x1280.Slices ![0, 0, 768] S32x256x256
  slices_S32x256x1280_S32x256x256_0_0_1024 : S32x256x1280.Slices ![0, 0, 1024] S32x256x256
  bcast_S_S32x256x256 : S_.BroadcastsInDim S32x256x256 (![] : Fin 0 → Fin S32x256x256.rank)
  bcast_S_S128 : S_.BroadcastsInDim S128 (![] : Fin 0 → Fin S128.rank)
  bcast_S128_S128x1_0 : S128.BroadcastsInDim S128x1 (![0] : Fin 1 → Fin S128x1.rank)
  slices_S32x4095x1280_S32x128x1280_0_127_0 : S32x4095x1280.Slices ![0, 127, 0] S32x128x1280
  bcast_S1x1x1280_S32x128x1280_0_1_2 : S1x1x1280.BroadcastsInDim S32x128x1280 (![0, 1, 2] : Fin 3 → Fin S32x128x1280.rank)
  slices_S32x128x1280_S32x128x256_0_0_0 : S32x128x1280.Slices ![0, 0, 0] S32x128x256
  slices_S32x128x1280_S32x128x256_0_0_256 : S32x128x1280.Slices ![0, 0, 256] S32x128x256
  slices_S32x128x1280_S32x128x256_0_0_512 : S32x128x1280.Slices ![0, 0, 512] S32x128x256
  slices_S32x128x1280_S32x128x256_0_0_768 : S32x128x1280.Slices ![0, 0, 768] S32x128x256
  slices_S32x128x1280_S32x128x256_0_0_1024 : S32x128x1280.Slices ![0, 0, 1024] S32x128x256
  bcast_S_S32x128x256 : S_.BroadcastsInDim S32x128x256 (![] : Fin 0 → Fin S32x128x256.rank)
  bcast_S_S64 : S_.BroadcastsInDim S64 (![] : Fin 0 → Fin S64.rank)
  bcast_S64_S64x1_0 : S64.BroadcastsInDim S64x1 (![0] : Fin 1 → Fin S64x1.rank)
  slices_S32x4095x1280_S32x64x1280_0_63_0 : S32x4095x1280.Slices ![0, 63, 0] S32x64x1280
  bcast_S1x1x1280_S32x64x1280_0_1_2 : S1x1x1280.BroadcastsInDim S32x64x1280 (![0, 1, 2] : Fin 3 → Fin S32x64x1280.rank)
  slices_S32x64x1280_S32x64x256_0_0_0 : S32x64x1280.Slices ![0, 0, 0] S32x64x256
  slices_S32x64x1280_S32x64x256_0_0_256 : S32x64x1280.Slices ![0, 0, 256] S32x64x256
  slices_S32x64x1280_S32x64x256_0_0_512 : S32x64x1280.Slices ![0, 0, 512] S32x64x256
  slices_S32x64x1280_S32x64x256_0_0_768 : S32x64x1280.Slices ![0, 0, 768] S32x64x256
  slices_S32x64x1280_S32x64x256_0_0_1024 : S32x64x1280.Slices ![0, 0, 1024] S32x64x256
  bcast_S_S32x64x256 : S_.BroadcastsInDim S32x64x256 (![] : Fin 0 → Fin S32x64x256.rank)
  bcast_S_S32 : S_.BroadcastsInDim S32 (![] : Fin 0 → Fin S32.rank)
  bcast_S32_S32x1_0 : S32.BroadcastsInDim S32x1 (![0] : Fin 1 → Fin S32x1.rank)
  slices_S32x4095x1280_S32x32x1280_0_31_0 : S32x4095x1280.Slices ![0, 31, 0] S32x32x1280
  bcast_S1x1x1280_S32x32x1280_0_1_2 : S1x1x1280.BroadcastsInDim S32x32x1280 (![0, 1, 2] : Fin 3 → Fin S32x32x1280.rank)
  slices_S32x32x1280_S32x32x256_0_0_0 : S32x32x1280.Slices ![0, 0, 0] S32x32x256
  slices_S32x32x1280_S32x32x256_0_0_256 : S32x32x1280.Slices ![0, 0, 256] S32x32x256
  slices_S32x32x1280_S32x32x256_0_0_512 : S32x32x1280.Slices ![0, 0, 512] S32x32x256
  slices_S32x32x1280_S32x32x256_0_0_768 : S32x32x1280.Slices ![0, 0, 768] S32x32x256
  slices_S32x32x1280_S32x32x256_0_0_1024 : S32x32x1280.Slices ![0, 0, 1024] S32x32x256
  bcast_S_S32x32x256 : S_.BroadcastsInDim S32x32x256 (![] : Fin 0 → Fin S32x32x256.rank)
  bcast_S_S16 : S_.BroadcastsInDim S16 (![] : Fin 0 → Fin S16.rank)
  bcast_S16_S16x1_0 : S16.BroadcastsInDim S16x1 (![0] : Fin 1 → Fin S16x1.rank)
  slices_S32x4095x1280_S32x16x1280_0_15_0 : S32x4095x1280.Slices ![0, 15, 0] S32x16x1280
  bcast_S1x1x1280_S32x16x1280_0_1_2 : S1x1x1280.BroadcastsInDim S32x16x1280 (![0, 1, 2] : Fin 3 → Fin S32x16x1280.rank)
  slices_S32x16x1280_S32x16x256_0_0_0 : S32x16x1280.Slices ![0, 0, 0] S32x16x256
  slices_S32x16x1280_S32x16x256_0_0_256 : S32x16x1280.Slices ![0, 0, 256] S32x16x256
  slices_S32x16x1280_S32x16x256_0_0_512 : S32x16x1280.Slices ![0, 0, 512] S32x16x256
  slices_S32x16x1280_S32x16x256_0_0_768 : S32x16x1280.Slices ![0, 0, 768] S32x16x256
  slices_S32x16x1280_S32x16x256_0_0_1024 : S32x16x1280.Slices ![0, 0, 1024] S32x16x256
  bcast_S_S32x16x256 : S_.BroadcastsInDim S32x16x256 (![] : Fin 0 → Fin S32x16x256.rank)
  bcast_S_S8 : S_.BroadcastsInDim S8 (![] : Fin 0 → Fin S8.rank)
  bcast_S8_S8x1_0 : S8.BroadcastsInDim S8x1 (![0] : Fin 1 → Fin S8x1.rank)
  slices_S32x4095x1280_S32x8x1280_0_7_0 : S32x4095x1280.Slices ![0, 7, 0] S32x8x1280
  bcast_S1x1x1280_S32x8x1280_0_1_2 : S1x1x1280.BroadcastsInDim S32x8x1280 (![0, 1, 2] : Fin 3 → Fin S32x8x1280.rank)
  slices_S32x8x1280_S32x8x256_0_0_0 : S32x8x1280.Slices ![0, 0, 0] S32x8x256
  slices_S32x8x1280_S32x8x256_0_0_256 : S32x8x1280.Slices ![0, 0, 256] S32x8x256
  slices_S32x8x1280_S32x8x256_0_0_512 : S32x8x1280.Slices ![0, 0, 512] S32x8x256
  slices_S32x8x1280_S32x8x256_0_0_768 : S32x8x1280.Slices ![0, 0, 768] S32x8x256
  slices_S32x8x1280_S32x8x256_0_0_1024 : S32x8x1280.Slices ![0, 0, 1024] S32x8x256
  bcast_S_S32x8x256 : S_.BroadcastsInDim S32x8x256 (![] : Fin 0 → Fin S32x8x256.rank)
  bcast_S_S4 : S_.BroadcastsInDim S4 (![] : Fin 0 → Fin S4.rank)
  bcast_S4_S4x1_0 : S4.BroadcastsInDim S4x1 (![0] : Fin 1 → Fin S4x1.rank)
  slices_S32x4095x1280_S32x4x1280_0_3_0 : S32x4095x1280.Slices ![0, 3, 0] S32x4x1280
  bcast_S1x1x1280_S32x4x1280_0_1_2 : S1x1x1280.BroadcastsInDim S32x4x1280 (![0, 1, 2] : Fin 3 → Fin S32x4x1280.rank)
  slices_S32x4x1280_S32x4x256_0_0_0 : S32x4x1280.Slices ![0, 0, 0] S32x4x256
  slices_S32x4x1280_S32x4x256_0_0_256 : S32x4x1280.Slices ![0, 0, 256] S32x4x256
  slices_S32x4x1280_S32x4x256_0_0_512 : S32x4x1280.Slices ![0, 0, 512] S32x4x256
  slices_S32x4x1280_S32x4x256_0_0_768 : S32x4x1280.Slices ![0, 0, 768] S32x4x256
  slices_S32x4x1280_S32x4x256_0_0_1024 : S32x4x1280.Slices ![0, 0, 1024] S32x4x256
  bcast_S_S32x4x256 : S_.BroadcastsInDim S32x4x256 (![] : Fin 0 → Fin S32x4x256.rank)
  bcast_S_S2 : S_.BroadcastsInDim S2 (![] : Fin 0 → Fin S2.rank)
  bcast_S2_S2x1_0 : S2.BroadcastsInDim S2x1 (![0] : Fin 1 → Fin S2x1.rank)
  slices_S32x4095x1280_S32x2x1280_0_1_0 : S32x4095x1280.Slices ![0, 1, 0] S32x2x1280
  bcast_S1x1x1280_S32x2x1280_0_1_2 : S1x1x1280.BroadcastsInDim S32x2x1280 (![0, 1, 2] : Fin 3 → Fin S32x2x1280.rank)
  slices_S32x2x1280_S32x2x256_0_0_0 : S32x2x1280.Slices ![0, 0, 0] S32x2x256
  slices_S32x2x1280_S32x2x256_0_0_256 : S32x2x1280.Slices ![0, 0, 256] S32x2x256
  slices_S32x2x1280_S32x2x256_0_0_512 : S32x2x1280.Slices ![0, 0, 512] S32x2x256
  slices_S32x2x1280_S32x2x256_0_0_768 : S32x2x1280.Slices ![0, 0, 768] S32x2x256
  slices_S32x2x1280_S32x2x256_0_0_1024 : S32x2x1280.Slices ![0, 0, 1024] S32x2x256
  bcast_S_S32x2x256 : S_.BroadcastsInDim S32x2x256 (![] : Fin 0 → Fin S32x2x256.rank)
  bcast_S1_S1x1_0 : S1.BroadcastsInDim S1x1 (![0] : Fin 1 → Fin S1x1.rank)
  slices_S32x4095x1280_S32x1x1280_0_0_0 : S32x4095x1280.Slices ![0, 0, 0] S32x1x1280
  bcast_S1x1x1280_S32x1x1280_0_1_2 : S1x1x1280.BroadcastsInDim S32x1x1280 (![0, 1, 2] : Fin 3 → Fin S32x1x1280.rank)
  slices_S32x1x1280_S32x1x256_0_0_0 : S32x1x1280.Slices ![0, 0, 0] S32x1x256
  slices_S32x1x1280_S32x1x256_0_0_256 : S32x1x1280.Slices ![0, 0, 256] S32x1x256
  slices_S32x1x1280_S32x1x256_0_0_512 : S32x1x1280.Slices ![0, 0, 512] S32x1x256
  slices_S32x1x1280_S32x1x256_0_0_768 : S32x1x1280.Slices ![0, 0, 768] S32x1x256
  slices_S32x1x1280_S32x1x256_0_0_1024 : S32x1x1280.Slices ![0, 0, 1024] S32x1x256
  bcast_S_S32x1x256 : S_.BroadcastsInDim S32x1x256 (![] : Fin 0 → Fin S32x1x256.rank)
  slices_S32x4095x256_S32x1x256_0_0_0 : S32x4095x256.Slices ![0, 0, 0] S32x1x256
  shapeCasts_S32x1x256_S32x256 : S32x1x256.ShapeCasts S32x256
  dot_S32x4095x256_S1280x256_S32x4095x1280_2_1_01_0_n_n_wf : DotDims.WF S32x4095x256 S1280x256 S32x4095x1280 [2] [1] [0, 1] [0] [] []
  scatter_S32x4095x256_S1_S32x2048x256_012_n_1_0_wf : ScatterDims.WF S32x4095x256 S1 S32x2048x256 [0, 1, 2] [] [1] 0
  gather_S32x4095x256_S1024x1_S32x1024x256_02_1_n_n_1_1_321256_wf : GatherDims.WF S32x4095x256 S1024x1 S32x1024x256 [0, 2] [1] [] [1] [] 1 ![32, 1, 256]
  dot_S32x1024x256_S1280x256_S32x1024x1280_2_1_01_0_n_n_wf : DotDims.WF S32x1024x256 S1280x256 S32x1024x1280 [2] [1] [0, 1] [0] [] []
  scatter_S32x4095x256_S1_S32x1024x256_012_n_1_0_wf : ScatterDims.WF S32x4095x256 S1 S32x1024x256 [0, 1, 2] [] [1] 0
  gather_S32x4095x256_S512x1_S32x512x256_02_1_n_n_1_1_321256_wf : GatherDims.WF S32x4095x256 S512x1 S32x512x256 [0, 2] [1] [] [1] [] 1 ![32, 1, 256]
  dot_S32x512x256_S1280x256_S32x512x1280_2_1_01_0_n_n_wf : DotDims.WF S32x512x256 S1280x256 S32x512x1280 [2] [1] [0, 1] [0] [] []
  scatter_S32x4095x256_S1_S32x512x256_012_n_1_0_wf : ScatterDims.WF S32x4095x256 S1 S32x512x256 [0, 1, 2] [] [1] 0
  gather_S32x4095x256_S256x1_S32x256x256_02_1_n_n_1_1_321256_wf : GatherDims.WF S32x4095x256 S256x1 S32x256x256 [0, 2] [1] [] [1] [] 1 ![32, 1, 256]
  dot_S32x256x256_S1280x256_S32x256x1280_2_1_01_0_n_n_wf : DotDims.WF S32x256x256 S1280x256 S32x256x1280 [2] [1] [0, 1] [0] [] []
  scatter_S32x4095x256_S1_S32x256x256_012_n_1_0_wf : ScatterDims.WF S32x4095x256 S1 S32x256x256 [0, 1, 2] [] [1] 0
  gather_S32x4095x256_S128x1_S32x128x256_02_1_n_n_1_1_321256_wf : GatherDims.WF S32x4095x256 S128x1 S32x128x256 [0, 2] [1] [] [1] [] 1 ![32, 1, 256]
  dot_S32x128x256_S1280x256_S32x128x1280_2_1_01_0_n_n_wf : DotDims.WF S32x128x256 S1280x256 S32x128x1280 [2] [1] [0, 1] [0] [] []
  scatter_S32x4095x256_S1_S32x128x256_012_n_1_0_wf : ScatterDims.WF S32x4095x256 S1 S32x128x256 [0, 1, 2] [] [1] 0
  gather_S32x4095x256_S64x1_S32x64x256_02_1_n_n_1_1_321256_wf : GatherDims.WF S32x4095x256 S64x1 S32x64x256 [0, 2] [1] [] [1] [] 1 ![32, 1, 256]
  dot_S32x64x256_S1280x256_S32x64x1280_2_1_01_0_n_n_wf : DotDims.WF S32x64x256 S1280x256 S32x64x1280 [2] [1] [0, 1] [0] [] []
  scatter_S32x4095x256_S1_S32x64x256_012_n_1_0_wf : ScatterDims.WF S32x4095x256 S1 S32x64x256 [0, 1, 2] [] [1] 0
  gather_S32x4095x256_S32x1_S32x32x256_02_1_n_n_1_1_321256_wf : GatherDims.WF S32x4095x256 S32x1 S32x32x256 [0, 2] [1] [] [1] [] 1 ![32, 1, 256]
  dot_S32x32x256_S1280x256_S32x32x1280_2_1_01_0_n_n_wf : DotDims.WF S32x32x256 S1280x256 S32x32x1280 [2] [1] [0, 1] [0] [] []
  scatter_S32x4095x256_S1_S32x32x256_012_n_1_0_wf : ScatterDims.WF S32x4095x256 S1 S32x32x256 [0, 1, 2] [] [1] 0
  gather_S32x4095x256_S16x1_S32x16x256_02_1_n_n_1_1_321256_wf : GatherDims.WF S32x4095x256 S16x1 S32x16x256 [0, 2] [1] [] [1] [] 1 ![32, 1, 256]
  dot_S32x16x256_S1280x256_S32x16x1280_2_1_01_0_n_n_wf : DotDims.WF S32x16x256 S1280x256 S32x16x1280 [2] [1] [0, 1] [0] [] []
  scatter_S32x4095x256_S1_S32x16x256_012_n_1_0_wf : ScatterDims.WF S32x4095x256 S1 S32x16x256 [0, 1, 2] [] [1] 0
  gather_S32x4095x256_S8x1_S32x8x256_02_1_n_n_1_1_321256_wf : GatherDims.WF S32x4095x256 S8x1 S32x8x256 [0, 2] [1] [] [1] [] 1 ![32, 1, 256]
  dot_S32x8x256_S1280x256_S32x8x1280_2_1_01_0_n_n_wf : DotDims.WF S32x8x256 S1280x256 S32x8x1280 [2] [1] [0, 1] [0] [] []
  scatter_S32x4095x256_S1_S32x8x256_012_n_1_0_wf : ScatterDims.WF S32x4095x256 S1 S32x8x256 [0, 1, 2] [] [1] 0
  gather_S32x4095x256_S4x1_S32x4x256_02_1_n_n_1_1_321256_wf : GatherDims.WF S32x4095x256 S4x1 S32x4x256 [0, 2] [1] [] [1] [] 1 ![32, 1, 256]
  dot_S32x4x256_S1280x256_S32x4x1280_2_1_01_0_n_n_wf : DotDims.WF S32x4x256 S1280x256 S32x4x1280 [2] [1] [0, 1] [0] [] []
  scatter_S32x4095x256_S1_S32x4x256_012_n_1_0_wf : ScatterDims.WF S32x4095x256 S1 S32x4x256 [0, 1, 2] [] [1] 0
  gather_S32x4095x256_S2x1_S32x2x256_02_1_n_n_1_1_321256_wf : GatherDims.WF S32x4095x256 S2x1 S32x2x256 [0, 2] [1] [] [1] [] 1 ![32, 1, 256]
  dot_S32x2x256_S1280x256_S32x2x1280_2_1_01_0_n_n_wf : DotDims.WF S32x2x256 S1280x256 S32x2x1280 [2] [1] [0, 1] [0] [] []
  scatter_S32x4095x256_S1_S32x2x256_012_n_1_0_wf : ScatterDims.WF S32x4095x256 S1 S32x2x256 [0, 1, 2] [] [1] 0
  gather_S32x4095x256_S1x1_S32x1x256_02_1_n_n_1_1_321256_wf : GatherDims.WF S32x4095x256 S1x1 S32x1x256 [0, 2] [1] [] [1] [] 1 ![32, 1, 256]
  dot_S32x1x256_S1280x256_S32x1x1280_2_1_01_0_n_n_wf : DotDims.WF S32x1x256 S1280x256 S32x1x1280 [2] [1] [0, 1] [0] [] []
  scatter_S32x4095x256_S1_S32x1x256_012_n_1_0_wf : ScatterDims.WF S32x4095x256 S1 S32x1x256 [0, 1, 2] [] [1] 0

variable [Facts₀]

def dot_S32x4095x256_S1280x256_S32x4095x1280_2_1_01_0_n_n : DotDims S32x4095x256 S1280x256 S32x4095x1280 where
  lhsContracting := [2]
  rhsContracting := [1]
  lhsNonContracting := [0, 1]
  rhsNonContracting := [0]
  lhsBatch := []
  rhsBatch := []
  wf := dot_S32x4095x256_S1280x256_S32x4095x1280_2_1_01_0_n_n_wf
def scatter_S32x4095x256_S1_S32x2048x256_012_n_1_0 : ScatterDims S32x4095x256 S1 S32x2048x256 where
  updateWindowDims := [0, 1, 2]
  insertedWindowDims := []
  scatterDimsToOperandDims := [1]
  indexVectorDim := 0
  wf := scatter_S32x4095x256_S1_S32x2048x256_012_n_1_0_wf
def gather_S32x4095x256_S1024x1_S32x1024x256_02_1_n_n_1_1_321256 : GatherDims S32x4095x256 S1024x1 S32x1024x256 where
  offsetDims := [0, 2]
  collapsedSliceDims := [1]
  operandBatchingDims := []
  startIndicesBatchingDims := []
  startIndexMap := [1]
  indexVectorDim := 1
  sliceSizes := ![32, 1, 256]
  wf := gather_S32x4095x256_S1024x1_S32x1024x256_02_1_n_n_1_1_321256_wf
def dot_S32x1024x256_S1280x256_S32x1024x1280_2_1_01_0_n_n : DotDims S32x1024x256 S1280x256 S32x1024x1280 where
  lhsContracting := [2]
  rhsContracting := [1]
  lhsNonContracting := [0, 1]
  rhsNonContracting := [0]
  lhsBatch := []
  rhsBatch := []
  wf := dot_S32x1024x256_S1280x256_S32x1024x1280_2_1_01_0_n_n_wf
def scatter_S32x4095x256_S1_S32x1024x256_012_n_1_0 : ScatterDims S32x4095x256 S1 S32x1024x256 where
  updateWindowDims := [0, 1, 2]
  insertedWindowDims := []
  scatterDimsToOperandDims := [1]
  indexVectorDim := 0
  wf := scatter_S32x4095x256_S1_S32x1024x256_012_n_1_0_wf
def gather_S32x4095x256_S512x1_S32x512x256_02_1_n_n_1_1_321256 : GatherDims S32x4095x256 S512x1 S32x512x256 where
  offsetDims := [0, 2]
  collapsedSliceDims := [1]
  operandBatchingDims := []
  startIndicesBatchingDims := []
  startIndexMap := [1]
  indexVectorDim := 1
  sliceSizes := ![32, 1, 256]
  wf := gather_S32x4095x256_S512x1_S32x512x256_02_1_n_n_1_1_321256_wf
def dot_S32x512x256_S1280x256_S32x512x1280_2_1_01_0_n_n : DotDims S32x512x256 S1280x256 S32x512x1280 where
  lhsContracting := [2]
  rhsContracting := [1]
  lhsNonContracting := [0, 1]
  rhsNonContracting := [0]
  lhsBatch := []
  rhsBatch := []
  wf := dot_S32x512x256_S1280x256_S32x512x1280_2_1_01_0_n_n_wf
def scatter_S32x4095x256_S1_S32x512x256_012_n_1_0 : ScatterDims S32x4095x256 S1 S32x512x256 where
  updateWindowDims := [0, 1, 2]
  insertedWindowDims := []
  scatterDimsToOperandDims := [1]
  indexVectorDim := 0
  wf := scatter_S32x4095x256_S1_S32x512x256_012_n_1_0_wf
def gather_S32x4095x256_S256x1_S32x256x256_02_1_n_n_1_1_321256 : GatherDims S32x4095x256 S256x1 S32x256x256 where
  offsetDims := [0, 2]
  collapsedSliceDims := [1]
  operandBatchingDims := []
  startIndicesBatchingDims := []
  startIndexMap := [1]
  indexVectorDim := 1
  sliceSizes := ![32, 1, 256]
  wf := gather_S32x4095x256_S256x1_S32x256x256_02_1_n_n_1_1_321256_wf
def dot_S32x256x256_S1280x256_S32x256x1280_2_1_01_0_n_n : DotDims S32x256x256 S1280x256 S32x256x1280 where
  lhsContracting := [2]
  rhsContracting := [1]
  lhsNonContracting := [0, 1]
  rhsNonContracting := [0]
  lhsBatch := []
  rhsBatch := []
  wf := dot_S32x256x256_S1280x256_S32x256x1280_2_1_01_0_n_n_wf
def scatter_S32x4095x256_S1_S32x256x256_012_n_1_0 : ScatterDims S32x4095x256 S1 S32x256x256 where
  updateWindowDims := [0, 1, 2]
  insertedWindowDims := []
  scatterDimsToOperandDims := [1]
  indexVectorDim := 0
  wf := scatter_S32x4095x256_S1_S32x256x256_012_n_1_0_wf
def gather_S32x4095x256_S128x1_S32x128x256_02_1_n_n_1_1_321256 : GatherDims S32x4095x256 S128x1 S32x128x256 where
  offsetDims := [0, 2]
  collapsedSliceDims := [1]
  operandBatchingDims := []
  startIndicesBatchingDims := []
  startIndexMap := [1]
  indexVectorDim := 1
  sliceSizes := ![32, 1, 256]
  wf := gather_S32x4095x256_S128x1_S32x128x256_02_1_n_n_1_1_321256_wf
def dot_S32x128x256_S1280x256_S32x128x1280_2_1_01_0_n_n : DotDims S32x128x256 S1280x256 S32x128x1280 where
  lhsContracting := [2]
  rhsContracting := [1]
  lhsNonContracting := [0, 1]
  rhsNonContracting := [0]
  lhsBatch := []
  rhsBatch := []
  wf := dot_S32x128x256_S1280x256_S32x128x1280_2_1_01_0_n_n_wf
def scatter_S32x4095x256_S1_S32x128x256_012_n_1_0 : ScatterDims S32x4095x256 S1 S32x128x256 where
  updateWindowDims := [0, 1, 2]
  insertedWindowDims := []
  scatterDimsToOperandDims := [1]
  indexVectorDim := 0
  wf := scatter_S32x4095x256_S1_S32x128x256_012_n_1_0_wf
def gather_S32x4095x256_S64x1_S32x64x256_02_1_n_n_1_1_321256 : GatherDims S32x4095x256 S64x1 S32x64x256 where
  offsetDims := [0, 2]
  collapsedSliceDims := [1]
  operandBatchingDims := []
  startIndicesBatchingDims := []
  startIndexMap := [1]
  indexVectorDim := 1
  sliceSizes := ![32, 1, 256]
  wf := gather_S32x4095x256_S64x1_S32x64x256_02_1_n_n_1_1_321256_wf
def dot_S32x64x256_S1280x256_S32x64x1280_2_1_01_0_n_n : DotDims S32x64x256 S1280x256 S32x64x1280 where
  lhsContracting := [2]
  rhsContracting := [1]
  lhsNonContracting := [0, 1]
  rhsNonContracting := [0]
  lhsBatch := []
  rhsBatch := []
  wf := dot_S32x64x256_S1280x256_S32x64x1280_2_1_01_0_n_n_wf
def scatter_S32x4095x256_S1_S32x64x256_012_n_1_0 : ScatterDims S32x4095x256 S1 S32x64x256 where
  updateWindowDims := [0, 1, 2]
  insertedWindowDims := []
  scatterDimsToOperandDims := [1]
  indexVectorDim := 0
  wf := scatter_S32x4095x256_S1_S32x64x256_012_n_1_0_wf
def gather_S32x4095x256_S32x1_S32x32x256_02_1_n_n_1_1_321256 : GatherDims S32x4095x256 S32x1 S32x32x256 where
  offsetDims := [0, 2]
  collapsedSliceDims := [1]
  operandBatchingDims := []
  startIndicesBatchingDims := []
  startIndexMap := [1]
  indexVectorDim := 1
  sliceSizes := ![32, 1, 256]
  wf := gather_S32x4095x256_S32x1_S32x32x256_02_1_n_n_1_1_321256_wf
def dot_S32x32x256_S1280x256_S32x32x1280_2_1_01_0_n_n : DotDims S32x32x256 S1280x256 S32x32x1280 where
  lhsContracting := [2]
  rhsContracting := [1]
  lhsNonContracting := [0, 1]
  rhsNonContracting := [0]
  lhsBatch := []
  rhsBatch := []
  wf := dot_S32x32x256_S1280x256_S32x32x1280_2_1_01_0_n_n_wf
def scatter_S32x4095x256_S1_S32x32x256_012_n_1_0 : ScatterDims S32x4095x256 S1 S32x32x256 where
  updateWindowDims := [0, 1, 2]
  insertedWindowDims := []
  scatterDimsToOperandDims := [1]
  indexVectorDim := 0
  wf := scatter_S32x4095x256_S1_S32x32x256_012_n_1_0_wf
def gather_S32x4095x256_S16x1_S32x16x256_02_1_n_n_1_1_321256 : GatherDims S32x4095x256 S16x1 S32x16x256 where
  offsetDims := [0, 2]
  collapsedSliceDims := [1]
  operandBatchingDims := []
  startIndicesBatchingDims := []
  startIndexMap := [1]
  indexVectorDim := 1
  sliceSizes := ![32, 1, 256]
  wf := gather_S32x4095x256_S16x1_S32x16x256_02_1_n_n_1_1_321256_wf
def dot_S32x16x256_S1280x256_S32x16x1280_2_1_01_0_n_n : DotDims S32x16x256 S1280x256 S32x16x1280 where
  lhsContracting := [2]
  rhsContracting := [1]
  lhsNonContracting := [0, 1]
  rhsNonContracting := [0]
  lhsBatch := []
  rhsBatch := []
  wf := dot_S32x16x256_S1280x256_S32x16x1280_2_1_01_0_n_n_wf
def scatter_S32x4095x256_S1_S32x16x256_012_n_1_0 : ScatterDims S32x4095x256 S1 S32x16x256 where
  updateWindowDims := [0, 1, 2]
  insertedWindowDims := []
  scatterDimsToOperandDims := [1]
  indexVectorDim := 0
  wf := scatter_S32x4095x256_S1_S32x16x256_012_n_1_0_wf
def gather_S32x4095x256_S8x1_S32x8x256_02_1_n_n_1_1_321256 : GatherDims S32x4095x256 S8x1 S32x8x256 where
  offsetDims := [0, 2]
  collapsedSliceDims := [1]
  operandBatchingDims := []
  startIndicesBatchingDims := []
  startIndexMap := [1]
  indexVectorDim := 1
  sliceSizes := ![32, 1, 256]
  wf := gather_S32x4095x256_S8x1_S32x8x256_02_1_n_n_1_1_321256_wf
def dot_S32x8x256_S1280x256_S32x8x1280_2_1_01_0_n_n : DotDims S32x8x256 S1280x256 S32x8x1280 where
  lhsContracting := [2]
  rhsContracting := [1]
  lhsNonContracting := [0, 1]
  rhsNonContracting := [0]
  lhsBatch := []
  rhsBatch := []
  wf := dot_S32x8x256_S1280x256_S32x8x1280_2_1_01_0_n_n_wf
def scatter_S32x4095x256_S1_S32x8x256_012_n_1_0 : ScatterDims S32x4095x256 S1 S32x8x256 where
  updateWindowDims := [0, 1, 2]
  insertedWindowDims := []
  scatterDimsToOperandDims := [1]
  indexVectorDim := 0
  wf := scatter_S32x4095x256_S1_S32x8x256_012_n_1_0_wf
def gather_S32x4095x256_S4x1_S32x4x256_02_1_n_n_1_1_321256 : GatherDims S32x4095x256 S4x1 S32x4x256 where
  offsetDims := [0, 2]
  collapsedSliceDims := [1]
  operandBatchingDims := []
  startIndicesBatchingDims := []
  startIndexMap := [1]
  indexVectorDim := 1
  sliceSizes := ![32, 1, 256]
  wf := gather_S32x4095x256_S4x1_S32x4x256_02_1_n_n_1_1_321256_wf
def dot_S32x4x256_S1280x256_S32x4x1280_2_1_01_0_n_n : DotDims S32x4x256 S1280x256 S32x4x1280 where
  lhsContracting := [2]
  rhsContracting := [1]
  lhsNonContracting := [0, 1]
  rhsNonContracting := [0]
  lhsBatch := []
  rhsBatch := []
  wf := dot_S32x4x256_S1280x256_S32x4x1280_2_1_01_0_n_n_wf
def scatter_S32x4095x256_S1_S32x4x256_012_n_1_0 : ScatterDims S32x4095x256 S1 S32x4x256 where
  updateWindowDims := [0, 1, 2]
  insertedWindowDims := []
  scatterDimsToOperandDims := [1]
  indexVectorDim := 0
  wf := scatter_S32x4095x256_S1_S32x4x256_012_n_1_0_wf
def gather_S32x4095x256_S2x1_S32x2x256_02_1_n_n_1_1_321256 : GatherDims S32x4095x256 S2x1 S32x2x256 where
  offsetDims := [0, 2]
  collapsedSliceDims := [1]
  operandBatchingDims := []
  startIndicesBatchingDims := []
  startIndexMap := [1]
  indexVectorDim := 1
  sliceSizes := ![32, 1, 256]
  wf := gather_S32x4095x256_S2x1_S32x2x256_02_1_n_n_1_1_321256_wf
def dot_S32x2x256_S1280x256_S32x2x1280_2_1_01_0_n_n : DotDims S32x2x256 S1280x256 S32x2x1280 where
  lhsContracting := [2]
  rhsContracting := [1]
  lhsNonContracting := [0, 1]
  rhsNonContracting := [0]
  lhsBatch := []
  rhsBatch := []
  wf := dot_S32x2x256_S1280x256_S32x2x1280_2_1_01_0_n_n_wf
def scatter_S32x4095x256_S1_S32x2x256_012_n_1_0 : ScatterDims S32x4095x256 S1 S32x2x256 where
  updateWindowDims := [0, 1, 2]
  insertedWindowDims := []
  scatterDimsToOperandDims := [1]
  indexVectorDim := 0
  wf := scatter_S32x4095x256_S1_S32x2x256_012_n_1_0_wf
def gather_S32x4095x256_S1x1_S32x1x256_02_1_n_n_1_1_321256 : GatherDims S32x4095x256 S1x1 S32x1x256 where
  offsetDims := [0, 2]
  collapsedSliceDims := [1]
  operandBatchingDims := []
  startIndicesBatchingDims := []
  startIndexMap := [1]
  indexVectorDim := 1
  sliceSizes := ![32, 1, 256]
  wf := gather_S32x4095x256_S1x1_S32x1x256_02_1_n_n_1_1_321256_wf
def dot_S32x1x256_S1280x256_S32x1x1280_2_1_01_0_n_n : DotDims S32x1x256 S1280x256 S32x1x1280 where
  lhsContracting := [2]
  rhsContracting := [1]
  lhsNonContracting := [0, 1]
  rhsNonContracting := [0]
  lhsBatch := []
  rhsBatch := []
  wf := dot_S32x1x256_S1280x256_S32x1x1280_2_1_01_0_n_n_wf
def scatter_S32x4095x256_S1_S32x1x256_012_n_1_0 : ScatterDims S32x4095x256 S1 S32x1x256 where
  updateWindowDims := [0, 1, 2]
  insertedWindowDims := []
  scatterDimsToOperandDims := [1]
  indexVectorDim := 0
  wf := scatter_S32x4095x256_S1_S32x1x256_012_n_1_0_wf

class Facts : Prop extends Facts₀ where

variable [Facts]
-- ==== Proof.KRun.lean ====
/-
  The run of the kernel program at the exact instance: every weakly fair execution of its entry function on the
  TensorCores terminates without a fault, and in every final state the buffer of the returned value holds the
  contents the fold of the segments assigns to it, while the seven argument arrays hold what they held at launch.
-/
import proofs.«102109_j83099027243631_1_alg».proof.Proof.Gen.KernelIdeal.Frame
import Idealize.ShloMosaic.PureOps.Ideal

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run at the exact instance: termination without a fault, the returned value's buffer at the contents the
    fold of the segments gives it, and the arguments as launched. -/
theorem run_result : θ_run defs (onTc (τ := τ) (main (F := Ideal))) ⟨m, fun _ => 0, ρ⟩ (fun r => ∀ c : Dev nD,
      r.2.mem ((c.tc : Thread nD τ).loc main_v293) = W27 m ρ c (Proc.devRef .tc main_v293)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h c =>
      ⟨h c _ (mem_uc main_v293 (by decide)),
       (h c _ (mem_uc main_arg0 (by decide))).trans (W27_main_arg0 m ρ c),
       (h c _ (mem_uc main_arg1 (by decide))).trans (W27_main_arg1 m ρ c),
       (h c _ (mem_uc main_arg2 (by decide))).trans (W27_main_arg2 m ρ c),
       (h c _ (mem_uc main_arg3 (by decide))).trans (W27_main_arg3 m ρ c),
       (h c _ (mem_uc main_arg4 (by decide))).trans (W27_main_arg4 m ρ c),
       (h c _ (mem_uc main_arg5 (by decide))).trans (W27_main_arg5 m ρ c),
       (h c _ (mem_uc main_arg6 (by decide))).trans (W27_main_arg6 m ρ c)⟩)

end Cert.KernelIdeal.KValue

end
-- ==== Proof.TreeSpec.lean ====
/-
  The bottom-up tree recursion that both programs compute, as functions over the extended reals.

  A forest of 32 complete binary trees of 4095 nodes each is stored in heap order: the children of node `n` are
  `2n+1` and `2n+2`; the leaves are the nodes 2047 … 4094, and level `l` (0 ≤ l ≤ 10) is the nodes
  `2^l - 1 … 2^(l+1) - 2`.  Every node has a 256-vector of features.

  * `xpre` is the input projection of every node: `X b n g = (∑ k, feat b n k · Wx g k) + bx g`, `g < 1280 = 5·256`;
    the five blocks of 256 columns are the gates i, o, f_l, f_r, u (`col q j` is column `q·256 + j`).
  * a leaf has cell `c = σ(X_i) · tanh(X_u)` and hidden state `h = σ(X_o) · tanh c`.
  * an inner node adds its children's projected hidden states,
    `P b n g = X b n g + (∑ k, H b (2n+1) k · Wl g k) + bl g + (∑ k, H b (2n+2) k · Wr g k) + br g`
    (associated to the left, as both programs add), and has
    `c = σ(P_i)·tanh(P_u) + σ(P_fl)·C(2n+1) + σ(P_fr)·C(2n+2)`, `h = σ(P_o) · tanh c`.
  * the arrays `H`, `C` start at zero; stage 0 writes the leaves' rows, stage `k+1` writes the rows of level `10-k`
    from the arrays stage `k` left (`setRows`); the result is the root row of `H` after stage 11.

  `σ` is `Ideal.logistic`, products and sums are those of the extended reals.  Child indices are taken modulo 4095
  so that they are total; on every row a stage writes they are the plain `2n+1`, `2n+2`.
-/
import Idealize.ShloMosaic.PureOps.Ideal

noncomputable section

namespace Cert.TreeSpec

open Idealize.ShloMosaic

abbrev A3 (a b c : ℕ) : Type := Fin a → Fin b → Fin c → EReal
abbrev A2 (a b : ℕ) : Type := Fin a → Fin b → EReal
abbrev A1 (a : ℕ) : Type := Fin a → EReal

/-- Column `q·256 + j` of the five gate blocks. -/
def col (q : ℕ) (j : Fin 256) : Fin 1280 := ⟨(q * 256 + j.val) % 1280, Nat.mod_lt _ (by decide)⟩
/-- The left child `2n+1` of a node (modulo the node count, to be total). -/
def lchild (n : Fin 4095) : Fin 4095 := ⟨(2 * n.val + 1) % 4095, Nat.mod_lt _ (by decide)⟩
/-- The right child `2n+2` of a node (modulo the node count, to be total). -/
def rchild (n : Fin 4095) : Fin 4095 := ⟨(2 * n.val + 2) % 4095, Nat.mod_lt _ (by decide)⟩

theorem col_val (q : ℕ) (hq : q < 5) (j : Fin 256) : (col q j).val = q * 256 + j.val := by
  have := j.isLt; unfold col; simp only []; omega
theorem lchild_val (n : Fin 4095) (h : n.val < 2047) : (lchild n).val = 2 * n.val + 1 := by
  unfold lchild; simp only []; omega
theorem rchild_val (n : Fin 4095) (h : n.val < 2047) : (rchild n).val = 2 * n.val + 2 := by
  unfold rchild; simp only []; omega

/-- The input projection of every node. -/
def xpre (feat : A3 32 4095 256) (Wx : A2 1280 256) (bx : A1 1280) : A3 32 4095 1280 :=
  fun b n g => (∑ k : Fin 256, feat b n k * Wx g k) + bx g

/-- A leaf's cell state. -/
def leafC (X : A3 32 4095 1280) : A3 32 4095 256 :=
  fun b n j => Ideal.logistic (X b n (col 0 j)) * Ideal.tanh (X b n (col 4 j))
/-- A leaf's hidden state. -/
def leafH (X : A3 32 4095 1280) : A3 32 4095 256 :=
  fun b n j => Ideal.logistic (X b n (col 1 j)) * Ideal.tanh (leafC X b n j)

/-- An inner node's gate pre-activations: its own projection plus its children's projected hidden states and
    the two biases, added in this order. -/
def pre (X : A3 32 4095 1280) (H : A3 32 4095 256) (Wl Wr : A2 1280 256) (bl br : A1 1280) : A3 32 4095 1280 :=
  fun b n g => X b n g + (∑ k : Fin 256, H b (lchild n) k * Wl g k) + bl g
    + (∑ k : Fin 256, H b (rchild n) k * Wr g k) + br g

/-- An inner node's cell state from its pre-activations and its children's cell states. -/
def nodeC (P : A3 32 4095 1280) (C : A3 32 4095 256) : A3 32 4095 256 :=
  fun b n j => Ideal.logistic (P b n (col 0 j)) * Ideal.tanh (P b n (col 4 j))
    + Ideal.logistic (P b n (col 2 j)) * C b (lchild n) j
    + Ideal.logistic (P b n (col 3 j)) * C b (rchild n) j
/-- An inner node's hidden state. -/
def nodeH (P : A3 32 4095 1280) (C : A3 32 4095 256) : A3 32 4095 256 :=
  fun b n j => Ideal.logistic (P b n (col 1 j)) * Ideal.tanh (nodeC P C b n j)

/-- Overwrite the rows `s ≤ n < s + cnt` of `old` by those of `new`. -/
def setRows (s cnt : ℕ) (new old : A3 32 4095 256) : A3 32 4095 256 :=
  fun b n j => if s ≤ n.val ∧ n.val < s + cnt then new b n j else old b n j

/-- The pair `(H, C)` after the leaves' stage. -/
def leafStage (X : A3 32 4095 1280) : A3 32 4095 256 × A3 32 4095 256 :=
  (setRows 2047 2048 (leafH X) (fun _ _ _ => 0), setRows 2047 2048 (leafC X) (fun _ _ _ => 0))

/-- The pair `(H, C)` after one level's stage: the rows `s ≤ n < s + cnt` from the previous pair. -/
def levelStage (s cnt : ℕ) (X : A3 32 4095 1280) (Wl Wr : A2 1280 256) (bl br : A1 1280)
    (HC : A3 32 4095 256 × A3 32 4095 256) : A3 32 4095 256 × A3 32 4095 256 :=
  (setRows s cnt (nodeH (pre X HC.1 Wl Wr bl br) HC.2) HC.1, setRows s cnt (nodeC (pre X HC.1 Wl Wr bl br) HC.2) HC.2)

/-- The pair `(H, C)` after stage `k`: stage 0 is the leaves, stage `k+1` is level `10 - k`. -/
def stage (X : A3 32 4095 1280) (Wl Wr : A2 1280 256) (bl br : A1 1280) : ℕ → A3 32 4095 256 × A3 32 4095 256
  | 0 => leafStage X
  | k + 1 => levelStage (2 ^ (10 - k) - 1) (2 ^ (10 - k)) X Wl Wr bl br (stage X Wl Wr bl br k)

theorem stage_zero (X : A3 32 4095 1280) (Wl Wr : A2 1280 256) (bl br : A1 1280) :
    stage X Wl Wr bl br 0 = leafStage X := rfl
theorem stage_succ (X : A3 32 4095 1280) (Wl Wr : A2 1280 256) (bl br : A1 1280) (k : ℕ) :
    stage X Wl Wr bl br (k + 1)
      = levelStage (2 ^ (10 - k) - 1) (2 ^ (10 - k)) X Wl Wr bl br (stage X Wl Wr bl br k) := rfl

/-- The result: the root row of `H` after the last stage. -/
def result (feat : A3 32 4095 256) (Wx Wl Wr : A2 1280 256) (bx bl br : A1 1280) : A2 32 256 :=
  fun b j => (stage (xpre feat Wx bx) Wl Wr bl br 11).1 b 0 j

end Cert.TreeSpec

end
-- ==== Proof.TreeRows.lean ====
/-
  Row forms of the tree recursion, and the passage between an array over a shape's index type and a function of
  its coordinates.

  One launch of a kernel works on `M` rows at a time — the nodes of one level of all 32 trees, flattened —: row `r`
  has its own projection `x r`, its children's hidden and cell states `lh r`, `rh r`, `lc r`, `rc r`, and the weights
  arrive transposed (`wT k g = W g k`).  `rowPre`, `rowC`, `rowH` are `TreeSpec.pre`, `nodeC`, `nodeH` on such rows,
  `rowLeafC`, `rowLeafH` the leaves' forms and `rowX` the input projection.
-/
import proofs.«102109_j83099027243631_1_alg».proof.Proof.TreeSpec
import Idealize.ShloMosaic.Lib.ValueIdx

noncomputable section

namespace Cert.TreeSpec

open Idealize.ShloMosaic Idealize.ShloMosaic.ValueIdx

/-- An array over a one-axis shape as a function of its coordinate. -/
def cur1 {a : ℕ} (f : (⟨1, ![a]⟩ : Shape).Idx → EReal) : A1 a := fun x => f (ix1 x)
/-- An array over a two-axis shape as a function of its coordinates. -/
def cur2 {a b : ℕ} (f : (⟨2, ![a, b]⟩ : Shape).Idx → EReal) : A2 a b := fun x y => f (ix2 x y)
/-- An array over a three-axis shape as a function of its coordinates. -/
def cur3 {a b c : ℕ} (f : (⟨3, ![a, b, c]⟩ : Shape).Idx → EReal) : A3 a b c := fun x y z => f (ix3 x y z)

theorem cur1_apply {a : ℕ} (f : (⟨1, ![a]⟩ : Shape).Idx → EReal) (x : Fin a) : cur1 f x = f (ix1 x) := rfl
theorem cur2_apply {a b : ℕ} (f : (⟨2, ![a, b]⟩ : Shape).Idx → EReal) (x : Fin a) (y : Fin b) :
    cur2 f x y = f (ix2 x y) := rfl
theorem cur3_apply {a b c : ℕ} (f : (⟨3, ![a, b, c]⟩ : Shape).Idx → EReal) (x : Fin a) (y : Fin b) (z : Fin c) :
    cur3 f x y z = f (ix3 x y z) := rfl

/-- The input projection on `M` rows, the weight transposed. -/
def rowX {M : ℕ} (f : A2 M 256) (wxT : A2 256 1280) (bx : A1 1280) : A2 M 1280 :=
  fun r g => (∑ k : Fin 256, f r k * wxT k g) + bx g

/-- A leaf row's cell state. -/
def rowLeafC {M : ℕ} (x : A2 M 1280) : A2 M 256 :=
  fun r j => Ideal.logistic (x r (col 0 j)) * Ideal.tanh (x r (col 4 j))
/-- A leaf row's hidden state. -/
def rowLeafH {M : ℕ} (x : A2 M 1280) : A2 M 256 :=
  fun r j => Ideal.logistic (x r (col 1 j)) * Ideal.tanh (rowLeafC x r j)

/-- An inner row's gate pre-activations, the weights transposed, added in the programs' order. -/
def rowPre {M : ℕ} (x : A2 M 1280) (lh rh : A2 M 256) (wlT wrT : A2 256 1280) (bl br : A1 1280) : A2 M 1280 :=
  fun r g => x r g + (∑ k : Fin 256, lh r k * wlT k g) + bl g + (∑ k : Fin 256, rh r k * wrT k g) + br g
/-- An inner row's cell state. -/
def rowC {M : ℕ} (P : A2 M 1280) (lc rc : A2 M 256) : A2 M 256 :=
  fun r j => Ideal.logistic (P r (col 0 j)) * Ideal.tanh (P r (col 4 j))
    + Ideal.logistic (P r (col 2 j)) * lc r j + Ideal.logistic (P r (col 3 j)) * rc r j
/-- An inner row's hidden state. -/
def rowH {M : ℕ} (P : A2 M 1280) (lc rc : A2 M 256) : A2 M 256 :=
  fun r j => Ideal.logistic (P r (col 1 j)) * Ideal.tanh (rowC P lc rc r j)

/-! ## A row's values depend on that row only

  Each row form reads, of its row-indexed operands, the one row it is asked at; so two families of operands that
  agree on a pair of rows give the same values there.  This is what lets a block of rows be computed apart from
  the rest of the array. -/

theorem rowX_congr {M M' : ℕ} (f : A2 M 256) (f' : A2 M' 256) (wxT : A2 256 1280) (bx : A1 1280) (r : Fin M) (r' : Fin M')
    (hf : ∀ k, f r k = f' r' k) (g : Fin 1280) : rowX f wxT bx r g = rowX f' wxT bx r' g := by
  unfold rowX; simp only [hf]

theorem rowLeafC_congr {M M' : ℕ} (x : A2 M 1280) (x' : A2 M' 1280) (r : Fin M) (r' : Fin M')
    (hx : ∀ g, x r g = x' r' g) (j : Fin 256) : rowLeafC x r j = rowLeafC x' r' j := by
  unfold rowLeafC; simp only [hx]

theorem rowLeafH_congr {M M' : ℕ} (x : A2 M 1280) (x' : A2 M' 1280) (r : Fin M) (r' : Fin M')
    (hx : ∀ g, x r g = x' r' g) (j : Fin 256) : rowLeafH x r j = rowLeafH x' r' j := by
  unfold rowLeafH; rw [rowLeafC_congr x x' r r' hx j, hx]

theorem rowPre_congr {M M' : ℕ} (x : A2 M 1280) (x' : A2 M' 1280) (lh rh : A2 M 256) (lh' rh' : A2 M' 256)
    (wlT wrT : A2 256 1280) (bl br : A1 1280) (r : Fin M) (r' : Fin M')
    (hx : ∀ g, x r g = x' r' g) (hl : ∀ k, lh r k = lh' r' k) (hr : ∀ k, rh r k = rh' r' k) (g : Fin 1280) :
    rowPre x lh rh wlT wrT bl br r g = rowPre x' lh' rh' wlT wrT bl br r' g := by
  unfold rowPre; simp only [hx, hl, hr]

theorem rowC_congr {M M' : ℕ} (P : A2 M 1280) (P' : A2 M' 1280) (lc rc : A2 M 256) (lc' rc' : A2 M' 256)
    (r : Fin M) (r' : Fin M') (hP : ∀ g, P r g = P' r' g) (hl : ∀ j, lc r j = lc' r' j) (hr : ∀ j, rc r j = rc' r' j)
    (j : Fin 256) : rowC P lc rc r j = rowC P' lc' rc' r' j := by
  unfold rowC; simp only [hP, hl, hr]

theorem rowH_congr {M M' : ℕ} (P : A2 M 1280) (P' : A2 M' 1280) (lc rc : A2 M 256) (lc' rc' : A2 M' 256)
    (r : Fin M) (r' : Fin M') (hP : ∀ g, P r g = P' r' g) (hl : ∀ j, lc r j = lc' r' j) (hr : ∀ j, rc r j = rc' r' j)
    (j : Fin 256) : rowH P lc rc r j = rowH P' lc' rc' r' j := by
  unfold rowH; rw [rowC_congr P P' lc rc lc' rc' r r' hP hl hr j, hP]

end Cert.TreeSpec

end
-- ==== Proof.KCarryX.lean ====
/-
  The input projection as a (tree, node, column) array (and the projection's bias before the first kernel) keeps its contents across the later kernels and host operations: no host operation after its own writes
  it, and a kernel at most reads it through an input window, which leaves the array as it found it.
-/
import proofs.«102109_j83099027243631_1_alg».proof.Proof.Gen.KernelIdeal.Frame
import proofs.«102109_j83099027243631_1_alg».proof.Proof.TreeRows

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

theorem carry_main_v5_4 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem carry_main_v5_6 (c : Dev nD) : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_4 m ρ c

theorem carry_main_v5_8 (c : Dev nD) : W8 m ρ c (Proc.devRef .tc main_v5) = W3 m ρ c (Proc.devRef .tc main_v5) :=
  calc W8 m ρ c (Proc.devRef .tc main_v5)
    _ = W7 m ρ c (Proc.devRef .tc main_v5) := W8_of_ne m ρ c main_v5 (by decide)
    _ = W6 m ρ c (Proc.devRef .tc main_v5) := StableHlo.after_of_forall_not_mem (b := Proc.devRef .tc main_v5) _ _ (List.forall_iff_forall_mem.mp (by
          simp only [hostOps3, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_6 m ρ c

theorem carry_main_v5_10 (c : Dev nD) : W10 m ρ c (Proc.devRef .tc main_v5) = W3 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := StableHlo.after_of_forall_not_mem (b := Proc.devRef .tc main_v5) _ _ (List.forall_iff_forall_mem.mp (by
          simp only [hostOps4, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_8 m ρ c

theorem carry_main_v5_12 (c : Dev nD) : W12 m ρ c (Proc.devRef .tc main_v5) = W3 m ρ c (Proc.devRef .tc main_v5) :=
  calc W12 m ρ c (Proc.devRef .tc main_v5)
    _ = W11 m ρ c (Proc.devRef .tc main_v5) := W12_of_ne m ρ c main_v5 (by decide)
    _ = W10 m ρ c (Proc.devRef .tc main_v5) := StableHlo.after_of_forall_not_mem (b := Proc.devRef .tc main_v5) _ _ (List.forall_iff_forall_mem.mp (by
          simp only [hostOps5, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_10 m ρ c

theorem carry_main_v5_14 (c : Dev nD) : W14 m ρ c (Proc.devRef .tc main_v5) = W3 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := StableHlo.after_of_forall_not_mem (b := Proc.devRef .tc main_v5) _ _ (List.forall_iff_forall_mem.mp (by
          simp only [hostOps6, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_12 m ρ c

theorem carry_main_v5_16 (c : Dev nD) : W16 m ρ c (Proc.devRef .tc main_v5) = W3 m ρ c (Proc.devRef .tc main_v5) :=
  calc W16 m ρ c (Proc.devRef .tc main_v5)
    _ = W15 m ρ c (Proc.devRef .tc main_v5) := W16_of_ne m ρ c main_v5 (by decide)
    _ = W14 m ρ c (Proc.devRef .tc main_v5) := StableHlo.after_of_forall_not_mem (b := Proc.devRef .tc main_v5) _ _ (List.forall_iff_forall_mem.mp (by
          simp only [hostOps7, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_14 m ρ c

theorem carry_main_v5_18 (c : Dev nD) : W18 m ρ c (Proc.devRef .tc main_v5) = W3 m ρ c (Proc.devRef .tc main_v5) :=
  calc W18 m ρ c (Proc.devRef .tc main_v5)
    _ = W17 m ρ c (Proc.devRef .tc main_v5) := W18_of_ne m ρ c main_v5 (by decide)
    _ = W16 m ρ c (Proc.devRef .tc main_v5) := StableHlo.after_of_forall_not_mem (b := Proc.devRef .tc main_v5) _ _ (List.forall_iff_forall_mem.mp (by
          simp only [hostOps8, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_16 m ρ c

theorem carry_main_v5_20 (c : Dev nD) : W20 m ρ c (Proc.devRef .tc main_v5) = W3 m ρ c (Proc.devRef .tc main_v5) :=
  calc W20 m ρ c (Proc.devRef .tc main_v5)
    _ = W19 m ρ c (Proc.devRef .tc main_v5) := W20_of_ne m ρ c main_v5 (by decide)
    _ = W18 m ρ c (Proc.devRef .tc main_v5) := StableHlo.after_of_forall_not_mem (b := Proc.devRef .tc main_v5) _ _ (List.forall_iff_forall_mem.mp (by
          simp only [hostOps9, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_18 m ρ c

theorem carry_main_v5_22 (c : Dev nD) : W22 m ρ c (Proc.devRef .tc main_v5) = W3 m ρ c (Proc.devRef .tc main_v5) :=
  calc W22 m ρ c (Proc.devRef .tc main_v5)
    _ = W21 m ρ c (Proc.devRef .tc main_v5) := W22_of_ne m ρ c main_v5 (by decide)
    _ = W20 m ρ c (Proc.devRef .tc main_v5) := StableHlo.after_of_forall_not_mem (b := Proc.devRef .tc main_v5) _ _ (List.forall_iff_forall_mem.mp (by
          simp only [hostOps10, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_20 m ρ c

theorem carry_main_v5_24 (c : Dev nD) : W24 m ρ c (Proc.devRef .tc main_v5) = W3 m ρ c (Proc.devRef .tc main_v5) :=
  calc W24 m ρ c (Proc.devRef .tc main_v5)
    _ = W23 m ρ c (Proc.devRef .tc main_v5) := W24_of_ne m ρ c main_v5 (by decide)
    _ = W22 m ρ c (Proc.devRef .tc main_v5) := StableHlo.after_of_forall_not_mem (b := Proc.devRef .tc main_v5) _ _ (List.forall_iff_forall_mem.mp (by
          simp only [hostOps11, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v5) := carry_main_v5_22 m ρ c

theorem carry_main_arg4_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.ternary_writes, StableHlo.reshape_writes, Finset.mem_singleton]
          repeat' apply And.intro
          all_goals exact StableHlo.devRef_ne_of_ne (by decide)))

end Cert.KernelIdeal.KValue

end
-- ==== Proof.KCarryWl.lean ====
/-
  The left child's transposed weights keeps its contents across the later kernels and host operations: no host operation after its own writes
  it, and a kernel at most reads it through an input window, which leaves the array as it found it.
-/
import proofs.«102109_j83099027243631_1_alg».proof.Proof.Gen.KernelIdeal.Frame
import proofs.«102109_j83099027243631_1_alg».proof.Proof.TreeRows

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

theorem carry_main_v1_5 (c : Dev nD) : W5 m ρ c (Proc.devRef .tc main_v1) = W1 m ρ c (Proc.devRef .tc main_v1) :=
  calc W5 m ρ c (Proc.devRef .tc main_v1)
    _ = W4 m ρ c (Proc.devRef .tc main_v1) := StableHlo.after_of_forall_not_mem (b := Proc.devRef .tc main_v1) _ _ (List.forall_iff_forall_mem.mp (by
          simp only [hostOps2, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.Forall, StableHlo.nullary_writes, StableHlo.unary_writes, StableHlo.ternary_writes, StableHlo.reshape_writes, Finset.mem_singleton]
          repeat' apply And.intro
          all_goals exact StableHlo.devRef_ne_of_ne (by decide)))
    _ = W1 m ρ c (Proc.devRef .tc main_v1) := W2_of_ne m ρ c main_v1 (by decide)

theorem carry_main_v1_7 (c : Dev nD) : W7 m ρ c (Proc.devRef .tc main_v1) = W1 m ρ c (Proc.devRef .tc main_v1) :=
  calc W7 m ρ c (Proc.devRef .tc main_v1)
    _ = W6 m ρ c (Proc.devRef .tc main_v1) := StableHlo.after_of_forall_not_mem (b := Proc.devRef .tc main_v1) _ _ (List.forall_iff_forall_mem.mp (by
          simp only [hostOps3, List.Forall, StableHlo.nullary_writes, StableHlo.unary_writes, StableHlo.ternary_writes, StableHlo.reshape_writes, Finset.mem_singleton]
          repeat' apply And.intro
          all_goals exact StableHlo.devRef_ne_of_ne (by decide)))
    _ = W5 m ρ c (Proc.devRef .tc main_v1) := (W6_arr m ρ c 5).trans (((dat2 (V5 m ρ) c).arrAt_in 5 rfl _).trans (A_eq2 (V5 m ρ) c 5))
    _ = W1 m ρ c (Proc.devRef .tc main_v1) := carry_main_v1_5 m ρ c

theorem carry_main_v1_9 (c : Dev nD) : W9 m ρ c (Proc.devRef .tc main_v1) = W1 m ρ c (Proc.devRef .tc main_v1) :=
  calc W9 m ρ c (Proc.devRef .tc main_v1)
    _ = W8 m ρ c (Proc.devRef .tc main_v1) := StableHlo.after_of_forall_not_mem (b := Proc.devRef .tc main_v1) _ _ (List.forall_iff_forall_mem.mp (by
          simp only [hostOps4, List.Forall, StableHlo.nullary_writes, StableHlo.unary_writes, StableHlo.ternary_writes, StableHlo.reshape_writes, Finset.mem_singleton]
          repeat' apply And.intro
          all_goals exact StableHlo.devRef_ne_of_ne (by decide)))
    _ = W7 m ρ c (Proc.devRef .tc main_v1) := (W8_arr m ρ c 5).trans (((dat3 (V7 m ρ) c).arrAt_in 5 rfl _).trans (A_eq3 (V7 m ρ) c 5))
    _ = W1 m ρ c (Proc.devRef .tc main_v1) := carry_main_v1_7 m ρ c

theorem carry_main_v1_11 (c : Dev nD) : W11 m ρ c (Proc.devRef .tc main_v1) = W1 m ρ c (Proc.devRef .tc main_v1) :=
  calc W11 m ρ c (Proc.devRef .tc main_v1)
    _ = W10 m ρ c (Proc.devRef .tc main_v1) := StableHlo.after_of_forall_not_mem (b := Proc.devRef .tc main_v1) _ _ (List.forall_iff_forall_mem.mp (by
          simp only [hostOps5, List.Forall, StableHlo.nullary_writes, StableHlo.unary_writes, StableHlo.ternary_writes, StableHlo.reshape_writes, Finset.mem_singleton]
          repeat' apply And.intro
          all_goals exact StableHlo.devRef_ne_of_ne (by decide)))
    _ = W9 m ρ c (Proc.devRef .tc main_v1) := (W10_arr m ρ c 5).trans (((dat4 (V9 m ρ) c).arrAt_in 5 rfl _).trans (A_eq4 (V9 m ρ) c 5))
    _ = W1 m ρ c (Proc.devRef .tc main_v1) := carry_main_v1_9 m ρ c

theorem carry_main_v1_13 (c : Dev nD) : W13 m ρ c (Proc.devRef .tc main_v1) = W1 m ρ c (Proc.devRef .tc main_v1) :=
  calc W13 m ρ c (Proc.devRef .tc main_v1)
    _ = W12 m ρ c (Proc.devRef .tc main_v1) := StableHlo.after_of_forall_not_mem (b := Proc.devRef .tc main_v1) _ _ (List.forall_iff_forall_mem.mp (by
          simp only [hostOps6, List.Forall, StableHlo.nullary_writes, StableHlo.unary_writes, StableHlo.ternary_writes, StableHlo.reshape_writes, Finset.mem_singleton]
          repeat' apply And.intro
          all_goals exact StableHlo.devRef_ne_of_ne (by decide)))
    _ = W11 m ρ c (Proc.devRef .tc main_v1) := (W12_arr m ρ c 5).trans (((dat5 (V11 m ρ) c).arrAt_in 5 rfl _).trans (A_eq5 (V11 m ρ) c 5))
    _ = W1 m ρ c (Proc.devRef .tc main_v1) := carry_main_v1_11 m ρ c

theorem carry_main_v1_15 (c : Dev nD) : W15 m ρ c (Proc.devRef .tc main_v1) = W1 m ρ c (Proc.devRef .tc main_v1) :=
  calc W15 m ρ c (Proc.devRef .tc main_v1)
    _ = W14 m ρ c (Proc.devRef .tc main_v1) := StableHlo.after_of_forall_not_mem (b := Proc.devRef .tc main_v1) _ _ (List.forall_iff_forall_mem.mp (by
          simp only [hostOps7, List.Forall, StableHlo.nullary_writes, StableHlo.unary_writes, StableHlo.ternary_writes, StableHlo.reshape_writes, Finset.mem_singleton]
          repeat' apply And.intro
          all_goals exact StableHlo.devRef_ne_of_ne (by decide)))
    _ = W13 m ρ c (Proc.devRef .tc main_v1) := (W14_arr m ρ c 5).trans (((dat6 (V13 m ρ) c).arrAt_in 5 rfl _).trans (A_eq6 (V13 m ρ) c 5))
    _ = W1 m ρ c (Proc.devRef .tc main_v1) := carry_main_v1_13 m ρ c

theorem carry_main_v1_17 (c : Dev nD) : W17 m ρ c (Proc.devRef .tc main_v1) = W1 m ρ c (Proc.devRef .tc main_v1) :=
  calc W17 m ρ c (Proc.devRef .tc main_v1)
    _ = W16 m ρ c (Proc.devRef .tc main_v1) := StableHlo.after_of_forall_not_mem (b := Proc.devRef .tc main_v1) _ _ (List.forall_iff_forall_mem.mp (by
          simp only [hostOps8, List.Forall, StableHlo.nullary_writes, StableHlo.unary_writes, StableHlo.ternary_writes, StableHlo.reshape_writes, Finset.mem_singleton]
          repeat' apply And.intro
          all_goals exact StableHlo.devRef_ne_of_ne (by decide)))
    _ = W15 m ρ c (Proc.devRef .tc main_v1) := (W16_arr m ρ c 5).trans (((dat7 (V15 m ρ) c).arrAt_in 5 rfl _).trans (A_eq7 (V15 m ρ) c 5))
    _ = W1 m ρ c (Proc.devRef .tc main_v1) := carry_main_v1_15 m ρ c

theorem carry_main_v1_19 (c : Dev nD) : W19 m ρ c (Proc.devRef .tc main_v1) = W1 m ρ c (Proc.devRef .tc main_v1) :=
  calc W19 m ρ c (Proc.devRef .tc main_v1)
    _ = W18 m ρ c (Proc.devRef .tc main_v1) := StableHlo.after_of_forall_not_mem (b := Proc.devRef .tc main_v1) _ _ (List.forall_iff_forall_mem.mp (by
          simp only [hostOps9, List.Forall, StableHlo.nullary_writes, StableHlo.unary_writes, StableHlo.ternary_writes, StableHlo.reshape_writes, Finset.mem_singleton]
          repeat' apply And.intro
          all_goals exact StableHlo.devRef_ne_of_ne (by decide)))
    _ = W17 m ρ c (Proc.devRef .tc main_v1) := (W18_arr m ρ c 5).trans (((dat8 (V17 m ρ) c).arrAt_in 5 rfl _).trans (A_eq8 (V17 m ρ) c 5))
    _ = W1 m ρ c (Proc.devRef .tc main_v1) := carry_main_v1_17 m ρ c

theorem carry_main_v1_21 (c : Dev nD) : W21 m ρ c (Proc.devRef .tc main_v1) = W1 m ρ c (Proc.devRef .tc main_v1) :=
  calc W21 m ρ c (Proc.devRef .tc main_v1)
    _ = W20 m ρ c (Proc.devRef .tc main_v1) := StableHlo.after_of_forall_not_mem (b := Proc.devRef .tc main_v1) _ _ (List.forall_iff_forall_mem.mp (by
          simp only [hostOps10, List.Forall, StableHlo.nullary_writes, StableHlo.unary_writes, StableHlo.ternary_writes, StableHlo.reshape_writes, Finset.mem_singleton]
          repeat' apply And.intro
          all_goals exact StableHlo.devRef_ne_of_ne (by decide)))
    _ = W19 m ρ c (Proc.devRef .tc main_v1) := (W20_arr m ρ c 5).trans (((dat9 (V19 m ρ) c).arrAt_in 5 rfl _).trans (A_eq9 (V19 m ρ) c 5))
    _ = W1 m ρ c (Proc.devRef .tc main_v1) := carry_main_v1_19 m ρ c

theorem carry_main_v1_23 (c : Dev nD) : W23 m ρ c (Proc.devRef .tc main_v1) = W1 m ρ c (Proc.devRef .tc main_v1) :=
  calc W23 m ρ c (Proc.devRef .tc main_v1)
    _ = W22 m ρ c (Proc.devRef .tc main_v1) := StableHlo.after_of_forall_not_mem (b := Proc.devRef .tc main_v1) _ _ (List.forall_iff_forall_mem.mp (by
          simp only [hostOps11, List.Forall, StableHlo.nullary_writes, StableHlo.unary_writes, StableHlo.ternary_writes, StableHlo.reshape_writes, Finset.mem_singleton]
          repeat' apply And.intro
          all_goals exact StableHlo.devRef_ne_of_ne (by decide)))
    _ = W21 m ρ c (Proc.devRef .tc main_v1) := (W22_arr m ρ c 5).trans (((dat10 (V21 m ρ) c).arrAt_in 5 rfl _).trans (A_eq10 (V21 m ρ) c 5))
    _ = W1 m ρ c (Proc.devRef .tc main_v1) := carry_main_v1_21 m ρ c

theorem carry_main_v1_25 (c : Dev nD) : W25 m ρ c (Proc.devRef .tc main_v1) = W1 m ρ c (Proc.devRef .tc main_v1) :=
  calc W25 m ρ c (Proc.devRef .tc main_v1)
    _ = W24 m ρ c (Proc.devRef .tc main_v1) := StableHlo.after_of_forall_not_mem (b := Proc.devRef .tc main_v1) _ _ (List.forall_iff_forall_mem.mp (by
          simp only [hostOps12, List.Forall, StableHlo.nullary_writes, StableHlo.unary_writes, StableHlo.ternary_writes, StableHlo.reshape_writes, Finset.mem_singleton]
          repeat' apply And.intro
          all_goals exact StableHlo.devRef_ne_of_ne (by decide)))
    _ = W23 m ρ c (Proc.devRef .tc main_v1) := (W24_arr m ρ c 5).trans (((dat11 (V23 m ρ) c).arrAt_in 5 rfl _).trans (A_eq11 (V23 m ρ) c 5))
    _ = W1 m ρ c (Proc.devRef .tc main_v1) := carry_main_v1_23 m ρ c

end Cert.KernelIdeal.KValue

end
-- ==== Proof.KCarryWr.lean ====
/-
  The right child's transposed weights keeps its contents across the later kernels and host operations: no host operation after its own writes
  it, and a kernel at most reads it through an input window, which leaves the array as it found it.
-/
import proofs.«102109_j83099027243631_1_alg».proof.Proof.Gen.KernelIdeal.Frame
import proofs.«102109_j83099027243631_1_alg».proof.Proof.TreeRows

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

theorem carry_main_v2_5 (c : Dev nD) : W5 m ρ c (Proc.devRef .tc main_v2) = W1 m ρ c (Proc.devRef .tc main_v2) :=
  calc W5 m ρ c (Proc.devRef .tc main_v2)
    _ = W4 m ρ c (Proc.devRef .tc main_v2) := StableHlo.after_of_forall_not_mem (b := Proc.devRef .tc main_v2) _ _ (List.forall_iff_forall_mem.mp (by
          simp only [hostOps2, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_v2) := W4_of_ne m ρ c main_v2 (by decide)
    _ = W2 m ρ c (Proc.devRef .tc main_v2) := StableHlo.after_of_forall_not_mem (b := Proc.devRef .tc main_v2) _ _ (List.forall_iff_forall_mem.mp (by
          simp only [hostOps1, List.Forall, StableHlo.nullary_writes, StableHlo.unary_writes, StableHlo.ternary_writes, StableHlo.reshape_writes, Finset.mem_singleton]
          repeat' apply And.intro
          all_goals exact StableHlo.devRef_ne_of_ne (by decide)))
    _ = W1 m ρ c (Proc.devRef .tc main_v2) := W2_of_ne m ρ c main_v2 (by decide)

theorem carry_main_v2_7 (c : Dev nD) : W7 m ρ c (Proc.devRef .tc main_v2) = W1 m ρ c (Proc.devRef .tc main_v2) :=
  calc W7 m ρ c (Proc.devRef .tc main_v2)
    _ = W6 m ρ c (Proc.devRef .tc main_v2) := StableHlo.after_of_forall_not_mem (b := Proc.devRef .tc main_v2) _ _ (List.forall_iff_forall_mem.mp (by
          simp only [hostOps3, List.Forall, StableHlo.nullary_writes, StableHlo.unary_writes, StableHlo.ternary_writes, StableHlo.reshape_writes, Finset.mem_singleton]
          repeat' apply And.intro
          all_goals exact StableHlo.devRef_ne_of_ne (by decide)))
    _ = W5 m ρ c (Proc.devRef .tc main_v2) := (W6_arr m ρ c 6).trans (((dat2 (V5 m ρ) c).arrAt_in 6 rfl _).trans (A_eq2 (V5 m ρ) c 6))
    _ = W1 m ρ c (Proc.devRef .tc main_v2) := carry_main_v2_5 m ρ c

theorem carry_main_v2_9 (c : Dev nD) : W9 m ρ c (Proc.devRef .tc main_v2) = W1 m ρ c (Proc.devRef .tc main_v2) :=
  calc W9 m ρ c (Proc.devRef .tc main_v2)
    _ = W8 m ρ c (Proc.devRef .tc main_v2) := StableHlo.after_of_forall_not_mem (b := Proc.devRef .tc main_v2) _ _ (List.forall_iff_forall_mem.mp (by
          simp only [hostOps4, List.Forall, StableHlo.nullary_writes, StableHlo.unary_writes, StableHlo.ternary_writes, StableHlo.reshape_writes, Finset.mem_singleton]
          repeat' apply And.intro
          all_goals exact StableHlo.devRef_ne_of_ne (by decide)))
    _ = W7 m ρ c (Proc.devRef .tc main_v2) := (W8_arr m ρ c 6).trans (((dat3 (V7 m ρ) c).arrAt_in 6 rfl _).trans (A_eq3 (V7 m ρ) c 6))
    _ = W1 m ρ c (Proc.devRef .tc main_v2) := carry_main_v2_7 m ρ c

theorem carry_main_v2_11 (c : Dev nD) : W11 m ρ c (Proc.devRef .tc main_v2) = W1 m ρ c (Proc.devRef .tc main_v2) :=
  calc W11 m ρ c (Proc.devRef .tc main_v2)
    _ = W10 m ρ c (Proc.devRef .tc main_v2) := StableHlo.after_of_forall_not_mem (b := Proc.devRef .tc main_v2) _ _ (List.forall_iff_forall_mem.mp (by
          simp only [hostOps5, List.Forall, StableHlo.nullary_writes, StableHlo.unary_writes, StableHlo.ternary_writes, StableHlo.reshape_writes, Finset.mem_singleton]
          repeat' apply And.intro
          all_goals exact StableHlo.devRef_ne_of_ne (by decide)))
    _ = W9 m ρ c (Proc.devRef .tc main_v2) := (W10_arr m ρ c 6).trans (((dat4 (V9 m ρ) c).arrAt_in 6 rfl _).trans (A_eq4 (V9 m ρ) c 6))
    _ = W1 m ρ c (Proc.devRef .tc main_v2) := carry_main_v2_9 m ρ c

theorem carry_main_v2_13 (c : Dev nD) : W13 m ρ c (Proc.devRef .tc main_v2) = W1 m ρ c (Proc.devRef .tc main_v2) :=
  calc W13 m ρ c (Proc.devRef .tc main_v2)
    _ = W12 m ρ c (Proc.devRef .tc main_v2) := StableHlo.after_of_forall_not_mem (b := Proc.devRef .tc main_v2) _ _ (List.forall_iff_forall_mem.mp (by
          simp only [hostOps6, List.Forall, StableHlo.nullary_writes, StableHlo.unary_writes, StableHlo.ternary_writes, StableHlo.reshape_writes, Finset.mem_singleton]
          repeat' apply And.intro
          all_goals exact StableHlo.devRef_ne_of_ne (by decide)))
    _ = W11 m ρ c (Proc.devRef .tc main_v2) := (W12_arr m ρ c 6).trans (((dat5 (V11 m ρ) c).arrAt_in 6 rfl _).trans (A_eq5 (V11 m ρ) c 6))
    _ = W1 m ρ c (Proc.devRef .tc main_v2) := carry_main_v2_11 m ρ c

theorem carry_main_v2_15 (c : Dev nD) : W15 m ρ c (Proc.devRef .tc main_v2) = W1 m ρ c (Proc.devRef .tc main_v2) :=
  calc W15 m ρ c (Proc.devRef .tc main_v2)
    _ = W14 m ρ c (Proc.devRef .tc main_v2) := StableHlo.after_of_forall_not_mem (b := Proc.devRef .tc main_v2) _ _ (List.forall_iff_forall_mem.mp (by
          simp only [hostOps7, List.Forall, StableHlo.nullary_writes, StableHlo.unary_writes, StableHlo.ternary_writes, StableHlo.reshape_writes, Finset.mem_singleton]
          repeat' apply And.intro
          all_goals exact StableHlo.devRef_ne_of_ne (by decide)))
    _ = W13 m ρ c (Proc.devRef .tc main_v2) := (W14_arr m ρ c 6).trans (((dat6 (V13 m ρ) c).arrAt_in 6 rfl _).trans (A_eq6 (V13 m ρ) c 6))
    _ = W1 m ρ c (Proc.devRef .tc main_v2) := carry_main_v2_13 m ρ c

theorem carry_main_v2_17 (c : Dev nD) : W17 m ρ c (Proc.devRef .tc main_v2) = W1 m ρ c (Proc.devRef .tc main_v2) :=
  calc W17 m ρ c (Proc.devRef .tc main_v2)
    _ = W16 m ρ c (Proc.devRef .tc main_v2) := StableHlo.after_of_forall_not_mem (b := Proc.devRef .tc main_v2) _ _ (List.forall_iff_forall_mem.mp (by
          simp only [hostOps8, List.Forall, StableHlo.nullary_writes, StableHlo.unary_writes, StableHlo.ternary_writes, StableHlo.reshape_writes, Finset.mem_singleton]
          repeat' apply And.intro
          all_goals exact StableHlo.devRef_ne_of_ne (by decide)))
    _ = W15 m ρ c (Proc.devRef .tc main_v2) := (W16_arr m ρ c 6).trans (((dat7 (V15 m ρ) c).arrAt_in 6 rfl _).trans (A_eq7 (V15 m ρ) c 6))
    _ = W1 m ρ c (Proc.devRef .tc main_v2) := carry_main_v2_15 m ρ c

theorem carry_main_v2_19 (c : Dev nD) : W19 m ρ c (Proc.devRef .tc main_v2) = W1 m ρ c (Proc.devRef .tc main_v2) :=
  calc W19 m ρ c (Proc.devRef .tc main_v2)
    _ = W18 m ρ c (Proc.devRef .tc main_v2) := StableHlo.after_of_forall_not_mem (b := Proc.devRef .tc main_v2) _ _ (List.forall_iff_forall_mem.mp (by
          simp only [hostOps9, List.Forall, StableHlo.nullary_writes, StableHlo.unary_writes, StableHlo.ternary_writes, StableHlo.reshape_writes, Finset.mem_singleton]
          repeat' apply And.intro
          all_goals exact StableHlo.devRef_ne_of_ne (by decide)))
    _ = W17 m ρ c (Proc.devRef .tc main_v2) := (W18_arr m ρ c 6).trans (((dat8 (V17 m ρ) c).arrAt_in 6 rfl _).trans (A_eq8 (V17 m ρ) c 6))
    _ = W1 m ρ c (Proc.devRef .tc main_v2) := carry_main_v2_17 m ρ c

theorem carry_main_v2_21 (c : Dev nD) : W21 m ρ c (Proc.devRef .tc main_v2) = W1 m ρ c (Proc.devRef .tc main_v2) :=
  calc W21 m ρ c (Proc.devRef .tc main_v2)
    _ = W20 m ρ c (Proc.devRef .tc main_v2) := StableHlo.after_of_forall_not_mem (b := Proc.devRef .tc main_v2) _ _ (List.forall_iff_forall_mem.mp (by
          simp only [hostOps10, List.Forall, StableHlo.nullary_writes, StableHlo.unary_writes, StableHlo.ternary_writes, StableHlo.reshape_writes, Finset.mem_singleton]
          repeat' apply And.intro
          all_goals exact StableHlo.devRef_ne_of_ne (by decide)))
    _ = W19 m ρ c (Proc.devRef .tc main_v2) := (W20_arr m ρ c 6).trans (((dat9 (V19 m ρ) c).arrAt_in 6 rfl _).trans (A_eq9 (V19 m ρ) c 6))
    _ = W1 m ρ c (Proc.devRef .tc main_v2) := carry_main_v2_19 m ρ c

theorem carry_main_v2_23 (c : Dev nD) : W23 m ρ c (Proc.devRef .tc main_v2) = W1 m ρ c (Proc.devRef .tc main_v2) :=
  calc W23 m ρ c (Proc.devRef .tc main_v2)
    _ = W22 m ρ c (Proc.devRef .tc main_v2) := StableHlo.after_of_forall_not_mem (b := Proc.devRef .tc main_v2) _ _ (List.forall_iff_forall_mem.mp (by
          simp only [hostOps11, List.Forall, StableHlo.nullary_writes, StableHlo.unary_writes, StableHlo.ternary_writes, StableHlo.reshape_writes, Finset.mem_singleton]
          repeat' apply And.intro
          all_goals exact StableHlo.devRef_ne_of_ne (by decide)))
    _ = W21 m ρ c (Proc.devRef .tc main_v2) := (W22_arr m ρ c 6).trans (((dat10 (V21 m ρ) c).arrAt_in 6 rfl _).trans (A_eq10 (V21 m ρ) c 6))
    _ = W1 m ρ c (Proc.devRef .tc main_v2) := carry_main_v2_21 m ρ c

theorem carry_main_v2_25 (c : Dev nD) : W25 m ρ c (Proc.devRef .tc main_v2) = W1 m ρ c (Proc.devRef .tc main_v2) :=
  calc W25 m ρ c (Proc.devRef .tc main_v2)
    _ = W24 m ρ c (Proc.devRef .tc main_v2) := StableHlo.after_of_forall_not_mem (b := Proc.devRef .tc main_v2) _ _ (List.forall_iff_forall_mem.mp (by
          simp only [hostOps12, List.Forall, StableHlo.nullary_writes, StableHlo.unary_writes, StableHlo.ternary_writes, StableHlo.reshape_writes, Finset.mem_singleton]
          repeat' apply And.intro
          all_goals exact StableHlo.devRef_ne_of_ne (by decide)))
    _ = W23 m ρ c (Proc.devRef .tc main_v2) := (W24_arr m ρ c 6).trans (((dat11 (V23 m ρ) c).arrAt_in 6 rfl _).trans (A_eq11 (V23 m ρ) c 6))
    _ = W1 m ρ c (Proc.devRef .tc main_v2) := carry_main_v2_23 m ρ c

end Cert.KernelIdeal.KValue

end
-- ==== Proof.KCarryBl.lean ====
/-
  The left child's bias keeps its contents across the later kernels and host operations: no host operation after its own writes
  it, and a kernel at most reads it through an input window, which leaves the array as it found it.
-/
import proofs.«102109_j83099027243631_1_alg».proof.Proof.Gen.KernelIdeal.Frame
import proofs.«102109_j83099027243631_1_alg».proof.Proof.TreeRows

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

theorem carry_main_arg5_5 (c : Dev nD) : W5 m ρ c (Proc.devRef .tc main_arg5) = W0 m ρ c (Proc.devRef .tc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.ternary_writes, StableHlo.reshape_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.ternary_writes, StableHlo.reshape_writes, Finset.mem_singleton]
          repeat' apply And.intro
          all_goals exact StableHlo.devRef_ne_of_ne (by decide)))

theorem carry_main_arg5_7 (c : Dev nD) : W7 m ρ c (Proc.devRef .tc main_arg5) = W0 m ρ c (Proc.devRef .tc main_arg5) :=
  calc W7 m ρ c (Proc.devRef .tc main_arg5)
    _ = W6 m ρ c (Proc.devRef .tc main_arg5) := StableHlo.after_of_forall_not_mem (b := Proc.devRef .tc main_arg5) _ _ (List.forall_iff_forall_mem.mp (by
          simp only [hostOps3, List.Forall, StableHlo.nullary_writes, StableHlo.unary_writes, StableHlo.ternary_writes, StableHlo.reshape_writes, Finset.mem_singleton]
          repeat' apply And.intro
          all_goals exact StableHlo.devRef_ne_of_ne (by decide)))
    _ = W5 m ρ c (Proc.devRef .tc main_arg5) := (W6_arr m ρ c 7).trans (((dat2 (V5 m ρ) c).arrAt_in 7 rfl _).trans (A_eq2 (V5 m ρ) c 7))
    _ = W0 m ρ c (Proc.devRef .tc main_arg5) := carry_main_arg5_5 m ρ c

theorem carry_main_arg5_9 (c : Dev nD) : W9 m ρ c (Proc.devRef .tc main_arg5) = W0 m ρ c (Proc.devRef .tc main_arg5) :=
  calc W9 m ρ c (Proc.devRef .tc main_arg5)
    _ = W8 m ρ c (Proc.devRef .tc main_arg5) := StableHlo.after_of_forall_not_mem (b := Proc.devRef .tc main_arg5) _ _ (List.forall_iff_forall_mem.mp (by
          simp only [hostOps4, List.Forall, StableHlo.nullary_writes, StableHlo.unary_writes, StableHlo.ternary_writes, StableHlo.reshape_writes, Finset.mem_singleton]
          repeat' apply And.intro
          all_goals exact StableHlo.devRef_ne_of_ne (by decide)))
    _ = W7 m ρ c (Proc.devRef .tc main_arg5) := (W8_arr m ρ c 7).trans (((dat3 (V7 m ρ) c).arrAt_in 7 rfl _).trans (A_eq3 (V7 m ρ) c 7))
    _ = W0 m ρ c (Proc.devRef .tc main_arg5) := carry_main_arg5_7 m ρ c

theorem carry_main_arg5_11 (c : Dev nD) : W11 m ρ c (Proc.devRef .tc main_arg5) = W0 m ρ c (Proc.devRef .tc main_arg5) :=
  calc W11 m ρ c (Proc.devRef .tc main_arg5)
    _ = W10 m ρ c (Proc.devRef .tc main_arg5) := StableHlo.after_of_forall_not_mem (b := Proc.devRef .tc main_arg5) _ _ (List.forall_iff_forall_mem.mp (by
          simp only [hostOps5, List.Forall, StableHlo.nullary_writes, StableHlo.unary_writes, StableHlo.ternary_writes, StableHlo.reshape_writes, Finset.mem_singleton]
          repeat' apply And.intro
          all_goals exact StableHlo.devRef_ne_of_ne (by decide)))
    _ = W9 m ρ c (Proc.devRef .tc main_arg5) := (W10_arr m ρ c 7).trans (((dat4 (V9 m ρ) c).arrAt_in 7 rfl _).trans (A_eq4 (V9 m ρ) c 7))
    _ = W0 m ρ c (Proc.devRef .tc main_arg5) := carry_main_arg5_9 m ρ c

theorem carry_main_arg5_13 (c : Dev nD) : W13 m ρ c (Proc.devRef .tc main_arg5) = W0 m ρ c (Proc.devRef .tc main_arg5) :=
  calc W13 m ρ c (Proc.devRef .tc main_arg5)
    _ = W12 m ρ c (Proc.devRef .tc main_arg5) := StableHlo.after_of_forall_not_mem (b := Proc.devRef .tc main_arg5) _ _ (List.forall_iff_forall_mem.mp (by
          simp only [hostOps6, List.Forall, StableHlo.nullary_writes, StableHlo.unary_writes, StableHlo.ternary_writes, StableHlo.reshape_writes, Finset.mem_singleton]
          repeat' apply And.intro
          all_goals exact StableHlo.devRef_ne_of_ne (by decide)))
    _ = W11 m ρ c (Proc.devRef .tc main_arg5) := (W12_arr m ρ c 7).trans (((dat5 (V11 m ρ) c).arrAt_in 7 rfl _).trans (A_eq5 (V11 m ρ) c 7))
    _ = W0 m ρ c (Proc.devRef .tc main_arg5) := carry_main_arg5_11 m ρ c

theorem carry_main_arg5_15 (c : Dev nD) : W15 m ρ c (Proc.devRef .tc main_arg5) = W0 m ρ c (Proc.devRef .tc main_arg5) :=
  calc W15 m ρ c (Proc.devRef .tc main_arg5)
    _ = W14 m ρ c (Proc.devRef .tc main_arg5) := StableHlo.after_of_forall_not_mem (b := Proc.devRef .tc main_arg5) _ _ (List.forall_iff_forall_mem.mp (by
          simp only [hostOps7, List.Forall, StableHlo.nullary_writes, StableHlo.unary_writes, StableHlo.ternary_writes, StableHlo.reshape_writes, Finset.mem_singleton]
          repeat' apply And.intro
          all_goals exact StableHlo.devRef_ne_of_ne (by decide)))
    _ = W13 m ρ c (Proc.devRef .tc main_arg5) := (W14_arr m ρ c 7).trans (((dat6 (V13 m ρ) c).arrAt_in 7 rfl _).trans (A_eq6 (V13 m ρ) c 7))
    _ = W0 m ρ c (Proc.devRef .tc main_arg5) := carry_main_arg5_13 m ρ c

theorem carry_main_arg5_17 (c : Dev nD) : W17 m ρ c (Proc.devRef .tc main_arg5) = W0 m ρ c (Proc.devRef .tc main_arg5) :=
  calc W17 m ρ c (Proc.devRef .tc main_arg5)
    _ = W16 m ρ c (Proc.devRef .tc main_arg5) := StableHlo.after_of_forall_not_mem (b := Proc.devRef .tc main_arg5) _ _ (List.forall_iff_forall_mem.mp (by
          simp only [hostOps8, List.Forall, StableHlo.nullary_writes, StableHlo.unary_writes, StableHlo.ternary_writes, StableHlo.reshape_writes, Finset.mem_singleton]
          repeat' apply And.intro
          all_goals exact StableHlo.devRef_ne_of_ne (by decide)))
    _ = W15 m ρ c (Proc.devRef .tc main_arg5) := (W16_arr m ρ c 7).trans (((dat7 (V15 m ρ) c).arrAt_in 7 rfl _).trans (A_eq7 (V15 m ρ) c 7))
    _ = W0 m ρ c (Proc.devRef .tc main_arg5) := carry_main_arg5_15 m ρ c

theorem carry_main_arg5_19 (c : Dev nD) : W19 m ρ c (Proc.devRef .tc main_arg5) = W0 m ρ c (Proc.devRef .tc main_arg5) :=
  calc W19 m ρ c (Proc.devRef .tc main_arg5)
    _ = W18 m ρ c (Proc.devRef .tc main_arg5) := StableHlo.after_of_forall_not_mem (b := Proc.devRef .tc main_arg5) _ _ (List.forall_iff_forall_mem.mp (by
          simp only [hostOps9, List.Forall, StableHlo.nullary_writes, StableHlo.unary_writes, StableHlo.ternary_writes, StableHlo.reshape_writes, Finset.mem_singleton]
          repeat' apply And.intro
          all_goals exact StableHlo.devRef_ne_of_ne (by decide)))
    _ = W17 m ρ c (Proc.devRef .tc main_arg5) := (W18_arr m ρ c 7).trans (((dat8 (V17 m ρ) c).arrAt_in 7 rfl _).trans (A_eq8 (V17 m ρ) c 7))
    _ = W0 m ρ c (Proc.devRef .tc main_arg5) := carry_main_arg5_17 m ρ c

theorem carry_main_arg5_21 (c : Dev nD) : W21 m ρ c (Proc.devRef .tc main_arg5) = W0 m ρ c (Proc.devRef .tc main_arg5) :=
  calc W21 m ρ c (Proc.devRef .tc main_arg5)
    _ = W20 m ρ c (Proc.devRef .tc main_arg5) := StableHlo.after_of_forall_not_mem (b := Proc.devRef .tc main_arg5) _ _ (List.forall_iff_forall_mem.mp (by
          simp only [hostOps10, List.Forall, StableHlo.nullary_writes, StableHlo.unary_writes, StableHlo.ternary_writes, StableHlo.reshape_writes, Finset.mem_singleton]
          repeat' apply And.intro
          all_goals exact StableHlo.devRef_ne_of_ne (by decide)))
    _ = W19 m ρ c (Proc.devRef .tc main_arg5) := (W20_arr m ρ c 7).trans (((dat9 (V19 m ρ) c).arrAt_in 7 rfl _).trans (A_eq9 (V19 m ρ) c 7))
    _ = W0 m ρ c (Proc.devRef .tc main_arg5) := carry_main_arg5_19 m ρ c

theorem carry_main_arg5_23 (c : Dev nD) : W23 m ρ c (Proc.devRef .tc main_arg5) = W0 m ρ c (Proc.devRef .tc main_arg5) :=
  calc W23 m ρ c (Proc.devRef .tc main_arg5)
    _ = W22 m ρ c (Proc.devRef .tc main_arg5) := StableHlo.after_of_forall_not_mem (b := Proc.devRef .tc main_arg5) _ _ (List.forall_iff_forall_mem.mp (by
          simp only [hostOps11, List.Forall, StableHlo.nullary_writes, StableHlo.unary_writes, StableHlo.ternary_writes, StableHlo.reshape_writes, Finset.mem_singleton]
          repeat' apply And.intro
          all_goals exact StableHlo.devRef_ne_of_ne (by decide)))
    _ = W21 m ρ c (Proc.devRef .tc main_arg5) := (W22_arr m ρ c 7).trans (((dat10 (V21 m ρ) c).arrAt_in 7 rfl _).trans (A_eq10 (V21 m ρ) c 7))
    _ = W0 m ρ c (Proc.devRef .tc main_arg5) := carry_main_arg5_21 m ρ c

theorem carry_main_arg5_25 (c : Dev nD) : W25 m ρ c (Proc.devRef .tc main_arg5) = W0 m ρ c (Proc.devRef .tc main_arg5) :=
  calc W25 m ρ c (Proc.devRef .tc main_arg5)
    _ = W24 m ρ c (Proc.devRef .tc main_arg5) := StableHlo.after_of_forall_not_mem (b := Proc.devRef .tc main_arg5) _ _ (List.forall_iff_forall_mem.mp (by
          simp only [hostOps12, List.Forall, StableHlo.nullary_writes, StableHlo.unary_writes, StableHlo.ternary_writes, StableHlo.reshape_writes, Finset.mem_singleton]
          repeat' apply And.intro
          all_goals exact StableHlo.devRef_ne_of_ne (by decide)))
    _ = W23 m ρ c (Proc.devRef .tc main_arg5) := (W24_arr m ρ c 7).trans (((dat11 (V23 m ρ) c).arrAt_in 7 rfl _).trans (A_eq11 (V23 m ρ) c 7))
    _ = W0 m ρ c (Proc.devRef .tc main_arg5) := carry_main_arg5_23 m ρ c

end Cert.KernelIdeal.KValue

end
-- ==== Proof.KCarryBr.lean ====
/-
  The right child's bias keeps its contents across the later kernels and host operations: no host operation after its own writes
  it, and a kernel at most reads it through an input window, which leaves the array as it found it.
-/
import proofs.«102109_j83099027243631_1_alg».proof.Proof.Gen.KernelIdeal.Frame
import proofs.«102109_j83099027243631_1_alg».proof.Proof.TreeRows

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

theorem carry_main_arg6_5 (c : Dev nD) : W5 m ρ c (Proc.devRef .tc main_arg6) = W0 m ρ c (Proc.devRef .tc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.Forall, StableHlo.nullary_writes, StableHlo.unary_writes, StableHlo.ternary_writes, StableHlo.reshape_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.ternary_writes, StableHlo.reshape_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.nullary_writes, StableHlo.unary_writes, StableHlo.ternary_writes, StableHlo.reshape_writes, Finset.mem_singleton]
          repeat' apply And.intro
          all_goals exact StableHlo.devRef_ne_of_ne (by decide)))

theorem carry_main_arg6_7 (c : Dev nD) : W7 m ρ c (Proc.devRef .tc main_arg6) = W0 m ρ c (Proc.devRef .tc main_arg6) :=
  calc W7 m ρ c (Proc.devRef .tc main_arg6)
    _ = W6 m ρ c (Proc.devRef .tc main_arg6) := StableHlo.after_of_forall_not_mem (b := Proc.devRef .tc main_arg6) _ _ (List.forall_iff_forall_mem.mp (by
          simp only [hostOps3, List.Forall, StableHlo.nullary_writes, StableHlo.unary_writes, StableHlo.ternary_writes, StableHlo.reshape_writes, Finset.mem_singleton]
          repeat' apply And.intro
          all_goals exact StableHlo.devRef_ne_of_ne (by decide)))
    _ = W5 m ρ c (Proc.devRef .tc main_arg6) := (W6_arr m ρ c 8).trans (((dat2 (V5 m ρ) c).arrAt_in 8 rfl _).trans (A_eq2 (V5 m ρ) c 8))
    _ = W0 m ρ c (Proc.devRef .tc main_arg6) := carry_main_arg6_5 m ρ c

theorem carry_main_arg6_9 (c : Dev nD) : W9 m ρ c (Proc.devRef .tc main_arg6) = W0 m ρ c (Proc.devRef .tc main_arg6) :=
  calc W9 m ρ c (Proc.devRef .tc main_arg6)
    _ = W8 m ρ c (Proc.devRef .tc main_arg6) := StableHlo.after_of_forall_not_mem (b := Proc.devRef .tc main_arg6) _ _ (List.forall_iff_forall_mem.mp (by
          simp only [hostOps4, List.Forall, StableHlo.nullary_writes, StableHlo.unary_writes, StableHlo.ternary_writes, StableHlo.reshape_writes, Finset.mem_singleton]
          repeat' apply And.intro
          all_goals exact StableHlo.devRef_ne_of_ne (by decide)))
    _ = W7 m ρ c (Proc.devRef .tc main_arg6) := (W8_arr m ρ c 8).trans (((dat3 (V7 m ρ) c).arrAt_in 8 rfl _).trans (A_eq3 (V7 m ρ) c 8))
    _ = W0 m ρ c (Proc.devRef .tc main_arg6) := carry_main_arg6_7 m ρ c

theorem carry_main_arg6_11 (c : Dev nD) : W11 m ρ c (Proc.devRef .tc main_arg6) = W0 m ρ c (Proc.devRef .tc main_arg6) :=
  calc W11 m ρ c (Proc.devRef .tc main_arg6)
    _ = W10 m ρ c (Proc.devRef .tc main_arg6) := StableHlo.after_of_forall_not_mem (b := Proc.devRef .tc main_arg6) _ _ (List.forall_iff_forall_mem.mp (by
          simp only [hostOps5, List.Forall, StableHlo.nullary_writes, StableHlo.unary_writes, StableHlo.ternary_writes, StableHlo.reshape_writes, Finset.mem_singleton]
          repeat' apply And.intro
          all_goals exact StableHlo.devRef_ne_of_ne (by decide)))
    _ = W9 m ρ c (Proc.devRef .tc main_arg6) := (W10_arr m ρ c 8).trans (((dat4 (V9 m ρ) c).arrAt_in 8 rfl _).trans (A_eq4 (V9 m ρ) c 8))
    _ = W0 m ρ c (Proc.devRef .tc main_arg6) := carry_main_arg6_9 m ρ c

theorem carry_main_arg6_13 (c : Dev nD) : W13 m ρ c (Proc.devRef .tc main_arg6) = W0 m ρ c (Proc.devRef .tc main_arg6) :=
  calc W13 m ρ c (Proc.devRef .tc main_arg6)
    _ = W12 m ρ c (Proc.devRef .tc main_arg6) := StableHlo.after_of_forall_not_mem (b := Proc.devRef .tc main_arg6) _ _ (List.forall_iff_forall_mem.mp (by
          simp only [hostOps6, List.Forall, StableHlo.nullary_writes, StableHlo.unary_writes, StableHlo.ternary_writes, StableHlo.reshape_writes, Finset.mem_singleton]
          repeat' apply And.intro
          all_goals exact StableHlo.devRef_ne_of_ne (by decide)))
    _ = W11 m ρ c (Proc.devRef .tc main_arg6) := (W12_arr m ρ c 8).trans (((dat5 (V11 m ρ) c).arrAt_in 8 rfl _).trans (A_eq5 (V11 m ρ) c 8))
    _ = W0 m ρ c (Proc.devRef .tc main_arg6) := carry_main_arg6_11 m ρ c

theorem carry_main_arg6_15 (c : Dev nD) : W15 m ρ c (Proc.devRef .tc main_arg6) = W0 m ρ c (Proc.devRef .tc main_arg6) :=
  calc W15 m ρ c (Proc.devRef .tc main_arg6)
    _ = W14 m ρ c (Proc.devRef .tc main_arg6) := StableHlo.after_of_forall_not_mem (b := Proc.devRef .tc main_arg6) _ _ (List.forall_iff_forall_mem.mp (by
          simp only [hostOps7, List.Forall, StableHlo.nullary_writes, StableHlo.unary_writes, StableHlo.ternary_writes, StableHlo.reshape_writes, Finset.mem_singleton]
          repeat' apply And.intro
          all_goals exact StableHlo.devRef_ne_of_ne (by decide)))
    _ = W13 m ρ c (Proc.devRef .tc main_arg6) := (W14_arr m ρ c 8).trans (((dat6 (V13 m ρ) c).arrAt_in 8 rfl _).trans (A_eq6 (V13 m ρ) c 8))
    _ = W0 m ρ c (Proc.devRef .tc main_arg6) := carry_main_arg6_13 m ρ c

theorem carry_main_arg6_17 (c : Dev nD) : W17 m ρ c (Proc.devRef .tc main_arg6) = W0 m ρ c (Proc.devRef .tc main_arg6) :=
  calc W17 m ρ c (Proc.devRef .tc main_arg6)
    _ = W16 m ρ c (Proc.devRef .tc main_arg6) := StableHlo.after_of_forall_not_mem (b := Proc.devRef .tc main_arg6) _ _ (List.forall_iff_forall_mem.mp (by
          simp only [hostOps8, List.Forall, StableHlo.nullary_writes, StableHlo.unary_writes, StableHlo.ternary_writes, StableHlo.reshape_writes, Finset.mem_singleton]
          repeat' apply And.intro
          all_goals exact StableHlo.devRef_ne_of_ne (by decide)))
    _ = W15 m ρ c (Proc.devRef .tc main_arg6) := (W16_arr m ρ c 8).trans (((dat7 (V15 m ρ) c).arrAt_in 8 rfl _).trans (A_eq7 (V15 m ρ) c 8))
    _ = W0 m ρ c (Proc.devRef .tc main_arg6) := carry_main_arg6_15 m ρ c

theorem carry_main_arg6_19 (c : Dev nD) : W19 m ρ c (Proc.devRef .tc main_arg6) = W0 m ρ c (Proc.devRef .tc main_arg6) :=
  calc W19 m ρ c (Proc.devRef .tc main_arg6)
    _ = W18 m ρ c (Proc.devRef .tc main_arg6) := StableHlo.after_of_forall_not_mem (b := Proc.devRef .tc main_arg6) _ _ (List.forall_iff_forall_mem.mp (by
          simp only [hostOps9, List.Forall, StableHlo.nullary_writes, StableHlo.unary_writes, StableHlo.ternary_writes, StableHlo.reshape_writes, Finset.mem_singleton]
          repeat' apply And.intro
          all_goals exact StableHlo.devRef_ne_of_ne (by decide)))
    _ = W17 m ρ c (Proc.devRef .tc main_arg6) := (W18_arr m ρ c 8).trans (((dat8 (V17 m ρ) c).arrAt_in 8 rfl _).trans (A_eq8 (V17 m ρ) c 8))
    _ = W0 m ρ c (Proc.devRef .tc main_arg6) := carry_main_arg6_17 m ρ c

theorem carry_main_arg6_21 (c : Dev nD) : W21 m ρ c (Proc.devRef .tc main_arg6) = W0 m ρ c (Proc.devRef .tc main_arg6) :=
  calc W21 m ρ c (Proc.devRef .tc main_arg6)
    _ = W20 m ρ c (Proc.devRef .tc main_arg6) := StableHlo.after_of_forall_not_mem (b := Proc.devRef .tc main_arg6) _ _ (List.forall_iff_forall_mem.mp (by
          simp only [hostOps10, List.Forall, StableHlo.nullary_writes, StableHlo.unary_writes, StableHlo.ternary_writes, StableHlo.reshape_writes, Finset.mem_singleton]
          repeat' apply And.intro
          all_goals exact StableHlo.devRef_ne_of_ne (by decide)))
    _ = W19 m ρ c (Proc.devRef .tc main_arg6) := (W20_arr m ρ c 8).trans (((dat9 (V19 m ρ) c).arrAt_in 8 rfl _).trans (A_eq9 (V19 m ρ) c 8))
    _ = W0 m ρ c (Proc.devRef .tc main_arg6) := carry_main_arg6_19 m ρ c

theorem carry_main_arg6_23 (c : Dev nD) : W23 m ρ c (Proc.devRef .tc main_arg6) = W0 m ρ c (Proc.devRef .tc main_arg6) :=
  calc W23 m ρ c (Proc.devRef .tc main_arg6)
    _ = W22 m ρ c (Proc.devRef .tc main_arg6) := StableHlo.after_of_forall_not_mem (b := Proc.devRef .tc main_arg6) _ _ (List.forall_iff_forall_mem.mp (by
          simp only [hostOps11, List.Forall, StableHlo.nullary_writes, StableHlo.unary_writes, StableHlo.ternary_writes, StableHlo.reshape_writes, Finset.mem_singleton]
          repeat' apply And.intro
          all_goals exact StableHlo.devRef_ne_of_ne (by decide)))
    _ = W21 m ρ c (Proc.devRef .tc main_arg6) := (W22_arr m ρ c 8).trans (((dat10 (V21 m ρ) c).arrAt_in 8 rfl _).trans (A_eq10 (V21 m ρ) c 8))
    _ = W0 m ρ c (Proc.devRef .tc main_arg6) := carry_main_arg6_21 m ρ c

theorem carry_main_arg6_25 (c : Dev nD) : W25 m ρ c (Proc.devRef .tc main_arg6) = W0 m ρ c (Proc.devRef .tc main_arg6) :=
  calc W25 m ρ c (Proc.devRef .tc main_arg6)
    _ = W24 m ρ c (Proc.devRef .tc main_arg6) := StableHlo.after_of_forall_not_mem (b := Proc.devRef .tc main_arg6) _ _ (List.forall_iff_forall_mem.mp (by
          simp only [hostOps12, List.Forall, StableHlo.nullary_writes, StableHlo.unary_writes, StableHlo.ternary_writes, StableHlo.reshape_writes, Finset.mem_singleton]
          repeat' apply And.intro
          all_goals exact StableHlo.devRef_ne_of_ne (by decide)))
    _ = W23 m ρ c (Proc.devRef .tc main_arg6) := (W24_arr m ρ c 8).trans (((dat11 (V23 m ρ) c).arrAt_in 8 rfl _).trans (A_eq11 (V23 m ρ) c 8))
    _ = W0 m ρ c (Proc.devRef .tc main_arg6) := carry_main_arg6_23 m ρ c

end Cert.KernelIdeal.KValue

end
-- ==== Proof.KCarry.lean ====
/-
  The buffers that live across several kernels, each at every later boundary: the five modules together.
-/
import proofs.«102109_j83099027243631_1_alg».proof.Proof.KCarryX
import proofs.«102109_j83099027243631_1_alg».proof.Proof.KCarryWl
import proofs.«102109_j83099027243631_1_alg».proof.Proof.KCarryWr
import proofs.«102109_j83099027243631_1_alg».proof.Proof.KCarryBl
import proofs.«102109_j83099027243631_1_alg».proof.Proof.KCarryBr
-- ==== Proof.KScatter.lean ====
/-
  Writing rows into an array: a scatter whose body returns the update, read at an index.

  The scatter is a left fold over the update's positions; each step overwrites the one element of the result the
  position lands on.  When every position lands inside the operand, at `emb j` for an injective `emb`, the result
  holds the update's element `j` at `emb j` and the operand's element everywhere else.
-/
import Idealize.ShloMosaic.Lib.ValueLayout

noncomputable section

namespace Cert.KernelIdeal.KValue

open Idealize.ShloMosaic Idealize.ShloMosaic.ValueIdx

section Fold
variable {ι β γ : Type} [DecidableEq β]

/-- One step of the fold: position `n` overwrites the element it lands on, if any. -/
def setStep (g : ι → Option β) (v : ι → γ) (r : β → γ) (n : ι) : β → γ :=
  match g n with
  | some i => fun i' => if i' = i then v n else r i'
  | none => r

theorem setStep_some (g : ι → Option β) (v : ι → γ) (r : β → γ) (n : ι) (i : β) (h : g n = some i) :
    setStep g v r n = fun i' => if i' = i then v n else r i' := by
  unfold setStep; rw [h]
theorem setStep_none (g : ι → Option β) (v : ι → γ) (r : β → γ) (n : ι) (h : g n = none) :
    setStep g v r n = r := by
  unfold setStep; rw [h]

/-- An element no position of the list lands on is left as it was. -/
theorem foldl_setStep_miss (g : ι → Option β) (v : ι → γ) (i' : β) :
    ∀ (L : List ι) (r : β → γ), (∀ n ∈ L, g n ≠ some i') → (L.foldl (setStep g v) r) i' = r i'
  | [], _, _ => rfl
  | a :: L, r, h => by
      rw [List.foldl_cons, foldl_setStep_miss g v i' L _ (fun n hn => h n (List.mem_cons_of_mem _ hn))]
      have ha := h a (List.mem_cons_self ..)
      cases hg : g a with
      | none => rw [setStep_none g v r a hg]
      | some i =>
        rw [setStep_some g v r a i hg]
        exact if_neg fun e => ha (by rw [hg, e])

/-- An element exactly one position of a duplicate-free list lands on holds that position's value. -/
theorem foldl_setStep_hit (g : ι → Option β) (v : ι → γ) (i' : β) (n0 : ι) (h0 : g n0 = some i') :
    ∀ (L : List ι) (r : β → γ), n0 ∈ L → (∀ n ∈ L, g n = some i' → n = n0) → L.Nodup →
      (L.foldl (setStep g v) r) i' = v n0
  | [], _, hm, _, _ => absurd hm List.not_mem_nil
  | a :: L, r, hm, hu, hnd => by
      rw [List.foldl_cons]
      by_cases ha : a = n0
      · subst ha
        have hnotin : a ∉ L := (List.nodup_cons.mp hnd).1
        rw [foldl_setStep_miss g v i' L _ (fun n hn e => hnotin ((hu n (List.mem_cons_of_mem _ hn) e) ▸ hn)),
          setStep_some g v r a i' h0]
        exact if_pos rfl
      · exact foldl_setStep_hit g v i' n0 h0 L _ ((List.mem_cons.mp hm).resolve_left (Ne.symm ha))
          (fun n hn => hu n (List.mem_cons_of_mem _ hn)) (List.nodup_cons.mp hnd).2

end Fold

section Scatter
variable {s si u : Shape} {α : Type} {w : Nat}

/-- The scatter whose body returns the update, as the fold of `setStep`. -/
theorem scatter_set_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  refine congrArg (fun st => List.foldl st x (List.finRange u.numel)) (funext fun r => funext fun n => ?_)
  unfold setStep
  beta_reduce
  cases d.resultIdx? (u.rowMajor.symm n) idx <;> rfl

/-- Where update element `j` lands, the result holds it. -/
theorem scatter_set_hit (d : ScatterDims s si u) (x : s.Idx → α) (idx : IVec si w) (upd : u.Idx → α)
    (emb : u.Idx → s.Idx) (hres : ∀ j, d.resultIdx? j idx = some (emb j)) (hinj : Function.Injective emb) (j : u.Idx) :
    Host.scatter d (fun _ b => b) x idx upd (emb j) = upd j := by
  rw [scatter_set_eq_foldl]
  refine (foldl_setStep_hit _ _ (emb j) (u.rowMajor j) ?_ _ x (List.mem_finRange _) (fun n _ e => ?_)
    (List.nodup_finRange _)).trans ?_
  · show d.resultIdx? (u.rowMajor.symm (u.rowMajor j)) idx = some (emb j)
    rw [Equiv.symm_apply_apply]; exact hres j
  · have e' : d.resultIdx? (u.rowMajor.symm n) idx = some (emb j) := e
    rw [hres] at e'
    have := hinj (Option.some.inj e')
    rw [← this, Equiv.apply_symm_apply]
  · show upd (u.rowMajor.symm (u.rowMajor j)) = upd j
    rw [Equiv.symm_apply_apply]

/-- Where no update element lands, the result holds the operand's element. -/
theorem scatter_set_miss (d : ScatterDims s si u) (x : s.Idx → α) (idx : IVec si w) (upd : u.Idx → α)
    (emb : u.Idx → s.Idx) (hres : ∀ j, d.resultIdx? j idx = some (emb j)) (i' : s.Idx) (h : ∀ j, emb j ≠ i') :
    Host.scatter d (fun _ b => b) x idx upd i' = x i' := by
  rw [scatter_set_eq_foldl]
  refine foldl_setStep_miss _ _ i' _ x fun n _ e => ?_
  have e' : d.resultIdx? (u.rowMajor.symm n) idx = some i' := e
  rw [hres] at e'
  exact h _ (Option.some.inj e')

end Scatter

end Cert.KernelIdeal.KValue

end
-- ==== Proof.KLayout.lean ====
/-
  The host's layout operations between two levels, read at an index.

  A level's rows are the nodes `s … s + n - 1` of all 32 trees, flattened: row `r = b·n + i` is node `s + i` of tree
  `b`.  `gatherRows` reads such rows out of an array over (tree, node, column); `gatherChild` reads the rows' left
  (`q = 0`) or right (`q = 1`) children, the nodes `s2 + 2i + q` with `s2 = 2s + 1`; `unrow` is the way back, and writing
  a level's rows into an array is `TreeSpec.setRows` of it.  Tree and node are taken modulo their counts so that the
  forms are total; on the rows of a level they are the plain values.
-/
import proofs.«102109_j83099027243631_1_alg».proof.Proof.TreeRows
import proofs.«102109_j83099027243631_1_alg».proof.Proof.KScatter

noncomputable section

namespace Cert.KernelIdeal.KValue

open Idealize.ShloMosaic Idealize.ShloMosaic.ValueIdx Cert.TreeSpec

/-- The tree of row `r` when a level has `n` nodes. -/
def rowB (n r : ℕ) : Fin 32 := ⟨r / n % 32, Nat.mod_lt _ (by decide)⟩
/-- The node of row `r` of the level that starts at node `s`. -/
def rowNode (n s r : ℕ) : Fin 4095 := ⟨(s + r % n) % 4095, Nat.mod_lt _ (by decide)⟩
/-- Child `q` of the node of row `r`, the children of the level starting at node `s2`. -/
def rowChild (n s2 q r : ℕ) : Fin 4095 := ⟨(s2 + 2 * (r % n) + q) % 4095, Nat.mod_lt _ (by decide)⟩

/-- The rows of a level out of an array over (tree, node, column). -/
def gatherRows {c M : ℕ} (n s : ℕ) (A : A3 32 4095 c) : A2 M c :=
  fun r g => A (rowB n r.val) (rowNode n s r.val) g
/-- The rows of a level's children `q` out of an array over (tree, node, column). -/
def gatherChild {M : ℕ} (n s2 q : ℕ) (A : A3 32 4095 256) : A2 M 256 :=
  fun r j => A (rowB n r.val) (rowChild n s2 q r.val) j
/-- A level's rows as an array over (tree, node, column): node `nd` of tree `b` is row `b·n + (nd - s)`. -/
def unrow {M : ℕ} (n s : ℕ) (U : A2 M 256) : A3 32 4095 256 :=
  fun b nd j => if h : b.val * n + (nd.val - s) < M then U ⟨b.val * n + (nd.val - s), h⟩ j else 0

/-- Row `r < 32·n` splits as `r = (r / n)·n + r % n` with `r / n < 32`. -/
theorem row_decomp {M n : ℕ} (hM : M = 32 * n) (r : ℕ) (hr : r < M) :
    r / n % 32 = r / n ∧ r / n < 32 ∧ r / n * n + r % n = r ∧ 0 < n := by
  subst hM
  have hn : 0 < n := by
    rcases Nat.eq_zero_or_pos n with h | h
    · subst h; simp at hr
    · exact h
  have hlt : r / n < 32 := Nat.div_lt_of_lt_mul (by rw [Nat.mul_comm]; exact hr)
  exact ⟨Nat.mod_eq_of_lt hlt, hlt, Nat.div_add_mod' r n, hn⟩

section Reads
variable {c M n s : ℕ}

/-- A level's rows cut out of a (tree, node, column) array and flattened. -/
theorem rows_read (X : (⟨3, ![32, 4095, c]⟩ : Shape).Idx → EReal)
    (h1 : (⟨3, ![32, 4095, c]⟩ : Shape).Slices ![0, s, 0] ⟨3, ![32, n, c]⟩)
    (h2 : (⟨3, ![32, n, c]⟩ : Shape).ShapeCasts ⟨2, ![M, c]⟩) (hM : M = 32 * n) (hs : s + n ≤ 4095) :
    cur2 (shapeCast ⟨2, ![M, c]⟩ (extractStridedSlice ⟨3, ![32, n, c]⟩ ![0, s, 0] X h1) h2)
      = gatherRows n s (cur3 X) := by
  funext r g
  obtain ⟨hb, hb', hdm, hn⟩ := row_decomp hM r.val r.isLt
  have hi : r.val % n < n := Nat.mod_lt _ hn
  show shapeCast _ _ h2 (ix2 r g) = X (ix3 (rowB n r.val) (rowNode n s r.val) g)
  refine (shapeCast_apply _ h2 (ix2 r g) (ix3 (rowB n r.val) ⟨r.val % n, hi⟩ g) ?_).trans ?_
  · rw [Shape.rowMajor_val_three, Shape.rowMajor_val_two]
    show ((r.val / n % 32) * n + r.val % n) * c + g.val = r.val * c + g.val
    rw [hb, hdm]
  · refine slice3_axis1_apply s X h1 _ _ g _ ?_
    show (s + r.val % n) % 4095 = s + r.val % n
    exact Nat.mod_eq_of_lt (by omega)

/-- The whole (tree, node, column) array flattened to rows: row `r = b·4095 + nd`. -/
theorem flat_read (X : (⟨3, ![32, 4095, c]⟩ : Shape).Idx → EReal)
    (h : (⟨3, ![32, 4095, c]⟩ : Shape).ShapeCasts ⟨2, ![131040, c]⟩) (b : Fin 32) (nd : Fin 4095) (g : Fin c)
    (r : Fin 131040) (hr : r.val = b.val * 4095 + nd.val) :
    shapeCast ⟨2, ![131040, c]⟩ X h (ix2 r g) = X (ix3 b nd g) := by
  refine shapeCast_apply _ h (ix2 r g) (ix3 b nd g) ?_
  rw [Shape.rowMajor_val_three, Shape.rowMajor_val_two]
  show (b.val * 4095 + nd.val) * c + g.val = r.val * c + g.val
  rw [hr]

/-- Rows folded back to a (tree, node, column) array. -/
theorem unflat_read (Y : (⟨2, ![131040, c]⟩ : Shape).Idx → EReal)
    (h : (⟨2, ![131040, c]⟩ : Shape).ShapeCasts ⟨3, ![32, 4095, c]⟩) (b : Fin 32) (nd : Fin 4095) (g : Fin c)
    (r : Fin 131040) (hr : r.val = b.val * 4095 + nd.val) :
    shapeCast ⟨3, ![32, 4095, c]⟩ Y h (ix3 b nd g) = Y (ix2 r g) := by
  refine shapeCast_apply _ h (ix3 b nd g) (ix2 r g) ?_
  rw [Shape.rowMajor_val_three, Shape.rowMajor_val_two]
  show r.val * c + g.val = (b.val * 4095 + nd.val) * c + g.val
  rw [hr]

end Reads

section Child
variable {M n n2 s2 : ℕ}

/-- The rows of a level's children `q`: the children's band cut out, paired, the pair's member `q` taken, flattened. -/
theorem child_read (q : ℕ) (hq : q < 2) (X : (⟨3, ![32, 4095, 256]⟩ : Shape).Idx → EReal)
    (h1 : (⟨3, ![32, 4095, 256]⟩ : Shape).Slices ![0, s2, 0] ⟨3, ![32, n2, 256]⟩)
    (h2 : (⟨3, ![32, n2, 256]⟩ : Shape).ShapeCasts ⟨4, ![32, n, 2, 256]⟩)
    (h3 : (⟨4, ![32, n, 2, 256]⟩ : Shape).Slices ![0, 0, q, 0] ⟨4, ![32, n, 1, 256]⟩)
    (h4 : (⟨4, ![32, n, 1, 256]⟩ : Shape).ShapeCasts ⟨3, ![32, n, 256]⟩)
    (h5 : (⟨3, ![32, n, 256]⟩ : Shape).ShapeCasts ⟨2, ![M, 256]⟩)
    (hM : M = 32 * n) (hn2 : n2 = 2 * n) (hs : s2 + 2 * n ≤ 4095) :
    cur2 (shapeCast ⟨2, ![M, 256]⟩ (shapeCast ⟨3, ![32, n, 256]⟩ (extractStridedSlice ⟨4, ![32, n, 1, 256]⟩ ![0, 0, q, 0]
        (shapeCast ⟨4, ![32, n, 2, 256]⟩ (extractStridedSlice ⟨3, ![32, n2, 256]⟩ ![0, s2, 0] X h1) h2) h3) h4) h5)
      = gatherChild n s2 q (cur3 X) := by
  funext r j
  obtain ⟨hb, hb', hdm, hn⟩ := row_decomp hM r.val r.isLt
  have hi : r.val % n < n := Nat.mod_lt _ hn
  have hc : 2 * (r.val % n) + q < n2 := by omega
  show shapeCast _ _ h5 (ix2 r j) = X (ix3 (rowB n r.val) (rowChild n s2 q r.val) j)
  refine (shapeCast_apply _ h5 (ix2 r j) (ix3 (rowB n r.val) ⟨r.val % n, hi⟩ j) ?_).trans ?_
  · rw [Shape.rowMajor_val_three, Shape.rowMajor_val_two]
    show ((r.val / n % 32) * n + r.val % n) * 256 + j.val = r.val * 256 + j.val
    rw [hb, hdm]
  refine (shapeCast_apply _ h4 (ix3 (rowB n r.val) ⟨r.val % n, hi⟩ j)
    (ix4 (rowB n r.val) ⟨r.val % n, hi⟩ (0 : Fin 1) j) ?_).trans ?_
  · rw [Shape.rowMajor_val_four, Shape.rowMajor_val_three]
    show (((r.val / n % 32) * n + r.val % n) * 1 + 0) * 256 + j.val = ((r.val / n % 32) * n + r.val % n) * 256 + j.val
    rw [Nat.mul_one, Nat.add_zero]
  refine (slice4_axis2_apply q _ h3 (rowB n r.val) ⟨r.val % n, hi⟩ (0 : Fin 1) j (⟨q, hq⟩ : Fin 2) rfl).trans ?_
  refine (shapeCast_apply _ h2 (ix4 (rowB n r.val) ⟨r.val % n, hi⟩ (⟨q, hq⟩ : Fin 2) j)
    (ix3 (rowB n r.val) ⟨2 * (r.val % n) + q, hc⟩ j) ?_).trans ?_
  · rw [Shape.rowMajor_val_four, Shape.rowMajor_val_three]
    show ((r.val / n % 32) * n2 + (2 * (r.val % n) + q)) * 256 + j.val
      = (((r.val / n % 32) * n + r.val % n) * 2 + q) * 256 + j.val
    subst hn2
    have : (r.val / n % 32) * (2 * n) = (r.val / n % 32) * n * 2 := by
      rw [Nat.mul_comm 2 n, Nat.mul_assoc]
    rw [this]; omega
  · refine slice3_axis1_apply s2 X h1 _ _ j _ ?_
    show (s2 + 2 * (r.val % n) + q) % 4095 = s2 + (2 * (r.val % n) + q)
    rw [Nat.mod_eq_of_lt (by omega)]; omega

end Child

section Write
variable {M n s : ℕ}

/-- Where element `u` of a level's rows, as a (tree, node, column) array of `n` nodes, lands in the whole array when it
    is written from node `s` on. -/
def landRows (s : ℕ) (hs : s + n ≤ 4095) (u : (⟨3, ![32, n, 256]⟩ : Shape).Idx) : (⟨3, ![32, 4095, 256]⟩ : Shape).Idx :=
  ix3 (u 0) ⟨s + (u 1).val, by have : (u 1).val < n := (u 1).isLt; omega⟩ (u 2)

theorem landRows_injective (hs : s + n ≤ 4095) : Function.Injective (landRows (n := n) s hs) := by
  intro u u' e
  funext a
  match a with
  | ⟨0, _⟩ => exact congrFun e 0
  | ⟨1, _⟩ =>
    have h := congrArg Fin.val (congrFun e 1)
    have h' : s + (u 1).val = s + (u' 1).val := h
    exact Fin.ext (show (u 1).val = (u' 1).val by omega)
  | ⟨2, _⟩ => exact congrFun e 2

/-- The start index of the scatter is the literal `s` on the node axis; every update element lands inside. -/
theorem resultIdx_rows {n s : ℕ} (d : ScatterDims ⟨3, ![32, 4095, 256]⟩ ⟨1, ![1]⟩ ⟨3, ![32, n, 256]⟩)
    (h1 : d.updateWindowDims = [0, 1, 2]) (h2 : d.insertedWindowDims = []) (h3 : d.scatterDimsToOperandDims = [1])
    (h4 : d.indexVectorDim = 0) (idx : IVec ⟨1, ![1]⟩ 32) (hidx : ∀ i, (idx i).toInt = (s : Int)) (hs : s + n ≤ 4095)
    (j : (⟨3, ![32, n, 256]⟩ : Shape).Idx) (k : Fin 4095) (hk : k.val = s + (j 1).val) :
    d.resultIdx? j idx = some (ix3 (j 0) k (j 2)) := by
  obtain ⟨uwd, iwd, sdto, ivd, wf⟩ := d
  simp only at h1 h2 h3 h4
  subst h1 h2 h3 h4
  have hst : ∀ a : Fin 3, ScatterDims.start ⟨[0, 1, 2], [], [1], 0, wf⟩ j idx a = if a = 1 then (s : Int) else 0 := by
    intro a
    unfold ScatterDims.start
    match a with
    | ⟨0, _⟩ => rfl
    | ⟨1, h1⟩ =>
      dsimp only
      have hm : (⟨1, h1⟩ : Fin 3) ∈ [(1 : Fin 3)] := List.mem_singleton.mpr (Fin.ext rfl)
      rw [dif_pos hm]
      exact (hidx _).trans (if_pos (Fin.ext rfl)).symm
    | ⟨2, _⟩ => rfl
  have hwi : ∀ a : Fin 3, ScatterDims.window ⟨[0, 1, 2], [], [1], 0, wf⟩ j a = (j a).val := by
    intro a
    unfold ScatterDims.window
    match a with
    | ⟨0, _⟩ => rfl
    | ⟨1, _⟩ => rfl
    | ⟨2, _⟩ => rfl
  unfold ScatterDims.resultIdx?
  have hj0 : (j 0).val < 32 := (j 0).isLt
  have hj1 : (j 1).val < n := (j 1).isLt
  have hj2 : (j 2).val < 256 := (j 2).isLt
  rw [dif_pos (by
    intro a
    rw [hst, hwi]
    match a with
    | ⟨0, _⟩ => exact ⟨by show (0:Int) ≤ 0 + ((j 0).val : Int); omega, by show (0:Int) + ((j 0).val : Int) < 32; omega⟩
    | ⟨1, _⟩ => exact ⟨by show (0:Int) ≤ (s:Int) + ((j 1).val : Int); omega, by show (s:Int) + ((j 1).val : Int) < 4095; omega⟩
    | ⟨2, _⟩ => exact ⟨by show (0:Int) ≤ 0 + ((j 2).val : Int); omega, by show (0:Int) + ((j 2).val : Int) < 256; omega⟩)]
  refine congrArg some (funext fun a => Fin.ext ?_)
  show (ScatterDims.start ⟨[0, 1, 2], [], [1], 0, wf⟩ j idx a + ScatterDims.window ⟨[0, 1, 2], [], [1], 0, wf⟩ j a).toNat = _
  rw [hst, hwi]
  match a with
  | ⟨0, _⟩ => show ((0:Int) + ((j 0).val : Int)).toNat = (j 0).val; omega
  | ⟨1, _⟩ => show ((s:Int) + ((j 1).val : Int)).toNat = k.val; omega
  | ⟨2, _⟩ => show ((0:Int) + ((j 2).val : Int)).toNat = (j 2).val; omega

/-- A level's rows written into a (tree, node, column) array from node `s` on: the scatter whose body returns the
    update, at the start `s` on the node axis, of the rows folded to (tree, node, column). -/
theorem rows_write (d : ScatterDims ⟨3, ![32, 4095, 256]⟩ ⟨1, ![1]⟩ ⟨3, ![32, n, 256]⟩)
    (h1 : d.updateWindowDims = [0, 1, 2]) (h2 : d.insertedWindowDims = []) (h3 : d.scatterDimsToOperandDims = [1])
    (h4 : d.indexVectorDim = 0) (X : (⟨3, ![32, 4095, 256]⟩ : Shape).Idx → EReal) (idx : IVec ⟨1, ![1]⟩ 32)
    (hidx : ∀ i, (idx i).toInt = (s : Int)) (U : (⟨2, ![M, 256]⟩ : Shape).Idx → EReal)
    (h : (⟨2, ![M, 256]⟩ : Shape).ShapeCasts ⟨3, ![32, n, 256]⟩) (hM : M = 32 * n) (hs : s + n ≤ 4095) :
    cur3 (Host.scatter d (fun _ b => b) X idx (shapeCast ⟨3, ![32, n, 256]⟩ U h))
      = setRows s n (unrow n s (cur2 U)) (cur3 X) := by
  funext b nd j
  have hres : ∀ u, d.resultIdx? u idx = some (landRows s hs u) :=
    fun u => resultIdx_rows d h1 h2 h3 h4 idx hidx hs u _ rfl
  show Host.scatter d (fun _ b => b) X idx _ (ix3 b nd j) = setRows s n (unrow n s (cur2 U)) (cur3 X) b nd j
  unfold setRows
  by_cases hc : s ≤ nd.val ∧ nd.val < s + n
  · rw [if_pos hc]
    have hi : nd.val - s < n := by omega
    have he : ix3 b nd j = landRows s hs (ix3 b ⟨nd.val - s, hi⟩ j) := by
      funext a
      match a with
      | ⟨0, _⟩ => rfl
      | ⟨1, _⟩ => exact Fin.ext (by show nd.val = s + (nd.val - s); omega)
      | ⟨2, _⟩ => rfl
    rw [he, scatter_set_hit d X idx _ (landRows s hs) hres (landRows_injective hs)]
    have hlt : b.val * n + (nd.val - s) < M := by
      subst hM
      have hb := b.isLt
      have : b.val * n ≤ 31 * n := Nat.mul_le_mul_right n (by omega)
      omega
    unfold unrow
    rw [dif_pos hlt]
    refine shapeCast_apply U h (ix3 b ⟨nd.val - s, hi⟩ j) (ix2 ⟨_, hlt⟩ j) ?_
    rw [Shape.rowMajor_val_two, Shape.rowMajor_val_three]
    rfl
  · rw [if_neg hc]
    refine scatter_set_miss d X idx _ (landRows s hs) hres (ix3 b nd j) fun u e => hc ?_
    have h := congrArg Fin.val (congrFun e 1)
    have h' : s + (u 1).val = nd.val := h
    have hu : (u 1).val < n := (u 1).isLt
    omega

end Write

/-- The root's row of a (tree, node, column) array: the band of node 0 cut out and its unit axis dropped. -/
theorem root_read (X : (⟨3, ![32, 4095, 256]⟩ : Shape).Idx → EReal)
    (h1 : (⟨3, ![32, 4095, 256]⟩ : Shape).Slices ![0, 0, 0] ⟨3, ![32, 1, 256]⟩)
    (h2 : (⟨3, ![32, 1, 256]⟩ : Shape).ShapeCasts ⟨2, ![32, 256]⟩) :
    cur2 (shapeCast ⟨2, ![32, 256]⟩ (extractStridedSlice ⟨3, ![32, 1, 256]⟩ ![0, 0, 0] X h1) h2)
      = fun b j => cur3 X b 0 j := by
  funext b j
  show shapeCast _ _ h2 (ix2 b j) = X (ix3 b 0 j)
  refine (shapeCast_apply _ h2 (ix2 b j) (ix3 b (0 : Fin 1) j) ?_).trans ?_
  · rw [Shape.rowMajor_val_three, Shape.rowMajor_val_two]
    show (b.val * 1 + 0) * 256 + j.val = b.val * 256 + j.val
    rw [Nat.mul_one, Nat.add_zero]
  · exact slice3_axis1_apply 0 X h1 b (0 : Fin 1) j (0 : Fin 4095) rfl

end Cert.KernelIdeal.KValue

end
-- ==== Proof.KStep.lean ====
/-
  One level of the recursion on flattened rows is one stage of `TreeSpec`.

  Row `r = b·n + (nd - s)` of the level that starts at node `s` and has `n` nodes is node `nd` of tree `b`; its
  children's rows are the nodes `2·nd + 1` and `2·nd + 2`.  Hence the row forms of `TreeRows` on the gathered rows,
  written back over the level's rows, are `TreeSpec.levelStage` (and the leaves' forms `TreeSpec.leafStage`).
-/
import proofs.«102109_j83099027243631_1_alg».proof.Proof.KLayout

noncomputable section

namespace Cert.KernelIdeal.KValue

open Idealize.ShloMosaic Idealize.ShloMosaic.ValueIdx Cert.TreeSpec

/-- `setRows` only looks at the new rows inside the band. -/
theorem setRows_congr (s cnt : ℕ) (new new' old : A3 32 4095 256)
    (h : ∀ (b : Fin 32) (nd : Fin 4095) (j : Fin 256), s ≤ nd.val → nd.val < s + cnt → new b nd j = new' b nd j) :
    setRows s cnt new old = setRows s cnt new' old := by
  funext b nd j
  unfold setRows
  by_cases hc : s ≤ nd.val ∧ nd.val < s + cnt
  · rw [if_pos hc, if_pos hc]; exact h b nd j hc.1 hc.2
  · rw [if_neg hc, if_neg hc]

section Rows
variable {M n s : ℕ}

/-- The row of node `nd` of tree `b` is in range, and names that tree and that node. -/
theorem row_of_node (hM : M = 32 * n) (hn : 0 < n) (hs : s + n ≤ 4095) (b : Fin 32) (nd : Fin 4095)
    (h1 : s ≤ nd.val) (h2 : nd.val < s + n) :
    b.val * n + (nd.val - s) < M ∧ rowB n (b.val * n + (nd.val - s)) = b
      ∧ rowNode n s (b.val * n + (nd.val - s)) = nd := by
  have hi : nd.val - s < n := by omega
  have hb := b.isLt
  have hdiv : (b.val * n + (nd.val - s)) / n = b.val := by
    rw [Nat.add_comm, Nat.add_mul_div_right _ _ hn, Nat.div_eq_of_lt hi, Nat.zero_add]
  have hmod : (b.val * n + (nd.val - s)) % n = nd.val - s := by
    rw [Nat.add_comm, Nat.add_mul_mod_self_right, Nat.mod_eq_of_lt hi]
  refine ⟨?_, Fin.ext ?_, Fin.ext ?_⟩
  · subst hM
    have : b.val * n ≤ 31 * n := Nat.mul_le_mul_right n (by omega)
    omega
  · show (b.val * n + (nd.val - s)) / n % 32 = b.val
    rw [hdiv]; exact Nat.mod_eq_of_lt hb
  · show (s + (b.val * n + (nd.val - s)) % n) % 4095 = nd.val
    rw [hmod, Nat.mod_eq_of_lt (by omega)]; omega

/-- Its children's rows name the node's two children. -/
theorem child_of_node (hn : 0 < n) (hs : s + n ≤ 2047) (b : Fin 32) (nd : Fin 4095)
    (h1 : s ≤ nd.val) (h2 : nd.val < s + n) :
    rowChild n (2 * s + 1) 0 (b.val * n + (nd.val - s)) = lchild nd
      ∧ rowChild n (2 * s + 1) 1 (b.val * n + (nd.val - s)) = rchild nd := by
  have hi : nd.val - s < n := by omega
  have hmod : (b.val * n + (nd.val - s)) % n = nd.val - s := by
    rw [Nat.add_comm, Nat.add_mul_mod_self_right, Nat.mod_eq_of_lt hi]
  have hnd : nd.val < 2047 := by omega
  refine ⟨Fin.ext ?_, Fin.ext ?_⟩
  · rw [lchild_val nd hnd]
    show (2 * s + 1 + 2 * ((b.val * n + (nd.val - s)) % n) + 0) % 4095 = 2 * nd.val + 1
    rw [hmod, Nat.mod_eq_of_lt (by omega)]; omega
  · rw [rchild_val nd hnd]
    show (2 * s + 1 + 2 * ((b.val * n + (nd.val - s)) % n) + 1) % 4095 = 2 * nd.val + 2
    rw [hmod, Nat.mod_eq_of_lt (by omega)]; omega

/-- One level: the inner rows' forms on the gathered rows, written over the level's rows, are `levelStage`. -/
theorem level_rows (hM : M = 32 * n) (hn : 0 < n) (hs : s + n ≤ 2047)
    (X : A3 32 4095 1280) (H C : A3 32 4095 256) (Wl Wr : A2 1280 256) (WlT WrT : A2 256 1280) (bl br : A1 1280)
    (hWl : ∀ k g, WlT k g = Wl g k) (hWr : ∀ k g, WrT k g = Wr g k) :
    setRows s n (unrow n s (rowH (M := M) (rowPre (gatherRows n s X) (gatherChild n (2 * s + 1) 0 H)
          (gatherChild n (2 * s + 1) 1 H) WlT WrT bl br) (gatherChild n (2 * s + 1) 0 C) (gatherChild n (2 * s + 1) 1 C))) H
        = (levelStage s n X Wl Wr bl br (H, C)).1
      ∧ setRows s n (unrow n s (rowC (M := M) (rowPre (gatherRows n s X) (gatherChild n (2 * s + 1) 0 H)
          (gatherChild n (2 * s + 1) 1 H) WlT WrT bl br) (gatherChild n (2 * s + 1) 0 C) (gatherChild n (2 * s + 1) 1 C))) C
        = (levelStage s n X Wl Wr bl br (H, C)).2 := by
  constructor
  · refine setRows_congr _ _ _ _ _ fun b nd j h1 h2 => ?_
    obtain ⟨hlt, hB, hN⟩ := row_of_node hM hn (by omega) b nd h1 h2
    obtain ⟨hL, hR⟩ := child_of_node hn hs b nd h1 h2
    unfold unrow
    rw [dif_pos hlt]
    simp only [rowH, rowC, rowPre, gatherRows, gatherChild, nodeH, nodeC, pre, hB, hN, hL, hR, hWl, hWr]
  · refine setRows_congr _ _ _ _ _ fun b nd j h1 h2 => ?_
    obtain ⟨hlt, hB, hN⟩ := row_of_node hM hn (by omega) b nd h1 h2
    obtain ⟨hL, hR⟩ := child_of_node hn hs b nd h1 h2
    unfold unrow
    rw [dif_pos hlt]
    simp only [rowC, rowPre, gatherRows, gatherChild, nodeC, pre, hB, hN, hL, hR, hWl, hWr]

/-- The leaves: their forms on the gathered rows, written over the leaves' rows of the zero array, are `leafStage`. -/
theorem leaf_rows (hM : M = 32 * n) (hn : 0 < n) (hs : s + n ≤ 4095) (X : A3 32 4095 1280) :
    setRows s n (unrow n s (rowLeafH (M := M) (gatherRows n s X))) (fun _ _ _ => 0)
        = setRows s n (leafH X) (fun _ _ _ => 0)
      ∧ setRows s n (unrow n s (rowLeafC (M := M) (gatherRows n s X))) (fun _ _ _ => 0)
        = setRows s n (leafC X) (fun _ _ _ => 0) := by
  constructor
  · refine setRows_congr _ _ _ _ _ fun b nd j h1 h2 => ?_
    obtain ⟨hlt, hB, hN⟩ := row_of_node hM hn hs b nd h1 h2
    unfold unrow
    rw [dif_pos hlt]
    simp only [rowLeafH, rowLeafC, gatherRows, leafH, leafC, hB, hN]
  · refine setRows_congr _ _ _ _ _ fun b nd j h1 h2 => ?_
    obtain ⟨hlt, hB, hN⟩ := row_of_node hM hn hs b nd h1 h2
    unfold unrow
    rw [dif_pos hlt]
    simp only [rowLeafC, gatherRows, leafC, hB, hN]

end Rows

/-! Congruences: an output array read as a function of coordinates, its input arrays replaced by equal ones. -/

section Congr
variable {M : ℕ} {x x' : A2 M 1280} {lh lh' rh rh' lc lc' rc rc' : A2 M 256} {wl wl' wr wr' : A2 256 1280} {bl bl' br br' : A1 1280}

theorem rowH_cur2_congr (hx : x = x') (hlh : lh = lh') (hrh : rh = rh') (hwl : wl = wl') (hwr : wr = wr')
    (hbl : bl = bl') (hbr : br = br') (hlc : lc = lc') (hrc : rc = rc') :
    cur2 (fun i : (⟨2, ![M, 256]⟩ : Shape).Idx => rowH (rowPre x lh rh wl wr bl br) lc rc (i 0) (i 1))
      = rowH (rowPre x' lh' rh' wl' wr' bl' br') lc' rc' := by
  subst hx hlh hrh hwl hwr hbl hbr hlc hrc; rfl

theorem rowC_cur2_congr (hx : x = x') (hlh : lh = lh') (hrh : rh = rh') (hwl : wl = wl') (hwr : wr = wr')
    (hbl : bl = bl') (hbr : br = br') (hlc : lc = lc') (hrc : rc = rc') :
    cur2 (fun i : (⟨2, ![M, 256]⟩ : Shape).Idx => rowC (rowPre x lh rh wl wr bl br) lc rc (i 0) (i 1))
      = rowC (rowPre x' lh' rh' wl' wr' bl' br') lc' rc' := by
  subst hx hlh hrh hwl hwr hbl hbr hlc hrc; rfl

theorem rowLeafH_cur2_congr (hx : x = x') :
    cur2 (fun i : (⟨2, ![M, 256]⟩ : Shape).Idx => rowLeafH x (i 0) (i 1)) = rowLeafH x' := by
  subst hx; rfl

theorem rowLeafC_cur2_congr (hx : x = x') :
    cur2 (fun i : (⟨2, ![M, 256]⟩ : Shape).Idx => rowLeafC x (i 0) (i 1)) = rowLeafC x' := by
  subst hx; rfl

theorem setRows_unrow_congr {n s : ℕ} {U U' : A2 M 256} {old old' : A3 32 4095 256} (hU : U = U') (ho : old = old') :
    setRows s n (unrow n s U) old = setRows s n (unrow n s U') old' := by
  subst hU ho; rfl

end Congr

/-- The input projection on the flattened rows is `xpre`: row `r = b·4095 + nd`. -/
theorem xpre_rows (feat : A3 32 4095 256) (Wx : A2 1280 256) (WxT : A2 256 1280) (bx : A1 1280)
    (hWx : ∀ k g, WxT k g = Wx g k) (F2 : A2 131040 256)
    (hF : ∀ (b : Fin 32) (nd : Fin 4095) (k : Fin 256) (r : Fin 131040), r.val = b.val * 4095 + nd.val → F2 r k = feat b nd k)
    (bx2 : A1 1280) (hb : bx2 = bx)
    (b : Fin 32) (nd : Fin 4095) (g : Fin 1280) (r : Fin 131040) (hr : r.val = b.val * 4095 + nd.val) :
    rowX F2 WxT bx2 r g = xpre feat Wx bx b nd g := by
  subst hb
  unfold rowX xpre
  simp only [hF b nd _ r hr, hWx]

end Cert.KernelIdeal.KValue

end
-- ==== Proof.KGlue01.lean ====
/-
  The host operations before the first two kernels, read at an index, from any buffer contents `V`: the three weight
  matrices transposed and the features flattened to rows (before the input projection); the projection folded back to
  (tree, node, column), the two zero arrays, and the leaves' rows of the projection (before the leaves' kernel).
-/
import proofs.«102109_j83099027243631_1_alg».proof.Proof.Gen.KernelIdeal.Launch
import Idealize.ShloMosaic.Lib.StableHlo.Run
import Idealize.ShloMosaic.Lib.IdealHost
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The input weights transposed. -/
theorem g0_WxT : cur2 (StableHlo.after hostOps0 V (Proc.devRef .tc main_v0)) = fun k g => cur2 (V (Proc.devRef .tc main_arg1)) g k := by
  have h : StableHlo.after hostOps0 V (Proc.devRef .tc main_v0) = transpose S256x1280 [1, 0] (V (Proc.devRef .tc main_arg1)) transposes_S1280x256_S256x1280_1_0 := by
    dsimp only [hostOps0]
    after_results
    all_goals rfl
  rw [h]
  funext k g
  exact transpose_ix2_apply _ _ k g

set_option maxHeartbeats 2000000 in
/-- The left child's weights transposed. -/
theorem g0_WlT : cur2 (StableHlo.after hostOps0 V (Proc.devRef .tc main_v1)) = fun k g => cur2 (V (Proc.devRef .tc main_arg2)) g k := by
  have h : StableHlo.after hostOps0 V (Proc.devRef .tc main_v1) = transpose S256x1280 [1, 0] (V (Proc.devRef .tc main_arg2)) transposes_S1280x256_S256x1280_1_0 := by
    dsimp only [hostOps0]
    after_results
    all_goals rfl
  rw [h]
  funext k g
  exact transpose_ix2_apply _ _ k g

set_option maxHeartbeats 2000000 in
/-- The right child's weights transposed. -/
theorem g0_WrT : cur2 (StableHlo.after hostOps0 V (Proc.devRef .tc main_v2)) = fun k g => cur2 (V (Proc.devRef .tc main_arg3)) g k := by
  have h : StableHlo.after hostOps0 V (Proc.devRef .tc main_v2) = transpose S256x1280 [1, 0] (V (Proc.devRef .tc main_arg3)) transposes_S1280x256_S256x1280_1_0 := by
    dsimp only [hostOps0]
    after_results
    all_goals rfl
  rw [h]
  funext k g
  exact transpose_ix2_apply _ _ k g

set_option maxHeartbeats 2000000 in
/-- The features flattened to rows: row `r = b·4095 + nd`. -/
theorem g0_feat (b : Fin 32) (nd : Fin 4095) (k : Fin 256) (r : Fin 131040) (hr : r.val = b.val * 4095 + nd.val) :
    cur2 (StableHlo.after hostOps0 V (Proc.devRef .tc main_v3)) r k = cur3 (V (Proc.devRef .tc main_arg0)) b nd k := by
  have h : StableHlo.after hostOps0 V (Proc.devRef .tc main_v3) = shapeCast S131040x256 (V (Proc.devRef .tc main_arg0)) shapeCasts_S32x4095x256_S131040x256 := by
    dsimp only [hostOps0]
    after_results
    all_goals rfl
  rw [h]
  exact flat_read _ _ b nd k r hr

set_option maxHeartbeats 2000000 in
/-- The input projection folded back to (tree, node, column). -/
theorem g1_x3 (b : Fin 32) (nd : Fin 4095) (g : Fin 1280) (r : Fin 131040) (hr : r.val = b.val * 4095 + nd.val) :
    cur3 (StableHlo.after hostOps1 V (Proc.devRef .tc main_v5)) b nd g = cur2 (V (Proc.devRef .tc main_v4)) r g := by
  have h : StableHlo.after hostOps1 V (Proc.devRef .tc main_v5) = shapeCast S32x4095x1280 (V (Proc.devRef .tc main_v4)) shapeCasts_S131040x1280_S32x4095x1280 := by
    dsimp only [hostOps1]
    after_results
    all_goals rfl
  rw [h]
  exact unflat_read _ _ b nd g r hr

set_option maxHeartbeats 2000000 in
/-- A zero array. -/
theorem g1_z6 : cur3 (StableHlo.after hostOps1 V (Proc.devRef .tc main_v6)) = fun _ _ _ => 0 := by
  have h : StableHlo.after hostOps1 V (Proc.devRef .tc main_v6)
      = broadcastInDim S32x4095x256 ![] bcast_S_S32x4095x256 (constant (F := Ideal) S_ .f32 0x00000000#32) := by
    dsimp only [hostOps1]
    after_results
    all_goals rfl
  rw [h]
  funext b nd j
  exact (broadcastInDim_scalar_apply _ _ _).trans Ideal.ofBits_zero_f32

set_option maxHeartbeats 2000000 in
/-- A zero array. -/
theorem g1_z7 : cur3 (StableHlo.after hostOps1 V (Proc.devRef .tc main_v7)) = fun _ _ _ => 0 := by
  have h : StableHlo.after hostOps1 V (Proc.devRef .tc main_v7)
      = broadcastInDim S32x4095x256 ![] bcast_S_S32x4095x256 (constant (F := Ideal) S_ .f32 0x00000000#32) := by
    dsimp only [hostOps1]
    after_results
    all_goals rfl
  rw [h]
  funext b nd j
  exact (broadcastInDim_scalar_apply _ _ _).trans Ideal.ofBits_zero_f32

set_option maxHeartbeats 2000000 in
/-- The leaves' rows of the input projection. -/
theorem g1_x : cur2 (StableHlo.after hostOps1 V (Proc.devRef .tc main_v9)) = gatherRows 2048 2047 (cur3 (StableHlo.after hostOps1 V (Proc.devRef .tc main_v5))) := by
  have h : StableHlo.after hostOps1 V (Proc.devRef .tc main_v9)
      = shapeCast S65536x1280 (extractStridedSlice S32x2048x1280 ![0, 2047, 0] (StableHlo.after hostOps1 V (Proc.devRef .tc main_v5))
          slices_S32x4095x1280_S32x2048x1280_0_2047_0) shapeCasts_S32x2048x1280_S65536x1280 := by
    dsimp only [hostOps1]
    after_results
    all_goals rfl
  rw [h]
  exact rows_read _ _ _ rfl (by decide)

end Cert.KernelIdeal.KValue

end
-- ==== Proof.KGlue2.lean ====
/-
  The host operations before the kernel of level 10 (nodes 1023 … 2046), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 2047 … of the array before it. -/
theorem g2_H : cur3 (StableHlo.after hostOps2 V (Proc.devRef .tc main_v13))
    = setRows 2047 2048 (unrow 2048 2047 (cur2 (V (Proc.devRef .tc main_v10_0)))) (cur3 (V (Proc.devRef .tc main_v6))) := by
  have h : StableHlo.after hostOps2 V (Proc.devRef .tc main_v13)
      = Host.scatter scatter_S32x4095x256_S1_S32x2048x256_012_n_1_0 (fun _ b => b) (V (Proc.devRef .tc main_v6))
          (broadcastInDim S1 ![] bcast_S_S1 (constantI S_ 32 2047#32))
          (shapeCast S32x2048x256 (V (Proc.devRef .tc main_v10_0)) shapeCasts_S65536x256_S32x2048x256) := by
    dsimp only [hostOps2]
    after_results
    rfl
  rw [h]
  exact rows_write scatter_S32x4095x256_S1_S32x2048x256_012_n_1_0 rfl rfl rfl rfl _ _ (fun _ => show (2047#32 : BitVec 32).toInt = ((2047 : ℕ) : Int) from by decide) _ _ rfl (by decide)

set_option maxHeartbeats 2000000 in
/-- The cell states after the stretch: the previous level's rows written over the nodes 2047 … of the array before it. -/
theorem g2_C : cur3 (StableHlo.after hostOps2 V (Proc.devRef .tc main_v16))
    = setRows 2047 2048 (unrow 2048 2047 (cur2 (V (Proc.devRef .tc main_v10_1)))) (cur3 (V (Proc.devRef .tc main_v7))) := by
  have h : StableHlo.after hostOps2 V (Proc.devRef .tc main_v16)
      = Host.scatter scatter_S32x4095x256_S1_S32x2048x256_012_n_1_0 (fun _ b => b) (V (Proc.devRef .tc main_v7))
          (broadcastInDim S1 ![] bcast_S_S1 (constantI S_ 32 2047#32))
          (shapeCast S32x2048x256 (V (Proc.devRef .tc main_v10_1)) shapeCasts_S65536x256_S32x2048x256) := by
    dsimp only [hostOps2]
    after_results
    rfl
  rw [h]
  exact rows_write scatter_S32x4095x256_S1_S32x2048x256_012_n_1_0 rfl rfl rfl rfl _ _ (fun _ => show (2047#32 : BitVec 32).toInt = ((2047 : ℕ) : Int) from by decide) _ _ rfl (by decide)

set_option maxHeartbeats 2000000 in
/-- The rows of the level's left children's hidden states. -/
theorem g2_lh : cur2 (StableHlo.after hostOps2 V (Proc.devRef .tc main_v23))
    = gatherChild 1024 2047 0 (cur3 (StableHlo.after hostOps2 V (Proc.devRef .tc main_v13))) := by
  have h : StableHlo.after hostOps2 V (Proc.devRef .tc main_v23)
      = shapeCast S32768x256 (shapeCast S32x1024x256 (extractStridedSlice S32x1024x1x256 ![0, 0, 0, 0]
          (shapeCast S32x1024x2x256 (extractStridedSlice S32x2048x256 ![0, 2047, 0] (StableHlo.after hostOps2 V (Proc.devRef .tc main_v13))
            slices_S32x4095x256_S32x2048x256_0_2047_0) shapeCasts_S32x2048x256_S32x1024x2x256) slices_S32x1024x2x256_S32x1024x1x256_0_0_0_0) shapeCasts_S32x1024x1x256_S32x1024x256) shapeCasts_S32x1024x256_S32768x256 := by
    dsimp only [hostOps2]
    after_results
    rfl
  rw [h]
  exact child_read 0 (by decide) _ _ _ _ _ _ rfl rfl (by decide)

set_option maxHeartbeats 2000000 in
/-- The rows of the level's right children's hidden states. -/
theorem g2_rh : cur2 (StableHlo.after hostOps2 V (Proc.devRef .tc main_v26))
    = gatherChild 1024 2047 1 (cur3 (StableHlo.after hostOps2 V (Proc.devRef .tc main_v13))) := by
  have h : StableHlo.after hostOps2 V (Proc.devRef .tc main_v26)
      = shapeCast S32768x256 (shapeCast S32x1024x256 (extractStridedSlice S32x1024x1x256 ![0, 0, 1, 0]
          (shapeCast S32x1024x2x256 (extractStridedSlice S32x2048x256 ![0, 2047, 0] (StableHlo.after hostOps2 V (Proc.devRef .tc main_v13))
            slices_S32x4095x256_S32x2048x256_0_2047_0) shapeCasts_S32x2048x256_S32x1024x2x256) slices_S32x1024x2x256_S32x1024x1x256_0_0_1_0) shapeCasts_S32x1024x1x256_S32x1024x256) shapeCasts_S32x1024x256_S32768x256 := by
    dsimp only [hostOps2]
    after_results
    rfl
  rw [h]
  exact child_read 1 (by decide) _ _ _ _ _ _ rfl rfl (by decide)

set_option maxHeartbeats 2000000 in
/-- The rows of the level's left children's cell states. -/
theorem g2_lc : cur2 (StableHlo.after hostOps2 V (Proc.devRef .tc main_v29))
    = gatherChild 1024 2047 0 (cur3 (StableHlo.after hostOps2 V (Proc.devRef .tc main_v16))) := by
  have h : StableHlo.after hostOps2 V (Proc.devRef .tc main_v29)
      = shapeCast S32768x256 (shapeCast S32x1024x256 (extractStridedSlice S32x1024x1x256 ![0, 0, 0, 0]
          (shapeCast S32x1024x2x256 (extractStridedSlice S32x2048x256 ![0, 2047, 0] (StableHlo.after hostOps2 V (Proc.devRef .tc main_v16))
            slices_S32x4095x256_S32x2048x256_0_2047_0) shapeCasts_S32x2048x256_S32x1024x2x256) slices_S32x1024x2x256_S32x1024x1x256_0_0_0_0) shapeCasts_S32x1024x1x256_S32x1024x256) shapeCasts_S32x1024x256_S32768x256 := by
    dsimp only [hostOps2]
    after_results
    rfl
  rw [h]
  exact child_read 0 (by decide) _ _ _ _ _ _ rfl rfl (by decide)

set_option maxHeartbeats 2000000 in
/-- The rows of the level's right children's cell states. -/
theorem g2_rc : cur2 (StableHlo.after hostOps2 V (Proc.devRef .tc main_v32))
    = gatherChild 1024 2047 1 (cur3 (StableHlo.after hostOps2 V (Proc.devRef .tc main_v16))) := by
  have h : StableHlo.after hostOps2 V (Proc.devRef .tc main_v32)
      = shapeCast S32768x256 (shapeCast S32x1024x256 (extractStridedSlice S32x1024x1x256 ![0, 0, 1, 0]
          (shapeCast S32x1024x2x256 (extractStridedSlice S32x2048x256 ![0, 2047, 0] (StableHlo.after hostOps2 V (Proc.devRef .tc main_v16))
            slices_S32x4095x256_S32x2048x256_0_2047_0) shapeCasts_S32x2048x256_S32x1024x2x256) slices_S32x1024x2x256_S32x1024x1x256_0_0_1_0) shapeCasts_S32x1024x1x256_S32x1024x256) shapeCasts_S32x1024x256_S32768x256 := by
    dsimp only [hostOps2]
    after_results
    rfl
  rw [h]
  exact child_read 1 (by decide) _ _ _ _ _ _ rfl rfl (by decide)

set_option maxHeartbeats 2000000 in
/-- The level's own rows of the input projection. -/
theorem g2_x : cur2 (StableHlo.after hostOps2 V (Proc.devRef .tc main_v34)) = gatherRows 1024 1023 (cur3 (V (Proc.devRef .tc main_v5))) := by
  have h : StableHlo.after hostOps2 V (Proc.devRef .tc main_v34)
      = shapeCast S32768x1280 (extractStridedSlice S32x1024x1280 ![0, 1023, 0] (V (Proc.devRef .tc main_v5)) slices_S32x4095x1280_S32x1024x1280_0_1023_0) shapeCasts_S32x1024x1280_S32768x1280 := by
    dsimp only [hostOps2]
    after_results
    rfl
  rw [h]
  exact rows_read _ _ _ rfl (by decide)

end Cert.KernelIdeal.KValue

end
-- ==== Proof.KStage0.lean ====
/-
  The kernels' results as hypotheses, the launch arrays, and the first two stages of the run: the input projection
  as a (tree, node, column) array is `TreeSpec.xpre` of the launch arrays, the transposed weights are the weights
  transposed, and after the leaves' kernel and the host operations behind it the hidden- and cell-state arrays are
  `TreeSpec.stage … 0`.
-/
import proofs.«102109_j83099027243631_1_alg».proof.Proof.Gen.KernelIdeal.Frame
import proofs.«102109_j83099027243631_1_alg».proof.Proof.KCarry
import proofs.«102109_j83099027243631_1_alg».proof.Proof.KStep
import proofs.«102109_j83099027243631_1_alg».proof.Proof.KGlue01
import proofs.«102109_j83099027243631_1_alg».proof.Proof.KGlue2

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

/-! What each kernel leaves in its output arrays, as the row forms of its input arrays at any entry contents `V`:
    one statement per output array, then the bundle. -/

/-- The input projection's kernel. -/
def RF0 : Prop := ∀ (V : (c : Dev nD) → (b : Ref sig .tc) → Buf (Elt Ideal) ((c : Thread nD τ).loc b)) (c : Dev nD), (dat0 V c).arrAt 3 cfg0.N
      = fun i : S131040x1280.Idx => rowX (cur2 (V c (Pipeline.arrRef spec0 0) : S131040x256.Idx → EReal)) (cur2 (V c (Pipeline.arrRef spec0 1) : S256x1280.Idx → EReal)) (cur1 (V c (Pipeline.arrRef spec0 2) : S1280.Idx → EReal)) (i 0) (i 1)
/-- The leaves' kernel, hidden states. -/
def RF1h : Prop := ∀ (V : (c : Dev nD) → (b : Ref sig .tc) → Buf (Elt Ideal) ((c : Thread nD τ).loc b)) (c : Dev nD), (dat1 V c).arrAt 1 cfg1.N
      = fun i : S65536x256.Idx => rowLeafH (cur2 (V c (Pipeline.arrRef spec1 0) : S65536x1280.Idx → EReal)) (i 0) (i 1)
/-- The leaves' kernel, cell states. -/
def RF1c : Prop := ∀ (V : (c : Dev nD) → (b : Ref sig .tc) → Buf (Elt Ideal) ((c : Thread nD τ).loc b)) (c : Dev nD), (dat1 V c).arrAt 2 cfg1.N
      = fun i : S65536x256.Idx => rowLeafC (cur2 (V c (Pipeline.arrRef spec1 0) : S65536x1280.Idx → EReal)) (i 0) (i 1)
/-- The kernel of level 10, hidden states. -/
def RF2h : Prop := ∀ (V : (c : Dev nD) → (b : Ref sig .tc) → Buf (Elt Ideal) ((c : Thread nD τ).loc b)) (c : Dev nD), (dat2 V c).arrAt 9 cfg2.N
      = fun i : S32768x256.Idx => rowH (rowPre (cur2 (V c (Pipeline.arrRef spec2 0) : S32768x1280.Idx → EReal)) (cur2 (V c (Pipeline.arrRef spec2 1) : S32768x256.Idx → EReal)) (cur2 (V c (Pipeline.arrRef spec2 2) : S32768x256.Idx → EReal))
        (cur2 (V c (Pipeline.arrRef spec2 5) : S256x1280.Idx → EReal)) (cur2 (V c (Pipeline.arrRef spec2 6) : S256x1280.Idx → EReal)) (cur1 (V c (Pipeline.arrRef spec2 7) : S1280.Idx → EReal)) (cur1 (V c (Pipeline.arrRef spec2 8) : S1280.Idx → EReal)))
        (cur2 (V c (Pipeline.arrRef spec2 3) : S32768x256.Idx → EReal)) (cur2 (V c (Pipeline.arrRef spec2 4) : S32768x256.Idx → EReal)) (i 0) (i 1)
/-- The kernel of level 10, cell states. -/
def RF2c : Prop := ∀ (V : (c : Dev nD) → (b : Ref sig .tc) → Buf (Elt Ideal) ((c : Thread nD τ).loc b)) (c : Dev nD), (dat2 V c).arrAt 10 cfg2.N
      = fun i : S32768x256.Idx => rowC (rowPre (cur2 (V c (Pipeline.arrRef spec2 0) : S32768x1280.Idx → EReal)) (cur2 (V c (Pipeline.arrRef spec2 1) : S32768x256.Idx → EReal)) (cur2 (V c (Pipeline.arrRef spec2 2) : S32768x256.Idx → EReal))
        (cur2 (V c (Pipeline.arrRef spec2 5) : S256x1280.Idx → EReal)) (cur2 (V c (Pipeline.arrRef spec2 6) : S256x1280.Idx → EReal)) (cur1 (V c (Pipeline.arrRef spec2 7) : S1280.Idx → EReal)) (cur1 (V c (Pipeline.arrRef spec2 8) : S1280.Idx → EReal)))
        (cur2 (V c (Pipeline.arrRef spec2 3) : S32768x256.Idx → EReal)) (cur2 (V c (Pipeline.arrRef spec2 4) : S32768x256.Idx → EReal)) (i 0) (i 1)
/-- The kernel of level 9, hidden states. -/
def RF3h : Prop := ∀ (V : (c : Dev nD) → (b : Ref sig .tc) → Buf (Elt Ideal) ((c : Thread nD τ).loc b)) (c : Dev nD), (dat3 V c).arrAt 9 cfg3.N
      = fun i : S16384x256.Idx => rowH (rowPre (cur2 (V c (Pipeline.arrRef spec3 0) : S16384x1280.Idx → EReal)) (cur2 (V c (Pipeline.arrRef spec3 1) : S16384x256.Idx → EReal)) (cur2 (V c (Pipeline.arrRef spec3 2) : S16384x256.Idx → EReal))
        (cur2 (V c (Pipeline.arrRef spec3 5) : S256x1280.Idx → EReal)) (cur2 (V c (Pipeline.arrRef spec3 6) : S256x1280.Idx → EReal)) (cur1 (V c (Pipeline.arrRef spec3 7) : S1280.Idx → EReal)) (cur1 (V c (Pipeline.arrRef spec3 8) : S1280.Idx → EReal)))
        (cur2 (V c (Pipeline.arrRef spec3 3) : S16384x256.Idx → EReal)) (cur2 (V c (Pipeline.arrRef spec3 4) : S16384x256.Idx → EReal)) (i 0) (i 1)
/-- The kernel of level 9, cell states. -/
def RF3c : Prop := ∀ (V : (c : Dev nD) → (b : Ref sig .tc) → Buf (Elt Ideal) ((c : Thread nD τ).loc b)) (c : Dev nD), (dat3 V c).arrAt 10 cfg3.N
      = fun i : S16384x256.Idx => rowC (rowPre (cur2 (V c (Pipeline.arrRef spec3 0) : S16384x1280.Idx → EReal)) (cur2 (V c (Pipeline.arrRef spec3 1) : S16384x256.Idx → EReal)) (cur2 (V c (Pipeline.arrRef spec3 2) : S16384x256.Idx → EReal))
        (cur2 (V c (Pipeline.arrRef spec3 5) : S256x1280.Idx → EReal)) (cur2 (V c (Pipeline.arrRef spec3 6) : S256x1280.Idx → EReal)) (cur1 (V c (Pipeline.arrRef spec3 7) : S1280.Idx → EReal)) (cur1 (V c (Pipeline.arrRef spec3 8) : S1280.Idx → EReal)))
        (cur2 (V c (Pipeline.arrRef spec3 3) : S16384x256.Idx → EReal)) (cur2 (V c (Pipeline.arrRef spec3 4) : S16384x256.Idx → EReal)) (i 0) (i 1)
/-- The kernel of level 8, hidden states. -/
def RF4h : Prop := ∀ (V : (c : Dev nD) → (b : Ref sig .tc) → Buf (Elt Ideal) ((c : Thread nD τ).loc b)) (c : Dev nD), (dat4 V c).arrAt 9 cfg4.N
      = fun i : S8192x256.Idx => rowH (rowPre (cur2 (V c (Pipeline.arrRef spec4 0) : S8192x1280.Idx → EReal)) (cur2 (V c (Pipeline.arrRef spec4 1) : S8192x256.Idx → EReal)) (cur2 (V c (Pipeline.arrRef spec4 2) : S8192x256.Idx → EReal))
        (cur2 (V c (Pipeline.arrRef spec4 5) : S256x1280.Idx → EReal)) (cur2 (V c (Pipeline.arrRef spec4 6) : S256x1280.Idx → EReal)) (cur1 (V c (Pipeline.arrRef spec4 7) : S1280.Idx → EReal)) (cur1 (V c (Pipeline.arrRef spec4 8) : S1280.Idx → EReal)))
        (cur2 (V c (Pipeline.arrRef spec4 3) : S8192x256.Idx → EReal)) (cur2 (V c (Pipeline.arrRef spec4 4) : S8192x256.Idx → EReal)) (i 0) (i 1)
/-- The kernel of level 8, cell states. -/
def RF4c : Prop := ∀ (V : (c : Dev nD) → (b : Ref sig .tc) → Buf (Elt Ideal) ((c : Thread nD τ).loc b)) (c : Dev nD), (dat4 V c).arrAt 10 cfg4.N
      = fun i : S8192x256.Idx => rowC (rowPre (cur2 (V c (Pipeline.arrRef spec4 0) : S8192x1280.Idx → EReal)) (cur2 (V c (Pipeline.arrRef spec4 1) : S8192x256.Idx → EReal)) (cur2 (V c (Pipeline.arrRef spec4 2) : S8192x256.Idx → EReal))
        (cur2 (V c (Pipeline.arrRef spec4 5) : S256x1280.Idx → EReal)) (cur2 (V c (Pipeline.arrRef spec4 6) : S256x1280.Idx → EReal)) (cur1 (V c (Pipeline.arrRef spec4 7) : S1280.Idx → EReal)) (cur1 (V c (Pipeline.arrRef spec4 8) : S1280.Idx → EReal)))
        (cur2 (V c (Pipeline.arrRef spec4 3) : S8192x256.Idx → EReal)) (cur2 (V c (Pipeline.arrRef spec4 4) : S8192x256.Idx → EReal)) (i 0) (i 1)
/-- The kernel of level 7, hidden states. -/
def RF5h : Prop := ∀ (V : (c : Dev nD) → (b : Ref sig .tc) → Buf (Elt Ideal) ((c : Thread nD τ).loc b)) (c : Dev nD), (dat5 V c).arrAt 9 cfg5.N
      = fun i : S4096x256.Idx => rowH (rowPre (cur2 (V c (Pipeline.arrRef spec5 0) : S4096x1280.Idx → EReal)) (cur2 (V c (Pipeline.arrRef spec5 1) : S4096x256.Idx → EReal)) (cur2 (V c (Pipeline.arrRef spec5 2) : S4096x256.Idx → EReal))
        (cur2 (V c (Pipeline.arrRef spec5 5) : S256x1280.Idx → EReal)) (cur2 (V c (Pipeline.arrRef spec5 6) : S256x1280.Idx → EReal)) (cur1 (V c (Pipeline.arrRef spec5 7) : S1280.Idx → EReal)) (cur1 (V c (Pipeline.arrRef spec5 8) : S1280.Idx → EReal)))
        (cur2 (V c (Pipeline.arrRef spec5 3) : S4096x256.Idx → EReal)) (cur2 (V c (Pipeline.arrRef spec5 4) : S4096x256.Idx → EReal)) (i 0) (i 1)
/-- The kernel of level 7, cell states. -/
def RF5c : Prop := ∀ (V : (c : Dev nD) → (b : Ref sig .tc) → Buf (Elt Ideal) ((c : Thread nD τ).loc b)) (c : Dev nD), (dat5 V c).arrAt 10 cfg5.N
      = fun i : S4096x256.Idx => rowC (rowPre (cur2 (V c (Pipeline.arrRef spec5 0) : S4096x1280.Idx → EReal)) (cur2 (V c (Pipeline.arrRef spec5 1) : S4096x256.Idx → EReal)) (cur2 (V c (Pipeline.arrRef spec5 2) : S4096x256.Idx → EReal))
        (cur2 (V c (Pipeline.arrRef spec5 5) : S256x1280.Idx → EReal)) (cur2 (V c (Pipeline.arrRef spec5 6) : S256x1280.Idx → EReal)) (cur1 (V c (Pipeline.arrRef spec5 7) : S1280.Idx → EReal)) (cur1 (V c (Pipeline.arrRef spec5 8) : S1280.Idx → EReal)))
        (cur2 (V c (Pipeline.arrRef spec5 3) : S4096x256.Idx → EReal)) (cur2 (V c (Pipeline.arrRef spec5 4) : S4096x256.Idx → EReal)) (i 0) (i 1)
/-- The kernel of level 6, hidden states. -/
def RF6h : Prop := ∀ (V : (c : Dev nD) → (b : Ref sig .tc) → Buf (Elt Ideal) ((c : Thread nD τ).loc b)) (c : Dev nD), (dat6 V c).arrAt 9 cfg6.N
      = fun i : S2048x256.Idx => rowH (rowPre (cur2 (V c (Pipeline.arrRef spec6 0) : S2048x1280.Idx → EReal)) (cur2 (V c (Pipeline.arrRef spec6 1) : S2048x256.Idx → EReal)) (cur2 (V c (Pipeline.arrRef spec6 2) : S2048x256.Idx → EReal))
        (cur2 (V c (Pipeline.arrRef spec6 5) : S256x1280.Idx → EReal)) (cur2 (V c (Pipeline.arrRef spec6 6) : S256x1280.Idx → EReal)) (cur1 (V c (Pipeline.arrRef spec6 7) : S1280.Idx → EReal)) (cur1 (V c (Pipeline.arrRef spec6 8) : S1280.Idx → EReal)))
        (cur2 (V c (Pipeline.arrRef spec6 3) : S2048x256.Idx → EReal)) (cur2 (V c (Pipeline.arrRef spec6 4) : S2048x256.Idx → EReal)) (i 0) (i 1)
/-- The kernel of level 6, cell states. -/
def RF6c : Prop := ∀ (V : (c : Dev nD) → (b : Ref sig .tc) → Buf (Elt Ideal) ((c : Thread nD τ).loc b)) (c : Dev nD), (dat6 V c).arrAt 10 cfg6.N
      = fun i : S2048x256.Idx => rowC (rowPre (cur2 (V c (Pipeline.arrRef spec6 0) : S2048x1280.Idx → EReal)) (cur2 (V c (Pipeline.arrRef spec6 1) : S2048x256.Idx → EReal)) (cur2 (V c (Pipeline.arrRef spec6 2) : S2048x256.Idx → EReal))
        (cur2 (V c (Pipeline.arrRef spec6 5) : S256x1280.Idx → EReal)) (cur2 (V c (Pipeline.arrRef spec6 6) : S256x1280.Idx → EReal)) (cur1 (V c (Pipeline.arrRef spec6 7) : S1280.Idx → EReal)) (cur1 (V c (Pipeline.arrRef spec6 8) : S1280.Idx → EReal)))
        (cur2 (V c (Pipeline.arrRef spec6 3) : S2048x256.Idx → EReal)) (cur2 (V c (Pipeline.arrRef spec6 4) : S2048x256.Idx → EReal)) (i 0) (i 1)
/-- The kernel of level 5, hidden states. -/
def RF7h : Prop := ∀ (V : (c : Dev nD) → (b : Ref sig .tc) → Buf (Elt Ideal) ((c : Thread nD τ).loc b)) (c : Dev nD), (dat7 V c).arrAt 9 cfg7.N
      = fun i : S1024x256.Idx => rowH (rowPre (cur2 (V c (Pipeline.arrRef spec7 0) : S1024x1280.Idx → EReal)) (cur2 (V c (Pipeline.arrRef spec7 1) : S1024x256.Idx → EReal)) (cur2 (V c (Pipeline.arrRef spec7 2) : S1024x256.Idx → EReal))
        (cur2 (V c (Pipeline.arrRef spec7 5) : S256x1280.Idx → EReal)) (cur2 (V c (Pipeline.arrRef spec7 6) : S256x1280.Idx → EReal)) (cur1 (V c (Pipeline.arrRef spec7 7) : S1280.Idx → EReal)) (cur1 (V c (Pipeline.arrRef spec7 8) : S1280.Idx → EReal)))
        (cur2 (V c (Pipeline.arrRef spec7 3) : S1024x256.Idx → EReal)) (cur2 (V c (Pipeline.arrRef spec7 4) : S1024x256.Idx → EReal)) (i 0) (i 1)
/-- The kernel of level 5, cell states. -/
def RF7c : Prop := ∀ (V : (c : Dev nD) → (b : Ref sig .tc) → Buf (Elt Ideal) ((c : Thread nD τ).loc b)) (c : Dev nD), (dat7 V c).arrAt 10 cfg7.N
      = fun i : S1024x256.Idx => rowC (rowPre (cur2 (V c (Pipeline.arrRef spec7 0) : S1024x1280.Idx → EReal)) (cur2 (V c (Pipeline.arrRef spec7 1) : S1024x256.Idx → EReal)) (cur2 (V c (Pipeline.arrRef spec7 2) : S1024x256.Idx → EReal))
        (cur2 (V c (Pipeline.arrRef spec7 5) : S256x1280.Idx → EReal)) (cur2 (V c (Pipeline.arrRef spec7 6) : S256x1280.Idx → EReal)) (cur1 (V c (Pipeline.arrRef spec7 7) : S1280.Idx → EReal)) (cur1 (V c (Pipeline.arrRef spec7 8) : S1280.Idx → EReal)))
        (cur2 (V c (Pipeline.arrRef spec7 3) : S1024x256.Idx → EReal)) (cur2 (V c (Pipeline.arrRef spec7 4) : S1024x256.Idx → EReal)) (i 0) (i 1)
/-- The kernel of level 4, hidden states. -/
def RF8h : Prop := ∀ (V : (c : Dev nD) → (b : Ref sig .tc) → Buf (Elt Ideal) ((c : Thread nD τ).loc b)) (c : Dev nD), (dat8 V c).arrAt 9 cfg8.N
      = fun i : S512x256.Idx => rowH (rowPre (cur2 (V c (Pipeline.arrRef spec8 0) : S512x1280.Idx → EReal)) (cur2 (V c (Pipeline.arrRef spec8 1) : S512x256.Idx → EReal)) (cur2 (V c (Pipeline.arrRef spec8 2) : S512x256.Idx → EReal))
        (cur2 (V c (Pipeline.arrRef spec8 5) : S256x1280.Idx → EReal)) (cur2 (V c (Pipeline.arrRef spec8 6) : S256x1280.Idx → EReal)) (cur1 (V c (Pipeline.arrRef spec8 7) : S1280.Idx → EReal)) (cur1 (V c (Pipeline.arrRef spec8 8) : S1280.Idx → EReal)))
        (cur2 (V c (Pipeline.arrRef spec8 3) : S512x256.Idx → EReal)) (cur2 (V c (Pipeline.arrRef spec8 4) : S512x256.Idx → EReal)) (i 0) (i 1)
/-- The kernel of level 4, cell states. -/
def RF8c : Prop := ∀ (V : (c : Dev nD) → (b : Ref sig .tc) → Buf (Elt Ideal) ((c : Thread nD τ).loc b)) (c : Dev nD), (dat8 V c).arrAt 10 cfg8.N
      = fun i : S512x256.Idx => rowC (rowPre (cur2 (V c (Pipeline.arrRef spec8 0) : S512x1280.Idx → EReal)) (cur2 (V c (Pipeline.arrRef spec8 1) : S512x256.Idx → EReal)) (cur2 (V c (Pipeline.arrRef spec8 2) : S512x256.Idx → EReal))
        (cur2 (V c (Pipeline.arrRef spec8 5) : S256x1280.Idx → EReal)) (cur2 (V c (Pipeline.arrRef spec8 6) : S256x1280.Idx → EReal)) (cur1 (V c (Pipeline.arrRef spec8 7) : S1280.Idx → EReal)) (cur1 (V c (Pipeline.arrRef spec8 8) : S1280.Idx → EReal)))
        (cur2 (V c (Pipeline.arrRef spec8 3) : S512x256.Idx → EReal)) (cur2 (V c (Pipeline.arrRef spec8 4) : S512x256.Idx → EReal)) (i 0) (i 1)
/-- The kernel of level 3, hidden states. -/
def RF9h : Prop := ∀ (V : (c : Dev nD) → (b : Ref sig .tc) → Buf (Elt Ideal) ((c : Thread nD τ).loc b)) (c : Dev nD), (dat9 V c).arrAt 9 cfg9.N
      = fun i : S256x256.Idx => rowH (rowPre (cur2 (V c (Pipeline.arrRef spec9 0) : S256x1280.Idx → EReal)) (cur2 (V c (Pipeline.arrRef spec9 1) : S256x256.Idx → EReal)) (cur2 (V c (Pipeline.arrRef spec9 2) : S256x256.Idx → EReal))
        (cur2 (V c (Pipeline.arrRef spec9 5) : S256x1280.Idx → EReal)) (cur2 (V c (Pipeline.arrRef spec9 6) : S256x1280.Idx → EReal)) (cur1 (V c (Pipeline.arrRef spec9 7) : S1280.Idx → EReal)) (cur1 (V c (Pipeline.arrRef spec9 8) : S1280.Idx → EReal)))
        (cur2 (V c (Pipeline.arrRef spec9 3) : S256x256.Idx → EReal)) (cur2 (V c (Pipeline.arrRef spec9 4) : S256x256.Idx → EReal)) (i 0) (i 1)
/-- The kernel of level 3, cell states. -/
def RF9c : Prop := ∀ (V : (c : Dev nD) → (b : Ref sig .tc) → Buf (Elt Ideal) ((c : Thread nD τ).loc b)) (c : Dev nD), (dat9 V c).arrAt 10 cfg9.N
      = fun i : S256x256.Idx => rowC (rowPre (cur2 (V c (Pipeline.arrRef spec9 0) : S256x1280.Idx → EReal)) (cur2 (V c (Pipeline.arrRef spec9 1) : S256x256.Idx → EReal)) (cur2 (V c (Pipeline.arrRef spec9 2) : S256x256.Idx → EReal))
        (cur2 (V c (Pipeline.arrRef spec9 5) : S256x1280.Idx → EReal)) (cur2 (V c (Pipeline.arrRef spec9 6) : S256x1280.Idx → EReal)) (cur1 (V c (Pipeline.arrRef spec9 7) : S1280.Idx → EReal)) (cur1 (V c (Pipeline.arrRef spec9 8) : S1280.Idx → EReal)))
        (cur2 (V c (Pipeline.arrRef spec9 3) : S256x256.Idx → EReal)) (cur2 (V c (Pipeline.arrRef spec9 4) : S256x256.Idx → EReal)) (i 0) (i 1)
/-- The kernel of level 2, hidden states. -/
def RF10h : Prop := ∀ (V : (c : Dev nD) → (b : Ref sig .tc) → Buf (Elt Ideal) ((c : Thread nD τ).loc b)) (c : Dev nD), (dat10 V c).arrAt 9 cfg10.N
      = fun i : S128x256.Idx => rowH (rowPre (cur2 (V c (Pipeline.arrRef spec10 0) : S128x1280.Idx → EReal)) (cur2 (V c (Pipeline.arrRef spec10 1) : S128x256.Idx → EReal)) (cur2 (V c (Pipeline.arrRef spec10 2) : S128x256.Idx → EReal))
        (cur2 (V c (Pipeline.arrRef spec10 5) : S256x1280.Idx → EReal)) (cur2 (V c (Pipeline.arrRef spec10 6) : S256x1280.Idx → EReal)) (cur1 (V c (Pipeline.arrRef spec10 7) : S1280.Idx → EReal)) (cur1 (V c (Pipeline.arrRef spec10 8) : S1280.Idx → EReal)))
        (cur2 (V c (Pipeline.arrRef spec10 3) : S128x256.Idx → EReal)) (cur2 (V c (Pipeline.arrRef spec10 4) : S128x256.Idx → EReal)) (i 0) (i 1)
/-- The kernel of level 2, cell states. -/
def RF10c : Prop := ∀ (V : (c : Dev nD) → (b : Ref sig .tc) → Buf (Elt Ideal) ((c : Thread nD τ).loc b)) (c : Dev nD), (dat10 V c).arrAt 10 cfg10.N
      = fun i : S128x256.Idx => rowC (rowPre (cur2 (V c (Pipeline.arrRef spec10 0) : S128x1280.Idx → EReal)) (cur2 (V c (Pipeline.arrRef spec10 1) : S128x256.Idx → EReal)) (cur2 (V c (Pipeline.arrRef spec10 2) : S128x256.Idx → EReal))
        (cur2 (V c (Pipeline.arrRef spec10 5) : S256x1280.Idx → EReal)) (cur2 (V c (Pipeline.arrRef spec10 6) : S256x1280.Idx → EReal)) (cur1 (V c (Pipeline.arrRef spec10 7) : S1280.Idx → EReal)) (cur1 (V c (Pipeline.arrRef spec10 8) : S1280.Idx → EReal)))
        (cur2 (V c (Pipeline.arrRef spec10 3) : S128x256.Idx → EReal)) (cur2 (V c (Pipeline.arrRef spec10 4) : S128x256.Idx → EReal)) (i 0) (i 1)
/-- The kernel of level 1, hidden states. -/
def RF11h : Prop := ∀ (V : (c : Dev nD) → (b : Ref sig .tc) → Buf (Elt Ideal) ((c : Thread nD τ).loc b)) (c : Dev nD), (dat11 V c).arrAt 9 cfg11.N
      = fun i : S64x256.Idx => rowH (rowPre (cur2 (V c (Pipeline.arrRef spec11 0) : S64x1280.Idx → EReal)) (cur2 (V c (Pipeline.arrRef spec11 1) : S64x256.Idx → EReal)) (cur2 (V c (Pipeline.arrRef spec11 2) : S64x256.Idx → EReal))
        (cur2 (V c (Pipeline.arrRef spec11 5) : S256x1280.Idx → EReal)) (cur2 (V c (Pipeline.arrRef spec11 6) : S256x1280.Idx → EReal)) (cur1 (V c (Pipeline.arrRef spec11 7) : S1280.Idx → EReal)) (cur1 (V c (Pipeline.arrRef spec11 8) : S1280.Idx → EReal)))
        (cur2 (V c (Pipeline.arrRef spec11 3) : S64x256.Idx → EReal)) (cur2 (V c (Pipeline.arrRef spec11 4) : S64x256.Idx → EReal)) (i 0) (i 1)
/-- The kernel of level 1, cell states. -/
def RF11c : Prop := ∀ (V : (c : Dev nD) → (b : Ref sig .tc) → Buf (Elt Ideal) ((c : Thread nD τ).loc b)) (c : Dev nD), (dat11 V c).arrAt 10 cfg11.N
      = fun i : S64x256.Idx => rowC (rowPre (cur2 (V c (Pipeline.arrRef spec11 0) : S64x1280.Idx → EReal)) (cur2 (V c (Pipeline.arrRef spec11 1) : S64x256.Idx → EReal)) (cur2 (V c (Pipeline.arrRef spec11 2) : S64x256.Idx → EReal))
        (cur2 (V c (Pipeline.arrRef spec11 5) : S256x1280.Idx → EReal)) (cur2 (V c (Pipeline.arrRef spec11 6) : S256x1280.Idx → EReal)) (cur1 (V c (Pipeline.arrRef spec11 7) : S1280.Idx → EReal)) (cur1 (V c (Pipeline.arrRef spec11 8) : S1280.Idx → EReal)))
        (cur2 (V c (Pipeline.arrRef spec11 3) : S64x256.Idx → EReal)) (cur2 (V c (Pipeline.arrRef spec11 4) : S64x256.Idx → EReal)) (i 0) (i 1)
/-- The kernel of level 0, hidden states. -/
def RF12h : Prop := ∀ (V : (c : Dev nD) → (b : Ref sig .tc) → Buf (Elt Ideal) ((c : Thread nD τ).loc b)) (c : Dev nD), (dat12 V c).arrAt 9 cfg12.N
      = fun i : S32x256.Idx => rowH (rowPre (cur2 (V c (Pipeline.arrRef spec12 0) : S32x1280.Idx → EReal)) (cur2 (V c (Pipeline.arrRef spec12 1) : S32x256.Idx → EReal)) (cur2 (V c (Pipeline.arrRef spec12 2) : S32x256.Idx → EReal))
        (cur2 (V c (Pipeline.arrRef spec12 5) : S256x1280.Idx → EReal)) (cur2 (V c (Pipeline.arrRef spec12 6) : S256x1280.Idx → EReal)) (cur1 (V c (Pipeline.arrRef spec12 7) : S1280.Idx → EReal)) (cur1 (V c (Pipeline.arrRef spec12 8) : S1280.Idx → EReal)))
        (cur2 (V c (Pipeline.arrRef spec12 3) : S32x256.Idx → EReal)) (cur2 (V c (Pipeline.arrRef spec12 4) : S32x256.Idx → EReal)) (i 0) (i 1)
/-- The kernel of level 0, cell states. -/
def RF12c : Prop := ∀ (V : (c : Dev nD) → (b : Ref sig .tc) → Buf (Elt Ideal) ((c : Thread nD τ).loc b)) (c : Dev nD), (dat12 V c).arrAt 10 cfg12.N
      = fun i : S32x256.Idx => rowC (rowPre (cur2 (V c (Pipeline.arrRef spec12 0) : S32x1280.Idx → EReal)) (cur2 (V c (Pipeline.arrRef spec12 1) : S32x256.Idx → EReal)) (cur2 (V c (Pipeline.arrRef spec12 2) : S32x256.Idx → EReal))
        (cur2 (V c (Pipeline.arrRef spec12 5) : S256x1280.Idx → EReal)) (cur2 (V c (Pipeline.arrRef spec12 6) : S256x1280.Idx → EReal)) (cur1 (V c (Pipeline.arrRef spec12 7) : S1280.Idx → EReal)) (cur1 (V c (Pipeline.arrRef spec12 8) : S1280.Idx → EReal)))
        (cur2 (V c (Pipeline.arrRef spec12 3) : S32x256.Idx → EReal)) (cur2 (V c (Pipeline.arrRef spec12 4) : S32x256.Idx → EReal)) (i 0) (i 1)

/-- All of them. -/
structure RegionFacts : Prop where
  r0 : RF0
  r1h : RF1h
  r1c : RF1c
  r2h : RF2h
  r2c : RF2c
  r3h : RF3h
  r3c : RF3c
  r4h : RF4h
  r4c : RF4c
  r5h : RF5h
  r5c : RF5c
  r6h : RF6h
  r6c : RF6c
  r7h : RF7h
  r7c : RF7c
  r8h : RF8h
  r8c : RF8c
  r9h : RF9h
  r9c : RF9c
  r10h : RF10h
  r10c : RF10c
  r11h : RF11h
  r11c : RF11c
  r12h : RF12h
  r12c : RF12c

variable (c : Dev nD)

/-- The launch arrays as functions of coordinates. -/
abbrev aFeat : A3 32 4095 256 := cur3 ((m ((c : Thread nD τ).loc main_arg0)) : S32x4095x256.Idx → EReal)
abbrev aWx : A2 1280 256 := cur2 ((m ((c : Thread nD τ).loc main_arg1)) : S1280x256.Idx → EReal)
abbrev aWl : A2 1280 256 := cur2 ((m ((c : Thread nD τ).loc main_arg2)) : S1280x256.Idx → EReal)
abbrev aWr : A2 1280 256 := cur2 ((m ((c : Thread nD τ).loc main_arg3)) : S1280x256.Idx → EReal)
abbrev aBx : A1 1280 := cur1 ((m ((c : Thread nD τ).loc main_arg4)) : S1280.Idx → EReal)
abbrev aBl : A1 1280 := cur1 ((m ((c : Thread nD τ).loc main_arg5)) : S1280.Idx → EReal)
abbrev aBr : A1 1280 := cur1 ((m ((c : Thread nD τ).loc main_arg6)) : S1280.Idx → EReal)
/-- The input projection of the launch arrays. -/
abbrev aX : A3 32 4095 1280 := xpre (aFeat m c) (aWx m c) (aBx m c)
/-- The pair of arrays after stage `k`. -/
abbrev aStage (k : ℕ) : A3 32 4095 256 × A3 32 4095 256 := stage (aX m c) (aWl m c) (aWr m c) (aBl m c) (aBr m c) k

/-- The transposed weights at the first boundary. -/
theorem wxT_1 : cur2 (W1 m ρ c (Proc.devRef .tc main_v0)) = fun k g => aWx m c g k := g0_WxT (W0 m ρ c)
theorem wlT_1 : cur2 (W1 m ρ c (Proc.devRef .tc main_v1)) = fun k g => aWl m c g k := g0_WlT (W0 m ρ c)
theorem wrT_1 : cur2 (W1 m ρ c (Proc.devRef .tc main_v2)) = fun k g => aWr m c g k := g0_WrT (W0 m ρ c)

/-- The input projection as a (tree, node, column) array, after the first kernel. -/
theorem x3_3 (R : RegionFacts) : cur3 (W3 m ρ c (Proc.devRef .tc main_v5)) = aX m c := by
  funext b nd g
  have hr : b.val * 4095 + nd.val < 131040 := by have := b.isLt; have := nd.isLt; omega
  refine (g1_x3 (W2 m ρ c) b nd g ⟨_, hr⟩ rfl).trans ?_
  rw [show W2 m ρ c (Proc.devRef .tc main_v4) = _ from W2_arr m ρ c 3, R.r0 (V1 m ρ) c]
  refine xpre_rows (aFeat m c) (aWx m c) _ (aBx m c) (fun k g => ?_) _ (fun b nd k r hr => ?_) _
    (congrArg cur1 (carry_main_arg4_1 m ρ c)) b nd g ⟨_, hr⟩ rfl
  · exact congrFun (congrFun (wxT_1 m ρ c) k) g
  · exact g0_feat (W0 m ρ c) b nd k r hr

set_option maxHeartbeats 1000000 in
/-- Stage 0: the leaves. -/
theorem stage0 (R : RegionFacts) :
    cur3 (W5 m ρ c (Proc.devRef .tc main_v13)) = (aStage m c 0).1 ∧ cur3 (W5 m ρ c (Proc.devRef .tc main_v16)) = (aStage m c 0).2 := by
  have eX : cur2 (W3 m ρ c (Proc.devRef .tc main_v9)) = gatherRows 2048 2047 (aX m c) :=
    (g1_x (W2 m ρ c)).trans (congrArg (gatherRows 2048 2047) (x3_3 m ρ c R))
  have oH : cur2 (W4 m ρ c (Proc.devRef .tc main_v10_0)) = rowLeafH (gatherRows 2048 2047 (aX m c)) :=
    (congrArg cur2 ((show W4 m ρ c (Proc.devRef .tc main_v10_0) = _ from W4_arr m ρ c 1).trans (R.r1h (V3 m ρ) c))).trans (rowLeafH_cur2_congr eX)
  have oC : cur2 (W4 m ρ c (Proc.devRef .tc main_v10_1)) = rowLeafC (gatherRows 2048 2047 (aX m c)) :=
    (congrArg cur2 ((show W4 m ρ c (Proc.devRef .tc main_v10_1) = _ from W4_arr m ρ c 2).trans (R.r1c (V3 m ρ) c))).trans (rowLeafC_cur2_congr eX)
  have z6 : cur3 (W4 m ρ c (Proc.devRef .tc main_v6)) = fun _ _ _ => 0 :=
    (congrArg cur3 (W4_of_ne m ρ c main_v6 (by decide))).trans (g1_z6 (W2 m ρ c))
  have z7 : cur3 (W4 m ρ c (Proc.devRef .tc main_v7)) = fun _ _ _ => 0 :=
    (congrArg cur3 (W4_of_ne m ρ c main_v7 (by decide))).trans (g1_z7 (W2 m ρ c))
  have hl := leaf_rows (M := 65536) (n := 2048) (s := 2047) rfl (by decide) (by decide) (aX m c)
  constructor
  · exact (g2_H (W4 m ρ c)).trans ((setRows_unrow_congr oH z6).trans hl.1)
  · exact (g2_C (W4 m ρ c)).trans ((setRows_unrow_congr oC z7).trans hl.2)

end Cert.KernelIdeal.KValue

end
-- ==== Proof.KGlue3.lean ====
/-
  The host operations before the kernel of level 9 (nodes 511 … 1022), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 1023 … of the array before it. -/
theorem g3_H : cur3 (StableHlo.after hostOps3 V (Proc.devRef .tc main_v38))
    = setRows 1023 1024 (unrow 1024 1023 (cur2 (V (Proc.devRef .tc main_v35_0)))) (cur3 (V (Proc.devRef .tc main_v13))) := by
  have h : StableHlo.after hostOps3 V (Proc.devRef .tc main_v38)
      = Host.scatter scatter_S32x4095x256_S1_S32x1024x256_012_n_1_0 (fun _ b => b) (V (Proc.devRef .tc main_v13))
          (broadcastInDim S1 ![] bcast_S_S1 (constantI S_ 32 1023#32))
          (shapeCast S32x1024x256 (V (Proc.devRef .tc main_v35_0)) shapeCasts_S32768x256_S32x1024x256) := by
    dsimp only [hostOps3]
    after_results
    rfl
  rw [h]
  exact rows_write scatter_S32x4095x256_S1_S32x1024x256_012_n_1_0 rfl rfl rfl rfl _ _ (fun _ => show (1023#32 : BitVec 32).toInt = ((1023 : ℕ) : Int) from by decide) _ _ rfl (by decide)

set_option maxHeartbeats 2000000 in
/-- The cell states after the stretch: the previous level's rows written over the nodes 1023 … of the array before it. -/
theorem g3_C : cur3 (StableHlo.after hostOps3 V (Proc.devRef .tc main_v41))
    = setRows 1023 1024 (unrow 1024 1023 (cur2 (V (Proc.devRef .tc main_v35_1)))) (cur3 (V (Proc.devRef .tc main_v16))) := by
  have h : StableHlo.after hostOps3 V (Proc.devRef .tc main_v41)
      = Host.scatter scatter_S32x4095x256_S1_S32x1024x256_012_n_1_0 (fun _ b => b) (V (Proc.devRef .tc main_v16))
          (broadcastInDim S1 ![] bcast_S_S1 (constantI S_ 32 1023#32))
          (shapeCast S32x1024x256 (V (Proc.devRef .tc main_v35_1)) shapeCasts_S32768x256_S32x1024x256) := by
    dsimp only [hostOps3]
    after_results
    rfl
  rw [h]
  exact rows_write scatter_S32x4095x256_S1_S32x1024x256_012_n_1_0 rfl rfl rfl rfl _ _ (fun _ => show (1023#32 : BitVec 32).toInt = ((1023 : ℕ) : Int) from by decide) _ _ rfl (by decide)

set_option maxHeartbeats 2000000 in
/-- The rows of the level's left children's hidden states. -/
theorem g3_lh : cur2 (StableHlo.after hostOps3 V (Proc.devRef .tc main_v48))
    = gatherChild 512 1023 0 (cur3 (StableHlo.after hostOps3 V (Proc.devRef .tc main_v38))) := by
  have h : StableHlo.after hostOps3 V (Proc.devRef .tc main_v48)
      = shapeCast S16384x256 (shapeCast S32x512x256 (extractStridedSlice S32x512x1x256 ![0, 0, 0, 0]
          (shapeCast S32x512x2x256 (extractStridedSlice S32x1024x256 ![0, 1023, 0] (StableHlo.after hostOps3 V (Proc.devRef .tc main_v38))
            slices_S32x4095x256_S32x1024x256_0_1023_0) shapeCasts_S32x1024x256_S32x512x2x256) slices_S32x512x2x256_S32x512x1x256_0_0_0_0) shapeCasts_S32x512x1x256_S32x512x256) shapeCasts_S32x512x256_S16384x256 := by
    dsimp only [hostOps3]
    after_results
    rfl
  rw [h]
  exact child_read 0 (by decide) _ _ _ _ _ _ rfl rfl (by decide)

set_option maxHeartbeats 2000000 in
/-- The rows of the level's right children's hidden states. -/
theorem g3_rh : cur2 (StableHlo.after hostOps3 V (Proc.devRef .tc main_v51))
    = gatherChild 512 1023 1 (cur3 (StableHlo.after hostOps3 V (Proc.devRef .tc main_v38))) := by
  have h : StableHlo.after hostOps3 V (Proc.devRef .tc main_v51)
      = shapeCast S16384x256 (shapeCast S32x512x256 (extractStridedSlice S32x512x1x256 ![0, 0, 1, 0]
          (shapeCast S32x512x2x256 (extractStridedSlice S32x1024x256 ![0, 1023, 0] (StableHlo.after hostOps3 V (Proc.devRef .tc main_v38))
            slices_S32x4095x256_S32x1024x256_0_1023_0) shapeCasts_S32x1024x256_S32x512x2x256) slices_S32x512x2x256_S32x512x1x256_0_0_1_0) shapeCasts_S32x512x1x256_S32x512x256) shapeCasts_S32x512x256_S16384x256 := by
    dsimp only [hostOps3]
    after_results
    rfl
  rw [h]
  exact child_read 1 (by decide) _ _ _ _ _ _ rfl rfl (by decide)

set_option maxHeartbeats 2000000 in
/-- The rows of the level's left children's cell states. -/
theorem g3_lc : cur2 (StableHlo.after hostOps3 V (Proc.devRef .tc main_v54))
    = gatherChild 512 1023 0 (cur3 (StableHlo.after hostOps3 V (Proc.devRef .tc main_v41))) := by
  have h : StableHlo.after hostOps3 V (Proc.devRef .tc main_v54)
      = shapeCast S16384x256 (shapeCast S32x512x256 (extractStridedSlice S32x512x1x256 ![0, 0, 0, 0]
          (shapeCast S32x512x2x256 (extractStridedSlice S32x1024x256 ![0, 1023, 0] (StableHlo.after hostOps3 V (Proc.devRef .tc main_v41))
            slices_S32x4095x256_S32x1024x256_0_1023_0) shapeCasts_S32x1024x256_S32x512x2x256) slices_S32x512x2x256_S32x512x1x256_0_0_0_0) shapeCasts_S32x512x1x256_S32x512x256) shapeCasts_S32x512x256_S16384x256 := by
    dsimp only [hostOps3]
    after_results
    rfl
  rw [h]
  exact child_read 0 (by decide) _ _ _ _ _ _ rfl rfl (by decide)

set_option maxHeartbeats 2000000 in
/-- The rows of the level's right children's cell states. -/
theorem g3_rc : cur2 (StableHlo.after hostOps3 V (Proc.devRef .tc main_v57))
    = gatherChild 512 1023 1 (cur3 (StableHlo.after hostOps3 V (Proc.devRef .tc main_v41))) := by
  have h : StableHlo.after hostOps3 V (Proc.devRef .tc main_v57)
      = shapeCast S16384x256 (shapeCast S32x512x256 (extractStridedSlice S32x512x1x256 ![0, 0, 1, 0]
          (shapeCast S32x512x2x256 (extractStridedSlice S32x1024x256 ![0, 1023, 0] (StableHlo.after hostOps3 V (Proc.devRef .tc main_v41))
            slices_S32x4095x256_S32x1024x256_0_1023_0) shapeCasts_S32x1024x256_S32x512x2x256) slices_S32x512x2x256_S32x512x1x256_0_0_1_0) shapeCasts_S32x512x1x256_S32x512x256) shapeCasts_S32x512x256_S16384x256 := by
    dsimp only [hostOps3]
    after_results
    rfl
  rw [h]
  exact child_read 1 (by decide) _ _ _ _ _ _ rfl rfl (by decide)

set_option maxHeartbeats 2000000 in
/-- The level's own rows of the input projection. -/
theorem g3_x : cur2 (StableHlo.after hostOps3 V (Proc.devRef .tc main_v59)) = gatherRows 512 511 (cur3 (V (Proc.devRef .tc main_v5))) := by
  have h : StableHlo.after hostOps3 V (Proc.devRef .tc main_v59)
      = shapeCast S16384x1280 (extractStridedSlice S32x512x1280 ![0, 511, 0] (V (Proc.devRef .tc main_v5)) slices_S32x4095x1280_S32x512x1280_0_511_0) shapeCasts_S32x512x1280_S16384x1280 := by
    dsimp only [hostOps3]
    after_results
    rfl
  rw [h]
  exact rows_read _ _ _ rfl (by decide)

end Cert.KernelIdeal.KValue

end
-- ==== Proof.KStage1.lean ====
/-
  Stage 1 of the run: the kernel of level 10 (nodes 1023 … 2046) and the host operations around it take the
  hidden- and cell-state arrays of stage 0 to those of stage 1.
-/
import proofs.«102109_j83099027243631_1_alg».proof.Proof.KStage0
import proofs.«102109_j83099027243631_1_alg».proof.Proof.KGlue2
import proofs.«102109_j83099027243631_1_alg».proof.Proof.KGlue3

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step1 (R : RegionFacts)
    (ihH : cur3 (W5 m ρ c (Proc.devRef .tc main_v13)) = (aStage m c 0).1) (ihC : cur3 (W5 m ρ c (Proc.devRef .tc main_v16)) = (aStage m c 0).2) :
    cur3 (W7 m ρ c (Proc.devRef .tc main_v38)) = (aStage m c 1).1 ∧ cur3 (W7 m ρ c (Proc.devRef .tc main_v41)) = (aStage m c 1).2 := by
  -- the kernel's input arrays at its entry
  have eX : cur2 (W5 m ρ c (Proc.devRef .tc main_v34)) = gatherRows 1024 1023 (aX m c) :=
    (g2_x (W4 m ρ c)).trans (congrArg (gatherRows 1024 1023) ((congrArg cur3 (carry_main_v5_4 m ρ c)).trans (x3_3 m ρ c R)))
  have eLH : cur2 (W5 m ρ c (Proc.devRef .tc main_v23)) = gatherChild 1024 2047 0 (aStage m c 0).1 :=
    (g2_lh (W4 m ρ c)).trans (congrArg (gatherChild 1024 2047 0) ihH)
  have eRH : cur2 (W5 m ρ c (Proc.devRef .tc main_v26)) = gatherChild 1024 2047 1 (aStage m c 0).1 :=
    (g2_rh (W4 m ρ c)).trans (congrArg (gatherChild 1024 2047 1) ihH)
  have eLC : cur2 (W5 m ρ c (Proc.devRef .tc main_v29)) = gatherChild 1024 2047 0 (aStage m c 0).2 :=
    (g2_lc (W4 m ρ c)).trans (congrArg (gatherChild 1024 2047 0) ihC)
  have eRC : cur2 (W5 m ρ c (Proc.devRef .tc main_v32)) = gatherChild 1024 2047 1 (aStage m c 0).2 :=
    (g2_rc (W4 m ρ c)).trans (congrArg (gatherChild 1024 2047 1) ihC)
  have eWl : cur2 (W5 m ρ c (Proc.devRef .tc main_v1)) = fun k g => aWl m c g k :=
    (congrArg cur2 (carry_main_v1_5 m ρ c)).trans (wlT_1 m ρ c)
  have eWr : cur2 (W5 m ρ c (Proc.devRef .tc main_v2)) = fun k g => aWr m c g k :=
    (congrArg cur2 (carry_main_v2_5 m ρ c)).trans (wrT_1 m ρ c)
  have eBl : cur1 (W5 m ρ c (Proc.devRef .tc main_arg5)) = aBl m c := congrArg cur1 (carry_main_arg5_5 m ρ c)
  have eBr : cur1 (W5 m ρ c (Proc.devRef .tc main_arg6)) = aBr m c := congrArg cur1 (carry_main_arg6_5 m ρ c)
  -- what the kernel leaves
  have oH : cur2 (W6 m ρ c (Proc.devRef .tc main_v35_0)) = rowH (rowPre (M := 32768) (gatherRows 1024 1023 (aX m c)) (gatherChild 1024 2047 0 (aStage m c 0).1) (gatherChild 1024 2047 1 (aStage m c 0).1)
        (fun k g => aWl m c g k) (fun k g => aWr m c g k) (aBl m c) (aBr m c))
        (gatherChild 1024 2047 0 (aStage m c 0).2) (gatherChild 1024 2047 1 (aStage m c 0).2) :=
    (congrArg cur2 ((show W6 m ρ c (Proc.devRef .tc main_v35_0) = _ from W6_arr m ρ c 9).trans (R.r2h (V5 m ρ) c))).trans
      (rowH_cur2_congr eX eLH eRH eWl eWr eBl eBr eLC eRC)
  have oC : cur2 (W6 m ρ c (Proc.devRef .tc main_v35_1)) = rowC (rowPre (M := 32768) (gatherRows 1024 1023 (aX m c)) (gatherChild 1024 2047 0 (aStage m c 0).1) (gatherChild 1024 2047 1 (aStage m c 0).1)
        (fun k g => aWl m c g k) (fun k g => aWr m c g k) (aBl m c) (aBr m c))
        (gatherChild 1024 2047 0 (aStage m c 0).2) (gatherChild 1024 2047 1 (aStage m c 0).2) :=
    (congrArg cur2 ((show W6 m ρ c (Proc.devRef .tc main_v35_1) = _ from W6_arr m ρ c 10).trans (R.r2c (V5 m ρ) c))).trans
      (rowC_cur2_congr eX eLH eRH eWl eWr eBl eBr eLC eRC)
  have kH : cur3 (W6 m ρ c (Proc.devRef .tc main_v13)) = (aStage m c 0).1 :=
    (congrArg cur3 (W6_of_ne m ρ c main_v13 (by decide))).trans ihH
  have kC : cur3 (W6 m ρ c (Proc.devRef .tc main_v16)) = (aStage m c 0).2 :=
    (congrArg cur3 (W6_of_ne m ρ c main_v16 (by decide))).trans ihC
  have hl := level_rows (M := 32768) (n := 1024) (s := 1023) rfl (by decide) (by decide) (aX m c) (aStage m c 0).1 (aStage m c 0).2
    (aWl m c) (aWr m c) (fun k g => aWl m c g k) (fun k g => aWr m c g k) (aBl m c) (aBr m c) (fun _ _ => rfl) (fun _ _ => rfl)
  constructor
  · exact (g3_H (W6 m ρ c)).trans ((setRows_unrow_congr oH kH).trans hl.1)
  · exact (g3_C (W6 m ρ c)).trans ((setRows_unrow_congr oC kC).trans hl.2)

end Cert.KernelIdeal.KValue

end
-- ==== Proof.KGlue4.lean ====
/-
  The host operations before the kernel of level 8 (nodes 255 … 510), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 511 … of the array before it. -/
theorem g4_H : cur3 (StableHlo.after hostOps4 V (Proc.devRef .tc main_v63))
    = setRows 511 512 (unrow 512 511 (cur2 (V (Proc.devRef .tc main_v60_0)))) (cur3 (V (Proc.devRef .tc main_v38))) := by
  have h : StableHlo.after hostOps4 V (Proc.devRef .tc main_v63)
      = Host.scatter scatter_S32x4095x256_S1_S32x512x256_012_n_1_0 (fun _ b => b) (V (Proc.devRef .tc main_v38))
          (broadcastInDim S1 ![] bcast_S_S1 (constantI S_ 32 511#32))
          (shapeCast S32x512x256 (V (Proc.devRef .tc main_v60_0)) shapeCasts_S16384x256_S32x512x256) := by
    dsimp only [hostOps4]
    after_results
    rfl
  rw [h]
  exact rows_write scatter_S32x4095x256_S1_S32x512x256_012_n_1_0 rfl rfl rfl rfl _ _ (fun _ => show (511#32 : BitVec 32).toInt = ((511 : ℕ) : Int) from by decide) _ _ rfl (by decide)

set_option maxHeartbeats 2000000 in
/-- The cell states after the stretch: the previous level's rows written over the nodes 511 … of the array before it. -/
theorem g4_C : cur3 (StableHlo.after hostOps4 V (Proc.devRef .tc main_v66))
    = setRows 511 512 (unrow 512 511 (cur2 (V (Proc.devRef .tc main_v60_1)))) (cur3 (V (Proc.devRef .tc main_v41))) := by
  have h : StableHlo.after hostOps4 V (Proc.devRef .tc main_v66)
      = Host.scatter scatter_S32x4095x256_S1_S32x512x256_012_n_1_0 (fun _ b => b) (V (Proc.devRef .tc main_v41))
          (broadcastInDim S1 ![] bcast_S_S1 (constantI S_ 32 511#32))
          (shapeCast S32x512x256 (V (Proc.devRef .tc main_v60_1)) shapeCasts_S16384x256_S32x512x256) := by
    dsimp only [hostOps4]
    after_results
    rfl
  rw [h]
  exact rows_write scatter_S32x4095x256_S1_S32x512x256_012_n_1_0 rfl rfl rfl rfl _ _ (fun _ => show (511#32 : BitVec 32).toInt = ((511 : ℕ) : Int) from by decide) _ _ rfl (by decide)

set_option maxHeartbeats 2000000 in
/-- The rows of the level's left children's hidden states. -/
theorem g4_lh : cur2 (StableHlo.after hostOps4 V (Proc.devRef .tc main_v73))
    = gatherChild 256 511 0 (cur3 (StableHlo.after hostOps4 V (Proc.devRef .tc main_v63))) := by
  have h : StableHlo.after hostOps4 V (Proc.devRef .tc main_v73)
      = shapeCast S8192x256 (shapeCast S32x256x256 (extractStridedSlice S32x256x1x256 ![0, 0, 0, 0]
          (shapeCast S32x256x2x256 (extractStridedSlice S32x512x256 ![0, 511, 0] (StableHlo.after hostOps4 V (Proc.devRef .tc main_v63))
            slices_S32x4095x256_S32x512x256_0_511_0) shapeCasts_S32x512x256_S32x256x2x256) slices_S32x256x2x256_S32x256x1x256_0_0_0_0) shapeCasts_S32x256x1x256_S32x256x256) shapeCasts_S32x256x256_S8192x256 := by
    dsimp only [hostOps4]
    after_results
    rfl
  rw [h]
  exact child_read 0 (by decide) _ _ _ _ _ _ rfl rfl (by decide)

set_option maxHeartbeats 2000000 in
/-- The rows of the level's right children's hidden states. -/
theorem g4_rh : cur2 (StableHlo.after hostOps4 V (Proc.devRef .tc main_v76))
    = gatherChild 256 511 1 (cur3 (StableHlo.after hostOps4 V (Proc.devRef .tc main_v63))) := by
  have h : StableHlo.after hostOps4 V (Proc.devRef .tc main_v76)
      = shapeCast S8192x256 (shapeCast S32x256x256 (extractStridedSlice S32x256x1x256 ![0, 0, 1, 0]
          (shapeCast S32x256x2x256 (extractStridedSlice S32x512x256 ![0, 511, 0] (StableHlo.after hostOps4 V (Proc.devRef .tc main_v63))
            slices_S32x4095x256_S32x512x256_0_511_0) shapeCasts_S32x512x256_S32x256x2x256) slices_S32x256x2x256_S32x256x1x256_0_0_1_0) shapeCasts_S32x256x1x256_S32x256x256) shapeCasts_S32x256x256_S8192x256 := by
    dsimp only [hostOps4]
    after_results
    rfl
  rw [h]
  exact child_read 1 (by decide) _ _ _ _ _ _ rfl rfl (by decide)

set_option maxHeartbeats 2000000 in
/-- The rows of the level's left children's cell states. -/
theorem g4_lc : cur2 (StableHlo.after hostOps4 V (Proc.devRef .tc main_v79))
    = gatherChild 256 511 0 (cur3 (StableHlo.after hostOps4 V (Proc.devRef .tc main_v66))) := by
  have h : StableHlo.after hostOps4 V (Proc.devRef .tc main_v79)
      = shapeCast S8192x256 (shapeCast S32x256x256 (extractStridedSlice S32x256x1x256 ![0, 0, 0, 0]
          (shapeCast S32x256x2x256 (extractStridedSlice S32x512x256 ![0, 511, 0] (StableHlo.after hostOps4 V (Proc.devRef .tc main_v66))
            slices_S32x4095x256_S32x512x256_0_511_0) shapeCasts_S32x512x256_S32x256x2x256) slices_S32x256x2x256_S32x256x1x256_0_0_0_0) shapeCasts_S32x256x1x256_S32x256x256) shapeCasts_S32x256x256_S8192x256 := by
    dsimp only [hostOps4]
    after_results
    rfl
  rw [h]
  exact child_read 0 (by decide) _ _ _ _ _ _ rfl rfl (by decide)

set_option maxHeartbeats 2000000 in
/-- The rows of the level's right children's cell states. -/
theorem g4_rc : cur2 (StableHlo.after hostOps4 V (Proc.devRef .tc main_v82))
    = gatherChild 256 511 1 (cur3 (StableHlo.after hostOps4 V (Proc.devRef .tc main_v66))) := by
  have h : StableHlo.after hostOps4 V (Proc.devRef .tc main_v82)
      = shapeCast S8192x256 (shapeCast S32x256x256 (extractStridedSlice S32x256x1x256 ![0, 0, 1, 0]
          (shapeCast S32x256x2x256 (extractStridedSlice S32x512x256 ![0, 511, 0] (StableHlo.after hostOps4 V (Proc.devRef .tc main_v66))
            slices_S32x4095x256_S32x512x256_0_511_0) shapeCasts_S32x512x256_S32x256x2x256) slices_S32x256x2x256_S32x256x1x256_0_0_1_0) shapeCasts_S32x256x1x256_S32x256x256) shapeCasts_S32x256x256_S8192x256 := by
    dsimp only [hostOps4]
    after_results
    rfl
  rw [h]
  exact child_read 1 (by decide) _ _ _ _ _ _ rfl rfl (by decide)

set_option maxHeartbeats 2000000 in
/-- The level's own rows of the input projection. -/
theorem g4_x : cur2 (StableHlo.after hostOps4 V (Proc.devRef .tc main_v84)) = gatherRows 256 255 (cur3 (V (Proc.devRef .tc main_v5))) := by
  have h : StableHlo.after hostOps4 V (Proc.devRef .tc main_v84)
      = shapeCast S8192x1280 (extractStridedSlice S32x256x1280 ![0, 255, 0] (V (Proc.devRef .tc main_v5)) slices_S32x4095x1280_S32x256x1280_0_255_0) shapeCasts_S32x256x1280_S8192x1280 := by
    dsimp only [hostOps4]
    after_results
    rfl
  rw [h]
  exact rows_read _ _ _ rfl (by decide)

end Cert.KernelIdeal.KValue

end
-- ==== Proof.KStage2.lean ====
/-
  Stage 2 of the run: the kernel of level 9 (nodes 511 … 1022) and the host operations around it take the
  hidden- and cell-state arrays of stage 1 to those of stage 2.
-/
import proofs.«102109_j83099027243631_1_alg».proof.Proof.KStage0
import proofs.«102109_j83099027243631_1_alg».proof.Proof.KGlue3
import proofs.«102109_j83099027243631_1_alg».proof.Proof.KGlue4

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step2 (R : RegionFacts)
    (ihH : cur3 (W7 m ρ c (Proc.devRef .tc main_v38)) = (aStage m c 1).1) (ihC : cur3 (W7 m ρ c (Proc.devRef .tc main_v41)) = (aStage m c 1).2) :
    cur3 (W9 m ρ c (Proc.devRef .tc main_v63)) = (aStage m c 2).1 ∧ cur3 (W9 m ρ c (Proc.devRef .tc main_v66)) = (aStage m c 2).2 := by
  -- the kernel's input arrays at its entry
  have eX : cur2 (W7 m ρ c (Proc.devRef .tc main_v59)) = gatherRows 512 511 (aX m c) :=
    (g3_x (W6 m ρ c)).trans (congrArg (gatherRows 512 511) ((congrArg cur3 (carry_main_v5_6 m ρ c)).trans (x3_3 m ρ c R)))
  have eLH : cur2 (W7 m ρ c (Proc.devRef .tc main_v48)) = gatherChild 512 1023 0 (aStage m c 1).1 :=
    (g3_lh (W6 m ρ c)).trans (congrArg (gatherChild 512 1023 0) ihH)
  have eRH : cur2 (W7 m ρ c (Proc.devRef .tc main_v51)) = gatherChild 512 1023 1 (aStage m c 1).1 :=
    (g3_rh (W6 m ρ c)).trans (congrArg (gatherChild 512 1023 1) ihH)
  have eLC : cur2 (W7 m ρ c (Proc.devRef .tc main_v54)) = gatherChild 512 1023 0 (aStage m c 1).2 :=
    (g3_lc (W6 m ρ c)).trans (congrArg (gatherChild 512 1023 0) ihC)
  have eRC : cur2 (W7 m ρ c (Proc.devRef .tc main_v57)) = gatherChild 512 1023 1 (aStage m c 1).2 :=
    (g3_rc (W6 m ρ c)).trans (congrArg (gatherChild 512 1023 1) ihC)
  have eWl : cur2 (W7 m ρ c (Proc.devRef .tc main_v1)) = fun k g => aWl m c g k :=
    (congrArg cur2 (carry_main_v1_7 m ρ c)).trans (wlT_1 m ρ c)
  have eWr : cur2 (W7 m ρ c (Proc.devRef .tc main_v2)) = fun k g => aWr m c g k :=
    (congrArg cur2 (carry_main_v2_7 m ρ c)).trans (wrT_1 m ρ c)
  have eBl : cur1 (W7 m ρ c (Proc.devRef .tc main_arg5)) = aBl m c := congrArg cur1 (carry_main_arg5_7 m ρ c)
  have eBr : cur1 (W7 m ρ c (Proc.devRef .tc main_arg6)) = aBr m c := congrArg cur1 (carry_main_arg6_7 m ρ c)
  -- what the kernel leaves
  have oH : cur2 (W8 m ρ c (Proc.devRef .tc main_v60_0)) = rowH (rowPre (M := 16384) (gatherRows 512 511 (aX m c)) (gatherChild 512 1023 0 (aStage m c 1).1) (gatherChild 512 1023 1 (aStage m c 1).1)
        (fun k g => aWl m c g k) (fun k g => aWr m c g k) (aBl m c) (aBr m c))
        (gatherChild 512 1023 0 (aStage m c 1).2) (gatherChild 512 1023 1 (aStage m c 1).2) :=
    (congrArg cur2 ((show W8 m ρ c (Proc.devRef .tc main_v60_0) = _ from W8_arr m ρ c 9).trans (R.r3h (V7 m ρ) c))).trans
      (rowH_cur2_congr eX eLH eRH eWl eWr eBl eBr eLC eRC)
  have oC : cur2 (W8 m ρ c (Proc.devRef .tc main_v60_1)) = rowC (rowPre (M := 16384) (gatherRows 512 511 (aX m c)) (gatherChild 512 1023 0 (aStage m c 1).1) (gatherChild 512 1023 1 (aStage m c 1).1)
        (fun k g => aWl m c g k) (fun k g => aWr m c g k) (aBl m c) (aBr m c))
        (gatherChild 512 1023 0 (aStage m c 1).2) (gatherChild 512 1023 1 (aStage m c 1).2) :=
    (congrArg cur2 ((show W8 m ρ c (Proc.devRef .tc main_v60_1) = _ from W8_arr m ρ c 10).trans (R.r3c (V7 m ρ) c))).trans
      (rowC_cur2_congr eX eLH eRH eWl eWr eBl eBr eLC eRC)
  have kH : cur3 (W8 m ρ c (Proc.devRef .tc main_v38)) = (aStage m c 1).1 :=
    (congrArg cur3 (W8_of_ne m ρ c main_v38 (by decide))).trans ihH
  have kC : cur3 (W8 m ρ c (Proc.devRef .tc main_v41)) = (aStage m c 1).2 :=
    (congrArg cur3 (W8_of_ne m ρ c main_v41 (by decide))).trans ihC
  have hl := level_rows (M := 16384) (n := 512) (s := 511) rfl (by decide) (by decide) (aX m c) (aStage m c 1).1 (aStage m c 1).2
    (aWl m c) (aWr m c) (fun k g => aWl m c g k) (fun k g => aWr m c g k) (aBl m c) (aBr m c) (fun _ _ => rfl) (fun _ _ => rfl)
  constructor
  · exact (g4_H (W8 m ρ c)).trans ((setRows_unrow_congr oH kH).trans hl.1)
  · exact (g4_C (W8 m ρ c)).trans ((setRows_unrow_congr oC kC).trans hl.2)

end Cert.KernelIdeal.KValue

end
-- ==== Proof.KGlue5.lean ====
/-
  The host operations before the kernel of level 7 (nodes 127 … 254), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 255 … of the array before it. -/
theorem g5_H : cur3 (StableHlo.after hostOps5 V (Proc.devRef .tc main_v88))
    = setRows 255 256 (unrow 256 255 (cur2 (V (Proc.devRef .tc main_v85_0)))) (cur3 (V (Proc.devRef .tc main_v63))) := by
  have h : StableHlo.after hostOps5 V (Proc.devRef .tc main_v88)
      = Host.scatter scatter_S32x4095x256_S1_S32x256x256_012_n_1_0 (fun _ b => b) (V (Proc.devRef .tc main_v63))
          (broadcastInDim S1 ![] bcast_S_S1 (constantI S_ 32 255#32))
          (shapeCast S32x256x256 (V (Proc.devRef .tc main_v85_0)) shapeCasts_S8192x256_S32x256x256) := by
    dsimp only [hostOps5]
    after_results
    rfl
  rw [h]
  exact rows_write scatter_S32x4095x256_S1_S32x256x256_012_n_1_0 rfl rfl rfl rfl _ _ (fun _ => show (255#32 : BitVec 32).toInt = ((255 : ℕ) : Int) from by decide) _ _ rfl (by decide)

set_option maxHeartbeats 2000000 in
/-- The cell states after the stretch: the previous level's rows written over the nodes 255 … of the array before it. -/
theorem g5_C : cur3 (StableHlo.after hostOps5 V (Proc.devRef .tc main_v91))
    = setRows 255 256 (unrow 256 255 (cur2 (V (Proc.devRef .tc main_v85_1)))) (cur3 (V (Proc.devRef .tc main_v66))) := by
  have h : StableHlo.after hostOps5 V (Proc.devRef .tc main_v91)
      = Host.scatter scatter_S32x4095x256_S1_S32x256x256_012_n_1_0 (fun _ b => b) (V (Proc.devRef .tc main_v66))
          (broadcastInDim S1 ![] bcast_S_S1 (constantI S_ 32 255#32))
          (shapeCast S32x256x256 (V (Proc.devRef .tc main_v85_1)) shapeCasts_S8192x256_S32x256x256) := by
    dsimp only [hostOps5]
    after_results
    rfl
  rw [h]
  exact rows_write scatter_S32x4095x256_S1_S32x256x256_012_n_1_0 rfl rfl rfl rfl _ _ (fun _ => show (255#32 : BitVec 32).toInt = ((255 : ℕ) : Int) from by decide) _ _ rfl (by decide)

set_option maxHeartbeats 2000000 in
/-- The rows of the level's left children's hidden states. -/
theorem g5_lh : cur2 (StableHlo.after hostOps5 V (Proc.devRef .tc main_v98))
    = gatherChild 128 255 0 (cur3 (StableHlo.after hostOps5 V (Proc.devRef .tc main_v88))) := by
  have h : StableHlo.after hostOps5 V (Proc.devRef .tc main_v98)
      = shapeCast S4096x256 (shapeCast S32x128x256 (extractStridedSlice S32x128x1x256 ![0, 0, 0, 0]
          (shapeCast S32x128x2x256 (extractStridedSlice S32x256x256 ![0, 255, 0] (StableHlo.after hostOps5 V (Proc.devRef .tc main_v88))
            slices_S32x4095x256_S32x256x256_0_255_0) shapeCasts_S32x256x256_S32x128x2x256) slices_S32x128x2x256_S32x128x1x256_0_0_0_0) shapeCasts_S32x128x1x256_S32x128x256) shapeCasts_S32x128x256_S4096x256 := by
    dsimp only [hostOps5]
    after_results
    rfl
  rw [h]
  exact child_read 0 (by decide) _ _ _ _ _ _ rfl rfl (by decide)

set_option maxHeartbeats 2000000 in
/-- The rows of the level's right children's hidden states. -/
theorem g5_rh : cur2 (StableHlo.after hostOps5 V (Proc.devRef .tc main_v101))
    = gatherChild 128 255 1 (cur3 (StableHlo.after hostOps5 V (Proc.devRef .tc main_v88))) := by
  have h : StableHlo.after hostOps5 V (Proc.devRef .tc main_v101)
      = shapeCast S4096x256 (shapeCast S32x128x256 (extractStridedSlice S32x128x1x256 ![0, 0, 1, 0]
          (shapeCast S32x128x2x256 (extractStridedSlice S32x256x256 ![0, 255, 0] (StableHlo.after hostOps5 V (Proc.devRef .tc main_v88))
            slices_S32x4095x256_S32x256x256_0_255_0) shapeCasts_S32x256x256_S32x128x2x256) slices_S32x128x2x256_S32x128x1x256_0_0_1_0) shapeCasts_S32x128x1x256_S32x128x256) shapeCasts_S32x128x256_S4096x256 := by
    dsimp only [hostOps5]
    after_results
    rfl
  rw [h]
  exact child_read 1 (by decide) _ _ _ _ _ _ rfl rfl (by decide)

set_option maxHeartbeats 2000000 in
/-- The rows of the level's left children's cell states. -/
theorem g5_lc : cur2 (StableHlo.after hostOps5 V (Proc.devRef .tc main_v104))
    = gatherChild 128 255 0 (cur3 (StableHlo.after hostOps5 V (Proc.devRef .tc main_v91))) := by
  have h : StableHlo.after hostOps5 V (Proc.devRef .tc main_v104)
      = shapeCast S4096x256 (shapeCast S32x128x256 (extractStridedSlice S32x128x1x256 ![0, 0, 0, 0]
          (shapeCast S32x128x2x256 (extractStridedSlice S32x256x256 ![0, 255, 0] (StableHlo.after hostOps5 V (Proc.devRef .tc main_v91))
            slices_S32x4095x256_S32x256x256_0_255_0) shapeCasts_S32x256x256_S32x128x2x256) slices_S32x128x2x256_S32x128x1x256_0_0_0_0) shapeCasts_S32x128x1x256_S32x128x256) shapeCasts_S32x128x256_S4096x256 := by
    dsimp only [hostOps5]
    after_results
    rfl
  rw [h]
  exact child_read 0 (by decide) _ _ _ _ _ _ rfl rfl (by decide)

set_option maxHeartbeats 2000000 in
/-- The rows of the level's right children's cell states. -/
theorem g5_rc : cur2 (StableHlo.after hostOps5 V (Proc.devRef .tc main_v107))
    = gatherChild 128 255 1 (cur3 (StableHlo.after hostOps5 V (Proc.devRef .tc main_v91))) := by
  have h : StableHlo.after hostOps5 V (Proc.devRef .tc main_v107)
      = shapeCast S4096x256 (shapeCast S32x128x256 (extractStridedSlice S32x128x1x256 ![0, 0, 1, 0]
          (shapeCast S32x128x2x256 (extractStridedSlice S32x256x256 ![0, 255, 0] (StableHlo.after hostOps5 V (Proc.devRef .tc main_v91))
            slices_S32x4095x256_S32x256x256_0_255_0) shapeCasts_S32x256x256_S32x128x2x256) slices_S32x128x2x256_S32x128x1x256_0_0_1_0) shapeCasts_S32x128x1x256_S32x128x256) shapeCasts_S32x128x256_S4096x256 := by
    dsimp only [hostOps5]
    after_results
    rfl
  rw [h]
  exact child_read 1 (by decide) _ _ _ _ _ _ rfl rfl (by decide)

set_option maxHeartbeats 2000000 in
/-- The level's own rows of the input projection. -/
theorem g5_x : cur2 (StableHlo.after hostOps5 V (Proc.devRef .tc main_v109)) = gatherRows 128 127 (cur3 (V (Proc.devRef .tc main_v5))) := by
  have h : StableHlo.after hostOps5 V (Proc.devRef .tc main_v109)
      = shapeCast S4096x1280 (extractStridedSlice S32x128x1280 ![0, 127, 0] (V (Proc.devRef .tc main_v5)) slices_S32x4095x1280_S32x128x1280_0_127_0) shapeCasts_S32x128x1280_S4096x1280 := by
    dsimp only [hostOps5]
    after_results
    rfl
  rw [h]
  exact rows_read _ _ _ rfl (by decide)

end Cert.KernelIdeal.KValue

end
-- ==== Proof.KStage3.lean ====
/-
  Stage 3 of the run: the kernel of level 8 (nodes 255 … 510) and the host operations around it take the
  hidden- and cell-state arrays of stage 2 to those of stage 3.
-/
import proofs.«102109_j83099027243631_1_alg».proof.Proof.KStage0
import proofs.«102109_j83099027243631_1_alg».proof.Proof.KGlue4
import proofs.«102109_j83099027243631_1_alg».proof.Proof.KGlue5

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step3 (R : RegionFacts)
    (ihH : cur3 (W9 m ρ c (Proc.devRef .tc main_v63)) = (aStage m c 2).1) (ihC : cur3 (W9 m ρ c (Proc.devRef .tc main_v66)) = (aStage m c 2).2) :
    cur3 (W11 m ρ c (Proc.devRef .tc main_v88)) = (aStage m c 3).1 ∧ cur3 (W11 m ρ c (Proc.devRef .tc main_v91)) = (aStage m c 3).2 := by
  -- the kernel's input arrays at its entry
  have eX : cur2 (W9 m ρ c (Proc.devRef .tc main_v84)) = gatherRows 256 255 (aX m c) :=
    (g4_x (W8 m ρ c)).trans (congrArg (gatherRows 256 255) ((congrArg cur3 (carry_main_v5_8 m ρ c)).trans (x3_3 m ρ c R)))
  have eLH : cur2 (W9 m ρ c (Proc.devRef .tc main_v73)) = gatherChild 256 511 0 (aStage m c 2).1 :=
    (g4_lh (W8 m ρ c)).trans (congrArg (gatherChild 256 511 0) ihH)
  have eRH : cur2 (W9 m ρ c (Proc.devRef .tc main_v76)) = gatherChild 256 511 1 (aStage m c 2).1 :=
    (g4_rh (W8 m ρ c)).trans (congrArg (gatherChild 256 511 1) ihH)
  have eLC : cur2 (W9 m ρ c (Proc.devRef .tc main_v79)) = gatherChild 256 511 0 (aStage m c 2).2 :=
    (g4_lc (W8 m ρ c)).trans (congrArg (gatherChild 256 511 0) ihC)
  have eRC : cur2 (W9 m ρ c (Proc.devRef .tc main_v82)) = gatherChild 256 511 1 (aStage m c 2).2 :=
    (g4_rc (W8 m ρ c)).trans (congrArg (gatherChild 256 511 1) ihC)
  have eWl : cur2 (W9 m ρ c (Proc.devRef .tc main_v1)) = fun k g => aWl m c g k :=
    (congrArg cur2 (carry_main_v1_9 m ρ c)).trans (wlT_1 m ρ c)
  have eWr : cur2 (W9 m ρ c (Proc.devRef .tc main_v2)) = fun k g => aWr m c g k :=
    (congrArg cur2 (carry_main_v2_9 m ρ c)).trans (wrT_1 m ρ c)
  have eBl : cur1 (W9 m ρ c (Proc.devRef .tc main_arg5)) = aBl m c := congrArg cur1 (carry_main_arg5_9 m ρ c)
  have eBr : cur1 (W9 m ρ c (Proc.devRef .tc main_arg6)) = aBr m c := congrArg cur1 (carry_main_arg6_9 m ρ c)
  -- what the kernel leaves
  have oH : cur2 (W10 m ρ c (Proc.devRef .tc main_v85_0)) = rowH (rowPre (M := 8192) (gatherRows 256 255 (aX m c)) (gatherChild 256 511 0 (aStage m c 2).1) (gatherChild 256 511 1 (aStage m c 2).1)
        (fun k g => aWl m c g k) (fun k g => aWr m c g k) (aBl m c) (aBr m c))
        (gatherChild 256 511 0 (aStage m c 2).2) (gatherChild 256 511 1 (aStage m c 2).2) :=
    (congrArg cur2 ((show W10 m ρ c (Proc.devRef .tc main_v85_0) = _ from W10_arr m ρ c 9).trans (R.r4h (V9 m ρ) c))).trans
      (rowH_cur2_congr eX eLH eRH eWl eWr eBl eBr eLC eRC)
  have oC : cur2 (W10 m ρ c (Proc.devRef .tc main_v85_1)) = rowC (rowPre (M := 8192) (gatherRows 256 255 (aX m c)) (gatherChild 256 511 0 (aStage m c 2).1) (gatherChild 256 511 1 (aStage m c 2).1)
        (fun k g => aWl m c g k) (fun k g => aWr m c g k) (aBl m c) (aBr m c))
        (gatherChild 256 511 0 (aStage m c 2).2) (gatherChild 256 511 1 (aStage m c 2).2) :=
    (congrArg cur2 ((show W10 m ρ c (Proc.devRef .tc main_v85_1) = _ from W10_arr m ρ c 10).trans (R.r4c (V9 m ρ) c))).trans
      (rowC_cur2_congr eX eLH eRH eWl eWr eBl eBr eLC eRC)
  have kH : cur3 (W10 m ρ c (Proc.devRef .tc main_v63)) = (aStage m c 2).1 :=
    (congrArg cur3 (W10_of_ne m ρ c main_v63 (by decide))).trans ihH
  have kC : cur3 (W10 m ρ c (Proc.devRef .tc main_v66)) = (aStage m c 2).2 :=
    (congrArg cur3 (W10_of_ne m ρ c main_v66 (by decide))).trans ihC
  have hl := level_rows (M := 8192) (n := 256) (s := 255) rfl (by decide) (by decide) (aX m c) (aStage m c 2).1 (aStage m c 2).2
    (aWl m c) (aWr m c) (fun k g => aWl m c g k) (fun k g => aWr m c g k) (aBl m c) (aBr m c) (fun _ _ => rfl) (fun _ _ => rfl)
  constructor
  · exact (g5_H (W10 m ρ c)).trans ((setRows_unrow_congr oH kH).trans hl.1)
  · exact (g5_C (W10 m ρ c)).trans ((setRows_unrow_congr oC kC).trans hl.2)

end Cert.KernelIdeal.KValue

end
-- ==== Proof.KGlue6.lean ====
/-
  The host operations before the kernel of level 6 (nodes 63 … 126), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 127 … of the array before it. -/
theorem g6_H : cur3 (StableHlo.after hostOps6 V (Proc.devRef .tc main_v113))
    = setRows 127 128 (unrow 128 127 (cur2 (V (Proc.devRef .tc main_v110_0)))) (cur3 (V (Proc.devRef .tc main_v88))) := by
  have h : StableHlo.after hostOps6 V (Proc.devRef .tc main_v113)
      = Host.scatter scatter_S32x4095x256_S1_S32x128x256_012_n_1_0 (fun _ b => b) (V (Proc.devRef .tc main_v88))
          (broadcastInDim S1 ![] bcast_S_S1 (constantI S_ 32 127#32))
          (shapeCast S32x128x256 (V (Proc.devRef .tc main_v110_0)) shapeCasts_S4096x256_S32x128x256) := by
    dsimp only [hostOps6]
    after_results
    rfl
  rw [h]
  exact rows_write scatter_S32x4095x256_S1_S32x128x256_012_n_1_0 rfl rfl rfl rfl _ _ (fun _ => show (127#32 : BitVec 32).toInt = ((127 : ℕ) : Int) from by decide) _ _ rfl (by decide)

set_option maxHeartbeats 2000000 in
/-- The cell states after the stretch: the previous level's rows written over the nodes 127 … of the array before it. -/
theorem g6_C : cur3 (StableHlo.after hostOps6 V (Proc.devRef .tc main_v116))
    = setRows 127 128 (unrow 128 127 (cur2 (V (Proc.devRef .tc main_v110_1)))) (cur3 (V (Proc.devRef .tc main_v91))) := by
  have h : StableHlo.after hostOps6 V (Proc.devRef .tc main_v116)
      = Host.scatter scatter_S32x4095x256_S1_S32x128x256_012_n_1_0 (fun _ b => b) (V (Proc.devRef .tc main_v91))
          (broadcastInDim S1 ![] bcast_S_S1 (constantI S_ 32 127#32))
          (shapeCast S32x128x256 (V (Proc.devRef .tc main_v110_1)) shapeCasts_S4096x256_S32x128x256) := by
    dsimp only [hostOps6]
    after_results
    rfl
  rw [h]
  exact rows_write scatter_S32x4095x256_S1_S32x128x256_012_n_1_0 rfl rfl rfl rfl _ _ (fun _ => show (127#32 : BitVec 32).toInt = ((127 : ℕ) : Int) from by decide) _ _ rfl (by decide)

set_option maxHeartbeats 2000000 in
/-- The rows of the level's left children's hidden states. -/
theorem g6_lh : cur2 (StableHlo.after hostOps6 V (Proc.devRef .tc main_v123))
    = gatherChild 64 127 0 (cur3 (StableHlo.after hostOps6 V (Proc.devRef .tc main_v113))) := by
  have h : StableHlo.after hostOps6 V (Proc.devRef .tc main_v123)
      = shapeCast S2048x256 (shapeCast S32x64x256 (extractStridedSlice S32x64x1x256 ![0, 0, 0, 0]
          (shapeCast S32x64x2x256 (extractStridedSlice S32x128x256 ![0, 127, 0] (StableHlo.after hostOps6 V (Proc.devRef .tc main_v113))
            slices_S32x4095x256_S32x128x256_0_127_0) shapeCasts_S32x128x256_S32x64x2x256) slices_S32x64x2x256_S32x64x1x256_0_0_0_0) shapeCasts_S32x64x1x256_S32x64x256) shapeCasts_S32x64x256_S2048x256 := by
    dsimp only [hostOps6]
    after_results
    rfl
  rw [h]
  exact child_read 0 (by decide) _ _ _ _ _ _ rfl rfl (by decide)

set_option maxHeartbeats 2000000 in
/-- The rows of the level's right children's hidden states. -/
theorem g6_rh : cur2 (StableHlo.after hostOps6 V (Proc.devRef .tc main_v126))
    = gatherChild 64 127 1 (cur3 (StableHlo.after hostOps6 V (Proc.devRef .tc main_v113))) := by
  have h : StableHlo.after hostOps6 V (Proc.devRef .tc main_v126)
      = shapeCast S2048x256 (shapeCast S32x64x256 (extractStridedSlice S32x64x1x256 ![0, 0, 1, 0]
          (shapeCast S32x64x2x256 (extractStridedSlice S32x128x256 ![0, 127, 0] (StableHlo.after hostOps6 V (Proc.devRef .tc main_v113))
            slices_S32x4095x256_S32x128x256_0_127_0) shapeCasts_S32x128x256_S32x64x2x256) slices_S32x64x2x256_S32x64x1x256_0_0_1_0) shapeCasts_S32x64x1x256_S32x64x256) shapeCasts_S32x64x256_S2048x256 := by
    dsimp only [hostOps6]
    after_results
    rfl
  rw [h]
  exact child_read 1 (by decide) _ _ _ _ _ _ rfl rfl (by decide)

set_option maxHeartbeats 2000000 in
/-- The rows of the level's left children's cell states. -/
theorem g6_lc : cur2 (StableHlo.after hostOps6 V (Proc.devRef .tc main_v129))
    = gatherChild 64 127 0 (cur3 (StableHlo.after hostOps6 V (Proc.devRef .tc main_v116))) := by
  have h : StableHlo.after hostOps6 V (Proc.devRef .tc main_v129)
      = shapeCast S2048x256 (shapeCast S32x64x256 (extractStridedSlice S32x64x1x256 ![0, 0, 0, 0]
          (shapeCast S32x64x2x256 (extractStridedSlice S32x128x256 ![0, 127, 0] (StableHlo.after hostOps6 V (Proc.devRef .tc main_v116))
            slices_S32x4095x256_S32x128x256_0_127_0) shapeCasts_S32x128x256_S32x64x2x256) slices_S32x64x2x256_S32x64x1x256_0_0_0_0) shapeCasts_S32x64x1x256_S32x64x256) shapeCasts_S32x64x256_S2048x256 := by
    dsimp only [hostOps6]
    after_results
    rfl
  rw [h]
  exact child_read 0 (by decide) _ _ _ _ _ _ rfl rfl (by decide)

set_option maxHeartbeats 2000000 in
/-- The rows of the level's right children's cell states. -/
theorem g6_rc : cur2 (StableHlo.after hostOps6 V (Proc.devRef .tc main_v132))
    = gatherChild 64 127 1 (cur3 (StableHlo.after hostOps6 V (Proc.devRef .tc main_v116))) := by
  have h : StableHlo.after hostOps6 V (Proc.devRef .tc main_v132)
      = shapeCast S2048x256 (shapeCast S32x64x256 (extractStridedSlice S32x64x1x256 ![0, 0, 1, 0]
          (shapeCast S32x64x2x256 (extractStridedSlice S32x128x256 ![0, 127, 0] (StableHlo.after hostOps6 V (Proc.devRef .tc main_v116))
            slices_S32x4095x256_S32x128x256_0_127_0) shapeCasts_S32x128x256_S32x64x2x256) slices_S32x64x2x256_S32x64x1x256_0_0_1_0) shapeCasts_S32x64x1x256_S32x64x256) shapeCasts_S32x64x256_S2048x256 := by
    dsimp only [hostOps6]
    after_results
    rfl
  rw [h]
  exact child_read 1 (by decide) _ _ _ _ _ _ rfl rfl (by decide)

set_option maxHeartbeats 2000000 in
/-- The level's own rows of the input projection. -/
theorem g6_x : cur2 (StableHlo.after hostOps6 V (Proc.devRef .tc main_v134)) = gatherRows 64 63 (cur3 (V (Proc.devRef .tc main_v5))) := by
  have h : StableHlo.after hostOps6 V (Proc.devRef .tc main_v134)
      = shapeCast S2048x1280 (extractStridedSlice S32x64x1280 ![0, 63, 0] (V (Proc.devRef .tc main_v5)) slices_S32x4095x1280_S32x64x1280_0_63_0) shapeCasts_S32x64x1280_S2048x1280 := by
    dsimp only [hostOps6]
    after_results
    rfl
  rw [h]
  exact rows_read _ _ _ rfl (by decide)

end Cert.KernelIdeal.KValue

end
-- ==== Proof.KStage4.lean ====
/-
  Stage 4 of the run: the kernel of level 7 (nodes 127 … 254) and the host operations around it take the
  hidden- and cell-state arrays of stage 3 to those of stage 4.
-/
import proofs.«102109_j83099027243631_1_alg».proof.Proof.KStage0
import proofs.«102109_j83099027243631_1_alg».proof.Proof.KGlue5
import proofs.«102109_j83099027243631_1_alg».proof.Proof.KGlue6

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step4 (R : RegionFacts)
    (ihH : cur3 (W11 m ρ c (Proc.devRef .tc main_v88)) = (aStage m c 3).1) (ihC : cur3 (W11 m ρ c (Proc.devRef .tc main_v91)) = (aStage m c 3).2) :
    cur3 (W13 m ρ c (Proc.devRef .tc main_v113)) = (aStage m c 4).1 ∧ cur3 (W13 m ρ c (Proc.devRef .tc main_v116)) = (aStage m c 4).2 := by
  -- the kernel's input arrays at its entry
  have eX : cur2 (W11 m ρ c (Proc.devRef .tc main_v109)) = gatherRows 128 127 (aX m c) :=
    (g5_x (W10 m ρ c)).trans (congrArg (gatherRows 128 127) ((congrArg cur3 (carry_main_v5_10 m ρ c)).trans (x3_3 m ρ c R)))
  have eLH : cur2 (W11 m ρ c (Proc.devRef .tc main_v98)) = gatherChild 128 255 0 (aStage m c 3).1 :=
    (g5_lh (W10 m ρ c)).trans (congrArg (gatherChild 128 255 0) ihH)
  have eRH : cur2 (W11 m ρ c (Proc.devRef .tc main_v101)) = gatherChild 128 255 1 (aStage m c 3).1 :=
    (g5_rh (W10 m ρ c)).trans (congrArg (gatherChild 128 255 1) ihH)
  have eLC : cur2 (W11 m ρ c (Proc.devRef .tc main_v104)) = gatherChild 128 255 0 (aStage m c 3).2 :=
    (g5_lc (W10 m ρ c)).trans (congrArg (gatherChild 128 255 0) ihC)
  have eRC : cur2 (W11 m ρ c (Proc.devRef .tc main_v107)) = gatherChild 128 255 1 (aStage m c 3).2 :=
    (g5_rc (W10 m ρ c)).trans (congrArg (gatherChild 128 255 1) ihC)
  have eWl : cur2 (W11 m ρ c (Proc.devRef .tc main_v1)) = fun k g => aWl m c g k :=
    (congrArg cur2 (carry_main_v1_11 m ρ c)).trans (wlT_1 m ρ c)
  have eWr : cur2 (W11 m ρ c (Proc.devRef .tc main_v2)) = fun k g => aWr m c g k :=
    (congrArg cur2 (carry_main_v2_11 m ρ c)).trans (wrT_1 m ρ c)
  have eBl : cur1 (W11 m ρ c (Proc.devRef .tc main_arg5)) = aBl m c := congrArg cur1 (carry_main_arg5_11 m ρ c)
  have eBr : cur1 (W11 m ρ c (Proc.devRef .tc main_arg6)) = aBr m c := congrArg cur1 (carry_main_arg6_11 m ρ c)
  -- what the kernel leaves
  have oH : cur2 (W12 m ρ c (Proc.devRef .tc main_v110_0)) = rowH (rowPre (M := 4096) (gatherRows 128 127 (aX m c)) (gatherChild 128 255 0 (aStage m c 3).1) (gatherChild 128 255 1 (aStage m c 3).1)
        (fun k g => aWl m c g k) (fun k g => aWr m c g k) (aBl m c) (aBr m c))
        (gatherChild 128 255 0 (aStage m c 3).2) (gatherChild 128 255 1 (aStage m c 3).2) :=
    (congrArg cur2 ((show W12 m ρ c (Proc.devRef .tc main_v110_0) = _ from W12_arr m ρ c 9).trans (R.r5h (V11 m ρ) c))).trans
      (rowH_cur2_congr eX eLH eRH eWl eWr eBl eBr eLC eRC)
  have oC : cur2 (W12 m ρ c (Proc.devRef .tc main_v110_1)) = rowC (rowPre (M := 4096) (gatherRows 128 127 (aX m c)) (gatherChild 128 255 0 (aStage m c 3).1) (gatherChild 128 255 1 (aStage m c 3).1)
        (fun k g => aWl m c g k) (fun k g => aWr m c g k) (aBl m c) (aBr m c))
        (gatherChild 128 255 0 (aStage m c 3).2) (gatherChild 128 255 1 (aStage m c 3).2) :=
    (congrArg cur2 ((show W12 m ρ c (Proc.devRef .tc main_v110_1) = _ from W12_arr m ρ c 10).trans (R.r5c (V11 m ρ) c))).trans
      (rowC_cur2_congr eX eLH eRH eWl eWr eBl eBr eLC eRC)
  have kH : cur3 (W12 m ρ c (Proc.devRef .tc main_v88)) = (aStage m c 3).1 :=
    (congrArg cur3 (W12_of_ne m ρ c main_v88 (by decide))).trans ihH
  have kC : cur3 (W12 m ρ c (Proc.devRef .tc main_v91)) = (aStage m c 3).2 :=
    (congrArg cur3 (W12_of_ne m ρ c main_v91 (by decide))).trans ihC
  have hl := level_rows (M := 4096) (n := 128) (s := 127) rfl (by decide) (by decide) (aX m c) (aStage m c 3).1 (aStage m c 3).2
    (aWl m c) (aWr m c) (fun k g => aWl m c g k) (fun k g => aWr m c g k) (aBl m c) (aBr m c) (fun _ _ => rfl) (fun _ _ => rfl)
  constructor
  · exact (g6_H (W12 m ρ c)).trans ((setRows_unrow_congr oH kH).trans hl.1)
  · exact (g6_C (W12 m ρ c)).trans ((setRows_unrow_congr oC kC).trans hl.2)

end Cert.KernelIdeal.KValue

end
-- ==== Proof.KGlue7.lean ====
/-
  The host operations before the kernel of level 5 (nodes 31 … 62), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 63 … of the array before it. -/
theorem g7_H : cur3 (StableHlo.after hostOps7 V (Proc.devRef .tc main_v138))
    = setRows 63 64 (unrow 64 63 (cur2 (V (Proc.devRef .tc main_v135_0)))) (cur3 (V (Proc.devRef .tc main_v113))) := by
  have h : StableHlo.after hostOps7 V (Proc.devRef .tc main_v138)
      = Host.scatter scatter_S32x4095x256_S1_S32x64x256_012_n_1_0 (fun _ b => b) (V (Proc.devRef .tc main_v113))
          (broadcastInDim S1 ![] bcast_S_S1 (constantI S_ 32 63#32))
          (shapeCast S32x64x256 (V (Proc.devRef .tc main_v135_0)) shapeCasts_S2048x256_S32x64x256) := by
    dsimp only [hostOps7]
    after_results
    rfl
  rw [h]
  exact rows_write scatter_S32x4095x256_S1_S32x64x256_012_n_1_0 rfl rfl rfl rfl _ _ (fun _ => show (63#32 : BitVec 32).toInt = ((63 : ℕ) : Int) from by decide) _ _ rfl (by decide)

set_option maxHeartbeats 2000000 in
/-- The cell states after the stretch: the previous level's rows written over the nodes 63 … of the array before it. -/
theorem g7_C : cur3 (StableHlo.after hostOps7 V (Proc.devRef .tc main_v141))
    = setRows 63 64 (unrow 64 63 (cur2 (V (Proc.devRef .tc main_v135_1)))) (cur3 (V (Proc.devRef .tc main_v116))) := by
  have h : StableHlo.after hostOps7 V (Proc.devRef .tc main_v141)
      = Host.scatter scatter_S32x4095x256_S1_S32x64x256_012_n_1_0 (fun _ b => b) (V (Proc.devRef .tc main_v116))
          (broadcastInDim S1 ![] bcast_S_S1 (constantI S_ 32 63#32))
          (shapeCast S32x64x256 (V (Proc.devRef .tc main_v135_1)) shapeCasts_S2048x256_S32x64x256) := by
    dsimp only [hostOps7]
    after_results
    rfl
  rw [h]
  exact rows_write scatter_S32x4095x256_S1_S32x64x256_012_n_1_0 rfl rfl rfl rfl _ _ (fun _ => show (63#32 : BitVec 32).toInt = ((63 : ℕ) : Int) from by decide) _ _ rfl (by decide)

set_option maxHeartbeats 2000000 in
/-- The rows of the level's left children's hidden states. -/
theorem g7_lh : cur2 (StableHlo.after hostOps7 V (Proc.devRef .tc main_v148))
    = gatherChild 32 63 0 (cur3 (StableHlo.after hostOps7 V (Proc.devRef .tc main_v138))) := by
  have h : StableHlo.after hostOps7 V (Proc.devRef .tc main_v148)
      = shapeCast S1024x256 (shapeCast S32x32x256 (extractStridedSlice S32x32x1x256 ![0, 0, 0, 0]
          (shapeCast S32x32x2x256 (extractStridedSlice S32x64x256 ![0, 63, 0] (StableHlo.after hostOps7 V (Proc.devRef .tc main_v138))
            slices_S32x4095x256_S32x64x256_0_63_0) shapeCasts_S32x64x256_S32x32x2x256) slices_S32x32x2x256_S32x32x1x256_0_0_0_0) shapeCasts_S32x32x1x256_S32x32x256) shapeCasts_S32x32x256_S1024x256 := by
    dsimp only [hostOps7]
    after_results
    rfl
  rw [h]
  exact child_read 0 (by decide) _ _ _ _ _ _ rfl rfl (by decide)

set_option maxHeartbeats 2000000 in
/-- The rows of the level's right children's hidden states. -/
theorem g7_rh : cur2 (StableHlo.after hostOps7 V (Proc.devRef .tc main_v151))
    = gatherChild 32 63 1 (cur3 (StableHlo.after hostOps7 V (Proc.devRef .tc main_v138))) := by
  have h : StableHlo.after hostOps7 V (Proc.devRef .tc main_v151)
      = shapeCast S1024x256 (shapeCast S32x32x256 (extractStridedSlice S32x32x1x256 ![0, 0, 1, 0]
          (shapeCast S32x32x2x256 (extractStridedSlice S32x64x256 ![0, 63, 0] (StableHlo.after hostOps7 V (Proc.devRef .tc main_v138))
            slices_S32x4095x256_S32x64x256_0_63_0) shapeCasts_S32x64x256_S32x32x2x256) slices_S32x32x2x256_S32x32x1x256_0_0_1_0) shapeCasts_S32x32x1x256_S32x32x256) shapeCasts_S32x32x256_S1024x256 := by
    dsimp only [hostOps7]
    after_results
    rfl
  rw [h]
  exact child_read 1 (by decide) _ _ _ _ _ _ rfl rfl (by decide)

set_option maxHeartbeats 2000000 in
/-- The rows of the level's left children's cell states. -/
theorem g7_lc : cur2 (StableHlo.after hostOps7 V (Proc.devRef .tc main_v154))
    = gatherChild 32 63 0 (cur3 (StableHlo.after hostOps7 V (Proc.devRef .tc main_v141))) := by
  have h : StableHlo.after hostOps7 V (Proc.devRef .tc main_v154)
      = shapeCast S1024x256 (shapeCast S32x32x256 (extractStridedSlice S32x32x1x256 ![0, 0, 0, 0]
          (shapeCast S32x32x2x256 (extractStridedSlice S32x64x256 ![0, 63, 0] (StableHlo.after hostOps7 V (Proc.devRef .tc main_v141))
            slices_S32x4095x256_S32x64x256_0_63_0) shapeCasts_S32x64x256_S32x32x2x256) slices_S32x32x2x256_S32x32x1x256_0_0_0_0) shapeCasts_S32x32x1x256_S32x32x256) shapeCasts_S32x32x256_S1024x256 := by
    dsimp only [hostOps7]
    after_results
    rfl
  rw [h]
  exact child_read 0 (by decide) _ _ _ _ _ _ rfl rfl (by decide)

set_option maxHeartbeats 2000000 in
/-- The rows of the level's right children's cell states. -/
theorem g7_rc : cur2 (StableHlo.after hostOps7 V (Proc.devRef .tc main_v157))
    = gatherChild 32 63 1 (cur3 (StableHlo.after hostOps7 V (Proc.devRef .tc main_v141))) := by
  have h : StableHlo.after hostOps7 V (Proc.devRef .tc main_v157)
      = shapeCast S1024x256 (shapeCast S32x32x256 (extractStridedSlice S32x32x1x256 ![0, 0, 1, 0]
          (shapeCast S32x32x2x256 (extractStridedSlice S32x64x256 ![0, 63, 0] (StableHlo.after hostOps7 V (Proc.devRef .tc main_v141))
            slices_S32x4095x256_S32x64x256_0_63_0) shapeCasts_S32x64x256_S32x32x2x256) slices_S32x32x2x256_S32x32x1x256_0_0_1_0) shapeCasts_S32x32x1x256_S32x32x256) shapeCasts_S32x32x256_S1024x256 := by
    dsimp only [hostOps7]
    after_results
    rfl
  rw [h]
  exact child_read 1 (by decide) _ _ _ _ _ _ rfl rfl (by decide)

set_option maxHeartbeats 2000000 in
/-- The level's own rows of the input projection. -/
theorem g7_x : cur2 (StableHlo.after hostOps7 V (Proc.devRef .tc main_v159)) = gatherRows 32 31 (cur3 (V (Proc.devRef .tc main_v5))) := by
  have h : StableHlo.after hostOps7 V (Proc.devRef .tc main_v159)
      = shapeCast S1024x1280 (extractStridedSlice S32x32x1280 ![0, 31, 0] (V (Proc.devRef .tc main_v5)) slices_S32x4095x1280_S32x32x1280_0_31_0) shapeCasts_S32x32x1280_S1024x1280 := by
    dsimp only [hostOps7]
    after_results
    rfl
  rw [h]
  exact rows_read _ _ _ rfl (by decide)

end Cert.KernelIdeal.KValue

end
-- ==== Proof.KStage5.lean ====
/-
  Stage 5 of the run: the kernel of level 6 (nodes 63 … 126) and the host operations around it take the
  hidden- and cell-state arrays of stage 4 to those of stage 5.
-/
import proofs.«102109_j83099027243631_1_alg».proof.Proof.KStage0
import proofs.«102109_j83099027243631_1_alg».proof.Proof.KGlue6
import proofs.«102109_j83099027243631_1_alg».proof.Proof.KGlue7

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step5 (R : RegionFacts)
    (ihH : cur3 (W13 m ρ c (Proc.devRef .tc main_v113)) = (aStage m c 4).1) (ihC : cur3 (W13 m ρ c (Proc.devRef .tc main_v116)) = (aStage m c 4).2) :
    cur3 (W15 m ρ c (Proc.devRef .tc main_v138)) = (aStage m c 5).1 ∧ cur3 (W15 m ρ c (Proc.devRef .tc main_v141)) = (aStage m c 5).2 := by
  -- the kernel's input arrays at its entry
  have eX : cur2 (W13 m ρ c (Proc.devRef .tc main_v134)) = gatherRows 64 63 (aX m c) :=
    (g6_x (W12 m ρ c)).trans (congrArg (gatherRows 64 63) ((congrArg cur3 (carry_main_v5_12 m ρ c)).trans (x3_3 m ρ c R)))
  have eLH : cur2 (W13 m ρ c (Proc.devRef .tc main_v123)) = gatherChild 64 127 0 (aStage m c 4).1 :=
    (g6_lh (W12 m ρ c)).trans (congrArg (gatherChild 64 127 0) ihH)
  have eRH : cur2 (W13 m ρ c (Proc.devRef .tc main_v126)) = gatherChild 64 127 1 (aStage m c 4).1 :=
    (g6_rh (W12 m ρ c)).trans (congrArg (gatherChild 64 127 1) ihH)
  have eLC : cur2 (W13 m ρ c (Proc.devRef .tc main_v129)) = gatherChild 64 127 0 (aStage m c 4).2 :=
    (g6_lc (W12 m ρ c)).trans (congrArg (gatherChild 64 127 0) ihC)
  have eRC : cur2 (W13 m ρ c (Proc.devRef .tc main_v132)) = gatherChild 64 127 1 (aStage m c 4).2 :=
    (g6_rc (W12 m ρ c)).trans (congrArg (gatherChild 64 127 1) ihC)
  have eWl : cur2 (W13 m ρ c (Proc.devRef .tc main_v1)) = fun k g => aWl m c g k :=
    (congrArg cur2 (carry_main_v1_13 m ρ c)).trans (wlT_1 m ρ c)
  have eWr : cur2 (W13 m ρ c (Proc.devRef .tc main_v2)) = fun k g => aWr m c g k :=
    (congrArg cur2 (carry_main_v2_13 m ρ c)).trans (wrT_1 m ρ c)
  have eBl : cur1 (W13 m ρ c (Proc.devRef .tc main_arg5)) = aBl m c := congrArg cur1 (carry_main_arg5_13 m ρ c)
  have eBr : cur1 (W13 m ρ c (Proc.devRef .tc main_arg6)) = aBr m c := congrArg cur1 (carry_main_arg6_13 m ρ c)
  -- what the kernel leaves
  have oH : cur2 (W14 m ρ c (Proc.devRef .tc main_v135_0)) = rowH (rowPre (M := 2048) (gatherRows 64 63 (aX m c)) (gatherChild 64 127 0 (aStage m c 4).1) (gatherChild 64 127 1 (aStage m c 4).1)
        (fun k g => aWl m c g k) (fun k g => aWr m c g k) (aBl m c) (aBr m c))
        (gatherChild 64 127 0 (aStage m c 4).2) (gatherChild 64 127 1 (aStage m c 4).2) :=
    (congrArg cur2 ((show W14 m ρ c (Proc.devRef .tc main_v135_0) = _ from W14_arr m ρ c 9).trans (R.r6h (V13 m ρ) c))).trans
      (rowH_cur2_congr eX eLH eRH eWl eWr eBl eBr eLC eRC)
  have oC : cur2 (W14 m ρ c (Proc.devRef .tc main_v135_1)) = rowC (rowPre (M := 2048) (gatherRows 64 63 (aX m c)) (gatherChild 64 127 0 (aStage m c 4).1) (gatherChild 64 127 1 (aStage m c 4).1)
        (fun k g => aWl m c g k) (fun k g => aWr m c g k) (aBl m c) (aBr m c))
        (gatherChild 64 127 0 (aStage m c 4).2) (gatherChild 64 127 1 (aStage m c 4).2) :=
    (congrArg cur2 ((show W14 m ρ c (Proc.devRef .tc main_v135_1) = _ from W14_arr m ρ c 10).trans (R.r6c (V13 m ρ) c))).trans
      (rowC_cur2_congr eX eLH eRH eWl eWr eBl eBr eLC eRC)
  have kH : cur3 (W14 m ρ c (Proc.devRef .tc main_v113)) = (aStage m c 4).1 :=
    (congrArg cur3 (W14_of_ne m ρ c main_v113 (by decide))).trans ihH
  have kC : cur3 (W14 m ρ c (Proc.devRef .tc main_v116)) = (aStage m c 4).2 :=
    (congrArg cur3 (W14_of_ne m ρ c main_v116 (by decide))).trans ihC
  have hl := level_rows (M := 2048) (n := 64) (s := 63) rfl (by decide) (by decide) (aX m c) (aStage m c 4).1 (aStage m c 4).2
    (aWl m c) (aWr m c) (fun k g => aWl m c g k) (fun k g => aWr m c g k) (aBl m c) (aBr m c) (fun _ _ => rfl) (fun _ _ => rfl)
  constructor
  · exact (g7_H (W14 m ρ c)).trans ((setRows_unrow_congr oH kH).trans hl.1)
  · exact (g7_C (W14 m ρ c)).trans ((setRows_unrow_congr oC kC).trans hl.2)

end Cert.KernelIdeal.KValue

end
-- ==== Proof.KGlue8.lean ====
/-
  The host operations before the kernel of level 4 (nodes 15 … 30), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 31 … of the array before it. -/
theorem g8_H : cur3 (StableHlo.after hostOps8 V (Proc.devRef .tc main_v163))
    = setRows 31 32 (unrow 32 31 (cur2 (V (Proc.devRef .tc main_v160_0)))) (cur3 (V (Proc.devRef .tc main_v138))) := by
  have h : StableHlo.after hostOps8 V (Proc.devRef .tc main_v163)
      = Host.scatter scatter_S32x4095x256_S1_S32x32x256_012_n_1_0 (fun _ b => b) (V (Proc.devRef .tc main_v138))
          (broadcastInDim S1 ![] bcast_S_S1 (constantI S_ 32 31#32))
          (shapeCast S32x32x256 (V (Proc.devRef .tc main_v160_0)) shapeCasts_S1024x256_S32x32x256) := by
    dsimp only [hostOps8]
    after_results
    rfl
  rw [h]
  exact rows_write scatter_S32x4095x256_S1_S32x32x256_012_n_1_0 rfl rfl rfl rfl _ _ (fun _ => show (31#32 : BitVec 32).toInt = ((31 : ℕ) : Int) from by decide) _ _ rfl (by decide)

set_option maxHeartbeats 2000000 in
/-- The cell states after the stretch: the previous level's rows written over the nodes 31 … of the array before it. -/
theorem g8_C : cur3 (StableHlo.after hostOps8 V (Proc.devRef .tc main_v166))
    = setRows 31 32 (unrow 32 31 (cur2 (V (Proc.devRef .tc main_v160_1)))) (cur3 (V (Proc.devRef .tc main_v141))) := by
  have h : StableHlo.after hostOps8 V (Proc.devRef .tc main_v166)
      = Host.scatter scatter_S32x4095x256_S1_S32x32x256_012_n_1_0 (fun _ b => b) (V (Proc.devRef .tc main_v141))
          (broadcastInDim S1 ![] bcast_S_S1 (constantI S_ 32 31#32))
          (shapeCast S32x32x256 (V (Proc.devRef .tc main_v160_1)) shapeCasts_S1024x256_S32x32x256) := by
    dsimp only [hostOps8]
    after_results
    rfl
  rw [h]
  exact rows_write scatter_S32x4095x256_S1_S32x32x256_012_n_1_0 rfl rfl rfl rfl _ _ (fun _ => show (31#32 : BitVec 32).toInt = ((31 : ℕ) : Int) from by decide) _ _ rfl (by decide)

set_option maxHeartbeats 2000000 in
/-- The rows of the level's left children's hidden states. -/
theorem g8_lh : cur2 (StableHlo.after hostOps8 V (Proc.devRef .tc main_v173))
    = gatherChild 16 31 0 (cur3 (StableHlo.after hostOps8 V (Proc.devRef .tc main_v163))) := by
  have h : StableHlo.after hostOps8 V (Proc.devRef .tc main_v173)
      = shapeCast S512x256 (shapeCast S32x16x256 (extractStridedSlice S32x16x1x256 ![0, 0, 0, 0]
          (shapeCast S32x16x2x256 (extractStridedSlice S32x32x256 ![0, 31, 0] (StableHlo.after hostOps8 V (Proc.devRef .tc main_v163))
            slices_S32x4095x256_S32x32x256_0_31_0) shapeCasts_S32x32x256_S32x16x2x256) slices_S32x16x2x256_S32x16x1x256_0_0_0_0) shapeCasts_S32x16x1x256_S32x16x256) shapeCasts_S32x16x256_S512x256 := by
    dsimp only [hostOps8]
    after_results
    rfl
  rw [h]
  exact child_read 0 (by decide) _ _ _ _ _ _ rfl rfl (by decide)

set_option maxHeartbeats 2000000 in
/-- The rows of the level's right children's hidden states. -/
theorem g8_rh : cur2 (StableHlo.after hostOps8 V (Proc.devRef .tc main_v176))
    = gatherChild 16 31 1 (cur3 (StableHlo.after hostOps8 V (Proc.devRef .tc main_v163))) := by
  have h : StableHlo.after hostOps8 V (Proc.devRef .tc main_v176)
      = shapeCast S512x256 (shapeCast S32x16x256 (extractStridedSlice S32x16x1x256 ![0, 0, 1, 0]
          (shapeCast S32x16x2x256 (extractStridedSlice S32x32x256 ![0, 31, 0] (StableHlo.after hostOps8 V (Proc.devRef .tc main_v163))
            slices_S32x4095x256_S32x32x256_0_31_0) shapeCasts_S32x32x256_S32x16x2x256) slices_S32x16x2x256_S32x16x1x256_0_0_1_0) shapeCasts_S32x16x1x256_S32x16x256) shapeCasts_S32x16x256_S512x256 := by
    dsimp only [hostOps8]
    after_results
    rfl
  rw [h]
  exact child_read 1 (by decide) _ _ _ _ _ _ rfl rfl (by decide)

set_option maxHeartbeats 2000000 in
/-- The rows of the level's left children's cell states. -/
theorem g8_lc : cur2 (StableHlo.after hostOps8 V (Proc.devRef .tc main_v179))
    = gatherChild 16 31 0 (cur3 (StableHlo.after hostOps8 V (Proc.devRef .tc main_v166))) := by
  have h : StableHlo.after hostOps8 V (Proc.devRef .tc main_v179)
      = shapeCast S512x256 (shapeCast S32x16x256 (extractStridedSlice S32x16x1x256 ![0, 0, 0, 0]
          (shapeCast S32x16x2x256 (extractStridedSlice S32x32x256 ![0, 31, 0] (StableHlo.after hostOps8 V (Proc.devRef .tc main_v166))
            slices_S32x4095x256_S32x32x256_0_31_0) shapeCasts_S32x32x256_S32x16x2x256) slices_S32x16x2x256_S32x16x1x256_0_0_0_0) shapeCasts_S32x16x1x256_S32x16x256) shapeCasts_S32x16x256_S512x256 := by
    dsimp only [hostOps8]
    after_results
    rfl
  rw [h]
  exact child_read 0 (by decide) _ _ _ _ _ _ rfl rfl (by decide)

set_option maxHeartbeats 2000000 in
/-- The rows of the level's right children's cell states. -/
theorem g8_rc : cur2 (StableHlo.after hostOps8 V (Proc.devRef .tc main_v182))
    = gatherChild 16 31 1 (cur3 (StableHlo.after hostOps8 V (Proc.devRef .tc main_v166))) := by
  have h : StableHlo.after hostOps8 V (Proc.devRef .tc main_v182)
      = shapeCast S512x256 (shapeCast S32x16x256 (extractStridedSlice S32x16x1x256 ![0, 0, 1, 0]
          (shapeCast S32x16x2x256 (extractStridedSlice S32x32x256 ![0, 31, 0] (StableHlo.after hostOps8 V (Proc.devRef .tc main_v166))
            slices_S32x4095x256_S32x32x256_0_31_0) shapeCasts_S32x32x256_S32x16x2x256) slices_S32x16x2x256_S32x16x1x256_0_0_1_0) shapeCasts_S32x16x1x256_S32x16x256) shapeCasts_S32x16x256_S512x256 := by
    dsimp only [hostOps8]
    after_results
    rfl
  rw [h]
  exact child_read 1 (by decide) _ _ _ _ _ _ rfl rfl (by decide)

set_option maxHeartbeats 2000000 in
/-- The level's own rows of the input projection. -/
theorem g8_x : cur2 (StableHlo.after hostOps8 V (Proc.devRef .tc main_v184)) = gatherRows 16 15 (cur3 (V (Proc.devRef .tc main_v5))) := by
  have h : StableHlo.after hostOps8 V (Proc.devRef .tc main_v184)
      = shapeCast S512x1280 (extractStridedSlice S32x16x1280 ![0, 15, 0] (V (Proc.devRef .tc main_v5)) slices_S32x4095x1280_S32x16x1280_0_15_0) shapeCasts_S32x16x1280_S512x1280 := by
    dsimp only [hostOps8]
    after_results
    rfl
  rw [h]
  exact rows_read _ _ _ rfl (by decide)

end Cert.KernelIdeal.KValue

end
-- ==== Proof.KStage6.lean ====
/-
  Stage 6 of the run: the kernel of level 5 (nodes 31 … 62) and the host operations around it take the
  hidden- and cell-state arrays of stage 5 to those of stage 6.
-/
import proofs.«102109_j83099027243631_1_alg».proof.Proof.KStage0
import proofs.«102109_j83099027243631_1_alg».proof.Proof.KGlue7
import proofs.«102109_j83099027243631_1_alg».proof.Proof.KGlue8

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step6 (R : RegionFacts)
    (ihH : cur3 (W15 m ρ c (Proc.devRef .tc main_v138)) = (aStage m c 5).1) (ihC : cur3 (W15 m ρ c (Proc.devRef .tc main_v141)) = (aStage m c 5).2) :
    cur3 (W17 m ρ c (Proc.devRef .tc main_v163)) = (aStage m c 6).1 ∧ cur3 (W17 m ρ c (Proc.devRef .tc main_v166)) = (aStage m c 6).2 := by
  -- the kernel's input arrays at its entry
  have eX : cur2 (W15 m ρ c (Proc.devRef .tc main_v159)) = gatherRows 32 31 (aX m c) :=
    (g7_x (W14 m ρ c)).trans (congrArg (gatherRows 32 31) ((congrArg cur3 (carry_main_v5_14 m ρ c)).trans (x3_3 m ρ c R)))
  have eLH : cur2 (W15 m ρ c (Proc.devRef .tc main_v148)) = gatherChild 32 63 0 (aStage m c 5).1 :=
    (g7_lh (W14 m ρ c)).trans (congrArg (gatherChild 32 63 0) ihH)
  have eRH : cur2 (W15 m ρ c (Proc.devRef .tc main_v151)) = gatherChild 32 63 1 (aStage m c 5).1 :=
    (g7_rh (W14 m ρ c)).trans (congrArg (gatherChild 32 63 1) ihH)
  have eLC : cur2 (W15 m ρ c (Proc.devRef .tc main_v154)) = gatherChild 32 63 0 (aStage m c 5).2 :=
    (g7_lc (W14 m ρ c)).trans (congrArg (gatherChild 32 63 0) ihC)
  have eRC : cur2 (W15 m ρ c (Proc.devRef .tc main_v157)) = gatherChild 32 63 1 (aStage m c 5).2 :=
    (g7_rc (W14 m ρ c)).trans (congrArg (gatherChild 32 63 1) ihC)
  have eWl : cur2 (W15 m ρ c (Proc.devRef .tc main_v1)) = fun k g => aWl m c g k :=
    (congrArg cur2 (carry_main_v1_15 m ρ c)).trans (wlT_1 m ρ c)
  have eWr : cur2 (W15 m ρ c (Proc.devRef .tc main_v2)) = fun k g => aWr m c g k :=
    (congrArg cur2 (carry_main_v2_15 m ρ c)).trans (wrT_1 m ρ c)
  have eBl : cur1 (W15 m ρ c (Proc.devRef .tc main_arg5)) = aBl m c := congrArg cur1 (carry_main_arg5_15 m ρ c)
  have eBr : cur1 (W15 m ρ c (Proc.devRef .tc main_arg6)) = aBr m c := congrArg cur1 (carry_main_arg6_15 m ρ c)
  -- what the kernel leaves
  have oH : cur2 (W16 m ρ c (Proc.devRef .tc main_v160_0)) = rowH (rowPre (M := 1024) (gatherRows 32 31 (aX m c)) (gatherChild 32 63 0 (aStage m c 5).1) (gatherChild 32 63 1 (aStage m c 5).1)
        (fun k g => aWl m c g k) (fun k g => aWr m c g k) (aBl m c) (aBr m c))
        (gatherChild 32 63 0 (aStage m c 5).2) (gatherChild 32 63 1 (aStage m c 5).2) :=
    (congrArg cur2 ((show W16 m ρ c (Proc.devRef .tc main_v160_0) = _ from W16_arr m ρ c 9).trans (R.r7h (V15 m ρ) c))).trans
      (rowH_cur2_congr eX eLH eRH eWl eWr eBl eBr eLC eRC)
  have oC : cur2 (W16 m ρ c (Proc.devRef .tc main_v160_1)) = rowC (rowPre (M := 1024) (gatherRows 32 31 (aX m c)) (gatherChild 32 63 0 (aStage m c 5).1) (gatherChild 32 63 1 (aStage m c 5).1)
        (fun k g => aWl m c g k) (fun k g => aWr m c g k) (aBl m c) (aBr m c))
        (gatherChild 32 63 0 (aStage m c 5).2) (gatherChild 32 63 1 (aStage m c 5).2) :=
    (congrArg cur2 ((show W16 m ρ c (Proc.devRef .tc main_v160_1) = _ from W16_arr m ρ c 10).trans (R.r7c (V15 m ρ) c))).trans
      (rowC_cur2_congr eX eLH eRH eWl eWr eBl eBr eLC eRC)
  have kH : cur3 (W16 m ρ c (Proc.devRef .tc main_v138)) = (aStage m c 5).1 :=
    (congrArg cur3 (W16_of_ne m ρ c main_v138 (by decide))).trans ihH
  have kC : cur3 (W16 m ρ c (Proc.devRef .tc main_v141)) = (aStage m c 5).2 :=
    (congrArg cur3 (W16_of_ne m ρ c main_v141 (by decide))).trans ihC
  have hl := level_rows (M := 1024) (n := 32) (s := 31) rfl (by decide) (by decide) (aX m c) (aStage m c 5).1 (aStage m c 5).2
    (aWl m c) (aWr m c) (fun k g => aWl m c g k) (fun k g => aWr m c g k) (aBl m c) (aBr m c) (fun _ _ => rfl) (fun _ _ => rfl)
  constructor
  · exact (g8_H (W16 m ρ c)).trans ((setRows_unrow_congr oH kH).trans hl.1)
  · exact (g8_C (W16 m ρ c)).trans ((setRows_unrow_congr oC kC).trans hl.2)

end Cert.KernelIdeal.KValue

end
-- ==== Proof.KGlue9.lean ====
/-
  The host operations before the kernel of level 3 (nodes 7 … 14), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 15 … of the array before it. -/
theorem g9_H : cur3 (StableHlo.after hostOps9 V (Proc.devRef .tc main_v188))
    = setRows 15 16 (unrow 16 15 (cur2 (V (Proc.devRef .tc main_v185_0)))) (cur3 (V (Proc.devRef .tc main_v163))) := by
  have h : StableHlo.after hostOps9 V (Proc.devRef .tc main_v188)
      = Host.scatter scatter_S32x4095x256_S1_S32x16x256_012_n_1_0 (fun _ b => b) (V (Proc.devRef .tc main_v163))
          (broadcastInDim S1 ![] bcast_S_S1 (constantI S_ 32 15#32))
          (shapeCast S32x16x256 (V (Proc.devRef .tc main_v185_0)) shapeCasts_S512x256_S32x16x256) := by
    dsimp only [hostOps9]
    after_results
    rfl
  rw [h]
  exact rows_write scatter_S32x4095x256_S1_S32x16x256_012_n_1_0 rfl rfl rfl rfl _ _ (fun _ => show (15#32 : BitVec 32).toInt = ((15 : ℕ) : Int) from by decide) _ _ rfl (by decide)

set_option maxHeartbeats 2000000 in
/-- The cell states after the stretch: the previous level's rows written over the nodes 15 … of the array before it. -/
theorem g9_C : cur3 (StableHlo.after hostOps9 V (Proc.devRef .tc main_v191))
    = setRows 15 16 (unrow 16 15 (cur2 (V (Proc.devRef .tc main_v185_1)))) (cur3 (V (Proc.devRef .tc main_v166))) := by
  have h : StableHlo.after hostOps9 V (Proc.devRef .tc main_v191)
      = Host.scatter scatter_S32x4095x256_S1_S32x16x256_012_n_1_0 (fun _ b => b) (V (Proc.devRef .tc main_v166))
          (broadcastInDim S1 ![] bcast_S_S1 (constantI S_ 32 15#32))
          (shapeCast S32x16x256 (V (Proc.devRef .tc main_v185_1)) shapeCasts_S512x256_S32x16x256) := by
    dsimp only [hostOps9]
    after_results
    rfl
  rw [h]
  exact rows_write scatter_S32x4095x256_S1_S32x16x256_012_n_1_0 rfl rfl rfl rfl _ _ (fun _ => show (15#32 : BitVec 32).toInt = ((15 : ℕ) : Int) from by decide) _ _ rfl (by decide)

set_option maxHeartbeats 2000000 in
/-- The rows of the level's left children's hidden states. -/
theorem g9_lh : cur2 (StableHlo.after hostOps9 V (Proc.devRef .tc main_v198))
    = gatherChild 8 15 0 (cur3 (StableHlo.after hostOps9 V (Proc.devRef .tc main_v188))) := by
  have h : StableHlo.after hostOps9 V (Proc.devRef .tc main_v198)
      = shapeCast S256x256 (shapeCast S32x8x256 (extractStridedSlice S32x8x1x256 ![0, 0, 0, 0]
          (shapeCast S32x8x2x256 (extractStridedSlice S32x16x256 ![0, 15, 0] (StableHlo.after hostOps9 V (Proc.devRef .tc main_v188))
            slices_S32x4095x256_S32x16x256_0_15_0) shapeCasts_S32x16x256_S32x8x2x256) slices_S32x8x2x256_S32x8x1x256_0_0_0_0) shapeCasts_S32x8x1x256_S32x8x256) shapeCasts_S32x8x256_S256x256 := by
    dsimp only [hostOps9]
    after_results
    rfl
  rw [h]
  exact child_read 0 (by decide) _ _ _ _ _ _ rfl rfl (by decide)

set_option maxHeartbeats 2000000 in
/-- The rows of the level's right children's hidden states. -/
theorem g9_rh : cur2 (StableHlo.after hostOps9 V (Proc.devRef .tc main_v201))
    = gatherChild 8 15 1 (cur3 (StableHlo.after hostOps9 V (Proc.devRef .tc main_v188))) := by
  have h : StableHlo.after hostOps9 V (Proc.devRef .tc main_v201)
      = shapeCast S256x256 (shapeCast S32x8x256 (extractStridedSlice S32x8x1x256 ![0, 0, 1, 0]
          (shapeCast S32x8x2x256 (extractStridedSlice S32x16x256 ![0, 15, 0] (StableHlo.after hostOps9 V (Proc.devRef .tc main_v188))
            slices_S32x4095x256_S32x16x256_0_15_0) shapeCasts_S32x16x256_S32x8x2x256) slices_S32x8x2x256_S32x8x1x256_0_0_1_0) shapeCasts_S32x8x1x256_S32x8x256) shapeCasts_S32x8x256_S256x256 := by
    dsimp only [hostOps9]
    after_results
    rfl
  rw [h]
  exact child_read 1 (by decide) _ _ _ _ _ _ rfl rfl (by decide)

set_option maxHeartbeats 2000000 in
/-- The rows of the level's left children's cell states. -/
theorem g9_lc : cur2 (StableHlo.after hostOps9 V (Proc.devRef .tc main_v204))
    = gatherChild 8 15 0 (cur3 (StableHlo.after hostOps9 V (Proc.devRef .tc main_v191))) := by
  have h : StableHlo.after hostOps9 V (Proc.devRef .tc main_v204)
      = shapeCast S256x256 (shapeCast S32x8x256 (extractStridedSlice S32x8x1x256 ![0, 0, 0, 0]
          (shapeCast S32x8x2x256 (extractStridedSlice S32x16x256 ![0, 15, 0] (StableHlo.after hostOps9 V (Proc.devRef .tc main_v191))
            slices_S32x4095x256_S32x16x256_0_15_0) shapeCasts_S32x16x256_S32x8x2x256) slices_S32x8x2x256_S32x8x1x256_0_0_0_0) shapeCasts_S32x8x1x256_S32x8x256) shapeCasts_S32x8x256_S256x256 := by
    dsimp only [hostOps9]
    after_results
    rfl
  rw [h]
  exact child_read 0 (by decide) _ _ _ _ _ _ rfl rfl (by decide)

set_option maxHeartbeats 2000000 in
/-- The rows of the level's right children's cell states. -/
theorem g9_rc : cur2 (StableHlo.after hostOps9 V (Proc.devRef .tc main_v207))
    = gatherChild 8 15 1 (cur3 (StableHlo.after hostOps9 V (Proc.devRef .tc main_v191))) := by
  have h : StableHlo.after hostOps9 V (Proc.devRef .tc main_v207)
      = shapeCast S256x256 (shapeCast S32x8x256 (extractStridedSlice S32x8x1x256 ![0, 0, 1, 0]
          (shapeCast S32x8x2x256 (extractStridedSlice S32x16x256 ![0, 15, 0] (StableHlo.after hostOps9 V (Proc.devRef .tc main_v191))
            slices_S32x4095x256_S32x16x256_0_15_0) shapeCasts_S32x16x256_S32x8x2x256) slices_S32x8x2x256_S32x8x1x256_0_0_1_0) shapeCasts_S32x8x1x256_S32x8x256) shapeCasts_S32x8x256_S256x256 := by
    dsimp only [hostOps9]
    after_results
    rfl
  rw [h]
  exact child_read 1 (by decide) _ _ _ _ _ _ rfl rfl (by decide)

set_option maxHeartbeats 2000000 in
/-- The level's own rows of the input projection. -/
theorem g9_x : cur2 (StableHlo.after hostOps9 V (Proc.devRef .tc main_v209)) = gatherRows 8 7 (cur3 (V (Proc.devRef .tc main_v5))) := by
  have h : StableHlo.after hostOps9 V (Proc.devRef .tc main_v209)
      = shapeCast S256x1280 (extractStridedSlice S32x8x1280 ![0, 7, 0] (V (Proc.devRef .tc main_v5)) slices_S32x4095x1280_S32x8x1280_0_7_0) shapeCasts_S32x8x1280_S256x1280 := by
    dsimp only [hostOps9]
    after_results
    rfl
  rw [h]
  exact rows_read _ _ _ rfl (by decide)

end Cert.KernelIdeal.KValue

end
-- ==== Proof.KStage7.lean ====
/-
  Stage 7 of the run: the kernel of level 4 (nodes 15 … 30) and the host operations around it take the
  hidden- and cell-state arrays of stage 6 to those of stage 7.
-/
import proofs.«102109_j83099027243631_1_alg».proof.Proof.KStage0
import proofs.«102109_j83099027243631_1_alg».proof.Proof.KGlue8
import proofs.«102109_j83099027243631_1_alg».proof.Proof.KGlue9

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step7 (R : RegionFacts)
    (ihH : cur3 (W17 m ρ c (Proc.devRef .tc main_v163)) = (aStage m c 6).1) (ihC : cur3 (W17 m ρ c (Proc.devRef .tc main_v166)) = (aStage m c 6).2) :
    cur3 (W19 m ρ c (Proc.devRef .tc main_v188)) = (aStage m c 7).1 ∧ cur3 (W19 m ρ c (Proc.devRef .tc main_v191)) = (aStage m c 7).2 := by
  -- the kernel's input arrays at its entry
  have eX : cur2 (W17 m ρ c (Proc.devRef .tc main_v184)) = gatherRows 16 15 (aX m c) :=
    (g8_x (W16 m ρ c)).trans (congrArg (gatherRows 16 15) ((congrArg cur3 (carry_main_v5_16 m ρ c)).trans (x3_3 m ρ c R)))
  have eLH : cur2 (W17 m ρ c (Proc.devRef .tc main_v173)) = gatherChild 16 31 0 (aStage m c 6).1 :=
    (g8_lh (W16 m ρ c)).trans (congrArg (gatherChild 16 31 0) ihH)
  have eRH : cur2 (W17 m ρ c (Proc.devRef .tc main_v176)) = gatherChild 16 31 1 (aStage m c 6).1 :=
    (g8_rh (W16 m ρ c)).trans (congrArg (gatherChild 16 31 1) ihH)
  have eLC : cur2 (W17 m ρ c (Proc.devRef .tc main_v179)) = gatherChild 16 31 0 (aStage m c 6).2 :=
    (g8_lc (W16 m ρ c)).trans (congrArg (gatherChild 16 31 0) ihC)
  have eRC : cur2 (W17 m ρ c (Proc.devRef .tc main_v182)) = gatherChild 16 31 1 (aStage m c 6).2 :=
    (g8_rc (W16 m ρ c)).trans (congrArg (gatherChild 16 31 1) ihC)
  have eWl : cur2 (W17 m ρ c (Proc.devRef .tc main_v1)) = fun k g => aWl m c g k :=
    (congrArg cur2 (carry_main_v1_17 m ρ c)).trans (wlT_1 m ρ c)
  have eWr : cur2 (W17 m ρ c (Proc.devRef .tc main_v2)) = fun k g => aWr m c g k :=
    (congrArg cur2 (carry_main_v2_17 m ρ c)).trans (wrT_1 m ρ c)
  have eBl : cur1 (W17 m ρ c (Proc.devRef .tc main_arg5)) = aBl m c := congrArg cur1 (carry_main_arg5_17 m ρ c)
  have eBr : cur1 (W17 m ρ c (Proc.devRef .tc main_arg6)) = aBr m c := congrArg cur1 (carry_main_arg6_17 m ρ c)
  -- what the kernel leaves
  have oH : cur2 (W18 m ρ c (Proc.devRef .tc main_v185_0)) = rowH (rowPre (M := 512) (gatherRows 16 15 (aX m c)) (gatherChild 16 31 0 (aStage m c 6).1) (gatherChild 16 31 1 (aStage m c 6).1)
        (fun k g => aWl m c g k) (fun k g => aWr m c g k) (aBl m c) (aBr m c))
        (gatherChild 16 31 0 (aStage m c 6).2) (gatherChild 16 31 1 (aStage m c 6).2) :=
    (congrArg cur2 ((show W18 m ρ c (Proc.devRef .tc main_v185_0) = _ from W18_arr m ρ c 9).trans (R.r8h (V17 m ρ) c))).trans
      (rowH_cur2_congr eX eLH eRH eWl eWr eBl eBr eLC eRC)
  have oC : cur2 (W18 m ρ c (Proc.devRef .tc main_v185_1)) = rowC (rowPre (M := 512) (gatherRows 16 15 (aX m c)) (gatherChild 16 31 0 (aStage m c 6).1) (gatherChild 16 31 1 (aStage m c 6).1)
        (fun k g => aWl m c g k) (fun k g => aWr m c g k) (aBl m c) (aBr m c))
        (gatherChild 16 31 0 (aStage m c 6).2) (gatherChild 16 31 1 (aStage m c 6).2) :=
    (congrArg cur2 ((show W18 m ρ c (Proc.devRef .tc main_v185_1) = _ from W18_arr m ρ c 10).trans (R.r8c (V17 m ρ) c))).trans
      (rowC_cur2_congr eX eLH eRH eWl eWr eBl eBr eLC eRC)
  have kH : cur3 (W18 m ρ c (Proc.devRef .tc main_v163)) = (aStage m c 6).1 :=
    (congrArg cur3 (W18_of_ne m ρ c main_v163 (by decide))).trans ihH
  have kC : cur3 (W18 m ρ c (Proc.devRef .tc main_v166)) = (aStage m c 6).2 :=
    (congrArg cur3 (W18_of_ne m ρ c main_v166 (by decide))).trans ihC
  have hl := level_rows (M := 512) (n := 16) (s := 15) rfl (by decide) (by decide) (aX m c) (aStage m c 6).1 (aStage m c 6).2
    (aWl m c) (aWr m c) (fun k g => aWl m c g k) (fun k g => aWr m c g k) (aBl m c) (aBr m c) (fun _ _ => rfl) (fun _ _ => rfl)
  constructor
  · exact (g9_H (W18 m ρ c)).trans ((setRows_unrow_congr oH kH).trans hl.1)
  · exact (g9_C (W18 m ρ c)).trans ((setRows_unrow_congr oC kC).trans hl.2)

end Cert.KernelIdeal.KValue

end
-- ==== Proof.KGlue10.lean ====
/-
  The host operations before the kernel of level 2 (nodes 3 … 6), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 7 … of the array before it. -/
theorem g10_H : cur3 (StableHlo.after hostOps10 V (Proc.devRef .tc main_v213))
    = setRows 7 8 (unrow 8 7 (cur2 (V (Proc.devRef .tc main_v210_0)))) (cur3 (V (Proc.devRef .tc main_v188))) := by
  have h : StableHlo.after hostOps10 V (Proc.devRef .tc main_v213)
      = Host.scatter scatter_S32x4095x256_S1_S32x8x256_012_n_1_0 (fun _ b => b) (V (Proc.devRef .tc main_v188))
          (broadcastInDim S1 ![] bcast_S_S1 (constantI S_ 32 7#32))
          (shapeCast S32x8x256 (V (Proc.devRef .tc main_v210_0)) shapeCasts_S256x256_S32x8x256) := by
    dsimp only [hostOps10]
    after_results
    rfl
  rw [h]
  exact rows_write scatter_S32x4095x256_S1_S32x8x256_012_n_1_0 rfl rfl rfl rfl _ _ (fun _ => show (7#32 : BitVec 32).toInt = ((7 : ℕ) : Int) from by decide) _ _ rfl (by decide)

set_option maxHeartbeats 2000000 in
/-- The cell states after the stretch: the previous level's rows written over the nodes 7 … of the array before it. -/
theorem g10_C : cur3 (StableHlo.after hostOps10 V (Proc.devRef .tc main_v216))
    = setRows 7 8 (unrow 8 7 (cur2 (V (Proc.devRef .tc main_v210_1)))) (cur3 (V (Proc.devRef .tc main_v191))) := by
  have h : StableHlo.after hostOps10 V (Proc.devRef .tc main_v216)
      = Host.scatter scatter_S32x4095x256_S1_S32x8x256_012_n_1_0 (fun _ b => b) (V (Proc.devRef .tc main_v191))
          (broadcastInDim S1 ![] bcast_S_S1 (constantI S_ 32 7#32))
          (shapeCast S32x8x256 (V (Proc.devRef .tc main_v210_1)) shapeCasts_S256x256_S32x8x256) := by
    dsimp only [hostOps10]
    after_results
    rfl
  rw [h]
  exact rows_write scatter_S32x4095x256_S1_S32x8x256_012_n_1_0 rfl rfl rfl rfl _ _ (fun _ => show (7#32 : BitVec 32).toInt = ((7 : ℕ) : Int) from by decide) _ _ rfl (by decide)

set_option maxHeartbeats 2000000 in
/-- The rows of the level's left children's hidden states. -/
theorem g10_lh : cur2 (StableHlo.after hostOps10 V (Proc.devRef .tc main_v223))
    = gatherChild 4 7 0 (cur3 (StableHlo.after hostOps10 V (Proc.devRef .tc main_v213))) := by
  have h : StableHlo.after hostOps10 V (Proc.devRef .tc main_v223)
      = shapeCast S128x256 (shapeCast S32x4x256 (extractStridedSlice S32x4x1x256 ![0, 0, 0, 0]
          (shapeCast S32x4x2x256 (extractStridedSlice S32x8x256 ![0, 7, 0] (StableHlo.after hostOps10 V (Proc.devRef .tc main_v213))
            slices_S32x4095x256_S32x8x256_0_7_0) shapeCasts_S32x8x256_S32x4x2x256) slices_S32x4x2x256_S32x4x1x256_0_0_0_0) shapeCasts_S32x4x1x256_S32x4x256) shapeCasts_S32x4x256_S128x256 := by
    dsimp only [hostOps10]
    after_results
    rfl
  rw [h]
  exact child_read 0 (by decide) _ _ _ _ _ _ rfl rfl (by decide)

set_option maxHeartbeats 2000000 in
/-- The rows of the level's right children's hidden states. -/
theorem g10_rh : cur2 (StableHlo.after hostOps10 V (Proc.devRef .tc main_v226))
    = gatherChild 4 7 1 (cur3 (StableHlo.after hostOps10 V (Proc.devRef .tc main_v213))) := by
  have h : StableHlo.after hostOps10 V (Proc.devRef .tc main_v226)
      = shapeCast S128x256 (shapeCast S32x4x256 (extractStridedSlice S32x4x1x256 ![0, 0, 1, 0]
          (shapeCast S32x4x2x256 (extractStridedSlice S32x8x256 ![0, 7, 0] (StableHlo.after hostOps10 V (Proc.devRef .tc main_v213))
            slices_S32x4095x256_S32x8x256_0_7_0) shapeCasts_S32x8x256_S32x4x2x256) slices_S32x4x2x256_S32x4x1x256_0_0_1_0) shapeCasts_S32x4x1x256_S32x4x256) shapeCasts_S32x4x256_S128x256 := by
    dsimp only [hostOps10]
    after_results
    rfl
  rw [h]
  exact child_read 1 (by decide) _ _ _ _ _ _ rfl rfl (by decide)

set_option maxHeartbeats 2000000 in
/-- The rows of the level's left children's cell states. -/
theorem g10_lc : cur2 (StableHlo.after hostOps10 V (Proc.devRef .tc main_v229))
    = gatherChild 4 7 0 (cur3 (StableHlo.after hostOps10 V (Proc.devRef .tc main_v216))) := by
  have h : StableHlo.after hostOps10 V (Proc.devRef .tc main_v229)
      = shapeCast S128x256 (shapeCast S32x4x256 (extractStridedSlice S32x4x1x256 ![0, 0, 0, 0]
          (shapeCast S32x4x2x256 (extractStridedSlice S32x8x256 ![0, 7, 0] (StableHlo.after hostOps10 V (Proc.devRef .tc main_v216))
            slices_S32x4095x256_S32x8x256_0_7_0) shapeCasts_S32x8x256_S32x4x2x256) slices_S32x4x2x256_S32x4x1x256_0_0_0_0) shapeCasts_S32x4x1x256_S32x4x256) shapeCasts_S32x4x256_S128x256 := by
    dsimp only [hostOps10]
    after_results
    rfl
  rw [h]
  exact child_read 0 (by decide) _ _ _ _ _ _ rfl rfl (by decide)

set_option maxHeartbeats 2000000 in
/-- The rows of the level's right children's cell states. -/
theorem g10_rc : cur2 (StableHlo.after hostOps10 V (Proc.devRef .tc main_v232))
    = gatherChild 4 7 1 (cur3 (StableHlo.after hostOps10 V (Proc.devRef .tc main_v216))) := by
  have h : StableHlo.after hostOps10 V (Proc.devRef .tc main_v232)
      = shapeCast S128x256 (shapeCast S32x4x256 (extractStridedSlice S32x4x1x256 ![0, 0, 1, 0]
          (shapeCast S32x4x2x256 (extractStridedSlice S32x8x256 ![0, 7, 0] (StableHlo.after hostOps10 V (Proc.devRef .tc main_v216))
            slices_S32x4095x256_S32x8x256_0_7_0) shapeCasts_S32x8x256_S32x4x2x256) slices_S32x4x2x256_S32x4x1x256_0_0_1_0) shapeCasts_S32x4x1x256_S32x4x256) shapeCasts_S32x4x256_S128x256 := by
    dsimp only [hostOps10]
    after_results
    rfl
  rw [h]
  exact child_read 1 (by decide) _ _ _ _ _ _ rfl rfl (by decide)

set_option maxHeartbeats 2000000 in
/-- The level's own rows of the input projection. -/
theorem g10_x : cur2 (StableHlo.after hostOps10 V (Proc.devRef .tc main_v234)) = gatherRows 4 3 (cur3 (V (Proc.devRef .tc main_v5))) := by
  have h : StableHlo.after hostOps10 V (Proc.devRef .tc main_v234)
      = shapeCast S128x1280 (extractStridedSlice S32x4x1280 ![0, 3, 0] (V (Proc.devRef .tc main_v5)) slices_S32x4095x1280_S32x4x1280_0_3_0) shapeCasts_S32x4x1280_S128x1280 := by
    dsimp only [hostOps10]
    after_results
    rfl
  rw [h]
  exact rows_read _ _ _ rfl (by decide)

end Cert.KernelIdeal.KValue

end
-- ==== Proof.KStage8.lean ====
/-
  Stage 8 of the run: the kernel of level 3 (nodes 7 … 14) and the host operations around it take the
  hidden- and cell-state arrays of stage 7 to those of stage 8.
-/
import proofs.«102109_j83099027243631_1_alg».proof.Proof.KStage0
import proofs.«102109_j83099027243631_1_alg».proof.Proof.KGlue9
import proofs.«102109_j83099027243631_1_alg».proof.Proof.KGlue10

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step8 (R : RegionFacts)
    (ihH : cur3 (W19 m ρ c (Proc.devRef .tc main_v188)) = (aStage m c 7).1) (ihC : cur3 (W19 m ρ c (Proc.devRef .tc main_v191)) = (aStage m c 7).2) :
    cur3 (W21 m ρ c (Proc.devRef .tc main_v213)) = (aStage m c 8).1 ∧ cur3 (W21 m ρ c (Proc.devRef .tc main_v216)) = (aStage m c 8).2 := by
  -- the kernel's input arrays at its entry
  have eX : cur2 (W19 m ρ c (Proc.devRef .tc main_v209)) = gatherRows 8 7 (aX m c) :=
    (g9_x (W18 m ρ c)).trans (congrArg (gatherRows 8 7) ((congrArg cur3 (carry_main_v5_18 m ρ c)).trans (x3_3 m ρ c R)))
  have eLH : cur2 (W19 m ρ c (Proc.devRef .tc main_v198)) = gatherChild 8 15 0 (aStage m c 7).1 :=
    (g9_lh (W18 m ρ c)).trans (congrArg (gatherChild 8 15 0) ihH)
  have eRH : cur2 (W19 m ρ c (Proc.devRef .tc main_v201)) = gatherChild 8 15 1 (aStage m c 7).1 :=
    (g9_rh (W18 m ρ c)).trans (congrArg (gatherChild 8 15 1) ihH)
  have eLC : cur2 (W19 m ρ c (Proc.devRef .tc main_v204)) = gatherChild 8 15 0 (aStage m c 7).2 :=
    (g9_lc (W18 m ρ c)).trans (congrArg (gatherChild 8 15 0) ihC)
  have eRC : cur2 (W19 m ρ c (Proc.devRef .tc main_v207)) = gatherChild 8 15 1 (aStage m c 7).2 :=
    (g9_rc (W18 m ρ c)).trans (congrArg (gatherChild 8 15 1) ihC)
  have eWl : cur2 (W19 m ρ c (Proc.devRef .tc main_v1)) = fun k g => aWl m c g k :=
    (congrArg cur2 (carry_main_v1_19 m ρ c)).trans (wlT_1 m ρ c)
  have eWr : cur2 (W19 m ρ c (Proc.devRef .tc main_v2)) = fun k g => aWr m c g k :=
    (congrArg cur2 (carry_main_v2_19 m ρ c)).trans (wrT_1 m ρ c)
  have eBl : cur1 (W19 m ρ c (Proc.devRef .tc main_arg5)) = aBl m c := congrArg cur1 (carry_main_arg5_19 m ρ c)
  have eBr : cur1 (W19 m ρ c (Proc.devRef .tc main_arg6)) = aBr m c := congrArg cur1 (carry_main_arg6_19 m ρ c)
  -- what the kernel leaves
  have oH : cur2 (W20 m ρ c (Proc.devRef .tc main_v210_0)) = rowH (rowPre (M := 256) (gatherRows 8 7 (aX m c)) (gatherChild 8 15 0 (aStage m c 7).1) (gatherChild 8 15 1 (aStage m c 7).1)
        (fun k g => aWl m c g k) (fun k g => aWr m c g k) (aBl m c) (aBr m c))
        (gatherChild 8 15 0 (aStage m c 7).2) (gatherChild 8 15 1 (aStage m c 7).2) :=
    (congrArg cur2 ((show W20 m ρ c (Proc.devRef .tc main_v210_0) = _ from W20_arr m ρ c 9).trans (R.r9h (V19 m ρ) c))).trans
      (rowH_cur2_congr eX eLH eRH eWl eWr eBl eBr eLC eRC)
  have oC : cur2 (W20 m ρ c (Proc.devRef .tc main_v210_1)) = rowC (rowPre (M := 256) (gatherRows 8 7 (aX m c)) (gatherChild 8 15 0 (aStage m c 7).1) (gatherChild 8 15 1 (aStage m c 7).1)
        (fun k g => aWl m c g k) (fun k g => aWr m c g k) (aBl m c) (aBr m c))
        (gatherChild 8 15 0 (aStage m c 7).2) (gatherChild 8 15 1 (aStage m c 7).2) :=
    (congrArg cur2 ((show W20 m ρ c (Proc.devRef .tc main_v210_1) = _ from W20_arr m ρ c 10).trans (R.r9c (V19 m ρ) c))).trans
      (rowC_cur2_congr eX eLH eRH eWl eWr eBl eBr eLC eRC)
  have kH : cur3 (W20 m ρ c (Proc.devRef .tc main_v188)) = (aStage m c 7).1 :=
    (congrArg cur3 (W20_of_ne m ρ c main_v188 (by decide))).trans ihH
  have kC : cur3 (W20 m ρ c (Proc.devRef .tc main_v191)) = (aStage m c 7).2 :=
    (congrArg cur3 (W20_of_ne m ρ c main_v191 (by decide))).trans ihC
  have hl := level_rows (M := 256) (n := 8) (s := 7) rfl (by decide) (by decide) (aX m c) (aStage m c 7).1 (aStage m c 7).2
    (aWl m c) (aWr m c) (fun k g => aWl m c g k) (fun k g => aWr m c g k) (aBl m c) (aBr m c) (fun _ _ => rfl) (fun _ _ => rfl)
  constructor
  · exact (g10_H (W20 m ρ c)).trans ((setRows_unrow_congr oH kH).trans hl.1)
  · exact (g10_C (W20 m ρ c)).trans ((setRows_unrow_congr oC kC).trans hl.2)

end Cert.KernelIdeal.KValue

end
-- ==== Proof.KGlue11.lean ====
/-
  The host operations before the kernel of level 1 (nodes 1 … 2), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 3 … of the array before it. -/
theorem g11_H : cur3 (StableHlo.after hostOps11 V (Proc.devRef .tc main_v238))
    = setRows 3 4 (unrow 4 3 (cur2 (V (Proc.devRef .tc main_v235_0)))) (cur3 (V (Proc.devRef .tc main_v213))) := by
  have h : StableHlo.after hostOps11 V (Proc.devRef .tc main_v238)
      = Host.scatter scatter_S32x4095x256_S1_S32x4x256_012_n_1_0 (fun _ b => b) (V (Proc.devRef .tc main_v213))
          (broadcastInDim S1 ![] bcast_S_S1 (constantI S_ 32 3#32))
          (shapeCast S32x4x256 (V (Proc.devRef .tc main_v235_0)) shapeCasts_S128x256_S32x4x256) := by
    dsimp only [hostOps11]
    after_results
    rfl
  rw [h]
  exact rows_write scatter_S32x4095x256_S1_S32x4x256_012_n_1_0 rfl rfl rfl rfl _ _ (fun _ => show (3#32 : BitVec 32).toInt = ((3 : ℕ) : Int) from by decide) _ _ rfl (by decide)

set_option maxHeartbeats 2000000 in
/-- The cell states after the stretch: the previous level's rows written over the nodes 3 … of the array before it. -/
theorem g11_C : cur3 (StableHlo.after hostOps11 V (Proc.devRef .tc main_v241))
    = setRows 3 4 (unrow 4 3 (cur2 (V (Proc.devRef .tc main_v235_1)))) (cur3 (V (Proc.devRef .tc main_v216))) := by
  have h : StableHlo.after hostOps11 V (Proc.devRef .tc main_v241)
      = Host.scatter scatter_S32x4095x256_S1_S32x4x256_012_n_1_0 (fun _ b => b) (V (Proc.devRef .tc main_v216))
          (broadcastInDim S1 ![] bcast_S_S1 (constantI S_ 32 3#32))
          (shapeCast S32x4x256 (V (Proc.devRef .tc main_v235_1)) shapeCasts_S128x256_S32x4x256) := by
    dsimp only [hostOps11]
    after_results
    rfl
  rw [h]
  exact rows_write scatter_S32x4095x256_S1_S32x4x256_012_n_1_0 rfl rfl rfl rfl _ _ (fun _ => show (3#32 : BitVec 32).toInt = ((3 : ℕ) : Int) from by decide) _ _ rfl (by decide)

set_option maxHeartbeats 2000000 in
/-- The rows of the level's left children's hidden states. -/
theorem g11_lh : cur2 (StableHlo.after hostOps11 V (Proc.devRef .tc main_v248))
    = gatherChild 2 3 0 (cur3 (StableHlo.after hostOps11 V (Proc.devRef .tc main_v238))) := by
  have h : StableHlo.after hostOps11 V (Proc.devRef .tc main_v248)
      = shapeCast S64x256 (shapeCast S32x2x256 (extractStridedSlice S32x2x1x256 ![0, 0, 0, 0]
          (shapeCast S32x2x2x256 (extractStridedSlice S32x4x256 ![0, 3, 0] (StableHlo.after hostOps11 V (Proc.devRef .tc main_v238))
            slices_S32x4095x256_S32x4x256_0_3_0) shapeCasts_S32x4x256_S32x2x2x256) slices_S32x2x2x256_S32x2x1x256_0_0_0_0) shapeCasts_S32x2x1x256_S32x2x256) shapeCasts_S32x2x256_S64x256 := by
    dsimp only [hostOps11]
    after_results
    rfl
  rw [h]
  exact child_read 0 (by decide) _ _ _ _ _ _ rfl rfl (by decide)

set_option maxHeartbeats 2000000 in
/-- The rows of the level's right children's hidden states. -/
theorem g11_rh : cur2 (StableHlo.after hostOps11 V (Proc.devRef .tc main_v251))
    = gatherChild 2 3 1 (cur3 (StableHlo.after hostOps11 V (Proc.devRef .tc main_v238))) := by
  have h : StableHlo.after hostOps11 V (Proc.devRef .tc main_v251)
      = shapeCast S64x256 (shapeCast S32x2x256 (extractStridedSlice S32x2x1x256 ![0, 0, 1, 0]
          (shapeCast S32x2x2x256 (extractStridedSlice S32x4x256 ![0, 3, 0] (StableHlo.after hostOps11 V (Proc.devRef .tc main_v238))
            slices_S32x4095x256_S32x4x256_0_3_0) shapeCasts_S32x4x256_S32x2x2x256) slices_S32x2x2x256_S32x2x1x256_0_0_1_0) shapeCasts_S32x2x1x256_S32x2x256) shapeCasts_S32x2x256_S64x256 := by
    dsimp only [hostOps11]
    after_results
    rfl
  rw [h]
  exact child_read 1 (by decide) _ _ _ _ _ _ rfl rfl (by decide)

set_option maxHeartbeats 2000000 in
/-- The rows of the level's left children's cell states. -/
theorem g11_lc : cur2 (StableHlo.after hostOps11 V (Proc.devRef .tc main_v254))
    = gatherChild 2 3 0 (cur3 (StableHlo.after hostOps11 V (Proc.devRef .tc main_v241))) := by
  have h : StableHlo.after hostOps11 V (Proc.devRef .tc main_v254)
      = shapeCast S64x256 (shapeCast S32x2x256 (extractStridedSlice S32x2x1x256 ![0, 0, 0, 0]
          (shapeCast S32x2x2x256 (extractStridedSlice S32x4x256 ![0, 3, 0] (StableHlo.after hostOps11 V (Proc.devRef .tc main_v241))
            slices_S32x4095x256_S32x4x256_0_3_0) shapeCasts_S32x4x256_S32x2x2x256) slices_S32x2x2x256_S32x2x1x256_0_0_0_0) shapeCasts_S32x2x1x256_S32x2x256) shapeCasts_S32x2x256_S64x256 := by
    dsimp only [hostOps11]
    after_results
    rfl
  rw [h]
  exact child_read 0 (by decide) _ _ _ _ _ _ rfl rfl (by decide)

set_option maxHeartbeats 2000000 in
/-- The rows of the level's right children's cell states. -/
theorem g11_rc : cur2 (StableHlo.after hostOps11 V (Proc.devRef .tc main_v257))
    = gatherChild 2 3 1 (cur3 (StableHlo.after hostOps11 V (Proc.devRef .tc main_v241))) := by
  have h : StableHlo.after hostOps11 V (Proc.devRef .tc main_v257)
      = shapeCast S64x256 (shapeCast S32x2x256 (extractStridedSlice S32x2x1x256 ![0, 0, 1, 0]
          (shapeCast S32x2x2x256 (extractStridedSlice S32x4x256 ![0, 3, 0] (StableHlo.after hostOps11 V (Proc.devRef .tc main_v241))
            slices_S32x4095x256_S32x4x256_0_3_0) shapeCasts_S32x4x256_S32x2x2x256) slices_S32x2x2x256_S32x2x1x256_0_0_1_0) shapeCasts_S32x2x1x256_S32x2x256) shapeCasts_S32x2x256_S64x256 := by
    dsimp only [hostOps11]
    after_results
    rfl
  rw [h]
  exact child_read 1 (by decide) _ _ _ _ _ _ rfl rfl (by decide)

set_option maxHeartbeats 2000000 in
/-- The level's own rows of the input projection. -/
theorem g11_x : cur2 (StableHlo.after hostOps11 V (Proc.devRef .tc main_v259)) = gatherRows 2 1 (cur3 (V (Proc.devRef .tc main_v5))) := by
  have h : StableHlo.after hostOps11 V (Proc.devRef .tc main_v259)
      = shapeCast S64x1280 (extractStridedSlice S32x2x1280 ![0, 1, 0] (V (Proc.devRef .tc main_v5)) slices_S32x4095x1280_S32x2x1280_0_1_0) shapeCasts_S32x2x1280_S64x1280 := by
    dsimp only [hostOps11]
    after_results
    rfl
  rw [h]
  exact rows_read _ _ _ rfl (by decide)

end Cert.KernelIdeal.KValue

end
-- ==== Proof.KStage9.lean ====
/-
  Stage 9 of the run: the kernel of level 2 (nodes 3 … 6) and the host operations around it take the
  hidden- and cell-state arrays of stage 8 to those of stage 9.
-/
import proofs.«102109_j83099027243631_1_alg».proof.Proof.KStage0
import proofs.«102109_j83099027243631_1_alg».proof.Proof.KGlue10
import proofs.«102109_j83099027243631_1_alg».proof.Proof.KGlue11

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step9 (R : RegionFacts)
    (ihH : cur3 (W21 m ρ c (Proc.devRef .tc main_v213)) = (aStage m c 8).1) (ihC : cur3 (W21 m ρ c (Proc.devRef .tc main_v216)) = (aStage m c 8).2) :
    cur3 (W23 m ρ c (Proc.devRef .tc main_v238)) = (aStage m c 9).1 ∧ cur3 (W23 m ρ c (Proc.devRef .tc main_v241)) = (aStage m c 9).2 := by
  -- the kernel's input arrays at its entry
  have eX : cur2 (W21 m ρ c (Proc.devRef .tc main_v234)) = gatherRows 4 3 (aX m c) :=
    (g10_x (W20 m ρ c)).trans (congrArg (gatherRows 4 3) ((congrArg cur3 (carry_main_v5_20 m ρ c)).trans (x3_3 m ρ c R)))
  have eLH : cur2 (W21 m ρ c (Proc.devRef .tc main_v223)) = gatherChild 4 7 0 (aStage m c 8).1 :=
    (g10_lh (W20 m ρ c)).trans (congrArg (gatherChild 4 7 0) ihH)
  have eRH : cur2 (W21 m ρ c (Proc.devRef .tc main_v226)) = gatherChild 4 7 1 (aStage m c 8).1 :=
    (g10_rh (W20 m ρ c)).trans (congrArg (gatherChild 4 7 1) ihH)
  have eLC : cur2 (W21 m ρ c (Proc.devRef .tc main_v229)) = gatherChild 4 7 0 (aStage m c 8).2 :=
    (g10_lc (W20 m ρ c)).trans (congrArg (gatherChild 4 7 0) ihC)
  have eRC : cur2 (W21 m ρ c (Proc.devRef .tc main_v232)) = gatherChild 4 7 1 (aStage m c 8).2 :=
    (g10_rc (W20 m ρ c)).trans (congrArg (gatherChild 4 7 1) ihC)
  have eWl : cur2 (W21 m ρ c (Proc.devRef .tc main_v1)) = fun k g => aWl m c g k :=
    (congrArg cur2 (carry_main_v1_21 m ρ c)).trans (wlT_1 m ρ c)
  have eWr : cur2 (W21 m ρ c (Proc.devRef .tc main_v2)) = fun k g => aWr m c g k :=
    (congrArg cur2 (carry_main_v2_21 m ρ c)).trans (wrT_1 m ρ c)
  have eBl : cur1 (W21 m ρ c (Proc.devRef .tc main_arg5)) = aBl m c := congrArg cur1 (carry_main_arg5_21 m ρ c)
  have eBr : cur1 (W21 m ρ c (Proc.devRef .tc main_arg6)) = aBr m c := congrArg cur1 (carry_main_arg6_21 m ρ c)
  -- what the kernel leaves
  have oH : cur2 (W22 m ρ c (Proc.devRef .tc main_v235_0)) = rowH (rowPre (M := 128) (gatherRows 4 3 (aX m c)) (gatherChild 4 7 0 (aStage m c 8).1) (gatherChild 4 7 1 (aStage m c 8).1)
        (fun k g => aWl m c g k) (fun k g => aWr m c g k) (aBl m c) (aBr m c))
        (gatherChild 4 7 0 (aStage m c 8).2) (gatherChild 4 7 1 (aStage m c 8).2) :=
    (congrArg cur2 ((show W22 m ρ c (Proc.devRef .tc main_v235_0) = _ from W22_arr m ρ c 9).trans (R.r10h (V21 m ρ) c))).trans
      (rowH_cur2_congr eX eLH eRH eWl eWr eBl eBr eLC eRC)
  have oC : cur2 (W22 m ρ c (Proc.devRef .tc main_v235_1)) = rowC (rowPre (M := 128) (gatherRows 4 3 (aX m c)) (gatherChild 4 7 0 (aStage m c 8).1) (gatherChild 4 7 1 (aStage m c 8).1)
        (fun k g => aWl m c g k) (fun k g => aWr m c g k) (aBl m c) (aBr m c))
        (gatherChild 4 7 0 (aStage m c 8).2) (gatherChild 4 7 1 (aStage m c 8).2) :=
    (congrArg cur2 ((show W22 m ρ c (Proc.devRef .tc main_v235_1) = _ from W22_arr m ρ c 10).trans (R.r10c (V21 m ρ) c))).trans
      (rowC_cur2_congr eX eLH eRH eWl eWr eBl eBr eLC eRC)
  have kH : cur3 (W22 m ρ c (Proc.devRef .tc main_v213)) = (aStage m c 8).1 :=
    (congrArg cur3 (W22_of_ne m ρ c main_v213 (by decide))).trans ihH
  have kC : cur3 (W22 m ρ c (Proc.devRef .tc main_v216)) = (aStage m c 8).2 :=
    (congrArg cur3 (W22_of_ne m ρ c main_v216 (by decide))).trans ihC
  have hl := level_rows (M := 128) (n := 4) (s := 3) rfl (by decide) (by decide) (aX m c) (aStage m c 8).1 (aStage m c 8).2
    (aWl m c) (aWr m c) (fun k g => aWl m c g k) (fun k g => aWr m c g k) (aBl m c) (aBr m c) (fun _ _ => rfl) (fun _ _ => rfl)
  constructor
  · exact (g11_H (W22 m ρ c)).trans ((setRows_unrow_congr oH kH).trans hl.1)
  · exact (g11_C (W22 m ρ c)).trans ((setRows_unrow_congr oC kC).trans hl.2)

end Cert.KernelIdeal.KValue

end
-- ==== Proof.KGlue12.lean ====
/-
  The host operations before the kernel of level 0 (nodes 0 … 0), read at an index, from any buffer contents
  `V`: the previous kernel's two results are written over their level's rows of the hidden- and cell-state arrays,
  and the new level's input rows are gathered — its own projection rows and its children's hidden and cell states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states after the stretch: the previous level's rows written over the nodes 1 … of the array before it. -/
theorem g12_H : cur3 (StableHlo.after hostOps12 V (Proc.devRef .tc main_v263))
    = setRows 1 2 (unrow 2 1 (cur2 (V (Proc.devRef .tc main_v260_0)))) (cur3 (V (Proc.devRef .tc main_v238))) := by
  have h : StableHlo.after hostOps12 V (Proc.devRef .tc main_v263)
      = Host.scatter scatter_S32x4095x256_S1_S32x2x256_012_n_1_0 (fun _ b => b) (V (Proc.devRef .tc main_v238))
          (broadcastInDim S1 ![] bcast_S_S1 (constantI S_ 32 1#32))
          (shapeCast S32x2x256 (V (Proc.devRef .tc main_v260_0)) shapeCasts_S64x256_S32x2x256) := by
    dsimp only [hostOps12]
    after_results
    rfl
  rw [h]
  exact rows_write scatter_S32x4095x256_S1_S32x2x256_012_n_1_0 rfl rfl rfl rfl _ _ (fun _ => show (1#32 : BitVec 32).toInt = ((1 : ℕ) : Int) from by decide) _ _ rfl (by decide)

set_option maxHeartbeats 2000000 in
/-- The cell states after the stretch: the previous level's rows written over the nodes 1 … of the array before it. -/
theorem g12_C : cur3 (StableHlo.after hostOps12 V (Proc.devRef .tc main_v266))
    = setRows 1 2 (unrow 2 1 (cur2 (V (Proc.devRef .tc main_v260_1)))) (cur3 (V (Proc.devRef .tc main_v241))) := by
  have h : StableHlo.after hostOps12 V (Proc.devRef .tc main_v266)
      = Host.scatter scatter_S32x4095x256_S1_S32x2x256_012_n_1_0 (fun _ b => b) (V (Proc.devRef .tc main_v241))
          (broadcastInDim S1 ![] bcast_S_S1 (constantI S_ 32 1#32))
          (shapeCast S32x2x256 (V (Proc.devRef .tc main_v260_1)) shapeCasts_S64x256_S32x2x256) := by
    dsimp only [hostOps12]
    after_results
    rfl
  rw [h]
  exact rows_write scatter_S32x4095x256_S1_S32x2x256_012_n_1_0 rfl rfl rfl rfl _ _ (fun _ => show (1#32 : BitVec 32).toInt = ((1 : ℕ) : Int) from by decide) _ _ rfl (by decide)

set_option maxHeartbeats 2000000 in
/-- The rows of the level's left children's hidden states. -/
theorem g12_lh : cur2 (StableHlo.after hostOps12 V (Proc.devRef .tc main_v273))
    = gatherChild 1 1 0 (cur3 (StableHlo.after hostOps12 V (Proc.devRef .tc main_v263))) := by
  have h : StableHlo.after hostOps12 V (Proc.devRef .tc main_v273)
      = shapeCast S32x256 (shapeCast S32x1x256 (extractStridedSlice S32x1x1x256 ![0, 0, 0, 0]
          (shapeCast S32x1x2x256 (extractStridedSlice S32x2x256 ![0, 1, 0] (StableHlo.after hostOps12 V (Proc.devRef .tc main_v263))
            slices_S32x4095x256_S32x2x256_0_1_0) shapeCasts_S32x2x256_S32x1x2x256) slices_S32x1x2x256_S32x1x1x256_0_0_0_0) shapeCasts_S32x1x1x256_S32x1x256) shapeCasts_S32x1x256_S32x256 := by
    dsimp only [hostOps12]
    after_results
    rfl
  rw [h]
  exact child_read 0 (by decide) _ _ _ _ _ _ rfl rfl (by decide)

set_option maxHeartbeats 2000000 in
/-- The rows of the level's right children's hidden states. -/
theorem g12_rh : cur2 (StableHlo.after hostOps12 V (Proc.devRef .tc main_v276))
    = gatherChild 1 1 1 (cur3 (StableHlo.after hostOps12 V (Proc.devRef .tc main_v263))) := by
  have h : StableHlo.after hostOps12 V (Proc.devRef .tc main_v276)
      = shapeCast S32x256 (shapeCast S32x1x256 (extractStridedSlice S32x1x1x256 ![0, 0, 1, 0]
          (shapeCast S32x1x2x256 (extractStridedSlice S32x2x256 ![0, 1, 0] (StableHlo.after hostOps12 V (Proc.devRef .tc main_v263))
            slices_S32x4095x256_S32x2x256_0_1_0) shapeCasts_S32x2x256_S32x1x2x256) slices_S32x1x2x256_S32x1x1x256_0_0_1_0) shapeCasts_S32x1x1x256_S32x1x256) shapeCasts_S32x1x256_S32x256 := by
    dsimp only [hostOps12]
    after_results
    rfl
  rw [h]
  exact child_read 1 (by decide) _ _ _ _ _ _ rfl rfl (by decide)

set_option maxHeartbeats 2000000 in
/-- The rows of the level's left children's cell states. -/
theorem g12_lc : cur2 (StableHlo.after hostOps12 V (Proc.devRef .tc main_v279))
    = gatherChild 1 1 0 (cur3 (StableHlo.after hostOps12 V (Proc.devRef .tc main_v266))) := by
  have h : StableHlo.after hostOps12 V (Proc.devRef .tc main_v279)
      = shapeCast S32x256 (shapeCast S32x1x256 (extractStridedSlice S32x1x1x256 ![0, 0, 0, 0]
          (shapeCast S32x1x2x256 (extractStridedSlice S32x2x256 ![0, 1, 0] (StableHlo.after hostOps12 V (Proc.devRef .tc main_v266))
            slices_S32x4095x256_S32x2x256_0_1_0) shapeCasts_S32x2x256_S32x1x2x256) slices_S32x1x2x256_S32x1x1x256_0_0_0_0) shapeCasts_S32x1x1x256_S32x1x256) shapeCasts_S32x1x256_S32x256 := by
    dsimp only [hostOps12]
    after_results
    rfl
  rw [h]
  exact child_read 0 (by decide) _ _ _ _ _ _ rfl rfl (by decide)

set_option maxHeartbeats 2000000 in
/-- The rows of the level's right children's cell states. -/
theorem g12_rc : cur2 (StableHlo.after hostOps12 V (Proc.devRef .tc main_v282))
    = gatherChild 1 1 1 (cur3 (StableHlo.after hostOps12 V (Proc.devRef .tc main_v266))) := by
  have h : StableHlo.after hostOps12 V (Proc.devRef .tc main_v282)
      = shapeCast S32x256 (shapeCast S32x1x256 (extractStridedSlice S32x1x1x256 ![0, 0, 1, 0]
          (shapeCast S32x1x2x256 (extractStridedSlice S32x2x256 ![0, 1, 0] (StableHlo.after hostOps12 V (Proc.devRef .tc main_v266))
            slices_S32x4095x256_S32x2x256_0_1_0) shapeCasts_S32x2x256_S32x1x2x256) slices_S32x1x2x256_S32x1x1x256_0_0_1_0) shapeCasts_S32x1x1x256_S32x1x256) shapeCasts_S32x1x256_S32x256 := by
    dsimp only [hostOps12]
    after_results
    rfl
  rw [h]
  exact child_read 1 (by decide) _ _ _ _ _ _ rfl rfl (by decide)

set_option maxHeartbeats 2000000 in
/-- The level's own rows of the input projection. -/
theorem g12_x : cur2 (StableHlo.after hostOps12 V (Proc.devRef .tc main_v284)) = gatherRows 1 0 (cur3 (V (Proc.devRef .tc main_v5))) := by
  have h : StableHlo.after hostOps12 V (Proc.devRef .tc main_v284)
      = shapeCast S32x1280 (extractStridedSlice S32x1x1280 ![0, 0, 0] (V (Proc.devRef .tc main_v5)) slices_S32x4095x1280_S32x1x1280_0_0_0) shapeCasts_S32x1x1280_S32x1280 := by
    dsimp only [hostOps12]
    after_results
    rfl
  rw [h]
  exact rows_read _ _ _ rfl (by decide)

end Cert.KernelIdeal.KValue

end
-- ==== Proof.KStage10.lean ====
/-
  Stage 10 of the run: the kernel of level 1 (nodes 1 … 2) and the host operations around it take the
  hidden- and cell-state arrays of stage 9 to those of stage 10.
-/
import proofs.«102109_j83099027243631_1_alg».proof.Proof.KStage0
import proofs.«102109_j83099027243631_1_alg».proof.Proof.KGlue11
import proofs.«102109_j83099027243631_1_alg».proof.Proof.KGlue12

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step10 (R : RegionFacts)
    (ihH : cur3 (W23 m ρ c (Proc.devRef .tc main_v238)) = (aStage m c 9).1) (ihC : cur3 (W23 m ρ c (Proc.devRef .tc main_v241)) = (aStage m c 9).2) :
    cur3 (W25 m ρ c (Proc.devRef .tc main_v263)) = (aStage m c 10).1 ∧ cur3 (W25 m ρ c (Proc.devRef .tc main_v266)) = (aStage m c 10).2 := by
  -- the kernel's input arrays at its entry
  have eX : cur2 (W23 m ρ c (Proc.devRef .tc main_v259)) = gatherRows 2 1 (aX m c) :=
    (g11_x (W22 m ρ c)).trans (congrArg (gatherRows 2 1) ((congrArg cur3 (carry_main_v5_22 m ρ c)).trans (x3_3 m ρ c R)))
  have eLH : cur2 (W23 m ρ c (Proc.devRef .tc main_v248)) = gatherChild 2 3 0 (aStage m c 9).1 :=
    (g11_lh (W22 m ρ c)).trans (congrArg (gatherChild 2 3 0) ihH)
  have eRH : cur2 (W23 m ρ c (Proc.devRef .tc main_v251)) = gatherChild 2 3 1 (aStage m c 9).1 :=
    (g11_rh (W22 m ρ c)).trans (congrArg (gatherChild 2 3 1) ihH)
  have eLC : cur2 (W23 m ρ c (Proc.devRef .tc main_v254)) = gatherChild 2 3 0 (aStage m c 9).2 :=
    (g11_lc (W22 m ρ c)).trans (congrArg (gatherChild 2 3 0) ihC)
  have eRC : cur2 (W23 m ρ c (Proc.devRef .tc main_v257)) = gatherChild 2 3 1 (aStage m c 9).2 :=
    (g11_rc (W22 m ρ c)).trans (congrArg (gatherChild 2 3 1) ihC)
  have eWl : cur2 (W23 m ρ c (Proc.devRef .tc main_v1)) = fun k g => aWl m c g k :=
    (congrArg cur2 (carry_main_v1_23 m ρ c)).trans (wlT_1 m ρ c)
  have eWr : cur2 (W23 m ρ c (Proc.devRef .tc main_v2)) = fun k g => aWr m c g k :=
    (congrArg cur2 (carry_main_v2_23 m ρ c)).trans (wrT_1 m ρ c)
  have eBl : cur1 (W23 m ρ c (Proc.devRef .tc main_arg5)) = aBl m c := congrArg cur1 (carry_main_arg5_23 m ρ c)
  have eBr : cur1 (W23 m ρ c (Proc.devRef .tc main_arg6)) = aBr m c := congrArg cur1 (carry_main_arg6_23 m ρ c)
  -- what the kernel leaves
  have oH : cur2 (W24 m ρ c (Proc.devRef .tc main_v260_0)) = rowH (rowPre (M := 64) (gatherRows 2 1 (aX m c)) (gatherChild 2 3 0 (aStage m c 9).1) (gatherChild 2 3 1 (aStage m c 9).1)
        (fun k g => aWl m c g k) (fun k g => aWr m c g k) (aBl m c) (aBr m c))
        (gatherChild 2 3 0 (aStage m c 9).2) (gatherChild 2 3 1 (aStage m c 9).2) :=
    (congrArg cur2 ((show W24 m ρ c (Proc.devRef .tc main_v260_0) = _ from W24_arr m ρ c 9).trans (R.r11h (V23 m ρ) c))).trans
      (rowH_cur2_congr eX eLH eRH eWl eWr eBl eBr eLC eRC)
  have oC : cur2 (W24 m ρ c (Proc.devRef .tc main_v260_1)) = rowC (rowPre (M := 64) (gatherRows 2 1 (aX m c)) (gatherChild 2 3 0 (aStage m c 9).1) (gatherChild 2 3 1 (aStage m c 9).1)
        (fun k g => aWl m c g k) (fun k g => aWr m c g k) (aBl m c) (aBr m c))
        (gatherChild 2 3 0 (aStage m c 9).2) (gatherChild 2 3 1 (aStage m c 9).2) :=
    (congrArg cur2 ((show W24 m ρ c (Proc.devRef .tc main_v260_1) = _ from W24_arr m ρ c 10).trans (R.r11c (V23 m ρ) c))).trans
      (rowC_cur2_congr eX eLH eRH eWl eWr eBl eBr eLC eRC)
  have kH : cur3 (W24 m ρ c (Proc.devRef .tc main_v238)) = (aStage m c 9).1 :=
    (congrArg cur3 (W24_of_ne m ρ c main_v238 (by decide))).trans ihH
  have kC : cur3 (W24 m ρ c (Proc.devRef .tc main_v241)) = (aStage m c 9).2 :=
    (congrArg cur3 (W24_of_ne m ρ c main_v241 (by decide))).trans ihC
  have hl := level_rows (M := 64) (n := 2) (s := 1) rfl (by decide) (by decide) (aX m c) (aStage m c 9).1 (aStage m c 9).2
    (aWl m c) (aWr m c) (fun k g => aWl m c g k) (fun k g => aWr m c g k) (aBl m c) (aBr m c) (fun _ _ => rfl) (fun _ _ => rfl)
  constructor
  · exact (g12_H (W24 m ρ c)).trans ((setRows_unrow_congr oH kH).trans hl.1)
  · exact (g12_C (W24 m ρ c)).trans ((setRows_unrow_congr oC kC).trans hl.2)

end Cert.KernelIdeal.KValue

end
-- ==== Proof.KGlue13.lean ====
/-
  The host operations after the last kernel, read at an index, from any buffer contents `V`: the root's row written
  over node 0 of the hidden- and cell-state arrays, and the result, the root's row of the hidden states.
-/
import proofs.«102109_j83099027243631_1_alg».proof.Proof.Gen.KernelIdeal.Launch
import Idealize.ShloMosaic.Lib.StableHlo.Run
import proofs.«102109_j83099027243631_1_alg».proof.Proof.KLayout

set_option maxRecDepth 16384

noncomputable section

namespace Cert.KernelIdeal.KValue

open Idealize.ShloMosaic Idealize.ShloMosaic.TcCoe Idealize.ShloMosaic.ValueIdx
open Cert.KernelIdeal.Gen Cert.TreeSpec

variable (V : Valuation τ sig (Elt Ideal))

set_option maxHeartbeats 2000000 in
/-- The hidden states at the end: the root's row written over node 0. -/
theorem g13_H : cur3 (StableHlo.after hostOps13 V (Proc.devRef .tc main_v288))
    = setRows 0 1 (unrow 1 0 (cur2 (V (Proc.devRef .tc main_v285_0)))) (cur3 (V (Proc.devRef .tc main_v263))) := by
  have h : StableHlo.after hostOps13 V (Proc.devRef .tc main_v288)
      = Host.scatter scatter_S32x4095x256_S1_S32x1x256_012_n_1_0 (fun _ b => b) (V (Proc.devRef .tc main_v263))
          (broadcastInDim S1 ![] bcast_S_S1 (constantI S_ 32 0#32))
          (shapeCast S32x1x256 (V (Proc.devRef .tc main_v285_0)) shapeCasts_S32x256_S32x1x256) := by
    dsimp only [hostOps13]
    after_results
    rfl
  rw [h]
  exact rows_write scatter_S32x4095x256_S1_S32x1x256_012_n_1_0 rfl rfl rfl rfl _ _ (fun _ => show (0#32 : BitVec 32).toInt = ((0 : ℕ) : Int) from by decide) _ _ rfl (by decide)

set_option maxHeartbeats 2000000 in
/-- The cell states at the end: the root's row written over node 0. -/
theorem g13_C : cur3 (StableHlo.after hostOps13 V (Proc.devRef .tc main_v291))
    = setRows 0 1 (unrow 1 0 (cur2 (V (Proc.devRef .tc main_v285_1)))) (cur3 (V (Proc.devRef .tc main_v266))) := by
  have h : StableHlo.after hostOps13 V (Proc.devRef .tc main_v291)
      = Host.scatter scatter_S32x4095x256_S1_S32x1x256_012_n_1_0 (fun _ b => b) (V (Proc.devRef .tc main_v266))
          (broadcastInDim S1 ![] bcast_S_S1 (constantI S_ 32 0#32))
          (shapeCast S32x1x256 (V (Proc.devRef .tc main_v285_1)) shapeCasts_S32x256_S32x1x256) := by
    dsimp only [hostOps13]
    after_results
    rfl
  rw [h]
  exact rows_write scatter_S32x4095x256_S1_S32x1x256_012_n_1_0 rfl rfl rfl rfl _ _ (fun _ => show (0#32 : BitVec 32).toInt = ((0 : ℕ) : Int) from by decide) _ _ rfl (by decide)

set_option maxHeartbeats 2000000 in
/-- The returned value: the root's row of the hidden states. -/
theorem g13_out : cur2 (StableHlo.after hostOps13 V (Proc.devRef .tc main_v293)) = fun b j => cur3 (StableHlo.after hostOps13 V (Proc.devRef .tc main_v288)) b 0 j := by
  have h : StableHlo.after hostOps13 V (Proc.devRef .tc main_v293)
      = shapeCast S32x256 (extractStridedSlice S32x1x256 ![0, 0, 0] (StableHlo.after hostOps13 V (Proc.devRef .tc main_v288)) slices_S32x4095x256_S32x1x256_0_0_0) shapeCasts_S32x1x256_S32x256 := by
    dsimp only [hostOps13]
    after_results
    rfl
  rw [h]
  exact root_read _ _ _

end Cert.KernelIdeal.KValue

end
-- ==== Proof.KStage11.lean ====
/-
  Stage 11 of the run: the kernel of level 0 (nodes 0 … 0) and the host operations around it take the
  hidden- and cell-state arrays of stage 10 to those of stage 11.
-/
import proofs.«102109_j83099027243631_1_alg».proof.Proof.KStage0
import proofs.«102109_j83099027243631_1_alg».proof.Proof.KGlue12
import proofs.«102109_j83099027243631_1_alg».proof.Proof.KGlue13

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

set_option maxHeartbeats 1000000 in
theorem step11 (R : RegionFacts)
    (ihH : cur3 (W25 m ρ c (Proc.devRef .tc main_v263)) = (aStage m c 10).1) (ihC : cur3 (W25 m ρ c (Proc.devRef .tc main_v266)) = (aStage m c 10).2) :
    cur3 (W27 m ρ c (Proc.devRef .tc main_v288)) = (aStage m c 11).1 ∧ cur3 (W27 m ρ c (Proc.devRef .tc main_v291)) = (aStage m c 11).2 := by
  -- the kernel's input arrays at its entry
  have eX : cur2 (W25 m ρ c (Proc.devRef .tc main_v284)) = gatherRows 1 0 (aX m c) :=
    (g12_x (W24 m ρ c)).trans (congrArg (gatherRows 1 0) ((congrArg cur3 (carry_main_v5_24 m ρ c)).trans (x3_3 m ρ c R)))
  have eLH : cur2 (W25 m ρ c (Proc.devRef .tc main_v273)) = gatherChild 1 1 0 (aStage m c 10).1 :=
    (g12_lh (W24 m ρ c)).trans (congrArg (gatherChild 1 1 0) ihH)
  have eRH : cur2 (W25 m ρ c (Proc.devRef .tc main_v276)) = gatherChild 1 1 1 (aStage m c 10).1 :=
    (g12_rh (W24 m ρ c)).trans (congrArg (gatherChild 1 1 1) ihH)
  have eLC : cur2 (W25 m ρ c (Proc.devRef .tc main_v279)) = gatherChild 1 1 0 (aStage m c 10).2 :=
    (g12_lc (W24 m ρ c)).trans (congrArg (gatherChild 1 1 0) ihC)
  have eRC : cur2 (W25 m ρ c (Proc.devRef .tc main_v282)) = gatherChild 1 1 1 (aStage m c 10).2 :=
    (g12_rc (W24 m ρ c)).trans (congrArg (gatherChild 1 1 1) ihC)
  have eWl : cur2 (W25 m ρ c (Proc.devRef .tc main_v1)) = fun k g => aWl m c g k :=
    (congrArg cur2 (carry_main_v1_25 m ρ c)).trans (wlT_1 m ρ c)
  have eWr : cur2 (W25 m ρ c (Proc.devRef .tc main_v2)) = fun k g => aWr m c g k :=
    (congrArg cur2 (carry_main_v2_25 m ρ c)).trans (wrT_1 m ρ c)
  have eBl : cur1 (W25 m ρ c (Proc.devRef .tc main_arg5)) = aBl m c := congrArg cur1 (carry_main_arg5_25 m ρ c)
  have eBr : cur1 (W25 m ρ c (Proc.devRef .tc main_arg6)) = aBr m c := congrArg cur1 (carry_main_arg6_25 m ρ c)
  -- what the kernel leaves
  have oH : cur2 (W26 m ρ c (Proc.devRef .tc main_v285_0)) = rowH (rowPre (M := 32) (gatherRows 1 0 (aX m c)) (gatherChild 1 1 0 (aStage m c 10).1) (gatherChild 1 1 1 (aStage m c 10).1)
        (fun k g => aWl m c g k) (fun k g => aWr m c g k) (aBl m c) (aBr m c))
        (gatherChild 1 1 0 (aStage m c 10).2) (gatherChild 1 1 1 (aStage m c 10).2) :=
    (congrArg cur2 ((show W26 m ρ c (Proc.devRef .tc main_v285_0) = _ from W26_arr m ρ c 9).trans (R.r12h (V25 m ρ) c))).trans
      (rowH_cur2_congr eX eLH eRH eWl eWr eBl eBr eLC eRC)
  have oC : cur2 (W26 m ρ c (Proc.devRef .tc main_v285_1)) = rowC (rowPre (M := 32) (gatherRows 1 0 (aX m c)) (gatherChild 1 1 0 (aStage m c 10).1) (gatherChild 1 1 1 (aStage m c 10).1)
        (fun k g => aWl m c g k) (fun k g => aWr m c g k) (aBl m c) (aBr m c))
        (gatherChild 1 1 0 (aStage m c 10).2) (gatherChild 1 1 1 (aStage m c 10).2) :=
    (congrArg cur2 ((show W26 m ρ c (Proc.devRef .tc main_v285_1) = _ from W26_arr m ρ c 10).trans (R.r12c (V25 m ρ) c))).trans
      (rowC_cur2_congr eX eLH eRH eWl eWr eBl eBr eLC eRC)
  have kH : cur3 (W26 m ρ c (Proc.devRef .tc main_v263)) = (aStage m c 10).1 :=
    (congrArg cur3 (W26_of_ne m ρ c main_v263 (by decide))).trans ihH
  have kC : cur3 (W26 m ρ c (Proc.devRef .tc main_v266)) = (aStage m c 10).2 :=
    (congrArg cur3 (W26_of_ne m ρ c main_v266 (by decide))).trans ihC
  have hl := level_rows (M := 32) (n := 1) (s := 0) rfl (by decide) (by decide) (aX m c) (aStage m c 10).1 (aStage m c 10).2
    (aWl m c) (aWr m c) (fun k g => aWl m c g k) (fun k g => aWr m c g k) (aBl m c) (aBr m c) (fun _ _ => rfl) (fun _ _ => rfl)
  constructor
  · exact (g13_H (W26 m ρ c)).trans ((setRows_unrow_congr oH kH).trans hl.1)
  · exact (g13_C (W26 m ρ c)).trans ((setRows_unrow_congr oC kC).trans hl.2)

end Cert.KernelIdeal.KValue

end
-- ==== Proof.KValue.lean ====
/-
  The value the kernel program returns: the root's row of the hidden states after the last stage, which is
  `TreeSpec.result` of the launch arrays.
-/
import proofs.«102109_j83099027243631_1_alg».proof.Proof.KStage1
import proofs.«102109_j83099027243631_1_alg».proof.Proof.KStage2
import proofs.«102109_j83099027243631_1_alg».proof.Proof.KStage3
import proofs.«102109_j83099027243631_1_alg».proof.Proof.KStage4
import proofs.«102109_j83099027243631_1_alg».proof.Proof.KStage5
import proofs.«102109_j83099027243631_1_alg».proof.Proof.KStage6
import proofs.«102109_j83099027243631_1_alg».proof.Proof.KStage7
import proofs.«102109_j83099027243631_1_alg».proof.Proof.KStage8
import proofs.«102109_j83099027243631_1_alg».proof.Proof.KStage9
import proofs.«102109_j83099027243631_1_alg».proof.Proof.KStage10
import proofs.«102109_j83099027243631_1_alg».proof.Proof.KStage11
import proofs.«102109_j83099027243631_1_alg».proof.Proof.KGlue13

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

variable (c : Dev nD)

/-- The twelve stages in turn: the hidden states after the last one are in the buffer the last scatter writes. -/
theorem stage11_H (R : RegionFacts) : cur3 (W27 m ρ c (Proc.devRef .tc main_v288)) = (aStage m c 11).1 := by
  obtain ⟨h0, c0⟩ := stage0 m ρ c R
  obtain ⟨h1, c1⟩ := step1 m ρ c R h0 c0
  obtain ⟨h2, c2⟩ := step2 m ρ c R h1 c1
  obtain ⟨h3, c3⟩ := step3 m ρ c R h2 c2
  obtain ⟨h4, c4⟩ := step4 m ρ c R h3 c3
  obtain ⟨h5, c5⟩ := step5 m ρ c R h4 c4
  obtain ⟨h6, c6⟩ := step6 m ρ c R h5 c5
  obtain ⟨h7, c7⟩ := step7 m ρ c R h6 c6
  obtain ⟨h8, c8⟩ := step8 m ρ c R h7 c7
  obtain ⟨h9, c9⟩ := step9 m ρ c R h8 c8
  obtain ⟨h10, c10⟩ := step10 m ρ c R h9 c9
  obtain ⟨h11, c11⟩ := step11 m ρ c R h10 c10
  exact h11

/-- The returned buffer is the root's row of those hidden states: `TreeSpec.result` of the launch arrays. -/
theorem value_of (R : RegionFacts) :
    W27 m ρ c (Proc.devRef .tc main_v293)
      = fun i : S32x256.Idx => result (aFeat m c) (aWx m c) (aWl m c) (aWr m c) (aBx m c) (aBl m c) (aBr m c) (i 0) (i 1) := by
  funext i
  have h1 : cur2 (W27 m ρ c (Proc.devRef .tc main_v293)) = fun b j => (aStage m c 11).1 b 0 j :=
    (g13_out (W26 m ρ c)).trans (congrArg (fun (A : A3 32 4095 256) => fun b j => A b 0 j) (stage11_H m ρ c R))
  exact (congrArg (W27 m ρ c (Proc.devRef .tc main_v293)) (eq_ix2 i)).trans (congrFun (congrFun h1 (i 0)) (i 1))

end Cert.KernelIdeal.KValue

end
-- ==== Proof.XPay.lean ====
/-
  The projection kernel's arithmetic on one block of 1248 rows, read entry by entry: the matrix product of the
  block's features with the transposed weight (into a zero accumulator: the plain sum over the 256 contracted
  entries; the change of float format on the way in is the identity) plus the bias row — `TreeSpec.rowX`.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.XPay

open Cert.KernelIdeal Cert.KernelIdeal.Gen Idealize.ShloMosaic Idealize.ShloMosaic.ValueIdx Cert.TreeSpec

/-- The matrix product's dimension numbers: 1248 × 256 times 256 × 1280. -/
abbrev D := dot_S1248x256_S256x1280_S1248x1280_1_0_0_1_n_n

theorem lhs_ix (r : Fin 1248) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 1248) (g : Fin 1280) (k : Fin 256) :
    D.rhsIdx (ix2 r g) ((contrEquiv1 D 256 rfl rfl).symm k) = ix2 k g := by
  funext a
  match a with
  | ⟨0, _⟩ => rfl
  | ⟨1, _⟩ => rfl

theorem mm_apply (l : FVec Ideal S1248x256 .bf16) (w : FVec Ideal S256x1280 .bf16) (r : Fin 1248) (g : Fin 1280) :
    matmul D none l w (constant S1248x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

theorem bias_apply (b : Vec Ideal S1280 .f32) (r : Fin 1248) (g : Fin 1280) :
    broadcastTo S1248x1280 (shapeCast S1x1280 b shapeCasts_S1280_S1x1280) broadcasts_S1x1280_S1248x1280 (ix2 r g) = b (ix1 g) :=
  (broadcastTo_1b_ab_apply _ _ r g).trans (shapeCast_a_1a_apply b _ 0 g)

/-- The stored projection at (r, g). -/
theorem proj_apply (f : Vec Ideal S1248x256 .f32) (w : Vec Ideal S256x1280 .f32) (b : Vec Ideal S1280 .f32)
    (r : Fin 1248) (g : Fin 1280) :
    k0_pay1 f w b (ix2 r g) = rowX (cur2 f) (cur2 w) (cur1 b) r g := by
  unfold k0_pay1
  simp only [addf_apply, mm_apply, truncf_apply, shapeCast_self]
  rw [bias_apply b r g]
  rfl

end Cert.KernelIdeal.XPay

end
-- ==== Proof.RegionValue0.lean ====
/-
  What the projection launch leaves in its output array, as a whole-array function of the arrays it finds.

  The launch works on the 131040 node rows in 105 blocks of 1248: point `t` reads rows `t·1248 …` of the features, the
  transposed weight and the bias whole, and writes back the same rows of the projection.  A row's values depend on that
  row only, so block `t` of the result is block `t` of `TreeSpec.rowX` of the whole operands; the blocks cover all
  rows (row `r` lies in block `r / 1248`).
-/
import proofs.«102109_j83099027243631_1_alg».proof.Proof.Gen.KernelIdeal.Frame
import proofs.«102109_j83099027243631_1_alg».proof.Proof.XPay
import Idealize.ShloMosaic.Lib.Pipeline.Value

set_option maxRecDepth 16384

noncomputable section

namespace Cert.KernelIdeal.RegionValue0

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them. -/
abbrev aF (c : Dev nD) : A2 131040 256 := cur2 (V c (Pipeline.arrRef spec0 0) : S131040x256.Idx → EReal)
abbrev aW (c : Dev nD) : A2 256 1280 := cur2 (V c (Pipeline.arrRef spec0 1) : S256x1280.Idx → EReal)
abbrev aB (c : Dev nD) : A1 1280 := cur1 (V c (Pipeline.arrRef spec0 2) : S1280.Idx → EReal)

/-- The projection array the launch leaves. -/
def GX (c : Dev nD) : S131040x1280.Idx → EReal := fun i => rowX (aF V c) (aW V c) (aB V c) (i 0) (i 1)

theorem hz : (![0, 0] : Fin 2 → Nat) = fun _ => 0 := funext fun a => by fin_cases a <;> rfl
theorem hz1 : (![0] : Fin 1 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem rd0 (c : Dev nD) (t : Fin cfg0.N) (p : Fin 1248) (k : Fin 256) (R : Fin 131040) (hR : R.val = t.val * 1248 + p.val) :
    iblk0 V c 0 t (ix2 p k) = aF V c R k := by
  show (V c (Pipeline.arrRef spec0 0) : S131040x256.Idx → EReal) (((cfg0.win 0).blk t).view.emb (ix2 p k))
    = (V c (Pipeline.arrRef spec0 0) : S131040x256.Idx → EReal) (ix2 R k)
  refine congrArg _ (funext fun a => Fin.ext ?_)
  obtain ⟨a0, b0, a1, b1, a2, a3, b3⟩ := idx_facts t
  match a with
  | ⟨0, _⟩ => show win0_0.index t (0 : Fin 2) * 1248 + 1 * p.val = R.val; omega
  | ⟨1, _⟩ => show win0_0.index t (1 : Fin 2) * 256 + 1 * k.val = k.val; omega

theorem rd1 (c : Dev nD) (t : Fin cfg0.N) : cur2 (iblk0 V c 1 t) = aW V c := by
  funext k g
  show (V c (Pipeline.arrRef spec0 1) : S256x1280.Idx → EReal) (((cfg0.win 1).blk t).view.emb (ix2 k g))
    = (V c (Pipeline.arrRef spec0 1) : S256x1280.Idx → EReal) (ix2 k g)
  refine congrArg _ (funext fun a => Fin.ext ?_)
  obtain ⟨a0, b0, a1, b1, a2, a3, b3⟩ := idx_facts t
  match a with
  | ⟨0, _⟩ => show win0_1.index t (0 : Fin 2) * 256 + 1 * k.val = k.val; omega
  | ⟨1, _⟩ => show win0_1.index t (1 : Fin 2) * 1280 + 1 * g.val = g.val; omega

theorem rd2 (c : Dev nD) (t : Fin cfg0.N) : cur1 (iblk0 V c 2 t) = aB V c := by
  funext g
  show (V c (Pipeline.arrRef spec0 2) : S1280.Idx → EReal) (((cfg0.win 2).blk t).view.emb (ix1 g))
    = (V c (Pipeline.arrRef spec0 2) : S1280.Idx → EReal) (ix1 g)
  refine congrArg _ (funext fun a => Fin.ext ?_)
  obtain ⟨a0, b0, a1, b1, a2, a3, b3⟩ := idx_facts t
  match a with
  | ⟨0, _⟩ => show win0_2.index t (0 : Fin 1) * 1280 + 1 * g.val = g.val; omega

theorem flushedX (c : Dev nD) (t : Fin cfg0.N) :
    (dat0 V c).flushed 3 t = ((cfg0.win 3).blk t).view.read (Elt Ideal) (GX V c) := by
  show (cfg0.win 3).cut (grid0.coords t) ((dat0 V c).after 3 t) = _
  rw [after0_3]
  unfold out0_3
  rw [View.canon_unit_zero hz]
  simp only [View.ld_unit_zero (S := S1248x256) hz, View.ld_unit_zero (S := S256x1280) hz, View.ld_unit_zero (S := S1280) hz1]
  funext j
  obtain ⟨p, g, rfl⟩ : ∃ (p : Fin 1248) (g : Fin 1280), j = ix2 p g := ⟨j 0, j 1, eq_ix2 j⟩
  have ht : t.val < 105 := lt_of_lt_of_eq t.isLt N_0
  have hp : p.val < 1248 := p.isLt
  have hR : t.val * 1248 + p.val < 131040 := by omega
  have hemb : ((cfg0.win 3).blk t).view.emb (ix2 p g) = ix2 (⟨t.val * 1248 + p.val, hR⟩ : Fin 131040) g := by
    refine funext fun a => Fin.ext ?_
    obtain ⟨a0, b0, a1, b1, a2, a3, b3⟩ := idx_facts t
    match a with
    | ⟨0, _⟩ => show win0_3.index t (0 : Fin 2) * 1248 + 1 * p.val = t.val * 1248 + p.val; omega
    | ⟨1, _⟩ => show win0_3.index t (1 : Fin 2) * 1280 + 1 * g.val = g.val; omega
  show k0_pay1 (iblk0 V c 0 t) (iblk0 V c 1 t) (iblk0 V c 2 t) (ix2 p g) = GX V c (((cfg0.win 3).blk t).view.emb (ix2 p g))
  rw [hemb]
  refine (XPay.proj_apply (iblk0 V c 0 t) (iblk0 V c 1 t) (iblk0 V c 2 t) p g).trans ?_
  rw [rd1 V c t, rd2 V c t]
  exact rowX_congr _ _ _ _ p ⟨t.val * 1248 + p.val, hR⟩ (fun k => rd0 V c t p k _ rfl) g

theorem mem_blkX (t : Fin cfg0.N) (i : S131040x1280.Idx) :
    i ∈ ((cfg0.win 3).blk t).view.set ↔ ∀ a : Fin 2, win0_3.index t a * S1248x1280.size a ≤ (i a).val
      ∧ (i a).val < win0_3.index t a * S1248x1280.size a + S1248x1280.size a := by
  show i ∈ ((View.whole main_v4).slice (win0_3.rect t)).set ↔ _
  rw [View.set_slice_whole, Rect.mem_set_unit]
  exact Iff.rfl

theorem coverX (i : S131040x1280.Idx) :
    ∃ t : Fin cfg0.N, (cfg0.win 3).flush t = true ∧ i ∈ ((cfg0.win 3).blk t).view.set := by
  have hi0 : (i 0).val < 131040 := (i 0).isLt
  have hi1 : (i 1).val < 1280 := (i 1).isLt
  have hN : (i 0).val / 1248 < cfg0.N := lt_of_lt_of_eq (by omega : (i 0).val / 1248 < 105) N_0.symm
  refine ⟨⟨(i 0).val / 1248, hN⟩, flush0_3 _, ?_⟩
  rw [mem_blkX]
  have ⟨a0, b0, a1, b1, a2, a3, b3⟩ := idx_facts (⟨(i 0).val / 1248, hN⟩ : Fin cfg0.N)
  intro a
  match a with
  | ⟨0, _⟩ =>
    show win0_3.index ⟨(i 0).val / 1248, hN⟩ (0 : Fin 2) * 1248 ≤ (i 0).val
      ∧ (i 0).val < win0_3.index ⟨(i 0).val / 1248, hN⟩ (0 : Fin 2) * 1248 + 1248
    have e0 : win0_3.index ⟨(i 0).val / 1248, hN⟩ (0 : Fin 2) = (i 0).val / 1248 := a3
    omega
  | ⟨1, _⟩ =>
    show win0_3.index ⟨(i 0).val / 1248, hN⟩ (1 : Fin 2) * 1280 ≤ (i 1).val
      ∧ (i 1).val < win0_3.index ⟨(i 0).val / 1248, hN⟩ (1 : Fin 2) * 1280 + 1280
    omega

/-- The array the launch leaves. -/
theorem region_x (c : Dev nD) : (dat0 V c).arrAt 3 cfg0.N = GX V c :=
  (dat0 V c).arrAt_eq_of_cover 3 (GX V c) (fun t _ => flushedX V c t) coverX

end Cert.KernelIdeal.RegionValue0

end
-- ==== Proof.LeafPay.lean ====
/-
  The leaf kernel's arithmetic on one block of 1024 rows, read entry by entry: the gate blocks i, o, u of 256
  columns cut out of the block's projection; cell  c = σ(i)·tanh(u) ; hidden state  h = σ(o)·tanh c  —
  `TreeSpec.rowLeafC`, `rowLeafH`.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout

noncomputable section

namespace Cert.KernelIdeal.LeafPay

open Cert.KernelIdeal Cert.KernelIdeal.Gen Idealize.ShloMosaic Idealize.ShloMosaic.ValueIdx Cert.TreeSpec

theorem slice_apply (o q : ℕ) (hq : q < 5) (ho : o = q * 256) (P : FVec Ideal S1024x1280 .f32)
    (h : S1024x1280.Slices ![0, o] S1024x256) (r : Fin 1024) (j : Fin 256) :
    extractStridedSlice S1024x256 ![0, o] P h (ix2 r j) = P (ix2 r (col q j)) :=
  slice2_axis1_apply o P h r j (col q j) (by rw [col_val q hq j, ho])

theorem logistic_at (v : FVec Ideal S1024x256 .f32) (i : S1024x256.Idx) : logistic v i = Ideal.logistic (v i) := rfl
theorem tanh_at (v : FVec Ideal S1024x256 .f32) (i : S1024x256.Idx) : tanh v i = Ideal.tanh (v i) := rfl

/-- The stored cell state at (p, q). -/
theorem cell_apply (x : Vec Ideal S1024x1280 .f32) (p : Fin 1024) (q : Fin 256) :
    k1_pay2 x (ix2 p q) = rowLeafC (cur2 x) p q := by
  unfold k1_pay2 k1_pay1
  simp only [mulf_apply, logistic_at, tanh_at, shapeCast_self]
  rw [slice_apply 0 0 (by decide) rfl _ _ p q, slice_apply 1024 4 (by decide) rfl _ _ p q]
  rfl

/-- The stored hidden state at (p, q). -/
theorem hidden_apply (x : Vec Ideal S1024x1280 .f32) (p : Fin 1024) (q : Fin 256) :
    k1_pay3 x (ix2 p q) = rowLeafH (cur2 x) p q := by
  unfold k1_pay3
  simp only [mulf_apply, logistic_at, tanh_at]
  rw [cell_apply]
  unfold k1_pay1
  rw [shapeCast_self, slice_apply 256 1 (by decide) rfl _ _ p q]
  rfl

end Cert.KernelIdeal.LeafPay

end
-- ==== Proof.RegionValue1.lean ====
/-
  What the leaf launch leaves in its two output arrays, as whole-array functions of the array it finds.

  The launch works on the 65536 leaf rows in 64 blocks of 1024: point `t` reads rows `t·1024 …` of the projection and
  writes back the same rows of the hidden and of the cell array.  A row's values depend on that row only, so block
  `t` of the result is block `t` of `TreeSpec.rowLeafH` / `rowLeafC` of the whole projection; the blocks cover
  all rows (row `r` lies in block `r / 1024`).
-/
import proofs.«102109_j83099027243631_1_alg».proof.Proof.Gen.KernelIdeal.Frame
import proofs.«102109_j83099027243631_1_alg».proof.Proof.LeafPay
import Idealize.ShloMosaic.Lib.Pipeline.Value

set_option maxRecDepth 16384

noncomputable section

namespace Cert.KernelIdeal.RegionValue1

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The projection rows as the launch finds them. -/
abbrev aX (c : Dev nD) : A2 65536 1280 := cur2 (V c (Pipeline.arrRef spec1 0) : S65536x1280.Idx → EReal)

/-- The hidden-state array the launch leaves. -/
def GH (c : Dev nD) : S65536x256.Idx → EReal := fun i => rowLeafH (aX V c) (i 0) (i 1)
/-- The cell-state array the launch leaves. -/
def GC (c : Dev nD) : S65536x256.Idx → EReal := fun i => rowLeafC (aX V c) (i 0) (i 1)

theorem hz : (![0, 0] : Fin 2 → Nat) = fun _ => 0 := funext fun a => by fin_cases a <;> rfl

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem rd0 (c : Dev nD) (t : Fin cfg1.N) (p : Fin 1024) (g : Fin 1280) (R : Fin 65536) (hR : R.val = t.val * 1024 + p.val) :
    iblk1 V c 0 t (ix2 p g) = aX V c R g := by
  show (V c (Pipeline.arrRef spec1 0) : S65536x1280.Idx → EReal) (((cfg1.win 0).blk t).view.emb (ix2 p g))
    = (V c (Pipeline.arrRef spec1 0) : S65536x1280.Idx → EReal) (ix2 R g)
  refine congrArg _ (funext fun a => Fin.ext ?_)
  obtain ⟨a0, b0, a1, b1, a2, b2⟩ := idx_facts t
  match a with
  | ⟨0, _⟩ => show win1_0.index t (0 : Fin 2) * 1024 + 1 * p.val = R.val; omega
  | ⟨1, _⟩ => show win1_0.index t (1 : Fin 2) * 1280 + 1 * g.val = g.val; omega

theorem flushedH (c : Dev nD) (t : Fin cfg1.N) :
    (dat1 V c).flushed 1 t = ((cfg1.win 1).blk t).view.read (Elt Ideal) (GH V c) := by
  show (cfg1.win 1).cut (grid1.coords t) ((dat1 V c).after 1 t) = _
  rw [after1_1]
  unfold out1_1
  rw [View.canon_unit_zero hz]
  simp only [View.ld_unit_zero (S := S1024x1280) hz]
  funext j
  obtain ⟨p, q, rfl⟩ : ∃ (p : Fin 1024) (q : Fin 256), j = ix2 p q := ⟨j 0, j 1, eq_ix2 j⟩
  have ht : t.val < 64 := lt_of_lt_of_eq t.isLt N_1
  have hp : p.val < 1024 := p.isLt
  have hR : t.val * 1024 + p.val < 65536 := by omega
  have hemb : ((cfg1.win 1).blk t).view.emb (ix2 p q) = ix2 (⟨t.val * 1024 + p.val, hR⟩ : Fin 65536) q := by
    refine funext fun a => Fin.ext ?_
    obtain ⟨a0, b0, a1, b1, a2, b2⟩ := idx_facts t
    match a with
    | ⟨0, _⟩ => show win1_1.index t (0 : Fin 2) * 1024 + 1 * p.val = t.val * 1024 + p.val; omega
    | ⟨1, _⟩ => show win1_1.index t (1 : Fin 2) * 256 + 1 * q.val = q.val; omega
  show k1_pay3 (iblk1 V c 0 t) (ix2 p q) = GH V c (((cfg1.win 1).blk t).view.emb (ix2 p q))
  rw [hemb]
  refine (LeafPay.hidden_apply (iblk1 V c 0 t) p q).trans ?_
  exact rowLeafH_congr _ _ p ⟨t.val * 1024 + p.val, hR⟩ (fun g => rd0 V c t p g _ rfl) q

theorem mem_blkH (t : Fin cfg1.N) (i : S65536x256.Idx) :
    i ∈ ((cfg1.win 1).blk t).view.set ↔ ∀ a : Fin 2, win1_1.index t a * S1024x256.size a ≤ (i a).val
      ∧ (i a).val < win1_1.index t a * S1024x256.size a + S1024x256.size a := by
  show i ∈ ((View.whole main_v10_0).slice (win1_1.rect t)).set ↔ _
  rw [View.set_slice_whole, Rect.mem_set_unit]
  exact Iff.rfl

theorem coverH (i : S65536x256.Idx) :
    ∃ t : Fin cfg1.N, (cfg1.win 1).flush t = true ∧ i ∈ ((cfg1.win 1).blk t).view.set := by
  have hi0 : (i 0).val < 65536 := (i 0).isLt
  have hi1 : (i 1).val < 256 := (i 1).isLt
  have hN : (i 0).val / 1024 < cfg1.N := lt_of_lt_of_eq (by omega : (i 0).val / 1024 < 64) N_1.symm
  refine ⟨⟨(i 0).val / 1024, hN⟩, flush1_1 _, ?_⟩
  rw [mem_blkH]
  have ⟨a0, b0, a1, b1, a2, b2⟩ := idx_facts (⟨(i 0).val / 1024, hN⟩ : Fin cfg1.N)
  intro a
  match a with
  | ⟨0, _⟩ =>
    show win1_1.index ⟨(i 0).val / 1024, hN⟩ (0 : Fin 2) * 1024 ≤ (i 0).val
      ∧ (i 0).val < win1_1.index ⟨(i 0).val / 1024, hN⟩ (0 : Fin 2) * 1024 + 1024
    have e0 : win1_1.index ⟨(i 0).val / 1024, hN⟩ (0 : Fin 2) = (i 0).val / 1024 := a1
    omega
  | ⟨1, _⟩ =>
    show win1_1.index ⟨(i 0).val / 1024, hN⟩ (1 : Fin 2) * 256 ≤ (i 1).val
      ∧ (i 1).val < win1_1.index ⟨(i 0).val / 1024, hN⟩ (1 : Fin 2) * 256 + 256
    omega

/-- The array window 1 leaves. -/
theorem region_h (c : Dev nD) : (dat1 V c).arrAt 1 cfg1.N = GH V c :=
  (dat1 V c).arrAt_eq_of_cover 1 (GH V c) (fun t _ => flushedH V c t) coverH

theorem flushedC (c : Dev nD) (t : Fin cfg1.N) :
    (dat1 V c).flushed 2 t = ((cfg1.win 2).blk t).view.read (Elt Ideal) (GC V c) := by
  show (cfg1.win 2).cut (grid1.coords t) ((dat1 V c).after 2 t) = _
  rw [after1_2]
  unfold out1_2
  rw [View.canon_unit_zero hz]
  simp only [View.ld_unit_zero (S := S1024x1280) hz]
  funext j
  obtain ⟨p, q, rfl⟩ : ∃ (p : Fin 1024) (q : Fin 256), j = ix2 p q := ⟨j 0, j 1, eq_ix2 j⟩
  have ht : t.val < 64 := lt_of_lt_of_eq t.isLt N_1
  have hp : p.val < 1024 := p.isLt
  have hR : t.val * 1024 + p.val < 65536 := by omega
  have hemb : ((cfg1.win 2).blk t).view.emb (ix2 p q) = ix2 (⟨t.val * 1024 + p.val, hR⟩ : Fin 65536) q := by
    refine funext fun a => Fin.ext ?_
    obtain ⟨a0, b0, a1, b1, a2, b2⟩ := idx_facts t
    match a with
    | ⟨0, _⟩ => show win1_2.index t (0 : Fin 2) * 1024 + 1 * p.val = t.val * 1024 + p.val; omega
    | ⟨1, _⟩ => show win1_2.index t (1 : Fin 2) * 256 + 1 * q.val = q.val; omega
  show k1_pay2 (iblk1 V c 0 t) (ix2 p q) = GC V c (((cfg1.win 2).blk t).view.emb (ix2 p q))
  rw [hemb]
  refine (LeafPay.cell_apply (iblk1 V c 0 t) p q).trans ?_
  exact rowLeafC_congr _ _ p ⟨t.val * 1024 + p.val, hR⟩ (fun g => rd0 V c t p g _ rfl) q

theorem mem_blkC (t : Fin cfg1.N) (i : S65536x256.Idx) :
    i ∈ ((cfg1.win 2).blk t).view.set ↔ ∀ a : Fin 2, win1_2.index t a * S1024x256.size a ≤ (i a).val
      ∧ (i a).val < win1_2.index t a * S1024x256.size a + S1024x256.size a := by
  show i ∈ ((View.whole main_v10_1).slice (win1_2.rect t)).set ↔ _
  rw [View.set_slice_whole, Rect.mem_set_unit]
  exact Iff.rfl

theorem coverC (i : S65536x256.Idx) :
    ∃ t : Fin cfg1.N, (cfg1.win 2).flush t = true ∧ i ∈ ((cfg1.win 2).blk t).view.set := by
  have hi0 : (i 0).val < 65536 := (i 0).isLt
  have hi1 : (i 1).val < 256 := (i 1).isLt
  have hN : (i 0).val / 1024 < cfg1.N := lt_of_lt_of_eq (by omega : (i 0).val / 1024 < 64) N_1.symm
  refine ⟨⟨(i 0).val / 1024, hN⟩, flush1_2 _, ?_⟩
  rw [mem_blkC]
  have ⟨a0, b0, a1, b1, a2, b2⟩ := idx_facts (⟨(i 0).val / 1024, hN⟩ : Fin cfg1.N)
  intro a
  match a with
  | ⟨0, _⟩ =>
    show win1_2.index ⟨(i 0).val / 1024, hN⟩ (0 : Fin 2) * 1024 ≤ (i 0).val
      ∧ (i 0).val < win1_2.index ⟨(i 0).val / 1024, hN⟩ (0 : Fin 2) * 1024 + 1024
    have e0 : win1_2.index ⟨(i 0).val / 1024, hN⟩ (0 : Fin 2) = (i 0).val / 1024 := a2
    omega
  | ⟨1, _⟩ =>
    show win1_2.index ⟨(i 0).val / 1024, hN⟩ (1 : Fin 2) * 256 ≤ (i 1).val
      ∧ (i 1).val < win1_2.index ⟨(i 0).val / 1024, hN⟩ (1 : Fin 2) * 256 + 256
    omega

/-- The array window 2 leaves. -/
theorem region_c (c : Dev nD) : (dat1 V c).arrAt 2 cfg1.N = GC V c :=
  (dat1 V c).arrAt_eq_of_cover 2 (GC V c) (fun t _ => flushedC V c t) coverC

end Cert.KernelIdeal.RegionValue1

end
-- ==== Proof.LevelPay2.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay2

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k2_pay3 lh rh wl wr x bl br (ix2 r g)
      = rowPre (cur2 x) (cur2 lh) (cur2 rh) (cur2 wl) (cur2 wr) (cur1 bl) (cur1 br) r g := by
  unfold k2_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k2_pay1 (k2_pay5 lh rh wl wr x bl br) (k2_pay6 lh rh wl wr x bl br lc) rc (ix2 p q)
      = rowC (rowPre (cur2 x) (cur2 lh) (cur2 rh) (cur2 wl) (cur2 wr) (cur1 bl) (cur1 br)) (cur2 lc) (cur2 rc) p q := by
  unfold k2_pay1 k2_pay5 k2_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k2_pay2 (k2_pay4 lh rh wl wr x bl br) (k2_pay5 lh rh wl wr x bl br) (k2_pay6 lh rh wl wr x bl br lc) rc (ix2 p q)
      = rowH (rowPre (cur2 x) (cur2 lh) (cur2 rh) (cur2 wl) (cur2 wr) (cur1 bl) (cur1 br)) (cur2 lc) (cur2 rc) p q := by
  unfold k2_pay2 k2_pay4
  simp only [mulf_apply, logistic_at, tanh_at]
  rw [cell_apply, slice_apply 256 1 (by decide) rfl _ _ p q, pre_apply]
  rfl

end Cert.KernelIdeal.LevelPay2

end
-- ==== Proof.RegionValue2.lean ====
/-
  What the level launch number 2 leaves in its two output arrays, as whole-array functions of the arrays it finds.

  The launch works on 32768 rows in 64 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay2
import Idealize.ShloMosaic.Lib.Pipeline.Value

set_option maxRecDepth 16384

noncomputable section

namespace Cert.KernelIdeal.RegionValue2

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 32768 1280 := cur2 (V c (Pipeline.arrRef spec2 0) : S32768x1280.Idx → EReal)
abbrev aLH (c : Dev nD) : A2 32768 256 := cur2 (V c (Pipeline.arrRef spec2 1) : S32768x256.Idx → EReal)
abbrev aRH (c : Dev nD) : A2 32768 256 := cur2 (V c (Pipeline.arrRef spec2 2) : S32768x256.Idx → EReal)
abbrev aLC (c : Dev nD) : A2 32768 256 := cur2 (V c (Pipeline.arrRef spec2 3) : S32768x256.Idx → EReal)
abbrev aRC (c : Dev nD) : A2 32768 256 := cur2 (V c (Pipeline.arrRef spec2 4) : S32768x256.Idx → EReal)
abbrev aWl (c : Dev nD) : A2 256 1280 := cur2 (V c (Pipeline.arrRef spec2 5) : S256x1280.Idx → EReal)
abbrev aWr (c : Dev nD) : A2 256 1280 := cur2 (V c (Pipeline.arrRef spec2 6) : S256x1280.Idx → EReal)
abbrev aBl (c : Dev nD) : A1 1280 := cur1 (V c (Pipeline.arrRef spec2 7) : S1280.Idx → EReal)
abbrev aBr (c : Dev nD) : A1 1280 := cur1 (V c (Pipeline.arrRef spec2 8) : S1280.Idx → EReal)

/-- The hidden-state array the launch leaves. -/
def GH (c : Dev nD) : S32768x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S32768x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 1) = 0
    ∧ win2_8.index t (0 : Fin 1) = 0 :=
  (by decide +kernel : ∀ t : Fin grid2.N, _)

/-! ## The blocks the point reads, off the whole arrays -/

theorem rd0 (c : Dev nD) (t : Fin cfg2.N) (p : Fin 512) (g : Fin 1280) (R : Fin 32768) (hR : R.val = t.val * 512 + p.val) :
    iblk2 V c 0 t (ix2 p g) = aX V c R g := by
  show (V c (Pipeline.arrRef spec2 0) : S32768x1280.Idx → EReal) (((cfg2.win 0).blk t).view.emb (ix2 p g))
    = (V c (Pipeline.arrRef spec2 0) : S32768x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_0.index t (0 : Fin 2) * 512 + 1 * p.val = R.val; omega
  | ⟨1, _⟩ => show win2_0.index t (1 : Fin 2) * 1280 + 1 * g.val = g.val; omega

theorem rd1 (c : Dev nD) (t : Fin cfg2.N) (p : Fin 512) (g : Fin 256) (R : Fin 32768) (hR : R.val = t.val * 512 + p.val) :
    iblk2 V c 1 t (ix2 p g) = aLH V c R g := by
  show (V c (Pipeline.arrRef spec2 1) : S32768x256.Idx → EReal) (((cfg2.win 1).blk t).view.emb (ix2 p g))
    = (V c (Pipeline.arrRef spec2 1) : S32768x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_1.index t (0 : Fin 2) * 512 + 1 * p.val = R.val; omega
  | ⟨1, _⟩ => show win2_1.index t (1 : Fin 2) * 256 + 1 * g.val = g.val; omega

theorem rd2 (c : Dev nD) (t : Fin cfg2.N) (p : Fin 512) (g : Fin 256) (R : Fin 32768) (hR : R.val = t.val * 512 + p.val) :
    iblk2 V c 2 t (ix2 p g) = aRH V c R g := by
  show (V c (Pipeline.arrRef spec2 2) : S32768x256.Idx → EReal) (((cfg2.win 2).blk t).view.emb (ix2 p g))
    = (V c (Pipeline.arrRef spec2 2) : S32768x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_2.index t (0 : Fin 2) * 512 + 1 * p.val = R.val; omega
  | ⟨1, _⟩ => show win2_2.index t (1 : Fin 2) * 256 + 1 * g.val = g.val; omega

theorem rd3 (c : Dev nD) (t : Fin cfg2.N) (p : Fin 512) (g : Fin 256) (R : Fin 32768) (hR : R.val = t.val * 512 + p.val) :
    iblk2 V c 3 t (ix2 p g) = aLC V c R g := by
  show (V c (Pipeline.arrRef spec2 3) : S32768x256.Idx → EReal) (((cfg2.win 3).blk t).view.emb (ix2 p g))
    = (V c (Pipeline.arrRef spec2 3) : S32768x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_3.index t (0 : Fin 2) * 512 + 1 * p.val = R.val; omega
  | ⟨1, _⟩ => show win2_3.index t (1 : Fin 2) * 256 + 1 * g.val = g.val; omega

theorem rd4 (c : Dev nD) (t : Fin cfg2.N) (p : Fin 512) (g : Fin 256) (R : Fin 32768) (hR : R.val = t.val * 512 + p.val) :
    iblk2 V c 4 t (ix2 p g) = aRC V c R g := by
  show (V c (Pipeline.arrRef spec2 4) : S32768x256.Idx → EReal) (((cfg2.win 4).blk t).view.emb (ix2 p g))
    = (V c (Pipeline.arrRef spec2 4) : S32768x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_4.index t (0 : Fin 2) * 512 + 1 * p.val = R.val; omega
  | ⟨1, _⟩ => show win2_4.index t (1 : Fin 2) * 256 + 1 * g.val = g.val; omega

theorem rd5 (c : Dev nD) (t : Fin cfg2.N) : cur2 (iblk2 V c 5 t) = aWl V c := by
  funext k g
  show (V c (Pipeline.arrRef spec2 5) : S256x1280.Idx → EReal) (((cfg2.win 5).blk t).view.emb (ix2 k g))
    = (V c (Pipeline.arrRef spec2 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_5.index t (0 : Fin 2) * 256 + 1 * k.val = k.val; omega
  | ⟨1, _⟩ => show win2_5.index t (1 : Fin 2) * 1280 + 1 * g.val = g.val; omega

theorem rd6 (c : Dev nD) (t : Fin cfg2.N) : cur2 (iblk2 V c 6 t) = aWr V c := by
  funext k g
  show (V c (Pipeline.arrRef spec2 6) : S256x1280.Idx → EReal) (((cfg2.win 6).blk t).view.emb (ix2 k g))
    = (V c (Pipeline.arrRef spec2 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_6.index t (0 : Fin 2) * 256 + 1 * k.val = k.val; omega
  | ⟨1, _⟩ => show win2_6.index t (1 : Fin 2) * 1280 + 1 * g.val = g.val; omega

theorem rd7 (c : Dev nD) (t : Fin cfg2.N) : cur1 (iblk2 V c 7 t) = aBl V c := by
  funext g
  show (V c (Pipeline.arrRef spec2 7) : S1280.Idx → EReal) (((cfg2.win 7).blk t).view.emb (ix1 g))
    = (V c (Pipeline.arrRef spec2 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_7.index t (0 : Fin 1) * 1280 + 1 * g.val = g.val; omega

theorem rd8 (c : Dev nD) (t : Fin cfg2.N) : cur1 (iblk2 V c 8 t) = aBr V c := by
  funext g
  show (V c (Pipeline.arrRef spec2 8) : S1280.Idx → EReal) (((cfg2.win 8).blk t).view.emb (ix1 g))
    = (V c (Pipeline.arrRef spec2 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win2_8.index t (0 : Fin 1) * 1280 + 1 * g.val = g.val; omega

/-! ## The hidden-state array (window 9) -/

/-- What point `t` writes back of window 9 is block `t` of `GH`. -/
theorem flushedH (c : Dev nD) (t : Fin cfg2.N) :
    (dat2 V c).flushed 9 t = ((cfg2.win 9).blk t).view.read (Elt Ideal) (GH V c) := by
  show (cfg2.win 9).cut (grid2.coords t) ((dat2 V c).after 9 t) = _
  rw [after2_9]
  unfold out2_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 64 := lt_of_lt_of_eq t.isLt N_2
  have hp : p.val < 512 := p.isLt
  have hR : t.val * 512 + p.val < 32768 := by omega
  have hemb : ((cfg2.win 9).blk t).view.emb (ix2 p q) = ix2 (⟨t.val * 512 + p.val, hR⟩ : Fin 32768) q := by
    refine funext fun a => Fin.ext ?_
    obtain ⟨a0, b0, a1, b1, a2, b2, a3, b3, a4, b4, a9, b9, a10, b10, a5, b5, a6, b6, a7, a8⟩ := idx_facts t
    match a with
    | ⟨0, _⟩ => show win2_9.index t (0 : Fin 2) * 512 + 1 * p.val = t.val * 512 + p.val; omega
    | ⟨1, _⟩ => show win2_9.index t (1 : Fin 2) * 256 + 1 * q.val = q.val; omega
  show k2_pay2 (k2_pay4 (iblk2 V c 1 t) (iblk2 V c 2 t) (iblk2 V c 5 t) (iblk2 V c 6 t) (iblk2 V c 0 t) (iblk2 V c 7 t) (iblk2 V c 8 t)) (k2_pay5 (iblk2 V c 1 t) (iblk2 V c 2 t) (iblk2 V c 5 t) (iblk2 V c 6 t) (iblk2 V c 0 t) (iblk2 V c 7 t) (iblk2 V c 8 t)) (k2_pay6 (iblk2 V c 1 t) (iblk2 V c 2 t) (iblk2 V c 5 t) (iblk2 V c 6 t) (iblk2 V c 0 t) (iblk2 V c 7 t) (iblk2 V c 8 t) (iblk2 V c 3 t)) (iblk2 V c 4 t) (ix2 p q) = GH V c (((cfg2.win 9).blk t).view.emb (ix2 p q))
  rw [hemb]
  refine (LevelPay2.hidden_apply (iblk2 V c 0 t) (iblk2 V c 1 t) (iblk2 V c 2 t) (iblk2 V c 3 t) (iblk2 V c 4 t)
    (iblk2 V c 5 t) (iblk2 V c 6 t) (iblk2 V c 7 t) (iblk2 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg2.N) (i : S32768x256.Idx) :
    i ∈ ((cfg2.win 9).blk t).view.set ↔ ∀ a : Fin 2, win2_9.index t a * S512x256.size a ≤ (i a).val
      ∧ (i a).val < win2_9.index t a * S512x256.size a + S512x256.size a := by
  show i ∈ ((View.whole main_v35_0).slice (win2_9.rect t)).set ↔ _
  rw [View.set_slice_whole, Rect.mem_set_unit]
  exact Iff.rfl

/-- Every row is in the block of the point `row / 512`. -/
theorem coverH (i : S32768x256.Idx) :
    ∃ t : Fin cfg2.N, (cfg2.win 9).flush t = true ∧ i ∈ ((cfg2.win 9).blk t).view.set := by
  have hi0 : (i 0).val < 32768 := (i 0).isLt
  have hi1 : (i 1).val < 256 := (i 1).isLt
  have hN : (i 0).val / 512 < cfg2.N := lt_of_lt_of_eq (by omega : (i 0).val / 512 < 64) N_2.symm
  refine ⟨⟨(i 0).val / 512, hN⟩, flush2_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg2.N)
  intro a
  match a with
  | ⟨0, _⟩ =>
    show win2_9.index ⟨(i 0).val / 512, hN⟩ (0 : Fin 2) * 512 ≤ (i 0).val
      ∧ (i 0).val < win2_9.index ⟨(i 0).val / 512, hN⟩ (0 : Fin 2) * 512 + 512
    have e0 : win2_9.index ⟨(i 0).val / 512, hN⟩ (0 : Fin 2) = (i 0).val / 512 := a9
    omega
  | ⟨1, _⟩ =>
    show win2_9.index ⟨(i 0).val / 512, hN⟩ (1 : Fin 2) * 256 ≤ (i 1).val
      ∧ (i 1).val < win2_9.index ⟨(i 0).val / 512, hN⟩ (1 : Fin 2) * 256 + 256
    omega

/-- The array window 9 leaves: `GH` of the arrays as the region finds them. -/
theorem region_h (c : Dev nD) : (dat2 V c).arrAt 9 cfg2.N = GH V c :=
  (dat2 V c).arrAt_eq_of_cover 9 (GH V c) (fun t _ => flushedH V c t) coverH

/-! ## The cell-state array (window 10) -/

/-- What point `t` writes back of window 10 is block `t` of `GC`. -/
theorem flushedC (c : Dev nD) (t : Fin cfg2.N) :
    (dat2 V c).flushed 10 t = ((cfg2.win 10).blk t).view.read (Elt Ideal) (GC V c) := by
  show (cfg2.win 10).cut (grid2.coords t) ((dat2 V c).after 10 t) = _
  rw [after2_10]
  unfold out2_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 64 := lt_of_lt_of_eq t.isLt N_2
  have hp : p.val < 512 := p.isLt
  have hR : t.val * 512 + p.val < 32768 := by omega
  have hemb : ((cfg2.win 10).blk t).view.emb (ix2 p q) = ix2 (⟨t.val * 512 + p.val, hR⟩ : Fin 32768) q := by
    refine funext fun a => Fin.ext ?_
    obtain ⟨a0, b0, a1, b1, a2, b2, a3, b3, a4, b4, a9, b9, a10, b10, a5, b5, a6, b6, a7, a8⟩ := idx_facts t
    match a with
    | ⟨0, _⟩ => show win2_10.index t (0 : Fin 2) * 512 + 1 * p.val = t.val * 512 + p.val; omega
    | ⟨1, _⟩ => show win2_10.index t (1 : Fin 2) * 256 + 1 * q.val = q.val; omega
  show k2_pay1 (k2_pay5 (iblk2 V c 1 t) (iblk2 V c 2 t) (iblk2 V c 5 t) (iblk2 V c 6 t) (iblk2 V c 0 t) (iblk2 V c 7 t) (iblk2 V c 8 t)) (k2_pay6 (iblk2 V c 1 t) (iblk2 V c 2 t) (iblk2 V c 5 t) (iblk2 V c 6 t) (iblk2 V c 0 t) (iblk2 V c 7 t) (iblk2 V c 8 t) (iblk2 V c 3 t)) (iblk2 V c 4 t) (ix2 p q) = GC V c (((cfg2.win 10).blk t).view.emb (ix2 p q))
  rw [hemb]
  refine (LevelPay2.cell_apply (iblk2 V c 0 t) (iblk2 V c 1 t) (iblk2 V c 2 t) (iblk2 V c 3 t) (iblk2 V c 4 t)
    (iblk2 V c 5 t) (iblk2 V c 6 t) (iblk2 V c 7 t) (iblk2 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg2.N) (i : S32768x256.Idx) :
    i ∈ ((cfg2.win 10).blk t).view.set ↔ ∀ a : Fin 2, win2_10.index t a * S512x256.size a ≤ (i a).val
      ∧ (i a).val < win2_10.index t a * S512x256.size a + S512x256.size a := by
  show i ∈ ((View.whole main_v35_1).slice (win2_10.rect t)).set ↔ _
  rw [View.set_slice_whole, Rect.mem_set_unit]
  exact Iff.rfl

/-- Every row is in the block of the point `row / 512`. -/
theorem coverC (i : S32768x256.Idx) :
    ∃ t : Fin cfg2.N, (cfg2.win 10).flush t = true ∧ i ∈ ((cfg2.win 10).blk t).view.set := by
  have hi0 : (i 0).val < 32768 := (i 0).isLt
  have hi1 : (i 1).val < 256 := (i 1).isLt
  have hN : (i 0).val / 512 < cfg2.N := lt_of_lt_of_eq (by omega : (i 0).val / 512 < 64) N_2.symm
  refine ⟨⟨(i 0).val / 512, hN⟩, flush2_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg2.N)
  intro a
  match a with
  | ⟨0, _⟩ =>
    show win2_10.index ⟨(i 0).val / 512, hN⟩ (0 : Fin 2) * 512 ≤ (i 0).val
      ∧ (i 0).val < win2_10.index ⟨(i 0).val / 512, hN⟩ (0 : Fin 2) * 512 + 512
    have e0 : win2_10.index ⟨(i 0).val / 512, hN⟩ (0 : Fin 2) = (i 0).val / 512 := a10
    omega
  | ⟨1, _⟩ =>
    show win2_10.index ⟨(i 0).val / 512, hN⟩ (1 : Fin 2) * 256 ≤ (i 1).val
      ∧ (i 1).val < win2_10.index ⟨(i 0).val / 512, hN⟩ (1 : Fin 2) * 256 + 256
    omega

/-- The array window 10 leaves: `GC` of the arrays as the region finds them. -/
theorem region_c (c : Dev nD) : (dat2 V c).arrAt 10 cfg2.N = GC V c :=
  (dat2 V c).arrAt_eq_of_cover 10 (GC V c) (fun t _ => flushedC V c t) coverC

end Cert.KernelIdeal.RegionValue2

end
-- ==== Proof.LevelPay3.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay3

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k3_pay3 lh rh wl wr x bl br (ix2 r g)
      = rowPre (cur2 x) (cur2 lh) (cur2 rh) (cur2 wl) (cur2 wr) (cur1 bl) (cur1 br) r g := by
  unfold k3_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k3_pay1 (k3_pay5 lh rh wl wr x bl br) (k3_pay6 lh rh wl wr x bl br lc) rc (ix2 p q)
      = rowC (rowPre (cur2 x) (cur2 lh) (cur2 rh) (cur2 wl) (cur2 wr) (cur1 bl) (cur1 br)) (cur2 lc) (cur2 rc) p q := by
  unfold k3_pay1 k3_pay5 k3_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k3_pay2 (k3_pay4 lh rh wl wr x bl br) (k3_pay5 lh rh wl wr x bl br) (k3_pay6 lh rh wl wr x bl br lc) rc (ix2 p q)
      = rowH (rowPre (cur2 x) (cur2 lh) (cur2 rh) (cur2 wl) (cur2 wr) (cur1 bl) (cur1 br)) (cur2 lc) (cur2 rc) p q := by
  unfold k3_pay2 k3_pay4
  simp only [mulf_apply, logistic_at, tanh_at]
  rw [cell_apply, slice_apply 256 1 (by decide) rfl _ _ p q, pre_apply]
  rfl

end Cert.KernelIdeal.LevelPay3

end
-- ==== Proof.RegionValue3.lean ====
/-
  What the level launch number 3 leaves in its two output arrays, as whole-array functions of the arrays it finds.

  The launch works on 16384 rows in 32 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay3
import Idealize.ShloMosaic.Lib.Pipeline.Value

set_option maxRecDepth 16384

noncomputable section

namespace Cert.KernelIdeal.RegionValue3

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 16384 1280 := cur2 (V c (Pipeline.arrRef spec3 0) : S16384x1280.Idx → EReal)
abbrev aLH (c : Dev nD) : A2 16384 256 := cur2 (V c (Pipeline.arrRef spec3 1) : S16384x256.Idx → EReal)
abbrev aRH (c : Dev nD) : A2 16384 256 := cur2 (V c (Pipeline.arrRef spec3 2) : S16384x256.Idx → EReal)
abbrev aLC (c : Dev nD) : A2 16384 256 := cur2 (V c (Pipeline.arrRef spec3 3) : S16384x256.Idx → EReal)
abbrev aRC (c : Dev nD) : A2 16384 256 := cur2 (V c (Pipeline.arrRef spec3 4) : S16384x256.Idx → EReal)
abbrev aWl (c : Dev nD) : A2 256 1280 := cur2 (V c (Pipeline.arrRef spec3 5) : S256x1280.Idx → EReal)
abbrev aWr (c : Dev nD) : A2 256 1280 := cur2 (V c (Pipeline.arrRef spec3 6) : S256x1280.Idx → EReal)
abbrev aBl (c : Dev nD) : A1 1280 := cur1 (V c (Pipeline.arrRef spec3 7) : S1280.Idx → EReal)
abbrev aBr (c : Dev nD) : A1 1280 := cur1 (V c (Pipeline.arrRef spec3 8) : S1280.Idx → EReal)

/-- The hidden-state array the launch leaves. -/
def GH (c : Dev nD) : S16384x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S16384x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_9.index t (0 : Fin 2) = t.val ∧ win3_9.index t (1 : Fin 2) = 0
    ∧ win3_10.index t (0 : Fin 2) = t.val ∧ win3_10.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 1) = 0
    ∧ win3_8.index t (0 : Fin 1) = 0 :=
  (by decide +kernel : ∀ t : Fin grid3.N, _)

/-! ## The blocks the point reads, off the whole arrays -/

theorem rd0 (c : Dev nD) (t : Fin cfg3.N) (p : Fin 512) (g : Fin 1280) (R : Fin 16384) (hR : R.val = t.val * 512 + p.val) :
    iblk3 V c 0 t (ix2 p g) = aX V c R g := by
  show (V c (Pipeline.arrRef spec3 0) : S16384x1280.Idx → EReal) (((cfg3.win 0).blk t).view.emb (ix2 p g))
    = (V c (Pipeline.arrRef spec3 0) : S16384x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_0.index t (0 : Fin 2) * 512 + 1 * p.val = R.val; omega
  | ⟨1, _⟩ => show win3_0.index t (1 : Fin 2) * 1280 + 1 * g.val = g.val; omega

theorem rd1 (c : Dev nD) (t : Fin cfg3.N) (p : Fin 512) (g : Fin 256) (R : Fin 16384) (hR : R.val = t.val * 512 + p.val) :
    iblk3 V c 1 t (ix2 p g) = aLH V c R g := by
  show (V c (Pipeline.arrRef spec3 1) : S16384x256.Idx → EReal) (((cfg3.win 1).blk t).view.emb (ix2 p g))
    = (V c (Pipeline.arrRef spec3 1) : S16384x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_1.index t (0 : Fin 2) * 512 + 1 * p.val = R.val; omega
  | ⟨1, _⟩ => show win3_1.index t (1 : Fin 2) * 256 + 1 * g.val = g.val; omega

theorem rd2 (c : Dev nD) (t : Fin cfg3.N) (p : Fin 512) (g : Fin 256) (R : Fin 16384) (hR : R.val = t.val * 512 + p.val) :
    iblk3 V c 2 t (ix2 p g) = aRH V c R g := by
  show (V c (Pipeline.arrRef spec3 2) : S16384x256.Idx → EReal) (((cfg3.win 2).blk t).view.emb (ix2 p g))
    = (V c (Pipeline.arrRef spec3 2) : S16384x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_2.index t (0 : Fin 2) * 512 + 1 * p.val = R.val; omega
  | ⟨1, _⟩ => show win3_2.index t (1 : Fin 2) * 256 + 1 * g.val = g.val; omega

theorem rd3 (c : Dev nD) (t : Fin cfg3.N) (p : Fin 512) (g : Fin 256) (R : Fin 16384) (hR : R.val = t.val * 512 + p.val) :
    iblk3 V c 3 t (ix2 p g) = aLC V c R g := by
  show (V c (Pipeline.arrRef spec3 3) : S16384x256.Idx → EReal) (((cfg3.win 3).blk t).view.emb (ix2 p g))
    = (V c (Pipeline.arrRef spec3 3) : S16384x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_3.index t (0 : Fin 2) * 512 + 1 * p.val = R.val; omega
  | ⟨1, _⟩ => show win3_3.index t (1 : Fin 2) * 256 + 1 * g.val = g.val; omega

theorem rd4 (c : Dev nD) (t : Fin cfg3.N) (p : Fin 512) (g : Fin 256) (R : Fin 16384) (hR : R.val = t.val * 512 + p.val) :
    iblk3 V c 4 t (ix2 p g) = aRC V c R g := by
  show (V c (Pipeline.arrRef spec3 4) : S16384x256.Idx → EReal) (((cfg3.win 4).blk t).view.emb (ix2 p g))
    = (V c (Pipeline.arrRef spec3 4) : S16384x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_4.index t (0 : Fin 2) * 512 + 1 * p.val = R.val; omega
  | ⟨1, _⟩ => show win3_4.index t (1 : Fin 2) * 256 + 1 * g.val = g.val; omega

theorem rd5 (c : Dev nD) (t : Fin cfg3.N) : cur2 (iblk3 V c 5 t) = aWl V c := by
  funext k g
  show (V c (Pipeline.arrRef spec3 5) : S256x1280.Idx → EReal) (((cfg3.win 5).blk t).view.emb (ix2 k g))
    = (V c (Pipeline.arrRef spec3 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_5.index t (0 : Fin 2) * 256 + 1 * k.val = k.val; omega
  | ⟨1, _⟩ => show win3_5.index t (1 : Fin 2) * 1280 + 1 * g.val = g.val; omega

theorem rd6 (c : Dev nD) (t : Fin cfg3.N) : cur2 (iblk3 V c 6 t) = aWr V c := by
  funext k g
  show (V c (Pipeline.arrRef spec3 6) : S256x1280.Idx → EReal) (((cfg3.win 6).blk t).view.emb (ix2 k g))
    = (V c (Pipeline.arrRef spec3 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_6.index t (0 : Fin 2) * 256 + 1 * k.val = k.val; omega
  | ⟨1, _⟩ => show win3_6.index t (1 : Fin 2) * 1280 + 1 * g.val = g.val; omega

theorem rd7 (c : Dev nD) (t : Fin cfg3.N) : cur1 (iblk3 V c 7 t) = aBl V c := by
  funext g
  show (V c (Pipeline.arrRef spec3 7) : S1280.Idx → EReal) (((cfg3.win 7).blk t).view.emb (ix1 g))
    = (V c (Pipeline.arrRef spec3 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_7.index t (0 : Fin 1) * 1280 + 1 * g.val = g.val; omega

theorem rd8 (c : Dev nD) (t : Fin cfg3.N) : cur1 (iblk3 V c 8 t) = aBr V c := by
  funext g
  show (V c (Pipeline.arrRef spec3 8) : S1280.Idx → EReal) (((cfg3.win 8).blk t).view.emb (ix1 g))
    = (V c (Pipeline.arrRef spec3 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win3_8.index t (0 : Fin 1) * 1280 + 1 * g.val = g.val; omega

/-! ## The hidden-state array (window 9) -/

/-- What point `t` writes back of window 9 is block `t` of `GH`. -/
theorem flushedH (c : Dev nD) (t : Fin cfg3.N) :
    (dat3 V c).flushed 9 t = ((cfg3.win 9).blk t).view.read (Elt Ideal) (GH V c) := by
  show (cfg3.win 9).cut (grid3.coords t) ((dat3 V c).after 9 t) = _
  rw [after3_9]
  unfold out3_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 32 := lt_of_lt_of_eq t.isLt N_3
  have hp : p.val < 512 := p.isLt
  have hR : t.val * 512 + p.val < 16384 := by omega
  have hemb : ((cfg3.win 9).blk t).view.emb (ix2 p q) = ix2 (⟨t.val * 512 + p.val, hR⟩ : Fin 16384) q := by
    refine funext fun a => Fin.ext ?_
    obtain ⟨a0, b0, a1, b1, a2, b2, a3, b3, a4, b4, a9, b9, a10, b10, a5, b5, a6, b6, a7, a8⟩ := idx_facts t
    match a with
    | ⟨0, _⟩ => show win3_9.index t (0 : Fin 2) * 512 + 1 * p.val = t.val * 512 + p.val; omega
    | ⟨1, _⟩ => show win3_9.index t (1 : Fin 2) * 256 + 1 * q.val = q.val; omega
  show k3_pay2 (k3_pay4 (iblk3 V c 1 t) (iblk3 V c 2 t) (iblk3 V c 5 t) (iblk3 V c 6 t) (iblk3 V c 0 t) (iblk3 V c 7 t) (iblk3 V c 8 t)) (k3_pay5 (iblk3 V c 1 t) (iblk3 V c 2 t) (iblk3 V c 5 t) (iblk3 V c 6 t) (iblk3 V c 0 t) (iblk3 V c 7 t) (iblk3 V c 8 t)) (k3_pay6 (iblk3 V c 1 t) (iblk3 V c 2 t) (iblk3 V c 5 t) (iblk3 V c 6 t) (iblk3 V c 0 t) (iblk3 V c 7 t) (iblk3 V c 8 t) (iblk3 V c 3 t)) (iblk3 V c 4 t) (ix2 p q) = GH V c (((cfg3.win 9).blk t).view.emb (ix2 p q))
  rw [hemb]
  refine (LevelPay3.hidden_apply (iblk3 V c 0 t) (iblk3 V c 1 t) (iblk3 V c 2 t) (iblk3 V c 3 t) (iblk3 V c 4 t)
    (iblk3 V c 5 t) (iblk3 V c 6 t) (iblk3 V c 7 t) (iblk3 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg3.N) (i : S16384x256.Idx) :
    i ∈ ((cfg3.win 9).blk t).view.set ↔ ∀ a : Fin 2, win3_9.index t a * S512x256.size a ≤ (i a).val
      ∧ (i a).val < win3_9.index t a * S512x256.size a + S512x256.size a := by
  show i ∈ ((View.whole main_v60_0).slice (win3_9.rect t)).set ↔ _
  rw [View.set_slice_whole, Rect.mem_set_unit]
  exact Iff.rfl

/-- Every row is in the block of the point `row / 512`. -/
theorem coverH (i : S16384x256.Idx) :
    ∃ t : Fin cfg3.N, (cfg3.win 9).flush t = true ∧ i ∈ ((cfg3.win 9).blk t).view.set := by
  have hi0 : (i 0).val < 16384 := (i 0).isLt
  have hi1 : (i 1).val < 256 := (i 1).isLt
  have hN : (i 0).val / 512 < cfg3.N := lt_of_lt_of_eq (by omega : (i 0).val / 512 < 32) N_3.symm
  refine ⟨⟨(i 0).val / 512, hN⟩, flush3_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg3.N)
  intro a
  match a with
  | ⟨0, _⟩ =>
    show win3_9.index ⟨(i 0).val / 512, hN⟩ (0 : Fin 2) * 512 ≤ (i 0).val
      ∧ (i 0).val < win3_9.index ⟨(i 0).val / 512, hN⟩ (0 : Fin 2) * 512 + 512
    have e0 : win3_9.index ⟨(i 0).val / 512, hN⟩ (0 : Fin 2) = (i 0).val / 512 := a9
    omega
  | ⟨1, _⟩ =>
    show win3_9.index ⟨(i 0).val / 512, hN⟩ (1 : Fin 2) * 256 ≤ (i 1).val
      ∧ (i 1).val < win3_9.index ⟨(i 0).val / 512, hN⟩ (1 : Fin 2) * 256 + 256
    omega

/-- The array window 9 leaves: `GH` of the arrays as the region finds them. -/
theorem region_h (c : Dev nD) : (dat3 V c).arrAt 9 cfg3.N = GH V c :=
  (dat3 V c).arrAt_eq_of_cover 9 (GH V c) (fun t _ => flushedH V c t) coverH

/-! ## The cell-state array (window 10) -/

/-- What point `t` writes back of window 10 is block `t` of `GC`. -/
theorem flushedC (c : Dev nD) (t : Fin cfg3.N) :
    (dat3 V c).flushed 10 t = ((cfg3.win 10).blk t).view.read (Elt Ideal) (GC V c) := by
  show (cfg3.win 10).cut (grid3.coords t) ((dat3 V c).after 10 t) = _
  rw [after3_10]
  unfold out3_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 32 := lt_of_lt_of_eq t.isLt N_3
  have hp : p.val < 512 := p.isLt
  have hR : t.val * 512 + p.val < 16384 := by omega
  have hemb : ((cfg3.win 10).blk t).view.emb (ix2 p q) = ix2 (⟨t.val * 512 + p.val, hR⟩ : Fin 16384) q := by
    refine funext fun a => Fin.ext ?_
    obtain ⟨a0, b0, a1, b1, a2, b2, a3, b3, a4, b4, a9, b9, a10, b10, a5, b5, a6, b6, a7, a8⟩ := idx_facts t
    match a with
    | ⟨0, _⟩ => show win3_10.index t (0 : Fin 2) * 512 + 1 * p.val = t.val * 512 + p.val; omega
    | ⟨1, _⟩ => show win3_10.index t (1 : Fin 2) * 256 + 1 * q.val = q.val; omega
  show k3_pay1 (k3_pay5 (iblk3 V c 1 t) (iblk3 V c 2 t) (iblk3 V c 5 t) (iblk3 V c 6 t) (iblk3 V c 0 t) (iblk3 V c 7 t) (iblk3 V c 8 t)) (k3_pay6 (iblk3 V c 1 t) (iblk3 V c 2 t) (iblk3 V c 5 t) (iblk3 V c 6 t) (iblk3 V c 0 t) (iblk3 V c 7 t) (iblk3 V c 8 t) (iblk3 V c 3 t)) (iblk3 V c 4 t) (ix2 p q) = GC V c (((cfg3.win 10).blk t).view.emb (ix2 p q))
  rw [hemb]
  refine (LevelPay3.cell_apply (iblk3 V c 0 t) (iblk3 V c 1 t) (iblk3 V c 2 t) (iblk3 V c 3 t) (iblk3 V c 4 t)
    (iblk3 V c 5 t) (iblk3 V c 6 t) (iblk3 V c 7 t) (iblk3 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg3.N) (i : S16384x256.Idx) :
    i ∈ ((cfg3.win 10).blk t).view.set ↔ ∀ a : Fin 2, win3_10.index t a * S512x256.size a ≤ (i a).val
      ∧ (i a).val < win3_10.index t a * S512x256.size a + S512x256.size a := by
  show i ∈ ((View.whole main_v60_1).slice (win3_10.rect t)).set ↔ _
  rw [View.set_slice_whole, Rect.mem_set_unit]
  exact Iff.rfl

/-- Every row is in the block of the point `row / 512`. -/
theorem coverC (i : S16384x256.Idx) :
    ∃ t : Fin cfg3.N, (cfg3.win 10).flush t = true ∧ i ∈ ((cfg3.win 10).blk t).view.set := by
  have hi0 : (i 0).val < 16384 := (i 0).isLt
  have hi1 : (i 1).val < 256 := (i 1).isLt
  have hN : (i 0).val / 512 < cfg3.N := lt_of_lt_of_eq (by omega : (i 0).val / 512 < 32) N_3.symm
  refine ⟨⟨(i 0).val / 512, hN⟩, flush3_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg3.N)
  intro a
  match a with
  | ⟨0, _⟩ =>
    show win3_10.index ⟨(i 0).val / 512, hN⟩ (0 : Fin 2) * 512 ≤ (i 0).val
      ∧ (i 0).val < win3_10.index ⟨(i 0).val / 512, hN⟩ (0 : Fin 2) * 512 + 512
    have e0 : win3_10.index ⟨(i 0).val / 512, hN⟩ (0 : Fin 2) = (i 0).val / 512 := a10
    omega
  | ⟨1, _⟩ =>
    show win3_10.index ⟨(i 0).val / 512, hN⟩ (1 : Fin 2) * 256 ≤ (i 1).val
      ∧ (i 1).val < win3_10.index ⟨(i 0).val / 512, hN⟩ (1 : Fin 2) * 256 + 256
    omega

/-- The array window 10 leaves: `GC` of the arrays as the region finds them. -/
theorem region_c (c : Dev nD) : (dat3 V c).arrAt 10 cfg3.N = GC V c :=
  (dat3 V c).arrAt_eq_of_cover 10 (GC V c) (fun t _ => flushedC V c t) coverC

end Cert.KernelIdeal.RegionValue3

end
-- ==== Proof.LevelPay4.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay4

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k4_pay3 lh rh wl wr x bl br (ix2 r g)
      = rowPre (cur2 x) (cur2 lh) (cur2 rh) (cur2 wl) (cur2 wr) (cur1 bl) (cur1 br) r g := by
  unfold k4_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k4_pay1 (k4_pay5 lh rh wl wr x bl br) (k4_pay6 lh rh wl wr x bl br lc) rc (ix2 p q)
      = rowC (rowPre (cur2 x) (cur2 lh) (cur2 rh) (cur2 wl) (cur2 wr) (cur1 bl) (cur1 br)) (cur2 lc) (cur2 rc) p q := by
  unfold k4_pay1 k4_pay5 k4_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k4_pay2 (k4_pay4 lh rh wl wr x bl br) (k4_pay5 lh rh wl wr x bl br) (k4_pay6 lh rh wl wr x bl br lc) rc (ix2 p q)
      = rowH (rowPre (cur2 x) (cur2 lh) (cur2 rh) (cur2 wl) (cur2 wr) (cur1 bl) (cur1 br)) (cur2 lc) (cur2 rc) p q := by
  unfold k4_pay2 k4_pay4
  simp only [mulf_apply, logistic_at, tanh_at]
  rw [cell_apply, slice_apply 256 1 (by decide) rfl _ _ p q, pre_apply]
  rfl

end Cert.KernelIdeal.LevelPay4

end
-- ==== Proof.RegionValue4.lean ====
/-
  What the level launch number 4 leaves in its two output arrays, as whole-array functions of the arrays it finds.

  The launch works on 8192 rows in 16 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay4
import Idealize.ShloMosaic.Lib.Pipeline.Value

set_option maxRecDepth 16384

noncomputable section

namespace Cert.KernelIdeal.RegionValue4

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 8192 1280 := cur2 (V c (Pipeline.arrRef spec4 0) : S8192x1280.Idx → EReal)
abbrev aLH (c : Dev nD) : A2 8192 256 := cur2 (V c (Pipeline.arrRef spec4 1) : S8192x256.Idx → EReal)
abbrev aRH (c : Dev nD) : A2 8192 256 := cur2 (V c (Pipeline.arrRef spec4 2) : S8192x256.Idx → EReal)
abbrev aLC (c : Dev nD) : A2 8192 256 := cur2 (V c (Pipeline.arrRef spec4 3) : S8192x256.Idx → EReal)
abbrev aRC (c : Dev nD) : A2 8192 256 := cur2 (V c (Pipeline.arrRef spec4 4) : S8192x256.Idx → EReal)
abbrev aWl (c : Dev nD) : A2 256 1280 := cur2 (V c (Pipeline.arrRef spec4 5) : S256x1280.Idx → EReal)
abbrev aWr (c : Dev nD) : A2 256 1280 := cur2 (V c (Pipeline.arrRef spec4 6) : S256x1280.Idx → EReal)
abbrev aBl (c : Dev nD) : A1 1280 := cur1 (V c (Pipeline.arrRef spec4 7) : S1280.Idx → EReal)
abbrev aBr (c : Dev nD) : A1 1280 := cur1 (V c (Pipeline.arrRef spec4 8) : S1280.Idx → EReal)

/-- The hidden-state array the launch leaves. -/
def GH (c : Dev nD) : S8192x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S8192x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_9.index t (0 : Fin 2) = t.val ∧ win4_9.index t (1 : Fin 2) = 0
    ∧ win4_10.index t (0 : Fin 2) = t.val ∧ win4_10.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 1) = 0
    ∧ win4_8.index t (0 : Fin 1) = 0 :=
  (by decide +kernel : ∀ t : Fin grid4.N, _)

/-! ## The blocks the point reads, off the whole arrays -/

theorem rd0 (c : Dev nD) (t : Fin cfg4.N) (p : Fin 512) (g : Fin 1280) (R : Fin 8192) (hR : R.val = t.val * 512 + p.val) :
    iblk4 V c 0 t (ix2 p g) = aX V c R g := by
  show (V c (Pipeline.arrRef spec4 0) : S8192x1280.Idx → EReal) (((cfg4.win 0).blk t).view.emb (ix2 p g))
    = (V c (Pipeline.arrRef spec4 0) : S8192x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_0.index t (0 : Fin 2) * 512 + 1 * p.val = R.val; omega
  | ⟨1, _⟩ => show win4_0.index t (1 : Fin 2) * 1280 + 1 * g.val = g.val; omega

theorem rd1 (c : Dev nD) (t : Fin cfg4.N) (p : Fin 512) (g : Fin 256) (R : Fin 8192) (hR : R.val = t.val * 512 + p.val) :
    iblk4 V c 1 t (ix2 p g) = aLH V c R g := by
  show (V c (Pipeline.arrRef spec4 1) : S8192x256.Idx → EReal) (((cfg4.win 1).blk t).view.emb (ix2 p g))
    = (V c (Pipeline.arrRef spec4 1) : S8192x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_1.index t (0 : Fin 2) * 512 + 1 * p.val = R.val; omega
  | ⟨1, _⟩ => show win4_1.index t (1 : Fin 2) * 256 + 1 * g.val = g.val; omega

theorem rd2 (c : Dev nD) (t : Fin cfg4.N) (p : Fin 512) (g : Fin 256) (R : Fin 8192) (hR : R.val = t.val * 512 + p.val) :
    iblk4 V c 2 t (ix2 p g) = aRH V c R g := by
  show (V c (Pipeline.arrRef spec4 2) : S8192x256.Idx → EReal) (((cfg4.win 2).blk t).view.emb (ix2 p g))
    = (V c (Pipeline.arrRef spec4 2) : S8192x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_2.index t (0 : Fin 2) * 512 + 1 * p.val = R.val; omega
  | ⟨1, _⟩ => show win4_2.index t (1 : Fin 2) * 256 + 1 * g.val = g.val; omega

theorem rd3 (c : Dev nD) (t : Fin cfg4.N) (p : Fin 512) (g : Fin 256) (R : Fin 8192) (hR : R.val = t.val * 512 + p.val) :
    iblk4 V c 3 t (ix2 p g) = aLC V c R g := by
  show (V c (Pipeline.arrRef spec4 3) : S8192x256.Idx → EReal) (((cfg4.win 3).blk t).view.emb (ix2 p g))
    = (V c (Pipeline.arrRef spec4 3) : S8192x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_3.index t (0 : Fin 2) * 512 + 1 * p.val = R.val; omega
  | ⟨1, _⟩ => show win4_3.index t (1 : Fin 2) * 256 + 1 * g.val = g.val; omega

theorem rd4 (c : Dev nD) (t : Fin cfg4.N) (p : Fin 512) (g : Fin 256) (R : Fin 8192) (hR : R.val = t.val * 512 + p.val) :
    iblk4 V c 4 t (ix2 p g) = aRC V c R g := by
  show (V c (Pipeline.arrRef spec4 4) : S8192x256.Idx → EReal) (((cfg4.win 4).blk t).view.emb (ix2 p g))
    = (V c (Pipeline.arrRef spec4 4) : S8192x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_4.index t (0 : Fin 2) * 512 + 1 * p.val = R.val; omega
  | ⟨1, _⟩ => show win4_4.index t (1 : Fin 2) * 256 + 1 * g.val = g.val; omega

theorem rd5 (c : Dev nD) (t : Fin cfg4.N) : cur2 (iblk4 V c 5 t) = aWl V c := by
  funext k g
  show (V c (Pipeline.arrRef spec4 5) : S256x1280.Idx → EReal) (((cfg4.win 5).blk t).view.emb (ix2 k g))
    = (V c (Pipeline.arrRef spec4 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_5.index t (0 : Fin 2) * 256 + 1 * k.val = k.val; omega
  | ⟨1, _⟩ => show win4_5.index t (1 : Fin 2) * 1280 + 1 * g.val = g.val; omega

theorem rd6 (c : Dev nD) (t : Fin cfg4.N) : cur2 (iblk4 V c 6 t) = aWr V c := by
  funext k g
  show (V c (Pipeline.arrRef spec4 6) : S256x1280.Idx → EReal) (((cfg4.win 6).blk t).view.emb (ix2 k g))
    = (V c (Pipeline.arrRef spec4 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_6.index t (0 : Fin 2) * 256 + 1 * k.val = k.val; omega
  | ⟨1, _⟩ => show win4_6.index t (1 : Fin 2) * 1280 + 1 * g.val = g.val; omega

theorem rd7 (c : Dev nD) (t : Fin cfg4.N) : cur1 (iblk4 V c 7 t) = aBl V c := by
  funext g
  show (V c (Pipeline.arrRef spec4 7) : S1280.Idx → EReal) (((cfg4.win 7).blk t).view.emb (ix1 g))
    = (V c (Pipeline.arrRef spec4 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_7.index t (0 : Fin 1) * 1280 + 1 * g.val = g.val; omega

theorem rd8 (c : Dev nD) (t : Fin cfg4.N) : cur1 (iblk4 V c 8 t) = aBr V c := by
  funext g
  show (V c (Pipeline.arrRef spec4 8) : S1280.Idx → EReal) (((cfg4.win 8).blk t).view.emb (ix1 g))
    = (V c (Pipeline.arrRef spec4 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win4_8.index t (0 : Fin 1) * 1280 + 1 * g.val = g.val; omega

/-! ## The hidden-state array (window 9) -/

/-- What point `t` writes back of window 9 is block `t` of `GH`. -/
theorem flushedH (c : Dev nD) (t : Fin cfg4.N) :
    (dat4 V c).flushed 9 t = ((cfg4.win 9).blk t).view.read (Elt Ideal) (GH V c) := by
  show (cfg4.win 9).cut (grid4.coords t) ((dat4 V c).after 9 t) = _
  rw [after4_9]
  unfold out4_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 16 := lt_of_lt_of_eq t.isLt N_4
  have hp : p.val < 512 := p.isLt
  have hR : t.val * 512 + p.val < 8192 := by omega
  have hemb : ((cfg4.win 9).blk t).view.emb (ix2 p q) = ix2 (⟨t.val * 512 + p.val, hR⟩ : Fin 8192) q := by
    refine funext fun a => Fin.ext ?_
    obtain ⟨a0, b0, a1, b1, a2, b2, a3, b3, a4, b4, a9, b9, a10, b10, a5, b5, a6, b6, a7, a8⟩ := idx_facts t
    match a with
    | ⟨0, _⟩ => show win4_9.index t (0 : Fin 2) * 512 + 1 * p.val = t.val * 512 + p.val; omega
    | ⟨1, _⟩ => show win4_9.index t (1 : Fin 2) * 256 + 1 * q.val = q.val; omega
  show k4_pay2 (k4_pay4 (iblk4 V c 1 t) (iblk4 V c 2 t) (iblk4 V c 5 t) (iblk4 V c 6 t) (iblk4 V c 0 t) (iblk4 V c 7 t) (iblk4 V c 8 t)) (k4_pay5 (iblk4 V c 1 t) (iblk4 V c 2 t) (iblk4 V c 5 t) (iblk4 V c 6 t) (iblk4 V c 0 t) (iblk4 V c 7 t) (iblk4 V c 8 t)) (k4_pay6 (iblk4 V c 1 t) (iblk4 V c 2 t) (iblk4 V c 5 t) (iblk4 V c 6 t) (iblk4 V c 0 t) (iblk4 V c 7 t) (iblk4 V c 8 t) (iblk4 V c 3 t)) (iblk4 V c 4 t) (ix2 p q) = GH V c (((cfg4.win 9).blk t).view.emb (ix2 p q))
  rw [hemb]
  refine (LevelPay4.hidden_apply (iblk4 V c 0 t) (iblk4 V c 1 t) (iblk4 V c 2 t) (iblk4 V c 3 t) (iblk4 V c 4 t)
    (iblk4 V c 5 t) (iblk4 V c 6 t) (iblk4 V c 7 t) (iblk4 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg4.N) (i : S8192x256.Idx) :
    i ∈ ((cfg4.win 9).blk t).view.set ↔ ∀ a : Fin 2, win4_9.index t a * S512x256.size a ≤ (i a).val
      ∧ (i a).val < win4_9.index t a * S512x256.size a + S512x256.size a := by
  show i ∈ ((View.whole main_v85_0).slice (win4_9.rect t)).set ↔ _
  rw [View.set_slice_whole, Rect.mem_set_unit]
  exact Iff.rfl

/-- Every row is in the block of the point `row / 512`. -/
theorem coverH (i : S8192x256.Idx) :
    ∃ t : Fin cfg4.N, (cfg4.win 9).flush t = true ∧ i ∈ ((cfg4.win 9).blk t).view.set := by
  have hi0 : (i 0).val < 8192 := (i 0).isLt
  have hi1 : (i 1).val < 256 := (i 1).isLt
  have hN : (i 0).val / 512 < cfg4.N := lt_of_lt_of_eq (by omega : (i 0).val / 512 < 16) N_4.symm
  refine ⟨⟨(i 0).val / 512, hN⟩, flush4_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg4.N)
  intro a
  match a with
  | ⟨0, _⟩ =>
    show win4_9.index ⟨(i 0).val / 512, hN⟩ (0 : Fin 2) * 512 ≤ (i 0).val
      ∧ (i 0).val < win4_9.index ⟨(i 0).val / 512, hN⟩ (0 : Fin 2) * 512 + 512
    have e0 : win4_9.index ⟨(i 0).val / 512, hN⟩ (0 : Fin 2) = (i 0).val / 512 := a9
    omega
  | ⟨1, _⟩ =>
    show win4_9.index ⟨(i 0).val / 512, hN⟩ (1 : Fin 2) * 256 ≤ (i 1).val
      ∧ (i 1).val < win4_9.index ⟨(i 0).val / 512, hN⟩ (1 : Fin 2) * 256 + 256
    omega

/-- The array window 9 leaves: `GH` of the arrays as the region finds them. -/
theorem region_h (c : Dev nD) : (dat4 V c).arrAt 9 cfg4.N = GH V c :=
  (dat4 V c).arrAt_eq_of_cover 9 (GH V c) (fun t _ => flushedH V c t) coverH

/-! ## The cell-state array (window 10) -/

/-- What point `t` writes back of window 10 is block `t` of `GC`. -/
theorem flushedC (c : Dev nD) (t : Fin cfg4.N) :
    (dat4 V c).flushed 10 t = ((cfg4.win 10).blk t).view.read (Elt Ideal) (GC V c) := by
  show (cfg4.win 10).cut (grid4.coords t) ((dat4 V c).after 10 t) = _
  rw [after4_10]
  unfold out4_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 16 := lt_of_lt_of_eq t.isLt N_4
  have hp : p.val < 512 := p.isLt
  have hR : t.val * 512 + p.val < 8192 := by omega
  have hemb : ((cfg4.win 10).blk t).view.emb (ix2 p q) = ix2 (⟨t.val * 512 + p.val, hR⟩ : Fin 8192) q := by
    refine funext fun a => Fin.ext ?_
    obtain ⟨a0, b0, a1, b1, a2, b2, a3, b3, a4, b4, a9, b9, a10, b10, a5, b5, a6, b6, a7, a8⟩ := idx_facts t
    match a with
    | ⟨0, _⟩ => show win4_10.index t (0 : Fin 2) * 512 + 1 * p.val = t.val * 512 + p.val; omega
    | ⟨1, _⟩ => show win4_10.index t (1 : Fin 2) * 256 + 1 * q.val = q.val; omega
  show k4_pay1 (k4_pay5 (iblk4 V c 1 t) (iblk4 V c 2 t) (iblk4 V c 5 t) (iblk4 V c 6 t) (iblk4 V c 0 t) (iblk4 V c 7 t) (iblk4 V c 8 t)) (k4_pay6 (iblk4 V c 1 t) (iblk4 V c 2 t) (iblk4 V c 5 t) (iblk4 V c 6 t) (iblk4 V c 0 t) (iblk4 V c 7 t) (iblk4 V c 8 t) (iblk4 V c 3 t)) (iblk4 V c 4 t) (ix2 p q) = GC V c (((cfg4.win 10).blk t).view.emb (ix2 p q))
  rw [hemb]
  refine (LevelPay4.cell_apply (iblk4 V c 0 t) (iblk4 V c 1 t) (iblk4 V c 2 t) (iblk4 V c 3 t) (iblk4 V c 4 t)
    (iblk4 V c 5 t) (iblk4 V c 6 t) (iblk4 V c 7 t) (iblk4 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg4.N) (i : S8192x256.Idx) :
    i ∈ ((cfg4.win 10).blk t).view.set ↔ ∀ a : Fin 2, win4_10.index t a * S512x256.size a ≤ (i a).val
      ∧ (i a).val < win4_10.index t a * S512x256.size a + S512x256.size a := by
  show i ∈ ((View.whole main_v85_1).slice (win4_10.rect t)).set ↔ _
  rw [View.set_slice_whole, Rect.mem_set_unit]
  exact Iff.rfl

/-- Every row is in the block of the point `row / 512`. -/
theorem coverC (i : S8192x256.Idx) :
    ∃ t : Fin cfg4.N, (cfg4.win 10).flush t = true ∧ i ∈ ((cfg4.win 10).blk t).view.set := by
  have hi0 : (i 0).val < 8192 := (i 0).isLt
  have hi1 : (i 1).val < 256 := (i 1).isLt
  have hN : (i 0).val / 512 < cfg4.N := lt_of_lt_of_eq (by omega : (i 0).val / 512 < 16) N_4.symm
  refine ⟨⟨(i 0).val / 512, hN⟩, flush4_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg4.N)
  intro a
  match a with
  | ⟨0, _⟩ =>
    show win4_10.index ⟨(i 0).val / 512, hN⟩ (0 : Fin 2) * 512 ≤ (i 0).val
      ∧ (i 0).val < win4_10.index ⟨(i 0).val / 512, hN⟩ (0 : Fin 2) * 512 + 512
    have e0 : win4_10.index ⟨(i 0).val / 512, hN⟩ (0 : Fin 2) = (i 0).val / 512 := a10
    omega
  | ⟨1, _⟩ =>
    show win4_10.index ⟨(i 0).val / 512, hN⟩ (1 : Fin 2) * 256 ≤ (i 1).val
      ∧ (i 1).val < win4_10.index ⟨(i 0).val / 512, hN⟩ (1 : Fin 2) * 256 + 256
    omega

/-- The array window 10 leaves: `GC` of the arrays as the region finds them. -/
theorem region_c (c : Dev nD) : (dat4 V c).arrAt 10 cfg4.N = GC V c :=
  (dat4 V c).arrAt_eq_of_cover 10 (GC V c) (fun t _ => flushedC V c t) coverC

end Cert.KernelIdeal.RegionValue4

end
-- ==== Proof.LevelPay5.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay5

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k5_pay3 lh rh wl wr x bl br (ix2 r g)
      = rowPre (cur2 x) (cur2 lh) (cur2 rh) (cur2 wl) (cur2 wr) (cur1 bl) (cur1 br) r g := by
  unfold k5_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k5_pay1 (k5_pay5 lh rh wl wr x bl br) (k5_pay6 lh rh wl wr x bl br lc) rc (ix2 p q)
      = rowC (rowPre (cur2 x) (cur2 lh) (cur2 rh) (cur2 wl) (cur2 wr) (cur1 bl) (cur1 br)) (cur2 lc) (cur2 rc) p q := by
  unfold k5_pay1 k5_pay5 k5_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k5_pay2 (k5_pay4 lh rh wl wr x bl br) (k5_pay5 lh rh wl wr x bl br) (k5_pay6 lh rh wl wr x bl br lc) rc (ix2 p q)
      = rowH (rowPre (cur2 x) (cur2 lh) (cur2 rh) (cur2 wl) (cur2 wr) (cur1 bl) (cur1 br)) (cur2 lc) (cur2 rc) p q := by
  unfold k5_pay2 k5_pay4
  simp only [mulf_apply, logistic_at, tanh_at]
  rw [cell_apply, slice_apply 256 1 (by decide) rfl _ _ p q, pre_apply]
  rfl

end Cert.KernelIdeal.LevelPay5

end
-- ==== Proof.RegionValue5.lean ====
/-
  What the level launch number 5 leaves in its two output arrays, as whole-array functions of the arrays it finds.

  The launch works on 4096 rows in 8 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay5
import Idealize.ShloMosaic.Lib.Pipeline.Value

set_option maxRecDepth 16384

noncomputable section

namespace Cert.KernelIdeal.RegionValue5

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 4096 1280 := cur2 (V c (Pipeline.arrRef spec5 0) : S4096x1280.Idx → EReal)
abbrev aLH (c : Dev nD) : A2 4096 256 := cur2 (V c (Pipeline.arrRef spec5 1) : S4096x256.Idx → EReal)
abbrev aRH (c : Dev nD) : A2 4096 256 := cur2 (V c (Pipeline.arrRef spec5 2) : S4096x256.Idx → EReal)
abbrev aLC (c : Dev nD) : A2 4096 256 := cur2 (V c (Pipeline.arrRef spec5 3) : S4096x256.Idx → EReal)
abbrev aRC (c : Dev nD) : A2 4096 256 := cur2 (V c (Pipeline.arrRef spec5 4) : S4096x256.Idx → EReal)
abbrev aWl (c : Dev nD) : A2 256 1280 := cur2 (V c (Pipeline.arrRef spec5 5) : S256x1280.Idx → EReal)
abbrev aWr (c : Dev nD) : A2 256 1280 := cur2 (V c (Pipeline.arrRef spec5 6) : S256x1280.Idx → EReal)
abbrev aBl (c : Dev nD) : A1 1280 := cur1 (V c (Pipeline.arrRef spec5 7) : S1280.Idx → EReal)
abbrev aBr (c : Dev nD) : A1 1280 := cur1 (V c (Pipeline.arrRef spec5 8) : S1280.Idx → EReal)

/-- The hidden-state array the launch leaves. -/
def GH (c : Dev nD) : S4096x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S4096x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_9.index t (0 : Fin 2) = t.val ∧ win5_9.index t (1 : Fin 2) = 0
    ∧ win5_10.index t (0 : Fin 2) = t.val ∧ win5_10.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 1) = 0
    ∧ win5_8.index t (0 : Fin 1) = 0 :=
  (by decide +kernel : ∀ t : Fin grid5.N, _)

/-! ## The blocks the point reads, off the whole arrays -/

theorem rd0 (c : Dev nD) (t : Fin cfg5.N) (p : Fin 512) (g : Fin 1280) (R : Fin 4096) (hR : R.val = t.val * 512 + p.val) :
    iblk5 V c 0 t (ix2 p g) = aX V c R g := by
  show (V c (Pipeline.arrRef spec5 0) : S4096x1280.Idx → EReal) (((cfg5.win 0).blk t).view.emb (ix2 p g))
    = (V c (Pipeline.arrRef spec5 0) : S4096x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_0.index t (0 : Fin 2) * 512 + 1 * p.val = R.val; omega
  | ⟨1, _⟩ => show win5_0.index t (1 : Fin 2) * 1280 + 1 * g.val = g.val; omega

theorem rd1 (c : Dev nD) (t : Fin cfg5.N) (p : Fin 512) (g : Fin 256) (R : Fin 4096) (hR : R.val = t.val * 512 + p.val) :
    iblk5 V c 1 t (ix2 p g) = aLH V c R g := by
  show (V c (Pipeline.arrRef spec5 1) : S4096x256.Idx → EReal) (((cfg5.win 1).blk t).view.emb (ix2 p g))
    = (V c (Pipeline.arrRef spec5 1) : S4096x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_1.index t (0 : Fin 2) * 512 + 1 * p.val = R.val; omega
  | ⟨1, _⟩ => show win5_1.index t (1 : Fin 2) * 256 + 1 * g.val = g.val; omega

theorem rd2 (c : Dev nD) (t : Fin cfg5.N) (p : Fin 512) (g : Fin 256) (R : Fin 4096) (hR : R.val = t.val * 512 + p.val) :
    iblk5 V c 2 t (ix2 p g) = aRH V c R g := by
  show (V c (Pipeline.arrRef spec5 2) : S4096x256.Idx → EReal) (((cfg5.win 2).blk t).view.emb (ix2 p g))
    = (V c (Pipeline.arrRef spec5 2) : S4096x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_2.index t (0 : Fin 2) * 512 + 1 * p.val = R.val; omega
  | ⟨1, _⟩ => show win5_2.index t (1 : Fin 2) * 256 + 1 * g.val = g.val; omega

theorem rd3 (c : Dev nD) (t : Fin cfg5.N) (p : Fin 512) (g : Fin 256) (R : Fin 4096) (hR : R.val = t.val * 512 + p.val) :
    iblk5 V c 3 t (ix2 p g) = aLC V c R g := by
  show (V c (Pipeline.arrRef spec5 3) : S4096x256.Idx → EReal) (((cfg5.win 3).blk t).view.emb (ix2 p g))
    = (V c (Pipeline.arrRef spec5 3) : S4096x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_3.index t (0 : Fin 2) * 512 + 1 * p.val = R.val; omega
  | ⟨1, _⟩ => show win5_3.index t (1 : Fin 2) * 256 + 1 * g.val = g.val; omega

theorem rd4 (c : Dev nD) (t : Fin cfg5.N) (p : Fin 512) (g : Fin 256) (R : Fin 4096) (hR : R.val = t.val * 512 + p.val) :
    iblk5 V c 4 t (ix2 p g) = aRC V c R g := by
  show (V c (Pipeline.arrRef spec5 4) : S4096x256.Idx → EReal) (((cfg5.win 4).blk t).view.emb (ix2 p g))
    = (V c (Pipeline.arrRef spec5 4) : S4096x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_4.index t (0 : Fin 2) * 512 + 1 * p.val = R.val; omega
  | ⟨1, _⟩ => show win5_4.index t (1 : Fin 2) * 256 + 1 * g.val = g.val; omega

theorem rd5 (c : Dev nD) (t : Fin cfg5.N) : cur2 (iblk5 V c 5 t) = aWl V c := by
  funext k g
  show (V c (Pipeline.arrRef spec5 5) : S256x1280.Idx → EReal) (((cfg5.win 5).blk t).view.emb (ix2 k g))
    = (V c (Pipeline.arrRef spec5 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_5.index t (0 : Fin 2) * 256 + 1 * k.val = k.val; omega
  | ⟨1, _⟩ => show win5_5.index t (1 : Fin 2) * 1280 + 1 * g.val = g.val; omega

theorem rd6 (c : Dev nD) (t : Fin cfg5.N) : cur2 (iblk5 V c 6 t) = aWr V c := by
  funext k g
  show (V c (Pipeline.arrRef spec5 6) : S256x1280.Idx → EReal) (((cfg5.win 6).blk t).view.emb (ix2 k g))
    = (V c (Pipeline.arrRef spec5 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_6.index t (0 : Fin 2) * 256 + 1 * k.val = k.val; omega
  | ⟨1, _⟩ => show win5_6.index t (1 : Fin 2) * 1280 + 1 * g.val = g.val; omega

theorem rd7 (c : Dev nD) (t : Fin cfg5.N) : cur1 (iblk5 V c 7 t) = aBl V c := by
  funext g
  show (V c (Pipeline.arrRef spec5 7) : S1280.Idx → EReal) (((cfg5.win 7).blk t).view.emb (ix1 g))
    = (V c (Pipeline.arrRef spec5 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_7.index t (0 : Fin 1) * 1280 + 1 * g.val = g.val; omega

theorem rd8 (c : Dev nD) (t : Fin cfg5.N) : cur1 (iblk5 V c 8 t) = aBr V c := by
  funext g
  show (V c (Pipeline.arrRef spec5 8) : S1280.Idx → EReal) (((cfg5.win 8).blk t).view.emb (ix1 g))
    = (V c (Pipeline.arrRef spec5 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win5_8.index t (0 : Fin 1) * 1280 + 1 * g.val = g.val; omega

/-! ## The hidden-state array (window 9) -/

/-- What point `t` writes back of window 9 is block `t` of `GH`. -/
theorem flushedH (c : Dev nD) (t : Fin cfg5.N) :
    (dat5 V c).flushed 9 t = ((cfg5.win 9).blk t).view.read (Elt Ideal) (GH V c) := by
  show (cfg5.win 9).cut (grid5.coords t) ((dat5 V c).after 9 t) = _
  rw [after5_9]
  unfold out5_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 8 := lt_of_lt_of_eq t.isLt N_5
  have hp : p.val < 512 := p.isLt
  have hR : t.val * 512 + p.val < 4096 := by omega
  have hemb : ((cfg5.win 9).blk t).view.emb (ix2 p q) = ix2 (⟨t.val * 512 + p.val, hR⟩ : Fin 4096) q := by
    refine funext fun a => Fin.ext ?_
    obtain ⟨a0, b0, a1, b1, a2, b2, a3, b3, a4, b4, a9, b9, a10, b10, a5, b5, a6, b6, a7, a8⟩ := idx_facts t
    match a with
    | ⟨0, _⟩ => show win5_9.index t (0 : Fin 2) * 512 + 1 * p.val = t.val * 512 + p.val; omega
    | ⟨1, _⟩ => show win5_9.index t (1 : Fin 2) * 256 + 1 * q.val = q.val; omega
  show k5_pay2 (k5_pay4 (iblk5 V c 1 t) (iblk5 V c 2 t) (iblk5 V c 5 t) (iblk5 V c 6 t) (iblk5 V c 0 t) (iblk5 V c 7 t) (iblk5 V c 8 t)) (k5_pay5 (iblk5 V c 1 t) (iblk5 V c 2 t) (iblk5 V c 5 t) (iblk5 V c 6 t) (iblk5 V c 0 t) (iblk5 V c 7 t) (iblk5 V c 8 t)) (k5_pay6 (iblk5 V c 1 t) (iblk5 V c 2 t) (iblk5 V c 5 t) (iblk5 V c 6 t) (iblk5 V c 0 t) (iblk5 V c 7 t) (iblk5 V c 8 t) (iblk5 V c 3 t)) (iblk5 V c 4 t) (ix2 p q) = GH V c (((cfg5.win 9).blk t).view.emb (ix2 p q))
  rw [hemb]
  refine (LevelPay5.hidden_apply (iblk5 V c 0 t) (iblk5 V c 1 t) (iblk5 V c 2 t) (iblk5 V c 3 t) (iblk5 V c 4 t)
    (iblk5 V c 5 t) (iblk5 V c 6 t) (iblk5 V c 7 t) (iblk5 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg5.N) (i : S4096x256.Idx) :
    i ∈ ((cfg5.win 9).blk t).view.set ↔ ∀ a : Fin 2, win5_9.index t a * S512x256.size a ≤ (i a).val
      ∧ (i a).val < win5_9.index t a * S512x256.size a + S512x256.size a := by
  show i ∈ ((View.whole main_v110_0).slice (win5_9.rect t)).set ↔ _
  rw [View.set_slice_whole, Rect.mem_set_unit]
  exact Iff.rfl

/-- Every row is in the block of the point `row / 512`. -/
theorem coverH (i : S4096x256.Idx) :
    ∃ t : Fin cfg5.N, (cfg5.win 9).flush t = true ∧ i ∈ ((cfg5.win 9).blk t).view.set := by
  have hi0 : (i 0).val < 4096 := (i 0).isLt
  have hi1 : (i 1).val < 256 := (i 1).isLt
  have hN : (i 0).val / 512 < cfg5.N := lt_of_lt_of_eq (by omega : (i 0).val / 512 < 8) N_5.symm
  refine ⟨⟨(i 0).val / 512, hN⟩, flush5_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg5.N)
  intro a
  match a with
  | ⟨0, _⟩ =>
    show win5_9.index ⟨(i 0).val / 512, hN⟩ (0 : Fin 2) * 512 ≤ (i 0).val
      ∧ (i 0).val < win5_9.index ⟨(i 0).val / 512, hN⟩ (0 : Fin 2) * 512 + 512
    have e0 : win5_9.index ⟨(i 0).val / 512, hN⟩ (0 : Fin 2) = (i 0).val / 512 := a9
    omega
  | ⟨1, _⟩ =>
    show win5_9.index ⟨(i 0).val / 512, hN⟩ (1 : Fin 2) * 256 ≤ (i 1).val
      ∧ (i 1).val < win5_9.index ⟨(i 0).val / 512, hN⟩ (1 : Fin 2) * 256 + 256
    omega

/-- The array window 9 leaves: `GH` of the arrays as the region finds them. -/
theorem region_h (c : Dev nD) : (dat5 V c).arrAt 9 cfg5.N = GH V c :=
  (dat5 V c).arrAt_eq_of_cover 9 (GH V c) (fun t _ => flushedH V c t) coverH

/-! ## The cell-state array (window 10) -/

/-- What point `t` writes back of window 10 is block `t` of `GC`. -/
theorem flushedC (c : Dev nD) (t : Fin cfg5.N) :
    (dat5 V c).flushed 10 t = ((cfg5.win 10).blk t).view.read (Elt Ideal) (GC V c) := by
  show (cfg5.win 10).cut (grid5.coords t) ((dat5 V c).after 10 t) = _
  rw [after5_10]
  unfold out5_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 8 := lt_of_lt_of_eq t.isLt N_5
  have hp : p.val < 512 := p.isLt
  have hR : t.val * 512 + p.val < 4096 := by omega
  have hemb : ((cfg5.win 10).blk t).view.emb (ix2 p q) = ix2 (⟨t.val * 512 + p.val, hR⟩ : Fin 4096) q := by
    refine funext fun a => Fin.ext ?_
    obtain ⟨a0, b0, a1, b1, a2, b2, a3, b3, a4, b4, a9, b9, a10, b10, a5, b5, a6, b6, a7, a8⟩ := idx_facts t
    match a with
    | ⟨0, _⟩ => show win5_10.index t (0 : Fin 2) * 512 + 1 * p.val = t.val * 512 + p.val; omega
    | ⟨1, _⟩ => show win5_10.index t (1 : Fin 2) * 256 + 1 * q.val = q.val; omega
  show k5_pay1 (k5_pay5 (iblk5 V c 1 t) (iblk5 V c 2 t) (iblk5 V c 5 t) (iblk5 V c 6 t) (iblk5 V c 0 t) (iblk5 V c 7 t) (iblk5 V c 8 t)) (k5_pay6 (iblk5 V c 1 t) (iblk5 V c 2 t) (iblk5 V c 5 t) (iblk5 V c 6 t) (iblk5 V c 0 t) (iblk5 V c 7 t) (iblk5 V c 8 t) (iblk5 V c 3 t)) (iblk5 V c 4 t) (ix2 p q) = GC V c (((cfg5.win 10).blk t).view.emb (ix2 p q))
  rw [hemb]
  refine (LevelPay5.cell_apply (iblk5 V c 0 t) (iblk5 V c 1 t) (iblk5 V c 2 t) (iblk5 V c 3 t) (iblk5 V c 4 t)
    (iblk5 V c 5 t) (iblk5 V c 6 t) (iblk5 V c 7 t) (iblk5 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg5.N) (i : S4096x256.Idx) :
    i ∈ ((cfg5.win 10).blk t).view.set ↔ ∀ a : Fin 2, win5_10.index t a * S512x256.size a ≤ (i a).val
      ∧ (i a).val < win5_10.index t a * S512x256.size a + S512x256.size a := by
  show i ∈ ((View.whole main_v110_1).slice (win5_10.rect t)).set ↔ _
  rw [View.set_slice_whole, Rect.mem_set_unit]
  exact Iff.rfl

/-- Every row is in the block of the point `row / 512`. -/
theorem coverC (i : S4096x256.Idx) :
    ∃ t : Fin cfg5.N, (cfg5.win 10).flush t = true ∧ i ∈ ((cfg5.win 10).blk t).view.set := by
  have hi0 : (i 0).val < 4096 := (i 0).isLt
  have hi1 : (i 1).val < 256 := (i 1).isLt
  have hN : (i 0).val / 512 < cfg5.N := lt_of_lt_of_eq (by omega : (i 0).val / 512 < 8) N_5.symm
  refine ⟨⟨(i 0).val / 512, hN⟩, flush5_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg5.N)
  intro a
  match a with
  | ⟨0, _⟩ =>
    show win5_10.index ⟨(i 0).val / 512, hN⟩ (0 : Fin 2) * 512 ≤ (i 0).val
      ∧ (i 0).val < win5_10.index ⟨(i 0).val / 512, hN⟩ (0 : Fin 2) * 512 + 512
    have e0 : win5_10.index ⟨(i 0).val / 512, hN⟩ (0 : Fin 2) = (i 0).val / 512 := a10
    omega
  | ⟨1, _⟩ =>
    show win5_10.index ⟨(i 0).val / 512, hN⟩ (1 : Fin 2) * 256 ≤ (i 1).val
      ∧ (i 1).val < win5_10.index ⟨(i 0).val / 512, hN⟩ (1 : Fin 2) * 256 + 256
    omega

/-- The array window 10 leaves: `GC` of the arrays as the region finds them. -/
theorem region_c (c : Dev nD) : (dat5 V c).arrAt 10 cfg5.N = GC V c :=
  (dat5 V c).arrAt_eq_of_cover 10 (GC V c) (fun t _ => flushedC V c t) coverC

end Cert.KernelIdeal.RegionValue5

end
-- ==== Proof.LevelPay6.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay6

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k6_pay3 lh rh wl wr x bl br (ix2 r g)
      = rowPre (cur2 x) (cur2 lh) (cur2 rh) (cur2 wl) (cur2 wr) (cur1 bl) (cur1 br) r g := by
  unfold k6_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k6_pay1 (k6_pay5 lh rh wl wr x bl br) (k6_pay6 lh rh wl wr x bl br lc) rc (ix2 p q)
      = rowC (rowPre (cur2 x) (cur2 lh) (cur2 rh) (cur2 wl) (cur2 wr) (cur1 bl) (cur1 br)) (cur2 lc) (cur2 rc) p q := by
  unfold k6_pay1 k6_pay5 k6_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k6_pay2 (k6_pay4 lh rh wl wr x bl br) (k6_pay5 lh rh wl wr x bl br) (k6_pay6 lh rh wl wr x bl br lc) rc (ix2 p q)
      = rowH (rowPre (cur2 x) (cur2 lh) (cur2 rh) (cur2 wl) (cur2 wr) (cur1 bl) (cur1 br)) (cur2 lc) (cur2 rc) p q := by
  unfold k6_pay2 k6_pay4
  simp only [mulf_apply, logistic_at, tanh_at]
  rw [cell_apply, slice_apply 256 1 (by decide) rfl _ _ p q, pre_apply]
  rfl

end Cert.KernelIdeal.LevelPay6

end
-- ==== Proof.RegionValue6.lean ====
/-
  What the level launch number 6 leaves in its two output arrays, as whole-array functions of the arrays it finds.

  The launch works on 2048 rows in 4 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay6
import Idealize.ShloMosaic.Lib.Pipeline.Value

set_option maxRecDepth 16384

noncomputable section

namespace Cert.KernelIdeal.RegionValue6

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 2048 1280 := cur2 (V c (Pipeline.arrRef spec6 0) : S2048x1280.Idx → EReal)
abbrev aLH (c : Dev nD) : A2 2048 256 := cur2 (V c (Pipeline.arrRef spec6 1) : S2048x256.Idx → EReal)
abbrev aRH (c : Dev nD) : A2 2048 256 := cur2 (V c (Pipeline.arrRef spec6 2) : S2048x256.Idx → EReal)
abbrev aLC (c : Dev nD) : A2 2048 256 := cur2 (V c (Pipeline.arrRef spec6 3) : S2048x256.Idx → EReal)
abbrev aRC (c : Dev nD) : A2 2048 256 := cur2 (V c (Pipeline.arrRef spec6 4) : S2048x256.Idx → EReal)
abbrev aWl (c : Dev nD) : A2 256 1280 := cur2 (V c (Pipeline.arrRef spec6 5) : S256x1280.Idx → EReal)
abbrev aWr (c : Dev nD) : A2 256 1280 := cur2 (V c (Pipeline.arrRef spec6 6) : S256x1280.Idx → EReal)
abbrev aBl (c : Dev nD) : A1 1280 := cur1 (V c (Pipeline.arrRef spec6 7) : S1280.Idx → EReal)
abbrev aBr (c : Dev nD) : A1 1280 := cur1 (V c (Pipeline.arrRef spec6 8) : S1280.Idx → EReal)

/-- The hidden-state array the launch leaves. -/
def GH (c : Dev nD) : S2048x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S2048x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0
    ∧ win6_9.index t (0 : Fin 2) = t.val ∧ win6_9.index t (1 : Fin 2) = 0
    ∧ win6_10.index t (0 : Fin 2) = t.val ∧ win6_10.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 1) = 0
    ∧ win6_8.index t (0 : Fin 1) = 0 :=
  (by decide +kernel : ∀ t : Fin grid6.N, _)

/-! ## The blocks the point reads, off the whole arrays -/

theorem rd0 (c : Dev nD) (t : Fin cfg6.N) (p : Fin 512) (g : Fin 1280) (R : Fin 2048) (hR : R.val = t.val * 512 + p.val) :
    iblk6 V c 0 t (ix2 p g) = aX V c R g := by
  show (V c (Pipeline.arrRef spec6 0) : S2048x1280.Idx → EReal) (((cfg6.win 0).blk t).view.emb (ix2 p g))
    = (V c (Pipeline.arrRef spec6 0) : S2048x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_0.index t (0 : Fin 2) * 512 + 1 * p.val = R.val; omega
  | ⟨1, _⟩ => show win6_0.index t (1 : Fin 2) * 1280 + 1 * g.val = g.val; omega

theorem rd1 (c : Dev nD) (t : Fin cfg6.N) (p : Fin 512) (g : Fin 256) (R : Fin 2048) (hR : R.val = t.val * 512 + p.val) :
    iblk6 V c 1 t (ix2 p g) = aLH V c R g := by
  show (V c (Pipeline.arrRef spec6 1) : S2048x256.Idx → EReal) (((cfg6.win 1).blk t).view.emb (ix2 p g))
    = (V c (Pipeline.arrRef spec6 1) : S2048x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_1.index t (0 : Fin 2) * 512 + 1 * p.val = R.val; omega
  | ⟨1, _⟩ => show win6_1.index t (1 : Fin 2) * 256 + 1 * g.val = g.val; omega

theorem rd2 (c : Dev nD) (t : Fin cfg6.N) (p : Fin 512) (g : Fin 256) (R : Fin 2048) (hR : R.val = t.val * 512 + p.val) :
    iblk6 V c 2 t (ix2 p g) = aRH V c R g := by
  show (V c (Pipeline.arrRef spec6 2) : S2048x256.Idx → EReal) (((cfg6.win 2).blk t).view.emb (ix2 p g))
    = (V c (Pipeline.arrRef spec6 2) : S2048x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_2.index t (0 : Fin 2) * 512 + 1 * p.val = R.val; omega
  | ⟨1, _⟩ => show win6_2.index t (1 : Fin 2) * 256 + 1 * g.val = g.val; omega

theorem rd3 (c : Dev nD) (t : Fin cfg6.N) (p : Fin 512) (g : Fin 256) (R : Fin 2048) (hR : R.val = t.val * 512 + p.val) :
    iblk6 V c 3 t (ix2 p g) = aLC V c R g := by
  show (V c (Pipeline.arrRef spec6 3) : S2048x256.Idx → EReal) (((cfg6.win 3).blk t).view.emb (ix2 p g))
    = (V c (Pipeline.arrRef spec6 3) : S2048x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_3.index t (0 : Fin 2) * 512 + 1 * p.val = R.val; omega
  | ⟨1, _⟩ => show win6_3.index t (1 : Fin 2) * 256 + 1 * g.val = g.val; omega

theorem rd4 (c : Dev nD) (t : Fin cfg6.N) (p : Fin 512) (g : Fin 256) (R : Fin 2048) (hR : R.val = t.val * 512 + p.val) :
    iblk6 V c 4 t (ix2 p g) = aRC V c R g := by
  show (V c (Pipeline.arrRef spec6 4) : S2048x256.Idx → EReal) (((cfg6.win 4).blk t).view.emb (ix2 p g))
    = (V c (Pipeline.arrRef spec6 4) : S2048x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_4.index t (0 : Fin 2) * 512 + 1 * p.val = R.val; omega
  | ⟨1, _⟩ => show win6_4.index t (1 : Fin 2) * 256 + 1 * g.val = g.val; omega

theorem rd5 (c : Dev nD) (t : Fin cfg6.N) : cur2 (iblk6 V c 5 t) = aWl V c := by
  funext k g
  show (V c (Pipeline.arrRef spec6 5) : S256x1280.Idx → EReal) (((cfg6.win 5).blk t).view.emb (ix2 k g))
    = (V c (Pipeline.arrRef spec6 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_5.index t (0 : Fin 2) * 256 + 1 * k.val = k.val; omega
  | ⟨1, _⟩ => show win6_5.index t (1 : Fin 2) * 1280 + 1 * g.val = g.val; omega

theorem rd6 (c : Dev nD) (t : Fin cfg6.N) : cur2 (iblk6 V c 6 t) = aWr V c := by
  funext k g
  show (V c (Pipeline.arrRef spec6 6) : S256x1280.Idx → EReal) (((cfg6.win 6).blk t).view.emb (ix2 k g))
    = (V c (Pipeline.arrRef spec6 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_6.index t (0 : Fin 2) * 256 + 1 * k.val = k.val; omega
  | ⟨1, _⟩ => show win6_6.index t (1 : Fin 2) * 1280 + 1 * g.val = g.val; omega

theorem rd7 (c : Dev nD) (t : Fin cfg6.N) : cur1 (iblk6 V c 7 t) = aBl V c := by
  funext g
  show (V c (Pipeline.arrRef spec6 7) : S1280.Idx → EReal) (((cfg6.win 7).blk t).view.emb (ix1 g))
    = (V c (Pipeline.arrRef spec6 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_7.index t (0 : Fin 1) * 1280 + 1 * g.val = g.val; omega

theorem rd8 (c : Dev nD) (t : Fin cfg6.N) : cur1 (iblk6 V c 8 t) = aBr V c := by
  funext g
  show (V c (Pipeline.arrRef spec6 8) : S1280.Idx → EReal) (((cfg6.win 8).blk t).view.emb (ix1 g))
    = (V c (Pipeline.arrRef spec6 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win6_8.index t (0 : Fin 1) * 1280 + 1 * g.val = g.val; omega

/-! ## The hidden-state array (window 9) -/

/-- What point `t` writes back of window 9 is block `t` of `GH`. -/
theorem flushedH (c : Dev nD) (t : Fin cfg6.N) :
    (dat6 V c).flushed 9 t = ((cfg6.win 9).blk t).view.read (Elt Ideal) (GH V c) := by
  show (cfg6.win 9).cut (grid6.coords t) ((dat6 V c).after 9 t) = _
  rw [after6_9]
  unfold out6_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 4 := lt_of_lt_of_eq t.isLt N_6
  have hp : p.val < 512 := p.isLt
  have hR : t.val * 512 + p.val < 2048 := by omega
  have hemb : ((cfg6.win 9).blk t).view.emb (ix2 p q) = ix2 (⟨t.val * 512 + p.val, hR⟩ : Fin 2048) q := by
    refine funext fun a => Fin.ext ?_
    obtain ⟨a0, b0, a1, b1, a2, b2, a3, b3, a4, b4, a9, b9, a10, b10, a5, b5, a6, b6, a7, a8⟩ := idx_facts t
    match a with
    | ⟨0, _⟩ => show win6_9.index t (0 : Fin 2) * 512 + 1 * p.val = t.val * 512 + p.val; omega
    | ⟨1, _⟩ => show win6_9.index t (1 : Fin 2) * 256 + 1 * q.val = q.val; omega
  show k6_pay2 (k6_pay4 (iblk6 V c 1 t) (iblk6 V c 2 t) (iblk6 V c 5 t) (iblk6 V c 6 t) (iblk6 V c 0 t) (iblk6 V c 7 t) (iblk6 V c 8 t)) (k6_pay5 (iblk6 V c 1 t) (iblk6 V c 2 t) (iblk6 V c 5 t) (iblk6 V c 6 t) (iblk6 V c 0 t) (iblk6 V c 7 t) (iblk6 V c 8 t)) (k6_pay6 (iblk6 V c 1 t) (iblk6 V c 2 t) (iblk6 V c 5 t) (iblk6 V c 6 t) (iblk6 V c 0 t) (iblk6 V c 7 t) (iblk6 V c 8 t) (iblk6 V c 3 t)) (iblk6 V c 4 t) (ix2 p q) = GH V c (((cfg6.win 9).blk t).view.emb (ix2 p q))
  rw [hemb]
  refine (LevelPay6.hidden_apply (iblk6 V c 0 t) (iblk6 V c 1 t) (iblk6 V c 2 t) (iblk6 V c 3 t) (iblk6 V c 4 t)
    (iblk6 V c 5 t) (iblk6 V c 6 t) (iblk6 V c 7 t) (iblk6 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg6.N) (i : S2048x256.Idx) :
    i ∈ ((cfg6.win 9).blk t).view.set ↔ ∀ a : Fin 2, win6_9.index t a * S512x256.size a ≤ (i a).val
      ∧ (i a).val < win6_9.index t a * S512x256.size a + S512x256.size a := by
  show i ∈ ((View.whole main_v135_0).slice (win6_9.rect t)).set ↔ _
  rw [View.set_slice_whole, Rect.mem_set_unit]
  exact Iff.rfl

/-- Every row is in the block of the point `row / 512`. -/
theorem coverH (i : S2048x256.Idx) :
    ∃ t : Fin cfg6.N, (cfg6.win 9).flush t = true ∧ i ∈ ((cfg6.win 9).blk t).view.set := by
  have hi0 : (i 0).val < 2048 := (i 0).isLt
  have hi1 : (i 1).val < 256 := (i 1).isLt
  have hN : (i 0).val / 512 < cfg6.N := lt_of_lt_of_eq (by omega : (i 0).val / 512 < 4) N_6.symm
  refine ⟨⟨(i 0).val / 512, hN⟩, flush6_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg6.N)
  intro a
  match a with
  | ⟨0, _⟩ =>
    show win6_9.index ⟨(i 0).val / 512, hN⟩ (0 : Fin 2) * 512 ≤ (i 0).val
      ∧ (i 0).val < win6_9.index ⟨(i 0).val / 512, hN⟩ (0 : Fin 2) * 512 + 512
    have e0 : win6_9.index ⟨(i 0).val / 512, hN⟩ (0 : Fin 2) = (i 0).val / 512 := a9
    omega
  | ⟨1, _⟩ =>
    show win6_9.index ⟨(i 0).val / 512, hN⟩ (1 : Fin 2) * 256 ≤ (i 1).val
      ∧ (i 1).val < win6_9.index ⟨(i 0).val / 512, hN⟩ (1 : Fin 2) * 256 + 256
    omega

/-- The array window 9 leaves: `GH` of the arrays as the region finds them. -/
theorem region_h (c : Dev nD) : (dat6 V c).arrAt 9 cfg6.N = GH V c :=
  (dat6 V c).arrAt_eq_of_cover 9 (GH V c) (fun t _ => flushedH V c t) coverH

/-! ## The cell-state array (window 10) -/

/-- What point `t` writes back of window 10 is block `t` of `GC`. -/
theorem flushedC (c : Dev nD) (t : Fin cfg6.N) :
    (dat6 V c).flushed 10 t = ((cfg6.win 10).blk t).view.read (Elt Ideal) (GC V c) := by
  show (cfg6.win 10).cut (grid6.coords t) ((dat6 V c).after 10 t) = _
  rw [after6_10]
  unfold out6_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 4 := lt_of_lt_of_eq t.isLt N_6
  have hp : p.val < 512 := p.isLt
  have hR : t.val * 512 + p.val < 2048 := by omega
  have hemb : ((cfg6.win 10).blk t).view.emb (ix2 p q) = ix2 (⟨t.val * 512 + p.val, hR⟩ : Fin 2048) q := by
    refine funext fun a => Fin.ext ?_
    obtain ⟨a0, b0, a1, b1, a2, b2, a3, b3, a4, b4, a9, b9, a10, b10, a5, b5, a6, b6, a7, a8⟩ := idx_facts t
    match a with
    | ⟨0, _⟩ => show win6_10.index t (0 : Fin 2) * 512 + 1 * p.val = t.val * 512 + p.val; omega
    | ⟨1, _⟩ => show win6_10.index t (1 : Fin 2) * 256 + 1 * q.val = q.val; omega
  show k6_pay1 (k6_pay5 (iblk6 V c 1 t) (iblk6 V c 2 t) (iblk6 V c 5 t) (iblk6 V c 6 t) (iblk6 V c 0 t) (iblk6 V c 7 t) (iblk6 V c 8 t)) (k6_pay6 (iblk6 V c 1 t) (iblk6 V c 2 t) (iblk6 V c 5 t) (iblk6 V c 6 t) (iblk6 V c 0 t) (iblk6 V c 7 t) (iblk6 V c 8 t) (iblk6 V c 3 t)) (iblk6 V c 4 t) (ix2 p q) = GC V c (((cfg6.win 10).blk t).view.emb (ix2 p q))
  rw [hemb]
  refine (LevelPay6.cell_apply (iblk6 V c 0 t) (iblk6 V c 1 t) (iblk6 V c 2 t) (iblk6 V c 3 t) (iblk6 V c 4 t)
    (iblk6 V c 5 t) (iblk6 V c 6 t) (iblk6 V c 7 t) (iblk6 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg6.N) (i : S2048x256.Idx) :
    i ∈ ((cfg6.win 10).blk t).view.set ↔ ∀ a : Fin 2, win6_10.index t a * S512x256.size a ≤ (i a).val
      ∧ (i a).val < win6_10.index t a * S512x256.size a + S512x256.size a := by
  show i ∈ ((View.whole main_v135_1).slice (win6_10.rect t)).set ↔ _
  rw [View.set_slice_whole, Rect.mem_set_unit]
  exact Iff.rfl

/-- Every row is in the block of the point `row / 512`. -/
theorem coverC (i : S2048x256.Idx) :
    ∃ t : Fin cfg6.N, (cfg6.win 10).flush t = true ∧ i ∈ ((cfg6.win 10).blk t).view.set := by
  have hi0 : (i 0).val < 2048 := (i 0).isLt
  have hi1 : (i 1).val < 256 := (i 1).isLt
  have hN : (i 0).val / 512 < cfg6.N := lt_of_lt_of_eq (by omega : (i 0).val / 512 < 4) N_6.symm
  refine ⟨⟨(i 0).val / 512, hN⟩, flush6_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg6.N)
  intro a
  match a with
  | ⟨0, _⟩ =>
    show win6_10.index ⟨(i 0).val / 512, hN⟩ (0 : Fin 2) * 512 ≤ (i 0).val
      ∧ (i 0).val < win6_10.index ⟨(i 0).val / 512, hN⟩ (0 : Fin 2) * 512 + 512
    have e0 : win6_10.index ⟨(i 0).val / 512, hN⟩ (0 : Fin 2) = (i 0).val / 512 := a10
    omega
  | ⟨1, _⟩ =>
    show win6_10.index ⟨(i 0).val / 512, hN⟩ (1 : Fin 2) * 256 ≤ (i 1).val
      ∧ (i 1).val < win6_10.index ⟨(i 0).val / 512, hN⟩ (1 : Fin 2) * 256 + 256
    omega

/-- The array window 10 leaves: `GC` of the arrays as the region finds them. -/
theorem region_c (c : Dev nD) : (dat6 V c).arrAt 10 cfg6.N = GC V c :=
  (dat6 V c).arrAt_eq_of_cover 10 (GC V c) (fun t _ => flushedC V c t) coverC

end Cert.KernelIdeal.RegionValue6

end
-- ==== Proof.LevelPay7.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay7

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k7_pay3 lh rh wl wr x bl br (ix2 r g)
      = rowPre (cur2 x) (cur2 lh) (cur2 rh) (cur2 wl) (cur2 wr) (cur1 bl) (cur1 br) r g := by
  unfold k7_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k7_pay1 (k7_pay5 lh rh wl wr x bl br) (k7_pay6 lh rh wl wr x bl br lc) rc (ix2 p q)
      = rowC (rowPre (cur2 x) (cur2 lh) (cur2 rh) (cur2 wl) (cur2 wr) (cur1 bl) (cur1 br)) (cur2 lc) (cur2 rc) p q := by
  unfold k7_pay1 k7_pay5 k7_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k7_pay2 (k7_pay4 lh rh wl wr x bl br) (k7_pay5 lh rh wl wr x bl br) (k7_pay6 lh rh wl wr x bl br lc) rc (ix2 p q)
      = rowH (rowPre (cur2 x) (cur2 lh) (cur2 rh) (cur2 wl) (cur2 wr) (cur1 bl) (cur1 br)) (cur2 lc) (cur2 rc) p q := by
  unfold k7_pay2 k7_pay4
  simp only [mulf_apply, logistic_at, tanh_at]
  rw [cell_apply, slice_apply 256 1 (by decide) rfl _ _ p q, pre_apply]
  rfl

end Cert.KernelIdeal.LevelPay7

end
-- ==== Proof.RegionValue7.lean ====
/-
  What the level launch number 7 leaves in its two output arrays, as whole-array functions of the arrays it finds.

  The launch works on 1024 rows in 2 blocks of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay7
import Idealize.ShloMosaic.Lib.Pipeline.Value

set_option maxRecDepth 16384

noncomputable section

namespace Cert.KernelIdeal.RegionValue7

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 1024 1280 := cur2 (V c (Pipeline.arrRef spec7 0) : S1024x1280.Idx → EReal)
abbrev aLH (c : Dev nD) : A2 1024 256 := cur2 (V c (Pipeline.arrRef spec7 1) : S1024x256.Idx → EReal)
abbrev aRH (c : Dev nD) : A2 1024 256 := cur2 (V c (Pipeline.arrRef spec7 2) : S1024x256.Idx → EReal)
abbrev aLC (c : Dev nD) : A2 1024 256 := cur2 (V c (Pipeline.arrRef spec7 3) : S1024x256.Idx → EReal)
abbrev aRC (c : Dev nD) : A2 1024 256 := cur2 (V c (Pipeline.arrRef spec7 4) : S1024x256.Idx → EReal)
abbrev aWl (c : Dev nD) : A2 256 1280 := cur2 (V c (Pipeline.arrRef spec7 5) : S256x1280.Idx → EReal)
abbrev aWr (c : Dev nD) : A2 256 1280 := cur2 (V c (Pipeline.arrRef spec7 6) : S256x1280.Idx → EReal)
abbrev aBl (c : Dev nD) : A1 1280 := cur1 (V c (Pipeline.arrRef spec7 7) : S1280.Idx → EReal)
abbrev aBr (c : Dev nD) : A1 1280 := cur1 (V c (Pipeline.arrRef spec7 8) : S1280.Idx → EReal)

/-- The hidden-state array the launch leaves. -/
def GH (c : Dev nD) : S1024x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S1024x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_9.index t (0 : Fin 2) = t.val ∧ win7_9.index t (1 : Fin 2) = 0
    ∧ win7_10.index t (0 : Fin 2) = t.val ∧ win7_10.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 1) = 0
    ∧ win7_8.index t (0 : Fin 1) = 0 :=
  (by decide +kernel : ∀ t : Fin grid7.N, _)

/-! ## The blocks the point reads, off the whole arrays -/

theorem rd0 (c : Dev nD) (t : Fin cfg7.N) (p : Fin 512) (g : Fin 1280) (R : Fin 1024) (hR : R.val = t.val * 512 + p.val) :
    iblk7 V c 0 t (ix2 p g) = aX V c R g := by
  show (V c (Pipeline.arrRef spec7 0) : S1024x1280.Idx → EReal) (((cfg7.win 0).blk t).view.emb (ix2 p g))
    = (V c (Pipeline.arrRef spec7 0) : S1024x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_0.index t (0 : Fin 2) * 512 + 1 * p.val = R.val; omega
  | ⟨1, _⟩ => show win7_0.index t (1 : Fin 2) * 1280 + 1 * g.val = g.val; omega

theorem rd1 (c : Dev nD) (t : Fin cfg7.N) (p : Fin 512) (g : Fin 256) (R : Fin 1024) (hR : R.val = t.val * 512 + p.val) :
    iblk7 V c 1 t (ix2 p g) = aLH V c R g := by
  show (V c (Pipeline.arrRef spec7 1) : S1024x256.Idx → EReal) (((cfg7.win 1).blk t).view.emb (ix2 p g))
    = (V c (Pipeline.arrRef spec7 1) : S1024x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_1.index t (0 : Fin 2) * 512 + 1 * p.val = R.val; omega
  | ⟨1, _⟩ => show win7_1.index t (1 : Fin 2) * 256 + 1 * g.val = g.val; omega

theorem rd2 (c : Dev nD) (t : Fin cfg7.N) (p : Fin 512) (g : Fin 256) (R : Fin 1024) (hR : R.val = t.val * 512 + p.val) :
    iblk7 V c 2 t (ix2 p g) = aRH V c R g := by
  show (V c (Pipeline.arrRef spec7 2) : S1024x256.Idx → EReal) (((cfg7.win 2).blk t).view.emb (ix2 p g))
    = (V c (Pipeline.arrRef spec7 2) : S1024x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_2.index t (0 : Fin 2) * 512 + 1 * p.val = R.val; omega
  | ⟨1, _⟩ => show win7_2.index t (1 : Fin 2) * 256 + 1 * g.val = g.val; omega

theorem rd3 (c : Dev nD) (t : Fin cfg7.N) (p : Fin 512) (g : Fin 256) (R : Fin 1024) (hR : R.val = t.val * 512 + p.val) :
    iblk7 V c 3 t (ix2 p g) = aLC V c R g := by
  show (V c (Pipeline.arrRef spec7 3) : S1024x256.Idx → EReal) (((cfg7.win 3).blk t).view.emb (ix2 p g))
    = (V c (Pipeline.arrRef spec7 3) : S1024x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_3.index t (0 : Fin 2) * 512 + 1 * p.val = R.val; omega
  | ⟨1, _⟩ => show win7_3.index t (1 : Fin 2) * 256 + 1 * g.val = g.val; omega

theorem rd4 (c : Dev nD) (t : Fin cfg7.N) (p : Fin 512) (g : Fin 256) (R : Fin 1024) (hR : R.val = t.val * 512 + p.val) :
    iblk7 V c 4 t (ix2 p g) = aRC V c R g := by
  show (V c (Pipeline.arrRef spec7 4) : S1024x256.Idx → EReal) (((cfg7.win 4).blk t).view.emb (ix2 p g))
    = (V c (Pipeline.arrRef spec7 4) : S1024x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_4.index t (0 : Fin 2) * 512 + 1 * p.val = R.val; omega
  | ⟨1, _⟩ => show win7_4.index t (1 : Fin 2) * 256 + 1 * g.val = g.val; omega

theorem rd5 (c : Dev nD) (t : Fin cfg7.N) : cur2 (iblk7 V c 5 t) = aWl V c := by
  funext k g
  show (V c (Pipeline.arrRef spec7 5) : S256x1280.Idx → EReal) (((cfg7.win 5).blk t).view.emb (ix2 k g))
    = (V c (Pipeline.arrRef spec7 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_5.index t (0 : Fin 2) * 256 + 1 * k.val = k.val; omega
  | ⟨1, _⟩ => show win7_5.index t (1 : Fin 2) * 1280 + 1 * g.val = g.val; omega

theorem rd6 (c : Dev nD) (t : Fin cfg7.N) : cur2 (iblk7 V c 6 t) = aWr V c := by
  funext k g
  show (V c (Pipeline.arrRef spec7 6) : S256x1280.Idx → EReal) (((cfg7.win 6).blk t).view.emb (ix2 k g))
    = (V c (Pipeline.arrRef spec7 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_6.index t (0 : Fin 2) * 256 + 1 * k.val = k.val; omega
  | ⟨1, _⟩ => show win7_6.index t (1 : Fin 2) * 1280 + 1 * g.val = g.val; omega

theorem rd7 (c : Dev nD) (t : Fin cfg7.N) : cur1 (iblk7 V c 7 t) = aBl V c := by
  funext g
  show (V c (Pipeline.arrRef spec7 7) : S1280.Idx → EReal) (((cfg7.win 7).blk t).view.emb (ix1 g))
    = (V c (Pipeline.arrRef spec7 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_7.index t (0 : Fin 1) * 1280 + 1 * g.val = g.val; omega

theorem rd8 (c : Dev nD) (t : Fin cfg7.N) : cur1 (iblk7 V c 8 t) = aBr V c := by
  funext g
  show (V c (Pipeline.arrRef spec7 8) : S1280.Idx → EReal) (((cfg7.win 8).blk t).view.emb (ix1 g))
    = (V c (Pipeline.arrRef spec7 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win7_8.index t (0 : Fin 1) * 1280 + 1 * g.val = g.val; omega

/-! ## The hidden-state array (window 9) -/

/-- What point `t` writes back of window 9 is block `t` of `GH`. -/
theorem flushedH (c : Dev nD) (t : Fin cfg7.N) :
    (dat7 V c).flushed 9 t = ((cfg7.win 9).blk t).view.read (Elt Ideal) (GH V c) := by
  show (cfg7.win 9).cut (grid7.coords t) ((dat7 V c).after 9 t) = _
  rw [after7_9]
  unfold out7_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 2 := lt_of_lt_of_eq t.isLt N_7
  have hp : p.val < 512 := p.isLt
  have hR : t.val * 512 + p.val < 1024 := by omega
  have hemb : ((cfg7.win 9).blk t).view.emb (ix2 p q) = ix2 (⟨t.val * 512 + p.val, hR⟩ : Fin 1024) q := by
    refine funext fun a => Fin.ext ?_
    obtain ⟨a0, b0, a1, b1, a2, b2, a3, b3, a4, b4, a9, b9, a10, b10, a5, b5, a6, b6, a7, a8⟩ := idx_facts t
    match a with
    | ⟨0, _⟩ => show win7_9.index t (0 : Fin 2) * 512 + 1 * p.val = t.val * 512 + p.val; omega
    | ⟨1, _⟩ => show win7_9.index t (1 : Fin 2) * 256 + 1 * q.val = q.val; omega
  show k7_pay2 (k7_pay4 (iblk7 V c 1 t) (iblk7 V c 2 t) (iblk7 V c 5 t) (iblk7 V c 6 t) (iblk7 V c 0 t) (iblk7 V c 7 t) (iblk7 V c 8 t)) (k7_pay5 (iblk7 V c 1 t) (iblk7 V c 2 t) (iblk7 V c 5 t) (iblk7 V c 6 t) (iblk7 V c 0 t) (iblk7 V c 7 t) (iblk7 V c 8 t)) (k7_pay6 (iblk7 V c 1 t) (iblk7 V c 2 t) (iblk7 V c 5 t) (iblk7 V c 6 t) (iblk7 V c 0 t) (iblk7 V c 7 t) (iblk7 V c 8 t) (iblk7 V c 3 t)) (iblk7 V c 4 t) (ix2 p q) = GH V c (((cfg7.win 9).blk t).view.emb (ix2 p q))
  rw [hemb]
  refine (LevelPay7.hidden_apply (iblk7 V c 0 t) (iblk7 V c 1 t) (iblk7 V c 2 t) (iblk7 V c 3 t) (iblk7 V c 4 t)
    (iblk7 V c 5 t) (iblk7 V c 6 t) (iblk7 V c 7 t) (iblk7 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg7.N) (i : S1024x256.Idx) :
    i ∈ ((cfg7.win 9).blk t).view.set ↔ ∀ a : Fin 2, win7_9.index t a * S512x256.size a ≤ (i a).val
      ∧ (i a).val < win7_9.index t a * S512x256.size a + S512x256.size a := by
  show i ∈ ((View.whole main_v160_0).slice (win7_9.rect t)).set ↔ _
  rw [View.set_slice_whole, Rect.mem_set_unit]
  exact Iff.rfl

/-- Every row is in the block of the point `row / 512`. -/
theorem coverH (i : S1024x256.Idx) :
    ∃ t : Fin cfg7.N, (cfg7.win 9).flush t = true ∧ i ∈ ((cfg7.win 9).blk t).view.set := by
  have hi0 : (i 0).val < 1024 := (i 0).isLt
  have hi1 : (i 1).val < 256 := (i 1).isLt
  have hN : (i 0).val / 512 < cfg7.N := lt_of_lt_of_eq (by omega : (i 0).val / 512 < 2) N_7.symm
  refine ⟨⟨(i 0).val / 512, hN⟩, flush7_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg7.N)
  intro a
  match a with
  | ⟨0, _⟩ =>
    show win7_9.index ⟨(i 0).val / 512, hN⟩ (0 : Fin 2) * 512 ≤ (i 0).val
      ∧ (i 0).val < win7_9.index ⟨(i 0).val / 512, hN⟩ (0 : Fin 2) * 512 + 512
    have e0 : win7_9.index ⟨(i 0).val / 512, hN⟩ (0 : Fin 2) = (i 0).val / 512 := a9
    omega
  | ⟨1, _⟩ =>
    show win7_9.index ⟨(i 0).val / 512, hN⟩ (1 : Fin 2) * 256 ≤ (i 1).val
      ∧ (i 1).val < win7_9.index ⟨(i 0).val / 512, hN⟩ (1 : Fin 2) * 256 + 256
    omega

/-- The array window 9 leaves: `GH` of the arrays as the region finds them. -/
theorem region_h (c : Dev nD) : (dat7 V c).arrAt 9 cfg7.N = GH V c :=
  (dat7 V c).arrAt_eq_of_cover 9 (GH V c) (fun t _ => flushedH V c t) coverH

/-! ## The cell-state array (window 10) -/

/-- What point `t` writes back of window 10 is block `t` of `GC`. -/
theorem flushedC (c : Dev nD) (t : Fin cfg7.N) :
    (dat7 V c).flushed 10 t = ((cfg7.win 10).blk t).view.read (Elt Ideal) (GC V c) := by
  show (cfg7.win 10).cut (grid7.coords t) ((dat7 V c).after 10 t) = _
  rw [after7_10]
  unfold out7_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 2 := lt_of_lt_of_eq t.isLt N_7
  have hp : p.val < 512 := p.isLt
  have hR : t.val * 512 + p.val < 1024 := by omega
  have hemb : ((cfg7.win 10).blk t).view.emb (ix2 p q) = ix2 (⟨t.val * 512 + p.val, hR⟩ : Fin 1024) q := by
    refine funext fun a => Fin.ext ?_
    obtain ⟨a0, b0, a1, b1, a2, b2, a3, b3, a4, b4, a9, b9, a10, b10, a5, b5, a6, b6, a7, a8⟩ := idx_facts t
    match a with
    | ⟨0, _⟩ => show win7_10.index t (0 : Fin 2) * 512 + 1 * p.val = t.val * 512 + p.val; omega
    | ⟨1, _⟩ => show win7_10.index t (1 : Fin 2) * 256 + 1 * q.val = q.val; omega
  show k7_pay1 (k7_pay5 (iblk7 V c 1 t) (iblk7 V c 2 t) (iblk7 V c 5 t) (iblk7 V c 6 t) (iblk7 V c 0 t) (iblk7 V c 7 t) (iblk7 V c 8 t)) (k7_pay6 (iblk7 V c 1 t) (iblk7 V c 2 t) (iblk7 V c 5 t) (iblk7 V c 6 t) (iblk7 V c 0 t) (iblk7 V c 7 t) (iblk7 V c 8 t) (iblk7 V c 3 t)) (iblk7 V c 4 t) (ix2 p q) = GC V c (((cfg7.win 10).blk t).view.emb (ix2 p q))
  rw [hemb]
  refine (LevelPay7.cell_apply (iblk7 V c 0 t) (iblk7 V c 1 t) (iblk7 V c 2 t) (iblk7 V c 3 t) (iblk7 V c 4 t)
    (iblk7 V c 5 t) (iblk7 V c 6 t) (iblk7 V c 7 t) (iblk7 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg7.N) (i : S1024x256.Idx) :
    i ∈ ((cfg7.win 10).blk t).view.set ↔ ∀ a : Fin 2, win7_10.index t a * S512x256.size a ≤ (i a).val
      ∧ (i a).val < win7_10.index t a * S512x256.size a + S512x256.size a := by
  show i ∈ ((View.whole main_v160_1).slice (win7_10.rect t)).set ↔ _
  rw [View.set_slice_whole, Rect.mem_set_unit]
  exact Iff.rfl

/-- Every row is in the block of the point `row / 512`. -/
theorem coverC (i : S1024x256.Idx) :
    ∃ t : Fin cfg7.N, (cfg7.win 10).flush t = true ∧ i ∈ ((cfg7.win 10).blk t).view.set := by
  have hi0 : (i 0).val < 1024 := (i 0).isLt
  have hi1 : (i 1).val < 256 := (i 1).isLt
  have hN : (i 0).val / 512 < cfg7.N := lt_of_lt_of_eq (by omega : (i 0).val / 512 < 2) N_7.symm
  refine ⟨⟨(i 0).val / 512, hN⟩, flush7_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg7.N)
  intro a
  match a with
  | ⟨0, _⟩ =>
    show win7_10.index ⟨(i 0).val / 512, hN⟩ (0 : Fin 2) * 512 ≤ (i 0).val
      ∧ (i 0).val < win7_10.index ⟨(i 0).val / 512, hN⟩ (0 : Fin 2) * 512 + 512
    have e0 : win7_10.index ⟨(i 0).val / 512, hN⟩ (0 : Fin 2) = (i 0).val / 512 := a10
    omega
  | ⟨1, _⟩ =>
    show win7_10.index ⟨(i 0).val / 512, hN⟩ (1 : Fin 2) * 256 ≤ (i 1).val
      ∧ (i 1).val < win7_10.index ⟨(i 0).val / 512, hN⟩ (1 : Fin 2) * 256 + 256
    omega

/-- The array window 10 leaves: `GC` of the arrays as the region finds them. -/
theorem region_c (c : Dev nD) : (dat7 V c).arrAt 10 cfg7.N = GC V c :=
  (dat7 V c).arrAt_eq_of_cover 10 (GC V c) (fun t _ => flushedC V c t) coverC

end Cert.KernelIdeal.RegionValue7

end
-- ==== Proof.LevelPay8.lean ====
/-
  The level kernel's arithmetic on one block of 512 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay8

open Cert.KernelIdeal Cert.KernelIdeal.Gen Idealize.ShloMosaic Idealize.ShloMosaic.ValueIdx Cert.TreeSpec

/-- The matrix product's dimension numbers: rows × 256 times 256 × 1280. -/
abbrev D := dot_S512x256_S256x1280_S512x1280_1_0_0_1_n_n

theorem lhs_ix (r : Fin 512) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 512) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S512x256 .bf16) (w : FVec Ideal S256x1280 .bf16) (r : Fin 512) (g : Fin 1280) :
    matmul D none l w (constant S512x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 512) (g : Fin 1280) :
    broadcastTo S512x1280 (shapeCast S1x1280 b shapeCasts_S1280_S1x1280) broadcasts_S1x1280_S512x1280 (ix2 r g) = b (ix1 g) :=
  (broadcastTo_1b_ab_apply _ _ r g).trans (shapeCast_a_1a_apply b _ 0 g)

/-- The pre-activations at (r, g). -/
theorem pre_apply (lh rh : Vec Ideal S512x256 .f32) (wl wr : Vec Ideal S256x1280 .f32) (x : Vec Ideal S512x1280 .f32)
    (bl br : Vec Ideal S1280 .f32) (r : Fin 512) (g : Fin 1280) :
    k8_pay3 lh rh wl wr x bl br (ix2 r g)
      = rowPre (cur2 x) (cur2 lh) (cur2 rh) (cur2 wl) (cur2 wr) (cur1 bl) (cur1 br) r g := by
  unfold k8_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S512x1280 .f32)
    (h : S512x1280.Slices ![0, o] S512x256) (r : Fin 512) (j : Fin 256) :
    extractStridedSlice S512x256 ![0, o] P h (ix2 r j) = P (ix2 r (col q j)) :=
  slice2_axis1_apply o P h r j (col q j) (by rw [col_val q hq j, ho])

theorem logistic_at (v : FVec Ideal S512x256 .f32) (i : S512x256.Idx) : logistic v i = Ideal.logistic (v i) := rfl
theorem tanh_at (v : FVec Ideal S512x256 .f32) (i : S512x256.Idx) : tanh v i = Ideal.tanh (v i) := rfl

/-- The stored cell state at (p, q). -/
theorem cell_apply (x : Vec Ideal S512x1280 .f32) (lh rh lc rc : Vec Ideal S512x256 .f32) (wl wr : Vec Ideal S256x1280 .f32)
    (bl br : Vec Ideal S1280 .f32) (p : Fin 512) (q : Fin 256) :
    k8_pay1 (k8_pay5 lh rh wl wr x bl br) (k8_pay6 lh rh wl wr x bl br lc) rc (ix2 p q)
      = rowC (rowPre (cur2 x) (cur2 lh) (cur2 rh) (cur2 wl) (cur2 wr) (cur1 bl) (cur1 br)) (cur2 lc) (cur2 rc) p q := by
  unfold k8_pay1 k8_pay5 k8_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S512x1280 .f32) (lh rh lc rc : Vec Ideal S512x256 .f32) (wl wr : Vec Ideal S256x1280 .f32)
    (bl br : Vec Ideal S1280 .f32) (p : Fin 512) (q : Fin 256) :
    k8_pay2 (k8_pay4 lh rh wl wr x bl br) (k8_pay5 lh rh wl wr x bl br) (k8_pay6 lh rh wl wr x bl br lc) rc (ix2 p q)
      = rowH (rowPre (cur2 x) (cur2 lh) (cur2 rh) (cur2 wl) (cur2 wr) (cur1 bl) (cur1 br)) (cur2 lc) (cur2 rc) p q := by
  unfold k8_pay2 k8_pay4
  simp only [mulf_apply, logistic_at, tanh_at]
  rw [cell_apply, slice_apply 256 1 (by decide) rfl _ _ p q, pre_apply]
  rfl

end Cert.KernelIdeal.LevelPay8

end
-- ==== Proof.RegionValue8.lean ====
/-
  What the level launch number 8 leaves in its two output arrays, as whole-array functions of the arrays it finds.

  The launch works on 512 rows in 1 block of 512: point `t` reads rows `t·512 … t·512+511` of the five row-indexed
  operands (own projection, children's hidden and cell states), the two transposed weight matrices and the two bias
  vectors whole, and writes back rows `t·512 …` of the hidden and of the cell array.  A row's values depend on that
  row only, so block `t` of the result is block `t` of `TreeSpec.rowH` / `rowC` of the whole operands; the blocks
  cover all rows (row `r` lies in block `r / 512`), so the arrays end as those functions.
-/
import proofs.«102109_j83099027243631_1_alg».proof.Proof.Gen.KernelIdeal.Frame
import proofs.«102109_j83099027243631_1_alg».proof.Proof.LevelPay8
import Idealize.ShloMosaic.Lib.Pipeline.Value

set_option maxRecDepth 16384

noncomputable section

namespace Cert.KernelIdeal.RegionValue8

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 512 1280 := cur2 (V c (Pipeline.arrRef spec8 0) : S512x1280.Idx → EReal)
abbrev aLH (c : Dev nD) : A2 512 256 := cur2 (V c (Pipeline.arrRef spec8 1) : S512x256.Idx → EReal)
abbrev aRH (c : Dev nD) : A2 512 256 := cur2 (V c (Pipeline.arrRef spec8 2) : S512x256.Idx → EReal)
abbrev aLC (c : Dev nD) : A2 512 256 := cur2 (V c (Pipeline.arrRef spec8 3) : S512x256.Idx → EReal)
abbrev aRC (c : Dev nD) : A2 512 256 := cur2 (V c (Pipeline.arrRef spec8 4) : S512x256.Idx → EReal)
abbrev aWl (c : Dev nD) : A2 256 1280 := cur2 (V c (Pipeline.arrRef spec8 5) : S256x1280.Idx → EReal)
abbrev aWr (c : Dev nD) : A2 256 1280 := cur2 (V c (Pipeline.arrRef spec8 6) : S256x1280.Idx → EReal)
abbrev aBl (c : Dev nD) : A1 1280 := cur1 (V c (Pipeline.arrRef spec8 7) : S1280.Idx → EReal)
abbrev aBr (c : Dev nD) : A1 1280 := cur1 (V c (Pipeline.arrRef spec8 8) : S1280.Idx → EReal)

/-- The hidden-state array the launch leaves. -/
def GH (c : Dev nD) : S512x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S512x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0
    ∧ win8_9.index t (0 : Fin 2) = t.val ∧ win8_9.index t (1 : Fin 2) = 0
    ∧ win8_10.index t (0 : Fin 2) = t.val ∧ win8_10.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 1) = 0
    ∧ win8_8.index t (0 : Fin 1) = 0 :=
  (by decide +kernel : ∀ t : Fin grid8.N, _)

/-! ## The blocks the point reads, off the whole arrays -/

theorem rd0 (c : Dev nD) (t : Fin cfg8.N) (p : Fin 512) (g : Fin 1280) (R : Fin 512) (hR : R.val = t.val * 512 + p.val) :
    iblk8 V c 0 t (ix2 p g) = aX V c R g := by
  show (V c (Pipeline.arrRef spec8 0) : S512x1280.Idx → EReal) (((cfg8.win 0).blk t).view.emb (ix2 p g))
    = (V c (Pipeline.arrRef spec8 0) : S512x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_0.index t (0 : Fin 2) * 512 + 1 * p.val = R.val; omega
  | ⟨1, _⟩ => show win8_0.index t (1 : Fin 2) * 1280 + 1 * g.val = g.val; omega

theorem rd1 (c : Dev nD) (t : Fin cfg8.N) (p : Fin 512) (g : Fin 256) (R : Fin 512) (hR : R.val = t.val * 512 + p.val) :
    iblk8 V c 1 t (ix2 p g) = aLH V c R g := by
  show (V c (Pipeline.arrRef spec8 1) : S512x256.Idx → EReal) (((cfg8.win 1).blk t).view.emb (ix2 p g))
    = (V c (Pipeline.arrRef spec8 1) : S512x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_1.index t (0 : Fin 2) * 512 + 1 * p.val = R.val; omega
  | ⟨1, _⟩ => show win8_1.index t (1 : Fin 2) * 256 + 1 * g.val = g.val; omega

theorem rd2 (c : Dev nD) (t : Fin cfg8.N) (p : Fin 512) (g : Fin 256) (R : Fin 512) (hR : R.val = t.val * 512 + p.val) :
    iblk8 V c 2 t (ix2 p g) = aRH V c R g := by
  show (V c (Pipeline.arrRef spec8 2) : S512x256.Idx → EReal) (((cfg8.win 2).blk t).view.emb (ix2 p g))
    = (V c (Pipeline.arrRef spec8 2) : S512x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_2.index t (0 : Fin 2) * 512 + 1 * p.val = R.val; omega
  | ⟨1, _⟩ => show win8_2.index t (1 : Fin 2) * 256 + 1 * g.val = g.val; omega

theorem rd3 (c : Dev nD) (t : Fin cfg8.N) (p : Fin 512) (g : Fin 256) (R : Fin 512) (hR : R.val = t.val * 512 + p.val) :
    iblk8 V c 3 t (ix2 p g) = aLC V c R g := by
  show (V c (Pipeline.arrRef spec8 3) : S512x256.Idx → EReal) (((cfg8.win 3).blk t).view.emb (ix2 p g))
    = (V c (Pipeline.arrRef spec8 3) : S512x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_3.index t (0 : Fin 2) * 512 + 1 * p.val = R.val; omega
  | ⟨1, _⟩ => show win8_3.index t (1 : Fin 2) * 256 + 1 * g.val = g.val; omega

theorem rd4 (c : Dev nD) (t : Fin cfg8.N) (p : Fin 512) (g : Fin 256) (R : Fin 512) (hR : R.val = t.val * 512 + p.val) :
    iblk8 V c 4 t (ix2 p g) = aRC V c R g := by
  show (V c (Pipeline.arrRef spec8 4) : S512x256.Idx → EReal) (((cfg8.win 4).blk t).view.emb (ix2 p g))
    = (V c (Pipeline.arrRef spec8 4) : S512x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_4.index t (0 : Fin 2) * 512 + 1 * p.val = R.val; omega
  | ⟨1, _⟩ => show win8_4.index t (1 : Fin 2) * 256 + 1 * g.val = g.val; omega

theorem rd5 (c : Dev nD) (t : Fin cfg8.N) : cur2 (iblk8 V c 5 t) = aWl V c := by
  funext k g
  show (V c (Pipeline.arrRef spec8 5) : S256x1280.Idx → EReal) (((cfg8.win 5).blk t).view.emb (ix2 k g))
    = (V c (Pipeline.arrRef spec8 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_5.index t (0 : Fin 2) * 256 + 1 * k.val = k.val; omega
  | ⟨1, _⟩ => show win8_5.index t (1 : Fin 2) * 1280 + 1 * g.val = g.val; omega

theorem rd6 (c : Dev nD) (t : Fin cfg8.N) : cur2 (iblk8 V c 6 t) = aWr V c := by
  funext k g
  show (V c (Pipeline.arrRef spec8 6) : S256x1280.Idx → EReal) (((cfg8.win 6).blk t).view.emb (ix2 k g))
    = (V c (Pipeline.arrRef spec8 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_6.index t (0 : Fin 2) * 256 + 1 * k.val = k.val; omega
  | ⟨1, _⟩ => show win8_6.index t (1 : Fin 2) * 1280 + 1 * g.val = g.val; omega

theorem rd7 (c : Dev nD) (t : Fin cfg8.N) : cur1 (iblk8 V c 7 t) = aBl V c := by
  funext g
  show (V c (Pipeline.arrRef spec8 7) : S1280.Idx → EReal) (((cfg8.win 7).blk t).view.emb (ix1 g))
    = (V c (Pipeline.arrRef spec8 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_7.index t (0 : Fin 1) * 1280 + 1 * g.val = g.val; omega

theorem rd8 (c : Dev nD) (t : Fin cfg8.N) : cur1 (iblk8 V c 8 t) = aBr V c := by
  funext g
  show (V c (Pipeline.arrRef spec8 8) : S1280.Idx → EReal) (((cfg8.win 8).blk t).view.emb (ix1 g))
    = (V c (Pipeline.arrRef spec8 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win8_8.index t (0 : Fin 1) * 1280 + 1 * g.val = g.val; omega

/-! ## The hidden-state array (window 9) -/

/-- What point `t` writes back of window 9 is block `t` of `GH`. -/
theorem flushedH (c : Dev nD) (t : Fin cfg8.N) :
    (dat8 V c).flushed 9 t = ((cfg8.win 9).blk t).view.read (Elt Ideal) (GH V c) := by
  show (cfg8.win 9).cut (grid8.coords t) ((dat8 V c).after 9 t) = _
  rw [after8_9]
  unfold out8_9
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 1 := lt_of_lt_of_eq t.isLt N_8
  have hp : p.val < 512 := p.isLt
  have hR : t.val * 512 + p.val < 512 := by omega
  have hemb : ((cfg8.win 9).blk t).view.emb (ix2 p q) = ix2 (⟨t.val * 512 + p.val, hR⟩ : Fin 512) q := by
    refine funext fun a => Fin.ext ?_
    obtain ⟨a0, b0, a1, b1, a2, b2, a3, b3, a4, b4, a9, b9, a10, b10, a5, b5, a6, b6, a7, a8⟩ := idx_facts t
    match a with
    | ⟨0, _⟩ => show win8_9.index t (0 : Fin 2) * 512 + 1 * p.val = t.val * 512 + p.val; omega
    | ⟨1, _⟩ => show win8_9.index t (1 : Fin 2) * 256 + 1 * q.val = q.val; omega
  show k8_pay2 (k8_pay4 (iblk8 V c 1 t) (iblk8 V c 2 t) (iblk8 V c 5 t) (iblk8 V c 6 t) (iblk8 V c 0 t) (iblk8 V c 7 t) (iblk8 V c 8 t)) (k8_pay5 (iblk8 V c 1 t) (iblk8 V c 2 t) (iblk8 V c 5 t) (iblk8 V c 6 t) (iblk8 V c 0 t) (iblk8 V c 7 t) (iblk8 V c 8 t)) (k8_pay6 (iblk8 V c 1 t) (iblk8 V c 2 t) (iblk8 V c 5 t) (iblk8 V c 6 t) (iblk8 V c 0 t) (iblk8 V c 7 t) (iblk8 V c 8 t) (iblk8 V c 3 t)) (iblk8 V c 4 t) (ix2 p q) = GH V c (((cfg8.win 9).blk t).view.emb (ix2 p q))
  rw [hemb]
  refine (LevelPay8.hidden_apply (iblk8 V c 0 t) (iblk8 V c 1 t) (iblk8 V c 2 t) (iblk8 V c 3 t) (iblk8 V c 4 t)
    (iblk8 V c 5 t) (iblk8 V c 6 t) (iblk8 V c 7 t) (iblk8 V c 8 t) p q).trans ?_
  rw [rd5 V c t, rd6 V c t, rd7 V c t, rd8 V c t]
  exact rowH_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg8.N) (i : S512x256.Idx) :
    i ∈ ((cfg8.win 9).blk t).view.set ↔ ∀ a : Fin 2, win8_9.index t a * S512x256.size a ≤ (i a).val
      ∧ (i a).val < win8_9.index t a * S512x256.size a + S512x256.size a := by
  show i ∈ ((View.whole main_v185_0).slice (win8_9.rect t)).set ↔ _
  rw [View.set_slice_whole, Rect.mem_set_unit]
  exact Iff.rfl

/-- Every row is in the block of the point `row / 512`. -/
theorem coverH (i : S512x256.Idx) :
    ∃ t : Fin cfg8.N, (cfg8.win 9).flush t = true ∧ i ∈ ((cfg8.win 9).blk t).view.set := by
  have hi0 : (i 0).val < 512 := (i 0).isLt
  have hi1 : (i 1).val < 256 := (i 1).isLt
  have hN : (i 0).val / 512 < cfg8.N := lt_of_lt_of_eq (by omega : (i 0).val / 512 < 1) N_8.symm
  refine ⟨⟨(i 0).val / 512, hN⟩, flush8_9 _, ?_⟩
  rw [mem_blkH]
  have ⟨a0, b0, a1, b1, a2, b2, a3, b3, a4, b4, a9, b9, a10, b10, a5, b5, a6, b6, a7, a8⟩ := idx_facts (⟨(i 0).val / 512, hN⟩ : Fin cfg8.N)
  intro a
  match a with
  | ⟨0, _⟩ =>
    show win8_9.index ⟨(i 0).val / 512, hN⟩ (0 : Fin 2) * 512 ≤ (i 0).val
      ∧ (i 0).val < win8_9.index ⟨(i 0).val / 512, hN⟩ (0 : Fin 2) * 512 + 512
    have e0 : win8_9.index ⟨(i 0).val / 512, hN⟩ (0 : Fin 2) = (i 0).val / 512 := a9
    omega
  | ⟨1, _⟩ =>
    show win8_9.index ⟨(i 0).val / 512, hN⟩ (1 : Fin 2) * 256 ≤ (i 1).val
      ∧ (i 1).val < win8_9.index ⟨(i 0).val / 512, hN⟩ (1 : Fin 2) * 256 + 256
    omega

/-- The array window 9 leaves: `GH` of the arrays as the region finds them. -/
theorem region_h (c : Dev nD) : (dat8 V c).arrAt 9 cfg8.N = GH V c :=
  (dat8 V c).arrAt_eq_of_cover 9 (GH V c) (fun t _ => flushedH V c t) coverH

/-! ## The cell-state array (window 10) -/

/-- What point `t` writes back of window 10 is block `t` of `GC`. -/
theorem flushedC (c : Dev nD) (t : Fin cfg8.N) :
    (dat8 V c).flushed 10 t = ((cfg8.win 10).blk t).view.read (Elt Ideal) (GC V c) := by
  show (cfg8.win 10).cut (grid8.coords t) ((dat8 V c).after 10 t) = _
  rw [after8_10]
  unfold out8_10
  rw [View.canon_unit_zero hz]
  simp only [View.ld_unit_zero (S := S512x256) hz, View.ld_unit_zero (S := S256x1280) hz,
    View.ld_unit_zero (S := S512x1280) hz, View.ld_unit_zero (S := S1280) hz1]
  funext j
  obtain ⟨p, q, rfl⟩ : ∃ (p : Fin 512) (q : Fin 256), j = ix2 p q := ⟨j 0, j 1, eq_ix2 j⟩
  have ht : t.val < 1 := lt_of_lt_of_eq t.isLt N_8
  have hp : p.val < 512 := p.isLt
  have hR : t.val * 512 + p.val < 512 := by omega
  have hemb : ((cfg8.win 10).blk t).view.emb (ix2 p q) = ix2 (⟨t.val * 512 + p.val, hR⟩ : Fin 512) q := by
    refine funext fun a => Fin.ext ?_
    obtain ⟨a0, b0, a1, b1, a2, b2, a3, b3, a4, b4, a9, b9, a10, b10, a5, b5, a6, b6, a7, a8⟩ := idx_facts t
    match a with
    | ⟨0, _⟩ => show win8_10.index t (0 : Fin 2) * 512 + 1 * p.val = t.val * 512 + p.val; omega
    | ⟨1, _⟩ => show win8_10.index t (1 : Fin 2) * 256 + 1 * q.val = q.val; omega
  show k8_pay1 (k8_pay5 (iblk8 V c 1 t) (iblk8 V c 2 t) (iblk8 V c 5 t) (iblk8 V c 6 t) (iblk8 V c 0 t) (iblk8 V c 7 t) (iblk8 V c 8 t)) (k8_pay6 (iblk8 V c 1 t) (iblk8 V c 2 t) (iblk8 V c 5 t) (iblk8 V c 6 t) (iblk8 V c 0 t) (iblk8 V c 7 t) (iblk8 V c 8 t) (iblk8 V c 3 t)) (iblk8 V c 4 t) (ix2 p q) = GC V c (((cfg8.win 10).blk t).view.emb (ix2 p q))
  rw [hemb]
  refine (LevelPay8.cell_apply (iblk8 V c 0 t) (iblk8 V c 1 t) (iblk8 V c 2 t) (iblk8 V c 3 t) (iblk8 V c 4 t)
    (iblk8 V c 5 t) (iblk8 V c 6 t) (iblk8 V c 7 t) (iblk8 V c 8 t) p q).trans ?_
  rw [rd5 V c t, rd6 V c t, rd7 V c t, rd8 V c t]
  exact rowC_congr _ _ _ _ _ _ p ⟨t.val * 512 + p.val, hR⟩
    (fun g => rowPre_congr _ _ _ _ _ _ _ _ _ _ p ⟨t.val * 512 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg8.N) (i : S512x256.Idx) :
    i ∈ ((cfg8.win 10).blk t).view.set ↔ ∀ a : Fin 2, win8_10.index t a * S512x256.size a ≤ (i a).val
      ∧ (i a).val < win8_10.index t a * S512x256.size a + S512x256.size a := by
  show i ∈ ((View.whole main_v185_1).slice (win8_10.rect t)).set ↔ _
  rw [View.set_slice_whole, Rect.mem_set_unit]
  exact Iff.rfl

/-- Every row is in the block of the point `row / 512`. -/
theorem coverC (i : S512x256.Idx) :
    ∃ t : Fin cfg8.N, (cfg8.win 10).flush t = true ∧ i ∈ ((cfg8.win 10).blk t).view.set := by
  have hi0 : (i 0).val < 512 := (i 0).isLt
  have hi1 : (i 1).val < 256 := (i 1).isLt
  have hN : (i 0).val / 512 < cfg8.N := lt_of_lt_of_eq (by omega : (i 0).val / 512 < 1) N_8.symm
  refine ⟨⟨(i 0).val / 512, hN⟩, flush8_10 _, ?_⟩
  rw [mem_blkC]
  have ⟨a0, b0, a1, b1, a2, b2, a3, b3, a4, b4, a9, b9, a10, b10, a5, b5, a6, b6, a7, a8⟩ := idx_facts (⟨(i 0).val / 512, hN⟩ : Fin cfg8.N)
  intro a
  match a with
  | ⟨0, _⟩ =>
    show win8_10.index ⟨(i 0).val / 512, hN⟩ (0 : Fin 2) * 512 ≤ (i 0).val
      ∧ (i 0).val < win8_10.index ⟨(i 0).val / 512, hN⟩ (0 : Fin 2) * 512 + 512
    have e0 : win8_10.index ⟨(i 0).val / 512, hN⟩ (0 : Fin 2) = (i 0).val / 512 := a10
    omega
  | ⟨1, _⟩ =>
    show win8_10.index ⟨(i 0).val / 512, hN⟩ (1 : Fin 2) * 256 ≤ (i 1).val
      ∧ (i 1).val < win8_10.index ⟨(i 0).val / 512, hN⟩ (1 : Fin 2) * 256 + 256
    omega

/-- The array window 10 leaves: `GC` of the arrays as the region finds them. -/
theorem region_c (c : Dev nD) : (dat8 V c).arrAt 10 cfg8.N = GC V c :=
  (dat8 V c).arrAt_eq_of_cover 10 (GC V c) (fun t _ => flushedC V c t) coverC

end Cert.KernelIdeal.RegionValue8

end
-- ==== Proof.LevelPay9.lean ====
/-
  The level kernel's arithmetic on one block of 256 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay9

open Cert.KernelIdeal Cert.KernelIdeal.Gen Idealize.ShloMosaic Idealize.ShloMosaic.ValueIdx Cert.TreeSpec

/-- The matrix product's dimension numbers: rows × 256 times 256 × 1280. -/
abbrev D := dot_S256x256_S256x1280_S256x1280_1_0_0_1_n_n

theorem lhs_ix (r : Fin 256) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 256) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S256x256 .bf16) (w : FVec Ideal S256x1280 .bf16) (r : Fin 256) (g : Fin 1280) :
    matmul D none l w (constant S256x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 256) (g : Fin 1280) :
    broadcastTo S256x1280 (shapeCast S1x1280 b shapeCasts_S1280_S1x1280) broadcasts_S1x1280_S256x1280 (ix2 r g) = b (ix1 g) :=
  (broadcastTo_1b_ab_apply _ _ r g).trans (shapeCast_a_1a_apply b _ 0 g)

/-- The pre-activations at (r, g). -/
theorem pre_apply (lh rh : Vec Ideal S256x256 .f32) (wl wr : Vec Ideal S256x1280 .f32) (x : Vec Ideal S256x1280 .f32)
    (bl br : Vec Ideal S1280 .f32) (r : Fin 256) (g : Fin 1280) :
    k9_pay3 lh rh wl wr x bl br (ix2 r g)
      = rowPre (cur2 x) (cur2 lh) (cur2 rh) (cur2 wl) (cur2 wr) (cur1 bl) (cur1 br) r g := by
  unfold k9_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S256x1280 .f32)
    (h : S256x1280.Slices ![0, o] S256x256) (r : Fin 256) (j : Fin 256) :
    extractStridedSlice S256x256 ![0, o] P h (ix2 r j) = P (ix2 r (col q j)) :=
  slice2_axis1_apply o P h r j (col q j) (by rw [col_val q hq j, ho])

theorem logistic_at (v : FVec Ideal S256x256 .f32) (i : S256x256.Idx) : logistic v i = Ideal.logistic (v i) := rfl
theorem tanh_at (v : FVec Ideal S256x256 .f32) (i : S256x256.Idx) : tanh v i = Ideal.tanh (v i) := rfl

/-- The stored cell state at (p, q). -/
theorem cell_apply (x : Vec Ideal S256x1280 .f32) (lh rh lc rc : Vec Ideal S256x256 .f32) (wl wr : Vec Ideal S256x1280 .f32)
    (bl br : Vec Ideal S1280 .f32) (p : Fin 256) (q : Fin 256) :
    k9_pay1 (k9_pay5 lh rh wl wr x bl br) (k9_pay6 lh rh wl wr x bl br lc) rc (ix2 p q)
      = rowC (rowPre (cur2 x) (cur2 lh) (cur2 rh) (cur2 wl) (cur2 wr) (cur1 bl) (cur1 br)) (cur2 lc) (cur2 rc) p q := by
  unfold k9_pay1 k9_pay5 k9_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S256x1280 .f32) (lh rh lc rc : Vec Ideal S256x256 .f32) (wl wr : Vec Ideal S256x1280 .f32)
    (bl br : Vec Ideal S1280 .f32) (p : Fin 256) (q : Fin 256) :
    k9_pay2 (k9_pay4 lh rh wl wr x bl br) (k9_pay5 lh rh wl wr x bl br) (k9_pay6 lh rh wl wr x bl br lc) rc (ix2 p q)
      = rowH (rowPre (cur2 x) (cur2 lh) (cur2 rh) (cur2 wl) (cur2 wr) (cur1 bl) (cur1 br)) (cur2 lc) (cur2 rc) p q := by
  unfold k9_pay2 k9_pay4
  simp only [mulf_apply, logistic_at, tanh_at]
  rw [cell_apply, slice_apply 256 1 (by decide) rfl _ _ p q, pre_apply]
  rfl

end Cert.KernelIdeal.LevelPay9

end
-- ==== Proof.RegionValue9.lean ====
/-
  What the level launch number 9 leaves in its two output arrays, as whole-array functions of the arrays it finds.

  The launch works on 256 rows in 1 block of 256: point `t` reads rows `t·256 … t·256+255` of the five row-indexed
  operands (own projection, children's hidden and cell states), the two transposed weight matrices and the two bias
  vectors whole, and writes back rows `t·256 …` of the hidden and of the cell array.  A row's values depend on that
  row only, so block `t` of the result is block `t` of `TreeSpec.rowH` / `rowC` of the whole operands; the blocks
  cover all rows (row `r` lies in block `r / 256`), so the arrays end as those functions.
-/
import proofs.«102109_j83099027243631_1_alg».proof.Proof.Gen.KernelIdeal.Frame
import proofs.«102109_j83099027243631_1_alg».proof.Proof.LevelPay9
import Idealize.ShloMosaic.Lib.Pipeline.Value

set_option maxRecDepth 16384

noncomputable section

namespace Cert.KernelIdeal.RegionValue9

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 256 1280 := cur2 (V c (Pipeline.arrRef spec9 0) : S256x1280.Idx → EReal)
abbrev aLH (c : Dev nD) : A2 256 256 := cur2 (V c (Pipeline.arrRef spec9 1) : S256x256.Idx → EReal)
abbrev aRH (c : Dev nD) : A2 256 256 := cur2 (V c (Pipeline.arrRef spec9 2) : S256x256.Idx → EReal)
abbrev aLC (c : Dev nD) : A2 256 256 := cur2 (V c (Pipeline.arrRef spec9 3) : S256x256.Idx → EReal)
abbrev aRC (c : Dev nD) : A2 256 256 := cur2 (V c (Pipeline.arrRef spec9 4) : S256x256.Idx → EReal)
abbrev aWl (c : Dev nD) : A2 256 1280 := cur2 (V c (Pipeline.arrRef spec9 5) : S256x1280.Idx → EReal)
abbrev aWr (c : Dev nD) : A2 256 1280 := cur2 (V c (Pipeline.arrRef spec9 6) : S256x1280.Idx → EReal)
abbrev aBl (c : Dev nD) : A1 1280 := cur1 (V c (Pipeline.arrRef spec9 7) : S1280.Idx → EReal)
abbrev aBr (c : Dev nD) : A1 1280 := cur1 (V c (Pipeline.arrRef spec9 8) : S1280.Idx → EReal)

/-- The hidden-state array the launch leaves. -/
def GH (c : Dev nD) : S256x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S256x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_9.index t (0 : Fin 2) = t.val ∧ win9_9.index t (1 : Fin 2) = 0
    ∧ win9_10.index t (0 : Fin 2) = t.val ∧ win9_10.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 1) = 0
    ∧ win9_8.index t (0 : Fin 1) = 0 :=
  (by decide +kernel : ∀ t : Fin grid9.N, _)

/-! ## The blocks the point reads, off the whole arrays -/

theorem rd0 (c : Dev nD) (t : Fin cfg9.N) (p : Fin 256) (g : Fin 1280) (R : Fin 256) (hR : R.val = t.val * 256 + p.val) :
    iblk9 V c 0 t (ix2 p g) = aX V c R g := by
  show (V c (Pipeline.arrRef spec9 0) : S256x1280.Idx → EReal) (((cfg9.win 0).blk t).view.emb (ix2 p g))
    = (V c (Pipeline.arrRef spec9 0) : S256x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_0.index t (0 : Fin 2) * 256 + 1 * p.val = R.val; omega
  | ⟨1, _⟩ => show win9_0.index t (1 : Fin 2) * 1280 + 1 * g.val = g.val; omega

theorem rd1 (c : Dev nD) (t : Fin cfg9.N) (p : Fin 256) (g : Fin 256) (R : Fin 256) (hR : R.val = t.val * 256 + p.val) :
    iblk9 V c 1 t (ix2 p g) = aLH V c R g := by
  show (V c (Pipeline.arrRef spec9 1) : S256x256.Idx → EReal) (((cfg9.win 1).blk t).view.emb (ix2 p g))
    = (V c (Pipeline.arrRef spec9 1) : S256x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_1.index t (0 : Fin 2) * 256 + 1 * p.val = R.val; omega
  | ⟨1, _⟩ => show win9_1.index t (1 : Fin 2) * 256 + 1 * g.val = g.val; omega

theorem rd2 (c : Dev nD) (t : Fin cfg9.N) (p : Fin 256) (g : Fin 256) (R : Fin 256) (hR : R.val = t.val * 256 + p.val) :
    iblk9 V c 2 t (ix2 p g) = aRH V c R g := by
  show (V c (Pipeline.arrRef spec9 2) : S256x256.Idx → EReal) (((cfg9.win 2).blk t).view.emb (ix2 p g))
    = (V c (Pipeline.arrRef spec9 2) : S256x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_2.index t (0 : Fin 2) * 256 + 1 * p.val = R.val; omega
  | ⟨1, _⟩ => show win9_2.index t (1 : Fin 2) * 256 + 1 * g.val = g.val; omega

theorem rd3 (c : Dev nD) (t : Fin cfg9.N) (p : Fin 256) (g : Fin 256) (R : Fin 256) (hR : R.val = t.val * 256 + p.val) :
    iblk9 V c 3 t (ix2 p g) = aLC V c R g := by
  show (V c (Pipeline.arrRef spec9 3) : S256x256.Idx → EReal) (((cfg9.win 3).blk t).view.emb (ix2 p g))
    = (V c (Pipeline.arrRef spec9 3) : S256x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_3.index t (0 : Fin 2) * 256 + 1 * p.val = R.val; omega
  | ⟨1, _⟩ => show win9_3.index t (1 : Fin 2) * 256 + 1 * g.val = g.val; omega

theorem rd4 (c : Dev nD) (t : Fin cfg9.N) (p : Fin 256) (g : Fin 256) (R : Fin 256) (hR : R.val = t.val * 256 + p.val) :
    iblk9 V c 4 t (ix2 p g) = aRC V c R g := by
  show (V c (Pipeline.arrRef spec9 4) : S256x256.Idx → EReal) (((cfg9.win 4).blk t).view.emb (ix2 p g))
    = (V c (Pipeline.arrRef spec9 4) : S256x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_4.index t (0 : Fin 2) * 256 + 1 * p.val = R.val; omega
  | ⟨1, _⟩ => show win9_4.index t (1 : Fin 2) * 256 + 1 * g.val = g.val; omega

theorem rd5 (c : Dev nD) (t : Fin cfg9.N) : cur2 (iblk9 V c 5 t) = aWl V c := by
  funext k g
  show (V c (Pipeline.arrRef spec9 5) : S256x1280.Idx → EReal) (((cfg9.win 5).blk t).view.emb (ix2 k g))
    = (V c (Pipeline.arrRef spec9 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_5.index t (0 : Fin 2) * 256 + 1 * k.val = k.val; omega
  | ⟨1, _⟩ => show win9_5.index t (1 : Fin 2) * 1280 + 1 * g.val = g.val; omega

theorem rd6 (c : Dev nD) (t : Fin cfg9.N) : cur2 (iblk9 V c 6 t) = aWr V c := by
  funext k g
  show (V c (Pipeline.arrRef spec9 6) : S256x1280.Idx → EReal) (((cfg9.win 6).blk t).view.emb (ix2 k g))
    = (V c (Pipeline.arrRef spec9 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_6.index t (0 : Fin 2) * 256 + 1 * k.val = k.val; omega
  | ⟨1, _⟩ => show win9_6.index t (1 : Fin 2) * 1280 + 1 * g.val = g.val; omega

theorem rd7 (c : Dev nD) (t : Fin cfg9.N) : cur1 (iblk9 V c 7 t) = aBl V c := by
  funext g
  show (V c (Pipeline.arrRef spec9 7) : S1280.Idx → EReal) (((cfg9.win 7).blk t).view.emb (ix1 g))
    = (V c (Pipeline.arrRef spec9 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_7.index t (0 : Fin 1) * 1280 + 1 * g.val = g.val; omega

theorem rd8 (c : Dev nD) (t : Fin cfg9.N) : cur1 (iblk9 V c 8 t) = aBr V c := by
  funext g
  show (V c (Pipeline.arrRef spec9 8) : S1280.Idx → EReal) (((cfg9.win 8).blk t).view.emb (ix1 g))
    = (V c (Pipeline.arrRef spec9 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win9_8.index t (0 : Fin 1) * 1280 + 1 * g.val = g.val; omega

/-! ## The hidden-state array (window 9) -/

/-- What point `t` writes back of window 9 is block `t` of `GH`. -/
theorem flushedH (c : Dev nD) (t : Fin cfg9.N) :
    (dat9 V c).flushed 9 t = ((cfg9.win 9).blk t).view.read (Elt Ideal) (GH V c) := by
  show (cfg9.win 9).cut (grid9.coords t) ((dat9 V c).after 9 t) = _
  rw [after9_9]
  unfold out9_9
  rw [View.canon_unit_zero hz]
  simp only [View.ld_unit_zero (S := S256x256) hz, View.ld_unit_zero (S := S256x1280) hz,
    View.ld_unit_zero (S := S256x1280) hz, View.ld_unit_zero (S := S1280) hz1]
  funext j
  obtain ⟨p, q, rfl⟩ : ∃ (p : Fin 256) (q : Fin 256), j = ix2 p q := ⟨j 0, j 1, eq_ix2 j⟩
  have ht : t.val < 1 := lt_of_lt_of_eq t.isLt N_9
  have hp : p.val < 256 := p.isLt
  have hR : t.val * 256 + p.val < 256 := by omega
  have hemb : ((cfg9.win 9).blk t).view.emb (ix2 p q) = ix2 (⟨t.val * 256 + p.val, hR⟩ : Fin 256) q := by
    refine funext fun a => Fin.ext ?_
    obtain ⟨a0, b0, a1, b1, a2, b2, a3, b3, a4, b4, a9, b9, a10, b10, a5, b5, a6, b6, a7, a8⟩ := idx_facts t
    match a with
    | ⟨0, _⟩ => show win9_9.index t (0 : Fin 2) * 256 + 1 * p.val = t.val * 256 + p.val; omega
    | ⟨1, _⟩ => show win9_9.index t (1 : Fin 2) * 256 + 1 * q.val = q.val; omega
  show k9_pay2 (k9_pay4 (iblk9 V c 1 t) (iblk9 V c 2 t) (iblk9 V c 5 t) (iblk9 V c 6 t) (iblk9 V c 0 t) (iblk9 V c 7 t) (iblk9 V c 8 t)) (k9_pay5 (iblk9 V c 1 t) (iblk9 V c 2 t) (iblk9 V c 5 t) (iblk9 V c 6 t) (iblk9 V c 0 t) (iblk9 V c 7 t) (iblk9 V c 8 t)) (k9_pay6 (iblk9 V c 1 t) (iblk9 V c 2 t) (iblk9 V c 5 t) (iblk9 V c 6 t) (iblk9 V c 0 t) (iblk9 V c 7 t) (iblk9 V c 8 t) (iblk9 V c 3 t)) (iblk9 V c 4 t) (ix2 p q) = GH V c (((cfg9.win 9).blk t).view.emb (ix2 p q))
  rw [hemb]
  refine (LevelPay9.hidden_apply (iblk9 V c 0 t) (iblk9 V c 1 t) (iblk9 V c 2 t) (iblk9 V c 3 t) (iblk9 V c 4 t)
    (iblk9 V c 5 t) (iblk9 V c 6 t) (iblk9 V c 7 t) (iblk9 V c 8 t) p q).trans ?_
  rw [rd5 V c t, rd6 V c t, rd7 V c t, rd8 V c t]
  exact rowH_congr _ _ _ _ _ _ p ⟨t.val * 256 + p.val, hR⟩
    (fun g => rowPre_congr _ _ _ _ _ _ _ _ _ _ p ⟨t.val * 256 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg9.N) (i : S256x256.Idx) :
    i ∈ ((cfg9.win 9).blk t).view.set ↔ ∀ a : Fin 2, win9_9.index t a * S256x256.size a ≤ (i a).val
      ∧ (i a).val < win9_9.index t a * S256x256.size a + S256x256.size a := by
  show i ∈ ((View.whole main_v210_0).slice (win9_9.rect t)).set ↔ _
  rw [View.set_slice_whole, Rect.mem_set_unit]
  exact Iff.rfl

/-- Every row is in the block of the point `row / 256`. -/
theorem coverH (i : S256x256.Idx) :
    ∃ t : Fin cfg9.N, (cfg9.win 9).flush t = true ∧ i ∈ ((cfg9.win 9).blk t).view.set := by
  have hi0 : (i 0).val < 256 := (i 0).isLt
  have hi1 : (i 1).val < 256 := (i 1).isLt
  have hN : (i 0).val / 256 < cfg9.N := lt_of_lt_of_eq (by omega : (i 0).val / 256 < 1) N_9.symm
  refine ⟨⟨(i 0).val / 256, hN⟩, flush9_9 _, ?_⟩
  rw [mem_blkH]
  have ⟨a0, b0, a1, b1, a2, b2, a3, b3, a4, b4, a9, b9, a10, b10, a5, b5, a6, b6, a7, a8⟩ := idx_facts (⟨(i 0).val / 256, hN⟩ : Fin cfg9.N)
  intro a
  match a with
  | ⟨0, _⟩ =>
    show win9_9.index ⟨(i 0).val / 256, hN⟩ (0 : Fin 2) * 256 ≤ (i 0).val
      ∧ (i 0).val < win9_9.index ⟨(i 0).val / 256, hN⟩ (0 : Fin 2) * 256 + 256
    have e0 : win9_9.index ⟨(i 0).val / 256, hN⟩ (0 : Fin 2) = (i 0).val / 256 := a9
    omega
  | ⟨1, _⟩ =>
    show win9_9.index ⟨(i 0).val / 256, hN⟩ (1 : Fin 2) * 256 ≤ (i 1).val
      ∧ (i 1).val < win9_9.index ⟨(i 0).val / 256, hN⟩ (1 : Fin 2) * 256 + 256
    omega

/-- The array window 9 leaves: `GH` of the arrays as the region finds them. -/
theorem region_h (c : Dev nD) : (dat9 V c).arrAt 9 cfg9.N = GH V c :=
  (dat9 V c).arrAt_eq_of_cover 9 (GH V c) (fun t _ => flushedH V c t) coverH

/-! ## The cell-state array (window 10) -/

/-- What point `t` writes back of window 10 is block `t` of `GC`. -/
theorem flushedC (c : Dev nD) (t : Fin cfg9.N) :
    (dat9 V c).flushed 10 t = ((cfg9.win 10).blk t).view.read (Elt Ideal) (GC V c) := by
  show (cfg9.win 10).cut (grid9.coords t) ((dat9 V c).after 10 t) = _
  rw [after9_10]
  unfold out9_10
  rw [View.canon_unit_zero hz]
  simp only [View.ld_unit_zero (S := S256x256) hz, View.ld_unit_zero (S := S256x1280) hz,
    View.ld_unit_zero (S := S256x1280) hz, View.ld_unit_zero (S := S1280) hz1]
  funext j
  obtain ⟨p, q, rfl⟩ : ∃ (p : Fin 256) (q : Fin 256), j = ix2 p q := ⟨j 0, j 1, eq_ix2 j⟩
  have ht : t.val < 1 := lt_of_lt_of_eq t.isLt N_9
  have hp : p.val < 256 := p.isLt
  have hR : t.val * 256 + p.val < 256 := by omega
  have hemb : ((cfg9.win 10).blk t).view.emb (ix2 p q) = ix2 (⟨t.val * 256 + p.val, hR⟩ : Fin 256) q := by
    refine funext fun a => Fin.ext ?_
    obtain ⟨a0, b0, a1, b1, a2, b2, a3, b3, a4, b4, a9, b9, a10, b10, a5, b5, a6, b6, a7, a8⟩ := idx_facts t
    match a with
    | ⟨0, _⟩ => show win9_10.index t (0 : Fin 2) * 256 + 1 * p.val = t.val * 256 + p.val; omega
    | ⟨1, _⟩ => show win9_10.index t (1 : Fin 2) * 256 + 1 * q.val = q.val; omega
  show k9_pay1 (k9_pay5 (iblk9 V c 1 t) (iblk9 V c 2 t) (iblk9 V c 5 t) (iblk9 V c 6 t) (iblk9 V c 0 t) (iblk9 V c 7 t) (iblk9 V c 8 t)) (k9_pay6 (iblk9 V c 1 t) (iblk9 V c 2 t) (iblk9 V c 5 t) (iblk9 V c 6 t) (iblk9 V c 0 t) (iblk9 V c 7 t) (iblk9 V c 8 t) (iblk9 V c 3 t)) (iblk9 V c 4 t) (ix2 p q) = GC V c (((cfg9.win 10).blk t).view.emb (ix2 p q))
  rw [hemb]
  refine (LevelPay9.cell_apply (iblk9 V c 0 t) (iblk9 V c 1 t) (iblk9 V c 2 t) (iblk9 V c 3 t) (iblk9 V c 4 t)
    (iblk9 V c 5 t) (iblk9 V c 6 t) (iblk9 V c 7 t) (iblk9 V c 8 t) p q).trans ?_
  rw [rd5 V c t, rd6 V c t, rd7 V c t, rd8 V c t]
  exact rowC_congr _ _ _ _ _ _ p ⟨t.val * 256 + p.val, hR⟩
    (fun g => rowPre_congr _ _ _ _ _ _ _ _ _ _ p ⟨t.val * 256 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg9.N) (i : S256x256.Idx) :
    i ∈ ((cfg9.win 10).blk t).view.set ↔ ∀ a : Fin 2, win9_10.index t a * S256x256.size a ≤ (i a).val
      ∧ (i a).val < win9_10.index t a * S256x256.size a + S256x256.size a := by
  show i ∈ ((View.whole main_v210_1).slice (win9_10.rect t)).set ↔ _
  rw [View.set_slice_whole, Rect.mem_set_unit]
  exact Iff.rfl

/-- Every row is in the block of the point `row / 256`. -/
theorem coverC (i : S256x256.Idx) :
    ∃ t : Fin cfg9.N, (cfg9.win 10).flush t = true ∧ i ∈ ((cfg9.win 10).blk t).view.set := by
  have hi0 : (i 0).val < 256 := (i 0).isLt
  have hi1 : (i 1).val < 256 := (i 1).isLt
  have hN : (i 0).val / 256 < cfg9.N := lt_of_lt_of_eq (by omega : (i 0).val / 256 < 1) N_9.symm
  refine ⟨⟨(i 0).val / 256, hN⟩, flush9_10 _, ?_⟩
  rw [mem_blkC]
  have ⟨a0, b0, a1, b1, a2, b2, a3, b3, a4, b4, a9, b9, a10, b10, a5, b5, a6, b6, a7, a8⟩ := idx_facts (⟨(i 0).val / 256, hN⟩ : Fin cfg9.N)
  intro a
  match a with
  | ⟨0, _⟩ =>
    show win9_10.index ⟨(i 0).val / 256, hN⟩ (0 : Fin 2) * 256 ≤ (i 0).val
      ∧ (i 0).val < win9_10.index ⟨(i 0).val / 256, hN⟩ (0 : Fin 2) * 256 + 256
    have e0 : win9_10.index ⟨(i 0).val / 256, hN⟩ (0 : Fin 2) = (i 0).val / 256 := a10
    omega
  | ⟨1, _⟩ =>
    show win9_10.index ⟨(i 0).val / 256, hN⟩ (1 : Fin 2) * 256 ≤ (i 1).val
      ∧ (i 1).val < win9_10.index ⟨(i 0).val / 256, hN⟩ (1 : Fin 2) * 256 + 256
    omega

/-- The array window 10 leaves: `GC` of the arrays as the region finds them. -/
theorem region_c (c : Dev nD) : (dat9 V c).arrAt 10 cfg9.N = GC V c :=
  (dat9 V c).arrAt_eq_of_cover 10 (GC V c) (fun t _ => flushedC V c t) coverC

end Cert.KernelIdeal.RegionValue9

end
-- ==== Proof.LevelPay10.lean ====
/-
  The level kernel's arithmetic on one block of 128 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay10

open Cert.KernelIdeal Cert.KernelIdeal.Gen Idealize.ShloMosaic Idealize.ShloMosaic.ValueIdx Cert.TreeSpec

/-- The matrix product's dimension numbers: rows × 256 times 256 × 1280. -/
abbrev D := dot_S128x256_S256x1280_S128x1280_1_0_0_1_n_n

theorem lhs_ix (r : Fin 128) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 128) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S128x256 .bf16) (w : FVec Ideal S256x1280 .bf16) (r : Fin 128) (g : Fin 1280) :
    matmul D none l w (constant S128x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 128) (g : Fin 1280) :
    broadcastTo S128x1280 (shapeCast S1x1280 b shapeCasts_S1280_S1x1280) broadcasts_S1x1280_S128x1280 (ix2 r g) = b (ix1 g) :=
  (broadcastTo_1b_ab_apply _ _ r g).trans (shapeCast_a_1a_apply b _ 0 g)

/-- The pre-activations at (r, g). -/
theorem pre_apply (lh rh : Vec Ideal S128x256 .f32) (wl wr : Vec Ideal S256x1280 .f32) (x : Vec Ideal S128x1280 .f32)
    (bl br : Vec Ideal S1280 .f32) (r : Fin 128) (g : Fin 1280) :
    k10_pay3 lh rh wl wr x bl br (ix2 r g)
      = rowPre (cur2 x) (cur2 lh) (cur2 rh) (cur2 wl) (cur2 wr) (cur1 bl) (cur1 br) r g := by
  unfold k10_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S128x1280 .f32)
    (h : S128x1280.Slices ![0, o] S128x256) (r : Fin 128) (j : Fin 256) :
    extractStridedSlice S128x256 ![0, o] P h (ix2 r j) = P (ix2 r (col q j)) :=
  slice2_axis1_apply o P h r j (col q j) (by rw [col_val q hq j, ho])

theorem logistic_at (v : FVec Ideal S128x256 .f32) (i : S128x256.Idx) : logistic v i = Ideal.logistic (v i) := rfl
theorem tanh_at (v : FVec Ideal S128x256 .f32) (i : S128x256.Idx) : tanh v i = Ideal.tanh (v i) := rfl

/-- The stored cell state at (p, q). -/
theorem cell_apply (x : Vec Ideal S128x1280 .f32) (lh rh lc rc : Vec Ideal S128x256 .f32) (wl wr : Vec Ideal S256x1280 .f32)
    (bl br : Vec Ideal S1280 .f32) (p : Fin 128) (q : Fin 256) :
    k10_pay1 (k10_pay5 lh rh wl wr x bl br) (k10_pay6 lh rh wl wr x bl br lc) rc (ix2 p q)
      = rowC (rowPre (cur2 x) (cur2 lh) (cur2 rh) (cur2 wl) (cur2 wr) (cur1 bl) (cur1 br)) (cur2 lc) (cur2 rc) p q := by
  unfold k10_pay1 k10_pay5 k10_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S128x1280 .f32) (lh rh lc rc : Vec Ideal S128x256 .f32) (wl wr : Vec Ideal S256x1280 .f32)
    (bl br : Vec Ideal S1280 .f32) (p : Fin 128) (q : Fin 256) :
    k10_pay2 (k10_pay4 lh rh wl wr x bl br) (k10_pay5 lh rh wl wr x bl br) (k10_pay6 lh rh wl wr x bl br lc) rc (ix2 p q)
      = rowH (rowPre (cur2 x) (cur2 lh) (cur2 rh) (cur2 wl) (cur2 wr) (cur1 bl) (cur1 br)) (cur2 lc) (cur2 rc) p q := by
  unfold k10_pay2 k10_pay4
  simp only [mulf_apply, logistic_at, tanh_at]
  rw [cell_apply, slice_apply 256 1 (by decide) rfl _ _ p q, pre_apply]
  rfl

end Cert.KernelIdeal.LevelPay10

end
-- ==== Proof.RegionValue10.lean ====
/-
  What the level launch number 10 leaves in its two output arrays, as whole-array functions of the arrays it finds.

  The launch works on 128 rows in 1 block of 128: point `t` reads rows `t·128 … t·128+127` of the five row-indexed
  operands (own projection, children's hidden and cell states), the two transposed weight matrices and the two bias
  vectors whole, and writes back rows `t·128 …` of the hidden and of the cell array.  A row's values depend on that
  row only, so block `t` of the result is block `t` of `TreeSpec.rowH` / `rowC` of the whole operands; the blocks
  cover all rows (row `r` lies in block `r / 128`), so the arrays end as those functions.
-/
import proofs.«102109_j83099027243631_1_alg».proof.Proof.Gen.KernelIdeal.Frame
import proofs.«102109_j83099027243631_1_alg».proof.Proof.LevelPay10
import Idealize.ShloMosaic.Lib.Pipeline.Value

set_option maxRecDepth 16384

noncomputable section

namespace Cert.KernelIdeal.RegionValue10

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 128 1280 := cur2 (V c (Pipeline.arrRef spec10 0) : S128x1280.Idx → EReal)
abbrev aLH (c : Dev nD) : A2 128 256 := cur2 (V c (Pipeline.arrRef spec10 1) : S128x256.Idx → EReal)
abbrev aRH (c : Dev nD) : A2 128 256 := cur2 (V c (Pipeline.arrRef spec10 2) : S128x256.Idx → EReal)
abbrev aLC (c : Dev nD) : A2 128 256 := cur2 (V c (Pipeline.arrRef spec10 3) : S128x256.Idx → EReal)
abbrev aRC (c : Dev nD) : A2 128 256 := cur2 (V c (Pipeline.arrRef spec10 4) : S128x256.Idx → EReal)
abbrev aWl (c : Dev nD) : A2 256 1280 := cur2 (V c (Pipeline.arrRef spec10 5) : S256x1280.Idx → EReal)
abbrev aWr (c : Dev nD) : A2 256 1280 := cur2 (V c (Pipeline.arrRef spec10 6) : S256x1280.Idx → EReal)
abbrev aBl (c : Dev nD) : A1 1280 := cur1 (V c (Pipeline.arrRef spec10 7) : S1280.Idx → EReal)
abbrev aBr (c : Dev nD) : A1 1280 := cur1 (V c (Pipeline.arrRef spec10 8) : S1280.Idx → EReal)

/-- The hidden-state array the launch leaves. -/
def GH (c : Dev nD) : S128x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S128x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0
    ∧ win10_9.index t (0 : Fin 2) = t.val ∧ win10_9.index t (1 : Fin 2) = 0
    ∧ win10_10.index t (0 : Fin 2) = t.val ∧ win10_10.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 1) = 0
    ∧ win10_8.index t (0 : Fin 1) = 0 :=
  (by decide +kernel : ∀ t : Fin grid10.N, _)

/-! ## The blocks the point reads, off the whole arrays -/

theorem rd0 (c : Dev nD) (t : Fin cfg10.N) (p : Fin 128) (g : Fin 1280) (R : Fin 128) (hR : R.val = t.val * 128 + p.val) :
    iblk10 V c 0 t (ix2 p g) = aX V c R g := by
  show (V c (Pipeline.arrRef spec10 0) : S128x1280.Idx → EReal) (((cfg10.win 0).blk t).view.emb (ix2 p g))
    = (V c (Pipeline.arrRef spec10 0) : S128x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_0.index t (0 : Fin 2) * 128 + 1 * p.val = R.val; omega
  | ⟨1, _⟩ => show win10_0.index t (1 : Fin 2) * 1280 + 1 * g.val = g.val; omega

theorem rd1 (c : Dev nD) (t : Fin cfg10.N) (p : Fin 128) (g : Fin 256) (R : Fin 128) (hR : R.val = t.val * 128 + p.val) :
    iblk10 V c 1 t (ix2 p g) = aLH V c R g := by
  show (V c (Pipeline.arrRef spec10 1) : S128x256.Idx → EReal) (((cfg10.win 1).blk t).view.emb (ix2 p g))
    = (V c (Pipeline.arrRef spec10 1) : S128x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_1.index t (0 : Fin 2) * 128 + 1 * p.val = R.val; omega
  | ⟨1, _⟩ => show win10_1.index t (1 : Fin 2) * 256 + 1 * g.val = g.val; omega

theorem rd2 (c : Dev nD) (t : Fin cfg10.N) (p : Fin 128) (g : Fin 256) (R : Fin 128) (hR : R.val = t.val * 128 + p.val) :
    iblk10 V c 2 t (ix2 p g) = aRH V c R g := by
  show (V c (Pipeline.arrRef spec10 2) : S128x256.Idx → EReal) (((cfg10.win 2).blk t).view.emb (ix2 p g))
    = (V c (Pipeline.arrRef spec10 2) : S128x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_2.index t (0 : Fin 2) * 128 + 1 * p.val = R.val; omega
  | ⟨1, _⟩ => show win10_2.index t (1 : Fin 2) * 256 + 1 * g.val = g.val; omega

theorem rd3 (c : Dev nD) (t : Fin cfg10.N) (p : Fin 128) (g : Fin 256) (R : Fin 128) (hR : R.val = t.val * 128 + p.val) :
    iblk10 V c 3 t (ix2 p g) = aLC V c R g := by
  show (V c (Pipeline.arrRef spec10 3) : S128x256.Idx → EReal) (((cfg10.win 3).blk t).view.emb (ix2 p g))
    = (V c (Pipeline.arrRef spec10 3) : S128x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_3.index t (0 : Fin 2) * 128 + 1 * p.val = R.val; omega
  | ⟨1, _⟩ => show win10_3.index t (1 : Fin 2) * 256 + 1 * g.val = g.val; omega

theorem rd4 (c : Dev nD) (t : Fin cfg10.N) (p : Fin 128) (g : Fin 256) (R : Fin 128) (hR : R.val = t.val * 128 + p.val) :
    iblk10 V c 4 t (ix2 p g) = aRC V c R g := by
  show (V c (Pipeline.arrRef spec10 4) : S128x256.Idx → EReal) (((cfg10.win 4).blk t).view.emb (ix2 p g))
    = (V c (Pipeline.arrRef spec10 4) : S128x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_4.index t (0 : Fin 2) * 128 + 1 * p.val = R.val; omega
  | ⟨1, _⟩ => show win10_4.index t (1 : Fin 2) * 256 + 1 * g.val = g.val; omega

theorem rd5 (c : Dev nD) (t : Fin cfg10.N) : cur2 (iblk10 V c 5 t) = aWl V c := by
  funext k g
  show (V c (Pipeline.arrRef spec10 5) : S256x1280.Idx → EReal) (((cfg10.win 5).blk t).view.emb (ix2 k g))
    = (V c (Pipeline.arrRef spec10 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_5.index t (0 : Fin 2) * 256 + 1 * k.val = k.val; omega
  | ⟨1, _⟩ => show win10_5.index t (1 : Fin 2) * 1280 + 1 * g.val = g.val; omega

theorem rd6 (c : Dev nD) (t : Fin cfg10.N) : cur2 (iblk10 V c 6 t) = aWr V c := by
  funext k g
  show (V c (Pipeline.arrRef spec10 6) : S256x1280.Idx → EReal) (((cfg10.win 6).blk t).view.emb (ix2 k g))
    = (V c (Pipeline.arrRef spec10 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_6.index t (0 : Fin 2) * 256 + 1 * k.val = k.val; omega
  | ⟨1, _⟩ => show win10_6.index t (1 : Fin 2) * 1280 + 1 * g.val = g.val; omega

theorem rd7 (c : Dev nD) (t : Fin cfg10.N) : cur1 (iblk10 V c 7 t) = aBl V c := by
  funext g
  show (V c (Pipeline.arrRef spec10 7) : S1280.Idx → EReal) (((cfg10.win 7).blk t).view.emb (ix1 g))
    = (V c (Pipeline.arrRef spec10 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_7.index t (0 : Fin 1) * 1280 + 1 * g.val = g.val; omega

theorem rd8 (c : Dev nD) (t : Fin cfg10.N) : cur1 (iblk10 V c 8 t) = aBr V c := by
  funext g
  show (V c (Pipeline.arrRef spec10 8) : S1280.Idx → EReal) (((cfg10.win 8).blk t).view.emb (ix1 g))
    = (V c (Pipeline.arrRef spec10 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win10_8.index t (0 : Fin 1) * 1280 + 1 * g.val = g.val; omega

/-! ## The hidden-state array (window 9) -/

/-- What point `t` writes back of window 9 is block `t` of `GH`. -/
theorem flushedH (c : Dev nD) (t : Fin cfg10.N) :
    (dat10 V c).flushed 9 t = ((cfg10.win 9).blk t).view.read (Elt Ideal) (GH V c) := by
  show (cfg10.win 9).cut (grid10.coords t) ((dat10 V c).after 9 t) = _
  rw [after10_9]
  unfold out10_9
  rw [View.canon_unit_zero hz]
  simp only [View.ld_unit_zero (S := S128x256) hz, View.ld_unit_zero (S := S256x1280) hz,
    View.ld_unit_zero (S := S128x1280) hz, View.ld_unit_zero (S := S1280) hz1]
  funext j
  obtain ⟨p, q, rfl⟩ : ∃ (p : Fin 128) (q : Fin 256), j = ix2 p q := ⟨j 0, j 1, eq_ix2 j⟩
  have ht : t.val < 1 := lt_of_lt_of_eq t.isLt N_10
  have hp : p.val < 128 := p.isLt
  have hR : t.val * 128 + p.val < 128 := by omega
  have hemb : ((cfg10.win 9).blk t).view.emb (ix2 p q) = ix2 (⟨t.val * 128 + p.val, hR⟩ : Fin 128) q := by
    refine funext fun a => Fin.ext ?_
    obtain ⟨a0, b0, a1, b1, a2, b2, a3, b3, a4, b4, a9, b9, a10, b10, a5, b5, a6, b6, a7, a8⟩ := idx_facts t
    match a with
    | ⟨0, _⟩ => show win10_9.index t (0 : Fin 2) * 128 + 1 * p.val = t.val * 128 + p.val; omega
    | ⟨1, _⟩ => show win10_9.index t (1 : Fin 2) * 256 + 1 * q.val = q.val; omega
  show k10_pay2 (k10_pay4 (iblk10 V c 1 t) (iblk10 V c 2 t) (iblk10 V c 5 t) (iblk10 V c 6 t) (iblk10 V c 0 t) (iblk10 V c 7 t) (iblk10 V c 8 t)) (k10_pay5 (iblk10 V c 1 t) (iblk10 V c 2 t) (iblk10 V c 5 t) (iblk10 V c 6 t) (iblk10 V c 0 t) (iblk10 V c 7 t) (iblk10 V c 8 t)) (k10_pay6 (iblk10 V c 1 t) (iblk10 V c 2 t) (iblk10 V c 5 t) (iblk10 V c 6 t) (iblk10 V c 0 t) (iblk10 V c 7 t) (iblk10 V c 8 t) (iblk10 V c 3 t)) (iblk10 V c 4 t) (ix2 p q) = GH V c (((cfg10.win 9).blk t).view.emb (ix2 p q))
  rw [hemb]
  refine (LevelPay10.hidden_apply (iblk10 V c 0 t) (iblk10 V c 1 t) (iblk10 V c 2 t) (iblk10 V c 3 t) (iblk10 V c 4 t)
    (iblk10 V c 5 t) (iblk10 V c 6 t) (iblk10 V c 7 t) (iblk10 V c 8 t) p q).trans ?_
  rw [rd5 V c t, rd6 V c t, rd7 V c t, rd8 V c t]
  exact rowH_congr _ _ _ _ _ _ p ⟨t.val * 128 + p.val, hR⟩
    (fun g => rowPre_congr _ _ _ _ _ _ _ _ _ _ p ⟨t.val * 128 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg10.N) (i : S128x256.Idx) :
    i ∈ ((cfg10.win 9).blk t).view.set ↔ ∀ a : Fin 2, win10_9.index t a * S128x256.size a ≤ (i a).val
      ∧ (i a).val < win10_9.index t a * S128x256.size a + S128x256.size a := by
  show i ∈ ((View.whole main_v235_0).slice (win10_9.rect t)).set ↔ _
  rw [View.set_slice_whole, Rect.mem_set_unit]
  exact Iff.rfl

/-- Every row is in the block of the point `row / 128`. -/
theorem coverH (i : S128x256.Idx) :
    ∃ t : Fin cfg10.N, (cfg10.win 9).flush t = true ∧ i ∈ ((cfg10.win 9).blk t).view.set := by
  have hi0 : (i 0).val < 128 := (i 0).isLt
  have hi1 : (i 1).val < 256 := (i 1).isLt
  have hN : (i 0).val / 128 < cfg10.N := lt_of_lt_of_eq (by omega : (i 0).val / 128 < 1) N_10.symm
  refine ⟨⟨(i 0).val / 128, hN⟩, flush10_9 _, ?_⟩
  rw [mem_blkH]
  have ⟨a0, b0, a1, b1, a2, b2, a3, b3, a4, b4, a9, b9, a10, b10, a5, b5, a6, b6, a7, a8⟩ := idx_facts (⟨(i 0).val / 128, hN⟩ : Fin cfg10.N)
  intro a
  match a with
  | ⟨0, _⟩ =>
    show win10_9.index ⟨(i 0).val / 128, hN⟩ (0 : Fin 2) * 128 ≤ (i 0).val
      ∧ (i 0).val < win10_9.index ⟨(i 0).val / 128, hN⟩ (0 : Fin 2) * 128 + 128
    have e0 : win10_9.index ⟨(i 0).val / 128, hN⟩ (0 : Fin 2) = (i 0).val / 128 := a9
    omega
  | ⟨1, _⟩ =>
    show win10_9.index ⟨(i 0).val / 128, hN⟩ (1 : Fin 2) * 256 ≤ (i 1).val
      ∧ (i 1).val < win10_9.index ⟨(i 0).val / 128, hN⟩ (1 : Fin 2) * 256 + 256
    omega

/-- The array window 9 leaves: `GH` of the arrays as the region finds them. -/
theorem region_h (c : Dev nD) : (dat10 V c).arrAt 9 cfg10.N = GH V c :=
  (dat10 V c).arrAt_eq_of_cover 9 (GH V c) (fun t _ => flushedH V c t) coverH

/-! ## The cell-state array (window 10) -/

/-- What point `t` writes back of window 10 is block `t` of `GC`. -/
theorem flushedC (c : Dev nD) (t : Fin cfg10.N) :
    (dat10 V c).flushed 10 t = ((cfg10.win 10).blk t).view.read (Elt Ideal) (GC V c) := by
  show (cfg10.win 10).cut (grid10.coords t) ((dat10 V c).after 10 t) = _
  rw [after10_10]
  unfold out10_10
  rw [View.canon_unit_zero hz]
  simp only [View.ld_unit_zero (S := S128x256) hz, View.ld_unit_zero (S := S256x1280) hz,
    View.ld_unit_zero (S := S128x1280) hz, View.ld_unit_zero (S := S1280) hz1]
  funext j
  obtain ⟨p, q, rfl⟩ : ∃ (p : Fin 128) (q : Fin 256), j = ix2 p q := ⟨j 0, j 1, eq_ix2 j⟩
  have ht : t.val < 1 := lt_of_lt_of_eq t.isLt N_10
  have hp : p.val < 128 := p.isLt
  have hR : t.val * 128 + p.val < 128 := by omega
  have hemb : ((cfg10.win 10).blk t).view.emb (ix2 p q) = ix2 (⟨t.val * 128 + p.val, hR⟩ : Fin 128) q := by
    refine funext fun a => Fin.ext ?_
    obtain ⟨a0, b0, a1, b1, a2, b2, a3, b3, a4, b4, a9, b9, a10, b10, a5, b5, a6, b6, a7, a8⟩ := idx_facts t
    match a with
    | ⟨0, _⟩ => show win10_10.index t (0 : Fin 2) * 128 + 1 * p.val = t.val * 128 + p.val; omega
    | ⟨1, _⟩ => show win10_10.index t (1 : Fin 2) * 256 + 1 * q.val = q.val; omega
  show k10_pay1 (k10_pay5 (iblk10 V c 1 t) (iblk10 V c 2 t) (iblk10 V c 5 t) (iblk10 V c 6 t) (iblk10 V c 0 t) (iblk10 V c 7 t) (iblk10 V c 8 t)) (k10_pay6 (iblk10 V c 1 t) (iblk10 V c 2 t) (iblk10 V c 5 t) (iblk10 V c 6 t) (iblk10 V c 0 t) (iblk10 V c 7 t) (iblk10 V c 8 t) (iblk10 V c 3 t)) (iblk10 V c 4 t) (ix2 p q) = GC V c (((cfg10.win 10).blk t).view.emb (ix2 p q))
  rw [hemb]
  refine (LevelPay10.cell_apply (iblk10 V c 0 t) (iblk10 V c 1 t) (iblk10 V c 2 t) (iblk10 V c 3 t) (iblk10 V c 4 t)
    (iblk10 V c 5 t) (iblk10 V c 6 t) (iblk10 V c 7 t) (iblk10 V c 8 t) p q).trans ?_
  rw [rd5 V c t, rd6 V c t, rd7 V c t, rd8 V c t]
  exact rowC_congr _ _ _ _ _ _ p ⟨t.val * 128 + p.val, hR⟩
    (fun g => rowPre_congr _ _ _ _ _ _ _ _ _ _ p ⟨t.val * 128 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg10.N) (i : S128x256.Idx) :
    i ∈ ((cfg10.win 10).blk t).view.set ↔ ∀ a : Fin 2, win10_10.index t a * S128x256.size a ≤ (i a).val
      ∧ (i a).val < win10_10.index t a * S128x256.size a + S128x256.size a := by
  show i ∈ ((View.whole main_v235_1).slice (win10_10.rect t)).set ↔ _
  rw [View.set_slice_whole, Rect.mem_set_unit]
  exact Iff.rfl

/-- Every row is in the block of the point `row / 128`. -/
theorem coverC (i : S128x256.Idx) :
    ∃ t : Fin cfg10.N, (cfg10.win 10).flush t = true ∧ i ∈ ((cfg10.win 10).blk t).view.set := by
  have hi0 : (i 0).val < 128 := (i 0).isLt
  have hi1 : (i 1).val < 256 := (i 1).isLt
  have hN : (i 0).val / 128 < cfg10.N := lt_of_lt_of_eq (by omega : (i 0).val / 128 < 1) N_10.symm
  refine ⟨⟨(i 0).val / 128, hN⟩, flush10_10 _, ?_⟩
  rw [mem_blkC]
  have ⟨a0, b0, a1, b1, a2, b2, a3, b3, a4, b4, a9, b9, a10, b10, a5, b5, a6, b6, a7, a8⟩ := idx_facts (⟨(i 0).val / 128, hN⟩ : Fin cfg10.N)
  intro a
  match a with
  | ⟨0, _⟩ =>
    show win10_10.index ⟨(i 0).val / 128, hN⟩ (0 : Fin 2) * 128 ≤ (i 0).val
      ∧ (i 0).val < win10_10.index ⟨(i 0).val / 128, hN⟩ (0 : Fin 2) * 128 + 128
    have e0 : win10_10.index ⟨(i 0).val / 128, hN⟩ (0 : Fin 2) = (i 0).val / 128 := a10
    omega
  | ⟨1, _⟩ =>
    show win10_10.index ⟨(i 0).val / 128, hN⟩ (1 : Fin 2) * 256 ≤ (i 1).val
      ∧ (i 1).val < win10_10.index ⟨(i 0).val / 128, hN⟩ (1 : Fin 2) * 256 + 256
    omega

/-- The array window 10 leaves: `GC` of the arrays as the region finds them. -/
theorem region_c (c : Dev nD) : (dat10 V c).arrAt 10 cfg10.N = GC V c :=
  (dat10 V c).arrAt_eq_of_cover 10 (GC V c) (fun t _ => flushedC V c t) coverC

end Cert.KernelIdeal.RegionValue10

end
-- ==== Proof.LevelPay11.lean ====
/-
  The level kernel's arithmetic on one block of 64 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay11

open Cert.KernelIdeal Cert.KernelIdeal.Gen Idealize.ShloMosaic Idealize.ShloMosaic.ValueIdx Cert.TreeSpec

/-- The matrix product's dimension numbers: rows × 256 times 256 × 1280. -/
abbrev D := dot_S64x256_S256x1280_S64x1280_1_0_0_1_n_n

theorem lhs_ix (r : Fin 64) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 64) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S64x256 .bf16) (w : FVec Ideal S256x1280 .bf16) (r : Fin 64) (g : Fin 1280) :
    matmul D none l w (constant S64x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 64) (g : Fin 1280) :
    broadcastTo S64x1280 (shapeCast S1x1280 b shapeCasts_S1280_S1x1280) broadcasts_S1x1280_S64x1280 (ix2 r g) = b (ix1 g) :=
  (broadcastTo_1b_ab_apply _ _ r g).trans (shapeCast_a_1a_apply b _ 0 g)

/-- The pre-activations at (r, g). -/
theorem pre_apply (lh rh : Vec Ideal S64x256 .f32) (wl wr : Vec Ideal S256x1280 .f32) (x : Vec Ideal S64x1280 .f32)
    (bl br : Vec Ideal S1280 .f32) (r : Fin 64) (g : Fin 1280) :
    k11_pay3 lh rh wl wr x bl br (ix2 r g)
      = rowPre (cur2 x) (cur2 lh) (cur2 rh) (cur2 wl) (cur2 wr) (cur1 bl) (cur1 br) r g := by
  unfold k11_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S64x1280 .f32)
    (h : S64x1280.Slices ![0, o] S64x256) (r : Fin 64) (j : Fin 256) :
    extractStridedSlice S64x256 ![0, o] P h (ix2 r j) = P (ix2 r (col q j)) :=
  slice2_axis1_apply o P h r j (col q j) (by rw [col_val q hq j, ho])

theorem logistic_at (v : FVec Ideal S64x256 .f32) (i : S64x256.Idx) : logistic v i = Ideal.logistic (v i) := rfl
theorem tanh_at (v : FVec Ideal S64x256 .f32) (i : S64x256.Idx) : tanh v i = Ideal.tanh (v i) := rfl

/-- The stored cell state at (p, q). -/
theorem cell_apply (x : Vec Ideal S64x1280 .f32) (lh rh lc rc : Vec Ideal S64x256 .f32) (wl wr : Vec Ideal S256x1280 .f32)
    (bl br : Vec Ideal S1280 .f32) (p : Fin 64) (q : Fin 256) :
    k11_pay1 (k11_pay5 lh rh wl wr x bl br) (k11_pay6 lh rh wl wr x bl br lc) rc (ix2 p q)
      = rowC (rowPre (cur2 x) (cur2 lh) (cur2 rh) (cur2 wl) (cur2 wr) (cur1 bl) (cur1 br)) (cur2 lc) (cur2 rc) p q := by
  unfold k11_pay1 k11_pay5 k11_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S64x1280 .f32) (lh rh lc rc : Vec Ideal S64x256 .f32) (wl wr : Vec Ideal S256x1280 .f32)
    (bl br : Vec Ideal S1280 .f32) (p : Fin 64) (q : Fin 256) :
    k11_pay2 (k11_pay4 lh rh wl wr x bl br) (k11_pay5 lh rh wl wr x bl br) (k11_pay6 lh rh wl wr x bl br lc) rc (ix2 p q)
      = rowH (rowPre (cur2 x) (cur2 lh) (cur2 rh) (cur2 wl) (cur2 wr) (cur1 bl) (cur1 br)) (cur2 lc) (cur2 rc) p q := by
  unfold k11_pay2 k11_pay4
  simp only [mulf_apply, logistic_at, tanh_at]
  rw [cell_apply, slice_apply 256 1 (by decide) rfl _ _ p q, pre_apply]
  rfl

end Cert.KernelIdeal.LevelPay11

end
-- ==== Proof.RegionValue11.lean ====
/-
  What the level launch number 11 leaves in its two output arrays, as whole-array functions of the arrays it finds.

  The launch works on 64 rows in 1 block of 64: point `t` reads rows `t·64 … t·64+63` of the five row-indexed
  operands (own projection, children's hidden and cell states), the two transposed weight matrices and the two bias
  vectors whole, and writes back rows `t·64 …` of the hidden and of the cell array.  A row's values depend on that
  row only, so block `t` of the result is block `t` of `TreeSpec.rowH` / `rowC` of the whole operands; the blocks
  cover all rows (row `r` lies in block `r / 64`), so the arrays end as those functions.
-/
import proofs.«102109_j83099027243631_1_alg».proof.Proof.Gen.KernelIdeal.Frame
import proofs.«102109_j83099027243631_1_alg».proof.Proof.LevelPay11
import Idealize.ShloMosaic.Lib.Pipeline.Value

set_option maxRecDepth 16384

noncomputable section

namespace Cert.KernelIdeal.RegionValue11

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 64 1280 := cur2 (V c (Pipeline.arrRef spec11 0) : S64x1280.Idx → EReal)
abbrev aLH (c : Dev nD) : A2 64 256 := cur2 (V c (Pipeline.arrRef spec11 1) : S64x256.Idx → EReal)
abbrev aRH (c : Dev nD) : A2 64 256 := cur2 (V c (Pipeline.arrRef spec11 2) : S64x256.Idx → EReal)
abbrev aLC (c : Dev nD) : A2 64 256 := cur2 (V c (Pipeline.arrRef spec11 3) : S64x256.Idx → EReal)
abbrev aRC (c : Dev nD) : A2 64 256 := cur2 (V c (Pipeline.arrRef spec11 4) : S64x256.Idx → EReal)
abbrev aWl (c : Dev nD) : A2 256 1280 := cur2 (V c (Pipeline.arrRef spec11 5) : S256x1280.Idx → EReal)
abbrev aWr (c : Dev nD) : A2 256 1280 := cur2 (V c (Pipeline.arrRef spec11 6) : S256x1280.Idx → EReal)
abbrev aBl (c : Dev nD) : A1 1280 := cur1 (V c (Pipeline.arrRef spec11 7) : S1280.Idx → EReal)
abbrev aBr (c : Dev nD) : A1 1280 := cur1 (V c (Pipeline.arrRef spec11 8) : S1280.Idx → EReal)

/-- The hidden-state array the launch leaves. -/
def GH (c : Dev nD) : S64x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S64x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0
    ∧ win11_9.index t (0 : Fin 2) = t.val ∧ win11_9.index t (1 : Fin 2) = 0
    ∧ win11_10.index t (0 : Fin 2) = t.val ∧ win11_10.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 1) = 0
    ∧ win11_8.index t (0 : Fin 1) = 0 :=
  (by decide +kernel : ∀ t : Fin grid11.N, _)

/-! ## The blocks the point reads, off the whole arrays -/

theorem rd0 (c : Dev nD) (t : Fin cfg11.N) (p : Fin 64) (g : Fin 1280) (R : Fin 64) (hR : R.val = t.val * 64 + p.val) :
    iblk11 V c 0 t (ix2 p g) = aX V c R g := by
  show (V c (Pipeline.arrRef spec11 0) : S64x1280.Idx → EReal) (((cfg11.win 0).blk t).view.emb (ix2 p g))
    = (V c (Pipeline.arrRef spec11 0) : S64x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_0.index t (0 : Fin 2) * 64 + 1 * p.val = R.val; omega
  | ⟨1, _⟩ => show win11_0.index t (1 : Fin 2) * 1280 + 1 * g.val = g.val; omega

theorem rd1 (c : Dev nD) (t : Fin cfg11.N) (p : Fin 64) (g : Fin 256) (R : Fin 64) (hR : R.val = t.val * 64 + p.val) :
    iblk11 V c 1 t (ix2 p g) = aLH V c R g := by
  show (V c (Pipeline.arrRef spec11 1) : S64x256.Idx → EReal) (((cfg11.win 1).blk t).view.emb (ix2 p g))
    = (V c (Pipeline.arrRef spec11 1) : S64x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_1.index t (0 : Fin 2) * 64 + 1 * p.val = R.val; omega
  | ⟨1, _⟩ => show win11_1.index t (1 : Fin 2) * 256 + 1 * g.val = g.val; omega

theorem rd2 (c : Dev nD) (t : Fin cfg11.N) (p : Fin 64) (g : Fin 256) (R : Fin 64) (hR : R.val = t.val * 64 + p.val) :
    iblk11 V c 2 t (ix2 p g) = aRH V c R g := by
  show (V c (Pipeline.arrRef spec11 2) : S64x256.Idx → EReal) (((cfg11.win 2).blk t).view.emb (ix2 p g))
    = (V c (Pipeline.arrRef spec11 2) : S64x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_2.index t (0 : Fin 2) * 64 + 1 * p.val = R.val; omega
  | ⟨1, _⟩ => show win11_2.index t (1 : Fin 2) * 256 + 1 * g.val = g.val; omega

theorem rd3 (c : Dev nD) (t : Fin cfg11.N) (p : Fin 64) (g : Fin 256) (R : Fin 64) (hR : R.val = t.val * 64 + p.val) :
    iblk11 V c 3 t (ix2 p g) = aLC V c R g := by
  show (V c (Pipeline.arrRef spec11 3) : S64x256.Idx → EReal) (((cfg11.win 3).blk t).view.emb (ix2 p g))
    = (V c (Pipeline.arrRef spec11 3) : S64x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_3.index t (0 : Fin 2) * 64 + 1 * p.val = R.val; omega
  | ⟨1, _⟩ => show win11_3.index t (1 : Fin 2) * 256 + 1 * g.val = g.val; omega

theorem rd4 (c : Dev nD) (t : Fin cfg11.N) (p : Fin 64) (g : Fin 256) (R : Fin 64) (hR : R.val = t.val * 64 + p.val) :
    iblk11 V c 4 t (ix2 p g) = aRC V c R g := by
  show (V c (Pipeline.arrRef spec11 4) : S64x256.Idx → EReal) (((cfg11.win 4).blk t).view.emb (ix2 p g))
    = (V c (Pipeline.arrRef spec11 4) : S64x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_4.index t (0 : Fin 2) * 64 + 1 * p.val = R.val; omega
  | ⟨1, _⟩ => show win11_4.index t (1 : Fin 2) * 256 + 1 * g.val = g.val; omega

theorem rd5 (c : Dev nD) (t : Fin cfg11.N) : cur2 (iblk11 V c 5 t) = aWl V c := by
  funext k g
  show (V c (Pipeline.arrRef spec11 5) : S256x1280.Idx → EReal) (((cfg11.win 5).blk t).view.emb (ix2 k g))
    = (V c (Pipeline.arrRef spec11 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_5.index t (0 : Fin 2) * 256 + 1 * k.val = k.val; omega
  | ⟨1, _⟩ => show win11_5.index t (1 : Fin 2) * 1280 + 1 * g.val = g.val; omega

theorem rd6 (c : Dev nD) (t : Fin cfg11.N) : cur2 (iblk11 V c 6 t) = aWr V c := by
  funext k g
  show (V c (Pipeline.arrRef spec11 6) : S256x1280.Idx → EReal) (((cfg11.win 6).blk t).view.emb (ix2 k g))
    = (V c (Pipeline.arrRef spec11 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_6.index t (0 : Fin 2) * 256 + 1 * k.val = k.val; omega
  | ⟨1, _⟩ => show win11_6.index t (1 : Fin 2) * 1280 + 1 * g.val = g.val; omega

theorem rd7 (c : Dev nD) (t : Fin cfg11.N) : cur1 (iblk11 V c 7 t) = aBl V c := by
  funext g
  show (V c (Pipeline.arrRef spec11 7) : S1280.Idx → EReal) (((cfg11.win 7).blk t).view.emb (ix1 g))
    = (V c (Pipeline.arrRef spec11 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_7.index t (0 : Fin 1) * 1280 + 1 * g.val = g.val; omega

theorem rd8 (c : Dev nD) (t : Fin cfg11.N) : cur1 (iblk11 V c 8 t) = aBr V c := by
  funext g
  show (V c (Pipeline.arrRef spec11 8) : S1280.Idx → EReal) (((cfg11.win 8).blk t).view.emb (ix1 g))
    = (V c (Pipeline.arrRef spec11 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win11_8.index t (0 : Fin 1) * 1280 + 1 * g.val = g.val; omega

/-! ## The hidden-state array (window 9) -/

/-- What point `t` writes back of window 9 is block `t` of `GH`. -/
theorem flushedH (c : Dev nD) (t : Fin cfg11.N) :
    (dat11 V c).flushed 9 t = ((cfg11.win 9).blk t).view.read (Elt Ideal) (GH V c) := by
  show (cfg11.win 9).cut (grid11.coords t) ((dat11 V c).after 9 t) = _
  rw [after11_9]
  unfold out11_9
  rw [View.canon_unit_zero hz]
  simp only [View.ld_unit_zero (S := S64x256) hz, View.ld_unit_zero (S := S256x1280) hz,
    View.ld_unit_zero (S := S64x1280) hz, View.ld_unit_zero (S := S1280) hz1]
  funext j
  obtain ⟨p, q, rfl⟩ : ∃ (p : Fin 64) (q : Fin 256), j = ix2 p q := ⟨j 0, j 1, eq_ix2 j⟩
  have ht : t.val < 1 := lt_of_lt_of_eq t.isLt N_11
  have hp : p.val < 64 := p.isLt
  have hR : t.val * 64 + p.val < 64 := by omega
  have hemb : ((cfg11.win 9).blk t).view.emb (ix2 p q) = ix2 (⟨t.val * 64 + p.val, hR⟩ : Fin 64) q := by
    refine funext fun a => Fin.ext ?_
    obtain ⟨a0, b0, a1, b1, a2, b2, a3, b3, a4, b4, a9, b9, a10, b10, a5, b5, a6, b6, a7, a8⟩ := idx_facts t
    match a with
    | ⟨0, _⟩ => show win11_9.index t (0 : Fin 2) * 64 + 1 * p.val = t.val * 64 + p.val; omega
    | ⟨1, _⟩ => show win11_9.index t (1 : Fin 2) * 256 + 1 * q.val = q.val; omega
  show k11_pay2 (k11_pay4 (iblk11 V c 1 t) (iblk11 V c 2 t) (iblk11 V c 5 t) (iblk11 V c 6 t) (iblk11 V c 0 t) (iblk11 V c 7 t) (iblk11 V c 8 t)) (k11_pay5 (iblk11 V c 1 t) (iblk11 V c 2 t) (iblk11 V c 5 t) (iblk11 V c 6 t) (iblk11 V c 0 t) (iblk11 V c 7 t) (iblk11 V c 8 t)) (k11_pay6 (iblk11 V c 1 t) (iblk11 V c 2 t) (iblk11 V c 5 t) (iblk11 V c 6 t) (iblk11 V c 0 t) (iblk11 V c 7 t) (iblk11 V c 8 t) (iblk11 V c 3 t)) (iblk11 V c 4 t) (ix2 p q) = GH V c (((cfg11.win 9).blk t).view.emb (ix2 p q))
  rw [hemb]
  refine (LevelPay11.hidden_apply (iblk11 V c 0 t) (iblk11 V c 1 t) (iblk11 V c 2 t) (iblk11 V c 3 t) (iblk11 V c 4 t)
    (iblk11 V c 5 t) (iblk11 V c 6 t) (iblk11 V c 7 t) (iblk11 V c 8 t) p q).trans ?_
  rw [rd5 V c t, rd6 V c t, rd7 V c t, rd8 V c t]
  exact rowH_congr _ _ _ _ _ _ p ⟨t.val * 64 + p.val, hR⟩
    (fun g => rowPre_congr _ _ _ _ _ _ _ _ _ _ p ⟨t.val * 64 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg11.N) (i : S64x256.Idx) :
    i ∈ ((cfg11.win 9).blk t).view.set ↔ ∀ a : Fin 2, win11_9.index t a * S64x256.size a ≤ (i a).val
      ∧ (i a).val < win11_9.index t a * S64x256.size a + S64x256.size a := by
  show i ∈ ((View.whole main_v260_0).slice (win11_9.rect t)).set ↔ _
  rw [View.set_slice_whole, Rect.mem_set_unit]
  exact Iff.rfl

/-- Every row is in the block of the point `row / 64`. -/
theorem coverH (i : S64x256.Idx) :
    ∃ t : Fin cfg11.N, (cfg11.win 9).flush t = true ∧ i ∈ ((cfg11.win 9).blk t).view.set := by
  have hi0 : (i 0).val < 64 := (i 0).isLt
  have hi1 : (i 1).val < 256 := (i 1).isLt
  have hN : (i 0).val / 64 < cfg11.N := lt_of_lt_of_eq (by omega : (i 0).val / 64 < 1) N_11.symm
  refine ⟨⟨(i 0).val / 64, hN⟩, flush11_9 _, ?_⟩
  rw [mem_blkH]
  have ⟨a0, b0, a1, b1, a2, b2, a3, b3, a4, b4, a9, b9, a10, b10, a5, b5, a6, b6, a7, a8⟩ := idx_facts (⟨(i 0).val / 64, hN⟩ : Fin cfg11.N)
  intro a
  match a with
  | ⟨0, _⟩ =>
    show win11_9.index ⟨(i 0).val / 64, hN⟩ (0 : Fin 2) * 64 ≤ (i 0).val
      ∧ (i 0).val < win11_9.index ⟨(i 0).val / 64, hN⟩ (0 : Fin 2) * 64 + 64
    have e0 : win11_9.index ⟨(i 0).val / 64, hN⟩ (0 : Fin 2) = (i 0).val / 64 := a9
    omega
  | ⟨1, _⟩ =>
    show win11_9.index ⟨(i 0).val / 64, hN⟩ (1 : Fin 2) * 256 ≤ (i 1).val
      ∧ (i 1).val < win11_9.index ⟨(i 0).val / 64, hN⟩ (1 : Fin 2) * 256 + 256
    omega

/-- The array window 9 leaves: `GH` of the arrays as the region finds them. -/
theorem region_h (c : Dev nD) : (dat11 V c).arrAt 9 cfg11.N = GH V c :=
  (dat11 V c).arrAt_eq_of_cover 9 (GH V c) (fun t _ => flushedH V c t) coverH

/-! ## The cell-state array (window 10) -/

/-- What point `t` writes back of window 10 is block `t` of `GC`. -/
theorem flushedC (c : Dev nD) (t : Fin cfg11.N) :
    (dat11 V c).flushed 10 t = ((cfg11.win 10).blk t).view.read (Elt Ideal) (GC V c) := by
  show (cfg11.win 10).cut (grid11.coords t) ((dat11 V c).after 10 t) = _
  rw [after11_10]
  unfold out11_10
  rw [View.canon_unit_zero hz]
  simp only [View.ld_unit_zero (S := S64x256) hz, View.ld_unit_zero (S := S256x1280) hz,
    View.ld_unit_zero (S := S64x1280) hz, View.ld_unit_zero (S := S1280) hz1]
  funext j
  obtain ⟨p, q, rfl⟩ : ∃ (p : Fin 64) (q : Fin 256), j = ix2 p q := ⟨j 0, j 1, eq_ix2 j⟩
  have ht : t.val < 1 := lt_of_lt_of_eq t.isLt N_11
  have hp : p.val < 64 := p.isLt
  have hR : t.val * 64 + p.val < 64 := by omega
  have hemb : ((cfg11.win 10).blk t).view.emb (ix2 p q) = ix2 (⟨t.val * 64 + p.val, hR⟩ : Fin 64) q := by
    refine funext fun a => Fin.ext ?_
    obtain ⟨a0, b0, a1, b1, a2, b2, a3, b3, a4, b4, a9, b9, a10, b10, a5, b5, a6, b6, a7, a8⟩ := idx_facts t
    match a with
    | ⟨0, _⟩ => show win11_10.index t (0 : Fin 2) * 64 + 1 * p.val = t.val * 64 + p.val; omega
    | ⟨1, _⟩ => show win11_10.index t (1 : Fin 2) * 256 + 1 * q.val = q.val; omega
  show k11_pay1 (k11_pay5 (iblk11 V c 1 t) (iblk11 V c 2 t) (iblk11 V c 5 t) (iblk11 V c 6 t) (iblk11 V c 0 t) (iblk11 V c 7 t) (iblk11 V c 8 t)) (k11_pay6 (iblk11 V c 1 t) (iblk11 V c 2 t) (iblk11 V c 5 t) (iblk11 V c 6 t) (iblk11 V c 0 t) (iblk11 V c 7 t) (iblk11 V c 8 t) (iblk11 V c 3 t)) (iblk11 V c 4 t) (ix2 p q) = GC V c (((cfg11.win 10).blk t).view.emb (ix2 p q))
  rw [hemb]
  refine (LevelPay11.cell_apply (iblk11 V c 0 t) (iblk11 V c 1 t) (iblk11 V c 2 t) (iblk11 V c 3 t) (iblk11 V c 4 t)
    (iblk11 V c 5 t) (iblk11 V c 6 t) (iblk11 V c 7 t) (iblk11 V c 8 t) p q).trans ?_
  rw [rd5 V c t, rd6 V c t, rd7 V c t, rd8 V c t]
  exact rowC_congr _ _ _ _ _ _ p ⟨t.val * 64 + p.val, hR⟩
    (fun g => rowPre_congr _ _ _ _ _ _ _ _ _ _ p ⟨t.val * 64 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg11.N) (i : S64x256.Idx) :
    i ∈ ((cfg11.win 10).blk t).view.set ↔ ∀ a : Fin 2, win11_10.index t a * S64x256.size a ≤ (i a).val
      ∧ (i a).val < win11_10.index t a * S64x256.size a + S64x256.size a := by
  show i ∈ ((View.whole main_v260_1).slice (win11_10.rect t)).set ↔ _
  rw [View.set_slice_whole, Rect.mem_set_unit]
  exact Iff.rfl

/-- Every row is in the block of the point `row / 64`. -/
theorem coverC (i : S64x256.Idx) :
    ∃ t : Fin cfg11.N, (cfg11.win 10).flush t = true ∧ i ∈ ((cfg11.win 10).blk t).view.set := by
  have hi0 : (i 0).val < 64 := (i 0).isLt
  have hi1 : (i 1).val < 256 := (i 1).isLt
  have hN : (i 0).val / 64 < cfg11.N := lt_of_lt_of_eq (by omega : (i 0).val / 64 < 1) N_11.symm
  refine ⟨⟨(i 0).val / 64, hN⟩, flush11_10 _, ?_⟩
  rw [mem_blkC]
  have ⟨a0, b0, a1, b1, a2, b2, a3, b3, a4, b4, a9, b9, a10, b10, a5, b5, a6, b6, a7, a8⟩ := idx_facts (⟨(i 0).val / 64, hN⟩ : Fin cfg11.N)
  intro a
  match a with
  | ⟨0, _⟩ =>
    show win11_10.index ⟨(i 0).val / 64, hN⟩ (0 : Fin 2) * 64 ≤ (i 0).val
      ∧ (i 0).val < win11_10.index ⟨(i 0).val / 64, hN⟩ (0 : Fin 2) * 64 + 64
    have e0 : win11_10.index ⟨(i 0).val / 64, hN⟩ (0 : Fin 2) = (i 0).val / 64 := a10
    omega
  | ⟨1, _⟩ =>
    show win11_10.index ⟨(i 0).val / 64, hN⟩ (1 : Fin 2) * 256 ≤ (i 1).val
      ∧ (i 1).val < win11_10.index ⟨(i 0).val / 64, hN⟩ (1 : Fin 2) * 256 + 256
    omega

/-- The array window 10 leaves: `GC` of the arrays as the region finds them. -/
theorem region_c (c : Dev nD) : (dat11 V c).arrAt 10 cfg11.N = GC V c :=
  (dat11 V c).arrAt_eq_of_cover 10 (GC V c) (fun t _ => flushedC V c t) coverC

end Cert.KernelIdeal.RegionValue11

end
-- ==== Proof.LevelPay12.lean ====
/-
  The level kernel's arithmetic on one block of 32 rows, read entry by entry.

  The body adds to the block's own projection the two matrix products of the children's hidden states with the
  transposed weights and the two bias rows, in the order  x + lh·WlT + bl + rh·WrT + br ; cuts the five gate
  blocks of 256 columns out of that; and forms  c = σ(i)·tanh(u) + σ(fl)·lc + σ(fr)·rc ,  h = σ(o)·tanh c .
  Entry (p, q) of each stored value is `TreeSpec.rowC` / `rowH` of the loaded blocks at row p: a matrix product
  into a zero accumulator is the plain sum over the contracted axis, a change of float format is the identity, a
  bias cast to one row and broadcast down the rows reads its entry at the column.
-/
import proofs.«102109_j83099027243631_1_alg».proof.Proof.Gen.KernelIdeal.Skeleton
import proofs.«102109_j83099027243631_1_alg».proof.Proof.TreeRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.LevelPay12

open Cert.KernelIdeal Cert.KernelIdeal.Gen Idealize.ShloMosaic Idealize.ShloMosaic.ValueIdx Cert.TreeSpec

/-- The matrix product's dimension numbers: rows × 256 times 256 × 1280. -/
abbrev D := dot_S32x256_S256x1280_S32x1280_1_0_0_1_n_n

theorem lhs_ix (r : Fin 32) (g : Fin 1280) (k : Fin 256) :
    D.lhsIdx (ix2 r g) ((contrEquiv1 D 256 rfl rfl).symm k) = ix2 r k := by
  funext a
  match a with
  | ⟨0, _⟩ => rfl
  | ⟨1, _⟩ => rfl

theorem rhs_ix (r : Fin 32) (g : Fin 1280) (k : Fin 256) :
    D.rhsIdx (ix2 r g) ((contrEquiv1 D 256 rfl rfl).symm k) = ix2 k g := by
  funext a
  match a with
  | ⟨0, _⟩ => rfl
  | ⟨1, _⟩ => rfl

/-- The product into the zero accumulator, at (r, g): the sum over the 256 contracted entries. -/
theorem mm_apply (l : FVec Ideal S32x256 .bf16) (w : FVec Ideal S256x1280 .bf16) (r : Fin 32) (g : Fin 1280) :
    matmul D none l w (constant S32x1280 .f32 0x00000000#32) (ix2 r g) = ∑ k : Fin 256, l (ix2 r k) * w (ix2 k g) := by
  refine (Ideal.matmul_constant_zero_apply D none l w (ix2 r g)).trans ?_
  rw [← Equiv.sum_comp (contrEquiv1 D 256 rfl rfl).symm]
  exact Finset.sum_congr rfl fun k _ => by rw [lhs_ix, rhs_ix]

/-- A bias vector cast to one row and broadcast down the rows reads, at (r, g), its entry g. -/
theorem bias_apply (b : Vec Ideal S1280 .f32) (r : Fin 32) (g : Fin 1280) :
    broadcastTo S32x1280 (shapeCast S1x1280 b shapeCasts_S1280_S1x1280) broadcasts_S1x1280_S32x1280 (ix2 r g) = b (ix1 g) :=
  (broadcastTo_1b_ab_apply _ _ r g).trans (shapeCast_a_1a_apply b _ 0 g)

/-- The pre-activations at (r, g). -/
theorem pre_apply (lh rh : Vec Ideal S32x256 .f32) (wl wr : Vec Ideal S256x1280 .f32) (x : Vec Ideal S32x1280 .f32)
    (bl br : Vec Ideal S1280 .f32) (r : Fin 32) (g : Fin 1280) :
    k12_pay3 lh rh wl wr x bl br (ix2 r g)
      = rowPre (cur2 x) (cur2 lh) (cur2 rh) (cur2 wl) (cur2 wr) (cur1 bl) (cur1 br) r g := by
  unfold k12_pay3
  simp only [addf_apply, mm_apply, truncf_apply, shapeCast_self]
  rw [bias_apply bl r g, bias_apply br r g]
  rfl

/-- A gate block of 256 columns cut out at column `o`, read at (r, j): column `o + j`. -/
theorem slice_apply (o q : ℕ) (hq : q < 5) (ho : o = q * 256) (P : FVec Ideal S32x1280 .f32)
    (h : S32x1280.Slices ![0, o] S32x256) (r : Fin 32) (j : Fin 256) :
    extractStridedSlice S32x256 ![0, o] P h (ix2 r j) = P (ix2 r (col q j)) :=
  slice2_axis1_apply o P h r j (col q j) (by rw [col_val q hq j, ho])

theorem logistic_at (v : FVec Ideal S32x256 .f32) (i : S32x256.Idx) : logistic v i = Ideal.logistic (v i) := rfl
theorem tanh_at (v : FVec Ideal S32x256 .f32) (i : S32x256.Idx) : tanh v i = Ideal.tanh (v i) := rfl

/-- The stored cell state at (p, q). -/
theorem cell_apply (x : Vec Ideal S32x1280 .f32) (lh rh lc rc : Vec Ideal S32x256 .f32) (wl wr : Vec Ideal S256x1280 .f32)
    (bl br : Vec Ideal S1280 .f32) (p : Fin 32) (q : Fin 256) :
    k12_pay1 (k12_pay5 lh rh wl wr x bl br) (k12_pay6 lh rh wl wr x bl br lc) rc (ix2 p q)
      = rowC (rowPre (cur2 x) (cur2 lh) (cur2 rh) (cur2 wl) (cur2 wr) (cur1 bl) (cur1 br)) (cur2 lc) (cur2 rc) p q := by
  unfold k12_pay1 k12_pay5 k12_pay6
  simp only [addf_apply, mulf_apply, logistic_at, tanh_at, shapeCast_self]
  rw [slice_apply 0 0 (by decide) rfl _ _ p q, slice_apply 1024 4 (by decide) rfl _ _ p q,
    slice_apply 512 2 (by decide) rfl _ _ p q, slice_apply 768 3 (by decide) rfl _ _ p q]
  simp only [pre_apply]
  rfl

/-- The stored hidden state at (p, q). -/
theorem hidden_apply (x : Vec Ideal S32x1280 .f32) (lh rh lc rc : Vec Ideal S32x256 .f32) (wl wr : Vec Ideal S256x1280 .f32)
    (bl br : Vec Ideal S1280 .f32) (p : Fin 32) (q : Fin 256) :
    k12_pay2 (k12_pay4 lh rh wl wr x bl br) (k12_pay5 lh rh wl wr x bl br) (k12_pay6 lh rh wl wr x bl br lc) rc (ix2 p q)
      = rowH (rowPre (cur2 x) (cur2 lh) (cur2 rh) (cur2 wl) (cur2 wr) (cur1 bl) (cur1 br)) (cur2 lc) (cur2 rc) p q := by
  unfold k12_pay2 k12_pay4
  simp only [mulf_apply, logistic_at, tanh_at]
  rw [cell_apply, slice_apply 256 1 (by decide) rfl _ _ p q, pre_apply]
  rfl

end Cert.KernelIdeal.LevelPay12

end
-- ==== Proof.RegionValue12.lean ====
/-
  What the level launch number 12 leaves in its two output arrays, as whole-array functions of the arrays it finds.

  The launch works on 32 rows in 1 block of 32: point `t` reads rows `t·32 … t·32+31` of the five row-indexed
  operands (own projection, children's hidden and cell states), the two transposed weight matrices and the two bias
  vectors whole, and writes back rows `t·32 …` of the hidden and of the cell array.  A row's values depend on that
  row only, so block `t` of the result is block `t` of `TreeSpec.rowH` / `rowC` of the whole operands; the blocks
  cover all rows (row `r` lies in block `r / 32`), so the arrays end as those functions.
-/
import proofs.«102109_j83099027243631_1_alg».proof.Proof.Gen.KernelIdeal.Frame
import proofs.«102109_j83099027243631_1_alg».proof.Proof.LevelPay12
import Idealize.ShloMosaic.Lib.Pipeline.Value

set_option maxRecDepth 16384

noncomputable section

namespace Cert.KernelIdeal.RegionValue12

open Cert.KernelIdeal Cert.KernelIdeal.Gen Idealize.ShloMosaic Idealize.ShloMosaic.TcCoe Idealize.ShloMosaic.ValueIdx
open Idealize.SL.Sem Cert.TreeSpec
open Idealize.ShloMosaic.Pipeline (Dat Cfg Window)

variable (V : (c : Dev nD) → (b : Ref sig .tc) → Buf (Elt Ideal) ((c : Thread nD τ).loc b))

/-- The operands as the launch finds them, as functions of their coordinates. -/
abbrev aX (c : Dev nD) : A2 32 1280 := cur2 (V c (Pipeline.arrRef spec12 0) : S32x1280.Idx → EReal)
abbrev aLH (c : Dev nD) : A2 32 256 := cur2 (V c (Pipeline.arrRef spec12 1) : S32x256.Idx → EReal)
abbrev aRH (c : Dev nD) : A2 32 256 := cur2 (V c (Pipeline.arrRef spec12 2) : S32x256.Idx → EReal)
abbrev aLC (c : Dev nD) : A2 32 256 := cur2 (V c (Pipeline.arrRef spec12 3) : S32x256.Idx → EReal)
abbrev aRC (c : Dev nD) : A2 32 256 := cur2 (V c (Pipeline.arrRef spec12 4) : S32x256.Idx → EReal)
abbrev aWl (c : Dev nD) : A2 256 1280 := cur2 (V c (Pipeline.arrRef spec12 5) : S256x1280.Idx → EReal)
abbrev aWr (c : Dev nD) : A2 256 1280 := cur2 (V c (Pipeline.arrRef spec12 6) : S256x1280.Idx → EReal)
abbrev aBl (c : Dev nD) : A1 1280 := cur1 (V c (Pipeline.arrRef spec12 7) : S1280.Idx → EReal)
abbrev aBr (c : Dev nD) : A1 1280 := cur1 (V c (Pipeline.arrRef spec12 8) : S1280.Idx → EReal)

/-- The hidden-state array the launch leaves. -/
def GH (c : Dev nD) : S32x256.Idx → EReal := fun i =>
  rowH (rowPre (aX V c) (aLH V c) (aRH V c) (aWl V c) (aWr V c) (aBl V c) (aBr V c)) (aLC V c) (aRC V c) (i 0) (i 1)
/-- The cell-state array the launch leaves. -/
def GC (c : Dev nD) : S32x256.Idx → EReal := fun i =>
  rowC (rowPre (aX V c) (aLH V c) (aRH V c) (aWl V c) (aWr V c) (aBl V c) (aBr V c)) (aLC V c) (aRC V c) (i 0) (i 1)

theorem hz : (![0, 0] : Fin 2 → Nat) = fun _ => 0 := funext fun a => by fin_cases a <;> rfl
theorem hz1 : (![0] : Fin 1 → Nat) = fun _ => 0 := funext fun a => by fin_cases a <;> rfl

/-- The block index maps over the grid: the row-indexed windows sit at block row `t`, column block 0; the weights
    and biases at block 0. -/
theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0
    ∧ win12_9.index t (0 : Fin 2) = t.val ∧ win12_9.index t (1 : Fin 2) = 0
    ∧ win12_10.index t (0 : Fin 2) = t.val ∧ win12_10.index t (1 : Fin 2) = 0
    ∧ win12_5.index t (0 : Fin 2) = 0 ∧ win12_5.index t (1 : Fin 2) = 0
    ∧ win12_6.index t (0 : Fin 2) = 0 ∧ win12_6.index t (1 : Fin 2) = 0
    ∧ win12_7.index t (0 : Fin 1) = 0
    ∧ win12_8.index t (0 : Fin 1) = 0 :=
  (by decide +kernel : ∀ t : Fin grid12.N, _)

/-! ## The blocks the point reads, off the whole arrays -/

theorem rd0 (c : Dev nD) (t : Fin cfg12.N) (p : Fin 32) (g : Fin 1280) (R : Fin 32) (hR : R.val = t.val * 32 + p.val) :
    iblk12 V c 0 t (ix2 p g) = aX V c R g := by
  show (V c (Pipeline.arrRef spec12 0) : S32x1280.Idx → EReal) (((cfg12.win 0).blk t).view.emb (ix2 p g))
    = (V c (Pipeline.arrRef spec12 0) : S32x1280.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_0.index t (0 : Fin 2) * 32 + 1 * p.val = R.val; omega
  | ⟨1, _⟩ => show win12_0.index t (1 : Fin 2) * 1280 + 1 * g.val = g.val; omega

theorem rd1 (c : Dev nD) (t : Fin cfg12.N) (p : Fin 32) (g : Fin 256) (R : Fin 32) (hR : R.val = t.val * 32 + p.val) :
    iblk12 V c 1 t (ix2 p g) = aLH V c R g := by
  show (V c (Pipeline.arrRef spec12 1) : S32x256.Idx → EReal) (((cfg12.win 1).blk t).view.emb (ix2 p g))
    = (V c (Pipeline.arrRef spec12 1) : S32x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_1.index t (0 : Fin 2) * 32 + 1 * p.val = R.val; omega
  | ⟨1, _⟩ => show win12_1.index t (1 : Fin 2) * 256 + 1 * g.val = g.val; omega

theorem rd2 (c : Dev nD) (t : Fin cfg12.N) (p : Fin 32) (g : Fin 256) (R : Fin 32) (hR : R.val = t.val * 32 + p.val) :
    iblk12 V c 2 t (ix2 p g) = aRH V c R g := by
  show (V c (Pipeline.arrRef spec12 2) : S32x256.Idx → EReal) (((cfg12.win 2).blk t).view.emb (ix2 p g))
    = (V c (Pipeline.arrRef spec12 2) : S32x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_2.index t (0 : Fin 2) * 32 + 1 * p.val = R.val; omega
  | ⟨1, _⟩ => show win12_2.index t (1 : Fin 2) * 256 + 1 * g.val = g.val; omega

theorem rd3 (c : Dev nD) (t : Fin cfg12.N) (p : Fin 32) (g : Fin 256) (R : Fin 32) (hR : R.val = t.val * 32 + p.val) :
    iblk12 V c 3 t (ix2 p g) = aLC V c R g := by
  show (V c (Pipeline.arrRef spec12 3) : S32x256.Idx → EReal) (((cfg12.win 3).blk t).view.emb (ix2 p g))
    = (V c (Pipeline.arrRef spec12 3) : S32x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_3.index t (0 : Fin 2) * 32 + 1 * p.val = R.val; omega
  | ⟨1, _⟩ => show win12_3.index t (1 : Fin 2) * 256 + 1 * g.val = g.val; omega

theorem rd4 (c : Dev nD) (t : Fin cfg12.N) (p : Fin 32) (g : Fin 256) (R : Fin 32) (hR : R.val = t.val * 32 + p.val) :
    iblk12 V c 4 t (ix2 p g) = aRC V c R g := by
  show (V c (Pipeline.arrRef spec12 4) : S32x256.Idx → EReal) (((cfg12.win 4).blk t).view.emb (ix2 p g))
    = (V c (Pipeline.arrRef spec12 4) : S32x256.Idx → EReal) (ix2 R g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_4.index t (0 : Fin 2) * 32 + 1 * p.val = R.val; omega
  | ⟨1, _⟩ => show win12_4.index t (1 : Fin 2) * 256 + 1 * g.val = g.val; omega

theorem rd5 (c : Dev nD) (t : Fin cfg12.N) : cur2 (iblk12 V c 5 t) = aWl V c := by
  funext k g
  show (V c (Pipeline.arrRef spec12 5) : S256x1280.Idx → EReal) (((cfg12.win 5).blk t).view.emb (ix2 k g))
    = (V c (Pipeline.arrRef spec12 5) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_5.index t (0 : Fin 2) * 256 + 1 * k.val = k.val; omega
  | ⟨1, _⟩ => show win12_5.index t (1 : Fin 2) * 1280 + 1 * g.val = g.val; omega

theorem rd6 (c : Dev nD) (t : Fin cfg12.N) : cur2 (iblk12 V c 6 t) = aWr V c := by
  funext k g
  show (V c (Pipeline.arrRef spec12 6) : S256x1280.Idx → EReal) (((cfg12.win 6).blk t).view.emb (ix2 k g))
    = (V c (Pipeline.arrRef spec12 6) : S256x1280.Idx → EReal) (ix2 k g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_6.index t (0 : Fin 2) * 256 + 1 * k.val = k.val; omega
  | ⟨1, _⟩ => show win12_6.index t (1 : Fin 2) * 1280 + 1 * g.val = g.val; omega

theorem rd7 (c : Dev nD) (t : Fin cfg12.N) : cur1 (iblk12 V c 7 t) = aBl V c := by
  funext g
  show (V c (Pipeline.arrRef spec12 7) : S1280.Idx → EReal) (((cfg12.win 7).blk t).view.emb (ix1 g))
    = (V c (Pipeline.arrRef spec12 7) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_7.index t (0 : Fin 1) * 1280 + 1 * g.val = g.val; omega

theorem rd8 (c : Dev nD) (t : Fin cfg12.N) : cur1 (iblk12 V c 8 t) = aBr V c := by
  funext g
  show (V c (Pipeline.arrRef spec12 8) : S1280.Idx → EReal) (((cfg12.win 8).blk t).view.emb (ix1 g))
    = (V c (Pipeline.arrRef spec12 8) : S1280.Idx → EReal) (ix1 g)
  refine congrArg _ (funext fun a => Fin.ext ?_)
  obtain ⟨a0, b0, a1, b1, a2, b2, a3, b3, a4, b4, a9, b9, a10, b10, a5, b5, a6, b6, a7, a8⟩ := idx_facts t
  match a with
  | ⟨0, _⟩ => show win12_8.index t (0 : Fin 1) * 1280 + 1 * g.val = g.val; omega

/-! ## The hidden-state array (window 9) -/

/-- What point `t` writes back of window 9 is block `t` of `GH`. -/
theorem flushedH (c : Dev nD) (t : Fin cfg12.N) :
    (dat12 V c).flushed 9 t = ((cfg12.win 9).blk t).view.read (Elt Ideal) (GH V c) := by
  show (cfg12.win 9).cut (grid12.coords t) ((dat12 V c).after 9 t) = _
  rw [after12_9]
  unfold out12_9
  rw [View.canon_unit_zero hz]
  simp only [View.ld_unit_zero (S := S32x256) hz, View.ld_unit_zero (S := S256x1280) hz,
    View.ld_unit_zero (S := S32x1280) hz, View.ld_unit_zero (S := S1280) hz1]
  funext j
  obtain ⟨p, q, rfl⟩ : ∃ (p : Fin 32) (q : Fin 256), j = ix2 p q := ⟨j 0, j 1, eq_ix2 j⟩
  have ht : t.val < 1 := lt_of_lt_of_eq t.isLt N_12
  have hp : p.val < 32 := p.isLt
  have hR : t.val * 32 + p.val < 32 := by omega
  have hemb : ((cfg12.win 9).blk t).view.emb (ix2 p q) = ix2 (⟨t.val * 32 + p.val, hR⟩ : Fin 32) q := by
    refine funext fun a => Fin.ext ?_
    obtain ⟨a0, b0, a1, b1, a2, b2, a3, b3, a4, b4, a9, b9, a10, b10, a5, b5, a6, b6, a7, a8⟩ := idx_facts t
    match a with
    | ⟨0, _⟩ => show win12_9.index t (0 : Fin 2) * 32 + 1 * p.val = t.val * 32 + p.val; omega
    | ⟨1, _⟩ => show win12_9.index t (1 : Fin 2) * 256 + 1 * q.val = q.val; omega
  show k12_pay2 (k12_pay4 (iblk12 V c 1 t) (iblk12 V c 2 t) (iblk12 V c 5 t) (iblk12 V c 6 t) (iblk12 V c 0 t) (iblk12 V c 7 t) (iblk12 V c 8 t)) (k12_pay5 (iblk12 V c 1 t) (iblk12 V c 2 t) (iblk12 V c 5 t) (iblk12 V c 6 t) (iblk12 V c 0 t) (iblk12 V c 7 t) (iblk12 V c 8 t)) (k12_pay6 (iblk12 V c 1 t) (iblk12 V c 2 t) (iblk12 V c 5 t) (iblk12 V c 6 t) (iblk12 V c 0 t) (iblk12 V c 7 t) (iblk12 V c 8 t) (iblk12 V c 3 t)) (iblk12 V c 4 t) (ix2 p q) = GH V c (((cfg12.win 9).blk t).view.emb (ix2 p q))
  rw [hemb]
  refine (LevelPay12.hidden_apply (iblk12 V c 0 t) (iblk12 V c 1 t) (iblk12 V c 2 t) (iblk12 V c 3 t) (iblk12 V c 4 t)
    (iblk12 V c 5 t) (iblk12 V c 6 t) (iblk12 V c 7 t) (iblk12 V c 8 t) p q).trans ?_
  rw [rd5 V c t, rd6 V c t, rd7 V c t, rd8 V c t]
  exact rowH_congr _ _ _ _ _ _ p ⟨t.val * 32 + p.val, hR⟩
    (fun g => rowPre_congr _ _ _ _ _ _ _ _ _ _ p ⟨t.val * 32 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkH (t : Fin cfg12.N) (i : S32x256.Idx) :
    i ∈ ((cfg12.win 9).blk t).view.set ↔ ∀ a : Fin 2, win12_9.index t a * S32x256.size a ≤ (i a).val
      ∧ (i a).val < win12_9.index t a * S32x256.size a + S32x256.size a := by
  show i ∈ ((View.whole main_v285_0).slice (win12_9.rect t)).set ↔ _
  rw [View.set_slice_whole, Rect.mem_set_unit]
  exact Iff.rfl

/-- Every row is in the block of the point `row / 32`. -/
theorem coverH (i : S32x256.Idx) :
    ∃ t : Fin cfg12.N, (cfg12.win 9).flush t = true ∧ i ∈ ((cfg12.win 9).blk t).view.set := by
  have hi0 : (i 0).val < 32 := (i 0).isLt
  have hi1 : (i 1).val < 256 := (i 1).isLt
  have hN : (i 0).val / 32 < cfg12.N := lt_of_lt_of_eq (by omega : (i 0).val / 32 < 1) N_12.symm
  refine ⟨⟨(i 0).val / 32, hN⟩, flush12_9 _, ?_⟩
  rw [mem_blkH]
  have ⟨a0, b0, a1, b1, a2, b2, a3, b3, a4, b4, a9, b9, a10, b10, a5, b5, a6, b6, a7, a8⟩ := idx_facts (⟨(i 0).val / 32, hN⟩ : Fin cfg12.N)
  intro a
  match a with
  | ⟨0, _⟩ =>
    show win12_9.index ⟨(i 0).val / 32, hN⟩ (0 : Fin 2) * 32 ≤ (i 0).val
      ∧ (i 0).val < win12_9.index ⟨(i 0).val / 32, hN⟩ (0 : Fin 2) * 32 + 32
    have e0 : win12_9.index ⟨(i 0).val / 32, hN⟩ (0 : Fin 2) = (i 0).val / 32 := a9
    omega
  | ⟨1, _⟩ =>
    show win12_9.index ⟨(i 0).val / 32, hN⟩ (1 : Fin 2) * 256 ≤ (i 1).val
      ∧ (i 1).val < win12_9.index ⟨(i 0).val / 32, hN⟩ (1 : Fin 2) * 256 + 256
    omega

/-- The array window 9 leaves: `GH` of the arrays as the region finds them. -/
theorem region_h (c : Dev nD) : (dat12 V c).arrAt 9 cfg12.N = GH V c :=
  (dat12 V c).arrAt_eq_of_cover 9 (GH V c) (fun t _ => flushedH V c t) coverH

/-! ## The cell-state array (window 10) -/

/-- What point `t` writes back of window 10 is block `t` of `GC`. -/
theorem flushedC (c : Dev nD) (t : Fin cfg12.N) :
    (dat12 V c).flushed 10 t = ((cfg12.win 10).blk t).view.read (Elt Ideal) (GC V c) := by
  show (cfg12.win 10).cut (grid12.coords t) ((dat12 V c).after 10 t) = _
  rw [after12_10]
  unfold out12_10
  rw [View.canon_unit_zero hz]
  simp only [View.ld_unit_zero (S := S32x256) hz, View.ld_unit_zero (S := S256x1280) hz,
    View.ld_unit_zero (S := S32x1280) hz, View.ld_unit_zero (S := S1280) hz1]
  funext j
  obtain ⟨p, q, rfl⟩ : ∃ (p : Fin 32) (q : Fin 256), j = ix2 p q := ⟨j 0, j 1, eq_ix2 j⟩
  have ht : t.val < 1 := lt_of_lt_of_eq t.isLt N_12
  have hp : p.val < 32 := p.isLt
  have hR : t.val * 32 + p.val < 32 := by omega
  have hemb : ((cfg12.win 10).blk t).view.emb (ix2 p q) = ix2 (⟨t.val * 32 + p.val, hR⟩ : Fin 32) q := by
    refine funext fun a => Fin.ext ?_
    obtain ⟨a0, b0, a1, b1, a2, b2, a3, b3, a4, b4, a9, b9, a10, b10, a5, b5, a6, b6, a7, a8⟩ := idx_facts t
    match a with
    | ⟨0, _⟩ => show win12_10.index t (0 : Fin 2) * 32 + 1 * p.val = t.val * 32 + p.val; omega
    | ⟨1, _⟩ => show win12_10.index t (1 : Fin 2) * 256 + 1 * q.val = q.val; omega
  show k12_pay1 (k12_pay5 (iblk12 V c 1 t) (iblk12 V c 2 t) (iblk12 V c 5 t) (iblk12 V c 6 t) (iblk12 V c 0 t) (iblk12 V c 7 t) (iblk12 V c 8 t)) (k12_pay6 (iblk12 V c 1 t) (iblk12 V c 2 t) (iblk12 V c 5 t) (iblk12 V c 6 t) (iblk12 V c 0 t) (iblk12 V c 7 t) (iblk12 V c 8 t) (iblk12 V c 3 t)) (iblk12 V c 4 t) (ix2 p q) = GC V c (((cfg12.win 10).blk t).view.emb (ix2 p q))
  rw [hemb]
  refine (LevelPay12.cell_apply (iblk12 V c 0 t) (iblk12 V c 1 t) (iblk12 V c 2 t) (iblk12 V c 3 t) (iblk12 V c 4 t)
    (iblk12 V c 5 t) (iblk12 V c 6 t) (iblk12 V c 7 t) (iblk12 V c 8 t) p q).trans ?_
  rw [rd5 V c t, rd6 V c t, rd7 V c t, rd8 V c t]
  exact rowC_congr _ _ _ _ _ _ p ⟨t.val * 32 + p.val, hR⟩
    (fun g => rowPre_congr _ _ _ _ _ _ _ _ _ _ p ⟨t.val * 32 + p.val, hR⟩
      (fun g' => rd0 V c t p g' _ rfl) (fun k => rd1 V c t p k _ rfl) (fun k => rd2 V c t p k _ rfl) g)
    (fun j' => rd3 V c t p j' _ rfl) (fun j' => rd4 V c t p j' _ rfl) q

theorem mem_blkC (t : Fin cfg12.N) (i : S32x256.Idx) :
    i ∈ ((cfg12.win 10).blk t).view.set ↔ ∀ a : Fin 2, win12_10.index t a * S32x256.size a ≤ (i a).val
      ∧ (i a).val < win12_10.index t a * S32x256.size a + S32x256.size a := by
  show i ∈ ((View.whole main_v285_1).slice (win12_10.rect t)).set ↔ _
  rw [View.set_slice_whole, Rect.mem_set_unit]
  exact Iff.rfl

/-- Every row is in the block of the point `row / 32`. -/
theorem coverC (i : S32x256.Idx) :
    ∃ t : Fin cfg12.N, (cfg12.win 10).flush t = true ∧ i ∈ ((cfg12.win 10).blk t).view.set := by
  have hi0 : (i 0).val < 32 := (i 0).isLt
  have hi1 : (i 1).val < 256 := (i 1).isLt
  have hN : (i 0).val / 32 < cfg12.N := lt_of_lt_of_eq (by omega : (i 0).val / 32 < 1) N_12.symm
  refine ⟨⟨(i 0).val / 32, hN⟩, flush12_10 _, ?_⟩
  rw [mem_blkC]
  have ⟨a0, b0, a1, b1, a2, b2, a3, b3, a4, b4, a9, b9, a10, b10, a5, b5, a6, b6, a7, a8⟩ := idx_facts (⟨(i 0).val / 32, hN⟩ : Fin cfg12.N)
  intro a
  match a with
  | ⟨0, _⟩ =>
    show win12_10.index ⟨(i 0).val / 32, hN⟩ (0 : Fin 2) * 32 ≤ (i 0).val
      ∧ (i 0).val < win12_10.index ⟨(i 0).val / 32, hN⟩ (0 : Fin 2) * 32 + 32
    have e0 : win12_10.index ⟨(i 0).val / 32, hN⟩ (0 : Fin 2) = (i 0).val / 32 := a10
    omega
  | ⟨1, _⟩ =>
    show win12_10.index ⟨(i 0).val / 32, hN⟩ (1 : Fin 2) * 256 ≤ (i 1).val
      ∧ (i 1).val < win12_10.index ⟨(i 0).val / 32, hN⟩ (1 : Fin 2) * 256 + 256
    omega

/-- The array window 10 leaves: `GC` of the arrays as the region finds them. -/
theorem region_c (c : Dev nD) : (dat12 V c).arrAt 10 cfg12.N = GC V c :=
  (dat12 V c).arrAt_eq_of_cover 10 (GC V c) (fun t _ => flushedC V c t) coverC

end Cert.KernelIdeal.RegionValue12

end
-- ==== Proof.KFinal.lean ====
/-
  The kernel program's value with the kernels' results supplied: what each kernel leaves in its output arrays is
  the row form of its input arrays, so the returned buffer holds `TreeSpec.result` of the launch arrays.
-/
import proofs.«102109_j83099027243631_1_alg».proof.Proof.KValue
import proofs.«102109_j83099027243631_1_alg».proof.Proof.RegionValue0
import proofs.«102109_j83099027243631_1_alg».proof.Proof.RegionValue1
import proofs.«102109_j83099027243631_1_alg».proof.Proof.RegionValue2
import proofs.«102109_j83099027243631_1_alg».proof.Proof.RegionValue3
import proofs.«102109_j83099027243631_1_alg».proof.Proof.RegionValue4
import proofs.«102109_j83099027243631_1_alg».proof.Proof.RegionValue5
import proofs.«102109_j83099027243631_1_alg».proof.Proof.RegionValue6
import proofs.«102109_j83099027243631_1_alg».proof.Proof.RegionValue7
import proofs.«102109_j83099027243631_1_alg».proof.Proof.RegionValue8
import proofs.«102109_j83099027243631_1_alg».proof.Proof.RegionValue9
import proofs.«102109_j83099027243631_1_alg».proof.Proof.RegionValue10
import proofs.«102109_j83099027243631_1_alg».proof.Proof.RegionValue11
import proofs.«102109_j83099027243631_1_alg».proof.Proof.RegionValue12

set_option maxRecDepth 16384

noncomputable section

namespace Cert.KernelIdeal.KValue

open Idealize.ShloMosaic Idealize.ShloMosaic.TcCoe Idealize.ShloMosaic.ValueIdx
open Cert.KernelIdeal.Gen Cert.TreeSpec

variable (m : (ℓ : Loc nD τ sig) → Buf (Elt Ideal) ℓ) (ρ : Dev nD → PrngReg)

/-! What each kernel leaves, one statement at a time. -/

set_option maxHeartbeats 1000000 in
theorem rf0 : RF0 := fun V c => RegionValue0.region_x V c
set_option maxHeartbeats 1000000 in
theorem rf1h : RF1h := fun V c => RegionValue1.region_h V c
set_option maxHeartbeats 1000000 in
theorem rf1c : RF1c := fun V c => RegionValue1.region_c V c
set_option maxHeartbeats 1000000 in
theorem rf2h : RF2h := fun V c => RegionValue2.region_h V c
set_option maxHeartbeats 1000000 in
theorem rf2c : RF2c := fun V c => RegionValue2.region_c V c
set_option maxHeartbeats 1000000 in
theorem rf3h : RF3h := fun V c => RegionValue3.region_h V c
set_option maxHeartbeats 1000000 in
theorem rf3c : RF3c := fun V c => RegionValue3.region_c V c
set_option maxHeartbeats 1000000 in
theorem rf4h : RF4h := fun V c => RegionValue4.region_h V c
set_option maxHeartbeats 1000000 in
theorem rf4c : RF4c := fun V c => RegionValue4.region_c V c
set_option maxHeartbeats 1000000 in
theorem rf5h : RF5h := fun V c => RegionValue5.region_h V c
set_option maxHeartbeats 1000000 in
theorem rf5c : RF5c := fun V c => RegionValue5.region_c V c
set_option maxHeartbeats 1000000 in
theorem rf6h : RF6h := fun V c => RegionValue6.region_h V c
set_option maxHeartbeats 1000000 in
theorem rf6c : RF6c := fun V c => RegionValue6.region_c V c
set_option maxHeartbeats 1000000 in
theorem rf7h : RF7h := fun V c => RegionValue7.region_h V c
set_option maxHeartbeats 1000000 in
theorem rf7c : RF7c := fun V c => RegionValue7.region_c V c
set_option maxHeartbeats 1000000 in
theorem rf8h : RF8h := fun V c => RegionValue8.region_h V c
set_option maxHeartbeats 1000000 in
theorem rf8c : RF8c := fun V c => RegionValue8.region_c V c
set_option maxHeartbeats 1000000 in
theorem rf9h : RF9h := fun V c => RegionValue9.region_h V c
set_option maxHeartbeats 1000000 in
theorem rf9c : RF9c := fun V c => RegionValue9.region_c V c
set_option maxHeartbeats 1000000 in
theorem rf10h : RF10h := fun V c => RegionValue10.region_h V c
set_option maxHeartbeats 1000000 in
theorem rf10c : RF10c := fun V c => RegionValue10.region_c V c
set_option maxHeartbeats 1000000 in
theorem rf11h : RF11h := fun V c => RegionValue11.region_h V c
set_option maxHeartbeats 1000000 in
theorem rf11c : RF11c := fun V c => RegionValue11.region_c V c
set_option maxHeartbeats 1000000 in
theorem rf12h : RF12h := fun V c => RegionValue12.region_h V c
set_option maxHeartbeats 1000000 in
theorem rf12c : RF12c := fun V c => RegionValue12.region_c V c

/-- What the thirteen kernels leave, together. -/
theorem regionFacts : RegionFacts :=
  ⟨rf0, rf1h, rf1c, rf2h, rf2c, rf3h, rf3c, rf4h, rf4c, rf5h, rf5c, rf6h, rf6c, rf7h, rf7c, rf8h, rf8c, rf9h, rf9c, rf10h, rf10c, rf11h, rf11c, rf12h, rf12c⟩

/-- The returned buffer at the end of the run is `TreeSpec.result` of the launch arrays. -/
theorem value (c : Dev nD) :
    W27 m ρ c (Proc.devRef .tc main_v293)
      = fun i : S32x256.Idx => result (aFeat m c) (aWx m c) (aWl m c) (aWr m c) (aBx m c) (aBl m c) (aBr m c) (i 0) (i 1) :=
  value_of m ρ c regionFacts

end Cert.KernelIdeal.KValue

end
-- ==== Proof.RefOps0.lean ====
/-
  The statements 1 … 60 of the reference program's @main as a list of operations (the printed window
  main_part0 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 1 … 60 of the program, as operations. -/
abbrev c0 : List (HloOp τ sig (Elt F)) :=
  [
    StableHlo.nullary main_c (fun i => lit0 (S1024.rowMajor i)),
    StableHlo.nullary main_c_0 (constantI S1024 1 0#1),
    StableHlo.nullary main_c_1 (fun i => lit1 (S1024.rowMajor i)),
    StableHlo.nullary main_c_2 (constantI S1024 1 0#1),
    StableHlo.nullary main_c_3 (constantI S1024 1 0#1),
    StableHlo.nullary main_c_4 (constantI S1024 1 0#1),
    StableHlo.nullary main_c_5 (fun i => lit2 (S512.rowMajor i)),
    StableHlo.nullary main_c_6 (constantI S512 1 0#1),
    StableHlo.nullary main_c_7 (fun i => lit3 (S512.rowMajor i)),
    StableHlo.nullary main_c_8 (constantI S512 1 0#1),
    StableHlo.nullary main_c_9 (constantI S512 1 0#1),
    StableHlo.nullary main_c_10 (constantI S512 1 0#1),
    StableHlo.nullary main_c_11 (fun i => lit4 (S256.rowMajor i)),
    StableHlo.nullary main_c_12 (constantI S256 1 0#1),
    StableHlo.nullary main_c_13 (fun i => lit5 (S256.rowMajor i)),
    StableHlo.nullary main_c_14 (constantI S256 1 0#1),
    StableHlo.nullary main_c_15 (constantI S256 1 0#1),
    StableHlo.nullary main_c_16 (constantI S256 1 0#1),
    StableHlo.nullary main_c_17 (fun i => lit6 (S128.rowMajor i)),
    StableHlo.nullary main_c_18 (constantI S128 1 0#1),
    StableHlo.nullary main_c_19 (fun i => lit7 (S128.rowMajor i)),
    StableHlo.nullary main_c_20 (constantI S128 1 0#1),
    StableHlo.nullary main_c_21 (constantI S128 1 0#1),
    StableHlo.nullary main_c_22 (constantI S128 1 0#1),
    StableHlo.nullary main_c_23 (fun i => lit8 (S64.rowMajor i)),
    StableHlo.nullary main_c_24 (constantI S64 1 0#1),
    StableHlo.nullary main_c_25 (fun i => lit9 (S64.rowMajor i)),
    StableHlo.nullary main_c_26 (constantI S64 1 0#1),
    StableHlo.nullary main_c_27 (constantI S64 1 0#1),
    StableHlo.nullary main_c_28 (constantI S64 1 0#1),
    StableHlo.nullary main_c_29 (fun i => lit10 (S32.rowMajor i)),
    StableHlo.nullary main_c_30 (constantI S32 1 0#1),
    StableHlo.nullary main_c_31 (fun i => lit11 (S32.rowMajor i)),
    StableHlo.nullary main_c_32 (constantI S32 1 0#1),
    StableHlo.nullary main_c_33 (constantI S32 1 0#1),
    StableHlo.nullary main_c_34 (constantI S32 1 0#1),
    StableHlo.nullary main_c_35 (fun i => lit12 (S16.rowMajor i)),
    StableHlo.nullary main_c_36 (constantI S16 1 0#1),
    StableHlo.nullary main_c_37 (fun i => lit13 (S16.rowMajor i)),
    StableHlo.nullary main_c_38 (constantI S16 1 0#1),
    StableHlo.nullary main_c_39 (constantI S16 1 0#1),
    StableHlo.nullary main_c_40 (constantI S16 1 0#1),
    StableHlo.nullary main_c_41 (fun i => lit14 (S8.rowMajor i)),
    StableHlo.nullary main_c_42 (constantI S8 1 0#1),
    StableHlo.nullary main_c_43 (fun i => lit15 (S8.rowMajor i)),
    StableHlo.nullary main_c_44 (constantI S8 1 0#1),
    StableHlo.nullary main_c_45 (constantI S8 1 0#1),
    StableHlo.nullary main_c_46 (constantI S8 1 0#1),
    StableHlo.nullary main_c_47 (fun i => lit16 (S4.rowMajor i)),
    StableHlo.nullary main_c_48 (constantI S4 1 0#1),
    StableHlo.nullary main_c_49 (fun i => lit17 (S4.rowMajor i)),
    StableHlo.nullary main_c_50 (constantI S4 1 0#1),
    StableHlo.nullary main_c_51 (constantI S4 1 0#1),
    StableHlo.nullary main_c_52 (constantI S4 1 0#1),
    StableHlo.nullary main_c_53 (fun i => lit18 (S2.rowMajor i)),
    StableHlo.nullary main_c_54 (constantI S2 1 0#1),
    StableHlo.nullary main_c_55 (fun i => lit19 (S2.rowMajor i)),
    StableHlo.nullary main_c_56 (constantI S2 1 0#1),
    StableHlo.nullary main_c_57 (constantI S2 1 0#1),
    StableHlo.nullary main_c_58 (constantI S2 1 0#1) ]

set_option maxRecDepth 8192 in
theorem c0_sub : (c0 : List (HloOp τ sig (Elt F))).Forall fun op => op.bufs ⊆ tcRefs τ sig :=
  ⟨nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..,
    nullary_bufs_sub ..⟩

/-- The buffers these operations write. -/
abbrev c0_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_c_18, main_c_19, main_c_20, main_c_21, main_c_22, main_c_23, main_c_24, main_c_25, main_c_26, main_c_27, main_c_28, main_c_29, main_c_30, main_c_31, main_c_32, main_c_33, main_c_34, main_c_35, main_c_36, main_c_37, main_c_38, main_c_39, main_c_40, main_c_41, main_c_42, main_c_43, main_c_44, main_c_45, main_c_46, main_c_47, main_c_48, main_c_49, main_c_50, main_c_51, main_c_52, main_c_53, main_c_54, main_c_55, main_c_56, main_c_57, main_c_58]

set_option maxRecDepth 8192 in
theorem c0_writes : (c0 : List (HloOp τ sig (Elt F))).Forall fun op =>
    op.writes ⊆ (c0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c0_fresh : ∀ op ∈ (c0 : List (HloOp τ sig (Elt F))), op.fresh = ∅ := by
  intro _ h; (repeat (cases h with | head => rfl | tail _ h => ?_)); exact nomatch h

/-- The operations of the printed window main_part0. -/
abbrev ops0 : List (HloOp τ sig (Elt F)) := c0

set_option maxRecDepth 100000 in
set_option maxHeartbeats 4000000 in
theorem main_part0_eq (c : Dev nD) : main_part0 (F := F) c = seq ops0 := rfl

theorem ops0_sub : (ops0 : List (HloOp τ sig (Elt F))).Forall fun op => op.bufs ⊆ tcRefs τ sig :=
  List.forall_iff_forall_mem.mpr fun op h => by
    exact List.forall_iff_forall_mem.mp c0_sub op h

theorem ops0_fresh : ∀ op ∈ (ops0 : List (HloOp τ sig (Elt F))), op.fresh = ∅ := by
  intro op h
  exact c0_fresh op h

end Cert.ReferenceIdeal.RefValue

end
-- ==== Proof.RefOps1.lean ====
/-
  The statements 61 … 120 of the reference program's @main as a list of operations (the printed window
  main_part1 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 61 … 66 of the program, as operations. -/
abbrev c1 : List (HloOp τ sig (Elt F)) :=
  [
    StableHlo.nullary main_c_59 (constantI S1 32 1#32),
    StableHlo.nullary main_c_60 (constantI S1 1 0#1),
    StableHlo.nullary main_c_61 (constantI S1 32 2#32),
    StableHlo.nullary main_c_62 (constantI S1 1 0#1),
    StableHlo.nullary main_c_63 (constantI S1 1 0#1),
    StableHlo.nullary main_c_64 (constantI S1 1 0#1) ]

set_option maxRecDepth 8192 in
theorem c1_sub : (c1 : List (HloOp τ sig (Elt F))).Forall fun op => op.bufs ⊆ tcRefs τ sig :=
  ⟨nullary_bufs_sub ..,
    nullary_bufs_sub ..,
    nullary_bufs_sub ..,
    nullary_bufs_sub ..,
    nullary_bufs_sub ..,
    nullary_bufs_sub ..⟩

/-- The buffers these operations write. -/
abbrev c1_W : List (Ref sig .tc) := [main_c_59, main_c_60, main_c_61, main_c_62, main_c_63, main_c_64]

set_option maxRecDepth 8192 in
theorem c1_writes : (c1 : List (HloOp τ sig (Elt F))).Forall fun op =>
    op.writes ⊆ (c1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c1_fresh : ∀ op ∈ (c1 : List (HloOp τ sig (Elt F))), op.fresh = ∅ := by
  intro _ h; (repeat (cases h with | head => rfl | tail _ h => ?_)); exact nomatch h

/-- The statements 67 … 74 of the program, as operations. -/
abbrev c2 : List (HloOp τ sig (Elt F)) :=
  [
    StableHlo.binary main_arg0 main_arg1 main_v0 ((fun l r => Host.dotGeneral dot_S32x4095x256_S1280x256_S32x4095x1280_2_1_01_0_n_n none l r) : (⟨S32x4095x256, .f32⟩ : BufTy).Contents (Elt F) → (⟨S1280x256, .f32⟩ : BufTy).Contents (Elt F) → (⟨S32x4095x1280, .f32⟩ : BufTy).Contents (Elt F)),
    StableHlo.unary main_arg4 main_v1 (broadcastInDim S1x1x1280 ![2] bcast_S1280_S1x1x1280_2 : (⟨S1280, .f32⟩ : BufTy).Contents (Elt F) → (⟨S1x1x1280, .f32⟩ : BufTy).Contents (Elt F)),
    StableHlo.unary main_v1 main_v2 (broadcastInDim S32x4095x1280 ![0, 1, 2] bcast_S1x1x1280_S32x4095x1280_0_1_2 : (⟨S1x1x1280, .f32⟩ : BufTy).Contents (Elt F) → (⟨S32x4095x1280, .f32⟩ : BufTy).Contents (Elt F)),
    StableHlo.binary main_v0 main_v2 main_v3 (addf : (⟨S32x4095x1280, .f32⟩ : BufTy).Contents (Elt F) → (⟨S32x4095x1280, .f32⟩ : BufTy).Contents (Elt F) → (⟨S32x4095x1280, .f32⟩ : BufTy).Contents (Elt F)),
    StableHlo.nullary main_cst (constant S_ .f32 0x00000000#32),
    StableHlo.unary main_cst main_v4 (broadcastInDim S32x4095x256 ![] bcast_S_S32x4095x256 : (⟨S_, .f32⟩ : BufTy).Contents (Elt F) → (⟨S32x4095x256, .f32⟩ : BufTy).Contents (Elt F)),
    StableHlo.nullary main_cst_65 (constant S_ .f32 0x00000000#32),
    StableHlo.unary main_cst_65 main_v5 (broadcastInDim S32x4095x256 ![] bcast_S_S32x4095x256 : (⟨S_, .f32⟩ : BufTy).Contents (Elt F) → (⟨S32x4095x256, .f32⟩ : BufTy).Contents (Elt F)) ]

set_option maxRecDepth 8192 in
theorem c2_sub : (c2 : List (HloOp τ sig (Elt F))).Forall fun op => op.bufs ⊆ tcRefs τ sig :=
  ⟨binary_bufs_sub ..,
    unary_bufs_sub ..,
    unary_bufs_sub ..,
    binary_bufs_sub ..,
    nullary_bufs_sub ..,
    unary_bufs_sub ..,
    nullary_bufs_sub ..,
    unary_bufs_sub ..⟩

/-- The buffers these operations write. -/
abbrev c2_W : List (Ref sig .tc) := [main_v0, main_v1, main_v2, main_v3, main_cst, main_v4, main_cst_65, main_v5]

set_option maxRecDepth 8192 in
theorem c2_writes : (c2 : List (HloOp τ sig (Elt F))).Forall fun op =>
    op.writes ⊆ (c2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c2_fresh : ∀ op ∈ (c2 : List (HloOp τ sig (Elt F))), op.fresh = ∅ := by
  intro _ h; (repeat (cases h with | head => rfl | tail _ h => ?_)); exact nomatch h

/-- The statements 75 … 120 of the program, as operations. -/
abbrev c3 : List (HloOp τ sig (Elt F)) :=
  [
    StableHlo.unary main_v3 main_v6 ((extractStridedSlice S32x2048x1280 ![0, 2047, 0] · slices_S32x4095x1280_S32x2048x1280_0_2047_0) : (⟨S32x4095x1280, .f32⟩ : BufTy).Contents (Elt F) → (⟨S32x2048x1280, .f32⟩ : BufTy).Contents (Elt F)),
    StableHlo.unary main_v6 main_v7 ((extractStridedSlice S32x2048x256 ![0, 0, 0] · slices_S32x2048x1280_S32x2048x256_0_0_0) : (⟨S32x2048x1280, .f32⟩ : BufTy).Contents (Elt F) → (⟨S32x2048x256, .f32⟩ : BufTy).Contents (Elt F)),
    StableHlo.unary main_v6 main_v8 ((extractStridedSlice S32x2048x256 ![0, 0, 256] · slices_S32x2048x1280_S32x2048x256_0_0_256) : (⟨S32x2048x1280, .f32⟩ : BufTy).Contents (Elt F) → (⟨S32x2048x256, .f32⟩ : BufTy).Contents (Elt F)),
    StableHlo.unary main_v6 main_v9 ((extractStridedSlice S32x2048x256 ![0, 0, 512] · slices_S32x2048x1280_S32x2048x256_0_0_512) : (⟨S32x2048x1280, .f32⟩ : BufTy).Contents (Elt F) → (⟨S32x2048x256, .f32⟩ : BufTy).Contents (Elt F)),
    StableHlo.unary main_v6 main_v10 ((extractStridedSlice S32x2048x256 ![0, 0, 768] · slices_S32x2048x1280_S32x2048x256_0_0_768) : (⟨S32x2048x1280, .f32⟩ : BufTy).Contents (Elt F) → (⟨S32x2048x256, .f32⟩ : BufTy).Contents (Elt F)),
    StableHlo.unary main_v6 main_v11 ((extractStridedSlice S32x2048x256 ![0, 0, 1024] · slices_S32x2048x1280_S32x2048x256_0_0_1024) : (⟨S32x2048x1280, .f32⟩ : BufTy).Contents (Elt F) → (⟨S32x2048x256, .f32⟩ : BufTy).Contents (Elt F)),
    StableHlo.unary main_v7 main_v12 (Host.negf : (⟨S32x2048x256, .f32⟩ : BufTy).Contents (Elt F) → (⟨S32x2048x256, .f32⟩ : BufTy).Contents (Elt F)),
    StableHlo.unary main_v12 main_v13 (Host.exp : (⟨S32x2048x256, .f32⟩ : BufTy).Contents (Elt F) → (⟨S32x2048x256, .f32⟩ : BufTy).Contents (Elt F)),
    StableHlo.nullary main_cst_66 (constant S_ .f32 0x3F800000#32),
    StableHlo.unary main_cst_66 main_v14 (broadcastInDim S32x2048x256 ![] bcast_S_S32x2048x256 : (⟨S_, .f32⟩ : BufTy).Contents (Elt F) → (⟨S32x2048x256, .f32⟩ : BufTy).Contents (Elt F)),
    StableHlo.binary main_v14 main_v13 main_v15 (addf : (⟨S32x2048x256, .f32⟩ : BufTy).Contents (Elt F) → (⟨S32x2048x256, .f32⟩ : BufTy).Contents (Elt F) → (⟨S32x2048x256, .f32⟩ : BufTy).Contents (Elt F)),
    StableHlo.nullary main_cst_67 (constant S_ .f32 0x3F800000#32),
    StableHlo.unary main_cst_67 main_v16 (broadcastInDim S32x2048x256 ![] bcast_S_S32x2048x256 : (⟨S_, .f32⟩ : BufTy).Contents (Elt F) → (⟨S32x2048x256, .f32⟩ : BufTy).Contents (Elt F)),
    StableHlo.binary main_v16 main_v15 main_v17 (Host.divf : (⟨S32x2048x256, .f32⟩ : BufTy).Contents (Elt F) → (⟨S32x2048x256, .f32⟩ : BufTy).Contents (Elt F) → (⟨S32x2048x256, .f32⟩ : BufTy).Contents (Elt F)),
    StableHlo.unary main_v8 main_v18 (Host.negf : (⟨S32x2048x256, .f32⟩ : BufTy).Contents (Elt F) → (⟨S32x2048x256, .f32⟩ : BufTy).Contents (Elt F)),
    StableHlo.unary main_v18 main_v19 (Host.exp : (⟨S32x2048x256, .f32⟩ : BufTy).Contents (Elt F) → (⟨S32x2048x256, .f32⟩ : BufTy).Contents (Elt F)),
    StableHlo.nullary main_cst_68 (constant S_ .f32 0x3F800000#32),
    StableHlo.unary main_cst_68 main_v20 (broadcastInDim S32x2048x256 ![] bcast_S_S32x2048x256 : (⟨S_, .f32⟩ : BufTy).Contents (Elt F) → (⟨S32x2048x256, .f32⟩ : BufTy).Contents (Elt F)),
    StableHlo.binary main_v20 main_v19 main_v21 (addf : (⟨S32x2048x256, .f32⟩ : BufTy).Contents (Elt F) → (⟨S32x2048x256, .f32⟩ : BufTy).Contents (Elt F) → (⟨S32x2048x256, .f32⟩ : BufTy).Contents (Elt F)),
    StableHlo.nullary main_cst_69 (constant S_ .f32 0x3F800000#32),
    StableHlo.unary main_cst_69 main_v22 (broadcastInDim S32x2048x256 ![] bcast_S_S32x2048x256 : (⟨S_, .f32⟩ : BufTy).Contents (Elt F) → (⟨S32x2048x256, .f32⟩ : BufTy).Contents (Elt F)),
    StableHlo.binary main_v22 main_v21 main_v23 (Host.divf : (⟨S32x2048x256, .f32⟩ : BufTy).Contents (Elt F) → (⟨S32x2048x256, .f32⟩ : BufTy).Contents (Elt F) → (⟨S32x2048x256, .f32⟩ : BufTy).Contents (Elt F)),
    StableHlo.unary main_v9 main_v24 (Host.negf : (⟨S32x2048x256, .f32⟩ : BufTy).Contents (Elt F) → (⟨S32x2048x256, .f32⟩ : BufTy).Contents (Elt F)),
    StableHlo.unary main_v24 main_v25 (Host.exp : (⟨S32x2048x256, .f32⟩ : BufTy).Contents (Elt F) → (⟨S32x2048x256, .f32⟩ : BufTy).Contents (Elt F)),
    StableHlo.nullary main_cst_70 (constant S_ .f32 0x3F800000#32),
    StableHlo.unary main_cst_70 main_v26 (broadcastInDim S32x2048x256 ![] bcast_S_S32x2048x256 : (⟨S_, .f32⟩ : BufTy).Contents (Elt F) → (⟨S32x2048x256, .f32⟩ : BufTy).Contents (Elt F)),
    StableHlo.binary main_v26 main_v25 main_v27 (addf : (⟨S32x2048x256, .f32⟩ : BufTy).Contents (Elt F) → (⟨S32x2048x256, .f32⟩ : BufTy).Contents (Elt F) → (⟨S32x2048x256, .f32⟩ : BufTy).Contents (Elt F)),
    StableHlo.nullary main_cst_71 (constant S_ .f32 0x3F800000#32),
    StableHlo.unary main_cst_71 main_v28 (broadcastInDim S32x2048x256 ![] bcast_S_S32x2048x256 : (⟨S_, .f32⟩ : BufTy).Contents (Elt F) → (⟨S32x2048x256, .f32⟩ : BufTy).Contents (Elt F)),
    StableHlo.binary main_v28 main_v27 main_v29 (Host.divf : (⟨S32x2048x256, .f32⟩ : BufTy).Contents (Elt F) → (⟨S32x2048x256, .f32⟩ : BufTy).Contents (Elt F) → (⟨S32x2048x256, .f32⟩ : BufTy).Contents (Elt F)),
    StableHlo.unary main_v10 main_v30 (Host.negf : (⟨S32x2048x256, .f32⟩ : BufTy).Contents (Elt F) → (⟨S32x2048x256, .f32⟩ : BufTy).Contents (Elt F)),
    StableHlo.unary main_v30 main_v31 (Host.exp : (⟨S32x2048x256, .f32⟩ : BufTy).Contents (Elt F) → (⟨S32x2048x256, .f32⟩ : BufTy).Contents (Elt F)),
    StableHlo.nullary main_cst_72 (constant S_ .f32 0x3F800000#32),
    StableHlo.unary main_cst_72 main_v32 (broadcastInDim S32x2048x256 ![] bcast_S_S32x2048x256 : (⟨S_, .f32⟩ : BufTy).Contents (Elt F) → (⟨S32x2048x256, .f32⟩ : BufTy).Contents (Elt F)),
    StableHlo.binary main_v32 main_v31 main_v33 (addf : (⟨S32x2048x256, .f32⟩ : BufTy).Contents (Elt F) → (⟨S32x2048x256, .f32⟩ : BufTy).Contents (Elt F) → (⟨S32x2048x256, .f32⟩ : BufTy).Contents (Elt F)),
    StableHlo.nullary main_cst_73 (constant S_ .f32 0x3F800000#32),
    StableHlo.unary main_cst_73 main_v34 (broadcastInDim S32x2048x256 ![] bcast_S_S32x2048x256 : (⟨S_, .f32⟩ : BufTy).Contents (Elt F) → (⟨S32x2048x256, .f32⟩ : BufTy).Contents (Elt F)),
    StableHlo.binary main_v34 main_v33 main_v35 (Host.divf : (⟨S32x2048x256, .f32⟩ : BufTy).Contents (Elt F) → (⟨S32x2048x256, .f32⟩ : BufTy).Contents (Elt F) → (⟨S32x2048x256, .f32⟩ : BufTy).Contents (Elt F)),
    StableHlo.unary main_v11 main_v36 (Host.tanh : (⟨S32x2048x256, .f32⟩ : BufTy).Contents (Elt F) → (⟨S32x2048x256, .f32⟩ : BufTy).Contents (Elt F)),
    StableHlo.binary main_v17 main_v36 main_v37 (mulf : (⟨S32x2048x256, .f32⟩ : BufTy).Contents (Elt F) → (⟨S32x2048x256, .f32⟩ : BufTy).Contents (Elt F) → (⟨S32x2048x256, .f32⟩ : BufTy).Contents (Elt F)),
    StableHlo.nullary main_cst_74 (constant S_ .f32 0x00000000#32),
    StableHlo.unary main_cst_74 main_v38 (broadcastInDim S32x2048x256 ![] bcast_S_S32x2048x256 : (⟨S_, .f32⟩ : BufTy).Contents (Elt F) → (⟨S32x2048x256, .f32⟩ : BufTy).Contents (Elt F)),
    StableHlo.binary main_v29 main_v38 main_v39 (mulf : (⟨S32x2048x256, .f32⟩ : BufTy).Contents (Elt F) → (⟨S32x2048x256, .f32⟩ : BufTy).Contents (Elt F) → (⟨S32x2048x256, .f32⟩ : BufTy).Contents (Elt F)),
    StableHlo.binary main_v37 main_v39 main_v40 (addf : (⟨S32x2048x256, .f32⟩ : BufTy).Contents (Elt F) → (⟨S32x2048x256, .f32⟩ : BufTy).Contents (Elt F) → (⟨S32x2048x256, .f32⟩ : BufTy).Contents (Elt F)),
    StableHlo.nullary main_cst_75 (constant S_ .f32 0x00000000#32),
    StableHlo.unary main_cst_75 main_v41 (broadcastInDim S32x2048x256 ![] bcast_S_S32x2048x256 : (⟨S_, .f32⟩ : BufTy).Contents (Elt F) → (⟨S32x2048x256, .f32⟩ : BufTy).Contents (Elt F)) ]

set_option maxRecDepth 8192 in
theorem c3_sub : (c3 : List (HloOp τ sig (Elt F))).Forall fun op => op.bufs ⊆ tcRefs τ sig :=
  ⟨unary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    nullary_bufs_sub ..,
    unary_bufs_sub ..,
    binary_bufs_sub ..,
    binary_bufs_sub ..,
    nullary_bufs_sub ..,
    unary_bufs_sub ..⟩

/-- The buffers these operations write. -/
abbrev c3_W : List (Ref sig .tc) := [main_v6, main_v7, main_v8, main_v9, main_v10, main_v11, main_v12, main_v13, main_cst_66, main_v14, main_v15, main_cst_67, main_v16, main_v17, main_v18, main_v19, main_cst_68, main_v20, main_v21, main_cst_69, main_v22, main_v23, main_v24, main_v25, main_cst_70, main_v26, main_v27, main_cst_71, main_v28, main_v29, main_v30, main_v31, main_cst_72, main_v32, main_v33, main_cst_73, main_v34, main_v35, main_v36, main_v37, main_cst_74, main_v38, main_v39, main_v40, main_cst_75, main_v41]

set_option maxRecDepth 8192 in
theorem c3_writes : (c3 : List (HloOp τ sig (Elt F))).Forall fun op =>
    op.writes ⊆ (c3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c3_fresh : ∀ op ∈ (c3 : List (HloOp τ sig (Elt F))), op.fresh = ∅ := by
  intro _ h; (repeat (cases h with | head => rfl | tail _ h => ?_)); exact nomatch h

/-- The operations of the printed window main_part1. -/
abbrev ops1 : List (HloOp τ sig (Elt F)) := c1 ++ (c2 ++ c3)

set_option maxRecDepth 100000 in
set_option maxHeartbeats 4000000 in
theorem main_part1_eq (c : Dev nD) : main_part1 (F := F) c = seq ops1 := rfl

theorem ops1_sub : (ops1 : List (HloOp τ sig (Elt F))).Forall fun op => op.bufs ⊆ tcRefs τ sig :=
  List.forall_iff_forall_mem.mpr fun op h => by
    simp only [ops1, List.mem_append] at h
    rcases h with h | h | h
    exacts [List.forall_iff_forall_mem.mp c1_sub op h, List.forall_iff_forall_mem.mp c2_sub op h, List.forall_iff_forall_mem.mp c3_sub op h]

theorem ops1_fresh : ∀ op ∈ (ops1 : List (HloOp τ sig (Elt F))), op.fresh = ∅ := by
  intro op h
  simp only [ops1, List.mem_append] at h
  rcases h with h | h | h
  exacts [c1_fresh op h, c2_fresh op h, c3_fresh op h]

end Cert.ReferenceIdeal.RefValue

end
-- ==== Proof.RefOps2.lean ====
/-
  The statements 121 … 180 of the reference program's @main as a list of operations (the printed window
  main_part2 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 121 … 130 of the program, as operations. -/
abbrev c4 : List (HloOp τ sig (Elt F)) :=
  [
    StableHlo.binary main_v35 main_v41 main_v42 (mulf : (⟨S32x2048x256, .f32⟩ : BufTy).Contents (Elt F) → (⟨S32x2048x256, .f32⟩ : BufTy).Contents (Elt F) → (⟨S32x2048x256, .f32⟩ : BufTy).Contents (Elt F)),
    StableHlo.binary main_v40 main_v42 main_v43 (addf : (⟨S32x2048x256, .f32⟩ : BufTy).Contents (Elt F) → (⟨S32x2048x256, .f32⟩ : BufTy).Contents (Elt F) → (⟨S32x2048x256, .f32⟩ : BufTy).Contents (Elt F)),
    StableHlo.unary main_v43 main_v44 (Host.tanh : (⟨S32x2048x256, .f32⟩ : BufTy).Contents (Elt F) → (⟨S32x2048x256, .f32⟩ : BufTy).Contents (Elt F)),
    StableHlo.binary main_v23 main_v44 main_v45 (mulf : (⟨S32x2048x256, .f32⟩ : BufTy).Contents (Elt F) → (⟨S32x2048x256, .f32⟩ : BufTy).Contents (Elt F) → (⟨S32x2048x256, .f32⟩ : BufTy).Contents (Elt F)),
    StableHlo.nullary main_c_76 (constantI S_ 32 2047#32),
    StableHlo.unary main_c_76 main_v46 (broadcastInDim S1 ![] bcast_S_S1 : (⟨S_, .i32⟩ : BufTy).Contents (Elt F) → (⟨S1, .i32⟩ : BufTy).Contents (Elt F)),
    StableHlo.ternary main_v5 main_v46 main_v43 main_v47 ((fun x i u => Host.scatter scatter_S32x4095x256_S1_S32x2048x256_012_n_1_0 (fun _ b => b) x i u) : (⟨S32x4095x256, .f32⟩ : BufTy).Contents (Elt F) → (⟨S1, .i32⟩ : BufTy).Contents (Elt F) → (⟨S32x2048x256, .f32⟩ : BufTy).Contents (Elt F) → (⟨S32x4095x256, .f32⟩ : BufTy).Contents (Elt F)),
    StableHlo.nullary main_c_77 (constantI S_ 32 2047#32),
    StableHlo.unary main_c_77 main_v48 (broadcastInDim S1 ![] bcast_S_S1 : (⟨S_, .i32⟩ : BufTy).Contents (Elt F) → (⟨S1, .i32⟩ : BufTy).Contents (Elt F)),
    StableHlo.ternary main_v4 main_v48 main_v45 main_v49 ((fun x i u => Host.scatter scatter_S32x4095x256_S1_S32x2048x256_012_n_1_0 (fun _ b => b) x i u) : (⟨S32x4095x256, .f32⟩ : BufTy).Contents (Elt F) → (⟨S1, .i32⟩ : BufTy).Contents (Elt F) → (⟨S32x2048x256, .f32⟩ : BufTy).Contents (Elt F) → (⟨S32x4095x256, .f32⟩ : BufTy).Contents (Elt F)) ]

set_option maxRecDepth 8192 in
theorem c4_sub : (c4 : List (HloOp τ sig (Elt F))).Forall fun op => op.bufs ⊆ tcRefs τ sig :=
  ⟨binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c4_W : List (Ref sig .tc) := [main_v42, main_v43, main_v44, main_v45, main_c_76, main_v46, main_v47, main_c_77, main_v48, main_v49]

set_option maxRecDepth 8192 in
theorem c4_writes : (c4 : List (HloOp τ sig (Elt F))).Forall fun op =>
    op.writes ⊆ (c4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c4_fresh : ∀ op ∈ (c4 : List (HloOp τ sig (Elt F))), op.fresh = ∅ := by
  intro _ h; (repeat (cases h with | head => rfl | tail _ h => ?_)); exact nomatch h

/-- The statements 131 … 180 of the program, as operations. -/
abbrev c5 : List (HloOp τ sig (Elt F)) :=
  [
    StableHlo.nullary main_c_78 (constantI S_ 32 4095#32),
    StableHlo.unary main_c_78 main_v50 (broadcastInDim S1024 ![] bcast_S_S1024 : (⟨S_, .i32⟩ : BufTy).Contents (Elt F) → (⟨S1024, .i32⟩ : BufTy).Contents (Elt F)),
    StableHlo.binary main_c main_v50 main_v51 (addi : (⟨S1024, .i32⟩ : BufTy).Contents (Elt F) → (⟨S1024, .i32⟩ : BufTy).Contents (Elt F) → (⟨S1024, .i32⟩ : BufTy).Contents (Elt F)),
    StableHlo.ternary main_c_0 main_v51 main_c main_v52 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v52 main_v53 (broadcastInDim S1024x1 ![0] bcast_S1024_S1024x1_0 : (⟨S1024, .i32⟩ : BufTy).Contents (Elt F) → (⟨S1024x1, .i32⟩ : BufTy).Contents (Elt F)),
    StableHlo.binary main_v49 main_v53 main_v54 ((fun x i => Host.gather gather_S32x4095x256_S1024x1_S32x1024x256_02_1_n_n_1_1_321256 x i) : (⟨S32x4095x256, .f32⟩ : BufTy).Contents (Elt F) → (⟨S1024x1, .i32⟩ : BufTy).Contents (Elt F) → (⟨S32x1024x256, .f32⟩ : BufTy).Contents (Elt F)),
    StableHlo.nullary main_c_79 (constantI S_ 32 4095#32),
    StableHlo.unary main_c_79 main_v55 (broadcastInDim S1024 ![] bcast_S_S1024 : (⟨S_, .i32⟩ : BufTy).Contents (Elt F) → (⟨S1024, .i32⟩ : BufTy).Contents (Elt F)),
    StableHlo.binary main_c_1 main_v55 main_v56 (addi : (⟨S1024, .i32⟩ : BufTy).Contents (Elt F) → (⟨S1024, .i32⟩ : BufTy).Contents (Elt F) → (⟨S1024, .i32⟩ : BufTy).Contents (Elt F)),
    StableHlo.ternary main_c_2 main_v56 main_c_1 main_v57 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v57 main_v58 (broadcastInDim S1024x1 ![0] bcast_S1024_S1024x1_0 : (⟨S1024, .i32⟩ : BufTy).Contents (Elt F) → (⟨S1024x1, .i32⟩ : BufTy).Contents (Elt F)),
    StableHlo.binary main_v49 main_v58 main_v59 ((fun x i => Host.gather gather_S32x4095x256_S1024x1_S32x1024x256_02_1_n_n_1_1_321256 x i) : (⟨S32x4095x256, .f32⟩ : BufTy).Contents (Elt F) → (⟨S1024x1, .i32⟩ : BufTy).Contents (Elt F) → (⟨S32x1024x256, .f32⟩ : BufTy).Contents (Elt F)),
    StableHlo.nullary main_c_80 (constantI S_ 32 4095#32),
    StableHlo.unary main_c_80 main_v60 (broadcastInDim S1024 ![] bcast_S_S1024 : (⟨S_, .i32⟩ : BufTy).Contents (Elt F) → (⟨S1024, .i32⟩ : BufTy).Contents (Elt F)),
    StableHlo.binary main_c main_v60 main_v61 (addi : (⟨S1024, .i32⟩ : BufTy).Contents (Elt F) → (⟨S1024, .i32⟩ : BufTy).Contents (Elt F) → (⟨S1024, .i32⟩ : BufTy).Contents (Elt F)),
    StableHlo.ternary main_c_3 main_v61 main_c main_v62 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v62 main_v63 (broadcastInDim S1024x1 ![0] bcast_S1024_S1024x1_0 : (⟨S1024, .i32⟩ : BufTy).Contents (Elt F) → (⟨S1024x1, .i32⟩ : BufTy).Contents (Elt F)),
    StableHlo.binary main_v47 main_v63 main_v64 ((fun x i => Host.gather gather_S32x4095x256_S1024x1_S32x1024x256_02_1_n_n_1_1_321256 x i) : (⟨S32x4095x256, .f32⟩ : BufTy).Contents (Elt F) → (⟨S1024x1, .i32⟩ : BufTy).Contents (Elt F) → (⟨S32x1024x256, .f32⟩ : BufTy).Contents (Elt F)),
    StableHlo.nullary main_c_81 (constantI S_ 32 4095#32),
    StableHlo.unary main_c_81 main_v65 (broadcastInDim S1024 ![] bcast_S_S1024 : (⟨S_, .i32⟩ : BufTy).Contents (Elt F) → (⟨S1024, .i32⟩ : BufTy).Contents (Elt F)),
    StableHlo.binary main_c_1 main_v65 main_v66 (addi : (⟨S1024, .i32⟩ : BufTy).Contents (Elt F) → (⟨S1024, .i32⟩ : BufTy).Contents (Elt F) → (⟨S1024, .i32⟩ : BufTy).Contents (Elt F)),
    StableHlo.ternary main_c_4 main_v66 main_c_1 main_v67 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v67 main_v68 (broadcastInDim S1024x1 ![0] bcast_S1024_S1024x1_0 : (⟨S1024, .i32⟩ : BufTy).Contents (Elt F) → (⟨S1024x1, .i32⟩ : BufTy).Contents (Elt F)),
    StableHlo.binary main_v47 main_v68 main_v69 ((fun x i => Host.gather gather_S32x4095x256_S1024x1_S32x1024x256_02_1_n_n_1_1_321256 x i) : (⟨S32x4095x256, .f32⟩ : BufTy).Contents (Elt F) → (⟨S1024x1, .i32⟩ : BufTy).Contents (Elt F) → (⟨S32x1024x256, .f32⟩ : BufTy).Contents (Elt F)),
    StableHlo.unary main_v3 main_v70 ((extractStridedSlice S32x1024x1280 ![0, 1023, 0] · slices_S32x4095x1280_S32x1024x1280_0_1023_0) : (⟨S32x4095x1280, .f32⟩ : BufTy).Contents (Elt F) → (⟨S32x1024x1280, .f32⟩ : BufTy).Contents (Elt F)),
    StableHlo.binary main_v54 main_arg2 main_v71 ((fun l r => Host.dotGeneral dot_S32x1024x256_S1280x256_S32x1024x1280_2_1_01_0_n_n none l r) : (⟨S32x1024x256, .f32⟩ : BufTy).Contents (Elt F) → (⟨S1280x256, .f32⟩ : BufTy).Contents (Elt F) → (⟨S32x1024x1280, .f32⟩ : BufTy).Contents (Elt F)),
    StableHlo.binary main_v70 main_v71 main_v72 (addf : (⟨S32x1024x1280, .f32⟩ : BufTy).Contents (Elt F) → (⟨S32x1024x1280, .f32⟩ : BufTy).Contents (Elt F) → (⟨S32x1024x1280, .f32⟩ : BufTy).Contents (Elt F)),
    StableHlo.unary main_arg5 main_v73 (broadcastInDim S1x1x1280 ![2] bcast_S1280_S1x1x1280_2 : (⟨S1280, .f32⟩ : BufTy).Contents (Elt F) → (⟨S1x1x1280, .f32⟩ : BufTy).Contents (Elt F)),
    StableHlo.unary main_v73 main_v74 (broadcastInDim S32x1024x1280 ![0, 1, 2] bcast_S1x1x1280_S32x1024x1280_0_1_2 : (⟨S1x1x1280, .f32⟩ : BufTy).Contents (Elt F) → (⟨S32x1024x1280, .f32⟩ : BufTy).Contents (Elt F)),
    StableHlo.binary main_v72 main_v74 main_v75 (addf : (⟨S32x1024x1280, .f32⟩ : BufTy).Contents (Elt F) → (⟨S32x1024x1280, .f32⟩ : BufTy).Contents (Elt F) → (⟨S32x1024x1280, .f32⟩ : BufTy).Contents (Elt F)),
    StableHlo.binary main_v59 main_arg3 main_v76 ((fun l r => Host.dotGeneral dot_S32x1024x256_S1280x256_S32x1024x1280_2_1_01_0_n_n none l r) : (⟨S32x1024x256, .f32⟩ : BufTy).Contents (Elt F) → (⟨S1280x256, .f32⟩ : BufTy).Contents (Elt F) → (⟨S32x1024x1280, .f32⟩ : BufTy).Contents (Elt F)),
    StableHlo.binary main_v75 main_v76 main_v77 (addf : (⟨S32x1024x1280, .f32⟩ : BufTy).Contents (Elt F) → (⟨S32x1024x1280, .f32⟩ : BufTy).Contents (Elt F) → (⟨S32x1024x1280, .f32⟩ : BufTy).Contents (Elt F)),
    StableHlo.unary main_arg6 main_v78 (broadcastInDim S1x1x1280 ![2] bcast_S1280_S1x1x1280_2 : (⟨S1280, .f32⟩ : BufTy).Contents (Elt F) → (⟨S1x1x1280, .f32⟩ : BufTy).Contents (Elt F)),
    StableHlo.unary main_v78 main_v79 (broadcastInDim S32x1024x1280 ![0, 1, 2] bcast_S1x1x1280_S32x1024x1280_0_1_2 : (⟨S1x1x1280, .f32⟩ : BufTy).Contents (Elt F) → (⟨S32x1024x1280, .f32⟩ : BufTy).Contents (Elt F)),
    StableHlo.binary main_v77 main_v79 main_v80 (addf : (⟨S32x1024x1280, .f32⟩ : BufTy).Contents (Elt F) → (⟨S32x1024x1280, .f32⟩ : BufTy).Contents (Elt F) → (⟨S32x1024x1280, .f32⟩ : BufTy).Contents (Elt F)),
    StableHlo.unary main_v80 main_v81 ((extractStridedSlice S32x1024x256 ![0, 0, 0] · slices_S32x1024x1280_S32x1024x256_0_0_0) : (⟨S32x1024x1280, .f32⟩ : BufTy).Contents (Elt F) → (⟨S32x1024x256, .f32⟩ : BufTy).Contents (Elt F)),
    StableHlo.unary main_v80 main_v82 ((extractStridedSlice S32x1024x256 ![0, 0, 256] · slices_S32x1024x1280_S32x1024x256_0_0_256) : (⟨S32x1024x1280, .f32⟩ : BufTy).Contents (Elt F) → (⟨S32x1024x256, .f32⟩ : BufTy).Contents (Elt F)),
    StableHlo.unary main_v80 main_v83 ((extractStridedSlice S32x1024x256 ![0, 0, 512] · slices_S32x1024x1280_S32x1024x256_0_0_512) : (⟨S32x1024x1280, .f32⟩ : BufTy).Contents (Elt F) → (⟨S32x1024x256, .f32⟩ : BufTy).Contents (Elt F)),
    StableHlo.unary main_v80 main_v84 ((extractStridedSlice S32x1024x256 ![0, 0, 768] · slices_S32x1024x1280_S32x1024x256_0_0_768) : (⟨S32x1024x1280, .f32⟩ : BufTy).Contents (Elt F) → (⟨S32x1024x256, .f32⟩ : BufTy).Contents (Elt F)),
    StableHlo.unary main_v80 main_v85 ((extractStridedSlice S32x1024x256 ![0, 0, 1024] · slices_S32x1024x1280_S32x1024x256_0_0_1024) : (⟨S32x1024x1280, .f32⟩ : BufTy).Contents (Elt F) → (⟨S32x1024x256, .f32⟩ : BufTy).Contents (Elt F)),
    StableHlo.unary main_v81 main_v86 (Host.negf : (⟨S32x1024x256, .f32⟩ : BufTy).Contents (Elt F) → (⟨S32x1024x256, .f32⟩ : BufTy).Contents (Elt F)),
    StableHlo.unary main_v86 main_v87 (Host.exp : (⟨S32x1024x256, .f32⟩ : BufTy).Contents (Elt F) → (⟨S32x1024x256, .f32⟩ : BufTy).Contents (Elt F)),
    StableHlo.nullary main_cst_82 (constant S_ .f32 0x3F800000#32),
    StableHlo.unary main_cst_82 main_v88 (broadcastInDim S32x1024x256 ![] bcast_S_S32x1024x256 : (⟨S_, .f32⟩ : BufTy).Contents (Elt F) → (⟨S32x1024x256, .f32⟩ : BufTy).Contents (Elt F)),
    StableHlo.binary main_v88 main_v87 main_v89 (addf : (⟨S32x1024x256, .f32⟩ : BufTy).Contents (Elt F) → (⟨S32x1024x256, .f32⟩ : BufTy).Contents (Elt F) → (⟨S32x1024x256, .f32⟩ : BufTy).Contents (Elt F)),
    StableHlo.nullary main_cst_83 (constant S_ .f32 0x3F800000#32),
    StableHlo.unary main_cst_83 main_v90 (broadcastInDim S32x1024x256 ![] bcast_S_S32x1024x256 : (⟨S_, .f32⟩ : BufTy).Contents (Elt F) → (⟨S32x1024x256, .f32⟩ : BufTy).Contents (Elt F)),
    StableHlo.binary main_v90 main_v89 main_v91 (Host.divf : (⟨S32x1024x256, .f32⟩ : BufTy).Contents (Elt F) → (⟨S32x1024x256, .f32⟩ : BufTy).Contents (Elt F) → (⟨S32x1024x256, .f32⟩ : BufTy).Contents (Elt F)),
    StableHlo.unary main_v82 main_v92 (Host.negf : (⟨S32x1024x256, .f32⟩ : BufTy).Contents (Elt F) → (⟨S32x1024x256, .f32⟩ : BufTy).Contents (Elt F)),
    StableHlo.unary main_v92 main_v93 (Host.exp : (⟨S32x1024x256, .f32⟩ : BufTy).Contents (Elt F) → (⟨S32x1024x256, .f32⟩ : BufTy).Contents (Elt F)) ]

set_option maxRecDepth 8192 in
theorem c5_sub : (c5 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..⟩

/-- The buffers these operations write. -/
abbrev c5_W : List (Ref sig .tc) := [main_c_78, main_v50, main_v51, main_v52, main_v53, main_v54, main_c_79, main_v55, main_v56, main_v57, main_v58, main_v59, main_c_80, main_v60, main_v61, main_v62, main_v63, main_v64, main_c_81, main_v65, main_v66, main_v67, main_v68, main_v69, main_v70, main_v71, main_v72, main_v73, main_v74, main_v75, main_v76, main_v77, main_v78, main_v79, main_v80, main_v81, main_v82, main_v83, main_v84, main_v85, main_v86, main_v87, main_cst_82, main_v88, main_v89, main_cst_83, main_v90, main_v91, main_v92, main_v93]

set_option maxRecDepth 8192 in
theorem c5_writes : (c5 : List (HloOp τ sig (Elt F))).Forall fun op =>
    op.writes ⊆ (c5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c5_fresh : ∀ op ∈ (c5 : List (HloOp τ sig (Elt F))), op.fresh = ∅ := by
  intro _ h; (repeat (cases h with | head => rfl | tail _ h => ?_)); exact nomatch h

/-- The operations of the printed window main_part2. -/
abbrev ops2 : List (HloOp τ sig (Elt F)) := c4 ++ c5

set_option maxRecDepth 100000 in
set_option maxHeartbeats 4000000 in
theorem main_part2_eq (c : Dev nD) : main_part2 (F := F) c = seq ops2 := rfl

theorem ops2_sub : (ops2 : List (HloOp τ sig (Elt F))).Forall fun op => op.bufs ⊆ tcRefs τ sig :=
  List.forall_iff_forall_mem.mpr fun op h => by
    simp only [ops2, List.mem_append] at h
    rcases h with h | h
    exacts [List.forall_iff_forall_mem.mp c4_sub op h, List.forall_iff_forall_mem.mp c5_sub op h]

theorem ops2_fresh : ∀ op ∈ (ops2 : List (HloOp τ sig (Elt F))), op.fresh = ∅ := by
  intro op h
  simp only [ops2, List.mem_append] at h
  rcases h with h | h
  exacts [c4_fresh op h, c5_fresh op h]

end Cert.ReferenceIdeal.RefValue

end
-- ==== Proof.RefOps3.lean ====
/-
  The statements 181 … 240 of the reference program's @main as a list of operations (the printed window
  main_part3 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 181 … 216 of the program, as operations. -/
abbrev c6 : List (HloOp τ sig (Elt F)) :=
  [
    StableHlo.nullary main_cst_84 (constant S_ .f32 0x3F800000#32),
    StableHlo.unary main_cst_84 main_v94 (broadcastInDim S32x1024x256 ![] bcast_S_S32x1024x256 : (⟨S_, .f32⟩ : BufTy).Contents (Elt F) → (⟨S32x1024x256, .f32⟩ : BufTy).Contents (Elt F)),
    StableHlo.binary main_v94 main_v93 main_v95 (addf : (⟨S32x1024x256, .f32⟩ : BufTy).Contents (Elt F) → (⟨S32x1024x256, .f32⟩ : BufTy).Contents (Elt F) → (⟨S32x1024x256, .f32⟩ : BufTy).Contents (Elt F)),
    StableHlo.nullary main_cst_85 (constant S_ .f32 0x3F800000#32),
    StableHlo.unary main_cst_85 main_v96 (broadcastInDim S32x1024x256 ![] bcast_S_S32x1024x256 : (⟨S_, .f32⟩ : BufTy).Contents (Elt F) → (⟨S32x1024x256, .f32⟩ : BufTy).Contents (Elt F)),
    StableHlo.binary main_v96 main_v95 main_v97 (Host.divf : (⟨S32x1024x256, .f32⟩ : BufTy).Contents (Elt F) → (⟨S32x1024x256, .f32⟩ : BufTy).Contents (Elt F) → (⟨S32x1024x256, .f32⟩ : BufTy).Contents (Elt F)),
    StableHlo.unary main_v83 main_v98 (Host.negf : (⟨S32x1024x256, .f32⟩ : BufTy).Contents (Elt F) → (⟨S32x1024x256, .f32⟩ : BufTy).Contents (Elt F)),
    StableHlo.unary main_v98 main_v99 (Host.exp : (⟨S32x1024x256, .f32⟩ : BufTy).Contents (Elt F) → (⟨S32x1024x256, .f32⟩ : BufTy).Contents (Elt F)),
    StableHlo.nullary main_cst_86 (constant S_ .f32 0x3F800000#32),
    StableHlo.unary main_cst_86 main_v100 (broadcastInDim S32x1024x256 ![] bcast_S_S32x1024x256 : (⟨S_, .f32⟩ : BufTy).Contents (Elt F) → (⟨S32x1024x256, .f32⟩ : BufTy).Contents (Elt F)),
    StableHlo.binary main_v100 main_v99 main_v101 (addf : (⟨S32x1024x256, .f32⟩ : BufTy).Contents (Elt F) → (⟨S32x1024x256, .f32⟩ : BufTy).Contents (Elt F) → (⟨S32x1024x256, .f32⟩ : BufTy).Contents (Elt F)),
    StableHlo.nullary main_cst_87 (constant S_ .f32 0x3F800000#32),
    StableHlo.unary main_cst_87 main_v102 (broadcastInDim S32x1024x256 ![] bcast_S_S32x1024x256 : (⟨S_, .f32⟩ : BufTy).Contents (Elt F) → (⟨S32x1024x256, .f32⟩ : BufTy).Contents (Elt F)),
    StableHlo.binary main_v102 main_v101 main_v103 (Host.divf : (⟨S32x1024x256, .f32⟩ : BufTy).Contents (Elt F) → (⟨S32x1024x256, .f32⟩ : BufTy).Contents (Elt F) → (⟨S32x1024x256, .f32⟩ : BufTy).Contents (Elt F)),
    StableHlo.unary main_v84 main_v104 (Host.negf : (⟨S32x1024x256, .f32⟩ : BufTy).Contents (Elt F) → (⟨S32x1024x256, .f32⟩ : BufTy).Contents (Elt F)),
    StableHlo.unary main_v104 main_v105 (Host.exp : (⟨S32x1024x256, .f32⟩ : BufTy).Contents (Elt F) → (⟨S32x1024x256, .f32⟩ : BufTy).Contents (Elt F)),
    StableHlo.nullary main_cst_88 (constant S_ .f32 0x3F800000#32),
    StableHlo.unary main_cst_88 main_v106 (broadcastInDim S32x1024x256 ![] bcast_S_S32x1024x256 : (⟨S_, .f32⟩ : BufTy).Contents (Elt F) → (⟨S32x1024x256, .f32⟩ : BufTy).Contents (Elt F)),
    StableHlo.binary main_v106 main_v105 main_v107 (addf : (⟨S32x1024x256, .f32⟩ : BufTy).Contents (Elt F) → (⟨S32x1024x256, .f32⟩ : BufTy).Contents (Elt F) → (⟨S32x1024x256, .f32⟩ : BufTy).Contents (Elt F)),
    StableHlo.nullary main_cst_89 (constant S_ .f32 0x3F800000#32),
    StableHlo.unary main_cst_89 main_v108 (broadcastInDim S32x1024x256 ![] bcast_S_S32x1024x256 : (⟨S_, .f32⟩ : BufTy).Contents (Elt F) → (⟨S32x1024x256, .f32⟩ : BufTy).Contents (Elt F)),
    StableHlo.binary main_v108 main_v107 main_v109 (Host.divf : (⟨S32x1024x256, .f32⟩ : BufTy).Contents (Elt F) → (⟨S32x1024x256, .f32⟩ : BufTy).Contents (Elt F) → (⟨S32x1024x256, .f32⟩ : BufTy).Contents (Elt F)),
    StableHlo.unary main_v85 main_v110 (Host.tanh : (⟨S32x1024x256, .f32⟩ : BufTy).Contents (Elt F) → (⟨S32x1024x256, .f32⟩ : BufTy).Contents (Elt F)),
    StableHlo.binary main_v91 main_v110 main_v111 (mulf : (⟨S32x1024x256, .f32⟩ : BufTy).Contents (Elt F) → (⟨S32x1024x256, .f32⟩ : BufTy).Contents (Elt F) → (⟨S32x1024x256, .f32⟩ : BufTy).Contents (Elt F)),
    StableHlo.binary main_v103 main_v64 main_v112 (mulf : (⟨S32x1024x256, .f32⟩ : BufTy).Contents (Elt F) → (⟨S32x1024x256, .f32⟩ : BufTy).Contents (Elt F) → (⟨S32x1024x256, .f32⟩ : BufTy).Contents (Elt F)),
    StableHlo.binary main_v111 main_v112 main_v113 (addf : (⟨S32x1024x256, .f32⟩ : BufTy).Contents (Elt F) → (⟨S32x1024x256, .f32⟩ : BufTy).Contents (Elt F) → (⟨S32x1024x256, .f32⟩ : BufTy).Contents (Elt F)),
    StableHlo.binary main_v109 main_v69 main_v114 (mulf : (⟨S32x1024x256, .f32⟩ : BufTy).Contents (Elt F) → (⟨S32x1024x256, .f32⟩ : BufTy).Contents (Elt F) → (⟨S32x1024x256, .f32⟩ : BufTy).Contents (Elt F)),
    StableHlo.binary main_v113 main_v114 main_v115 (addf : (⟨S32x1024x256, .f32⟩ : BufTy).Contents (Elt F) → (⟨S32x1024x256, .f32⟩ : BufTy).Contents (Elt F) → (⟨S32x1024x256, .f32⟩ : BufTy).Contents (Elt F)),
    StableHlo.unary main_v115 main_v116 (Host.tanh : (⟨S32x1024x256, .f32⟩ : BufTy).Contents (Elt F) → (⟨S32x1024x256, .f32⟩ : BufTy).Contents (Elt F)),
    StableHlo.binary main_v97 main_v116 main_v117 (mulf : (⟨S32x1024x256, .f32⟩ : BufTy).Contents (Elt F) → (⟨S32x1024x256, .f32⟩ : BufTy).Contents (Elt F) → (⟨S32x1024x256, .f32⟩ : BufTy).Contents (Elt F)),
    StableHlo.nullary main_c_90 (constantI S_ 32 1023#32),
    StableHlo.unary main_c_90 main_v118 (broadcastInDim S1 ![] bcast_S_S1 : (⟨S_, .i32⟩ : BufTy).Contents (Elt F) → (⟨S1, .i32⟩ : BufTy).Contents (Elt F)),
    StableHlo.ternary main_v47 main_v118 main_v115 main_v119 ((fun x i u => Host.scatter scatter_S32x4095x256_S1_S32x1024x256_012_n_1_0 (fun _ b => b) x i u) : (⟨S32x4095x256, .f32⟩ : BufTy).Contents (Elt F) → (⟨S1, .i32⟩ : BufTy).Contents (Elt F) → (⟨S32x1024x256, .f32⟩ : BufTy).Contents (Elt F) → (⟨S32x4095x256, .f32⟩ : BufTy).Contents (Elt F)),
    StableHlo.nullary main_c_91 (constantI S_ 32 1023#32),
    StableHlo.unary main_c_91 main_v120 (broadcastInDim S1 ![] bcast_S_S1 : (⟨S_, .i32⟩ : BufTy).Contents (Elt F) → (⟨S1, .i32⟩ : BufTy).Contents (Elt F)),
    StableHlo.ternary main_v49 main_v120 main_v117 main_v121 ((fun x i u => Host.scatter scatter_S32x4095x256_S1_S32x1024x256_012_n_1_0 (fun _ b => b) x i u) : (⟨S32x4095x256, .f32⟩ : BufTy).Contents (Elt F) → (⟨S1, .i32⟩ : BufTy).Contents (Elt F) → (⟨S32x1024x256, .f32⟩ : BufTy).Contents (Elt F) → (⟨S32x4095x256, .f32⟩ : BufTy).Contents (Elt F)) ]

set_option maxRecDepth 8192 in
theorem c6_sub : (c6 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c6_W : List (Ref sig .tc) := [main_cst_84, main_v94, main_v95, main_cst_85, main_v96, main_v97, main_v98, main_v99, main_cst_86, main_v100, main_v101, main_cst_87, main_v102, main_v103, main_v104, main_v105, main_cst_88, main_v106, main_v107, main_cst_89, main_v108, main_v109, main_v110, main_v111, main_v112, main_v113, main_v114, main_v115, main_v116, main_v117, main_c_90, main_v118, main_v119, main_c_91, main_v120, main_v121]

set_option maxRecDepth 8192 in
theorem c6_writes : (c6 : List (HloOp τ sig (Elt F))).Forall fun op =>
    op.writes ⊆ (c6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c6_fresh : ∀ op ∈ (c6 : List (HloOp τ sig (Elt F))), op.fresh = ∅ := by
  intro _ h; (repeat (cases h with | head => rfl | tail _ h => ?_)); exact nomatch h

/-- The statements 217 … 240 of the program, as operations. -/
abbrev c7 : List (HloOp τ sig (Elt F)) :=
  [
    StableHlo.nullary main_c_92 (constantI S_ 32 4095#32),
    StableHlo.unary main_c_92 main_v122 (broadcastInDim S512 ![] bcast_S_S512 : (⟨S_, .i32⟩ : BufTy).Contents (Elt F) → (⟨S512, .i32⟩ : BufTy).Contents (Elt F)),
    StableHlo.binary main_c_5 main_v122 main_v123 (addi : (⟨S512, .i32⟩ : BufTy).Contents (Elt F) → (⟨S512, .i32⟩ : BufTy).Contents (Elt F) → (⟨S512, .i32⟩ : BufTy).Contents (Elt F)),
    StableHlo.ternary main_c_6 main_v123 main_c_5 main_v124 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v124 main_v125 (broadcastInDim S512x1 ![0] bcast_S512_S512x1_0 : (⟨S512, .i32⟩ : BufTy).Contents (Elt F) → (⟨S512x1, .i32⟩ : BufTy).Contents (Elt F)),
    StableHlo.binary main_v121 main_v125 main_v126 ((fun x i => Host.gather gather_S32x4095x256_S512x1_S32x512x256_02_1_n_n_1_1_321256 x i) : (⟨S32x4095x256, .f32⟩ : BufTy).Contents (Elt F) → (⟨S512x1, .i32⟩ : BufTy).Contents (Elt F) → (⟨S32x512x256, .f32⟩ : BufTy).Contents (Elt F)),
    StableHlo.nullary main_c_93 (constantI S_ 32 4095#32),
    StableHlo.unary main_c_93 main_v127 (broadcastInDim S512 ![] bcast_S_S512 : (⟨S_, .i32⟩ : BufTy).Contents (Elt F) → (⟨S512, .i32⟩ : BufTy).Contents (Elt F)),
    StableHlo.binary main_c_7 main_v127 main_v128 (addi : (⟨S512, .i32⟩ : BufTy).Contents (Elt F) → (⟨S512, .i32⟩ : BufTy).Contents (Elt F) → (⟨S512, .i32⟩ : BufTy).Contents (Elt F)),
    StableHlo.ternary main_c_8 main_v128 main_c_7 main_v129 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v129 main_v130 (broadcastInDim S512x1 ![0] bcast_S512_S512x1_0 : (⟨S512, .i32⟩ : BufTy).Contents (Elt F) → (⟨S512x1, .i32⟩ : BufTy).Contents (Elt F)),
    StableHlo.binary main_v121 main_v130 main_v131 ((fun x i => Host.gather gather_S32x4095x256_S512x1_S32x512x256_02_1_n_n_1_1_321256 x i) : (⟨S32x4095x256, .f32⟩ : BufTy).Contents (Elt F) → (⟨S512x1, .i32⟩ : BufTy).Contents (Elt F) → (⟨S32x512x256, .f32⟩ : BufTy).Contents (Elt F)),
    StableHlo.nullary main_c_94 (constantI S_ 32 4095#32),
    StableHlo.unary main_c_94 main_v132 (broadcastInDim S512 ![] bcast_S_S512 : (⟨S_, .i32⟩ : BufTy).Contents (Elt F) → (⟨S512, .i32⟩ : BufTy).Contents (Elt F)),
    StableHlo.binary main_c_5 main_v132 main_v133 (addi : (⟨S512, .i32⟩ : BufTy).Contents (Elt F) → (⟨S512, .i32⟩ : BufTy).Contents (Elt F) → (⟨S512, .i32⟩ : BufTy).Contents (Elt F)),
    StableHlo.ternary main_c_9 main_v133 main_c_5 main_v134 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v134 main_v135 (broadcastInDim S512x1 ![0] bcast_S512_S512x1_0 : (⟨S512, .i32⟩ : BufTy).Contents (Elt F) → (⟨S512x1, .i32⟩ : BufTy).Contents (Elt F)),
    StableHlo.binary main_v119 main_v135 main_v136 ((fun x i => Host.gather gather_S32x4095x256_S512x1_S32x512x256_02_1_n_n_1_1_321256 x i) : (⟨S32x4095x256, .f32⟩ : BufTy).Contents (Elt F) → (⟨S512x1, .i32⟩ : BufTy).Contents (Elt F) → (⟨S32x512x256, .f32⟩ : BufTy).Contents (Elt F)),
    StableHlo.nullary main_c_95 (constantI S_ 32 4095#32),
    StableHlo.unary main_c_95 main_v137 (broadcastInDim S512 ![] bcast_S_S512 : (⟨S_, .i32⟩ : BufTy).Contents (Elt F) → (⟨S512, .i32⟩ : BufTy).Contents (Elt F)),
    StableHlo.binary main_c_7 main_v137 main_v138 (addi : (⟨S512, .i32⟩ : BufTy).Contents (Elt F) → (⟨S512, .i32⟩ : BufTy).Contents (Elt F) → (⟨S512, .i32⟩ : BufTy).Contents (Elt F)),
    StableHlo.ternary main_c_10 main_v138 main_c_7 main_v139 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v139 main_v140 (broadcastInDim S512x1 ![0] bcast_S512_S512x1_0 : (⟨S512, .i32⟩ : BufTy).Contents (Elt F) → (⟨S512x1, .i32⟩ : BufTy).Contents (Elt F)),
    StableHlo.binary main_v119 main_v140 main_v141 ((fun x i => Host.gather gather_S32x4095x256_S512x1_S32x512x256_02_1_n_n_1_1_321256 x i) : (⟨S32x4095x256, .f32⟩ : BufTy).Contents (Elt F) → (⟨S512x1, .i32⟩ : BufTy).Contents (Elt F) → (⟨S32x512x256, .f32⟩ : BufTy).Contents (Elt F)) ]

set_option maxRecDepth 8192 in
theorem c7_sub : (c7 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..⟩

/-- The buffers these operations write. -/
abbrev c7_W : List (Ref sig .tc) := [main_c_92, main_v122, main_v123, main_v124, main_v125, main_v126, main_c_93, main_v127, main_v128, main_v129, main_v130, main_v131, main_c_94, main_v132, main_v133, main_v134, main_v135, main_v136, main_c_95, main_v137, main_v138, main_v139, main_v140, main_v141]

set_option maxRecDepth 8192 in
theorem c7_writes : (c7 : List (HloOp τ sig (Elt F))).Forall fun op =>
    op.writes ⊆ (c7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c7_fresh : ∀ op ∈ (c7 : List (HloOp τ sig (Elt F))), op.fresh = ∅ := by
  intro _ h; (repeat (cases h with | head => rfl | tail _ h => ?_)); exact nomatch h

/-- The operations of the printed window main_part3. -/
abbrev ops3 : List (HloOp τ sig (Elt F)) := c6 ++ c7

set_option maxRecDepth 100000 in
set_option maxHeartbeats 4000000 in
theorem main_part3_eq (c : Dev nD) : main_part3 (F := F) c = seq ops3 := rfl

theorem ops3_sub : (ops3 : List (HloOp τ sig (Elt F))).Forall fun op => op.bufs ⊆ tcRefs τ sig :=
  List.forall_iff_forall_mem.mpr fun op h => by
    simp only [ops3, List.mem_append] at h
    rcases h with h | h
    exacts [List.forall_iff_forall_mem.mp c6_sub op h, List.forall_iff_forall_mem.mp c7_sub op h]

theorem ops3_fresh : ∀ op ∈ (ops3 : List (HloOp τ sig (Elt F))), op.fresh = ∅ := by
  intro op h
  simp only [ops3, List.mem_append] at h
  rcases h with h | h
  exacts [c6_fresh op h, c7_fresh op h]

end Cert.ReferenceIdeal.RefValue

end
-- ==== Proof.RefOps4.lean ====
/-
  The statements 241 … 300 of the reference program's @main as a list of operations (the printed window
  main_part4 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 241 … 300 of the program, as operations. -/
abbrev c8 : List (HloOp τ sig (Elt F)) :=
  [
    StableHlo.unary main_v3 main_v142 ((extractStridedSlice S32x512x1280 ![0, 511, 0] · slices_S32x4095x1280_S32x512x1280_0_511_0) : (⟨S32x4095x1280, .f32⟩ : BufTy).Contents (Elt F) → (⟨S32x512x1280, .f32⟩ : BufTy).Contents (Elt F)),
    StableHlo.binary main_v126 main_arg2 main_v143 ((fun l r => Host.dotGeneral dot_S32x512x256_S1280x256_S32x512x1280_2_1_01_0_n_n none l r) : (⟨S32x512x256, .f32⟩ : BufTy).Contents (Elt F) → (⟨S1280x256, .f32⟩ : BufTy).Contents (Elt F) → (⟨S32x512x1280, .f32⟩ : BufTy).Contents (Elt F)),
    StableHlo.binary main_v142 main_v143 main_v144 (addf : (⟨S32x512x1280, .f32⟩ : BufTy).Contents (Elt F) → (⟨S32x512x1280, .f32⟩ : BufTy).Contents (Elt F) → (⟨S32x512x1280, .f32⟩ : BufTy).Contents (Elt F)),
    StableHlo.unary main_arg5 main_v145 (broadcastInDim S1x1x1280 ![2] bcast_S1280_S1x1x1280_2 : (⟨S1280, .f32⟩ : BufTy).Contents (Elt F) → (⟨S1x1x1280, .f32⟩ : BufTy).Contents (Elt F)),
    StableHlo.unary main_v145 main_v146 (broadcastInDim S32x512x1280 ![0, 1, 2] bcast_S1x1x1280_S32x512x1280_0_1_2 : (⟨S1x1x1280, .f32⟩ : BufTy).Contents (Elt F) → (⟨S32x512x1280, .f32⟩ : BufTy).Contents (Elt F)),
    StableHlo.binary main_v144 main_v146 main_v147 (addf : (⟨S32x512x1280, .f32⟩ : BufTy).Contents (Elt F) → (⟨S32x512x1280, .f32⟩ : BufTy).Contents (Elt F) → (⟨S32x512x1280, .f32⟩ : BufTy).Contents (Elt F)),
    StableHlo.binary main_v131 main_arg3 main_v148 ((fun l r => Host.dotGeneral dot_S32x512x256_S1280x256_S32x512x1280_2_1_01_0_n_n none l r) : (⟨S32x512x256, .f32⟩ : BufTy).Contents (Elt F) → (⟨S1280x256, .f32⟩ : BufTy).Contents (Elt F) → (⟨S32x512x1280, .f32⟩ : BufTy).Contents (Elt F)),
    StableHlo.binary main_v147 main_v148 main_v149 (addf : (⟨S32x512x1280, .f32⟩ : BufTy).Contents (Elt F) → (⟨S32x512x1280, .f32⟩ : BufTy).Contents (Elt F) → (⟨S32x512x1280, .f32⟩ : BufTy).Contents (Elt F)),
    StableHlo.unary main_arg6 main_v150 (broadcastInDim S1x1x1280 ![2] bcast_S1280_S1x1x1280_2 : (⟨S1280, .f32⟩ : BufTy).Contents (Elt F) → (⟨S1x1x1280, .f32⟩ : BufTy).Contents (Elt F)),
    StableHlo.unary main_v150 main_v151 (broadcastInDim S32x512x1280 ![0, 1, 2] bcast_S1x1x1280_S32x512x1280_0_1_2 : (⟨S1x1x1280, .f32⟩ : BufTy).Contents (Elt F) → (⟨S32x512x1280, .f32⟩ : BufTy).Contents (Elt F)),
    StableHlo.binary main_v149 main_v151 main_v152 (addf : (⟨S32x512x1280, .f32⟩ : BufTy).Contents (Elt F) → (⟨S32x512x1280, .f32⟩ : BufTy).Contents (Elt F) → (⟨S32x512x1280, .f32⟩ : BufTy).Contents (Elt F)),
    StableHlo.unary main_v152 main_v153 ((extractStridedSlice S32x512x256 ![0, 0, 0] · slices_S32x512x1280_S32x512x256_0_0_0) : (⟨S32x512x1280, .f32⟩ : BufTy).Contents (Elt F) → (⟨S32x512x256, .f32⟩ : BufTy).Contents (Elt F)),
    StableHlo.unary main_v152 main_v154 ((extractStridedSlice S32x512x256 ![0, 0, 256] · slices_S32x512x1280_S32x512x256_0_0_256) : (⟨S32x512x1280, .f32⟩ : BufTy).Contents (Elt F) → (⟨S32x512x256, .f32⟩ : BufTy).Contents (Elt F)),
    StableHlo.unary main_v152 main_v155 ((extractStridedSlice S32x512x256 ![0, 0, 512] · slices_S32x512x1280_S32x512x256_0_0_512) : (⟨S32x512x1280, .f32⟩ : BufTy).Contents (Elt F) → (⟨S32x512x256, .f32⟩ : BufTy).Contents (Elt F)),
    StableHlo.unary main_v152 main_v156 ((extractStridedSlice S32x512x256 ![0, 0, 768] · slices_S32x512x1280_S32x512x256_0_0_768) : (⟨S32x512x1280, .f32⟩ : BufTy).Contents (Elt F) → (⟨S32x512x256, .f32⟩ : BufTy).Contents (Elt F)),
    StableHlo.unary main_v152 main_v157 ((extractStridedSlice S32x512x256 ![0, 0, 1024] · slices_S32x512x1280_S32x512x256_0_0_1024) : (⟨S32x512x1280, .f32⟩ : BufTy).Contents (Elt F) → (⟨S32x512x256, .f32⟩ : BufTy).Contents (Elt F)),
    StableHlo.unary main_v153 main_v158 (Host.negf : (⟨S32x512x256, .f32⟩ : BufTy).Contents (Elt F) → (⟨S32x512x256, .f32⟩ : BufTy).Contents (Elt F)),
    StableHlo.unary main_v158 main_v159 (Host.exp : (⟨S32x512x256, .f32⟩ : BufTy).Contents (Elt F) → (⟨S32x512x256, .f32⟩ : BufTy).Contents (Elt F)),
    StableHlo.nullary main_cst_96 (constant S_ .f32 0x3F800000#32),
    StableHlo.unary main_cst_96 main_v160 (broadcastInDim S32x512x256 ![] bcast_S_S32x512x256 : (⟨S_, .f32⟩ : BufTy).Contents (Elt F) → (⟨S32x512x256, .f32⟩ : BufTy).Contents (Elt F)),
    StableHlo.binary main_v160 main_v159 main_v161 (addf : (⟨S32x512x256, .f32⟩ : BufTy).Contents (Elt F) → (⟨S32x512x256, .f32⟩ : BufTy).Contents (Elt F) → (⟨S32x512x256, .f32⟩ : BufTy).Contents (Elt F)),
    StableHlo.nullary main_cst_97 (constant S_ .f32 0x3F800000#32),
    StableHlo.unary main_cst_97 main_v162 (broadcastInDim S32x512x256 ![] bcast_S_S32x512x256 : (⟨S_, .f32⟩ : BufTy).Contents (Elt F) → (⟨S32x512x256, .f32⟩ : BufTy).Contents (Elt F)),
    StableHlo.binary main_v162 main_v161 main_v163 (Host.divf : (⟨S32x512x256, .f32⟩ : BufTy).Contents (Elt F) → (⟨S32x512x256, .f32⟩ : BufTy).Contents (Elt F) → (⟨S32x512x256, .f32⟩ : BufTy).Contents (Elt F)),
    StableHlo.unary main_v154 main_v164 (Host.negf : (⟨S32x512x256, .f32⟩ : BufTy).Contents (Elt F) → (⟨S32x512x256, .f32⟩ : BufTy).Contents (Elt F)),
    StableHlo.unary main_v164 main_v165 (Host.exp : (⟨S32x512x256, .f32⟩ : BufTy).Contents (Elt F) → (⟨S32x512x256, .f32⟩ : BufTy).Contents (Elt F)),
    StableHlo.nullary main_cst_98 (constant S_ .f32 0x3F800000#32),
    StableHlo.unary main_cst_98 main_v166 (broadcastInDim S32x512x256 ![] bcast_S_S32x512x256 : (⟨S_, .f32⟩ : BufTy).Contents (Elt F) → (⟨S32x512x256, .f32⟩ : BufTy).Contents (Elt F)),
    StableHlo.binary main_v166 main_v165 main_v167 (addf : (⟨S32x512x256, .f32⟩ : BufTy).Contents (Elt F) → (⟨S32x512x256, .f32⟩ : BufTy).Contents (Elt F) → (⟨S32x512x256, .f32⟩ : BufTy).Contents (Elt F)),
    StableHlo.nullary main_cst_99 (constant S_ .f32 0x3F800000#32),
    StableHlo.unary main_cst_99 main_v168 (broadcastInDim S32x512x256 ![] bcast_S_S32x512x256 : (⟨S_, .f32⟩ : BufTy).Contents (Elt F) → (⟨S32x512x256, .f32⟩ : BufTy).Contents (Elt F)),
    StableHlo.binary main_v168 main_v167 main_v169 (Host.divf : (⟨S32x512x256, .f32⟩ : BufTy).Contents (Elt F) → (⟨S32x512x256, .f32⟩ : BufTy).Contents (Elt F) → (⟨S32x512x256, .f32⟩ : BufTy).Contents (Elt F)),
    StableHlo.unary main_v155 main_v170 (Host.negf : (⟨S32x512x256, .f32⟩ : BufTy).Contents (Elt F) → (⟨S32x512x256, .f32⟩ : BufTy).Contents (Elt F)),
    StableHlo.unary main_v170 main_v171 (Host.exp : (⟨S32x512x256, .f32⟩ : BufTy).Contents (Elt F) → (⟨S32x512x256, .f32⟩ : BufTy).Contents (Elt F)),
    StableHlo.nullary main_cst_100 (constant S_ .f32 0x3F800000#32),
    StableHlo.unary main_cst_100 main_v172 (broadcastInDim S32x512x256 ![] bcast_S_S32x512x256 : (⟨S_, .f32⟩ : BufTy).Contents (Elt F) → (⟨S32x512x256, .f32⟩ : BufTy).Contents (Elt F)),
    StableHlo.binary main_v172 main_v171 main_v173 (addf : (⟨S32x512x256, .f32⟩ : BufTy).Contents (Elt F) → (⟨S32x512x256, .f32⟩ : BufTy).Contents (Elt F) → (⟨S32x512x256, .f32⟩ : BufTy).Contents (Elt F)),
    StableHlo.nullary main_cst_101 (constant S_ .f32 0x3F800000#32),
    StableHlo.unary main_cst_101 main_v174 (broadcastInDim S32x512x256 ![] bcast_S_S32x512x256 : (⟨S_, .f32⟩ : BufTy).Contents (Elt F) → (⟨S32x512x256, .f32⟩ : BufTy).Contents (Elt F)),
    StableHlo.binary main_v174 main_v173 main_v175 (Host.divf : (⟨S32x512x256, .f32⟩ : BufTy).Contents (Elt F) → (⟨S32x512x256, .f32⟩ : BufTy).Contents (Elt F) → (⟨S32x512x256, .f32⟩ : BufTy).Contents (Elt F)),
    StableHlo.unary main_v156 main_v176 (Host.negf : (⟨S32x512x256, .f32⟩ : BufTy).Contents (Elt F) → (⟨S32x512x256, .f32⟩ : BufTy).Contents (Elt F)),
    StableHlo.unary main_v176 main_v177 (Host.exp : (⟨S32x512x256, .f32⟩ : BufTy).Contents (Elt F) → (⟨S32x512x256, .f32⟩ : BufTy).Contents (Elt F)),
    StableHlo.nullary main_cst_102 (constant S_ .f32 0x3F800000#32),
    StableHlo.unary main_cst_102 main_v178 (broadcastInDim S32x512x256 ![] bcast_S_S32x512x256 : (⟨S_, .f32⟩ : BufTy).Contents (Elt F) → (⟨S32x512x256, .f32⟩ : BufTy).Contents (Elt F)),
    StableHlo.binary main_v178 main_v177 main_v179 (addf : (⟨S32x512x256, .f32⟩ : BufTy).Contents (Elt F) → (⟨S32x512x256, .f32⟩ : BufTy).Contents (Elt F) → (⟨S32x512x256, .f32⟩ : BufTy).Contents (Elt F)),
    StableHlo.nullary main_cst_103 (constant S_ .f32 0x3F800000#32),
    StableHlo.unary main_cst_103 main_v180 (broadcastInDim S32x512x256 ![] bcast_S_S32x512x256 : (⟨S_, .f32⟩ : BufTy).Contents (Elt F) → (⟨S32x512x256, .f32⟩ : BufTy).Contents (Elt F)),
    StableHlo.binary main_v180 main_v179 main_v181 (Host.divf : (⟨S32x512x256, .f32⟩ : BufTy).Contents (Elt F) → (⟨S32x512x256, .f32⟩ : BufTy).Contents (Elt F) → (⟨S32x512x256, .f32⟩ : BufTy).Contents (Elt F)),
    StableHlo.unary main_v157 main_v182 (Host.tanh : (⟨S32x512x256, .f32⟩ : BufTy).Contents (Elt F) → (⟨S32x512x256, .f32⟩ : BufTy).Contents (Elt F)),
    StableHlo.binary main_v163 main_v182 main_v183 (mulf : (⟨S32x512x256, .f32⟩ : BufTy).Contents (Elt F) → (⟨S32x512x256, .f32⟩ : BufTy).Contents (Elt F) → (⟨S32x512x256, .f32⟩ : BufTy).Contents (Elt F)),
    StableHlo.binary main_v175 main_v136 main_v184 (mulf : (⟨S32x512x256, .f32⟩ : BufTy).Contents (Elt F) → (⟨S32x512x256, .f32⟩ : BufTy).Contents (Elt F) → (⟨S32x512x256, .f32⟩ : BufTy).Contents (Elt F)),
    StableHlo.binary main_v183 main_v184 main_v185 (addf : (⟨S32x512x256, .f32⟩ : BufTy).Contents (Elt F) → (⟨S32x512x256, .f32⟩ : BufTy).Contents (Elt F) → (⟨S32x512x256, .f32⟩ : BufTy).Contents (Elt F)),
    StableHlo.binary main_v181 main_v141 main_v186 (mulf : (⟨S32x512x256, .f32⟩ : BufTy).Contents (Elt F) → (⟨S32x512x256, .f32⟩ : BufTy).Contents (Elt F) → (⟨S32x512x256, .f32⟩ : BufTy).Contents (Elt F)),
    StableHlo.binary main_v185 main_v186 main_v187 (addf : (⟨S32x512x256, .f32⟩ : BufTy).Contents (Elt F) → (⟨S32x512x256, .f32⟩ : BufTy).Contents (Elt F) → (⟨S32x512x256, .f32⟩ : BufTy).Contents (Elt F)),
    StableHlo.unary main_v187 main_v188 (Host.tanh : (⟨S32x512x256, .f32⟩ : BufTy).Contents (Elt F) → (⟨S32x512x256, .f32⟩ : BufTy).Contents (Elt F)),
    StableHlo.binary main_v169 main_v188 main_v189 (mulf : (⟨S32x512x256, .f32⟩ : BufTy).Contents (Elt F) → (⟨S32x512x256, .f32⟩ : BufTy).Contents (Elt F) → (⟨S32x512x256, .f32⟩ : BufTy).Contents (Elt F)),
    StableHlo.nullary main_c_104 (constantI S_ 32 511#32),
    StableHlo.unary main_c_104 main_v190 (broadcastInDim S1 ![] bcast_S_S1 : (⟨S_, .i32⟩ : BufTy).Contents (Elt F) → (⟨S1, .i32⟩ : BufTy).Contents (Elt F)),
    StableHlo.ternary main_v119 main_v190 main_v187 main_v191 ((fun x i u => Host.scatter scatter_S32x4095x256_S1_S32x512x256_012_n_1_0 (fun _ b => b) x i u) : (⟨S32x4095x256, .f32⟩ : BufTy).Contents (Elt F) → (⟨S1, .i32⟩ : BufTy).Contents (Elt F) → (⟨S32x512x256, .f32⟩ : BufTy).Contents (Elt F) → (⟨S32x4095x256, .f32⟩ : BufTy).Contents (Elt F)),
    StableHlo.nullary main_c_105 (constantI S_ 32 511#32) ]

set_option maxRecDepth 8192 in
theorem c8_sub : (c8 : List (HloOp τ sig (Elt F))).Forall fun op => op.bufs ⊆ tcRefs τ sig :=
  ⟨unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..⟩

/-- The buffers these operations write. -/
abbrev c8_W : List (Ref sig .tc) := [main_v142, main_v143, main_v144, main_v145, main_v146, main_v147, main_v148, main_v149, main_v150, main_v151, main_v152, main_v153, main_v154, main_v155, main_v156, main_v157, main_v158, main_v159, main_cst_96, main_v160, main_v161, main_cst_97, main_v162, main_v163, main_v164, main_v165, main_cst_98, main_v166, main_v167, main_cst_99, main_v168, main_v169, main_v170, main_v171, main_cst_100, main_v172, main_v173, main_cst_101, main_v174, main_v175, main_v176, main_v177, main_cst_102, main_v178, main_v179, main_cst_103, main_v180, main_v181, main_v182, main_v183, main_v184, main_v185, main_v186, main_v187, main_v188, main_v189, main_c_104, main_v190, main_v191, main_c_105]

set_option maxRecDepth 8192 in
theorem c8_writes : (c8 : List (HloOp τ sig (Elt F))).Forall fun op =>
    op.writes ⊆ (c8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c8_fresh : ∀ op ∈ (c8 : List (HloOp τ sig (Elt F))), op.fresh = ∅ := by
  intro _ h; (repeat (cases h with | head => rfl | tail _ h => ?_)); exact nomatch h

/-- The operations of the printed window main_part4. -/
abbrev ops4 : List (HloOp τ sig (Elt F)) := c8

set_option maxRecDepth 100000 in
set_option maxHeartbeats 4000000 in
theorem main_part4_eq (c : Dev nD) : main_part4 (F := F) c = seq ops4 := rfl

theorem ops4_sub : (ops4 : List (HloOp τ sig (Elt F))).Forall fun op => op.bufs ⊆ tcRefs τ sig :=
  List.forall_iff_forall_mem.mpr fun op h => by
    exact List.forall_iff_forall_mem.mp c8_sub op h

theorem ops4_fresh : ∀ op ∈ (ops4 : List (HloOp τ sig (Elt F))), op.fresh = ∅ := by
  intro op h
  exact c8_fresh op h

end Cert.ReferenceIdeal.RefValue

end
-- ==== Proof.RefOps5.lean ====
/-
  The statements 301 … 360 of the reference program's @main as a list of operations (the printed window
  main_part5 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 301 … 302 of the program, as operations. -/
abbrev c9 : List (HloOp τ sig (Elt F)) :=
  [
    StableHlo.unary main_c_105 main_v192 (broadcastInDim S1 ![] bcast_S_S1 : (⟨S_, .i32⟩ : BufTy).Contents (Elt F) → (⟨S1, .i32⟩ : BufTy).Contents (Elt F)),
    StableHlo.ternary main_v121 main_v192 main_v189 main_v193 ((fun x i u => Host.scatter scatter_S32x4095x256_S1_S32x512x256_012_n_1_0 (fun _ b => b) x i u) : (⟨S32x4095x256, .f32⟩ : BufTy).Contents (Elt F) → (⟨S1, .i32⟩ : BufTy).Contents (Elt F) → (⟨S32x512x256, .f32⟩ : BufTy).Contents (Elt F) → (⟨S32x4095x256, .f32⟩ : BufTy).Contents (Elt F)) ]

set_option maxRecDepth 8192 in
theorem c9_sub : (c9 : List (HloOp τ sig (Elt F))).Forall fun op => op.bufs ⊆ tcRefs τ sig :=
  ⟨unary_bufs_sub ..,
    ternary_bufs_sub ..⟩

/-- The buffers these operations write. -/
abbrev c9_W : List (Ref sig .tc) := [main_v192, main_v193]

set_option maxRecDepth 8192 in
theorem c9_writes : (c9 : List (HloOp τ sig (Elt F))).Forall fun op =>
    op.writes ⊆ (c9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c9_fresh : ∀ op ∈ (c9 : List (HloOp τ sig (Elt F))), op.fresh = ∅ := by
  intro _ h; (repeat (cases h with | head => rfl | tail _ h => ?_)); exact nomatch h

/-- The statements 303 … 360 of the program, as operations. -/
abbrev c10 : List (HloOp τ sig (Elt F)) :=
  [
    StableHlo.nullary main_c_106 (constantI S_ 32 4095#32),
    StableHlo.unary main_c_106 main_v194 (broadcastInDim S256 ![] bcast_S_S256 : (⟨S_, .i32⟩ : BufTy).Contents (Elt F) → (⟨S256, .i32⟩ : BufTy).Contents (Elt F)),
    StableHlo.binary main_c_11 main_v194 main_v195 (addi : (⟨S256, .i32⟩ : BufTy).Contents (Elt F) → (⟨S256, .i32⟩ : BufTy).Contents (Elt F) → (⟨S256, .i32⟩ : BufTy).Contents (Elt F)),
    StableHlo.ternary main_c_12 main_v195 main_c_11 main_v196 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v196 main_v197 (broadcastInDim S256x1 ![0] bcast_S256_S256x1_0 : (⟨S256, .i32⟩ : BufTy).Contents (Elt F) → (⟨S256x1, .i32⟩ : BufTy).Contents (Elt F)),
    StableHlo.binary main_v193 main_v197 main_v198 ((fun x i => Host.gather gather_S32x4095x256_S256x1_S32x256x256_02_1_n_n_1_1_321256 x i) : (⟨S32x4095x256, .f32⟩ : BufTy).Contents (Elt F) → (⟨S256x1, .i32⟩ : BufTy).Contents (Elt F) → (⟨S32x256x256, .f32⟩ : BufTy).Contents (Elt F)),
    StableHlo.nullary main_c_107 (constantI S_ 32 4095#32),
    StableHlo.unary main_c_107 main_v199 (broadcastInDim S256 ![] bcast_S_S256 : (⟨S_, .i32⟩ : BufTy).Contents (Elt F) → (⟨S256, .i32⟩ : BufTy).Contents (Elt F)),
    StableHlo.binary main_c_13 main_v199 main_v200 (addi : (⟨S256, .i32⟩ : BufTy).Contents (Elt F) → (⟨S256, .i32⟩ : BufTy).Contents (Elt F) → (⟨S256, .i32⟩ : BufTy).Contents (Elt F)),
    StableHlo.ternary main_c_14 main_v200 main_c_13 main_v201 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v201 main_v202 (broadcastInDim S256x1 ![0] bcast_S256_S256x1_0 : (⟨S256, .i32⟩ : BufTy).Contents (Elt F) → (⟨S256x1, .i32⟩ : BufTy).Contents (Elt F)),
    StableHlo.binary main_v193 main_v202 main_v203 ((fun x i => Host.gather gather_S32x4095x256_S256x1_S32x256x256_02_1_n_n_1_1_321256 x i) : (⟨S32x4095x256, .f32⟩ : BufTy).Contents (Elt F) → (⟨S256x1, .i32⟩ : BufTy).Contents (Elt F) → (⟨S32x256x256, .f32⟩ : BufTy).Contents (Elt F)),
    StableHlo.nullary main_c_108 (constantI S_ 32 4095#32),
    StableHlo.unary main_c_108 main_v204 (broadcastInDim S256 ![] bcast_S_S256 : (⟨S_, .i32⟩ : BufTy).Contents (Elt F) → (⟨S256, .i32⟩ : BufTy).Contents (Elt F)),
    StableHlo.binary main_c_11 main_v204 main_v205 (addi : (⟨S256, .i32⟩ : BufTy).Contents (Elt F) → (⟨S256, .i32⟩ : BufTy).Contents (Elt F) → (⟨S256, .i32⟩ : BufTy).Contents (Elt F)),
    StableHlo.ternary main_c_15 main_v205 main_c_11 main_v206 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v206 main_v207 (broadcastInDim S256x1 ![0] bcast_S256_S256x1_0 : (⟨S256, .i32⟩ : BufTy).Contents (Elt F) → (⟨S256x1, .i32⟩ : BufTy).Contents (Elt F)),
    StableHlo.binary main_v191 main_v207 main_v208 ((fun x i => Host.gather gather_S32x4095x256_S256x1_S32x256x256_02_1_n_n_1_1_321256 x i) : (⟨S32x4095x256, .f32⟩ : BufTy).Contents (Elt F) → (⟨S256x1, .i32⟩ : BufTy).Contents (Elt F) → (⟨S32x256x256, .f32⟩ : BufTy).Contents (Elt F)),
    StableHlo.nullary main_c_109 (constantI S_ 32 4095#32),
    StableHlo.unary main_c_109 main_v209 (broadcastInDim S256 ![] bcast_S_S256 : (⟨S_, .i32⟩ : BufTy).Contents (Elt F) → (⟨S256, .i32⟩ : BufTy).Contents (Elt F)),
    StableHlo.binary main_c_13 main_v209 main_v210 (addi : (⟨S256, .i32⟩ : BufTy).Contents (Elt F) → (⟨S256, .i32⟩ : BufTy).Contents (Elt F) → (⟨S256, .i32⟩ : BufTy).Contents (Elt F)),
    StableHlo.ternary main_c_16 main_v210 main_c_13 main_v211 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v211 main_v212 (broadcastInDim S256x1 ![0] bcast_S256_S256x1_0 : (⟨S256, .i32⟩ : BufTy).Contents (Elt F) → (⟨S256x1, .i32⟩ : BufTy).Contents (Elt F)),
    StableHlo.binary main_v191 main_v212 main_v213 ((fun x i => Host.gather gather_S32x4095x256_S256x1_S32x256x256_02_1_n_n_1_1_321256 x i) : (⟨S32x4095x256, .f32⟩ : BufTy).Contents (Elt F) → (⟨S256x1, .i32⟩ : BufTy).Contents (Elt F) → (⟨S32x256x256, .f32⟩ : BufTy).Contents (Elt F)),
    StableHlo.unary main_v3 main_v214 ((extractStridedSlice S32x256x1280 ![0, 255, 0] · slices_S32x4095x1280_S32x256x1280_0_255_0) : (⟨S32x4095x1280, .f32⟩ : BufTy).Contents (Elt F) → (⟨S32x256x1280, .f32⟩ : BufTy).Contents (Elt F)),
    StableHlo.binary main_v198 main_arg2 main_v215 ((fun l r => Host.dotGeneral dot_S32x256x256_S1280x256_S32x256x1280_2_1_01_0_n_n none l r) : (⟨S32x256x256, .f32⟩ : BufTy).Contents (Elt F) → (⟨S1280x256, .f32⟩ : BufTy).Contents (Elt F) → (⟨S32x256x1280, .f32⟩ : BufTy).Contents (Elt F)),
    StableHlo.binary main_v214 main_v215 main_v216 (addf : (⟨S32x256x1280, .f32⟩ : BufTy).Contents (Elt F) → (⟨S32x256x1280, .f32⟩ : BufTy).Contents (Elt F) → (⟨S32x256x1280, .f32⟩ : BufTy).Contents (Elt F)),
    StableHlo.unary main_arg5 main_v217 (broadcastInDim S1x1x1280 ![2] bcast_S1280_S1x1x1280_2 : (⟨S1280, .f32⟩ : BufTy).Contents (Elt F) → (⟨S1x1x1280, .f32⟩ : BufTy).Contents (Elt F)),
    StableHlo.unary main_v217 main_v218 (broadcastInDim S32x256x1280 ![0, 1, 2] bcast_S1x1x1280_S32x256x1280_0_1_2 : (⟨S1x1x1280, .f32⟩ : BufTy).Contents (Elt F) → (⟨S32x256x1280, .f32⟩ : BufTy).Contents (Elt F)),
    StableHlo.binary main_v216 main_v218 main_v219 (addf : (⟨S32x256x1280, .f32⟩ : BufTy).Contents (Elt F) → (⟨S32x256x1280, .f32⟩ : BufTy).Contents (Elt F) → (⟨S32x256x1280, .f32⟩ : BufTy).Contents (Elt F)),
    StableHlo.binary main_v203 main_arg3 main_v220 ((fun l r => Host.dotGeneral dot_S32x256x256_S1280x256_S32x256x1280_2_1_01_0_n_n none l r) : (⟨S32x256x256, .f32⟩ : BufTy).Contents (Elt F) → (⟨S1280x256, .f32⟩ : BufTy).Contents (Elt F) → (⟨S32x256x1280, .f32⟩ : BufTy).Contents (Elt F)),
    StableHlo.binary main_v219 main_v220 main_v221 (addf : (⟨S32x256x1280, .f32⟩ : BufTy).Contents (Elt F) → (⟨S32x256x1280, .f32⟩ : BufTy).Contents (Elt F) → (⟨S32x256x1280, .f32⟩ : BufTy).Contents (Elt F)),
    StableHlo.unary main_arg6 main_v222 (broadcastInDim S1x1x1280 ![2] bcast_S1280_S1x1x1280_2 : (⟨S1280, .f32⟩ : BufTy).Contents (Elt F) → (⟨S1x1x1280, .f32⟩ : BufTy).Contents (Elt F)),
    StableHlo.unary main_v222 main_v223 (broadcastInDim S32x256x1280 ![0, 1, 2] bcast_S1x1x1280_S32x256x1280_0_1_2 : (⟨S1x1x1280, .f32⟩ : BufTy).Contents (Elt F) → (⟨S32x256x1280, .f32⟩ : BufTy).Contents (Elt F)),
    StableHlo.binary main_v221 main_v223 main_v224 (addf : (⟨S32x256x1280, .f32⟩ : BufTy).Contents (Elt F) → (⟨S32x256x1280, .f32⟩ : BufTy).Contents (Elt F) → (⟨S32x256x1280, .f32⟩ : BufTy).Contents (Elt F)),
    StableHlo.unary main_v224 main_v225 ((extractStridedSlice S32x256x256 ![0, 0, 0] · slices_S32x256x1280_S32x256x256_0_0_0) : (⟨S32x256x1280, .f32⟩ : BufTy).Contents (Elt F) → (⟨S32x256x256, .f32⟩ : BufTy).Contents (Elt F)),
    StableHlo.unary main_v224 main_v226 ((extractStridedSlice S32x256x256 ![0, 0, 256] · slices_S32x256x1280_S32x256x256_0_0_256) : (⟨S32x256x1280, .f32⟩ : BufTy).Contents (Elt F) → (⟨S32x256x256, .f32⟩ : BufTy).Contents (Elt F)),
    StableHlo.unary main_v224 main_v227 ((extractStridedSlice S32x256x256 ![0, 0, 512] · slices_S32x256x1280_S32x256x256_0_0_512) : (⟨S32x256x1280, .f32⟩ : BufTy).Contents (Elt F) → (⟨S32x256x256, .f32⟩ : BufTy).Contents (Elt F)),
    StableHlo.unary main_v224 main_v228 ((extractStridedSlice S32x256x256 ![0, 0, 768] · slices_S32x256x1280_S32x256x256_0_0_768) : (⟨S32x256x1280, .f32⟩ : BufTy).Contents (Elt F) → (⟨S32x256x256, .f32⟩ : BufTy).Contents (Elt F)),
    StableHlo.unary main_v224 main_v229 ((extractStridedSlice S32x256x256 ![0, 0, 1024] · slices_S32x256x1280_S32x256x256_0_0_1024) : (⟨S32x256x1280, .f32⟩ : BufTy).Contents (Elt F) → (⟨S32x256x256, .f32⟩ : BufTy).Contents (Elt F)),
    StableHlo.unary main_v225 main_v230 (Host.negf : (⟨S32x256x256, .f32⟩ : BufTy).Contents (Elt F) → (⟨S32x256x256, .f32⟩ : BufTy).Contents (Elt F)),
    StableHlo.unary main_v230 main_v231 (Host.exp : (⟨S32x256x256, .f32⟩ : BufTy).Contents (Elt F) → (⟨S32x256x256, .f32⟩ : BufTy).Contents (Elt F)),
    StableHlo.nullary main_cst_110 (constant S_ .f32 0x3F800000#32),
    StableHlo.unary main_cst_110 main_v232 (broadcastInDim S32x256x256 ![] bcast_S_S32x256x256 : (⟨S_, .f32⟩ : BufTy).Contents (Elt F) → (⟨S32x256x256, .f32⟩ : BufTy).Contents (Elt F)),
    StableHlo.binary main_v232 main_v231 main_v233 (addf : (⟨S32x256x256, .f32⟩ : BufTy).Contents (Elt F) → (⟨S32x256x256, .f32⟩ : BufTy).Contents (Elt F) → (⟨S32x256x256, .f32⟩ : BufTy).Contents (Elt F)),
    StableHlo.nullary main_cst_111 (constant S_ .f32 0x3F800000#32),
    StableHlo.unary main_cst_111 main_v234 (broadcastInDim S32x256x256 ![] bcast_S_S32x256x256 : (⟨S_, .f32⟩ : BufTy).Contents (Elt F) → (⟨S32x256x256, .f32⟩ : BufTy).Contents (Elt F)),
    StableHlo.binary main_v234 main_v233 main_v235 (Host.divf : (⟨S32x256x256, .f32⟩ : BufTy).Contents (Elt F) → (⟨S32x256x256, .f32⟩ : BufTy).Contents (Elt F) → (⟨S32x256x256, .f32⟩ : BufTy).Contents (Elt F)),
    StableHlo.unary main_v226 main_v236 (Host.negf : (⟨S32x256x256, .f32⟩ : BufTy).Contents (Elt F) → (⟨S32x256x256, .f32⟩ : BufTy).Contents (Elt F)),
    StableHlo.unary main_v236 main_v237 (Host.exp : (⟨S32x256x256, .f32⟩ : BufTy).Contents (Elt F) → (⟨S32x256x256, .f32⟩ : BufTy).Contents (Elt F)),
    StableHlo.nullary main_cst_112 (constant S_ .f32 0x3F800000#32),
    StableHlo.unary main_cst_112 main_v238 (broadcastInDim S32x256x256 ![] bcast_S_S32x256x256 : (⟨S_, .f32⟩ : BufTy).Contents (Elt F) → (⟨S32x256x256, .f32⟩ : BufTy).Contents (Elt F)),
    StableHlo.binary main_v238 main_v237 main_v239 (addf : (⟨S32x256x256, .f32⟩ : BufTy).Contents (Elt F) → (⟨S32x256x256, .f32⟩ : BufTy).Contents (Elt F) → (⟨S32x256x256, .f32⟩ : BufTy).Contents (Elt F)),
    StableHlo.nullary main_cst_113 (constant S_ .f32 0x3F800000#32),
    StableHlo.unary main_cst_113 main_v240 (broadcastInDim S32x256x256 ![] bcast_S_S32x256x256 : (⟨S_, .f32⟩ : BufTy).Contents (Elt F) → (⟨S32x256x256, .f32⟩ : BufTy).Contents (Elt F)),
    StableHlo.binary main_v240 main_v239 main_v241 (Host.divf : (⟨S32x256x256, .f32⟩ : BufTy).Contents (Elt F) → (⟨S32x256x256, .f32⟩ : BufTy).Contents (Elt F) → (⟨S32x256x256, .f32⟩ : BufTy).Contents (Elt F)),
    StableHlo.unary main_v227 main_v242 (Host.negf : (⟨S32x256x256, .f32⟩ : BufTy).Contents (Elt F) → (⟨S32x256x256, .f32⟩ : BufTy).Contents (Elt F)),
    StableHlo.unary main_v242 main_v243 (Host.exp : (⟨S32x256x256, .f32⟩ : BufTy).Contents (Elt F) → (⟨S32x256x256, .f32⟩ : BufTy).Contents (Elt F)) ]

set_option maxRecDepth 8192 in
theorem c10_sub : (c10 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..⟩

/-- The buffers these operations write. -/
abbrev c10_W : List (Ref sig .tc) := [main_c_106, main_v194, main_v195, main_v196, main_v197, main_v198, main_c_107, main_v199, main_v200, main_v201, main_v202, main_v203, main_c_108, main_v204, main_v205, main_v206, main_v207, main_v208, main_c_109, main_v209, main_v210, main_v211, main_v212, main_v213, main_v214, main_v215, main_v216, main_v217, main_v218, main_v219, main_v220, main_v221, main_v222, main_v223, main_v224, main_v225, main_v226, main_v227, main_v228, main_v229, main_v230, main_v231, main_cst_110, main_v232, main_v233, main_cst_111, main_v234, main_v235, main_v236, main_v237, main_cst_112, main_v238, main_v239, main_cst_113, main_v240, main_v241, main_v242, main_v243]

set_option maxRecDepth 8192 in
theorem c10_writes : (c10 : List (HloOp τ sig (Elt F))).Forall fun op =>
    op.writes ⊆ (c10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c10_fresh : ∀ op ∈ (c10 : List (HloOp τ sig (Elt F))), op.fresh = ∅ := by
  intro _ h; (repeat (cases h with | head => rfl | tail _ h => ?_)); exact nomatch h

/-- The operations of the printed window main_part5. -/
abbrev ops5 : List (HloOp τ sig (Elt F)) := c9 ++ c10

set_option maxRecDepth 100000 in
set_option maxHeartbeats 4000000 in
theorem main_part5_eq (c : Dev nD) : main_part5 (F := F) c = seq ops5 := rfl

theorem ops5_sub : (ops5 : List (HloOp τ sig (Elt F))).Forall fun op => op.bufs ⊆ tcRefs τ sig :=
  List.forall_iff_forall_mem.mpr fun op h => by
    simp only [ops5, List.mem_append] at h
    rcases h with h | h
    exacts [List.forall_iff_forall_mem.mp c9_sub op h, List.forall_iff_forall_mem.mp c10_sub op h]

theorem ops5_fresh : ∀ op ∈ (ops5 : List (HloOp τ sig (Elt F))), op.fresh = ∅ := by
  intro op h
  simp only [ops5, List.mem_append] at h
  rcases h with h | h
  exacts [c9_fresh op h, c10_fresh op h]

end Cert.ReferenceIdeal.RefValue

end
-- ==== Proof.RefOps6.lean ====
/-
  The statements 361 … 420 of the reference program's @main as a list of operations (the printed window
  main_part6 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 361 … 388 of the program, as operations. -/
abbrev c11 : List (HloOp τ sig (Elt F)) :=
  [
    StableHlo.nullary main_cst_114 (constant S_ .f32 0x3F800000#32),
    StableHlo.unary main_cst_114 main_v244 (broadcastInDim S32x256x256 ![] bcast_S_S32x256x256 : (⟨S_, .f32⟩ : BufTy).Contents (Elt F) → (⟨S32x256x256, .f32⟩ : BufTy).Contents (Elt F)),
    StableHlo.binary main_v244 main_v243 main_v245 (addf : (⟨S32x256x256, .f32⟩ : BufTy).Contents (Elt F) → (⟨S32x256x256, .f32⟩ : BufTy).Contents (Elt F) → (⟨S32x256x256, .f32⟩ : BufTy).Contents (Elt F)),
    StableHlo.nullary main_cst_115 (constant S_ .f32 0x3F800000#32),
    StableHlo.unary main_cst_115 main_v246 (broadcastInDim S32x256x256 ![] bcast_S_S32x256x256 : (⟨S_, .f32⟩ : BufTy).Contents (Elt F) → (⟨S32x256x256, .f32⟩ : BufTy).Contents (Elt F)),
    StableHlo.binary main_v246 main_v245 main_v247 (Host.divf : (⟨S32x256x256, .f32⟩ : BufTy).Contents (Elt F) → (⟨S32x256x256, .f32⟩ : BufTy).Contents (Elt F) → (⟨S32x256x256, .f32⟩ : BufTy).Contents (Elt F)),
    StableHlo.unary main_v228 main_v248 (Host.negf : (⟨S32x256x256, .f32⟩ : BufTy).Contents (Elt F) → (⟨S32x256x256, .f32⟩ : BufTy).Contents (Elt F)),
    StableHlo.unary main_v248 main_v249 (Host.exp : (⟨S32x256x256, .f32⟩ : BufTy).Contents (Elt F) → (⟨S32x256x256, .f32⟩ : BufTy).Contents (Elt F)),
    StableHlo.nullary main_cst_116 (constant S_ .f32 0x3F800000#32),
    StableHlo.unary main_cst_116 main_v250 (broadcastInDim S32x256x256 ![] bcast_S_S32x256x256 : (⟨S_, .f32⟩ : BufTy).Contents (Elt F) → (⟨S32x256x256, .f32⟩ : BufTy).Contents (Elt F)),
    StableHlo.binary main_v250 main_v249 main_v251 (addf : (⟨S32x256x256, .f32⟩ : BufTy).Contents (Elt F) → (⟨S32x256x256, .f32⟩ : BufTy).Contents (Elt F) → (⟨S32x256x256, .f32⟩ : BufTy).Contents (Elt F)),
    StableHlo.nullary main_cst_117 (constant S_ .f32 0x3F800000#32),
    StableHlo.unary main_cst_117 main_v252 (broadcastInDim S32x256x256 ![] bcast_S_S32x256x256 : (⟨S_, .f32⟩ : BufTy).Contents (Elt F) → (⟨S32x256x256, .f32⟩ : BufTy).Contents (Elt F)),
    StableHlo.binary main_v252 main_v251 main_v253 (Host.divf : (⟨S32x256x256, .f32⟩ : BufTy).Contents (Elt F) → (⟨S32x256x256, .f32⟩ : BufTy).Contents (Elt F) → (⟨S32x256x256, .f32⟩ : BufTy).Contents (Elt F)),
    StableHlo.unary main_v229 main_v254 (Host.tanh : (⟨S32x256x256, .f32⟩ : BufTy).Contents (Elt F) → (⟨S32x256x256, .f32⟩ : BufTy).Contents (Elt F)),
    StableHlo.binary main_v235 main_v254 main_v255 (mulf : (⟨S32x256x256, .f32⟩ : BufTy).Contents (Elt F) → (⟨S32x256x256, .f32⟩ : BufTy).Contents (Elt F) → (⟨S32x256x256, .f32⟩ : BufTy).Contents (Elt F)),
    StableHlo.binary main_v247 main_v208 main_v256 (mulf : (⟨S32x256x256, .f32⟩ : BufTy).Contents (Elt F) → (⟨S32x256x256, .f32⟩ : BufTy).Contents (Elt F) → (⟨S32x256x256, .f32⟩ : BufTy).Contents (Elt F)),
    StableHlo.binary main_v255 main_v256 main_v257 (addf : (⟨S32x256x256, .f32⟩ : BufTy).Contents (Elt F) → (⟨S32x256x256, .f32⟩ : BufTy).Contents (Elt F) → (⟨S32x256x256, .f32⟩ : BufTy).Contents (Elt F)),
    StableHlo.binary main_v253 main_v213 main_v258 (mulf : (⟨S32x256x256, .f32⟩ : BufTy).Contents (Elt F) → (⟨S32x256x256, .f32⟩ : BufTy).Contents (Elt F) → (⟨S32x256x256, .f32⟩ : BufTy).Contents (Elt F)),
    StableHlo.binary main_v257 main_v258 main_v259 (addf : (⟨S32x256x256, .f32⟩ : BufTy).Contents (Elt F) → (⟨S32x256x256, .f32⟩ : BufTy).Contents (Elt F) → (⟨S32x256x256, .f32⟩ : BufTy).Contents (Elt F)),
    StableHlo.unary main_v259 main_v260 (Host.tanh : (⟨S32x256x256, .f32⟩ : BufTy).Contents (Elt F) → (⟨S32x256x256, .f32⟩ : BufTy).Contents (Elt F)),
    StableHlo.binary main_v241 main_v260 main_v261 (mulf : (⟨S32x256x256, .f32⟩ : BufTy).Contents (Elt F) → (⟨S32x256x256, .f32⟩ : BufTy).Contents (Elt F) → (⟨S32x256x256, .f32⟩ : BufTy).Contents (Elt F)),
    StableHlo.nullary main_c_118 (constantI S_ 32 255#32),
    StableHlo.unary main_c_118 main_v262 (broadcastInDim S1 ![] bcast_S_S1 : (⟨S_, .i32⟩ : BufTy).Contents (Elt F) → (⟨S1, .i32⟩ : BufTy).Contents (Elt F)),
    StableHlo.ternary main_v191 main_v262 main_v259 main_v263 ((fun x i u => Host.scatter scatter_S32x4095x256_S1_S32x256x256_012_n_1_0 (fun _ b => b) x i u) : (⟨S32x4095x256, .f32⟩ : BufTy).Contents (Elt F) → (⟨S1, .i32⟩ : BufTy).Contents (Elt F) → (⟨S32x256x256, .f32⟩ : BufTy).Contents (Elt F) → (⟨S32x4095x256, .f32⟩ : BufTy).Contents (Elt F)),
    StableHlo.nullary main_c_119 (constantI S_ 32 255#32),
    StableHlo.unary main_c_119 main_v264 (broadcastInDim S1 ![] bcast_S_S1 : (⟨S_, .i32⟩ : BufTy).Contents (Elt F) → (⟨S1, .i32⟩ : BufTy).Contents (Elt F)),
    StableHlo.ternary main_v193 main_v264 main_v261 main_v265 ((fun x i u => Host.scatter scatter_S32x4095x256_S1_S32x256x256_012_n_1_0 (fun _ b => b) x i u) : (⟨S32x4095x256, .f32⟩ : BufTy).Contents (Elt F) → (⟨S1, .i32⟩ : BufTy).Contents (Elt F) → (⟨S32x256x256, .f32⟩ : BufTy).Contents (Elt F) → (⟨S32x4095x256, .f32⟩ : BufTy).Contents (Elt F)) ]

set_option maxRecDepth 8192 in
theorem c11_sub : (c11 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c11_W : List (Ref sig .tc) := [main_cst_114, main_v244, main_v245, main_cst_115, main_v246, main_v247, main_v248, main_v249, main_cst_116, main_v250, main_v251, main_cst_117, main_v252, main_v253, main_v254, main_v255, main_v256, main_v257, main_v258, main_v259, main_v260, main_v261, main_c_118, main_v262, main_v263, main_c_119, main_v264, main_v265]

set_option maxRecDepth 8192 in
theorem c11_writes : (c11 : List (HloOp τ sig (Elt F))).Forall fun op =>
    op.writes ⊆ (c11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c11_fresh : ∀ op ∈ (c11 : List (HloOp τ sig (Elt F))), op.fresh = ∅ := by
  intro _ h; (repeat (cases h with | head => rfl | tail _ h => ?_)); exact nomatch h

/-- The statements 389 … 420 of the program, as operations. -/
abbrev c12 : List (HloOp τ sig (Elt F)) :=
  [
    StableHlo.nullary main_c_120 (constantI S_ 32 4095#32),
    StableHlo.unary main_c_120 main_v266 (broadcastInDim S128 ![] bcast_S_S128 : (⟨S_, .i32⟩ : BufTy).Contents (Elt F) → (⟨S128, .i32⟩ : BufTy).Contents (Elt F)),
    StableHlo.binary main_c_17 main_v266 main_v267 (addi : (⟨S128, .i32⟩ : BufTy).Contents (Elt F) → (⟨S128, .i32⟩ : BufTy).Contents (Elt F) → (⟨S128, .i32⟩ : BufTy).Contents (Elt F)),
    StableHlo.ternary main_c_18 main_v267 main_c_17 main_v268 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v268 main_v269 (broadcastInDim S128x1 ![0] bcast_S128_S128x1_0 : (⟨S128, .i32⟩ : BufTy).Contents (Elt F) → (⟨S128x1, .i32⟩ : BufTy).Contents (Elt F)),
    StableHlo.binary main_v265 main_v269 main_v270 ((fun x i => Host.gather gather_S32x4095x256_S128x1_S32x128x256_02_1_n_n_1_1_321256 x i) : (⟨S32x4095x256, .f32⟩ : BufTy).Contents (Elt F) → (⟨S128x1, .i32⟩ : BufTy).Contents (Elt F) → (⟨S32x128x256, .f32⟩ : BufTy).Contents (Elt F)),
    StableHlo.nullary main_c_121 (constantI S_ 32 4095#32),
    StableHlo.unary main_c_121 main_v271 (broadcastInDim S128 ![] bcast_S_S128 : (⟨S_, .i32⟩ : BufTy).Contents (Elt F) → (⟨S128, .i32⟩ : BufTy).Contents (Elt F)),
    StableHlo.binary main_c_19 main_v271 main_v272 (addi : (⟨S128, .i32⟩ : BufTy).Contents (Elt F) → (⟨S128, .i32⟩ : BufTy).Contents (Elt F) → (⟨S128, .i32⟩ : BufTy).Contents (Elt F)),
    StableHlo.ternary main_c_20 main_v272 main_c_19 main_v273 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v273 main_v274 (broadcastInDim S128x1 ![0] bcast_S128_S128x1_0 : (⟨S128, .i32⟩ : BufTy).Contents (Elt F) → (⟨S128x1, .i32⟩ : BufTy).Contents (Elt F)),
    StableHlo.binary main_v265 main_v274 main_v275 ((fun x i => Host.gather gather_S32x4095x256_S128x1_S32x128x256_02_1_n_n_1_1_321256 x i) : (⟨S32x4095x256, .f32⟩ : BufTy).Contents (Elt F) → (⟨S128x1, .i32⟩ : BufTy).Contents (Elt F) → (⟨S32x128x256, .f32⟩ : BufTy).Contents (Elt F)),
    StableHlo.nullary main_c_122 (constantI S_ 32 4095#32),
    StableHlo.unary main_c_122 main_v276 (broadcastInDim S128 ![] bcast_S_S128 : (⟨S_, .i32⟩ : BufTy).Contents (Elt F) → (⟨S128, .i32⟩ : BufTy).Contents (Elt F)),
    StableHlo.binary main_c_17 main_v276 main_v277 (addi : (⟨S128, .i32⟩ : BufTy).Contents (Elt F) → (⟨S128, .i32⟩ : BufTy).Contents (Elt F) → (⟨S128, .i32⟩ : BufTy).Contents (Elt F)),
    StableHlo.ternary main_c_21 main_v277 main_c_17 main_v278 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v278 main_v279 (broadcastInDim S128x1 ![0] bcast_S128_S128x1_0 : (⟨S128, .i32⟩ : BufTy).Contents (Elt F) → (⟨S128x1, .i32⟩ : BufTy).Contents (Elt F)),
    StableHlo.binary main_v263 main_v279 main_v280 ((fun x i => Host.gather gather_S32x4095x256_S128x1_S32x128x256_02_1_n_n_1_1_321256 x i) : (⟨S32x4095x256, .f32⟩ : BufTy).Contents (Elt F) → (⟨S128x1, .i32⟩ : BufTy).Contents (Elt F) → (⟨S32x128x256, .f32⟩ : BufTy).Contents (Elt F)),
    StableHlo.nullary main_c_123 (constantI S_ 32 4095#32),
    StableHlo.unary main_c_123 main_v281 (broadcastInDim S128 ![] bcast_S_S128 : (⟨S_, .i32⟩ : BufTy).Contents (Elt F) → (⟨S128, .i32⟩ : BufTy).Contents (Elt F)),
    StableHlo.binary main_c_19 main_v281 main_v282 (addi : (⟨S128, .i32⟩ : BufTy).Contents (Elt F) → (⟨S128, .i32⟩ : BufTy).Contents (Elt F) → (⟨S128, .i32⟩ : BufTy).Contents (Elt F)),
    StableHlo.ternary main_c_22 main_v282 main_c_19 main_v283 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v283 main_v284 (broadcastInDim S128x1 ![0] bcast_S128_S128x1_0 : (⟨S128, .i32⟩ : BufTy).Contents (Elt F) → (⟨S128x1, .i32⟩ : BufTy).Contents (Elt F)),
    StableHlo.binary main_v263 main_v284 main_v285 ((fun x i => Host.gather gather_S32x4095x256_S128x1_S32x128x256_02_1_n_n_1_1_321256 x i) : (⟨S32x4095x256, .f32⟩ : BufTy).Contents (Elt F) → (⟨S128x1, .i32⟩ : BufTy).Contents (Elt F) → (⟨S32x128x256, .f32⟩ : BufTy).Contents (Elt F)),
    StableHlo.unary main_v3 main_v286 ((extractStridedSlice S32x128x1280 ![0, 127, 0] · slices_S32x4095x1280_S32x128x1280_0_127_0) : (⟨S32x4095x1280, .f32⟩ : BufTy).Contents (Elt F) → (⟨S32x128x1280, .f32⟩ : BufTy).Contents (Elt F)),
    StableHlo.binary main_v270 main_arg2 main_v287 ((fun l r => Host.dotGeneral dot_S32x128x256_S1280x256_S32x128x1280_2_1_01_0_n_n none l r) : (⟨S32x128x256, .f32⟩ : BufTy).Contents (Elt F) → (⟨S1280x256, .f32⟩ : BufTy).Contents (Elt F) → (⟨S32x128x1280, .f32⟩ : BufTy).Contents (Elt F)),
    StableHlo.binary main_v286 main_v287 main_v288 (addf : (⟨S32x128x1280, .f32⟩ : BufTy).Contents (Elt F) → (⟨S32x128x1280, .f32⟩ : BufTy).Contents (Elt F) → (⟨S32x128x1280, .f32⟩ : BufTy).Contents (Elt F)),
    StableHlo.unary main_arg5 main_v289 (broadcastInDim S1x1x1280 ![2] bcast_S1280_S1x1x1280_2 : (⟨S1280, .f32⟩ : BufTy).Contents (Elt F) → (⟨S1x1x1280, .f32⟩ : BufTy).Contents (Elt F)),
    StableHlo.unary main_v289 main_v290 (broadcastInDim S32x128x1280 ![0, 1, 2] bcast_S1x1x1280_S32x128x1280_0_1_2 : (⟨S1x1x1280, .f32⟩ : BufTy).Contents (Elt F) → (⟨S32x128x1280, .f32⟩ : BufTy).Contents (Elt F)),
    StableHlo.binary main_v288 main_v290 main_v291 (addf : (⟨S32x128x1280, .f32⟩ : BufTy).Contents (Elt F) → (⟨S32x128x1280, .f32⟩ : BufTy).Contents (Elt F) → (⟨S32x128x1280, .f32⟩ : BufTy).Contents (Elt F)),
    StableHlo.binary main_v275 main_arg3 main_v292 ((fun l r => Host.dotGeneral dot_S32x128x256_S1280x256_S32x128x1280_2_1_01_0_n_n none l r) : (⟨S32x128x256, .f32⟩ : BufTy).Contents (Elt F) → (⟨S1280x256, .f32⟩ : BufTy).Contents (Elt F) → (⟨S32x128x1280, .f32⟩ : BufTy).Contents (Elt F)),
    StableHlo.binary main_v291 main_v292 main_v293 (addf : (⟨S32x128x1280, .f32⟩ : BufTy).Contents (Elt F) → (⟨S32x128x1280, .f32⟩ : BufTy).Contents (Elt F) → (⟨S32x128x1280, .f32⟩ : BufTy).Contents (Elt F)) ]

set_option maxRecDepth 8192 in
theorem c12_sub : (c12 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..⟩

/-- The buffers these operations write. -/
abbrev c12_W : List (Ref sig .tc) := [main_c_120, main_v266, main_v267, main_v268, main_v269, main_v270, main_c_121, main_v271, main_v272, main_v273, main_v274, main_v275, main_c_122, main_v276, main_v277, main_v278, main_v279, main_v280, main_c_123, main_v281, main_v282, main_v283, main_v284, main_v285, main_v286, main_v287, main_v288, main_v289, main_v290, main_v291, main_v292, main_v293]

set_option maxRecDepth 8192 in
theorem c12_writes : (c12 : List (HloOp τ sig (Elt F))).Forall fun op =>
    op.writes ⊆ (c12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c12_fresh : ∀ op ∈ (c12 : List (HloOp τ sig (Elt F))), op.fresh = ∅ := by
  intro _ h; (repeat (cases h with | head => rfl | tail _ h => ?_)); exact nomatch h

/-- The operations of the printed window main_part6. -/
abbrev ops6 : List (HloOp τ sig (Elt F)) := c11 ++ c12

set_option maxRecDepth 100000 in
set_option maxHeartbeats 4000000 in
theorem main_part6_eq (c : Dev nD) : main_part6 (F := F) c = seq ops6 := rfl

theorem ops6_sub : (ops6 : List (HloOp τ sig (Elt F))).Forall fun op => op.bufs ⊆ tcRefs τ sig :=
  List.forall_iff_forall_mem.mpr fun op h => by
    simp only [ops6, List.mem_append] at h
    rcases h with h | h
    exacts [List.forall_iff_forall_mem.mp c11_sub op h, List.forall_iff_forall_mem.mp c12_sub op h]

theorem ops6_fresh : ∀ op ∈ (ops6 : List (HloOp τ sig (Elt F))), op.fresh = ∅ := by
  intro op h
  simp only [ops6, List.mem_append] at h
  rcases h with h | h
  exacts [c11_fresh op h, c12_fresh op h]

end Cert.ReferenceIdeal.RefValue

end
-- ==== Proof.RefOps7.lean ====
/-
  The statements 421 … 480 of the reference program's @main as a list of operations (the printed window
  main_part7 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 421 … 474 of the program, as operations. -/
abbrev c13 : List (HloOp τ sig (Elt F)) :=
  [
    StableHlo.unary main_arg6 main_v294 (broadcastInDim S1x1x1280 ![2] bcast_S1280_S1x1x1280_2 : (⟨S1280, .f32⟩ : BufTy).Contents (Elt F) → (⟨S1x1x1280, .f32⟩ : BufTy).Contents (Elt F)),
    StableHlo.unary main_v294 main_v295 (broadcastInDim S32x128x1280 ![0, 1, 2] bcast_S1x1x1280_S32x128x1280_0_1_2 : (⟨S1x1x1280, .f32⟩ : BufTy).Contents (Elt F) → (⟨S32x128x1280, .f32⟩ : BufTy).Contents (Elt F)),
    StableHlo.binary main_v293 main_v295 main_v296 (addf : (⟨S32x128x1280, .f32⟩ : BufTy).Contents (Elt F) → (⟨S32x128x1280, .f32⟩ : BufTy).Contents (Elt F) → (⟨S32x128x1280, .f32⟩ : BufTy).Contents (Elt F)),
    StableHlo.unary main_v296 main_v297 ((extractStridedSlice S32x128x256 ![0, 0, 0] · slices_S32x128x1280_S32x128x256_0_0_0) : (⟨S32x128x1280, .f32⟩ : BufTy).Contents (Elt F) → (⟨S32x128x256, .f32⟩ : BufTy).Contents (Elt F)),
    StableHlo.unary main_v296 main_v298 ((extractStridedSlice S32x128x256 ![0, 0, 256] · slices_S32x128x1280_S32x128x256_0_0_256) : (⟨S32x128x1280, .f32⟩ : BufTy).Contents (Elt F) → (⟨S32x128x256, .f32⟩ : BufTy).Contents (Elt F)),
    StableHlo.unary main_v296 main_v299 ((extractStridedSlice S32x128x256 ![0, 0, 512] · slices_S32x128x1280_S32x128x256_0_0_512) : (⟨S32x128x1280, .f32⟩ : BufTy).Contents (Elt F) → (⟨S32x128x256, .f32⟩ : BufTy).Contents (Elt F)),
    StableHlo.unary main_v296 main_v300 ((extractStridedSlice S32x128x256 ![0, 0, 768] · slices_S32x128x1280_S32x128x256_0_0_768) : (⟨S32x128x1280, .f32⟩ : BufTy).Contents (Elt F) → (⟨S32x128x256, .f32⟩ : BufTy).Contents (Elt F)),
    StableHlo.unary main_v296 main_v301 ((extractStridedSlice S32x128x256 ![0, 0, 1024] · slices_S32x128x1280_S32x128x256_0_0_1024) : (⟨S32x128x1280, .f32⟩ : BufTy).Contents (Elt F) → (⟨S32x128x256, .f32⟩ : BufTy).Contents (Elt F)),
    StableHlo.unary main_v297 main_v302 (Host.negf : (⟨S32x128x256, .f32⟩ : BufTy).Contents (Elt F) → (⟨S32x128x256, .f32⟩ : BufTy).Contents (Elt F)),
    StableHlo.unary main_v302 main_v303 (Host.exp : (⟨S32x128x256, .f32⟩ : BufTy).Contents (Elt F) → (⟨S32x128x256, .f32⟩ : BufTy).Contents (Elt F)),
    StableHlo.nullary main_cst_124 (constant S_ .f32 0x3F800000#32),
    StableHlo.unary main_cst_124 main_v304 (broadcastInDim S32x128x256 ![] bcast_S_S32x128x256 : (⟨S_, .f32⟩ : BufTy).Contents (Elt F) → (⟨S32x128x256, .f32⟩ : BufTy).Contents (Elt F)),
    StableHlo.binary main_v304 main_v303 main_v305 (addf : (⟨S32x128x256, .f32⟩ : BufTy).Contents (Elt F) → (⟨S32x128x256, .f32⟩ : BufTy).Contents (Elt F) → (⟨S32x128x256, .f32⟩ : BufTy).Contents (Elt F)),
    StableHlo.nullary main_cst_125 (constant S_ .f32 0x3F800000#32),
    StableHlo.unary main_cst_125 main_v306 (broadcastInDim S32x128x256 ![] bcast_S_S32x128x256 : (⟨S_, .f32⟩ : BufTy).Contents (Elt F) → (⟨S32x128x256, .f32⟩ : BufTy).Contents (Elt F)),
    StableHlo.binary main_v306 main_v305 main_v307 (Host.divf : (⟨S32x128x256, .f32⟩ : BufTy).Contents (Elt F) → (⟨S32x128x256, .f32⟩ : BufTy).Contents (Elt F) → (⟨S32x128x256, .f32⟩ : BufTy).Contents (Elt F)),
    StableHlo.unary main_v298 main_v308 (Host.negf : (⟨S32x128x256, .f32⟩ : BufTy).Contents (Elt F) → (⟨S32x128x256, .f32⟩ : BufTy).Contents (Elt F)),
    StableHlo.unary main_v308 main_v309 (Host.exp : (⟨S32x128x256, .f32⟩ : BufTy).Contents (Elt F) → (⟨S32x128x256, .f32⟩ : BufTy).Contents (Elt F)),
    StableHlo.nullary main_cst_126 (constant S_ .f32 0x3F800000#32),
    StableHlo.unary main_cst_126 main_v310 (broadcastInDim S32x128x256 ![] bcast_S_S32x128x256 : (⟨S_, .f32⟩ : BufTy).Contents (Elt F) → (⟨S32x128x256, .f32⟩ : BufTy).Contents (Elt F)),
    StableHlo.binary main_v310 main_v309 main_v311 (addf : (⟨S32x128x256, .f32⟩ : BufTy).Contents (Elt F) → (⟨S32x128x256, .f32⟩ : BufTy).Contents (Elt F) → (⟨S32x128x256, .f32⟩ : BufTy).Contents (Elt F)),
    StableHlo.nullary main_cst_127 (constant S_ .f32 0x3F800000#32),
    StableHlo.unary main_cst_127 main_v312 (broadcastInDim S32x128x256 ![] bcast_S_S32x128x256 : (⟨S_, .f32⟩ : BufTy).Contents (Elt F) → (⟨S32x128x256, .f32⟩ : BufTy).Contents (Elt F)),
    StableHlo.binary main_v312 main_v311 main_v313 (Host.divf : (⟨S32x128x256, .f32⟩ : BufTy).Contents (Elt F) → (⟨S32x128x256, .f32⟩ : BufTy).Contents (Elt F) → (⟨S32x128x256, .f32⟩ : BufTy).Contents (Elt F)),
    StableHlo.unary main_v299 main_v314 (Host.negf : (⟨S32x128x256, .f32⟩ : BufTy).Contents (Elt F) → (⟨S32x128x256, .f32⟩ : BufTy).Contents (Elt F)),
    StableHlo.unary main_v314 main_v315 (Host.exp : (⟨S32x128x256, .f32⟩ : BufTy).Contents (Elt F) → (⟨S32x128x256, .f32⟩ : BufTy).Contents (Elt F)),
    StableHlo.nullary main_cst_128 (constant S_ .f32 0x3F800000#32),
    StableHlo.unary main_cst_128 main_v316 (broadcastInDim S32x128x256 ![] bcast_S_S32x128x256 : (⟨S_, .f32⟩ : BufTy).Contents (Elt F) → (⟨S32x128x256, .f32⟩ : BufTy).Contents (Elt F)),
    StableHlo.binary main_v316 main_v315 main_v317 (addf : (⟨S32x128x256, .f32⟩ : BufTy).Contents (Elt F) → (⟨S32x128x256, .f32⟩ : BufTy).Contents (Elt F) → (⟨S32x128x256, .f32⟩ : BufTy).Contents (Elt F)),
    StableHlo.nullary main_cst_129 (constant S_ .f32 0x3F800000#32),
    StableHlo.unary main_cst_129 main_v318 (broadcastInDim S32x128x256 ![] bcast_S_S32x128x256 : (⟨S_, .f32⟩ : BufTy).Contents (Elt F) → (⟨S32x128x256, .f32⟩ : BufTy).Contents (Elt F)),
    StableHlo.binary main_v318 main_v317 main_v319 (Host.divf : (⟨S32x128x256, .f32⟩ : BufTy).Contents (Elt F) → (⟨S32x128x256, .f32⟩ : BufTy).Contents (Elt F) → (⟨S32x128x256, .f32⟩ : BufTy).Contents (Elt F)),
    StableHlo.unary main_v300 main_v320 (Host.negf : (⟨S32x128x256, .f32⟩ : BufTy).Contents (Elt F) → (⟨S32x128x256, .f32⟩ : BufTy).Contents (Elt F)),
    StableHlo.unary main_v320 main_v321 (Host.exp : (⟨S32x128x256, .f32⟩ : BufTy).Contents (Elt F) → (⟨S32x128x256, .f32⟩ : BufTy).Contents (Elt F)),
    StableHlo.nullary main_cst_130 (constant S_ .f32 0x3F800000#32),
    StableHlo.unary main_cst_130 main_v322 (broadcastInDim S32x128x256 ![] bcast_S_S32x128x256 : (⟨S_, .f32⟩ : BufTy).Contents (Elt F) → (⟨S32x128x256, .f32⟩ : BufTy).Contents (Elt F)),
    StableHlo.binary main_v322 main_v321 main_v323 (addf : (⟨S32x128x256, .f32⟩ : BufTy).Contents (Elt F) → (⟨S32x128x256, .f32⟩ : BufTy).Contents (Elt F) → (⟨S32x128x256, .f32⟩ : BufTy).Contents (Elt F)),
    StableHlo.nullary main_cst_131 (constant S_ .f32 0x3F800000#32),
    StableHlo.unary main_cst_131 main_v324 (broadcastInDim S32x128x256 ![] bcast_S_S32x128x256 : (⟨S_, .f32⟩ : BufTy).Contents (Elt F) → (⟨S32x128x256, .f32⟩ : BufTy).Contents (Elt F)),
    StableHlo.binary main_v324 main_v323 main_v325 (Host.divf : (⟨S32x128x256, .f32⟩ : BufTy).Contents (Elt F) → (⟨S32x128x256, .f32⟩ : BufTy).Contents (Elt F) → (⟨S32x128x256, .f32⟩ : BufTy).Contents (Elt F)),
    StableHlo.unary main_v301 main_v326 (Host.tanh : (⟨S32x128x256, .f32⟩ : BufTy).Contents (Elt F) → (⟨S32x128x256, .f32⟩ : BufTy).Contents (Elt F)),
    StableHlo.binary main_v307 main_v326 main_v327 (mulf : (⟨S32x128x256, .f32⟩ : BufTy).Contents (Elt F) → (⟨S32x128x256, .f32⟩ : BufTy).Contents (Elt F) → (⟨S32x128x256, .f32⟩ : BufTy).Contents (Elt F)),
    StableHlo.binary main_v319 main_v280 main_v328 (mulf : (⟨S32x128x256, .f32⟩ : BufTy).Contents (Elt F) → (⟨S32x128x256, .f32⟩ : BufTy).Contents (Elt F) → (⟨S32x128x256, .f32⟩ : BufTy).Contents (Elt F)),
    StableHlo.binary main_v327 main_v328 main_v329 (addf : (⟨S32x128x256, .f32⟩ : BufTy).Contents (Elt F) → (⟨S32x128x256, .f32⟩ : BufTy).Contents (Elt F) → (⟨S32x128x256, .f32⟩ : BufTy).Contents (Elt F)),
    StableHlo.binary main_v325 main_v285 main_v330 (mulf : (⟨S32x128x256, .f32⟩ : BufTy).Contents (Elt F) → (⟨S32x128x256, .f32⟩ : BufTy).Contents (Elt F) → (⟨S32x128x256, .f32⟩ : BufTy).Contents (Elt F)),
    StableHlo.binary main_v329 main_v330 main_v331 (addf : (⟨S32x128x256, .f32⟩ : BufTy).Contents (Elt F) → (⟨S32x128x256, .f32⟩ : BufTy).Contents (Elt F) → (⟨S32x128x256, .f32⟩ : BufTy).Contents (Elt F)),
    StableHlo.unary main_v331 main_v332 (Host.tanh : (⟨S32x128x256, .f32⟩ : BufTy).Contents (Elt F) → (⟨S32x128x256, .f32⟩ : BufTy).Contents (Elt F)),
    StableHlo.binary main_v313 main_v332 main_v333 (mulf : (⟨S32x128x256, .f32⟩ : BufTy).Contents (Elt F) → (⟨S32x128x256, .f32⟩ : BufTy).Contents (Elt F) → (⟨S32x128x256, .f32⟩ : BufTy).Contents (Elt F)),
    StableHlo.nullary main_c_132 (constantI S_ 32 127#32),
    StableHlo.unary main_c_132 main_v334 (broadcastInDim S1 ![] bcast_S_S1 : (⟨S_, .i32⟩ : BufTy).Contents (Elt F) → (⟨S1, .i32⟩ : BufTy).Contents (Elt F)),
    StableHlo.ternary main_v263 main_v334 main_v331 main_v335 ((fun x i u => Host.scatter scatter_S32x4095x256_S1_S32x128x256_012_n_1_0 (fun _ b => b) x i u) : (⟨S32x4095x256, .f32⟩ : BufTy).Contents (Elt F) → (⟨S1, .i32⟩ : BufTy).Contents (Elt F) → (⟨S32x128x256, .f32⟩ : BufTy).Contents (Elt F) → (⟨S32x4095x256, .f32⟩ : BufTy).Contents (Elt F)),
    StableHlo.nullary main_c_133 (constantI S_ 32 127#32),
    StableHlo.unary main_c_133 main_v336 (broadcastInDim S1 ![] bcast_S_S1 : (⟨S_, .i32⟩ : BufTy).Contents (Elt F) → (⟨S1, .i32⟩ : BufTy).Contents (Elt F)),
    StableHlo.ternary main_v265 main_v336 main_v333 main_v337 ((fun x i u => Host.scatter scatter_S32x4095x256_S1_S32x128x256_012_n_1_0 (fun _ b => b) x i u) : (⟨S32x4095x256, .f32⟩ : BufTy).Contents (Elt F) → (⟨S1, .i32⟩ : BufTy).Contents (Elt F) → (⟨S32x128x256, .f32⟩ : BufTy).Contents (Elt F) → (⟨S32x4095x256, .f32⟩ : BufTy).Contents (Elt F)) ]

set_option maxRecDepth 8192 in
theorem c13_sub : (c13 : List (HloOp τ sig (Elt F))).Forall fun op => op.bufs ⊆ tcRefs τ sig :=
  ⟨unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c13_W : List (Ref sig .tc) := [main_v294, main_v295, main_v296, main_v297, main_v298, main_v299, main_v300, main_v301, main_v302, main_v303, main_cst_124, main_v304, main_v305, main_cst_125, main_v306, main_v307, main_v308, main_v309, main_cst_126, main_v310, main_v311, main_cst_127, main_v312, main_v313, main_v314, main_v315, main_cst_128, main_v316, main_v317, main_cst_129, main_v318, main_v319, main_v320, main_v321, main_cst_130, main_v322, main_v323, main_cst_131, main_v324, main_v325, main_v326, main_v327, main_v328, main_v329, main_v330, main_v331, main_v332, main_v333, main_c_132, main_v334, main_v335, main_c_133, main_v336, main_v337]

set_option maxRecDepth 8192 in
theorem c13_writes : (c13 : List (HloOp τ sig (Elt F))).Forall fun op =>
    op.writes ⊆ (c13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c13_fresh : ∀ op ∈ (c13 : List (HloOp τ sig (Elt F))), op.fresh = ∅ := by
  intro _ h; (repeat (cases h with | head => rfl | tail _ h => ?_)); exact nomatch h

/-- The statements 475 … 480 of the program, as operations. -/
abbrev c14 : List (HloOp τ sig (Elt F)) :=
  [
    StableHlo.nullary main_c_134 (constantI S_ 32 4095#32),
    StableHlo.unary main_c_134 main_v338 (broadcastInDim S64 ![] bcast_S_S64 : (⟨S_, .i32⟩ : BufTy).Contents (Elt F) → (⟨S64, .i32⟩ : BufTy).Contents (Elt F)),
    StableHlo.binary main_c_23 main_v338 main_v339 (addi : (⟨S64, .i32⟩ : BufTy).Contents (Elt F) → (⟨S64, .i32⟩ : BufTy).Contents (Elt F) → (⟨S64, .i32⟩ : BufTy).Contents (Elt F)),
    StableHlo.ternary main_c_24 main_v339 main_c_23 main_v340 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v340 main_v341 (broadcastInDim S64x1 ![0] bcast_S64_S64x1_0 : (⟨S64, .i32⟩ : BufTy).Contents (Elt F) → (⟨S64x1, .i32⟩ : BufTy).Contents (Elt F)),
    StableHlo.binary main_v337 main_v341 main_v342 ((fun x i => Host.gather gather_S32x4095x256_S64x1_S32x64x256_02_1_n_n_1_1_321256 x i) : (⟨S32x4095x256, .f32⟩ : BufTy).Contents (Elt F) → (⟨S64x1, .i32⟩ : BufTy).Contents (Elt F) → (⟨S32x64x256, .f32⟩ : BufTy).Contents (Elt F)) ]

set_option maxRecDepth 8192 in
theorem c14_sub : (c14 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..⟩

/-- The buffers these operations write. -/
abbrev c14_W : List (Ref sig .tc) := [main_c_134, main_v338, main_v339, main_v340, main_v341, main_v342]

set_option maxRecDepth 8192 in
theorem c14_writes : (c14 : List (HloOp τ sig (Elt F))).Forall fun op =>
    op.writes ⊆ (c14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c14_fresh : ∀ op ∈ (c14 : List (HloOp τ sig (Elt F))), op.fresh = ∅ := by
  intro _ h; (repeat (cases h with | head => rfl | tail _ h => ?_)); exact nomatch h

/-- The operations of the printed window main_part7. -/
abbrev ops7 : List (HloOp τ sig (Elt F)) := c13 ++ c14

set_option maxRecDepth 100000 in
set_option maxHeartbeats 4000000 in
theorem main_part7_eq (c : Dev nD) : main_part7 (F := F) c = seq ops7 := rfl

theorem ops7_sub : (ops7 : List (HloOp τ sig (Elt F))).Forall fun op => op.bufs ⊆ tcRefs τ sig :=
  List.forall_iff_forall_mem.mpr fun op h => by
    simp only [ops7, List.mem_append] at h
    rcases h with h | h
    exacts [List.forall_iff_forall_mem.mp c13_sub op h, List.forall_iff_forall_mem.mp c14_sub op h]

theorem ops7_fresh : ∀ op ∈ (ops7 : List (HloOp τ sig (Elt F))), op.fresh = ∅ := by
  intro op h
  simp only [ops7, List.mem_append] at h
  rcases h with h | h
  exacts [c13_fresh op h, c14_fresh op h]

end Cert.ReferenceIdeal.RefValue

end
-- ==== Proof.RefOps8.lean ====
/-
  The statements 481 … 540 of the reference program's @main as a list of operations (the printed window
  main_part8 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 481 … 540 of the program, as operations. -/
abbrev c15 : List (HloOp τ sig (Elt F)) :=
  [
    StableHlo.nullary main_c_135 (constantI S_ 32 4095#32),
    StableHlo.unary main_c_135 main_v343 (broadcastInDim S64 ![] bcast_S_S64 : (⟨S_, .i32⟩ : BufTy).Contents (Elt F) → (⟨S64, .i32⟩ : BufTy).Contents (Elt F)),
    StableHlo.binary main_c_25 main_v343 main_v344 (addi : (⟨S64, .i32⟩ : BufTy).Contents (Elt F) → (⟨S64, .i32⟩ : BufTy).Contents (Elt F) → (⟨S64, .i32⟩ : BufTy).Contents (Elt F)),
    StableHlo.ternary main_c_26 main_v344 main_c_25 main_v345 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v345 main_v346 (broadcastInDim S64x1 ![0] bcast_S64_S64x1_0 : (⟨S64, .i32⟩ : BufTy).Contents (Elt F) → (⟨S64x1, .i32⟩ : BufTy).Contents (Elt F)),
    StableHlo.binary main_v337 main_v346 main_v347 ((fun x i => Host.gather gather_S32x4095x256_S64x1_S32x64x256_02_1_n_n_1_1_321256 x i) : (⟨S32x4095x256, .f32⟩ : BufTy).Contents (Elt F) → (⟨S64x1, .i32⟩ : BufTy).Contents (Elt F) → (⟨S32x64x256, .f32⟩ : BufTy).Contents (Elt F)),
    StableHlo.nullary main_c_136 (constantI S_ 32 4095#32),
    StableHlo.unary main_c_136 main_v348 (broadcastInDim S64 ![] bcast_S_S64 : (⟨S_, .i32⟩ : BufTy).Contents (Elt F) → (⟨S64, .i32⟩ : BufTy).Contents (Elt F)),
    StableHlo.binary main_c_23 main_v348 main_v349 (addi : (⟨S64, .i32⟩ : BufTy).Contents (Elt F) → (⟨S64, .i32⟩ : BufTy).Contents (Elt F) → (⟨S64, .i32⟩ : BufTy).Contents (Elt F)),
    StableHlo.ternary main_c_27 main_v349 main_c_23 main_v350 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v350 main_v351 (broadcastInDim S64x1 ![0] bcast_S64_S64x1_0 : (⟨S64, .i32⟩ : BufTy).Contents (Elt F) → (⟨S64x1, .i32⟩ : BufTy).Contents (Elt F)),
    StableHlo.binary main_v335 main_v351 main_v352 ((fun x i => Host.gather gather_S32x4095x256_S64x1_S32x64x256_02_1_n_n_1_1_321256 x i) : (⟨S32x4095x256, .f32⟩ : BufTy).Contents (Elt F) → (⟨S64x1, .i32⟩ : BufTy).Contents (Elt F) → (⟨S32x64x256, .f32⟩ : BufTy).Contents (Elt F)),
    StableHlo.nullary main_c_137 (constantI S_ 32 4095#32),
    StableHlo.unary main_c_137 main_v353 (broadcastInDim S64 ![] bcast_S_S64 : (⟨S_, .i32⟩ : BufTy).Contents (Elt F) → (⟨S64, .i32⟩ : BufTy).Contents (Elt F)),
    StableHlo.binary main_c_25 main_v353 main_v354 (addi : (⟨S64, .i32⟩ : BufTy).Contents (Elt F) → (⟨S64, .i32⟩ : BufTy).Contents (Elt F) → (⟨S64, .i32⟩ : BufTy).Contents (Elt F)),
    StableHlo.ternary main_c_28 main_v354 main_c_25 main_v355 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v355 main_v356 (broadcastInDim S64x1 ![0] bcast_S64_S64x1_0 : (⟨S64, .i32⟩ : BufTy).Contents (Elt F) → (⟨S64x1, .i32⟩ : BufTy).Contents (Elt F)),
    StableHlo.binary main_v335 main_v356 main_v357 ((fun x i => Host.gather gather_S32x4095x256_S64x1_S32x64x256_02_1_n_n_1_1_321256 x i) : (⟨S32x4095x256, .f32⟩ : BufTy).Contents (Elt F) → (⟨S64x1, .i32⟩ : BufTy).Contents (Elt F) → (⟨S32x64x256, .f32⟩ : BufTy).Contents (Elt F)),
    StableHlo.unary main_v3 main_v358 ((extractStridedSlice S32x64x1280 ![0, 63, 0] · slices_S32x4095x1280_S32x64x1280_0_63_0) : (⟨S32x4095x1280, .f32⟩ : BufTy).Contents (Elt F) → (⟨S32x64x1280, .f32⟩ : BufTy).Contents (Elt F)),
    StableHlo.binary main_v342 main_arg2 main_v359 ((fun l r => Host.dotGeneral dot_S32x64x256_S1280x256_S32x64x1280_2_1_01_0_n_n none l r) : (⟨S32x64x256, .f32⟩ : BufTy).Contents (Elt F) → (⟨S1280x256, .f32⟩ : BufTy).Contents (Elt F) → (⟨S32x64x1280, .f32⟩ : BufTy).Contents (Elt F)),
    StableHlo.binary main_v358 main_v359 main_v360 (addf : (⟨S32x64x1280, .f32⟩ : BufTy).Contents (Elt F) → (⟨S32x64x1280, .f32⟩ : BufTy).Contents (Elt F) → (⟨S32x64x1280, .f32⟩ : BufTy).Contents (Elt F)),
    StableHlo.unary main_arg5 main_v361 (broadcastInDim S1x1x1280 ![2] bcast_S1280_S1x1x1280_2 : (⟨S1280, .f32⟩ : BufTy).Contents (Elt F) → (⟨S1x1x1280, .f32⟩ : BufTy).Contents (Elt F)),
    StableHlo.unary main_v361 main_v362 (broadcastInDim S32x64x1280 ![0, 1, 2] bcast_S1x1x1280_S32x64x1280_0_1_2 : (⟨S1x1x1280, .f32⟩ : BufTy).Contents (Elt F) → (⟨S32x64x1280, .f32⟩ : BufTy).Contents (Elt F)),
    StableHlo.binary main_v360 main_v362 main_v363 (addf : (⟨S32x64x1280, .f32⟩ : BufTy).Contents (Elt F) → (⟨S32x64x1280, .f32⟩ : BufTy).Contents (Elt F) → (⟨S32x64x1280, .f32⟩ : BufTy).Contents (Elt F)),
    StableHlo.binary main_v347 main_arg3 main_v364 ((fun l r => Host.dotGeneral dot_S32x64x256_S1280x256_S32x64x1280_2_1_01_0_n_n none l r) : (⟨S32x64x256, .f32⟩ : BufTy).Contents (Elt F) → (⟨S1280x256, .f32⟩ : BufTy).Contents (Elt F) → (⟨S32x64x1280, .f32⟩ : BufTy).Contents (Elt F)),
    StableHlo.binary main_v363 main_v364 main_v365 (addf : (⟨S32x64x1280, .f32⟩ : BufTy).Contents (Elt F) → (⟨S32x64x1280, .f32⟩ : BufTy).Contents (Elt F) → (⟨S32x64x1280, .f32⟩ : BufTy).Contents (Elt F)),
    StableHlo.unary main_arg6 main_v366 (broadcastInDim S1x1x1280 ![2] bcast_S1280_S1x1x1280_2 : (⟨S1280, .f32⟩ : BufTy).Contents (Elt F) → (⟨S1x1x1280, .f32⟩ : BufTy).Contents (Elt F)),
    StableHlo.unary main_v366 main_v367 (broadcastInDim S32x64x1280 ![0, 1, 2] bcast_S1x1x1280_S32x64x1280_0_1_2 : (⟨S1x1x1280, .f32⟩ : BufTy).Contents (Elt F) → (⟨S32x64x1280, .f32⟩ : BufTy).Contents (Elt F)),
    StableHlo.binary main_v365 main_v367 main_v368 (addf : (⟨S32x64x1280, .f32⟩ : BufTy).Contents (Elt F) → (⟨S32x64x1280, .f32⟩ : BufTy).Contents (Elt F) → (⟨S32x64x1280, .f32⟩ : BufTy).Contents (Elt F)),
    StableHlo.unary main_v368 main_v369 ((extractStridedSlice S32x64x256 ![0, 0, 0] · slices_S32x64x1280_S32x64x256_0_0_0) : (⟨S32x64x1280, .f32⟩ : BufTy).Contents (Elt F) → (⟨S32x64x256, .f32⟩ : BufTy).Contents (Elt F)),
    StableHlo.unary main_v368 main_v370 ((extractStridedSlice S32x64x256 ![0, 0, 256] · slices_S32x64x1280_S32x64x256_0_0_256) : (⟨S32x64x1280, .f32⟩ : BufTy).Contents (Elt F) → (⟨S32x64x256, .f32⟩ : BufTy).Contents (Elt F)),
    StableHlo.unary main_v368 main_v371 ((extractStridedSlice S32x64x256 ![0, 0, 512] · slices_S32x64x1280_S32x64x256_0_0_512) : (⟨S32x64x1280, .f32⟩ : BufTy).Contents (Elt F) → (⟨S32x64x256, .f32⟩ : BufTy).Contents (Elt F)),
    StableHlo.unary main_v368 main_v372 ((extractStridedSlice S32x64x256 ![0, 0, 768] · slices_S32x64x1280_S32x64x256_0_0_768) : (⟨S32x64x1280, .f32⟩ : BufTy).Contents (Elt F) → (⟨S32x64x256, .f32⟩ : BufTy).Contents (Elt F)),
    StableHlo.unary main_v368 main_v373 ((extractStridedSlice S32x64x256 ![0, 0, 1024] · slices_S32x64x1280_S32x64x256_0_0_1024) : (⟨S32x64x1280, .f32⟩ : BufTy).Contents (Elt F) → (⟨S32x64x256, .f32⟩ : BufTy).Contents (Elt F)),
    StableHlo.unary main_v369 main_v374 (Host.negf : (⟨S32x64x256, .f32⟩ : BufTy).Contents (Elt F) → (⟨S32x64x256, .f32⟩ : BufTy).Contents (Elt F)),
    StableHlo.unary main_v374 main_v375 (Host.exp : (⟨S32x64x256, .f32⟩ : BufTy).Contents (Elt F) → (⟨S32x64x256, .f32⟩ : BufTy).Contents (Elt F)),
    StableHlo.nullary main_cst_138 (constant S_ .f32 0x3F800000#32),
    StableHlo.unary main_cst_138 main_v376 (broadcastInDim S32x64x256 ![] bcast_S_S32x64x256 : (⟨S_, .f32⟩ : BufTy).Contents (Elt F) → (⟨S32x64x256, .f32⟩ : BufTy).Contents (Elt F)),
    StableHlo.binary main_v376 main_v375 main_v377 (addf : (⟨S32x64x256, .f32⟩ : BufTy).Contents (Elt F) → (⟨S32x64x256, .f32⟩ : BufTy).Contents (Elt F) → (⟨S32x64x256, .f32⟩ : BufTy).Contents (Elt F)),
    StableHlo.nullary main_cst_139 (constant S_ .f32 0x3F800000#32),
    StableHlo.unary main_cst_139 main_v378 (broadcastInDim S32x64x256 ![] bcast_S_S32x64x256 : (⟨S_, .f32⟩ : BufTy).Contents (Elt F) → (⟨S32x64x256, .f32⟩ : BufTy).Contents (Elt F)),
    StableHlo.binary main_v378 main_v377 main_v379 (Host.divf : (⟨S32x64x256, .f32⟩ : BufTy).Contents (Elt F) → (⟨S32x64x256, .f32⟩ : BufTy).Contents (Elt F) → (⟨S32x64x256, .f32⟩ : BufTy).Contents (Elt F)),
    StableHlo.unary main_v370 main_v380 (Host.negf : (⟨S32x64x256, .f32⟩ : BufTy).Contents (Elt F) → (⟨S32x64x256, .f32⟩ : BufTy).Contents (Elt F)),
    StableHlo.unary main_v380 main_v381 (Host.exp : (⟨S32x64x256, .f32⟩ : BufTy).Contents (Elt F) → (⟨S32x64x256, .f32⟩ : BufTy).Contents (Elt F)),
    StableHlo.nullary main_cst_140 (constant S_ .f32 0x3F800000#32),
    StableHlo.unary main_cst_140 main_v382 (broadcastInDim S32x64x256 ![] bcast_S_S32x64x256 : (⟨S_, .f32⟩ : BufTy).Contents (Elt F) → (⟨S32x64x256, .f32⟩ : BufTy).Contents (Elt F)),
    StableHlo.binary main_v382 main_v381 main_v383 (addf : (⟨S32x64x256, .f32⟩ : BufTy).Contents (Elt F) → (⟨S32x64x256, .f32⟩ : BufTy).Contents (Elt F) → (⟨S32x64x256, .f32⟩ : BufTy).Contents (Elt F)),
    StableHlo.nullary main_cst_141 (constant S_ .f32 0x3F800000#32),
    StableHlo.unary main_cst_141 main_v384 (broadcastInDim S32x64x256 ![] bcast_S_S32x64x256 : (⟨S_, .f32⟩ : BufTy).Contents (Elt F) → (⟨S32x64x256, .f32⟩ : BufTy).Contents (Elt F)),
    StableHlo.binary main_v384 main_v383 main_v385 (Host.divf : (⟨S32x64x256, .f32⟩ : BufTy).Contents (Elt F) → (⟨S32x64x256, .f32⟩ : BufTy).Contents (Elt F) → (⟨S32x64x256, .f32⟩ : BufTy).Contents (Elt F)),
    StableHlo.unary main_v371 main_v386 (Host.negf : (⟨S32x64x256, .f32⟩ : BufTy).Contents (Elt F) → (⟨S32x64x256, .f32⟩ : BufTy).Contents (Elt F)),
    StableHlo.unary main_v386 main_v387 (Host.exp : (⟨S32x64x256, .f32⟩ : BufTy).Contents (Elt F) → (⟨S32x64x256, .f32⟩ : BufTy).Contents (Elt F)),
    StableHlo.nullary main_cst_142 (constant S_ .f32 0x3F800000#32),
    StableHlo.unary main_cst_142 main_v388 (broadcastInDim S32x64x256 ![] bcast_S_S32x64x256 : (⟨S_, .f32⟩ : BufTy).Contents (Elt F) → (⟨S32x64x256, .f32⟩ : BufTy).Contents (Elt F)),
    StableHlo.binary main_v388 main_v387 main_v389 (addf : (⟨S32x64x256, .f32⟩ : BufTy).Contents (Elt F) → (⟨S32x64x256, .f32⟩ : BufTy).Contents (Elt F) → (⟨S32x64x256, .f32⟩ : BufTy).Contents (Elt F)),
    StableHlo.nullary main_cst_143 (constant S_ .f32 0x3F800000#32),
    StableHlo.unary main_cst_143 main_v390 (broadcastInDim S32x64x256 ![] bcast_S_S32x64x256 : (⟨S_, .f32⟩ : BufTy).Contents (Elt F) → (⟨S32x64x256, .f32⟩ : BufTy).Contents (Elt F)),
    StableHlo.binary main_v390 main_v389 main_v391 (Host.divf : (⟨S32x64x256, .f32⟩ : BufTy).Contents (Elt F) → (⟨S32x64x256, .f32⟩ : BufTy).Contents (Elt F) → (⟨S32x64x256, .f32⟩ : BufTy).Contents (Elt F)),
    StableHlo.unary main_v372 main_v392 (Host.negf : (⟨S32x64x256, .f32⟩ : BufTy).Contents (Elt F) → (⟨S32x64x256, .f32⟩ : BufTy).Contents (Elt F)),
    StableHlo.unary main_v392 main_v393 (Host.exp : (⟨S32x64x256, .f32⟩ : BufTy).Contents (Elt F) → (⟨S32x64x256, .f32⟩ : BufTy).Contents (Elt F)) ]

set_option maxRecDepth 8192 in
theorem c15_sub : (c15 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..⟩

/-- The buffers these operations write. -/
abbrev c15_W : List (Ref sig .tc) := [main_c_135, main_v343, main_v344, main_v345, main_v346, main_v347, main_c_136, main_v348, main_v349, main_v350, main_v351, main_v352, main_c_137, main_v353, main_v354, main_v355, main_v356, main_v357, main_v358, main_v359, main_v360, main_v361, main_v362, main_v363, main_v364, main_v365, main_v366, main_v367, main_v368, main_v369, main_v370, main_v371, main_v372, main_v373, main_v374, main_v375, main_cst_138, main_v376, main_v377, main_cst_139, main_v378, main_v379, main_v380, main_v381, main_cst_140, main_v382, main_v383, main_cst_141, main_v384, main_v385, main_v386, main_v387, main_cst_142, main_v388, main_v389, main_cst_143, main_v390, main_v391, main_v392, main_v393]

set_option maxRecDepth 8192 in
theorem c15_writes : (c15 : List (HloOp τ sig (Elt F))).Forall fun op =>
    op.writes ⊆ (c15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c15_fresh : ∀ op ∈ (c15 : List (HloOp τ sig (Elt F))), op.fresh = ∅ := by
  intro _ h; (repeat (cases h with | head => rfl | tail _ h => ?_)); exact nomatch h

/-- The operations of the printed window main_part8. -/
abbrev ops8 : List (HloOp τ sig (Elt F)) := c15

set_option maxRecDepth 100000 in
set_option maxHeartbeats 4000000 in
theorem main_part8_eq (c : Dev nD) : main_part8 (F := F) c = seq ops8 := rfl

theorem ops8_sub : (ops8 : List (HloOp τ sig (Elt F))).Forall fun op => op.bufs ⊆ tcRefs τ sig :=
  List.forall_iff_forall_mem.mpr fun op h => by
    exact List.forall_iff_forall_mem.mp c15_sub op h

theorem ops8_fresh : ∀ op ∈ (ops8 : List (HloOp τ sig (Elt F))), op.fresh = ∅ := by
  intro op h
  exact c15_fresh op h

end Cert.ReferenceIdeal.RefValue

end
-- ==== Proof.RefOps9.lean ====
/-
  The statements 541 … 600 of the reference program's @main as a list of operations (the printed window
  main_part9 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 541 … 560 of the program, as operations. -/
abbrev c16 : List (HloOp τ sig (Elt F)) :=
  [
    StableHlo.nullary main_cst_144 (constant S_ .f32 0x3F800000#32),
    StableHlo.unary main_cst_144 main_v394 (broadcastInDim S32x64x256 ![] bcast_S_S32x64x256 : (⟨S_, .f32⟩ : BufTy).Contents (Elt F) → (⟨S32x64x256, .f32⟩ : BufTy).Contents (Elt F)),
    StableHlo.binary main_v394 main_v393 main_v395 (addf : (⟨S32x64x256, .f32⟩ : BufTy).Contents (Elt F) → (⟨S32x64x256, .f32⟩ : BufTy).Contents (Elt F) → (⟨S32x64x256, .f32⟩ : BufTy).Contents (Elt F)),
    StableHlo.nullary main_cst_145 (constant S_ .f32 0x3F800000#32),
    StableHlo.unary main_cst_145 main_v396 (broadcastInDim S32x64x256 ![] bcast_S_S32x64x256 : (⟨S_, .f32⟩ : BufTy).Contents (Elt F) → (⟨S32x64x256, .f32⟩ : BufTy).Contents (Elt F)),
    StableHlo.binary main_v396 main_v395 main_v397 (Host.divf : (⟨S32x64x256, .f32⟩ : BufTy).Contents (Elt F) → (⟨S32x64x256, .f32⟩ : BufTy).Contents (Elt F) → (⟨S32x64x256, .f32⟩ : BufTy).Contents (Elt F)),
    StableHlo.unary main_v373 main_v398 (Host.tanh : (⟨S32x64x256, .f32⟩ : BufTy).Contents (Elt F) → (⟨S32x64x256, .f32⟩ : BufTy).Contents (Elt F)),
    StableHlo.binary main_v379 main_v398 main_v399 (mulf : (⟨S32x64x256, .f32⟩ : BufTy).Contents (Elt F) → (⟨S32x64x256, .f32⟩ : BufTy).Contents (Elt F) → (⟨S32x64x256, .f32⟩ : BufTy).Contents (Elt F)),
    StableHlo.binary main_v391 main_v352 main_v400 (mulf : (⟨S32x64x256, .f32⟩ : BufTy).Contents (Elt F) → (⟨S32x64x256, .f32⟩ : BufTy).Contents (Elt F) → (⟨S32x64x256, .f32⟩ : BufTy).Contents (Elt F)),
    StableHlo.binary main_v399 main_v400 main_v401 (addf : (⟨S32x64x256, .f32⟩ : BufTy).Contents (Elt F) → (⟨S32x64x256, .f32⟩ : BufTy).Contents (Elt F) → (⟨S32x64x256, .f32⟩ : BufTy).Contents (Elt F)),
    StableHlo.binary main_v397 main_v357 main_v402 (mulf : (⟨S32x64x256, .f32⟩ : BufTy).Contents (Elt F) → (⟨S32x64x256, .f32⟩ : BufTy).Contents (Elt F) → (⟨S32x64x256, .f32⟩ : BufTy).Contents (Elt F)),
    StableHlo.binary main_v401 main_v402 main_v403 (addf : (⟨S32x64x256, .f32⟩ : BufTy).Contents (Elt F) → (⟨S32x64x256, .f32⟩ : BufTy).Contents (Elt F) → (⟨S32x64x256, .f32⟩ : BufTy).Contents (Elt F)),
    StableHlo.unary main_v403 main_v404 (Host.tanh : (⟨S32x64x256, .f32⟩ : BufTy).Contents (Elt F) → (⟨S32x64x256, .f32⟩ : BufTy).Contents (Elt F)),
    StableHlo.binary main_v385 main_v404 main_v405 (mulf : (⟨S32x64x256, .f32⟩ : BufTy).Contents (Elt F) → (⟨S32x64x256, .f32⟩ : BufTy).Contents (Elt F) → (⟨S32x64x256, .f32⟩ : BufTy).Contents (Elt F)),
    StableHlo.nullary main_c_146 (constantI S_ 32 63#32),
    StableHlo.unary main_c_146 main_v406 (broadcastInDim S1 ![] bcast_S_S1 : (⟨S_, .i32⟩ : BufTy).Contents (Elt F) → (⟨S1, .i32⟩ : BufTy).Contents (Elt F)),
    StableHlo.ternary main_v335 main_v406 main_v403 main_v407 ((fun x i u => Host.scatter scatter_S32x4095x256_S1_S32x64x256_012_n_1_0 (fun _ b => b) x i u) : (⟨S32x4095x256, .f32⟩ : BufTy).Contents (Elt F) → (⟨S1, .i32⟩ : BufTy).Contents (Elt F) → (⟨S32x64x256, .f32⟩ : BufTy).Contents (Elt F) → (⟨S32x4095x256, .f32⟩ : BufTy).Contents (Elt F)),
    StableHlo.nullary main_c_147 (constantI S_ 32 63#32),
    StableHlo.unary main_c_147 main_v408 (broadcastInDim S1 ![] bcast_S_S1 : (⟨S_, .i32⟩ : BufTy).Contents (Elt F) → (⟨S1, .i32⟩ : BufTy).Contents (Elt F)),
    StableHlo.ternary main_v337 main_v408 main_v405 main_v409 ((fun x i u => Host.scatter scatter_S32x4095x256_S1_S32x64x256_012_n_1_0 (fun _ b => b) x i u) : (⟨S32x4095x256, .f32⟩ : BufTy).Contents (Elt F) → (⟨S1, .i32⟩ : BufTy).Contents (Elt F) → (⟨S32x64x256, .f32⟩ : BufTy).Contents (Elt F) → (⟨S32x4095x256, .f32⟩ : BufTy).Contents (Elt F)) ]

set_option maxRecDepth 8192 in
theorem c16_sub : (c16 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c16_W : List (Ref sig .tc) := [main_cst_144, main_v394, main_v395, main_cst_145, main_v396, main_v397, main_v398, main_v399, main_v400, main_v401, main_v402, main_v403, main_v404, main_v405, main_c_146, main_v406, main_v407, main_c_147, main_v408, main_v409]

set_option maxRecDepth 8192 in
theorem c16_writes : (c16 : List (HloOp τ sig (Elt F))).Forall fun op =>
    op.writes ⊆ (c16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c16_fresh : ∀ op ∈ (c16 : List (HloOp τ sig (Elt F))), op.fresh = ∅ := by
  intro _ h; (repeat (cases h with | head => rfl | tail _ h => ?_)); exact nomatch h

/-- The statements 561 … 600 of the program, as operations. -/
abbrev c17 : List (HloOp τ sig (Elt F)) :=
  [
    StableHlo.nullary main_c_148 (constantI S_ 32 4095#32),
    StableHlo.unary main_c_148 main_v410 (broadcastInDim S32 ![] bcast_S_S32 : (⟨S_, .i32⟩ : BufTy).Contents (Elt F) → (⟨S32, .i32⟩ : BufTy).Contents (Elt F)),
    StableHlo.binary main_c_29 main_v410 main_v411 (addi : (⟨S32, .i32⟩ : BufTy).Contents (Elt F) → (⟨S32, .i32⟩ : BufTy).Contents (Elt F) → (⟨S32, .i32⟩ : BufTy).Contents (Elt F)),
    StableHlo.ternary main_c_30 main_v411 main_c_29 main_v412 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v412 main_v413 (broadcastInDim S32x1 ![0] bcast_S32_S32x1_0 : (⟨S32, .i32⟩ : BufTy).Contents (Elt F) → (⟨S32x1, .i32⟩ : BufTy).Contents (Elt F)),
    StableHlo.binary main_v409 main_v413 main_v414 ((fun x i => Host.gather gather_S32x4095x256_S32x1_S32x32x256_02_1_n_n_1_1_321256 x i) : (⟨S32x4095x256, .f32⟩ : BufTy).Contents (Elt F) → (⟨S32x1, .i32⟩ : BufTy).Contents (Elt F) → (⟨S32x32x256, .f32⟩ : BufTy).Contents (Elt F)),
    StableHlo.nullary main_c_149 (constantI S_ 32 4095#32),
    StableHlo.unary main_c_149 main_v415 (broadcastInDim S32 ![] bcast_S_S32 : (⟨S_, .i32⟩ : BufTy).Contents (Elt F) → (⟨S32, .i32⟩ : BufTy).Contents (Elt F)),
    StableHlo.binary main_c_31 main_v415 main_v416 (addi : (⟨S32, .i32⟩ : BufTy).Contents (Elt F) → (⟨S32, .i32⟩ : BufTy).Contents (Elt F) → (⟨S32, .i32⟩ : BufTy).Contents (Elt F)),
    StableHlo.ternary main_c_32 main_v416 main_c_31 main_v417 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v417 main_v418 (broadcastInDim S32x1 ![0] bcast_S32_S32x1_0 : (⟨S32, .i32⟩ : BufTy).Contents (Elt F) → (⟨S32x1, .i32⟩ : BufTy).Contents (Elt F)),
    StableHlo.binary main_v409 main_v418 main_v419 ((fun x i => Host.gather gather_S32x4095x256_S32x1_S32x32x256_02_1_n_n_1_1_321256 x i) : (⟨S32x4095x256, .f32⟩ : BufTy).Contents (Elt F) → (⟨S32x1, .i32⟩ : BufTy).Contents (Elt F) → (⟨S32x32x256, .f32⟩ : BufTy).Contents (Elt F)),
    StableHlo.nullary main_c_150 (constantI S_ 32 4095#32),
    StableHlo.unary main_c_150 main_v420 (broadcastInDim S32 ![] bcast_S_S32 : (⟨S_, .i32⟩ : BufTy).Contents (Elt F) → (⟨S32, .i32⟩ : BufTy).Contents (Elt F)),
    StableHlo.binary main_c_29 main_v420 main_v421 (addi : (⟨S32, .i32⟩ : BufTy).Contents (Elt F) → (⟨S32, .i32⟩ : BufTy).Contents (Elt F) → (⟨S32, .i32⟩ : BufTy).Contents (Elt F)),
    StableHlo.ternary main_c_33 main_v421 main_c_29 main_v422 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v422 main_v423 (broadcastInDim S32x1 ![0] bcast_S32_S32x1_0 : (⟨S32, .i32⟩ : BufTy).Contents (Elt F) → (⟨S32x1, .i32⟩ : BufTy).Contents (Elt F)),
    StableHlo.binary main_v407 main_v423 main_v424 ((fun x i => Host.gather gather_S32x4095x256_S32x1_S32x32x256_02_1_n_n_1_1_321256 x i) : (⟨S32x4095x256, .f32⟩ : BufTy).Contents (Elt F) → (⟨S32x1, .i32⟩ : BufTy).Contents (Elt F) → (⟨S32x32x256, .f32⟩ : BufTy).Contents (Elt F)),
    StableHlo.nullary main_c_151 (constantI S_ 32 4095#32),
    StableHlo.unary main_c_151 main_v425 (broadcastInDim S32 ![] bcast_S_S32 : (⟨S_, .i32⟩ : BufTy).Contents (Elt F) → (⟨S32, .i32⟩ : BufTy).Contents (Elt F)),
    StableHlo.binary main_c_31 main_v425 main_v426 (addi : (⟨S32, .i32⟩ : BufTy).Contents (Elt F) → (⟨S32, .i32⟩ : BufTy).Contents (Elt F) → (⟨S32, .i32⟩ : BufTy).Contents (Elt F)),
    StableHlo.ternary main_c_34 main_v426 main_c_31 main_v427 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.unary main_v427 main_v428 (broadcastInDim S32x1 ![0] bcast_S32_S32x1_0 : (⟨S32, .i32⟩ : BufTy).Contents (Elt F) → (⟨S32x1, .i32⟩ : BufTy).Contents (Elt F)),
    StableHlo.binary main_v407 main_v428 main_v429 ((fun x i => Host.gather gather_S32x4095x256_S32x1_S32x32x256_02_1_n_n_1_1_321256 x i) : (⟨S32x4095x256, .f32⟩ : BufTy).Contents (Elt F) → (⟨S32x1, .i32⟩ : BufTy).Contents (Elt F) → (⟨S32x32x256, .f32⟩ : BufTy).Contents (Elt F)),
    StableHlo.unary main_v3 main_v430 ((extractStridedSlice S32x32x1280 ![0, 31, 0] · slices_S32x4095x1280_S32x32x1280_0_31_0) : (⟨S32x4095x1280, .f32⟩ : BufTy).Contents (Elt F) → (⟨S32x32x1280, .f32⟩ : BufTy).Contents (Elt F)),
    StableHlo.binary main_v414 main_arg2 main_v431 ((fun l r => Host.dotGeneral dot_S32x32x256_S1280x256_S32x32x1280_2_1_01_0_n_n none l r) : (⟨S32x32x256, .f32⟩ : BufTy).Contents (Elt F) → (⟨S1280x256, .f32⟩ : BufTy).Contents (Elt F) → (⟨S32x32x1280, .f32⟩ : BufTy).Contents (Elt F)),
    StableHlo.binary main_v430 main_v431 main_v432 (addf : (⟨S32x32x1280, .f32⟩ : BufTy).Contents (Elt F) → (⟨S32x32x1280, .f32⟩ : BufTy).Contents (Elt F) → (⟨S32x32x1280, .f32⟩ : BufTy).Contents (Elt F)),
    StableHlo.unary main_arg5 main_v433 (broadcastInDim S1x1x1280 ![2] bcast_S1280_S1x1x1280_2 : (⟨S1280, .f32⟩ : BufTy).Contents (Elt F) → (⟨S1x1x1280, .f32⟩ : BufTy).Contents (Elt F)),
    StableHlo.unary main_v433 main_v434 (broadcastInDim S32x32x1280 ![0, 1, 2] bcast_S1x1x1280_S32x32x1280_0_1_2 : (⟨S1x1x1280, .f32⟩ : BufTy).Contents (Elt F) → (⟨S32x32x1280, .f32⟩ : BufTy).Contents (Elt F)),
    StableHlo.binary main_v432 main_v434 main_v435 (addf : (⟨S32x32x1280, .f32⟩ : BufTy).Contents (Elt F) → (⟨S32x32x1280, .f32⟩ : BufTy).Contents (Elt F) → (⟨S32x32x1280, .f32⟩ : BufTy).Contents (Elt F)),
    StableHlo.binary main_v419 main_arg3 main_v436 ((fun l r => Host.dotGeneral dot_S32x32x256_S1280x256_S32x32x1280_2_1_01_0_n_n none l r) : (⟨S32x32x256, .f32⟩ : BufTy).Contents (Elt F) → (⟨S1280x256, .f32⟩ : BufTy).Contents (Elt F) → (⟨S32x32x1280, .f32⟩ : BufTy).Contents (Elt F)),
    StableHlo.binary main_v435 main_v436 main_v437 (addf : (⟨S32x32x1280, .f32⟩ : BufTy).Contents (Elt F) → (⟨S32x32x1280, .f32⟩ : BufTy).Contents (Elt F) → (⟨S32x32x1280, .f32⟩ : BufTy).Contents (Elt F)),
    StableHlo.unary main_arg6 main_v438 (broadcastInDim S1x1x1280 ![2] bcast_S1280_S1x1x1280_2 : (⟨S1280, .f32⟩ : BufTy).Contents (Elt F) → (⟨S1x1x1280, .f32⟩ : BufTy).Contents (Elt F)),
    StableHlo.unary main_v438 main_v439 (broadcastInDim S32x32x1280 ![0, 1, 2] bcast_S1x1x1280_S32x32x1280_0_1_2 : (⟨S1x1x1280, .f32⟩ : BufTy).Contents (Elt F) → (⟨S32x32x1280, .f32⟩ : BufTy).Contents (Elt F)),
    StableHlo.binary main_v437 main_v439 main_v440 (addf : (⟨S32x32x1280, .f32⟩ : BufTy).Contents (Elt F) → (⟨S32x32x1280, .f32⟩ : BufTy).Contents (Elt F) → (⟨S32x32x1280, .f32⟩ : BufTy).Contents (Elt F)),
    StableHlo.unary main_v440 main_v441 ((extractStridedSlice S32x32x256 ![0, 0, 0] · slices_S32x32x1280_S32x32x256_0_0_0) : (⟨S32x32x1280, .f32⟩ : BufTy).Contents (Elt F) → (⟨S32x32x256, .f32⟩ : BufTy).Contents (Elt F)),
    StableHlo.unary main_v440 main_v442 ((extractStridedSlice S32x32x256 ![0, 0, 256] · slices_S32x32x1280_S32x32x256_0_0_256) : (⟨S32x32x1280, .f32⟩ : BufTy).Contents (Elt F) → (⟨S32x32x256, .f32⟩ : BufTy).Contents (Elt F)),
    StableHlo.unary main_v440 main_v443 ((extractStridedSlice S32x32x256 ![0, 0, 512] · slices_S32x32x1280_S32x32x256_0_0_512) : (⟨S32x32x1280, .f32⟩ : BufTy).Contents (Elt F) → (⟨S32x32x256, .f32⟩ : BufTy).Contents (Elt F)),
    StableHlo.unary main_v440 main_v444 ((extractStridedSlice S32x32x256 ![0, 0, 768] · slices_S32x32x1280_S32x32x256_0_0_768) : (⟨S32x32x1280, .f32⟩ : BufTy).Contents (Elt F) → (⟨S32x32x256, .f32⟩ : BufTy).Contents (Elt F)),
    StableHlo.unary main_v440 main_v445 ((extractStridedSlice S32x32x256 ![0, 0, 1024] · slices_S32x32x1280_S32x32x256_0_0_1024) : (⟨S32x32x1280, .f32⟩ : BufTy).Contents (Elt F) → (⟨S32x32x256, .f32⟩ : BufTy).Contents (Elt F)) ]

set_option maxRecDepth 8192 in
theorem c17_sub : (c17 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..⟩

/-- The buffers these operations write. -/
abbrev c17_W : List (Ref sig .tc) := [main_c_148, main_v410, main_v411, main_v412, main_v413, main_v414, main_c_149, main_v415, main_v416, main_v417, main_v418, main_v419, main_c_150, main_v420, main_v421, main_v422, main_v423, main_v424, main_c_151, main_v425, main_v426, main_v427, main_v428, main_v429, main_v430, main_v431, main_v432, main_v433, main_v434, main_v435, main_v436, main_v437, main_v438, main_v439, main_v440, main_v441, main_v442, main_v443, main_v444, main_v445]

set_option maxRecDepth 8192 in
theorem c17_writes : (c17 : List (HloOp τ sig (Elt F))).Forall fun op =>
    op.writes ⊆ (c17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c17_fresh : ∀ op ∈ (c17 : List (HloOp τ sig (Elt F))), op.fresh = ∅ := by
  intro _ h; (repeat (cases h with | head => rfl | tail _ h => ?_)); exact nomatch h

/-- The operations of the printed window main_part9. -/
abbrev ops9 : List (HloOp τ sig (Elt F)) := c16 ++ c17

set_option maxRecDepth 100000 in
set_option maxHeartbeats 4000000 in
theorem main_part9_eq (c : Dev nD) : main_part9 (F := F) c = seq ops9 := rfl

theorem ops9_sub : (ops9 : List (HloOp τ sig (Elt F))).Forall fun op => op.bufs ⊆ tcRefs τ sig :=
  List.forall_iff_forall_mem.mpr fun op h => by
    simp only [ops9, List.mem_append] at h
    rcases h with h | h
    exacts [List.forall_iff_forall_mem.mp c16_sub op h, List.forall_iff_forall_mem.mp c17_sub op h]

theorem ops9_fresh : ∀ op ∈ (ops9 : List (HloOp τ sig (Elt F))), op.fresh = ∅ := by
  intro op h
  simp only [ops9, List.mem_append] at h
  rcases h with h | h
  exacts [c16_fresh op h, c17_fresh op h]

end Cert.ReferenceIdeal.RefValue

end
-- ==== Proof.RefOps10.lean ====
/-
  The statements 601 … 660 of the reference program's @main as a list of operations (the printed window
  main_part10 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 601 … 646 of the program, as operations. -/
abbrev c18 : List (HloOp τ sig (Elt F)) :=
  [
    StableHlo.unary main_v441 main_v446 (Host.negf : (⟨S32x32x256, .f32⟩ : BufTy).Contents (Elt F) → (⟨S32x32x256, .f32⟩ : BufTy).Contents (Elt F)),
    StableHlo.unary main_v446 main_v447 (Host.exp : (⟨S32x32x256, .f32⟩ : BufTy).Contents (Elt F) → (⟨S32x32x256, .f32⟩ : BufTy).Contents (Elt F)),
    StableHlo.nullary main_cst_152 (constant S_ .f32 0x3F800000#32),
    StableHlo.unary main_cst_152 main_v448 (broadcastInDim S32x32x256 ![] bcast_S_S32x32x256 : (⟨S_, .f32⟩ : BufTy).Contents (Elt F) → (⟨S32x32x256, .f32⟩ : BufTy).Contents (Elt F)),
    StableHlo.binary main_v448 main_v447 main_v449 (addf : (⟨S32x32x256, .f32⟩ : BufTy).Contents (Elt F) → (⟨S32x32x256, .f32⟩ : BufTy).Contents (Elt F) → (⟨S32x32x256, .f32⟩ : BufTy).Contents (Elt F)),
    StableHlo.nullary main_cst_153 (constant S_ .f32 0x3F800000#32),
    StableHlo.unary main_cst_153 main_v450 (broadcastInDim S32x32x256 ![] bcast_S_S32x32x256 : (⟨S_, .f32⟩ : BufTy).Contents (Elt F) → (⟨S32x32x256, .f32⟩ : BufTy).Contents (Elt F)),
    StableHlo.binary main_v450 main_v449 main_v451 (Host.divf : (⟨S32x32x256, .f32⟩ : BufTy).Contents (Elt F) → (⟨S32x32x256, .f32⟩ : BufTy).Contents (Elt F) → (⟨S32x32x256, .f32⟩ : BufTy).Contents (Elt F)),
    StableHlo.unary main_v442 main_v452 (Host.negf : (⟨S32x32x256, .f32⟩ : BufTy).Contents (Elt F) → (⟨S32x32x256, .f32⟩ : BufTy).Contents (Elt F)),
    StableHlo.unary main_v452 main_v453 (Host.exp : (⟨S32x32x256, .f32⟩ : BufTy).Contents (Elt F) → (⟨S32x32x256, .f32⟩ : BufTy).Contents (Elt F)),
    StableHlo.nullary main_cst_154 (constant S_ .f32 0x3F800000#32),
    StableHlo.unary main_cst_154 main_v454 (broadcastInDim S32x32x256 ![] bcast_S_S32x32x256 : (⟨S_, .f32⟩ : BufTy).Contents (Elt F) → (⟨S32x32x256, .f32⟩ : BufTy).Contents (Elt F)),
    StableHlo.binary main_v454 main_v453 main_v455 (addf : (⟨S32x32x256, .f32⟩ : BufTy).Contents (Elt F) → (⟨S32x32x256, .f32⟩ : BufTy).Contents (Elt F) → (⟨S32x32x256, .f32⟩ : BufTy).Contents (Elt F)),
    StableHlo.nullary main_cst_155 (constant S_ .f32 0x3F800000#32),
    StableHlo.unary main_cst_155 main_v456 (broadcastInDim S32x32x256 ![] bcast_S_S32x32x256 : (⟨S_, .f32⟩ : BufTy).Contents (Elt F) → (⟨S32x32x256, .f32⟩ : BufTy).Contents (Elt F)),
    StableHlo.binary main_v456 main_v455 main_v457 (Host.divf : (⟨S32x32x256, .f32⟩ : BufTy).Contents (Elt F) → (⟨S32x32x256, .f32⟩ : BufTy).Contents (Elt F) → (⟨S32x32x256, .f32⟩ : BufTy).Contents (Elt F)),
    StableHlo.unary main_v443 main_v458 (Host.negf : (⟨S32x32x256, .f32⟩ : BufTy).Contents (Elt F) → (⟨S32x32x256, .f32⟩ : BufTy).Contents (Elt F)),
    StableHlo.unary main_v458 main_v459 (Host.exp : (⟨S32x32x256, .f32⟩ : BufTy).Contents (Elt F) → (⟨S32x32x256, .f32⟩ : BufTy).Contents (Elt F)),
    StableHlo.nullary main_cst_156 (constant S_ .f32 0x3F800000#32),
    StableHlo.unary main_cst_156 main_v460 (broadcastInDim S32x32x256 ![] bcast_S_S32x32x256 : (⟨S_, .f32⟩ : BufTy).Contents (Elt F) → (⟨S32x32x256, .f32⟩ : BufTy).Contents (Elt F)),
    StableHlo.binary main_v460 main_v459 main_v461 (addf : (⟨S32x32x256, .f32⟩ : BufTy).Contents (Elt F) → (⟨S32x32x256, .f32⟩ : BufTy).Contents (Elt F) → (⟨S32x32x256, .f32⟩ : BufTy).Contents (Elt F)),
    StableHlo.nullary main_cst_157 (constant S_ .f32 0x3F800000#32),
    StableHlo.unary main_cst_157 main_v462 (broadcastInDim S32x32x256 ![] bcast_S_S32x32x256 : (⟨S_, .f32⟩ : BufTy).Contents (Elt F) → (⟨S32x32x256, .f32⟩ : BufTy).Contents (Elt F)),
    StableHlo.binary main_v462 main_v461 main_v463 (Host.divf : (⟨S32x32x256, .f32⟩ : BufTy).Contents (Elt F) → (⟨S32x32x256, .f32⟩ : BufTy).Contents (Elt F) → (⟨S32x32x256, .f32⟩ : BufTy).Contents (Elt F)),
    StableHlo.unary main_v444 main_v464 (Host.negf : (⟨S32x32x256, .f32⟩ : BufTy).Contents (Elt F) → (⟨S32x32x256, .f32⟩ : BufTy).Contents (Elt F)),
    StableHlo.unary main_v464 main_v465 (Host.exp : (⟨S32x32x256, .f32⟩ : BufTy).Contents (Elt F) → (⟨S32x32x256, .f32⟩ : BufTy).Contents (Elt F)),
    StableHlo.nullary main_cst_158 (constant S_ .f32 0x3F800000#32),
    StableHlo.unary main_cst_158 main_v466 (broadcastInDim S32x32x256 ![] bcast_S_S32x32x256 : (⟨S_, .f32⟩ : BufTy).Contents (Elt F) → (⟨S32x32x256, .f32⟩ : BufTy).Contents (Elt F)),
    StableHlo.binary main_v466 main_v465 main_v467 (addf : (⟨S32x32x256, .f32⟩ : BufTy).Contents (Elt F) → (⟨S32x32x256, .f32⟩ : BufTy).Contents (Elt F) → (⟨S32x32x256, .f32⟩ : BufTy).Contents (Elt F)),
    StableHlo.nullary main_cst_159 (constant S_ .f32 0x3F800000#32),
    StableHlo.unary main_cst_159 main_v468 (broadcastInDim S32x32x256 ![] bcast_S_S32x32x256 : (⟨S_, .f32⟩ : BufTy).Contents (Elt F) → (⟨S32x32x256, .f32⟩ : BufTy).Contents (Elt F)),
    StableHlo.binary main_v468 main_v467 main_v469 (Host.divf : (⟨S32x32x256, .f32⟩ : BufTy).Contents (Elt F) → (⟨S32x32x256, .f32⟩ : BufTy).Contents (Elt F) → (⟨S32x32x256, .f32⟩ : BufTy).Contents (Elt F)),
    StableHlo.unary main_v445 main_v470 (Host.tanh : (⟨S32x32x256, .f32⟩ : BufTy).Contents (Elt F) → (⟨S32x32x256, .f32⟩ : BufTy).Contents (Elt F)),
    StableHlo.binary main_v451 main_v470 main_v471 (mulf : (⟨S32x32x256, .f32⟩ : BufTy).Contents (Elt F) → (⟨S32x32x256, .f32⟩ : BufTy).Contents (Elt F) → (⟨S32x32x256, .f32⟩ : BufTy).Contents (Elt F)),
    StableHlo.binary main_v463 main_v424 main_v472 (mulf : (⟨S32x32x256, .f32⟩ : BufTy).Contents (Elt F) → (⟨S32x32x256, .f32⟩ : BufTy).Contents (Elt F) → (⟨S32x32x256, .f32⟩ : BufTy).Contents (Elt F)),
    StableHlo.binary main_v471 main_v472 main_v473 (addf : (⟨S32x32x256, .f32⟩ : BufTy).Contents (Elt F) → (⟨S32x32x256, .f32⟩ : BufTy).Contents (Elt F) → (⟨S32x32x256, .f32⟩ : BufTy).Contents (Elt F)),
    StableHlo.binary main_v469 main_v429 main_v474 (mulf : (⟨S32x32x256, .f32⟩ : BufTy).Contents (Elt F) → (⟨S32x32x256, .f32⟩ : BufTy).Contents (Elt F) → (⟨S32x32x256, .f32⟩ : BufTy).Contents (Elt F)),
    StableHlo.binary main_v473 main_v474 main_v475 (addf : (⟨S32x32x256, .f32⟩ : BufTy).Contents (Elt F) → (⟨S32x32x256, .f32⟩ : BufTy).Contents (Elt F) → (⟨S32x32x256, .f32⟩ : BufTy).Contents (Elt F)),
    StableHlo.unary main_v475 main_v476 (Host.tanh : (⟨S32x32x256, .f32⟩ : BufTy).Contents (Elt F) → (⟨S32x32x256, .f32⟩ : BufTy).Contents (Elt F)),
    StableHlo.binary main_v457 main_v476 main_v477 (mulf : (⟨S32x32x256, .f32⟩ : BufTy).Contents (Elt F) → (⟨S32x32x256, .f32⟩ : BufTy).Contents (Elt F) → (⟨S32x32x256, .f32⟩ : BufTy).Contents (Elt F)),
    StableHlo.nullary main_c_160 (constantI S_ 32 31#32),
    StableHlo.unary main_c_160 main_v478 (broadcastInDim S1 ![] bcast_S_S1 : (⟨S_, .i32⟩ : BufTy).Contents (Elt F) → (⟨S1, .i32⟩ : BufTy).Contents (Elt F)),
    StableHlo.ternary main_v407 main_v478 main_v475 main_v479 ((fun x i u => Host.scatter scatter_S32x4095x256_S1_S32x32x256_012_n_1_0 (fun _ b => b) x i u) : (⟨S32x4095x256, .f32⟩ : BufTy).Contents (Elt F) → (⟨S1, .i32⟩ : BufTy).Contents (Elt F) → (⟨S32x32x256, .f32⟩ : BufTy).Contents (Elt F) → (⟨S32x4095x256, .f32⟩ : BufTy).Contents (Elt F)),
    StableHlo.nullary main_c_161 (constantI S_ 32 31#32),
    StableHlo.unary main_c_161 main_v480 (broadcastInDim S1 ![] bcast_S_S1 : (⟨S_, .i32⟩ : BufTy).Contents (Elt F) → (⟨S1, .i32⟩ : BufTy).Contents (Elt F)),
    StableHlo.ternary main_v409 main_v480 main_v477 main_v481 ((fun x i u => Host.scatter scatter_S32x4095x256_S1_S32x32x256_012_n_1_0 (fun _ b => b) x i u) : (⟨S32x4095x256, .f32⟩ : BufTy).Contents (Elt F) → (⟨S1, .i32⟩ : BufTy).Contents (Elt F) → (⟨S32x32x256, .f32⟩ : BufTy).Contents (Elt F) → (⟨S32x4095x256, .f32⟩ : BufTy).Contents (Elt F)) ]

set_option maxRecDepth 8192 in
theorem c18_sub : (c18 : List (HloOp τ sig (Elt F))).Forall fun op => op.bufs ⊆ tcRefs τ sig :=
  ⟨unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c18_W : List (Ref sig .tc) := [main_v446, main_v447, main_cst_152, main_v448, main_v449, main_cst_153, main_v450, main_v451, main_v452, main_v453, main_cst_154, main_v454, main_v455, main_cst_155, main_v456, main_v457, main_v458, main_v459, main_cst_156, main_v460, main_v461, main_cst_157, main_v462, main_v463, main_v464, main_v465, main_cst_158, main_v466, main_v467, main_cst_159, main_v468, main_v469, main_v470, main_v471, main_v472, main_v473, main_v474, main_v475, main_v476, main_v477, main_c_160, main_v478, main_v479, main_c_161, main_v480, main_v481]

set_option maxRecDepth 8192 in
theorem c18_writes : (c18 : List (HloOp τ sig (Elt F))).Forall fun op =>
    op.writes ⊆ (c18_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c18_fresh : ∀ op ∈ (c18 : List (HloOp τ sig (Elt F))), op.fresh = ∅ := by
  intro _ h; (repeat (cases h with | head => rfl | tail _ h => ?_)); exact nomatch h

/-- The statements 647 … 660 of the program, as operations. -/
abbrev c19 : List (HloOp τ sig (Elt F)) :=
  [
    StableHlo.nullary main_c_162 (constantI S_ 32 4095#32),
    StableHlo.unary main_c_162 main_v482 (broadcastInDim S16 ![] bcast_S_S16 : (⟨S_, .i32⟩ : BufTy).Contents (Elt F) → (⟨S16, .i32⟩ : BufTy).Contents (Elt F)),
    StableHlo.binary main_c_35 main_v482 main_v483 (addi : (⟨S16, .i32⟩ : BufTy).Contents (Elt F) → (⟨S16, .i32⟩ : BufTy).Contents (Elt F) → (⟨S16, .i32⟩ : BufTy).Contents (Elt F)),
    StableHlo.ternary main_c_36 main_v483 main_c_35 main_v484 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v484 main_v485 (broadcastInDim S16x1 ![0] bcast_S16_S16x1_0 : (⟨S16, .i32⟩ : BufTy).Contents (Elt F) → (⟨S16x1, .i32⟩ : BufTy).Contents (Elt F)),
    StableHlo.binary main_v481 main_v485 main_v486 ((fun x i => Host.gather gather_S32x4095x256_S16x1_S32x16x256_02_1_n_n_1_1_321256 x i) : (⟨S32x4095x256, .f32⟩ : BufTy).Contents (Elt F) → (⟨S16x1, .i32⟩ : BufTy).Contents (Elt F) → (⟨S32x16x256, .f32⟩ : BufTy).Contents (Elt F)),
    StableHlo.nullary main_c_163 (constantI S_ 32 4095#32),
    StableHlo.unary main_c_163 main_v487 (broadcastInDim S16 ![] bcast_S_S16 : (⟨S_, .i32⟩ : BufTy).Contents (Elt F) → (⟨S16, .i32⟩ : BufTy).Contents (Elt F)),
    StableHlo.binary main_c_37 main_v487 main_v488 (addi : (⟨S16, .i32⟩ : BufTy).Contents (Elt F) → (⟨S16, .i32⟩ : BufTy).Contents (Elt F) → (⟨S16, .i32⟩ : BufTy).Contents (Elt F)),
    StableHlo.ternary main_c_38 main_v488 main_c_37 main_v489 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v489 main_v490 (broadcastInDim S16x1 ![0] bcast_S16_S16x1_0 : (⟨S16, .i32⟩ : BufTy).Contents (Elt F) → (⟨S16x1, .i32⟩ : BufTy).Contents (Elt F)),
    StableHlo.binary main_v481 main_v490 main_v491 ((fun x i => Host.gather gather_S32x4095x256_S16x1_S32x16x256_02_1_n_n_1_1_321256 x i) : (⟨S32x4095x256, .f32⟩ : BufTy).Contents (Elt F) → (⟨S16x1, .i32⟩ : BufTy).Contents (Elt F) → (⟨S32x16x256, .f32⟩ : BufTy).Contents (Elt F)),
    StableHlo.nullary main_c_164 (constantI S_ 32 4095#32),
    StableHlo.unary main_c_164 main_v492 (broadcastInDim S16 ![] bcast_S_S16 : (⟨S_, .i32⟩ : BufTy).Contents (Elt F) → (⟨S16, .i32⟩ : BufTy).Contents (Elt F)) ]

set_option maxRecDepth 8192 in
theorem c19_sub : (c19 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..⟩

/-- The buffers these operations write. -/
abbrev c19_W : List (Ref sig .tc) := [main_c_162, main_v482, main_v483, main_v484, main_v485, main_v486, main_c_163, main_v487, main_v488, main_v489, main_v490, main_v491, main_c_164, main_v492]

set_option maxRecDepth 8192 in
theorem c19_writes : (c19 : List (HloOp τ sig (Elt F))).Forall fun op =>
    op.writes ⊆ (c19_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c19_fresh : ∀ op ∈ (c19 : List (HloOp τ sig (Elt F))), op.fresh = ∅ := by
  intro _ h; (repeat (cases h with | head => rfl | tail _ h => ?_)); exact nomatch h

/-- The operations of the printed window main_part10. -/
abbrev ops10 : List (HloOp τ sig (Elt F)) := c18 ++ c19

set_option maxRecDepth 100000 in
set_option maxHeartbeats 4000000 in
theorem main_part10_eq (c : Dev nD) : main_part10 (F := F) c = seq ops10 := rfl

theorem ops10_sub : (ops10 : List (HloOp τ sig (Elt F))).Forall fun op => op.bufs ⊆ tcRefs τ sig :=
  List.forall_iff_forall_mem.mpr fun op h => by
    simp only [ops10, List.mem_append] at h
    rcases h with h | h
    exacts [List.forall_iff_forall_mem.mp c18_sub op h, List.forall_iff_forall_mem.mp c19_sub op h]

theorem ops10_fresh : ∀ op ∈ (ops10 : List (HloOp τ sig (Elt F))), op.fresh = ∅ := by
  intro op h
  simp only [ops10, List.mem_append] at h
  rcases h with h | h
  exacts [c18_fresh op h, c19_fresh op h]

end Cert.ReferenceIdeal.RefValue

end
-- ==== Proof.RefOps11.lean ====
/-
  The statements 661 … 720 of the reference program's @main as a list of operations (the printed window
  main_part11 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 661 … 720 of the program, as operations. -/
abbrev c20 : List (HloOp τ sig (Elt F)) :=
  [
    StableHlo.binary main_c_35 main_v492 main_v493 (addi : (⟨S16, .i32⟩ : BufTy).Contents (Elt F) → (⟨S16, .i32⟩ : BufTy).Contents (Elt F) → (⟨S16, .i32⟩ : BufTy).Contents (Elt F)),
    StableHlo.ternary main_c_39 main_v493 main_c_35 main_v494 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v494 main_v495 (broadcastInDim S16x1 ![0] bcast_S16_S16x1_0 : (⟨S16, .i32⟩ : BufTy).Contents (Elt F) → (⟨S16x1, .i32⟩ : BufTy).Contents (Elt F)),
    StableHlo.binary main_v479 main_v495 main_v496 ((fun x i => Host.gather gather_S32x4095x256_S16x1_S32x16x256_02_1_n_n_1_1_321256 x i) : (⟨S32x4095x256, .f32⟩ : BufTy).Contents (Elt F) → (⟨S16x1, .i32⟩ : BufTy).Contents (Elt F) → (⟨S32x16x256, .f32⟩ : BufTy).Contents (Elt F)),
    StableHlo.nullary main_c_165 (constantI S_ 32 4095#32),
    StableHlo.unary main_c_165 main_v497 (broadcastInDim S16 ![] bcast_S_S16 : (⟨S_, .i32⟩ : BufTy).Contents (Elt F) → (⟨S16, .i32⟩ : BufTy).Contents (Elt F)),
    StableHlo.binary main_c_37 main_v497 main_v498 (addi : (⟨S16, .i32⟩ : BufTy).Contents (Elt F) → (⟨S16, .i32⟩ : BufTy).Contents (Elt F) → (⟨S16, .i32⟩ : BufTy).Contents (Elt F)),
    StableHlo.ternary main_c_40 main_v498 main_c_37 main_v499 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v499 main_v500 (broadcastInDim S16x1 ![0] bcast_S16_S16x1_0 : (⟨S16, .i32⟩ : BufTy).Contents (Elt F) → (⟨S16x1, .i32⟩ : BufTy).Contents (Elt F)),
    StableHlo.binary main_v479 main_v500 main_v501 ((fun x i => Host.gather gather_S32x4095x256_S16x1_S32x16x256_02_1_n_n_1_1_321256 x i) : (⟨S32x4095x256, .f32⟩ : BufTy).Contents (Elt F) → (⟨S16x1, .i32⟩ : BufTy).Contents (Elt F) → (⟨S32x16x256, .f32⟩ : BufTy).Contents (Elt F)),
    StableHlo.unary main_v3 main_v502 ((extractStridedSlice S32x16x1280 ![0, 15, 0] · slices_S32x4095x1280_S32x16x1280_0_15_0) : (⟨S32x4095x1280, .f32⟩ : BufTy).Contents (Elt F) → (⟨S32x16x1280, .f32⟩ : BufTy).Contents (Elt F)),
    StableHlo.binary main_v486 main_arg2 main_v503 ((fun l r => Host.dotGeneral dot_S32x16x256_S1280x256_S32x16x1280_2_1_01_0_n_n none l r) : (⟨S32x16x256, .f32⟩ : BufTy).Contents (Elt F) → (⟨S1280x256, .f32⟩ : BufTy).Contents (Elt F) → (⟨S32x16x1280, .f32⟩ : BufTy).Contents (Elt F)),
    StableHlo.binary main_v502 main_v503 main_v504 (addf : (⟨S32x16x1280, .f32⟩ : BufTy).Contents (Elt F) → (⟨S32x16x1280, .f32⟩ : BufTy).Contents (Elt F) → (⟨S32x16x1280, .f32⟩ : BufTy).Contents (Elt F)),
    StableHlo.unary main_arg5 main_v505 (broadcastInDim S1x1x1280 ![2] bcast_S1280_S1x1x1280_2 : (⟨S1280, .f32⟩ : BufTy).Contents (Elt F) → (⟨S1x1x1280, .f32⟩ : BufTy).Contents (Elt F)),
    StableHlo.unary main_v505 main_v506 (broadcastInDim S32x16x1280 ![0, 1, 2] bcast_S1x1x1280_S32x16x1280_0_1_2 : (⟨S1x1x1280, .f32⟩ : BufTy).Contents (Elt F) → (⟨S32x16x1280, .f32⟩ : BufTy).Contents (Elt F)),
    StableHlo.binary main_v504 main_v506 main_v507 (addf : (⟨S32x16x1280, .f32⟩ : BufTy).Contents (Elt F) → (⟨S32x16x1280, .f32⟩ : BufTy).Contents (Elt F) → (⟨S32x16x1280, .f32⟩ : BufTy).Contents (Elt F)),
    StableHlo.binary main_v491 main_arg3 main_v508 ((fun l r => Host.dotGeneral dot_S32x16x256_S1280x256_S32x16x1280_2_1_01_0_n_n none l r) : (⟨S32x16x256, .f32⟩ : BufTy).Contents (Elt F) → (⟨S1280x256, .f32⟩ : BufTy).Contents (Elt F) → (⟨S32x16x1280, .f32⟩ : BufTy).Contents (Elt F)),
    StableHlo.binary main_v507 main_v508 main_v509 (addf : (⟨S32x16x1280, .f32⟩ : BufTy).Contents (Elt F) → (⟨S32x16x1280, .f32⟩ : BufTy).Contents (Elt F) → (⟨S32x16x1280, .f32⟩ : BufTy).Contents (Elt F)),
    StableHlo.unary main_arg6 main_v510 (broadcastInDim S1x1x1280 ![2] bcast_S1280_S1x1x1280_2 : (⟨S1280, .f32⟩ : BufTy).Contents (Elt F) → (⟨S1x1x1280, .f32⟩ : BufTy).Contents (Elt F)),
    StableHlo.unary main_v510 main_v511 (broadcastInDim S32x16x1280 ![0, 1, 2] bcast_S1x1x1280_S32x16x1280_0_1_2 : (⟨S1x1x1280, .f32⟩ : BufTy).Contents (Elt F) → (⟨S32x16x1280, .f32⟩ : BufTy).Contents (Elt F)),
    StableHlo.binary main_v509 main_v511 main_v512 (addf : (⟨S32x16x1280, .f32⟩ : BufTy).Contents (Elt F) → (⟨S32x16x1280, .f32⟩ : BufTy).Contents (Elt F) → (⟨S32x16x1280, .f32⟩ : BufTy).Contents (Elt F)),
    StableHlo.unary main_v512 main_v513 ((extractStridedSlice S32x16x256 ![0, 0, 0] · slices_S32x16x1280_S32x16x256_0_0_0) : (⟨S32x16x1280, .f32⟩ : BufTy).Contents (Elt F) → (⟨S32x16x256, .f32⟩ : BufTy).Contents (Elt F)),
    StableHlo.unary main_v512 main_v514 ((extractStridedSlice S32x16x256 ![0, 0, 256] · slices_S32x16x1280_S32x16x256_0_0_256) : (⟨S32x16x1280, .f32⟩ : BufTy).Contents (Elt F) → (⟨S32x16x256, .f32⟩ : BufTy).Contents (Elt F)),
    StableHlo.unary main_v512 main_v515 ((extractStridedSlice S32x16x256 ![0, 0, 512] · slices_S32x16x1280_S32x16x256_0_0_512) : (⟨S32x16x1280, .f32⟩ : BufTy).Contents (Elt F) → (⟨S32x16x256, .f32⟩ : BufTy).Contents (Elt F)),
    StableHlo.unary main_v512 main_v516 ((extractStridedSlice S32x16x256 ![0, 0, 768] · slices_S32x16x1280_S32x16x256_0_0_768) : (⟨S32x16x1280, .f32⟩ : BufTy).Contents (Elt F) → (⟨S32x16x256, .f32⟩ : BufTy).Contents (Elt F)),
    StableHlo.unary main_v512 main_v517 ((extractStridedSlice S32x16x256 ![0, 0, 1024] · slices_S32x16x1280_S32x16x256_0_0_1024) : (⟨S32x16x1280, .f32⟩ : BufTy).Contents (Elt F) → (⟨S32x16x256, .f32⟩ : BufTy).Contents (Elt F)),
    StableHlo.unary main_v513 main_v518 (Host.negf : (⟨S32x16x256, .f32⟩ : BufTy).Contents (Elt F) → (⟨S32x16x256, .f32⟩ : BufTy).Contents (Elt F)),
    StableHlo.unary main_v518 main_v519 (Host.exp : (⟨S32x16x256, .f32⟩ : BufTy).Contents (Elt F) → (⟨S32x16x256, .f32⟩ : BufTy).Contents (Elt F)),
    StableHlo.nullary main_cst_166 (constant S_ .f32 0x3F800000#32),
    StableHlo.unary main_cst_166 main_v520 (broadcastInDim S32x16x256 ![] bcast_S_S32x16x256 : (⟨S_, .f32⟩ : BufTy).Contents (Elt F) → (⟨S32x16x256, .f32⟩ : BufTy).Contents (Elt F)),
    StableHlo.binary main_v520 main_v519 main_v521 (addf : (⟨S32x16x256, .f32⟩ : BufTy).Contents (Elt F) → (⟨S32x16x256, .f32⟩ : BufTy).Contents (Elt F) → (⟨S32x16x256, .f32⟩ : BufTy).Contents (Elt F)),
    StableHlo.nullary main_cst_167 (constant S_ .f32 0x3F800000#32),
    StableHlo.unary main_cst_167 main_v522 (broadcastInDim S32x16x256 ![] bcast_S_S32x16x256 : (⟨S_, .f32⟩ : BufTy).Contents (Elt F) → (⟨S32x16x256, .f32⟩ : BufTy).Contents (Elt F)),
    StableHlo.binary main_v522 main_v521 main_v523 (Host.divf : (⟨S32x16x256, .f32⟩ : BufTy).Contents (Elt F) → (⟨S32x16x256, .f32⟩ : BufTy).Contents (Elt F) → (⟨S32x16x256, .f32⟩ : BufTy).Contents (Elt F)),
    StableHlo.unary main_v514 main_v524 (Host.negf : (⟨S32x16x256, .f32⟩ : BufTy).Contents (Elt F) → (⟨S32x16x256, .f32⟩ : BufTy).Contents (Elt F)),
    StableHlo.unary main_v524 main_v525 (Host.exp : (⟨S32x16x256, .f32⟩ : BufTy).Contents (Elt F) → (⟨S32x16x256, .f32⟩ : BufTy).Contents (Elt F)),
    StableHlo.nullary main_cst_168 (constant S_ .f32 0x3F800000#32),
    StableHlo.unary main_cst_168 main_v526 (broadcastInDim S32x16x256 ![] bcast_S_S32x16x256 : (⟨S_, .f32⟩ : BufTy).Contents (Elt F) → (⟨S32x16x256, .f32⟩ : BufTy).Contents (Elt F)),
    StableHlo.binary main_v526 main_v525 main_v527 (addf : (⟨S32x16x256, .f32⟩ : BufTy).Contents (Elt F) → (⟨S32x16x256, .f32⟩ : BufTy).Contents (Elt F) → (⟨S32x16x256, .f32⟩ : BufTy).Contents (Elt F)),
    StableHlo.nullary main_cst_169 (constant S_ .f32 0x3F800000#32),
    StableHlo.unary main_cst_169 main_v528 (broadcastInDim S32x16x256 ![] bcast_S_S32x16x256 : (⟨S_, .f32⟩ : BufTy).Contents (Elt F) → (⟨S32x16x256, .f32⟩ : BufTy).Contents (Elt F)),
    StableHlo.binary main_v528 main_v527 main_v529 (Host.divf : (⟨S32x16x256, .f32⟩ : BufTy).Contents (Elt F) → (⟨S32x16x256, .f32⟩ : BufTy).Contents (Elt F) → (⟨S32x16x256, .f32⟩ : BufTy).Contents (Elt F)),
    StableHlo.unary main_v515 main_v530 (Host.negf : (⟨S32x16x256, .f32⟩ : BufTy).Contents (Elt F) → (⟨S32x16x256, .f32⟩ : BufTy).Contents (Elt F)),
    StableHlo.unary main_v530 main_v531 (Host.exp : (⟨S32x16x256, .f32⟩ : BufTy).Contents (Elt F) → (⟨S32x16x256, .f32⟩ : BufTy).Contents (Elt F)),
    StableHlo.nullary main_cst_170 (constant S_ .f32 0x3F800000#32),
    StableHlo.unary main_cst_170 main_v532 (broadcastInDim S32x16x256 ![] bcast_S_S32x16x256 : (⟨S_, .f32⟩ : BufTy).Contents (Elt F) → (⟨S32x16x256, .f32⟩ : BufTy).Contents (Elt F)),
    StableHlo.binary main_v532 main_v531 main_v533 (addf : (⟨S32x16x256, .f32⟩ : BufTy).Contents (Elt F) → (⟨S32x16x256, .f32⟩ : BufTy).Contents (Elt F) → (⟨S32x16x256, .f32⟩ : BufTy).Contents (Elt F)),
    StableHlo.nullary main_cst_171 (constant S_ .f32 0x3F800000#32),
    StableHlo.unary main_cst_171 main_v534 (broadcastInDim S32x16x256 ![] bcast_S_S32x16x256 : (⟨S_, .f32⟩ : BufTy).Contents (Elt F) → (⟨S32x16x256, .f32⟩ : BufTy).Contents (Elt F)),
    StableHlo.binary main_v534 main_v533 main_v535 (Host.divf : (⟨S32x16x256, .f32⟩ : BufTy).Contents (Elt F) → (⟨S32x16x256, .f32⟩ : BufTy).Contents (Elt F) → (⟨S32x16x256, .f32⟩ : BufTy).Contents (Elt F)),
    StableHlo.unary main_v516 main_v536 (Host.negf : (⟨S32x16x256, .f32⟩ : BufTy).Contents (Elt F) → (⟨S32x16x256, .f32⟩ : BufTy).Contents (Elt F)),
    StableHlo.unary main_v536 main_v537 (Host.exp : (⟨S32x16x256, .f32⟩ : BufTy).Contents (Elt F) → (⟨S32x16x256, .f32⟩ : BufTy).Contents (Elt F)),
    StableHlo.nullary main_cst_172 (constant S_ .f32 0x3F800000#32),
    StableHlo.unary main_cst_172 main_v538 (broadcastInDim S32x16x256 ![] bcast_S_S32x16x256 : (⟨S_, .f32⟩ : BufTy).Contents (Elt F) → (⟨S32x16x256, .f32⟩ : BufTy).Contents (Elt F)),
    StableHlo.binary main_v538 main_v537 main_v539 (addf : (⟨S32x16x256, .f32⟩ : BufTy).Contents (Elt F) → (⟨S32x16x256, .f32⟩ : BufTy).Contents (Elt F) → (⟨S32x16x256, .f32⟩ : BufTy).Contents (Elt F)),
    StableHlo.nullary main_cst_173 (constant S_ .f32 0x3F800000#32),
    StableHlo.unary main_cst_173 main_v540 (broadcastInDim S32x16x256 ![] bcast_S_S32x16x256 : (⟨S_, .f32⟩ : BufTy).Contents (Elt F) → (⟨S32x16x256, .f32⟩ : BufTy).Contents (Elt F)),
    StableHlo.binary main_v540 main_v539 main_v541 (Host.divf : (⟨S32x16x256, .f32⟩ : BufTy).Contents (Elt F) → (⟨S32x16x256, .f32⟩ : BufTy).Contents (Elt F) → (⟨S32x16x256, .f32⟩ : BufTy).Contents (Elt F)),
    StableHlo.unary main_v517 main_v542 (Host.tanh : (⟨S32x16x256, .f32⟩ : BufTy).Contents (Elt F) → (⟨S32x16x256, .f32⟩ : BufTy).Contents (Elt F)),
    StableHlo.binary main_v523 main_v542 main_v543 (mulf : (⟨S32x16x256, .f32⟩ : BufTy).Contents (Elt F) → (⟨S32x16x256, .f32⟩ : BufTy).Contents (Elt F) → (⟨S32x16x256, .f32⟩ : BufTy).Contents (Elt F)) ]

set_option maxRecDepth 8192 in
theorem c20_sub : (c20 : List (HloOp τ sig (Elt F))).Forall fun op => op.bufs ⊆ tcRefs τ sig :=
  ⟨binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..⟩

/-- The buffers these operations write. -/
abbrev c20_W : List (Ref sig .tc) := [main_v493, main_v494, main_v495, main_v496, main_c_165, main_v497, main_v498, main_v499, main_v500, main_v501, main_v502, main_v503, main_v504, main_v505, main_v506, main_v507, main_v508, main_v509, main_v510, main_v511, main_v512, main_v513, main_v514, main_v515, main_v516, main_v517, main_v518, main_v519, main_cst_166, main_v520, main_v521, main_cst_167, main_v522, main_v523, main_v524, main_v525, main_cst_168, main_v526, main_v527, main_cst_169, main_v528, main_v529, main_v530, main_v531, main_cst_170, main_v532, main_v533, main_cst_171, main_v534, main_v535, main_v536, main_v537, main_cst_172, main_v538, main_v539, main_cst_173, main_v540, main_v541, main_v542, main_v543]

set_option maxRecDepth 8192 in
theorem c20_writes : (c20 : List (HloOp τ sig (Elt F))).Forall fun op =>
    op.writes ⊆ (c20_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c20_fresh : ∀ op ∈ (c20 : List (HloOp τ sig (Elt F))), op.fresh = ∅ := by
  intro _ h; (repeat (cases h with | head => rfl | tail _ h => ?_)); exact nomatch h

/-- The operations of the printed window main_part11. -/
abbrev ops11 : List (HloOp τ sig (Elt F)) := c20

set_option maxRecDepth 100000 in
set_option maxHeartbeats 4000000 in
theorem main_part11_eq (c : Dev nD) : main_part11 (F := F) c = seq ops11 := rfl

theorem ops11_sub : (ops11 : List (HloOp τ sig (Elt F))).Forall fun op => op.bufs ⊆ tcRefs τ sig :=
  List.forall_iff_forall_mem.mpr fun op h => by
    exact List.forall_iff_forall_mem.mp c20_sub op h

theorem ops11_fresh : ∀ op ∈ (ops11 : List (HloOp τ sig (Elt F))), op.fresh = ∅ := by
  intro op h
  exact c20_fresh op h

end Cert.ReferenceIdeal.RefValue

end
-- ==== Proof.RefOps12.lean ====
/-
  The statements 721 … 780 of the reference program's @main as a list of operations (the printed window
  main_part12 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 721 … 732 of the program, as operations. -/
abbrev c21 : List (HloOp τ sig (Elt F)) :=
  [
    StableHlo.binary main_v535 main_v496 main_v544 (mulf : (⟨S32x16x256, .f32⟩ : BufTy).Contents (Elt F) → (⟨S32x16x256, .f32⟩ : BufTy).Contents (Elt F) → (⟨S32x16x256, .f32⟩ : BufTy).Contents (Elt F)),
    StableHlo.binary main_v543 main_v544 main_v545 (addf : (⟨S32x16x256, .f32⟩ : BufTy).Contents (Elt F) → (⟨S32x16x256, .f32⟩ : BufTy).Contents (Elt F) → (⟨S32x16x256, .f32⟩ : BufTy).Contents (Elt F)),
    StableHlo.binary main_v541 main_v501 main_v546 (mulf : (⟨S32x16x256, .f32⟩ : BufTy).Contents (Elt F) → (⟨S32x16x256, .f32⟩ : BufTy).Contents (Elt F) → (⟨S32x16x256, .f32⟩ : BufTy).Contents (Elt F)),
    StableHlo.binary main_v545 main_v546 main_v547 (addf : (⟨S32x16x256, .f32⟩ : BufTy).Contents (Elt F) → (⟨S32x16x256, .f32⟩ : BufTy).Contents (Elt F) → (⟨S32x16x256, .f32⟩ : BufTy).Contents (Elt F)),
    StableHlo.unary main_v547 main_v548 (Host.tanh : (⟨S32x16x256, .f32⟩ : BufTy).Contents (Elt F) → (⟨S32x16x256, .f32⟩ : BufTy).Contents (Elt F)),
    StableHlo.binary main_v529 main_v548 main_v549 (mulf : (⟨S32x16x256, .f32⟩ : BufTy).Contents (Elt F) → (⟨S32x16x256, .f32⟩ : BufTy).Contents (Elt F) → (⟨S32x16x256, .f32⟩ : BufTy).Contents (Elt F)),
    StableHlo.nullary main_c_174 (constantI S_ 32 15#32),
    StableHlo.unary main_c_174 main_v550 (broadcastInDim S1 ![] bcast_S_S1 : (⟨S_, .i32⟩ : BufTy).Contents (Elt F) → (⟨S1, .i32⟩ : BufTy).Contents (Elt F)),
    StableHlo.ternary main_v479 main_v550 main_v547 main_v551 ((fun x i u => Host.scatter scatter_S32x4095x256_S1_S32x16x256_012_n_1_0 (fun _ b => b) x i u) : (⟨S32x4095x256, .f32⟩ : BufTy).Contents (Elt F) → (⟨S1, .i32⟩ : BufTy).Contents (Elt F) → (⟨S32x16x256, .f32⟩ : BufTy).Contents (Elt F) → (⟨S32x4095x256, .f32⟩ : BufTy).Contents (Elt F)),
    StableHlo.nullary main_c_175 (constantI S_ 32 15#32),
    StableHlo.unary main_c_175 main_v552 (broadcastInDim S1 ![] bcast_S_S1 : (⟨S_, .i32⟩ : BufTy).Contents (Elt F) → (⟨S1, .i32⟩ : BufTy).Contents (Elt F)),
    StableHlo.ternary main_v481 main_v552 main_v549 main_v553 ((fun x i u => Host.scatter scatter_S32x4095x256_S1_S32x16x256_012_n_1_0 (fun _ b => b) x i u) : (⟨S32x4095x256, .f32⟩ : BufTy).Contents (Elt F) → (⟨S1, .i32⟩ : BufTy).Contents (Elt F) → (⟨S32x16x256, .f32⟩ : BufTy).Contents (Elt F) → (⟨S32x4095x256, .f32⟩ : BufTy).Contents (Elt F)) ]

set_option maxRecDepth 8192 in
theorem c21_sub : (c21 : List (HloOp τ sig (Elt F))).Forall fun op => op.bufs ⊆ tcRefs τ sig :=
  ⟨binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c21_W : List (Ref sig .tc) := [main_v544, main_v545, main_v546, main_v547, main_v548, main_v549, main_c_174, main_v550, main_v551, main_c_175, main_v552, main_v553]

set_option maxRecDepth 8192 in
theorem c21_writes : (c21 : List (HloOp τ sig (Elt F))).Forall fun op =>
    op.writes ⊆ (c21_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c21_fresh : ∀ op ∈ (c21 : List (HloOp τ sig (Elt F))), op.fresh = ∅ := by
  intro _ h; (repeat (cases h with | head => rfl | tail _ h => ?_)); exact nomatch h

/-- The statements 733 … 780 of the program, as operations. -/
abbrev c22 : List (HloOp τ sig (Elt F)) :=
  [
    StableHlo.nullary main_c_176 (constantI S_ 32 4095#32),
    StableHlo.unary main_c_176 main_v554 (broadcastInDim S8 ![] bcast_S_S8 : (⟨S_, .i32⟩ : BufTy).Contents (Elt F) → (⟨S8, .i32⟩ : BufTy).Contents (Elt F)),
    StableHlo.binary main_c_41 main_v554 main_v555 (addi : (⟨S8, .i32⟩ : BufTy).Contents (Elt F) → (⟨S8, .i32⟩ : BufTy).Contents (Elt F) → (⟨S8, .i32⟩ : BufTy).Contents (Elt F)),
    StableHlo.ternary main_c_42 main_v555 main_c_41 main_v556 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v556 main_v557 (broadcastInDim S8x1 ![0] bcast_S8_S8x1_0 : (⟨S8, .i32⟩ : BufTy).Contents (Elt F) → (⟨S8x1, .i32⟩ : BufTy).Contents (Elt F)),
    StableHlo.binary main_v553 main_v557 main_v558 ((fun x i => Host.gather gather_S32x4095x256_S8x1_S32x8x256_02_1_n_n_1_1_321256 x i) : (⟨S32x4095x256, .f32⟩ : BufTy).Contents (Elt F) → (⟨S8x1, .i32⟩ : BufTy).Contents (Elt F) → (⟨S32x8x256, .f32⟩ : BufTy).Contents (Elt F)),
    StableHlo.nullary main_c_177 (constantI S_ 32 4095#32),
    StableHlo.unary main_c_177 main_v559 (broadcastInDim S8 ![] bcast_S_S8 : (⟨S_, .i32⟩ : BufTy).Contents (Elt F) → (⟨S8, .i32⟩ : BufTy).Contents (Elt F)),
    StableHlo.binary main_c_43 main_v559 main_v560 (addi : (⟨S8, .i32⟩ : BufTy).Contents (Elt F) → (⟨S8, .i32⟩ : BufTy).Contents (Elt F) → (⟨S8, .i32⟩ : BufTy).Contents (Elt F)),
    StableHlo.ternary main_c_44 main_v560 main_c_43 main_v561 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v561 main_v562 (broadcastInDim S8x1 ![0] bcast_S8_S8x1_0 : (⟨S8, .i32⟩ : BufTy).Contents (Elt F) → (⟨S8x1, .i32⟩ : BufTy).Contents (Elt F)),
    StableHlo.binary main_v553 main_v562 main_v563 ((fun x i => Host.gather gather_S32x4095x256_S8x1_S32x8x256_02_1_n_n_1_1_321256 x i) : (⟨S32x4095x256, .f32⟩ : BufTy).Contents (Elt F) → (⟨S8x1, .i32⟩ : BufTy).Contents (Elt F) → (⟨S32x8x256, .f32⟩ : BufTy).Contents (Elt F)),
    StableHlo.nullary main_c_178 (constantI S_ 32 4095#32),
    StableHlo.unary main_c_178 main_v564 (broadcastInDim S8 ![] bcast_S_S8 : (⟨S_, .i32⟩ : BufTy).Contents (Elt F) → (⟨S8, .i32⟩ : BufTy).Contents (Elt F)),
    StableHlo.binary main_c_41 main_v564 main_v565 (addi : (⟨S8, .i32⟩ : BufTy).Contents (Elt F) → (⟨S8, .i32⟩ : BufTy).Contents (Elt F) → (⟨S8, .i32⟩ : BufTy).Contents (Elt F)),
    StableHlo.ternary main_c_45 main_v565 main_c_41 main_v566 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v566 main_v567 (broadcastInDim S8x1 ![0] bcast_S8_S8x1_0 : (⟨S8, .i32⟩ : BufTy).Contents (Elt F) → (⟨S8x1, .i32⟩ : BufTy).Contents (Elt F)),
    StableHlo.binary main_v551 main_v567 main_v568 ((fun x i => Host.gather gather_S32x4095x256_S8x1_S32x8x256_02_1_n_n_1_1_321256 x i) : (⟨S32x4095x256, .f32⟩ : BufTy).Contents (Elt F) → (⟨S8x1, .i32⟩ : BufTy).Contents (Elt F) → (⟨S32x8x256, .f32⟩ : BufTy).Contents (Elt F)),
    StableHlo.nullary main_c_179 (constantI S_ 32 4095#32),
    StableHlo.unary main_c_179 main_v569 (broadcastInDim S8 ![] bcast_S_S8 : (⟨S_, .i32⟩ : BufTy).Contents (Elt F) → (⟨S8, .i32⟩ : BufTy).Contents (Elt F)),
    StableHlo.binary main_c_43 main_v569 main_v570 (addi : (⟨S8, .i32⟩ : BufTy).Contents (Elt F) → (⟨S8, .i32⟩ : BufTy).Contents (Elt F) → (⟨S8, .i32⟩ : BufTy).Contents (Elt F)),
    StableHlo.ternary main_c_46 main_v570 main_c_43 main_v571 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    StableHlo.unary main_v571 main_v572 (broadcastInDim S8x1 ![0] bcast_S8_S8x1_0 : (⟨S8, .i32⟩ : BufTy).Contents (Elt F) → (⟨S8x1, .i32⟩ : BufTy).Contents (Elt F)),
    StableHlo.binary main_v551 main_v572 main_v573 ((fun x i => Host.gather gather_S32x4095x256_S8x1_S32x8x256_02_1_n_n_1_1_321256 x i) : (⟨S32x4095x256, .f32⟩ : BufTy).Contents (Elt F) → (⟨S8x1, .i32⟩ : BufTy).Contents (Elt F) → (⟨S32x8x256, .f32⟩ : BufTy).Contents (Elt F)),
    StableHlo.unary main_v3 main_v574 ((extractStridedSlice S32x8x1280 ![0, 7, 0] · slices_S32x4095x1280_S32x8x1280_0_7_0) : (⟨S32x4095x1280, .f32⟩ : BufTy).Contents (Elt F) → (⟨S32x8x1280, .f32⟩ : BufTy).Contents (Elt F)),
    StableHlo.binary main_v558 main_arg2 main_v575 ((fun l r => Host.dotGeneral dot_S32x8x256_S1280x256_S32x8x1280_2_1_01_0_n_n none l r) : (⟨S32x8x256, .f32⟩ : BufTy).Contents (Elt F) → (⟨S1280x256, .f32⟩ : BufTy).Contents (Elt F) → (⟨S32x8x1280, .f32⟩ : BufTy).Contents (Elt F)),
    StableHlo.binary main_v574 main_v575 main_v576 (addf : (⟨S32x8x1280, .f32⟩ : BufTy).Contents (Elt F) → (⟨S32x8x1280, .f32⟩ : BufTy).Contents (Elt F) → (⟨S32x8x1280, .f32⟩ : BufTy).Contents (Elt F)),
    StableHlo.unary main_arg5 main_v577 (broadcastInDim S1x1x1280 ![2] bcast_S1280_S1x1x1280_2 : (⟨S1280, .f32⟩ : BufTy).Contents (Elt F) → (⟨S1x1x1280, .f32⟩ : BufTy).Contents (Elt F)),
    StableHlo.unary main_v577 main_v578 (broadcastInDim S32x8x1280 ![0, 1, 2] bcast_S1x1x1280_S32x8x1280_0_1_2 : (⟨S1x1x1280, .f32⟩ : BufTy).Contents (Elt F) → (⟨S32x8x1280, .f32⟩ : BufTy).Contents (Elt F)),
    StableHlo.binary main_v576 main_v578 main_v579 (addf : (⟨S32x8x1280, .f32⟩ : BufTy).Contents (Elt F) → (⟨S32x8x1280, .f32⟩ : BufTy).Contents (Elt F) → (⟨S32x8x1280, .f32⟩ : BufTy).Contents (Elt F)),
    StableHlo.binary main_v563 main_arg3 main_v580 ((fun l r => Host.dotGeneral dot_S32x8x256_S1280x256_S32x8x1280_2_1_01_0_n_n none l r) : (⟨S32x8x256, .f32⟩ : BufTy).Contents (Elt F) → (⟨S1280x256, .f32⟩ : BufTy).Contents (Elt F) → (⟨S32x8x1280, .f32⟩ : BufTy).Contents (Elt F)),
    StableHlo.binary main_v579 main_v580 main_v581 (addf : (⟨S32x8x1280, .f32⟩ : BufTy).Contents (Elt F) → (⟨S32x8x1280, .f32⟩ : BufTy).Contents (Elt F) → (⟨S32x8x1280, .f32⟩ : BufTy).Contents (Elt F)),
    StableHlo.unary main_arg6 main_v582 (broadcastInDim S1x1x1280 ![2] bcast_S1280_S1x1x1280_2 : (⟨S1280, .f32⟩ : BufTy).Contents (Elt F) → (⟨S1x1x1280, .f32⟩ : BufTy).Contents (Elt F)),
    StableHlo.unary main_v582 main_v583 (broadcastInDim S32x8x1280 ![0, 1, 2] bcast_S1x1x1280_S32x8x1280_0_1_2 : (⟨S1x1x1280, .f32⟩ : BufTy).Contents (Elt F) → (⟨S32x8x1280, .f32⟩ : BufTy).Contents (Elt F)),
    StableHlo.binary main_v581 main_v583 main_v584 (addf : (⟨S32x8x1280, .f32⟩ : BufTy).Contents (Elt F) → (⟨S32x8x1280, .f32⟩ : BufTy).Contents (Elt F) → (⟨S32x8x1280, .f32⟩ : BufTy).Contents (Elt F)),
    StableHlo.unary main_v584 main_v585 ((extractStridedSlice S32x8x256 ![0, 0, 0] · slices_S32x8x1280_S32x8x256_0_0_0) : (⟨S32x8x1280, .f32⟩ : BufTy).Contents (Elt F) → (⟨S32x8x256, .f32⟩ : BufTy).Contents (Elt F)),
    StableHlo.unary main_v584 main_v586 ((extractStridedSlice S32x8x256 ![0, 0, 256] · slices_S32x8x1280_S32x8x256_0_0_256) : (⟨S32x8x1280, .f32⟩ : BufTy).Contents (Elt F) → (⟨S32x8x256, .f32⟩ : BufTy).Contents (Elt F)),
    StableHlo.unary main_v584 main_v587 ((extractStridedSlice S32x8x256 ![0, 0, 512] · slices_S32x8x1280_S32x8x256_0_0_512) : (⟨S32x8x1280, .f32⟩ : BufTy).Contents (Elt F) → (⟨S32x8x256, .f32⟩ : BufTy).Contents (Elt F)),
    StableHlo.unary main_v584 main_v588 ((extractStridedSlice S32x8x256 ![0, 0, 768] · slices_S32x8x1280_S32x8x256_0_0_768) : (⟨S32x8x1280, .f32⟩ : BufTy).Contents (Elt F) → (⟨S32x8x256, .f32⟩ : BufTy).Contents (Elt F)),
    StableHlo.unary main_v584 main_v589 ((extractStridedSlice S32x8x256 ![0, 0, 1024] · slices_S32x8x1280_S32x8x256_0_0_1024) : (⟨S32x8x1280, .f32⟩ : BufTy).Contents (Elt F) → (⟨S32x8x256, .f32⟩ : BufTy).Contents (Elt F)),
    StableHlo.unary main_v585 main_v590 (Host.negf : (⟨S32x8x256, .f32⟩ : BufTy).Contents (Elt F) → (⟨S32x8x256, .f32⟩ : BufTy).Contents (Elt F)),
    StableHlo.unary main_v590 main_v591 (Host.exp : (⟨S32x8x256, .f32⟩ : BufTy).Contents (Elt F) → (⟨S32x8x256, .f32⟩ : BufTy).Contents (Elt F)),
    StableHlo.nullary main_cst_180 (constant S_ .f32 0x3F800000#32),
    StableHlo.unary main_cst_180 main_v592 (broadcastInDim S32x8x256 ![] bcast_S_S32x8x256 : (⟨S_, .f32⟩ : BufTy).Contents (Elt F) → (⟨S32x8x256, .f32⟩ : BufTy).Contents (Elt F)),
    StableHlo.binary main_v592 main_v591 main_v593 (addf : (⟨S32x8x256, .f32⟩ : BufTy).Contents (Elt F) → (⟨S32x8x256, .f32⟩ : BufTy).Contents (Elt F) → (⟨S32x8x256, .f32⟩ : BufTy).Contents (Elt F)),
    StableHlo.nullary main_cst_181 (constant S_ .f32 0x3F800000#32),
    StableHlo.unary main_cst_181 main_v594 (broadcastInDim S32x8x256 ![] bcast_S_S32x8x256 : (⟨S_, .f32⟩ : BufTy).Contents (Elt F) → (⟨S32x8x256, .f32⟩ : BufTy).Contents (Elt F)),
    StableHlo.binary main_v594 main_v593 main_v595 (Host.divf : (⟨S32x8x256, .f32⟩ : BufTy).Contents (Elt F) → (⟨S32x8x256, .f32⟩ : BufTy).Contents (Elt F) → (⟨S32x8x256, .f32⟩ : BufTy).Contents (Elt F)) ]

set_option maxRecDepth 8192 in
theorem c22_sub : (c22 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..⟩

/-- The buffers these operations write. -/
abbrev c22_W : List (Ref sig .tc) := [main_c_176, main_v554, main_v555, main_v556, main_v557, main_v558, main_c_177, main_v559, main_v560, main_v561, main_v562, main_v563, main_c_178, main_v564, main_v565, main_v566, main_v567, main_v568, main_c_179, main_v569, main_v570, main_v571, main_v572, main_v573, main_v574, main_v575, main_v576, main_v577, main_v578, main_v579, main_v580, main_v581, main_v582, main_v583, main_v584, main_v585, main_v586, main_v587, main_v588, main_v589, main_v590, main_v591, main_cst_180, main_v592, main_v593, main_cst_181, main_v594, main_v595]

set_option maxRecDepth 8192 in
theorem c22_writes : (c22 : List (HloOp τ sig (Elt F))).Forall fun op =>
    op.writes ⊆ (c22_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c22_fresh : ∀ op ∈ (c22 : List (HloOp τ sig (Elt F))), op.fresh = ∅ := by
  intro _ h; (repeat (cases h with | head => rfl | tail _ h => ?_)); exact nomatch h

/-- The operations of the printed window main_part12. -/
abbrev ops12 : List (HloOp τ sig (Elt F)) := c21 ++ c22

set_option maxRecDepth 100000 in
set_option maxHeartbeats 4000000 in
theorem main_part12_eq (c : Dev nD) : main_part12 (F := F) c = seq ops12 := rfl

theorem ops12_sub : (ops12 : List (HloOp τ sig (Elt F))).Forall fun op => op.bufs ⊆ tcRefs τ sig :=
  List.forall_iff_forall_mem.mpr fun op h => by
    simp only [ops12, List.mem_append] at h
    rcases h with h | h
    exacts [List.forall_iff_forall_mem.mp c21_sub op h, List.forall_iff_forall_mem.mp c22_sub op h]

theorem ops12_fresh : ∀ op ∈ (ops12 : List (HloOp τ sig (Elt F))), op.fresh = ∅ := by
  intro op h
  simp only [ops12, List.mem_append] at h
  rcases h with h | h
  exacts [c21_fresh op h, c22_fresh op h]

end Cert.ReferenceIdeal.RefValue

end
-- ==== Proof.RefOps13.lean ====
/-
  The statements 781 … 840 of the reference program's @main as a list of operations (the printed window
  main_part13 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 781 … 818 of the program, as operations. -/
abbrev c23 : List (HloOp τ sig (Elt F)) :=
  [
    StableHlo.unary main_v586 main_v596 (Host.negf : (⟨S32x8x256, .f32⟩ : BufTy).Contents (Elt F) → (⟨S32x8x256, .f32⟩ : BufTy).Contents (Elt F)),
    StableHlo.unary main_v596 main_v597 (Host.exp : (⟨S32x8x256, .f32⟩ : BufTy).Contents (Elt F) → (⟨S32x8x256, .f32⟩ : BufTy).Contents (Elt F)),
    StableHlo.nullary main_cst_182 (constant S_ .f32 0x3F800000#32),
    StableHlo.unary main_cst_182 main_v598 (broadcastInDim S32x8x256 ![] bcast_S_S32x8x256 : (⟨S_, .f32⟩ : BufTy).Contents (Elt F) → (⟨S32x8x256, .f32⟩ : BufTy).Contents (Elt F)),
    StableHlo.binary main_v598 main_v597 main_v599 (addf : (⟨S32x8x256, .f32⟩ : BufTy).Contents (Elt F) → (⟨S32x8x256, .f32⟩ : BufTy).Contents (Elt F) → (⟨S32x8x256, .f32⟩ : BufTy).Contents (Elt F)),
    StableHlo.nullary main_cst_183 (constant S_ .f32 0x3F800000#32),
    StableHlo.unary main_cst_183 main_v600 (broadcastInDim S32x8x256 ![] bcast_S_S32x8x256 : (⟨S_, .f32⟩ : BufTy).Contents (Elt F) → (⟨S32x8x256, .f32⟩ : BufTy).Contents (Elt F)),
    StableHlo.binary main_v600 main_v599 main_v601 (Host.divf : (⟨S32x8x256, .f32⟩ : BufTy).Contents (Elt F) → (⟨S32x8x256, .f32⟩ : BufTy).Contents (Elt F) → (⟨S32x8x256, .f32⟩ : BufTy).Contents (Elt F)),
    StableHlo.unary main_v587 main_v602 (Host.negf : (⟨S32x8x256, .f32⟩ : BufTy).Contents (Elt F) → (⟨S32x8x256, .f32⟩ : BufTy).Contents (Elt F)),
    StableHlo.unary main_v602 main_v603 (Host.exp : (⟨S32x8x256, .f32⟩ : BufTy).Contents (Elt F) → (⟨S32x8x256, .f32⟩ : BufTy).Contents (Elt F)),
    StableHlo.nullary main_cst_184 (constant S_ .f32 0x3F800000#32),
    StableHlo.unary main_cst_184 main_v604 (broadcastInDim S32x8x256 ![] bcast_S_S32x8x256 : (⟨S_, .f32⟩ : BufTy).Contents (Elt F) → (⟨S32x8x256, .f32⟩ : BufTy).Contents (Elt F)),
    StableHlo.binary main_v604 main_v603 main_v605 (addf : (⟨S32x8x256, .f32⟩ : BufTy).Contents (Elt F) → (⟨S32x8x256, .f32⟩ : BufTy).Contents (Elt F) → (⟨S32x8x256, .f32⟩ : BufTy).Contents (Elt F)),
    StableHlo.nullary main_cst_185 (constant S_ .f32 0x3F800000#32),
    StableHlo.unary main_cst_185 main_v606 (broadcastInDim S32x8x256 ![] bcast_S_S32x8x256 : (⟨S_, .f32⟩ : BufTy).Contents (Elt F) → (⟨S32x8x256, .f32⟩ : BufTy).Contents (Elt F)),
    StableHlo.binary main_v606 main_v605 main_v607 (Host.divf : (⟨S32x8x256, .f32⟩ : BufTy).Contents (Elt F) → (⟨S32x8x256, .f32⟩ : BufTy).Contents (Elt F) → (⟨S32x8x256, .f32⟩ : BufTy).Contents (Elt F)),
    StableHlo.unary main_v588 main_v608 (Host.negf : (⟨S32x8x256, .f32⟩ : BufTy).Contents (Elt F) → (⟨S32x8x256, .f32⟩ : BufTy).Contents (Elt F)),
    StableHlo.unary main_v608 main_v609 (Host.exp : (⟨S32x8x256, .f32⟩ : BufTy).Contents (Elt F) → (⟨S32x8x256, .f32⟩ : BufTy).Contents (Elt F)),
    StableHlo.nullary main_cst_186 (constant S_ .f32 0x3F800000#32),
    StableHlo.unary main_cst_186 main_v610 (broadcastInDim S32x8x256 ![] bcast_S_S32x8x256 : (⟨S_, .f32⟩ : BufTy).Contents (Elt F) → (⟨S32x8x256, .f32⟩ : BufTy).Contents (Elt F)),
    StableHlo.binary main_v610 main_v609 main_v611 (addf : (⟨S32x8x256, .f32⟩ : BufTy).Contents (Elt F) → (⟨S32x8x256, .f32⟩ : BufTy).Contents (Elt F) → (⟨S32x8x256, .f32⟩ : BufTy).Contents (Elt F)),
    StableHlo.nullary main_cst_187 (constant S_ .f32 0x3F800000#32),
    StableHlo.unary main_cst_187 main_v612 (broadcastInDim S32x8x256 ![] bcast_S_S32x8x256 : (⟨S_, .f32⟩ : BufTy).Contents (Elt F) → (⟨S32x8x256, .f32⟩ : BufTy).Contents (Elt F)),
    StableHlo.binary main_v612 main_v611 main_v613 (Host.divf : (⟨S32x8x256, .f32⟩ : BufTy).Contents (Elt F) → (⟨S32x8x256, .f32⟩ : BufTy).Contents (Elt F) → (⟨S32x8x256, .f32⟩ : BufTy).Contents (Elt F)),
    StableHlo.unary main_v589 main_v614 (Host.tanh : (⟨S32x8x256, .f32⟩ : BufTy).Contents (Elt F) → (⟨S32x8x256, .f32⟩ : BufTy).Contents (Elt F)),
    StableHlo.binary main_v595 main_v614 main_v615 (mulf : (⟨S32x8x256, .f32⟩ : BufTy).Contents (Elt F) → (⟨S32x8x256, .f32⟩ : BufTy).Contents (Elt F) → (⟨S32x8x256, .f32⟩ : BufTy).Contents (Elt F)),
    StableHlo.binary main_v607 main_v568 main_v616 (mulf : (⟨S32x8x256, .f32⟩ : BufTy).Contents (Elt F) → (⟨S32x8x256, .f32⟩ : BufTy).Contents (Elt F) → (⟨S32x8x256, .f32⟩ : BufTy).Contents (Elt F)),
    StableHlo.binary main_v615 main_v616 main_v617 (addf : (⟨S32x8x256, .f32⟩ : BufTy).Contents (Elt F) → (⟨S32x8x256, .f32⟩ : BufTy).Contents (Elt F) → (⟨S32x8x256, .f32⟩ : BufTy).Contents (Elt F)),
    StableHlo.binary main_v613 main_v573 main_v618 (mulf : (⟨S32x8x256, .f32⟩ : BufTy).Contents (Elt F) → (⟨S32x8x256, .f32⟩ : BufTy).Contents (Elt F) → (⟨S32x8x256, .f32⟩ : BufTy).Contents (Elt F)),
    StableHlo.binary main_v617 main_v618 main_v619 (addf : (⟨S32x8x256, .f32⟩ : BufTy).Contents (Elt F) → (⟨S32x8x256, .f32⟩ : BufTy).Contents (Elt F) → (⟨S32x8x256, .f32⟩ : BufTy).Contents (Elt F)),
    StableHlo.unary main_v619 main_v620 (Host.tanh : (⟨S32x8x256, .f32⟩ : BufTy).Contents (Elt F) → (⟨S32x8x256, .f32⟩ : BufTy).Contents (Elt F)),
    StableHlo.binary main_v601 main_v620 main_v621 (mulf : (⟨S32x8x256, .f32⟩ : BufTy).Contents (Elt F) → (⟨S32x8x256, .f32⟩ : BufTy).Contents (Elt F) → (⟨S32x8x256, .f32⟩ : BufTy).Contents (Elt F)),
    StableHlo.nullary main_c_188 (constantI S_ 32 7#32),
    StableHlo.unary main_c_188 main_v622 (broadcastInDim S1 ![] bcast_S_S1 : (⟨S_, .i32⟩ : BufTy).Contents (Elt F) → (⟨S1, .i32⟩ : BufTy).Contents (Elt F)),
    StableHlo.ternary main_v551 main_v622 main_v619 main_v623 ((fun x i u => Host.scatter scatter_S32x4095x256_S1_S32x8x256_012_n_1_0 (fun _ b => b) x i u) : (⟨S32x4095x256, .f32⟩ : BufTy).Contents (Elt F) → (⟨S1, .i32⟩ : BufTy).Contents (Elt F) → (⟨S32x8x256, .f32⟩ : BufTy).Contents (Elt F) → (⟨S32x4095x256, .f32⟩ : BufTy).Contents (Elt F)),
    StableHlo.nullary main_c_189 (constantI S_ 32 7#32),
    StableHlo.unary main_c_189 main_v624 (broadcastInDim S1 ![] bcast_S_S1 : (⟨S_, .i32⟩ : BufTy).Contents (Elt F) → (⟨S1, .i32⟩ : BufTy).Contents (Elt F)),
    StableHlo.ternary main_v553 main_v624 main_v621 main_v625 ((fun x i u => Host.scatter scatter_S32x4095x256_S1_S32x8x256_012_n_1_0 (fun _ b => b) x i u) : (⟨S32x4095x256, .f32⟩ : BufTy).Contents (Elt F) → (⟨S1, .i32⟩ : BufTy).Contents (Elt F) → (⟨S32x8x256, .f32⟩ : BufTy).Contents (Elt F) → (⟨S32x4095x256, .f32⟩ : BufTy).Contents (Elt F)) ]

set_option maxRecDepth 8192 in
theorem c23_sub : (c23 : List (HloOp τ sig (Elt F))).Forall fun op => op.bufs ⊆ tcRefs τ sig :=
  ⟨unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c23_W : List (Ref sig .tc) := [main_v596, main_v597, main_cst_182, main_v598, main_v599, main_cst_183, main_v600, main_v601, main_v602, main_v603, main_cst_184, main_v604, main_v605, main_cst_185, main_v606, main_v607, main_v608, main_v609, main_cst_186, main_v610, main_v611, main_cst_187, main_v612, main_v613, main_v614, main_v615, main_v616, main_v617, main_v618, main_v619, main_v620, main_v621, main_c_188, main_v622, main_v623, main_c_189, main_v624, main_v625]

set_option maxRecDepth 8192 in
theorem c23_writes : (c23 : List (HloOp τ sig (Elt F))).Forall fun op =>
    op.writes ⊆ (c23_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c23_fresh : ∀ op ∈ (c23 : List (HloOp τ sig (Elt F))), op.fresh = ∅ := by
  intro _ h; (repeat (cases h with | head => rfl | tail _ h => ?_)); exact nomatch h

/-- The statements 819 … 840 of the program, as operations. -/
abbrev c24 : List (HloOp τ sig (Elt F)) :=
  [
    StableHlo.nullary main_c_190 (constantI S_ 32 4095#32),
    StableHlo.unary main_c_190 main_v626 (broadcastInDim S4 ![] bcast_S_S4 : (⟨S_, .i32⟩ : BufTy).Contents (Elt F) → (⟨S4, .i32⟩ : BufTy).Contents (Elt F)),
    StableHlo.binary main_c_47 main_v626 main_v627 (addi : (⟨S4, .i32⟩ : BufTy).Contents (Elt F) → (⟨S4, .i32⟩ : BufTy).Contents (Elt F) → (⟨S4, .i32⟩ : BufTy).Contents (Elt F)),
    StableHlo.ternary main_c_48 main_v627 main_c_47 main_v628 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v628 main_v629 (broadcastInDim S4x1 ![0] bcast_S4_S4x1_0 : (⟨S4, .i32⟩ : BufTy).Contents (Elt F) → (⟨S4x1, .i32⟩ : BufTy).Contents (Elt F)),
    StableHlo.binary main_v625 main_v629 main_v630 ((fun x i => Host.gather gather_S32x4095x256_S4x1_S32x4x256_02_1_n_n_1_1_321256 x i) : (⟨S32x4095x256, .f32⟩ : BufTy).Contents (Elt F) → (⟨S4x1, .i32⟩ : BufTy).Contents (Elt F) → (⟨S32x4x256, .f32⟩ : BufTy).Contents (Elt F)),
    StableHlo.nullary main_c_191 (constantI S_ 32 4095#32),
    StableHlo.unary main_c_191 main_v631 (broadcastInDim S4 ![] bcast_S_S4 : (⟨S_, .i32⟩ : BufTy).Contents (Elt F) → (⟨S4, .i32⟩ : BufTy).Contents (Elt F)),
    StableHlo.binary main_c_49 main_v631 main_v632 (addi : (⟨S4, .i32⟩ : BufTy).Contents (Elt F) → (⟨S4, .i32⟩ : BufTy).Contents (Elt F) → (⟨S4, .i32⟩ : BufTy).Contents (Elt F)),
    StableHlo.ternary main_c_50 main_v632 main_c_49 main_v633 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v633 main_v634 (broadcastInDim S4x1 ![0] bcast_S4_S4x1_0 : (⟨S4, .i32⟩ : BufTy).Contents (Elt F) → (⟨S4x1, .i32⟩ : BufTy).Contents (Elt F)),
    StableHlo.binary main_v625 main_v634 main_v635 ((fun x i => Host.gather gather_S32x4095x256_S4x1_S32x4x256_02_1_n_n_1_1_321256 x i) : (⟨S32x4095x256, .f32⟩ : BufTy).Contents (Elt F) → (⟨S4x1, .i32⟩ : BufTy).Contents (Elt F) → (⟨S32x4x256, .f32⟩ : BufTy).Contents (Elt F)),
    StableHlo.nullary main_c_192 (constantI S_ 32 4095#32),
    StableHlo.unary main_c_192 main_v636 (broadcastInDim S4 ![] bcast_S_S4 : (⟨S_, .i32⟩ : BufTy).Contents (Elt F) → (⟨S4, .i32⟩ : BufTy).Contents (Elt F)),
    StableHlo.binary main_c_47 main_v636 main_v637 (addi : (⟨S4, .i32⟩ : BufTy).Contents (Elt F) → (⟨S4, .i32⟩ : BufTy).Contents (Elt F) → (⟨S4, .i32⟩ : BufTy).Contents (Elt F)),
    StableHlo.ternary main_c_51 main_v637 main_c_47 main_v638 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v638 main_v639 (broadcastInDim S4x1 ![0] bcast_S4_S4x1_0 : (⟨S4, .i32⟩ : BufTy).Contents (Elt F) → (⟨S4x1, .i32⟩ : BufTy).Contents (Elt F)),
    StableHlo.binary main_v623 main_v639 main_v640 ((fun x i => Host.gather gather_S32x4095x256_S4x1_S32x4x256_02_1_n_n_1_1_321256 x i) : (⟨S32x4095x256, .f32⟩ : BufTy).Contents (Elt F) → (⟨S4x1, .i32⟩ : BufTy).Contents (Elt F) → (⟨S32x4x256, .f32⟩ : BufTy).Contents (Elt F)),
    StableHlo.nullary main_c_193 (constantI S_ 32 4095#32),
    StableHlo.unary main_c_193 main_v641 (broadcastInDim S4 ![] bcast_S_S4 : (⟨S_, .i32⟩ : BufTy).Contents (Elt F) → (⟨S4, .i32⟩ : BufTy).Contents (Elt F)),
    StableHlo.binary main_c_49 main_v641 main_v642 (addi : (⟨S4, .i32⟩ : BufTy).Contents (Elt F) → (⟨S4, .i32⟩ : BufTy).Contents (Elt F) → (⟨S4, .i32⟩ : BufTy).Contents (Elt F)),
    StableHlo.ternary main_c_52 main_v642 main_c_49 main_v643 (select : (⟨S4, .i1⟩ : BufTy).Contents (Elt F) → (⟨S4, .i32⟩ : BufTy).Contents (Elt F) → (⟨S4, .i32⟩ : BufTy).Contents (Elt F) → (⟨S4, .i32⟩ : BufTy).Contents (Elt F)) ]

set_option maxRecDepth 8192 in
theorem c24_sub : (c24 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..⟩

/-- The buffers these operations write. -/
abbrev c24_W : List (Ref sig .tc) := [main_c_190, main_v626, main_v627, main_v628, main_v629, main_v630, main_c_191, main_v631, main_v632, main_v633, main_v634, main_v635, main_c_192, main_v636, main_v637, main_v638, main_v639, main_v640, main_c_193, main_v641, main_v642, main_v643]

set_option maxRecDepth 8192 in
theorem c24_writes : (c24 : List (HloOp τ sig (Elt F))).Forall fun op =>
    op.writes ⊆ (c24_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c24_fresh : ∀ op ∈ (c24 : List (HloOp τ sig (Elt F))), op.fresh = ∅ := by
  intro _ h; (repeat (cases h with | head => rfl | tail _ h => ?_)); exact nomatch h

/-- The operations of the printed window main_part13. -/
abbrev ops13 : List (HloOp τ sig (Elt F)) := c23 ++ c24

set_option maxRecDepth 100000 in
set_option maxHeartbeats 4000000 in
theorem main_part13_eq (c : Dev nD) : main_part13 (F := F) c = seq ops13 := rfl

theorem ops13_sub : (ops13 : List (HloOp τ sig (Elt F))).Forall fun op => op.bufs ⊆ tcRefs τ sig :=
  List.forall_iff_forall_mem.mpr fun op h => by
    simp only [ops13, List.mem_append] at h
    rcases h with h | h
    exacts [List.forall_iff_forall_mem.mp c23_sub op h, List.forall_iff_forall_mem.mp c24_sub op h]

theorem ops13_fresh : ∀ op ∈ (ops13 : List (HloOp τ sig (Elt F))), op.fresh = ∅ := by
  intro op h
  simp only [ops13, List.mem_append] at h
  rcases h with h | h
  exacts [c23_fresh op h, c24_fresh op h]

end Cert.ReferenceIdeal.RefValue

end
-- ==== Proof.RefOps14.lean ====
/-
  The statements 841 … 900 of the reference program's @main as a list of operations (the printed window
  main_part14 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 841 … 900 of the program, as operations. -/
abbrev c25 : List (HloOp τ sig (Elt F)) :=
  [
    StableHlo.unary main_v643 main_v644 (broadcastInDim S4x1 ![0] bcast_S4_S4x1_0 : (⟨S4, .i32⟩ : BufTy).Contents (Elt F) → (⟨S4x1, .i32⟩ : BufTy).Contents (Elt F)),
    StableHlo.binary main_v623 main_v644 main_v645 ((fun x i => Host.gather gather_S32x4095x256_S4x1_S32x4x256_02_1_n_n_1_1_321256 x i) : (⟨S32x4095x256, .f32⟩ : BufTy).Contents (Elt F) → (⟨S4x1, .i32⟩ : BufTy).Contents (Elt F) → (⟨S32x4x256, .f32⟩ : BufTy).Contents (Elt F)),
    StableHlo.unary main_v3 main_v646 ((extractStridedSlice S32x4x1280 ![0, 3, 0] · slices_S32x4095x1280_S32x4x1280_0_3_0) : (⟨S32x4095x1280, .f32⟩ : BufTy).Contents (Elt F) → (⟨S32x4x1280, .f32⟩ : BufTy).Contents (Elt F)),
    StableHlo.binary main_v630 main_arg2 main_v647 ((fun l r => Host.dotGeneral dot_S32x4x256_S1280x256_S32x4x1280_2_1_01_0_n_n none l r) : (⟨S32x4x256, .f32⟩ : BufTy).Contents (Elt F) → (⟨S1280x256, .f32⟩ : BufTy).Contents (Elt F) → (⟨S32x4x1280, .f32⟩ : BufTy).Contents (Elt F)),
    StableHlo.binary main_v646 main_v647 main_v648 (addf : (⟨S32x4x1280, .f32⟩ : BufTy).Contents (Elt F) → (⟨S32x4x1280, .f32⟩ : BufTy).Contents (Elt F) → (⟨S32x4x1280, .f32⟩ : BufTy).Contents (Elt F)),
    StableHlo.unary main_arg5 main_v649 (broadcastInDim S1x1x1280 ![2] bcast_S1280_S1x1x1280_2 : (⟨S1280, .f32⟩ : BufTy).Contents (Elt F) → (⟨S1x1x1280, .f32⟩ : BufTy).Contents (Elt F)),
    StableHlo.unary main_v649 main_v650 (broadcastInDim S32x4x1280 ![0, 1, 2] bcast_S1x1x1280_S32x4x1280_0_1_2 : (⟨S1x1x1280, .f32⟩ : BufTy).Contents (Elt F) → (⟨S32x4x1280, .f32⟩ : BufTy).Contents (Elt F)),
    StableHlo.binary main_v648 main_v650 main_v651 (addf : (⟨S32x4x1280, .f32⟩ : BufTy).Contents (Elt F) → (⟨S32x4x1280, .f32⟩ : BufTy).Contents (Elt F) → (⟨S32x4x1280, .f32⟩ : BufTy).Contents (Elt F)),
    StableHlo.binary main_v635 main_arg3 main_v652 ((fun l r => Host.dotGeneral dot_S32x4x256_S1280x256_S32x4x1280_2_1_01_0_n_n none l r) : (⟨S32x4x256, .f32⟩ : BufTy).Contents (Elt F) → (⟨S1280x256, .f32⟩ : BufTy).Contents (Elt F) → (⟨S32x4x1280, .f32⟩ : BufTy).Contents (Elt F)),
    StableHlo.binary main_v651 main_v652 main_v653 (addf : (⟨S32x4x1280, .f32⟩ : BufTy).Contents (Elt F) → (⟨S32x4x1280, .f32⟩ : BufTy).Contents (Elt F) → (⟨S32x4x1280, .f32⟩ : BufTy).Contents (Elt F)),
    StableHlo.unary main_arg6 main_v654 (broadcastInDim S1x1x1280 ![2] bcast_S1280_S1x1x1280_2 : (⟨S1280, .f32⟩ : BufTy).Contents (Elt F) → (⟨S1x1x1280, .f32⟩ : BufTy).Contents (Elt F)),
    StableHlo.unary main_v654 main_v655 (broadcastInDim S32x4x1280 ![0, 1, 2] bcast_S1x1x1280_S32x4x1280_0_1_2 : (⟨S1x1x1280, .f32⟩ : BufTy).Contents (Elt F) → (⟨S32x4x1280, .f32⟩ : BufTy).Contents (Elt F)),
    StableHlo.binary main_v653 main_v655 main_v656 (addf : (⟨S32x4x1280, .f32⟩ : BufTy).Contents (Elt F) → (⟨S32x4x1280, .f32⟩ : BufTy).Contents (Elt F) → (⟨S32x4x1280, .f32⟩ : BufTy).Contents (Elt F)),
    StableHlo.unary main_v656 main_v657 ((extractStridedSlice S32x4x256 ![0, 0, 0] · slices_S32x4x1280_S32x4x256_0_0_0) : (⟨S32x4x1280, .f32⟩ : BufTy).Contents (Elt F) → (⟨S32x4x256, .f32⟩ : BufTy).Contents (Elt F)),
    StableHlo.unary main_v656 main_v658 ((extractStridedSlice S32x4x256 ![0, 0, 256] · slices_S32x4x1280_S32x4x256_0_0_256) : (⟨S32x4x1280, .f32⟩ : BufTy).Contents (Elt F) → (⟨S32x4x256, .f32⟩ : BufTy).Contents (Elt F)),
    StableHlo.unary main_v656 main_v659 ((extractStridedSlice S32x4x256 ![0, 0, 512] · slices_S32x4x1280_S32x4x256_0_0_512) : (⟨S32x4x1280, .f32⟩ : BufTy).Contents (Elt F) → (⟨S32x4x256, .f32⟩ : BufTy).Contents (Elt F)),
    StableHlo.unary main_v656 main_v660 ((extractStridedSlice S32x4x256 ![0, 0, 768] · slices_S32x4x1280_S32x4x256_0_0_768) : (⟨S32x4x1280, .f32⟩ : BufTy).Contents (Elt F) → (⟨S32x4x256, .f32⟩ : BufTy).Contents (Elt F)),
    StableHlo.unary main_v656 main_v661 ((extractStridedSlice S32x4x256 ![0, 0, 1024] · slices_S32x4x1280_S32x4x256_0_0_1024) : (⟨S32x4x1280, .f32⟩ : BufTy).Contents (Elt F) → (⟨S32x4x256, .f32⟩ : BufTy).Contents (Elt F)),
    StableHlo.unary main_v657 main_v662 (Host.negf : (⟨S32x4x256, .f32⟩ : BufTy).Contents (Elt F) → (⟨S32x4x256, .f32⟩ : BufTy).Contents (Elt F)),
    StableHlo.unary main_v662 main_v663 (Host.exp : (⟨S32x4x256, .f32⟩ : BufTy).Contents (Elt F) → (⟨S32x4x256, .f32⟩ : BufTy).Contents (Elt F)),
    StableHlo.nullary main_cst_194 (constant S_ .f32 0x3F800000#32),
    StableHlo.unary main_cst_194 main_v664 (broadcastInDim S32x4x256 ![] bcast_S_S32x4x256 : (⟨S_, .f32⟩ : BufTy).Contents (Elt F) → (⟨S32x4x256, .f32⟩ : BufTy).Contents (Elt F)),
    StableHlo.binary main_v664 main_v663 main_v665 (addf : (⟨S32x4x256, .f32⟩ : BufTy).Contents (Elt F) → (⟨S32x4x256, .f32⟩ : BufTy).Contents (Elt F) → (⟨S32x4x256, .f32⟩ : BufTy).Contents (Elt F)),
    StableHlo.nullary main_cst_195 (constant S_ .f32 0x3F800000#32),
    StableHlo.unary main_cst_195 main_v666 (broadcastInDim S32x4x256 ![] bcast_S_S32x4x256 : (⟨S_, .f32⟩ : BufTy).Contents (Elt F) → (⟨S32x4x256, .f32⟩ : BufTy).Contents (Elt F)),
    StableHlo.binary main_v666 main_v665 main_v667 (Host.divf : (⟨S32x4x256, .f32⟩ : BufTy).Contents (Elt F) → (⟨S32x4x256, .f32⟩ : BufTy).Contents (Elt F) → (⟨S32x4x256, .f32⟩ : BufTy).Contents (Elt F)),
    StableHlo.unary main_v658 main_v668 (Host.negf : (⟨S32x4x256, .f32⟩ : BufTy).Contents (Elt F) → (⟨S32x4x256, .f32⟩ : BufTy).Contents (Elt F)),
    StableHlo.unary main_v668 main_v669 (Host.exp : (⟨S32x4x256, .f32⟩ : BufTy).Contents (Elt F) → (⟨S32x4x256, .f32⟩ : BufTy).Contents (Elt F)),
    StableHlo.nullary main_cst_196 (constant S_ .f32 0x3F800000#32),
    StableHlo.unary main_cst_196 main_v670 (broadcastInDim S32x4x256 ![] bcast_S_S32x4x256 : (⟨S_, .f32⟩ : BufTy).Contents (Elt F) → (⟨S32x4x256, .f32⟩ : BufTy).Contents (Elt F)),
    StableHlo.binary main_v670 main_v669 main_v671 (addf : (⟨S32x4x256, .f32⟩ : BufTy).Contents (Elt F) → (⟨S32x4x256, .f32⟩ : BufTy).Contents (Elt F) → (⟨S32x4x256, .f32⟩ : BufTy).Contents (Elt F)),
    StableHlo.nullary main_cst_197 (constant S_ .f32 0x3F800000#32),
    StableHlo.unary main_cst_197 main_v672 (broadcastInDim S32x4x256 ![] bcast_S_S32x4x256 : (⟨S_, .f32⟩ : BufTy).Contents (Elt F) → (⟨S32x4x256, .f32⟩ : BufTy).Contents (Elt F)),
    StableHlo.binary main_v672 main_v671 main_v673 (Host.divf : (⟨S32x4x256, .f32⟩ : BufTy).Contents (Elt F) → (⟨S32x4x256, .f32⟩ : BufTy).Contents (Elt F) → (⟨S32x4x256, .f32⟩ : BufTy).Contents (Elt F)),
    StableHlo.unary main_v659 main_v674 (Host.negf : (⟨S32x4x256, .f32⟩ : BufTy).Contents (Elt F) → (⟨S32x4x256, .f32⟩ : BufTy).Contents (Elt F)),
    StableHlo.unary main_v674 main_v675 (Host.exp : (⟨S32x4x256, .f32⟩ : BufTy).Contents (Elt F) → (⟨S32x4x256, .f32⟩ : BufTy).Contents (Elt F)),
    StableHlo.nullary main_cst_198 (constant S_ .f32 0x3F800000#32),
    StableHlo.unary main_cst_198 main_v676 (broadcastInDim S32x4x256 ![] bcast_S_S32x4x256 : (⟨S_, .f32⟩ : BufTy).Contents (Elt F) → (⟨S32x4x256, .f32⟩ : BufTy).Contents (Elt F)),
    StableHlo.binary main_v676 main_v675 main_v677 (addf : (⟨S32x4x256, .f32⟩ : BufTy).Contents (Elt F) → (⟨S32x4x256, .f32⟩ : BufTy).Contents (Elt F) → (⟨S32x4x256, .f32⟩ : BufTy).Contents (Elt F)),
    StableHlo.nullary main_cst_199 (constant S_ .f32 0x3F800000#32),
    StableHlo.unary main_cst_199 main_v678 (broadcastInDim S32x4x256 ![] bcast_S_S32x4x256 : (⟨S_, .f32⟩ : BufTy).Contents (Elt F) → (⟨S32x4x256, .f32⟩ : BufTy).Contents (Elt F)),
    StableHlo.binary main_v678 main_v677 main_v679 (Host.divf : (⟨S32x4x256, .f32⟩ : BufTy).Contents (Elt F) → (⟨S32x4x256, .f32⟩ : BufTy).Contents (Elt F) → (⟨S32x4x256, .f32⟩ : BufTy).Contents (Elt F)),
    StableHlo.unary main_v660 main_v680 (Host.negf : (⟨S32x4x256, .f32⟩ : BufTy).Contents (Elt F) → (⟨S32x4x256, .f32⟩ : BufTy).Contents (Elt F)),
    StableHlo.unary main_v680 main_v681 (Host.exp : (⟨S32x4x256, .f32⟩ : BufTy).Contents (Elt F) → (⟨S32x4x256, .f32⟩ : BufTy).Contents (Elt F)),
    StableHlo.nullary main_cst_200 (constant S_ .f32 0x3F800000#32),
    StableHlo.unary main_cst_200 main_v682 (broadcastInDim S32x4x256 ![] bcast_S_S32x4x256 : (⟨S_, .f32⟩ : BufTy).Contents (Elt F) → (⟨S32x4x256, .f32⟩ : BufTy).Contents (Elt F)),
    StableHlo.binary main_v682 main_v681 main_v683 (addf : (⟨S32x4x256, .f32⟩ : BufTy).Contents (Elt F) → (⟨S32x4x256, .f32⟩ : BufTy).Contents (Elt F) → (⟨S32x4x256, .f32⟩ : BufTy).Contents (Elt F)),
    StableHlo.nullary main_cst_201 (constant S_ .f32 0x3F800000#32),
    StableHlo.unary main_cst_201 main_v684 (broadcastInDim S32x4x256 ![] bcast_S_S32x4x256 : (⟨S_, .f32⟩ : BufTy).Contents (Elt F) → (⟨S32x4x256, .f32⟩ : BufTy).Contents (Elt F)),
    StableHlo.binary main_v684 main_v683 main_v685 (Host.divf : (⟨S32x4x256, .f32⟩ : BufTy).Contents (Elt F) → (⟨S32x4x256, .f32⟩ : BufTy).Contents (Elt F) → (⟨S32x4x256, .f32⟩ : BufTy).Contents (Elt F)),
    StableHlo.unary main_v661 main_v686 (Host.tanh : (⟨S32x4x256, .f32⟩ : BufTy).Contents (Elt F) → (⟨S32x4x256, .f32⟩ : BufTy).Contents (Elt F)),
    StableHlo.binary main_v667 main_v686 main_v687 (mulf : (⟨S32x4x256, .f32⟩ : BufTy).Contents (Elt F) → (⟨S32x4x256, .f32⟩ : BufTy).Contents (Elt F) → (⟨S32x4x256, .f32⟩ : BufTy).Contents (Elt F)),
    StableHlo.binary main_v679 main_v640 main_v688 (mulf : (⟨S32x4x256, .f32⟩ : BufTy).Contents (Elt F) → (⟨S32x4x256, .f32⟩ : BufTy).Contents (Elt F) → (⟨S32x4x256, .f32⟩ : BufTy).Contents (Elt F)),
    StableHlo.binary main_v687 main_v688 main_v689 (addf : (⟨S32x4x256, .f32⟩ : BufTy).Contents (Elt F) → (⟨S32x4x256, .f32⟩ : BufTy).Contents (Elt F) → (⟨S32x4x256, .f32⟩ : BufTy).Contents (Elt F)),
    StableHlo.binary main_v685 main_v645 main_v690 (mulf : (⟨S32x4x256, .f32⟩ : BufTy).Contents (Elt F) → (⟨S32x4x256, .f32⟩ : BufTy).Contents (Elt F) → (⟨S32x4x256, .f32⟩ : BufTy).Contents (Elt F)),
    StableHlo.binary main_v689 main_v690 main_v691 (addf : (⟨S32x4x256, .f32⟩ : BufTy).Contents (Elt F) → (⟨S32x4x256, .f32⟩ : BufTy).Contents (Elt F) → (⟨S32x4x256, .f32⟩ : BufTy).Contents (Elt F)),
    StableHlo.unary main_v691 main_v692 (Host.tanh : (⟨S32x4x256, .f32⟩ : BufTy).Contents (Elt F) → (⟨S32x4x256, .f32⟩ : BufTy).Contents (Elt F)),
    StableHlo.binary main_v673 main_v692 main_v693 (mulf : (⟨S32x4x256, .f32⟩ : BufTy).Contents (Elt F) → (⟨S32x4x256, .f32⟩ : BufTy).Contents (Elt F) → (⟨S32x4x256, .f32⟩ : BufTy).Contents (Elt F)),
    StableHlo.nullary main_c_202 (constantI S_ 32 3#32),
    StableHlo.unary main_c_202 main_v694 (broadcastInDim S1 ![] bcast_S_S1 : (⟨S_, .i32⟩ : BufTy).Contents (Elt F) → (⟨S1, .i32⟩ : BufTy).Contents (Elt F)) ]

set_option maxRecDepth 8192 in
theorem c25_sub : (c25 : List (HloOp τ sig (Elt F))).Forall fun op => op.bufs ⊆ tcRefs τ sig :=
  ⟨unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..⟩

/-- The buffers these operations write. -/
abbrev c25_W : List (Ref sig .tc) := [main_v644, main_v645, main_v646, main_v647, main_v648, main_v649, main_v650, main_v651, main_v652, main_v653, main_v654, main_v655, main_v656, main_v657, main_v658, main_v659, main_v660, main_v661, main_v662, main_v663, main_cst_194, main_v664, main_v665, main_cst_195, main_v666, main_v667, main_v668, main_v669, main_cst_196, main_v670, main_v671, main_cst_197, main_v672, main_v673, main_v674, main_v675, main_cst_198, main_v676, main_v677, main_cst_199, main_v678, main_v679, main_v680, main_v681, main_cst_200, main_v682, main_v683, main_cst_201, main_v684, main_v685, main_v686, main_v687, main_v688, main_v689, main_v690, main_v691, main_v692, main_v693, main_c_202, main_v694]

set_option maxRecDepth 8192 in
theorem c25_writes : (c25 : List (HloOp τ sig (Elt F))).Forall fun op =>
    op.writes ⊆ (c25_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c25_fresh : ∀ op ∈ (c25 : List (HloOp τ sig (Elt F))), op.fresh = ∅ := by
  intro _ h; (repeat (cases h with | head => rfl | tail _ h => ?_)); exact nomatch h

/-- The operations of the printed window main_part14. -/
abbrev ops14 : List (HloOp τ sig (Elt F)) := c25

set_option maxRecDepth 100000 in
set_option maxHeartbeats 4000000 in
theorem main_part14_eq (c : Dev nD) : main_part14 (F := F) c = seq ops14 := rfl

theorem ops14_sub : (ops14 : List (HloOp τ sig (Elt F))).Forall fun op => op.bufs ⊆ tcRefs τ sig :=
  List.forall_iff_forall_mem.mpr fun op h => by
    exact List.forall_iff_forall_mem.mp c25_sub op h

theorem ops14_fresh : ∀ op ∈ (ops14 : List (HloOp τ sig (Elt F))), op.fresh = ∅ := by
  intro op h
  exact c25_fresh op h

end Cert.ReferenceIdeal.RefValue

end
-- ==== Proof.RefOps15.lean ====
/-
  The statements 901 … 960 of the reference program's @main as a list of operations (the printed window
  main_part15 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 901 … 904 of the program, as operations. -/
abbrev c26 : List (HloOp τ sig (Elt F)) :=
  [
    StableHlo.ternary main_v623 main_v694 main_v691 main_v695 ((fun x i u => Host.scatter scatter_S32x4095x256_S1_S32x4x256_012_n_1_0 (fun _ b => b) x i u) : (⟨S32x4095x256, .f32⟩ : BufTy).Contents (Elt F) → (⟨S1, .i32⟩ : BufTy).Contents (Elt F) → (⟨S32x4x256, .f32⟩ : BufTy).Contents (Elt F) → (⟨S32x4095x256, .f32⟩ : BufTy).Contents (Elt F)),
    StableHlo.nullary main_c_203 (constantI S_ 32 3#32),
    StableHlo.unary main_c_203 main_v696 (broadcastInDim S1 ![] bcast_S_S1 : (⟨S_, .i32⟩ : BufTy).Contents (Elt F) → (⟨S1, .i32⟩ : BufTy).Contents (Elt F)),
    StableHlo.ternary main_v625 main_v696 main_v693 main_v697 ((fun x i u => Host.scatter scatter_S32x4095x256_S1_S32x4x256_012_n_1_0 (fun _ b => b) x i u) : (⟨S32x4095x256, .f32⟩ : BufTy).Contents (Elt F) → (⟨S1, .i32⟩ : BufTy).Contents (Elt F) → (⟨S32x4x256, .f32⟩ : BufTy).Contents (Elt F) → (⟨S32x4095x256, .f32⟩ : BufTy).Contents (Elt F)) ]

set_option maxRecDepth 8192 in
theorem c26_sub : (c26 : List (HloOp τ sig (Elt F))).Forall fun op => op.bufs ⊆ tcRefs τ sig :=
  ⟨ternary_bufs_sub ..,
    nullary_bufs_sub ..,
    unary_bufs_sub ..,
    ternary_bufs_sub ..⟩

/-- The buffers these operations write. -/
abbrev c26_W : List (Ref sig .tc) := [main_v695, main_c_203, main_v696, main_v697]

set_option maxRecDepth 8192 in
theorem c26_writes : (c26 : List (HloOp τ sig (Elt F))).Forall fun op =>
    op.writes ⊆ (c26_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c26_fresh : ∀ op ∈ (c26 : List (HloOp τ sig (Elt F))), op.fresh = ∅ := by
  intro _ h; (repeat (cases h with | head => rfl | tail _ h => ?_)); exact nomatch h

/-- The statements 905 … 960 of the program, as operations. -/
abbrev c27 : List (HloOp τ sig (Elt F)) :=
  [
    StableHlo.nullary main_c_204 (constantI S_ 32 4095#32),
    StableHlo.unary main_c_204 main_v698 (broadcastInDim S2 ![] bcast_S_S2 : (⟨S_, .i32⟩ : BufTy).Contents (Elt F) → (⟨S2, .i32⟩ : BufTy).Contents (Elt F)),
    StableHlo.binary main_c_53 main_v698 main_v699 (addi : (⟨S2, .i32⟩ : BufTy).Contents (Elt F) → (⟨S2, .i32⟩ : BufTy).Contents (Elt F) → (⟨S2, .i32⟩ : BufTy).Contents (Elt F)),
    StableHlo.ternary main_c_54 main_v699 main_c_53 main_v700 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v700 main_v701 (broadcastInDim S2x1 ![0] bcast_S2_S2x1_0 : (⟨S2, .i32⟩ : BufTy).Contents (Elt F) → (⟨S2x1, .i32⟩ : BufTy).Contents (Elt F)),
    StableHlo.binary main_v697 main_v701 main_v702 ((fun x i => Host.gather gather_S32x4095x256_S2x1_S32x2x256_02_1_n_n_1_1_321256 x i) : (⟨S32x4095x256, .f32⟩ : BufTy).Contents (Elt F) → (⟨S2x1, .i32⟩ : BufTy).Contents (Elt F) → (⟨S32x2x256, .f32⟩ : BufTy).Contents (Elt F)),
    StableHlo.nullary main_c_205 (constantI S_ 32 4095#32),
    StableHlo.unary main_c_205 main_v703 (broadcastInDim S2 ![] bcast_S_S2 : (⟨S_, .i32⟩ : BufTy).Contents (Elt F) → (⟨S2, .i32⟩ : BufTy).Contents (Elt F)),
    StableHlo.binary main_c_55 main_v703 main_v704 (addi : (⟨S2, .i32⟩ : BufTy).Contents (Elt F) → (⟨S2, .i32⟩ : BufTy).Contents (Elt F) → (⟨S2, .i32⟩ : BufTy).Contents (Elt F)),
    StableHlo.ternary main_c_56 main_v704 main_c_55 main_v705 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v705 main_v706 (broadcastInDim S2x1 ![0] bcast_S2_S2x1_0 : (⟨S2, .i32⟩ : BufTy).Contents (Elt F) → (⟨S2x1, .i32⟩ : BufTy).Contents (Elt F)),
    StableHlo.binary main_v697 main_v706 main_v707 ((fun x i => Host.gather gather_S32x4095x256_S2x1_S32x2x256_02_1_n_n_1_1_321256 x i) : (⟨S32x4095x256, .f32⟩ : BufTy).Contents (Elt F) → (⟨S2x1, .i32⟩ : BufTy).Contents (Elt F) → (⟨S32x2x256, .f32⟩ : BufTy).Contents (Elt F)),
    StableHlo.nullary main_c_206 (constantI S_ 32 4095#32),
    StableHlo.unary main_c_206 main_v708 (broadcastInDim S2 ![] bcast_S_S2 : (⟨S_, .i32⟩ : BufTy).Contents (Elt F) → (⟨S2, .i32⟩ : BufTy).Contents (Elt F)),
    StableHlo.binary main_c_53 main_v708 main_v709 (addi : (⟨S2, .i32⟩ : BufTy).Contents (Elt F) → (⟨S2, .i32⟩ : BufTy).Contents (Elt F) → (⟨S2, .i32⟩ : BufTy).Contents (Elt F)),
    StableHlo.ternary main_c_57 main_v709 main_c_53 main_v710 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v710 main_v711 (broadcastInDim S2x1 ![0] bcast_S2_S2x1_0 : (⟨S2, .i32⟩ : BufTy).Contents (Elt F) → (⟨S2x1, .i32⟩ : BufTy).Contents (Elt F)),
    StableHlo.binary main_v695 main_v711 main_v712 ((fun x i => Host.gather gather_S32x4095x256_S2x1_S32x2x256_02_1_n_n_1_1_321256 x i) : (⟨S32x4095x256, .f32⟩ : BufTy).Contents (Elt F) → (⟨S2x1, .i32⟩ : BufTy).Contents (Elt F) → (⟨S32x2x256, .f32⟩ : BufTy).Contents (Elt F)),
    StableHlo.nullary main_c_207 (constantI S_ 32 4095#32),
    StableHlo.unary main_c_207 main_v713 (broadcastInDim S2 ![] bcast_S_S2 : (⟨S_, .i32⟩ : BufTy).Contents (Elt F) → (⟨S2, .i32⟩ : BufTy).Contents (Elt F)),
    StableHlo.binary main_c_55 main_v713 main_v714 (addi : (⟨S2, .i32⟩ : BufTy).Contents (Elt F) → (⟨S2, .i32⟩ : BufTy).Contents (Elt F) → (⟨S2, .i32⟩ : BufTy).Contents (Elt F)),
    StableHlo.ternary main_c_58 main_v714 main_c_55 main_v715 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    StableHlo.unary main_v715 main_v716 (broadcastInDim S2x1 ![0] bcast_S2_S2x1_0 : (⟨S2, .i32⟩ : BufTy).Contents (Elt F) → (⟨S2x1, .i32⟩ : BufTy).Contents (Elt F)),
    StableHlo.binary main_v695 main_v716 main_v717 ((fun x i => Host.gather gather_S32x4095x256_S2x1_S32x2x256_02_1_n_n_1_1_321256 x i) : (⟨S32x4095x256, .f32⟩ : BufTy).Contents (Elt F) → (⟨S2x1, .i32⟩ : BufTy).Contents (Elt F) → (⟨S32x2x256, .f32⟩ : BufTy).Contents (Elt F)),
    StableHlo.unary main_v3 main_v718 ((extractStridedSlice S32x2x1280 ![0, 1, 0] · slices_S32x4095x1280_S32x2x1280_0_1_0) : (⟨S32x4095x1280, .f32⟩ : BufTy).Contents (Elt F) → (⟨S32x2x1280, .f32⟩ : BufTy).Contents (Elt F)),
    StableHlo.binary main_v702 main_arg2 main_v719 ((fun l r => Host.dotGeneral dot_S32x2x256_S1280x256_S32x2x1280_2_1_01_0_n_n none l r) : (⟨S32x2x256, .f32⟩ : BufTy).Contents (Elt F) → (⟨S1280x256, .f32⟩ : BufTy).Contents (Elt F) → (⟨S32x2x1280, .f32⟩ : BufTy).Contents (Elt F)),
    StableHlo.binary main_v718 main_v719 main_v720 (addf : (⟨S32x2x1280, .f32⟩ : BufTy).Contents (Elt F) → (⟨S32x2x1280, .f32⟩ : BufTy).Contents (Elt F) → (⟨S32x2x1280, .f32⟩ : BufTy).Contents (Elt F)),
    StableHlo.unary main_arg5 main_v721 (broadcastInDim S1x1x1280 ![2] bcast_S1280_S1x1x1280_2 : (⟨S1280, .f32⟩ : BufTy).Contents (Elt F) → (⟨S1x1x1280, .f32⟩ : BufTy).Contents (Elt F)),
    StableHlo.unary main_v721 main_v722 (broadcastInDim S32x2x1280 ![0, 1, 2] bcast_S1x1x1280_S32x2x1280_0_1_2 : (⟨S1x1x1280, .f32⟩ : BufTy).Contents (Elt F) → (⟨S32x2x1280, .f32⟩ : BufTy).Contents (Elt F)),
    StableHlo.binary main_v720 main_v722 main_v723 (addf : (⟨S32x2x1280, .f32⟩ : BufTy).Contents (Elt F) → (⟨S32x2x1280, .f32⟩ : BufTy).Contents (Elt F) → (⟨S32x2x1280, .f32⟩ : BufTy).Contents (Elt F)),
    StableHlo.binary main_v707 main_arg3 main_v724 ((fun l r => Host.dotGeneral dot_S32x2x256_S1280x256_S32x2x1280_2_1_01_0_n_n none l r) : (⟨S32x2x256, .f32⟩ : BufTy).Contents (Elt F) → (⟨S1280x256, .f32⟩ : BufTy).Contents (Elt F) → (⟨S32x2x1280, .f32⟩ : BufTy).Contents (Elt F)),
    StableHlo.binary main_v723 main_v724 main_v725 (addf : (⟨S32x2x1280, .f32⟩ : BufTy).Contents (Elt F) → (⟨S32x2x1280, .f32⟩ : BufTy).Contents (Elt F) → (⟨S32x2x1280, .f32⟩ : BufTy).Contents (Elt F)),
    StableHlo.unary main_arg6 main_v726 (broadcastInDim S1x1x1280 ![2] bcast_S1280_S1x1x1280_2 : (⟨S1280, .f32⟩ : BufTy).Contents (Elt F) → (⟨S1x1x1280, .f32⟩ : BufTy).Contents (Elt F)),
    StableHlo.unary main_v726 main_v727 (broadcastInDim S32x2x1280 ![0, 1, 2] bcast_S1x1x1280_S32x2x1280_0_1_2 : (⟨S1x1x1280, .f32⟩ : BufTy).Contents (Elt F) → (⟨S32x2x1280, .f32⟩ : BufTy).Contents (Elt F)),
    StableHlo.binary main_v725 main_v727 main_v728 (addf : (⟨S32x2x1280, .f32⟩ : BufTy).Contents (Elt F) → (⟨S32x2x1280, .f32⟩ : BufTy).Contents (Elt F) → (⟨S32x2x1280, .f32⟩ : BufTy).Contents (Elt F)),
    StableHlo.unary main_v728 main_v729 ((extractStridedSlice S32x2x256 ![0, 0, 0] · slices_S32x2x1280_S32x2x256_0_0_0) : (⟨S32x2x1280, .f32⟩ : BufTy).Contents (Elt F) → (⟨S32x2x256, .f32⟩ : BufTy).Contents (Elt F)),
    StableHlo.unary main_v728 main_v730 ((extractStridedSlice S32x2x256 ![0, 0, 256] · slices_S32x2x1280_S32x2x256_0_0_256) : (⟨S32x2x1280, .f32⟩ : BufTy).Contents (Elt F) → (⟨S32x2x256, .f32⟩ : BufTy).Contents (Elt F)),
    StableHlo.unary main_v728 main_v731 ((extractStridedSlice S32x2x256 ![0, 0, 512] · slices_S32x2x1280_S32x2x256_0_0_512) : (⟨S32x2x1280, .f32⟩ : BufTy).Contents (Elt F) → (⟨S32x2x256, .f32⟩ : BufTy).Contents (Elt F)),
    StableHlo.unary main_v728 main_v732 ((extractStridedSlice S32x2x256 ![0, 0, 768] · slices_S32x2x1280_S32x2x256_0_0_768) : (⟨S32x2x1280, .f32⟩ : BufTy).Contents (Elt F) → (⟨S32x2x256, .f32⟩ : BufTy).Contents (Elt F)),
    StableHlo.unary main_v728 main_v733 ((extractStridedSlice S32x2x256 ![0, 0, 1024] · slices_S32x2x1280_S32x2x256_0_0_1024) : (⟨S32x2x1280, .f32⟩ : BufTy).Contents (Elt F) → (⟨S32x2x256, .f32⟩ : BufTy).Contents (Elt F)),
    StableHlo.unary main_v729 main_v734 (Host.negf : (⟨S32x2x256, .f32⟩ : BufTy).Contents (Elt F) → (⟨S32x2x256, .f32⟩ : BufTy).Contents (Elt F)),
    StableHlo.unary main_v734 main_v735 (Host.exp : (⟨S32x2x256, .f32⟩ : BufTy).Contents (Elt F) → (⟨S32x2x256, .f32⟩ : BufTy).Contents (Elt F)),
    StableHlo.nullary main_cst_208 (constant S_ .f32 0x3F800000#32),
    StableHlo.unary main_cst_208 main_v736 (broadcastInDim S32x2x256 ![] bcast_S_S32x2x256 : (⟨S_, .f32⟩ : BufTy).Contents (Elt F) → (⟨S32x2x256, .f32⟩ : BufTy).Contents (Elt F)),
    StableHlo.binary main_v736 main_v735 main_v737 (addf : (⟨S32x2x256, .f32⟩ : BufTy).Contents (Elt F) → (⟨S32x2x256, .f32⟩ : BufTy).Contents (Elt F) → (⟨S32x2x256, .f32⟩ : BufTy).Contents (Elt F)),
    StableHlo.nullary main_cst_209 (constant S_ .f32 0x3F800000#32),
    StableHlo.unary main_cst_209 main_v738 (broadcastInDim S32x2x256 ![] bcast_S_S32x2x256 : (⟨S_, .f32⟩ : BufTy).Contents (Elt F) → (⟨S32x2x256, .f32⟩ : BufTy).Contents (Elt F)),
    StableHlo.binary main_v738 main_v737 main_v739 (Host.divf : (⟨S32x2x256, .f32⟩ : BufTy).Contents (Elt F) → (⟨S32x2x256, .f32⟩ : BufTy).Contents (Elt F) → (⟨S32x2x256, .f32⟩ : BufTy).Contents (Elt F)),
    StableHlo.unary main_v730 main_v740 (Host.negf : (⟨S32x2x256, .f32⟩ : BufTy).Contents (Elt F) → (⟨S32x2x256, .f32⟩ : BufTy).Contents (Elt F)),
    StableHlo.unary main_v740 main_v741 (Host.exp : (⟨S32x2x256, .f32⟩ : BufTy).Contents (Elt F) → (⟨S32x2x256, .f32⟩ : BufTy).Contents (Elt F)),
    StableHlo.nullary main_cst_210 (constant S_ .f32 0x3F800000#32),
    StableHlo.unary main_cst_210 main_v742 (broadcastInDim S32x2x256 ![] bcast_S_S32x2x256 : (⟨S_, .f32⟩ : BufTy).Contents (Elt F) → (⟨S32x2x256, .f32⟩ : BufTy).Contents (Elt F)),
    StableHlo.binary main_v742 main_v741 main_v743 (addf : (⟨S32x2x256, .f32⟩ : BufTy).Contents (Elt F) → (⟨S32x2x256, .f32⟩ : BufTy).Contents (Elt F) → (⟨S32x2x256, .f32⟩ : BufTy).Contents (Elt F)),
    StableHlo.nullary main_cst_211 (constant S_ .f32 0x3F800000#32),
    StableHlo.unary main_cst_211 main_v744 (broadcastInDim S32x2x256 ![] bcast_S_S32x2x256 : (⟨S_, .f32⟩ : BufTy).Contents (Elt F) → (⟨S32x2x256, .f32⟩ : BufTy).Contents (Elt F)),
    StableHlo.binary main_v744 main_v743 main_v745 (Host.divf : (⟨S32x2x256, .f32⟩ : BufTy).Contents (Elt F) → (⟨S32x2x256, .f32⟩ : BufTy).Contents (Elt F) → (⟨S32x2x256, .f32⟩ : BufTy).Contents (Elt F)) ]

set_option maxRecDepth 8192 in
theorem c27_sub : (c27 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..,
    binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..⟩

/-- The buffers these operations write. -/
abbrev c27_W : List (Ref sig .tc) := [main_c_204, main_v698, main_v699, main_v700, main_v701, main_v702, main_c_205, main_v703, main_v704, main_v705, main_v706, main_v707, main_c_206, main_v708, main_v709, main_v710, main_v711, main_v712, main_c_207, main_v713, main_v714, main_v715, main_v716, main_v717, main_v718, main_v719, main_v720, main_v721, main_v722, main_v723, main_v724, main_v725, main_v726, main_v727, main_v728, main_v729, main_v730, main_v731, main_v732, main_v733, main_v734, main_v735, main_cst_208, main_v736, main_v737, main_cst_209, main_v738, main_v739, main_v740, main_v741, main_cst_210, main_v742, main_v743, main_cst_211, main_v744, main_v745]

set_option maxRecDepth 8192 in
theorem c27_writes : (c27 : List (HloOp τ sig (Elt F))).Forall fun op =>
    op.writes ⊆ (c27_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c27_fresh : ∀ op ∈ (c27 : List (HloOp τ sig (Elt F))), op.fresh = ∅ := by
  intro _ h; (repeat (cases h with | head => rfl | tail _ h => ?_)); exact nomatch h

/-- The operations of the printed window main_part15. -/
abbrev ops15 : List (HloOp τ sig (Elt F)) := c26 ++ c27

set_option maxRecDepth 100000 in
set_option maxHeartbeats 4000000 in
theorem main_part15_eq (c : Dev nD) : main_part15 (F := F) c = seq ops15 := rfl

theorem ops15_sub : (ops15 : List (HloOp τ sig (Elt F))).Forall fun op => op.bufs ⊆ tcRefs τ sig :=
  List.forall_iff_forall_mem.mpr fun op h => by
    simp only [ops15, List.mem_append] at h
    rcases h with h | h
    exacts [List.forall_iff_forall_mem.mp c26_sub op h, List.forall_iff_forall_mem.mp c27_sub op h]

theorem ops15_fresh : ∀ op ∈ (ops15 : List (HloOp τ sig (Elt F))), op.fresh = ∅ := by
  intro op h
  simp only [ops15, List.mem_append] at h
  rcases h with h | h
  exacts [c26_fresh op h, c27_fresh op h]

end Cert.ReferenceIdeal.RefValue

end
-- ==== Proof.RefOps16.lean ====
/-
  The statements 961 … 1020 of the reference program's @main as a list of operations (the printed window
  main_part16 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 961 … 990 of the program, as operations. -/
abbrev c28 : List (HloOp τ sig (Elt F)) :=
  [
    StableHlo.unary main_v731 main_v746 (Host.negf : (⟨S32x2x256, .f32⟩ : BufTy).Contents (Elt F) → (⟨S32x2x256, .f32⟩ : BufTy).Contents (Elt F)),
    StableHlo.unary main_v746 main_v747 (Host.exp : (⟨S32x2x256, .f32⟩ : BufTy).Contents (Elt F) → (⟨S32x2x256, .f32⟩ : BufTy).Contents (Elt F)),
    StableHlo.nullary main_cst_212 (constant S_ .f32 0x3F800000#32),
    StableHlo.unary main_cst_212 main_v748 (broadcastInDim S32x2x256 ![] bcast_S_S32x2x256 : (⟨S_, .f32⟩ : BufTy).Contents (Elt F) → (⟨S32x2x256, .f32⟩ : BufTy).Contents (Elt F)),
    StableHlo.binary main_v748 main_v747 main_v749 (addf : (⟨S32x2x256, .f32⟩ : BufTy).Contents (Elt F) → (⟨S32x2x256, .f32⟩ : BufTy).Contents (Elt F) → (⟨S32x2x256, .f32⟩ : BufTy).Contents (Elt F)),
    StableHlo.nullary main_cst_213 (constant S_ .f32 0x3F800000#32),
    StableHlo.unary main_cst_213 main_v750 (broadcastInDim S32x2x256 ![] bcast_S_S32x2x256 : (⟨S_, .f32⟩ : BufTy).Contents (Elt F) → (⟨S32x2x256, .f32⟩ : BufTy).Contents (Elt F)),
    StableHlo.binary main_v750 main_v749 main_v751 (Host.divf : (⟨S32x2x256, .f32⟩ : BufTy).Contents (Elt F) → (⟨S32x2x256, .f32⟩ : BufTy).Contents (Elt F) → (⟨S32x2x256, .f32⟩ : BufTy).Contents (Elt F)),
    StableHlo.unary main_v732 main_v752 (Host.negf : (⟨S32x2x256, .f32⟩ : BufTy).Contents (Elt F) → (⟨S32x2x256, .f32⟩ : BufTy).Contents (Elt F)),
    StableHlo.unary main_v752 main_v753 (Host.exp : (⟨S32x2x256, .f32⟩ : BufTy).Contents (Elt F) → (⟨S32x2x256, .f32⟩ : BufTy).Contents (Elt F)),
    StableHlo.nullary main_cst_214 (constant S_ .f32 0x3F800000#32),
    StableHlo.unary main_cst_214 main_v754 (broadcastInDim S32x2x256 ![] bcast_S_S32x2x256 : (⟨S_, .f32⟩ : BufTy).Contents (Elt F) → (⟨S32x2x256, .f32⟩ : BufTy).Contents (Elt F)),
    StableHlo.binary main_v754 main_v753 main_v755 (addf : (⟨S32x2x256, .f32⟩ : BufTy).Contents (Elt F) → (⟨S32x2x256, .f32⟩ : BufTy).Contents (Elt F) → (⟨S32x2x256, .f32⟩ : BufTy).Contents (Elt F)),
    StableHlo.nullary main_cst_215 (constant S_ .f32 0x3F800000#32),
    StableHlo.unary main_cst_215 main_v756 (broadcastInDim S32x2x256 ![] bcast_S_S32x2x256 : (⟨S_, .f32⟩ : BufTy).Contents (Elt F) → (⟨S32x2x256, .f32⟩ : BufTy).Contents (Elt F)),
    StableHlo.binary main_v756 main_v755 main_v757 (Host.divf : (⟨S32x2x256, .f32⟩ : BufTy).Contents (Elt F) → (⟨S32x2x256, .f32⟩ : BufTy).Contents (Elt F) → (⟨S32x2x256, .f32⟩ : BufTy).Contents (Elt F)),
    StableHlo.unary main_v733 main_v758 (Host.tanh : (⟨S32x2x256, .f32⟩ : BufTy).Contents (Elt F) → (⟨S32x2x256, .f32⟩ : BufTy).Contents (Elt F)),
    StableHlo.binary main_v739 main_v758 main_v759 (mulf : (⟨S32x2x256, .f32⟩ : BufTy).Contents (Elt F) → (⟨S32x2x256, .f32⟩ : BufTy).Contents (Elt F) → (⟨S32x2x256, .f32⟩ : BufTy).Contents (Elt F)),
    StableHlo.binary main_v751 main_v712 main_v760 (mulf : (⟨S32x2x256, .f32⟩ : BufTy).Contents (Elt F) → (⟨S32x2x256, .f32⟩ : BufTy).Contents (Elt F) → (⟨S32x2x256, .f32⟩ : BufTy).Contents (Elt F)),
    StableHlo.binary main_v759 main_v760 main_v761 (addf : (⟨S32x2x256, .f32⟩ : BufTy).Contents (Elt F) → (⟨S32x2x256, .f32⟩ : BufTy).Contents (Elt F) → (⟨S32x2x256, .f32⟩ : BufTy).Contents (Elt F)),
    StableHlo.binary main_v757 main_v717 main_v762 (mulf : (⟨S32x2x256, .f32⟩ : BufTy).Contents (Elt F) → (⟨S32x2x256, .f32⟩ : BufTy).Contents (Elt F) → (⟨S32x2x256, .f32⟩ : BufTy).Contents (Elt F)),
    StableHlo.binary main_v761 main_v762 main_v763 (addf : (⟨S32x2x256, .f32⟩ : BufTy).Contents (Elt F) → (⟨S32x2x256, .f32⟩ : BufTy).Contents (Elt F) → (⟨S32x2x256, .f32⟩ : BufTy).Contents (Elt F)),
    StableHlo.unary main_v763 main_v764 (Host.tanh : (⟨S32x2x256, .f32⟩ : BufTy).Contents (Elt F) → (⟨S32x2x256, .f32⟩ : BufTy).Contents (Elt F)),
    StableHlo.binary main_v745 main_v764 main_v765 (mulf : (⟨S32x2x256, .f32⟩ : BufTy).Contents (Elt F) → (⟨S32x2x256, .f32⟩ : BufTy).Contents (Elt F) → (⟨S32x2x256, .f32⟩ : BufTy).Contents (Elt F)),
    StableHlo.nullary main_c_216 (constantI S_ 32 1#32),
    StableHlo.unary main_c_216 main_v766 (broadcastInDim S1 ![] bcast_S_S1 : (⟨S_, .i32⟩ : BufTy).Contents (Elt F) → (⟨S1, .i32⟩ : BufTy).Contents (Elt F)),
    StableHlo.ternary main_v695 main_v766 main_v763 main_v767 ((fun x i u => Host.scatter scatter_S32x4095x256_S1_S32x2x256_012_n_1_0 (fun _ b => b) x i u) : (⟨S32x4095x256, .f32⟩ : BufTy).Contents (Elt F) → (⟨S1, .i32⟩ : BufTy).Contents (Elt F) → (⟨S32x2x256, .f32⟩ : BufTy).Contents (Elt F) → (⟨S32x4095x256, .f32⟩ : BufTy).Contents (Elt F)),
    StableHlo.nullary main_c_217 (constantI S_ 32 1#32),
    StableHlo.unary main_c_217 main_v768 (broadcastInDim S1 ![] bcast_S_S1 : (⟨S_, .i32⟩ : BufTy).Contents (Elt F) → (⟨S1, .i32⟩ : BufTy).Contents (Elt F)),
    StableHlo.ternary main_v697 main_v768 main_v765 main_v769 ((fun x i u => Host.scatter scatter_S32x4095x256_S1_S32x2x256_012_n_1_0 (fun _ b => b) x i u) : (⟨S32x4095x256, .f32⟩ : BufTy).Contents (Elt F) → (⟨S1, .i32⟩ : BufTy).Contents (Elt F) → (⟨S32x2x256, .f32⟩ : BufTy).Contents (Elt F) → (⟨S32x4095x256, .f32⟩ : BufTy).Contents (Elt F)) ]

set_option maxRecDepth 8192 in
theorem c28_sub : (c28 : List (HloOp τ sig (Elt F))).Forall fun op => op.bufs ⊆ tcRefs τ sig :=
  ⟨unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c28_W : List (Ref sig .tc) := [main_v746, main_v747, main_cst_212, main_v748, main_v749, main_cst_213, main_v750, main_v751, main_v752, main_v753, main_cst_214, main_v754, main_v755, main_cst_215, main_v756, main_v757, main_v758, main_v759, main_v760, main_v761, main_v762, main_v763, main_v764, main_v765, main_c_216, main_v766, main_v767, main_c_217, main_v768, main_v769]

set_option maxRecDepth 8192 in
theorem c28_writes : (c28 : List (HloOp τ sig (Elt F))).Forall fun op =>
    op.writes ⊆ (c28_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c28_fresh : ∀ op ∈ (c28 : List (HloOp τ sig (Elt F))), op.fresh = ∅ := by
  intro _ h; (repeat (cases h with | head => rfl | tail _ h => ?_)); exact nomatch h

/-- The statements 991 … 1020 of the program, as operations. -/
abbrev c29 : List (HloOp τ sig (Elt F)) :=
  [
    StableHlo.nullary main_c_218 (constantI S_ 32 4095#32),
    StableHlo.unary main_c_218 main_v770 (broadcastInDim S1 ![] bcast_S_S1 : (⟨S_, .i32⟩ : BufTy).Contents (Elt F) → (⟨S1, .i32⟩ : BufTy).Contents (Elt F)),
    StableHlo.binary main_c_59 main_v770 main_v771 (addi : (⟨S1, .i32⟩ : BufTy).Contents (Elt F) → (⟨S1, .i32⟩ : BufTy).Contents (Elt F) → (⟨S1, .i32⟩ : BufTy).Contents (Elt F)),
    StableHlo.ternary main_c_60 main_v771 main_c_59 main_v772 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v772 main_v773 (broadcastInDim S1x1 ![0] bcast_S1_S1x1_0 : (⟨S1, .i32⟩ : BufTy).Contents (Elt F) → (⟨S1x1, .i32⟩ : BufTy).Contents (Elt F)),
    StableHlo.binary main_v769 main_v773 main_v774 ((fun x i => Host.gather gather_S32x4095x256_S1x1_S32x1x256_02_1_n_n_1_1_321256 x i) : (⟨S32x4095x256, .f32⟩ : BufTy).Contents (Elt F) → (⟨S1x1, .i32⟩ : BufTy).Contents (Elt F) → (⟨S32x1x256, .f32⟩ : BufTy).Contents (Elt F)),
    StableHlo.nullary main_c_219 (constantI S_ 32 4095#32),
    StableHlo.unary main_c_219 main_v775 (broadcastInDim S1 ![] bcast_S_S1 : (⟨S_, .i32⟩ : BufTy).Contents (Elt F) → (⟨S1, .i32⟩ : BufTy).Contents (Elt F)),
    StableHlo.binary main_c_61 main_v775 main_v776 (addi : (⟨S1, .i32⟩ : BufTy).Contents (Elt F) → (⟨S1, .i32⟩ : BufTy).Contents (Elt F) → (⟨S1, .i32⟩ : BufTy).Contents (Elt F)),
    StableHlo.ternary main_c_62 main_v776 main_c_61 main_v777 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v777 main_v778 (broadcastInDim S1x1 ![0] bcast_S1_S1x1_0 : (⟨S1, .i32⟩ : BufTy).Contents (Elt F) → (⟨S1x1, .i32⟩ : BufTy).Contents (Elt F)),
    StableHlo.binary main_v769 main_v778 main_v779 ((fun x i => Host.gather gather_S32x4095x256_S1x1_S32x1x256_02_1_n_n_1_1_321256 x i) : (⟨S32x4095x256, .f32⟩ : BufTy).Contents (Elt F) → (⟨S1x1, .i32⟩ : BufTy).Contents (Elt F) → (⟨S32x1x256, .f32⟩ : BufTy).Contents (Elt F)),
    StableHlo.nullary main_c_220 (constantI S_ 32 4095#32),
    StableHlo.unary main_c_220 main_v780 (broadcastInDim S1 ![] bcast_S_S1 : (⟨S_, .i32⟩ : BufTy).Contents (Elt F) → (⟨S1, .i32⟩ : BufTy).Contents (Elt F)),
    StableHlo.binary main_c_59 main_v780 main_v781 (addi : (⟨S1, .i32⟩ : BufTy).Contents (Elt F) → (⟨S1, .i32⟩ : BufTy).Contents (Elt F) → (⟨S1, .i32⟩ : BufTy).Contents (Elt F)),
    StableHlo.ternary main_c_63 main_v781 main_c_59 main_v782 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v782 main_v783 (broadcastInDim S1x1 ![0] bcast_S1_S1x1_0 : (⟨S1, .i32⟩ : BufTy).Contents (Elt F) → (⟨S1x1, .i32⟩ : BufTy).Contents (Elt F)),
    StableHlo.binary main_v767 main_v783 main_v784 ((fun x i => Host.gather gather_S32x4095x256_S1x1_S32x1x256_02_1_n_n_1_1_321256 x i) : (⟨S32x4095x256, .f32⟩ : BufTy).Contents (Elt F) → (⟨S1x1, .i32⟩ : BufTy).Contents (Elt F) → (⟨S32x1x256, .f32⟩ : BufTy).Contents (Elt F)),
    StableHlo.nullary main_c_221 (constantI S_ 32 4095#32),
    StableHlo.unary main_c_221 main_v785 (broadcastInDim S1 ![] bcast_S_S1 : (⟨S_, .i32⟩ : BufTy).Contents (Elt F) → (⟨S1, .i32⟩ : BufTy).Contents (Elt F)),
    StableHlo.binary main_c_61 main_v785 main_v786 (addi : (⟨S1, .i32⟩ : BufTy).Contents (Elt F) → (⟨S1, .i32⟩ : BufTy).Contents (Elt F) → (⟨S1, .i32⟩ : BufTy).Contents (Elt F)),
    StableHlo.ternary main_c_64 main_v786 main_c_61 main_v787 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    StableHlo.unary main_v787 main_v788 (broadcastInDim S1x1 ![0] bcast_S1_S1x1_0 : (⟨S1, .i32⟩ : BufTy).Contents (Elt F) → (⟨S1x1, .i32⟩ : BufTy).Contents (Elt F)),
    StableHlo.binary main_v767 main_v788 main_v789 ((fun x i => Host.gather gather_S32x4095x256_S1x1_S32x1x256_02_1_n_n_1_1_321256 x i) : (⟨S32x4095x256, .f32⟩ : BufTy).Contents (Elt F) → (⟨S1x1, .i32⟩ : BufTy).Contents (Elt F) → (⟨S32x1x256, .f32⟩ : BufTy).Contents (Elt F)),
    StableHlo.unary main_v3 main_v790 ((extractStridedSlice S32x1x1280 ![0, 0, 0] · slices_S32x4095x1280_S32x1x1280_0_0_0) : (⟨S32x4095x1280, .f32⟩ : BufTy).Contents (Elt F) → (⟨S32x1x1280, .f32⟩ : BufTy).Contents (Elt F)),
    StableHlo.binary main_v774 main_arg2 main_v791 ((fun l r => Host.dotGeneral dot_S32x1x256_S1280x256_S32x1x1280_2_1_01_0_n_n none l r) : (⟨S32x1x256, .f32⟩ : BufTy).Contents (Elt F) → (⟨S1280x256, .f32⟩ : BufTy).Contents (Elt F) → (⟨S32x1x1280, .f32⟩ : BufTy).Contents (Elt F)),
    StableHlo.binary main_v790 main_v791 main_v792 (addf : (⟨S32x1x1280, .f32⟩ : BufTy).Contents (Elt F) → (⟨S32x1x1280, .f32⟩ : BufTy).Contents (Elt F) → (⟨S32x1x1280, .f32⟩ : BufTy).Contents (Elt F)),
    StableHlo.unary main_arg5 main_v793 (broadcastInDim S1x1x1280 ![2] bcast_S1280_S1x1x1280_2 : (⟨S1280, .f32⟩ : BufTy).Contents (Elt F) → (⟨S1x1x1280, .f32⟩ : BufTy).Contents (Elt F)),
    StableHlo.unary main_v793 main_v794 (broadcastInDim S32x1x1280 ![0, 1, 2] bcast_S1x1x1280_S32x1x1280_0_1_2 : (⟨S1x1x1280, .f32⟩ : BufTy).Contents (Elt F) → (⟨S32x1x1280, .f32⟩ : BufTy).Contents (Elt F)),
    StableHlo.binary main_v792 main_v794 main_v795 (addf : (⟨S32x1x1280, .f32⟩ : BufTy).Contents (Elt F) → (⟨S32x1x1280, .f32⟩ : BufTy).Contents (Elt F) → (⟨S32x1x1280, .f32⟩ : BufTy).Contents (Elt F)) ]

set_option maxRecDepth 8192 in
theorem c29_sub : (c29 : List (HloOp τ sig (Elt F))).Forall fun op => op.bufs ⊆ tcRefs τ sig :=
  ⟨nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    binary_bufs_sub ..,
    binary_bufs_sub ..,
    unary_bufs_sub ..,
    unary_bufs_sub ..,
    binary_bufs_sub ..⟩

/-- The buffers these operations write. -/
abbrev c29_W : List (Ref sig .tc) := [main_c_218, main_v770, main_v771, main_v772, main_v773, main_v774, main_c_219, main_v775, main_v776, main_v777, main_v778, main_v779, main_c_220, main_v780, main_v781, main_v782, main_v783, main_v784, main_c_221, main_v785, main_v786, main_v787, main_v788, main_v789, main_v790, main_v791, main_v792, main_v793, main_v794, main_v795]

set_option maxRecDepth 8192 in
theorem c29_writes : (c29 : List (HloOp τ sig (Elt F))).Forall fun op =>
    op.writes ⊆ (c29_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c29_fresh : ∀ op ∈ (c29 : List (HloOp τ sig (Elt F))), op.fresh = ∅ := by
  intro _ h; (repeat (cases h with | head => rfl | tail _ h => ?_)); exact nomatch h

/-- The operations of the printed window main_part16. -/
abbrev ops16 : List (HloOp τ sig (Elt F)) := c28 ++ c29

set_option maxRecDepth 100000 in
set_option maxHeartbeats 4000000 in
theorem main_part16_eq (c : Dev nD) : main_part16 (F := F) c = seq ops16 := rfl

theorem ops16_sub : (ops16 : List (HloOp τ sig (Elt F))).Forall fun op => op.bufs ⊆ tcRefs τ sig :=
  List.forall_iff_forall_mem.mpr fun op h => by
    simp only [ops16, List.mem_append] at h
    rcases h with h | h
    exacts [List.forall_iff_forall_mem.mp c28_sub op h, List.forall_iff_forall_mem.mp c29_sub op h]

theorem ops16_fresh : ∀ op ∈ (ops16 : List (HloOp τ sig (Elt F))), op.fresh = ∅ := by
  intro op h
  simp only [ops16, List.mem_append] at h
  rcases h with h | h
  exacts [c28_fresh op h, c29_fresh op h]

end Cert.ReferenceIdeal.RefValue

end
-- ==== Proof.RefOps17.lean ====
/-
  The statements 1021 … 1078 of the reference program's @main as a list of operations (the printed window
  main_part17 is the straight line of exactly these), cut where a stage of the tree recursion ends.
-/
import proofs.«102109_j83099027243631_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The statements 1021 … 1076 of the program, as operations. -/
abbrev c30 : List (HloOp τ sig (Elt F)) :=
  [
    StableHlo.binary main_v779 main_arg3 main_v796 ((fun l r => Host.dotGeneral dot_S32x1x256_S1280x256_S32x1x1280_2_1_01_0_n_n none l r) : (⟨S32x1x256, .f32⟩ : BufTy).Contents (Elt F) → (⟨S1280x256, .f32⟩ : BufTy).Contents (Elt F) → (⟨S32x1x1280, .f32⟩ : BufTy).Contents (Elt F)),
    StableHlo.binary main_v795 main_v796 main_v797 (addf : (⟨S32x1x1280, .f32⟩ : BufTy).Contents (Elt F) → (⟨S32x1x1280, .f32⟩ : BufTy).Contents (Elt F) → (⟨S32x1x1280, .f32⟩ : BufTy).Contents (Elt F)),
    StableHlo.unary main_arg6 main_v798 (broadcastInDim S1x1x1280 ![2] bcast_S1280_S1x1x1280_2 : (⟨S1280, .f32⟩ : BufTy).Contents (Elt F) → (⟨S1x1x1280, .f32⟩ : BufTy).Contents (Elt F)),
    StableHlo.unary main_v798 main_v799 (broadcastInDim S32x1x1280 ![0, 1, 2] bcast_S1x1x1280_S32x1x1280_0_1_2 : (⟨S1x1x1280, .f32⟩ : BufTy).Contents (Elt F) → (⟨S32x1x1280, .f32⟩ : BufTy).Contents (Elt F)),
    StableHlo.binary main_v797 main_v799 main_v800 (addf : (⟨S32x1x1280, .f32⟩ : BufTy).Contents (Elt F) → (⟨S32x1x1280, .f32⟩ : BufTy).Contents (Elt F) → (⟨S32x1x1280, .f32⟩ : BufTy).Contents (Elt F)),
    StableHlo.unary main_v800 main_v801 ((extractStridedSlice S32x1x256 ![0, 0, 0] · slices_S32x1x1280_S32x1x256_0_0_0) : (⟨S32x1x1280, .f32⟩ : BufTy).Contents (Elt F) → (⟨S32x1x256, .f32⟩ : BufTy).Contents (Elt F)),
    StableHlo.unary main_v800 main_v802 ((extractStridedSlice S32x1x256 ![0, 0, 256] · slices_S32x1x1280_S32x1x256_0_0_256) : (⟨S32x1x1280, .f32⟩ : BufTy).Contents (Elt F) → (⟨S32x1x256, .f32⟩ : BufTy).Contents (Elt F)),
    StableHlo.unary main_v800 main_v803 ((extractStridedSlice S32x1x256 ![0, 0, 512] · slices_S32x1x1280_S32x1x256_0_0_512) : (⟨S32x1x1280, .f32⟩ : BufTy).Contents (Elt F) → (⟨S32x1x256, .f32⟩ : BufTy).Contents (Elt F)),
    StableHlo.unary main_v800 main_v804 ((extractStridedSlice S32x1x256 ![0, 0, 768] · slices_S32x1x1280_S32x1x256_0_0_768) : (⟨S32x1x1280, .f32⟩ : BufTy).Contents (Elt F) → (⟨S32x1x256, .f32⟩ : BufTy).Contents (Elt F)),
    StableHlo.unary main_v800 main_v805 ((extractStridedSlice S32x1x256 ![0, 0, 1024] · slices_S32x1x1280_S32x1x256_0_0_1024) : (⟨S32x1x1280, .f32⟩ : BufTy).Contents (Elt F) → (⟨S32x1x256, .f32⟩ : BufTy).Contents (Elt F)),
    StableHlo.unary main_v801 main_v806 (Host.negf : (⟨S32x1x256, .f32⟩ : BufTy).Contents (Elt F) → (⟨S32x1x256, .f32⟩ : BufTy).Contents (Elt F)),
    StableHlo.unary main_v806 main_v807 (Host.exp : (⟨S32x1x256, .f32⟩ : BufTy).Contents (Elt F) → (⟨S32x1x256, .f32⟩ : BufTy).Contents (Elt F)),
    StableHlo.nullary main_cst_222 (constant S_ .f32 0x3F800000#32),
    StableHlo.unary main_cst_222 main_v808 (broadcastInDim S32x1x256 ![] bcast_S_S32x1x256 : (⟨S_, .f32⟩ : BufTy).Contents (Elt F) → (⟨S32x1x256, .f32⟩ : BufTy).Contents (Elt F)),
    StableHlo.binary main_v808 main_v807 main_v809 (addf : (⟨S32x1x256, .f32⟩ : BufTy).Contents (Elt F) → (⟨S32x1x256, .f32⟩ : BufTy).Contents (Elt F) → (⟨S32x1x256, .f32⟩ : BufTy).Contents (Elt F)),
    StableHlo.nullary main_cst_223 (constant S_ .f32 0x3F800000#32),
    StableHlo.unary main_cst_223 main_v810 (broadcastInDim S32x1x256 ![] bcast_S_S32x1x256 : (⟨S_, .f32⟩ : BufTy).Contents (Elt F) → (⟨S32x1x256, .f32⟩ : BufTy).Contents (Elt F)),
    StableHlo.binary main_v810 main_v809 main_v811 (Host.divf : (⟨S32x1x256, .f32⟩ : BufTy).Contents (Elt F) → (⟨S32x1x256, .f32⟩ : BufTy).Contents (Elt F) → (⟨S32x1x256, .f32⟩ : BufTy).Contents (Elt F)),
    StableHlo.unary main_v802 main_v812 (Host.negf : (⟨S32x1x256, .f32⟩ : BufTy).Contents (Elt F) → (⟨S32x1x256, .f32⟩ : BufTy).Contents (Elt F)),
    StableHlo.unary main_v812 main_v813 (Host.exp : (⟨S32x1x256, .f32⟩ : BufTy).Contents (Elt F) → (⟨S32x1x256, .f32⟩ : BufTy).Contents (Elt F)),
    StableHlo.nullary main_cst_224 (constant S_ .f32 0x3F800000#32),
    StableHlo.unary main_cst_224 main_v814 (broadcastInDim S32x1x256 ![] bcast_S_S32x1x256 : (⟨S_, .f32⟩ : BufTy).Contents (Elt F) → (⟨S32x1x256, .f32⟩ : BufTy).Contents (Elt F)),
    StableHlo.binary main_v814 main_v813 main_v815 (addf : (⟨S32x1x256, .f32⟩ : BufTy).Contents (Elt F) → (⟨S32x1x256, .f32⟩ : BufTy).Contents (Elt F) → (⟨S32x1x256, .f32⟩ : BufTy).Contents (Elt F)),
    StableHlo.nullary main_cst_225 (constant S_ .f32 0x3F800000#32),
    StableHlo.unary main_cst_225 main_v816 (broadcastInDim S32x1x256 ![] bcast_S_S32x1x256 : (⟨S_, .f32⟩ : BufTy).Contents (Elt F) → (⟨S32x1x256, .f32⟩ : BufTy).Contents (Elt F)),
    StableHlo.binary main_v816 main_v815 main_v817 (Host.divf : (⟨S32x1x256, .f32⟩ : BufTy).Contents (Elt F) → (⟨S32x1x256, .f32⟩ : BufTy).Contents (Elt F) → (⟨S32x1x256, .f32⟩ : BufTy).Contents (Elt F)),
    StableHlo.unary main_v803 main_v818 (Host.negf : (⟨S32x1x256, .f32⟩ : BufTy).Contents (Elt F) → (⟨S32x1x256, .f32⟩ : BufTy).Contents (Elt F)),
    StableHlo.unary main_v818 main_v819 (Host.exp : (⟨S32x1x256, .f32⟩ : BufTy).Contents (Elt F) → (⟨S32x1x256, .f32⟩ : BufTy).Contents (Elt F)),
    StableHlo.nullary main_cst_226 (constant S_ .f32 0x3F800000#32),
    StableHlo.unary main_cst_226 main_v820 (broadcastInDim S32x1x256 ![] bcast_S_S32x1x256 : (⟨S_, .f32⟩ : BufTy).Contents (Elt F) → (⟨S32x1x256, .f32⟩ : BufTy).Contents (Elt F)),
    StableHlo.binary main_v820 main_v819 main_v821 (addf : (⟨S32x1x256, .f32⟩ : BufTy).Contents (Elt F) → (⟨S32x1x256, .f32⟩ : BufTy).Contents (Elt F) → (⟨S32x1x256, .f32⟩ : BufTy).Contents (Elt F)),
    StableHlo.nullary main_cst_227 (constant S_ .f32 0x3F800000#32),
    StableHlo.unary main_cst_227 main_v822 (broadcastInDim S32x1x256 ![] bcast_S_S32x1x256 : (⟨S_, .f32⟩ : BufTy).Contents (Elt F) → (⟨S32x1x256, .f32⟩ : BufTy).Contents (Elt F)),
    StableHlo.binary main_v822 main_v821 main_v823 (Host.divf : (⟨S32x1x256, .f32⟩ : BufTy).Contents (Elt F) → (⟨S32x1x256, .f32⟩ : BufTy).Contents (Elt F) → (⟨S32x1x256, .f32⟩ : BufTy).Contents (Elt F)),
    StableHlo.unary main_v804 main_v824 (Host.negf : (⟨S32x1x256, .f32⟩ : BufTy).Contents (Elt F) → (⟨S32x1x256, .f32⟩ : BufTy).Contents (Elt F)),
    StableHlo.unary main_v824 main_v825 (Host.exp : (⟨S32x1x256, .f32⟩ : BufTy).Contents (Elt F) → (⟨S32x1x256, .f32⟩ : BufTy).Contents (Elt F)),
    StableHlo.nullary main_cst_228 (constant S_ .f32 0x3F800000#32),
    StableHlo.unary main_cst_228 main_v826 (broadcastInDim S32x1x256 ![] bcast_S_S32x1x256 : (⟨S_, .f32⟩ : BufTy).Contents (Elt F) → (⟨S32x1x256, .f32⟩ : BufTy).Contents (Elt F)),
    StableHlo.binary main_v826 main_v825 main_v827 (addf : (⟨S32x1x256, .f32⟩ : BufTy).Contents (Elt F) → (⟨S32x1x256, .f32⟩ : BufTy).Contents (Elt F) → (⟨S32x1x256, .f32⟩ : BufTy).Contents (Elt F)),
    StableHlo.nullary main_cst_229 (constant S_ .f32 0x3F800000#32),
    StableHlo.unary main_cst_229 main_v828 (broadcastInDim S32x1x256 ![] bcast_S_S32x1x256 : (⟨S_, .f32⟩ : BufTy).Contents (Elt F) → (⟨S32x1x256, .f32⟩ : BufTy).Contents (Elt F)),
    StableHlo.binary main_v828 main_v827 main_v829 (Host.divf : (⟨S32x1x256, .f32⟩ : BufTy).Contents (Elt F) → (⟨S32x1x256, .f32⟩ : BufTy).Contents (Elt F) → (⟨S32x1x256, .f32⟩ : BufTy).Contents (Elt F)),
    StableHlo.unary main_v805 main_v830 (Host.tanh : (⟨S32x1x256, .f32⟩ : BufTy).Contents (Elt F) → (⟨S32x1x256, .f32⟩ : BufTy).Contents (Elt F)),
    StableHlo.binary main_v811 main_v830 main_v831 (mulf : (⟨S32x1x256, .f32⟩ : BufTy).Contents (Elt F) → (⟨S32x1x256, .f32⟩ : BufTy).Contents (Elt F) → (⟨S32x1x256, .f32⟩ : BufTy).Contents (Elt F)),
    StableHlo.binary main_v823 main_v784 main_v832 (mulf : (⟨S32x1x256, .f32⟩ : BufTy).Contents (Elt F) → (⟨S32x1x256, .f32⟩ : BufTy).Contents (Elt F) → (⟨S32x1x256, .f32⟩ : BufTy).Contents (Elt F)),
    StableHlo.binary main_v831 main_v832 main_v833 (addf : (⟨S32x1x256, .f32⟩ : BufTy).Contents (Elt F) → (⟨S32x1x256, .f32⟩ : BufTy).Contents (Elt F) → (⟨S32x1x256, .f32⟩ : BufTy).Contents (Elt F)),
    StableHlo.binary main_v829 main_v789 main_v834 (mulf : (⟨S32x1x256, .f32⟩ : BufTy).Contents (Elt F) → (⟨S32x1x256, .f32⟩ : BufTy).Contents (Elt F) → (⟨S32x1x256, .f32⟩ : BufTy).Contents (Elt F)),
    StableHlo.binary main_v833 main_v834 main_v835 (addf : (⟨S32x1x256, .f32⟩ : BufTy).Contents (Elt F) → (⟨S32x1x256, .f32⟩ : BufTy).Contents (Elt F) → (⟨S32x1x256, .f32⟩ : BufTy).Contents (Elt F)),
    StableHlo.unary main_v835 main_v836 (Host.tanh : (⟨S32x1x256, .f32⟩ : BufTy).Contents (Elt F) → (⟨S32x1x256, .f32⟩ : BufTy).Contents (Elt F)),
    StableHlo.binary main_v817 main_v836 main_v837 (mulf : (⟨S32x1x256, .f32⟩ : BufTy).Contents (Elt F) → (⟨S32x1x256, .f32⟩ : BufTy).Contents (Elt F) → (⟨S32x1x256, .f32⟩ : BufTy).Contents (Elt F)),
    StableHlo.nullary main_c_230 (constantI S_ 32 0#32),
    StableHlo.unary main_c_230 main_v838 (broadcastInDim S1 ![] bcast_S_S1 : (⟨S_, .i32⟩ : BufTy).Contents (Elt F) → (⟨S1, .i32⟩ : BufTy).Contents (Elt F)),
    StableHlo.ternary main_v767 main_v838 main_v835 main_v839 ((fun x i u => Host.scatter scatter_S32x4095x256_S1_S32x1x256_012_n_1_0 (fun _ b => b) x i u) : (⟨S32x4095x256, .f32⟩ : BufTy).Contents (Elt F) → (⟨S1, .i32⟩ : BufTy).Contents (Elt F) → (⟨S32x1x256, .f32⟩ : BufTy).Contents (Elt F) → (⟨S32x4095x256, .f32⟩ : BufTy).Contents (Elt F)),
    StableHlo.nullary main_c_231 (constantI S_ 32 0#32),
    StableHlo.unary main_c_231 main_v840 (broadcastInDim S1 ![] bcast_S_S1 : (⟨S_, .i32⟩ : BufTy).Contents (Elt F) → (⟨S1, .i32⟩ : BufTy).Contents (Elt F)),
    StableHlo.ternary main_v769 main_v840 main_v837 main_v841 ((fun x i u => Host.scatter scatter_S32x4095x256_S1_S32x1x256_012_n_1_0 (fun _ b => b) x i u) : (⟨S32x4095x256, .f32⟩ : BufTy).Contents (Elt F) → (⟨S1, .i32⟩ : BufTy).Contents (Elt F) → (⟨S32x1x256, .f32⟩ : BufTy).Contents (Elt F) → (⟨S32x4095x256, .f32⟩ : BufTy).Contents (Elt F)) ]

set_option maxRecDepth 8192 in
theorem c30_sub : (c30 : List (HloOp τ sig (Elt F))).Forall fun op => op.bufs ⊆ tcRefs τ sig :=
  ⟨binary_bufs_sub ..,
    binary_bufs_sub ..,
    unary_bufs_sub ..,
    unary_bufs_sub ..,
    binary_bufs_sub ..,
    unary_bufs_sub ..,
    unary_bufs_sub ..,
    unary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    binary_bufs_sub ..,
    binary_bufs_sub ..,
    binary_bufs_sub ..,
    unary_bufs_sub ..,
    binary_bufs_sub ..,
    nullary_bufs_sub ..,
    unary_bufs_sub ..,
    ternary_bufs_sub ..,
    nullary_bufs_sub ..,
    unary_bufs_sub ..,
    ternary_bufs_sub ..⟩

/-- The buffers these operations write. -/
abbrev c30_W : List (Ref sig .tc) := [main_v796, main_v797, main_v798, main_v799, main_v800, main_v801, main_v802, main_v803, main_v804, main_v805, main_v806, main_v807, main_cst_222, main_v808, main_v809, main_cst_223, main_v810, main_v811, main_v812, main_v813, main_cst_224, main_v814, main_v815, main_cst_225, main_v816, main_v817, main_v818, main_v819, main_cst_226, main_v820, main_v821, main_cst_227, main_v822, main_v823, main_v824, main_v825, main_cst_228, main_v826, main_v827, main_cst_229, main_v828, main_v829, main_v830, main_v831, main_v832, main_v833, main_v834, main_v835, main_v836, main_v837, main_c_230, main_v838, main_v839, main_c_231, main_v840, main_v841]

set_option maxRecDepth 8192 in
theorem c30_writes : (c30 : List (HloOp τ sig (Elt F))).Forall fun op =>
    op.writes ⊆ (c30_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c30_fresh : ∀ op ∈ (c30 : List (HloOp τ sig (Elt F))), op.fresh = ∅ := by
  intro _ h; (repeat (cases h with | head => rfl | tail _ h => ?_)); exact nomatch h

/-- The statements 1077 … 1078 of the program, as operations. -/
abbrev c31 : List (HloOp τ sig (Elt F)) :=
  [
    StableHlo.unary main_v841 main_v842 ((extractStridedSlice S32x1x256 ![0, 0, 0] · slices_S32x4095x256_S32x1x256_0_0_0) : (⟨S32x4095x256, .f32⟩ : BufTy).Contents (Elt F) → (⟨S32x1x256, .f32⟩ : BufTy).Contents (Elt F)),
    StableHlo.reshape main_v842 main_v843 rfl shapeCasts_S32x1x256_S32x256 ]

set_option maxRecDepth 8192 in
theorem c31_sub : (c31 : List (HloOp τ sig (Elt F))).Forall fun op => op.bufs ⊆ tcRefs τ sig :=
  ⟨unary_bufs_sub ..,
    reshape_bufs_sub ..⟩

/-- The buffers these operations write. -/
abbrev c31_W : List (Ref sig .tc) := [main_v842, main_v843]

set_option maxRecDepth 8192 in
theorem c31_writes : (c31 : List (HloOp τ sig (Elt F))).Forall fun op =>
    op.writes ⊆ (c31_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
theorem c31_fresh : ∀ op ∈ (c31 : List (HloOp τ sig (Elt F))), op.fresh = ∅ := by
  intro _ h; (repeat (cases h with | head => rfl | tail _ h => ?_)); exact nomatch h

/-- The operations of the printed window main_part17. -/
abbrev ops17 : List (HloOp τ sig (Elt F)) := c30 ++ c31

set_option maxRecDepth 100000 in
set_option maxHeartbeats 4000000 in
theorem main_part17_eq (c : Dev nD) : main_part17 (F := F) c = seq ops17 := rfl

theorem ops17_sub : (ops17 : List (HloOp τ sig (Elt F))).Forall fun op => op.bufs ⊆ tcRefs τ sig :=
  List.forall_iff_forall_mem.mpr fun op h => by
    simp only [ops17, List.mem_append] at h
    rcases h with h | h
    exacts [List.forall_iff_forall_mem.mp c30_sub op h, List.forall_iff_forall_mem.mp c31_sub op h]

theorem ops17_fresh : ∀ op ∈ (ops17 : List (HloOp τ sig (Elt F))), op.fresh = ∅ := by
  intro op h
  simp only [ops17, List.mem_append] at h
  rcases h with h | h
  exacts [c30_fresh op h, c31_fresh op h]

end Cert.ReferenceIdeal.RefValue

end
-- ==== Proof.RefRun.lean ====
/-
  The reference program's @main is the straight line of its 1078 operations, `ops`: the eighteen printed windows one
  after the other.  Every weakly fair execution terminates with each buffer at `after ops` of the launch contents; the
  seven arguments are written by no operation and keep their contents.  `after_ops` reads the fold chunk by chunk.
-/
import proofs.«102109_j83099027243631_1_alg».proof.Proof.RefOps0
import proofs.«102109_j83099027243631_1_alg».proof.Proof.RefOps1
import proofs.«102109_j83099027243631_1_alg».proof.Proof.RefOps2
import proofs.«102109_j83099027243631_1_alg».proof.Proof.RefOps3
import proofs.«102109_j83099027243631_1_alg».proof.Proof.RefOps4
import proofs.«102109_j83099027243631_1_alg».proof.Proof.RefOps5
import proofs.«102109_j83099027243631_1_alg».proof.Proof.RefOps6
import proofs.«102109_j83099027243631_1_alg».proof.Proof.RefOps7
import proofs.«102109_j83099027243631_1_alg».proof.Proof.RefOps8
import proofs.«102109_j83099027243631_1_alg».proof.Proof.RefOps9
import proofs.«102109_j83099027243631_1_alg».proof.Proof.RefOps10
import proofs.«102109_j83099027243631_1_alg».proof.Proof.RefOps11
import proofs.«102109_j83099027243631_1_alg».proof.Proof.RefOps12
import proofs.«102109_j83099027243631_1_alg».proof.Proof.RefOps13
import proofs.«102109_j83099027243631_1_alg».proof.Proof.RefOps14
import proofs.«102109_j83099027243631_1_alg».proof.Proof.RefOps15
import proofs.«102109_j83099027243631_1_alg».proof.Proof.RefOps16
import proofs.«102109_j83099027243631_1_alg».proof.Proof.RefOps17
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 1078 operations, in order. -/
abbrev ops : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ ops17))))))))))))))))

theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every operation of two lines holds of every operation of their concatenation. -/
theorem forall_mem_append {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.mp h).elim (h₁ op) (h₂ op)

theorem ops_sub : (ops : List (HloOp τ sig (Elt F))).Forall fun op => op.bufs ⊆ tcRefs τ sig :=
  List.forall_iff_forall_mem.mpr
    (forall_mem_append (List.forall_iff_forall_mem.mp ops0_sub) (forall_mem_append (List.forall_iff_forall_mem.mp ops1_sub) (forall_mem_append (List.forall_iff_forall_mem.mp ops2_sub) (forall_mem_append (List.forall_iff_forall_mem.mp ops3_sub) (forall_mem_append (List.forall_iff_forall_mem.mp ops4_sub) (forall_mem_append (List.forall_iff_forall_mem.mp ops5_sub) (forall_mem_append (List.forall_iff_forall_mem.mp ops6_sub) (forall_mem_append (List.forall_iff_forall_mem.mp ops7_sub) (forall_mem_append (List.forall_iff_forall_mem.mp ops8_sub) (forall_mem_append (List.forall_iff_forall_mem.mp ops9_sub) (forall_mem_append (List.forall_iff_forall_mem.mp ops10_sub) (forall_mem_append (List.forall_iff_forall_mem.mp ops11_sub) (forall_mem_append (List.forall_iff_forall_mem.mp ops12_sub) (forall_mem_append (List.forall_iff_forall_mem.mp ops13_sub) (forall_mem_append (List.forall_iff_forall_mem.mp ops14_sub) (forall_mem_append (List.forall_iff_forall_mem.mp ops15_sub) (forall_mem_append (List.forall_iff_forall_mem.mp ops16_sub) ((List.forall_iff_forall_mem.mp ops17_sub)))))))))))))))))))

theorem ops_fresh : ∀ op ∈ (ops : List (HloOp τ sig (Elt F))), op.fresh = ∅ :=
  forall_mem_append ops0_fresh (forall_mem_append ops1_fresh (forall_mem_append ops2_fresh (forall_mem_append ops3_fresh (forall_mem_append ops4_fresh (forall_mem_append ops5_fresh (forall_mem_append ops6_fresh (forall_mem_append ops7_fresh (forall_mem_append ops8_fresh (forall_mem_append ops9_fresh (forall_mem_append ops10_fresh (forall_mem_append ops11_fresh (forall_mem_append ops12_fresh (forall_mem_append ops13_fresh (forall_mem_append ops14_fresh (forall_mem_append ops15_fresh (forall_mem_append ops16_fresh (ops17_fresh)))))))))))))))))

/-- The fold of the whole line is the folds of its chunks, one inside the other. -/
theorem after_ops (V : Valuation τ sig (Elt F)) :
    after ops V = after c31 (after c30 (after c29 (after c28 (after c27 (after c26 (after c25 (after c24 (after c23 (after c22 (after c21 (after c20 (after c19 (after c18 (after c17 (after c16 (after c15 (after c14 (after c13 (after c12 (after c11 (after c10 (after c9 (after c8 (after c7 (after c6 (after c5 (after c4 (after c3 (after c2 (after c1 (after c0 (V)))))))))))))))))))))))))))))))) := by
  simp only [ops, ops0, ops1, ops2, ops3, ops4, ops5, ops6, ops7, ops8, ops9, ops10, ops11, ops12, ops13, ops14, ops15, ops16, ops17, after_append]

/-- A buffer that no chunk writes keeps its contents through the whole line. -/
theorem ops_keep (r : Ref sig .tc) (h0 : r ∉ c0_W) (h1 : r ∉ c1_W) (h2 : r ∉ c2_W) (h3 : r ∉ c3_W) (h4 : r ∉ c4_W) (h5 : r ∉ c5_W) (h6 : r ∉ c6_W) (h7 : r ∉ c7_W) (h8 : r ∉ c8_W) (h9 : r ∉ c9_W) (h10 : r ∉ c10_W) (h11 : r ∉ c11_W) (h12 : r ∉ c12_W) (h13 : r ∉ c13_W) (h14 : r ∉ c14_W) (h15 : r ∉ c15_W) (h16 : r ∉ c16_W) (h17 : r ∉ c17_W) (h18 : r ∉ c18_W) (h19 : r ∉ c19_W) (h20 : r ∉ c20_W) (h21 : r ∉ c21_W) (h22 : r ∉ c22_W) (h23 : r ∉ c23_W) (h24 : r ∉ c24_W) (h25 : r ∉ c25_W) (h26 : r ∉ c26_W) (h27 : r ∉ c27_W) (h28 : r ∉ c28_W) (h29 : r ∉ c29_W) (h30 : r ∉ c30_W) (h31 : r ∉ c31_W)
    (V : Valuation τ sig (Elt F)) : after ops V (Proc.devRef .tc r) = V (Proc.devRef .tc r) := by
  rw [after_ops,
    after_of_writes_sub c31 _ c31_writes h31,
    after_of_writes_sub c30 _ c30_writes h30,
    after_of_writes_sub c29 _ c29_writes h29,
    after_of_writes_sub c28 _ c28_writes h28,
    after_of_writes_sub c27 _ c27_writes h27,
    after_of_writes_sub c26 _ c26_writes h26,
    after_of_writes_sub c25 _ c25_writes h25,
    after_of_writes_sub c24 _ c24_writes h24,
    after_of_writes_sub c23 _ c23_writes h23,
    after_of_writes_sub c22 _ c22_writes h22,
    after_of_writes_sub c21 _ c21_writes h21,
    after_of_writes_sub c20 _ c20_writes h20,
    after_of_writes_sub c19 _ c19_writes h19,
    after_of_writes_sub c18 _ c18_writes h18,
    after_of_writes_sub c17 _ c17_writes h17,
    after_of_writes_sub c16 _ c16_writes h16,
    after_of_writes_sub c15 _ c15_writes h15,
    after_of_writes_sub c14 _ c14_writes h14,
    after_of_writes_sub c13 _ c13_writes h13,
    after_of_writes_sub c12 _ c12_writes h12,
    after_of_writes_sub c11 _ c11_writes h11,
    after_of_writes_sub c10 _ c10_writes h10,
    after_of_writes_sub c9 _ c9_writes h9,
    after_of_writes_sub c8 _ c8_writes h8,
    after_of_writes_sub c7 _ c7_writes h7,
    after_of_writes_sub c6 _ c6_writes h6,
    after_of_writes_sub c5 _ c5_writes h5,
    after_of_writes_sub c4 _ c4_writes h4,
    after_of_writes_sub c3 _ c3_writes h3,
    after_of_writes_sub c2 _ c2_writes h2,
    after_of_writes_sub c1 _ c1_writes h1,
    after_of_writes_sub c0 _ c0_writes h0]

theorem ops_main_arg0 (V : Valuation τ sig (Elt F)) : after ops V (Proc.devRef .tc main_arg0) = V (Proc.devRef .tc main_arg0) :=
  ops_keep main_arg0 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg1 (V : Valuation τ sig (Elt F)) : after ops V (Proc.devRef .tc main_arg1) = V (Proc.devRef .tc main_arg1) :=
  ops_keep main_arg1 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg2 (V : Valuation τ sig (Elt F)) : after ops V (Proc.devRef .tc main_arg2) = V (Proc.devRef .tc main_arg2) :=
  ops_keep main_arg2 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg3 (V : Valuation τ sig (Elt F)) : after ops V (Proc.devRef .tc main_arg3) = V (Proc.devRef .tc main_arg3) :=
  ops_keep main_arg3 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg4 (V : Valuation τ sig (Elt F)) : after ops V (Proc.devRef .tc main_arg4) = V (Proc.devRef .tc main_arg4) :=
  ops_keep main_arg4 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg5 (V : Valuation τ sig (Elt F)) : after ops V (Proc.devRef .tc main_arg5) = V (Proc.devRef .tc main_arg5) :=
  ops_keep main_arg5 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V
theorem ops_main_arg6 (V : Valuation τ sig (Elt F)) : after ops V (Proc.devRef .tc main_arg6) = V (Proc.devRef .tc main_arg6) :=
  ops_keep main_arg6 (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) V

/-- On every device, for any float values, from any memory with zero counters: every weakly fair execution of
    @main terminates with the result buffer at the fold of the operations over the launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v843) = after ops (launchContents m c) (Proc.devRef .tc main_v843)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v843,
      (h c main_arg0).trans (ops_main_arg0 _),
      (h c main_arg1).trans (ops_main_arg1 _),
      (h c main_arg2).trans (ops_main_arg2 _),
      (h c main_arg3).trans (ops_main_arg3 _),
      (h c main_arg4).trans (ops_main_arg4 _),
      (h c main_arg5).trans (ops_main_arg5 _),
      (h c main_arg6).trans (ops_main_arg6 _)⟩)
    (run_seq scopedRefs_eq scopedSems_eq defs main (fun _ => ops) main_eq (fun _ => ops_sub) m ρ (fun _ => ops_fresh))

end Cert.ReferenceIdeal.RefValue

end
-- ==== Proof.RefScatter.lean ====
/-
  A scatter whose body returns the update, read at an index.

  `Host.scatter d (fun _ b => b) x idx upd` folds over the update indices; at an operand index `i` that exactly one
  update index `j` lands on it holds `upd j`, and at an index no update lands on it holds `x i`.
-/
import Idealize.ShloMosaic.PureOps
import Idealize.ShloMosaic.Lib.ValueIdx

namespace Cert.ReferenceIdeal.RefValue

open Idealize.ShloMosaic

section Fold
variable {α : Type} {s si u : Shape} {w : ℕ} (d : ScatterDims s si u) (idx : IVec si w) (upd : u.Idx → α)

/-- One step of the scatter's fold, the body returning the update. -/
def scatStep (r : s.Idx → α) (n : Fin u.numel) : s.Idx → α :=
  match d.resultIdx? (u.rowMajor.symm n) idx with
  | some i => fun i' => if i' = i then (fun (_ b : α) => b) (r i) (upd (u.rowMajor.symm n)) else r i'
  | none => r

theorem scatter_eq_foldl (x : s.Idx → α) :
    Host.scatter d (fun _ b => b) x idx upd = (List.finRange u.numel).foldl (scatStep d idx upd) x := rfl

theorem scatStep_miss (r : s.Idx → α) (n : Fin u.numel) (i' : s.Idx)
    (h : d.resultIdx? (u.rowMajor.symm n) idx ≠ some i') : scatStep d idx upd r n i' = r i' := by
  unfold scatStep
  generalize d.resultIdx? (u.rowMajor.symm n) idx = q at h
  cases q with
  | none => rfl
  | some i =>
    have : i' ≠ i := fun e => h (by rw [e])
    simp only [if_neg this]

theorem scatStep_hit (r : s.Idx → α) (n : Fin u.numel) (i' : s.Idx)
    (h : d.resultIdx? (u.rowMajor.symm n) idx = some i') : scatStep d idx upd r n i' = upd (u.rowMajor.symm n) := by
  unfold scatStep
  rw [h]
  simp only [if_true]

theorem foldl_miss (i' : s.Idx) : ∀ (L : List (Fin u.numel)) (r : s.Idx → α),
    (∀ n ∈ L, d.resultIdx? (u.rowMajor.symm n) idx ≠ some i') → L.foldl (scatStep d idx upd) r i' = r i'
  | [], _, _ => rfl
  | n :: L, r, h => by
    rw [List.foldl_cons, foldl_miss i' L _ (fun m hm => h m (List.mem_cons_of_mem _ hm)),
      scatStep_miss d idx upd r n i' (h n List.mem_cons_self)]

theorem foldl_hit (i' : s.Idx) (n0 : Fin u.numel) (h0 : d.resultIdx? (u.rowMajor.symm n0) idx = some i') :
    ∀ (L : List (Fin u.numel)) (r : s.Idx → α), n0 ∈ L →
      (∀ n ∈ L, d.resultIdx? (u.rowMajor.symm n) idx = some i' → n = n0) →
      L.foldl (scatStep d idx upd) r i' = upd (u.rowMajor.symm n0)
  | [], _, hm, _ => absurd hm List.not_mem_nil
  | n :: L, r, hm, hu => by
    rw [List.foldl_cons]
    by_cases hmem : n0 ∈ L
    · exact foldl_hit i' n0 h0 L _ hmem (fun m hm' => hu m (List.mem_cons_of_mem _ hm'))
    · have hn : n = n0 := by
        rcases List.mem_cons.mp hm with e | e
        · exact e.symm
        · exact absurd e hmem
      subst hn
      rw [foldl_miss d idx upd i' L _ (fun m hm' hres => hmem (hu m (List.mem_cons_of_mem _ hm') hres ▸ hm')),
        scatStep_hit d idx upd r n i' h0]

/-- At an index exactly one update lands on, the scatter holds that update. -/
theorem scatter_apply_hit (x : s.Idx → α) (i' : s.Idx) (j : u.Idx) (hj : d.resultIdx? j idx = some i')
    (huniq : ∀ j', d.resultIdx? j' idx = some i' → j' = j) :
    Host.scatter d (fun _ b => b) x idx upd i' = upd j := by
  rw [scatter_eq_foldl]
  have h0 : d.resultIdx? (u.rowMajor.symm (u.rowMajor j)) idx = some i' := by rw [Equiv.symm_apply_apply]; exact hj
  rw [foldl_hit d idx upd i' (u.rowMajor j) h0 _ x (List.mem_finRange _)
    (fun n _ hn => by
      have := huniq _ hn
      rw [← this, Equiv.apply_symm_apply]), Equiv.symm_apply_apply]

/-- At an index no update lands on, the scatter holds the operand. -/
theorem scatter_apply_miss (x : s.Idx → α) (i' : s.Idx) (h : ∀ j, d.resultIdx? j idx ≠ some i') :
    Host.scatter d (fun _ b => b) x idx upd i' = x i' := by
  rw [scatter_eq_foldl]
  exact foldl_miss d idx upd i' _ x (fun n _ => h _)

end Fold

end Cert.ReferenceIdeal.RefValue
-- ==== Proof.RefIdx.lean ====
/-
  The reference program's three indexed operations read at an index: the product of a stack of rows with a transposed
  weight, the gather of rows of a `[32, 4095, 256]` array at a table of row numbers, and the scatter of a block of rows
  at a start row.
-/
import proofs.«102109_j83099027243631_1_alg».proof.Proof.RefScatter
import Idealize.ShloMosaic.PureOps.Ideal.Laws
import Idealize.ShloMosaic.Lib.ValueIdx

namespace Cert.ReferenceIdeal.RefValue

open Idealize.ShloMosaic Idealize.ShloMosaic.ValueIdx

/-! ## The product `[Bn, M, K] · [N, K]ᵀ` -/

/-- The dimension numbers of `einsum('bmk,nk->bmn')`. -/
abbrev rowsDot (Bn M K N : ℕ) (w : DotDims.WF ⟨3, ![Bn, M, K]⟩ ⟨2, ![N, K]⟩ ⟨3, ![Bn, M, N]⟩ [2] [1] [0, 1] [0] [] []) :
    DotDims ⟨3, ![Bn, M, K]⟩ ⟨2, ![N, K]⟩ ⟨3, ![Bn, M, N]⟩ := ⟨[2], [1], [0, 1], [0], [], [], w⟩

theorem dot_rows_apply {Bn M K N : ℕ} {φ₁ φ₂ : FTy}
    (w : DotDims.WF ⟨3, ![Bn, M, K]⟩ ⟨2, ![N, K]⟩ ⟨3, ![Bn, M, N]⟩ [2] [1] [0, 1] [0] [] [])
    (prec : Option ContractPrecision) (A : FVec Ideal ⟨3, ![Bn, M, K]⟩ φ₁) (W : FVec Ideal ⟨2, ![N, K]⟩ φ₂)
    (b : Fin Bn) (a : Fin M) (g : Fin N) :
    Host.dotGeneral (rowsDot Bn M K N w) prec A W (ix3 b a g) = ∑ c : Fin K, A (ix3 b a c) * W (ix2 g c) := by
  show FloatOps.dotGeneral _ prec _ A W (ix3 b a g) = _
  rw [Ideal.dotGeneral_apply, ← Equiv.sum_comp (contrEquiv1 (rowsDot Bn M K N w) K rfl rfl).symm]
  refine Finset.sum_congr rfl fun c _ => ?_
  have c3 := contrEquiv1_symm_val (rowsDot Bn M K N w) K rfl rfl c
  have l3 : (rowsDot Bn M K N w).lhsIdx (ix3 b a g) ((contrEquiv1 _ K rfl rfl).symm c) = ix3 b a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (rowsDot Bn M K N w).rhsIdx (ix3 b a g) ((contrEquiv1 _ K rfl rfl).symm c) = ix2 g c := by
    funext ax; apply Fin.ext
    match ax with
    | ⟨0, _⟩ => simp [DotDims.rhsIdx]; rfl
    | ⟨1, _⟩ => simp [DotDims.rhsIdx]; exact c3
  rw [l3, r3]

/-! ## The gather of rows -/

/-- The dimension numbers of `x[:, idx]` for `x : [Bn, R, C]` and `idx : [cnt]` (as `[cnt, 1]`). -/
abbrev rowsGather (Bn R C cnt : ℕ)
    (w : GatherDims.WF ⟨3, ![Bn, R, C]⟩ ⟨2, ![cnt, 1]⟩ ⟨3, ![Bn, cnt, C]⟩ [0, 2] [1] [] [1] [] 1 ![Bn, 1, C]) :
    GatherDims ⟨3, ![Bn, R, C]⟩ ⟨2, ![cnt, 1]⟩ ⟨3, ![Bn, cnt, C]⟩ where
  offsetDims := [0, 2]
  collapsedSliceDims := [1]
  operandBatchingDims := []
  startIndicesBatchingDims := []
  startIndexMap := [1]
  indexVectorDim := 1
  sliceSizes := ![Bn, 1, C]
  wf := w

theorem gather_rows_apply {α : Type} {Bn R C cnt wd : ℕ} (hR : 0 < R)
    (w : GatherDims.WF ⟨3, ![Bn, R, C]⟩ ⟨2, ![cnt, 1]⟩ ⟨3, ![Bn, cnt, C]⟩ [0, 2] [1] [] [1] [] 1 ![Bn, 1, C])
    (x : (⟨3, ![Bn, R, C]⟩ : Shape).Idx → α) (idx : IVec ⟨2, ![cnt, 1]⟩ wd) (b : Fin Bn) (t : Fin cnt) (j : Fin C) :
    Host.gather (rowsGather Bn R C cnt w) x idx (ix3 b t j)
      = x (ix3 b ⟨min (idx (ix2 t 0)).toInt.toNat (R - 1), by omega⟩ j) := by
  unfold Host.gather
  congr 1
  funext a
  refine Fin.ext ?_
  show (rowsGather Bn R C cnt w).start (ix3 b t j) idx a + (rowsGather Bn R C cnt w).batchCoord (ix3 b t j) a
    + (rowsGather Bn R C cnt w).offCoord (ix3 b t j) a = _
  rw [GatherDims.batchCoord_eq_zero _ _ _ List.not_mem_nil, Nat.add_zero]
  match a with
  | ⟨0, _⟩ =>
    simp [GatherDims.start, GatherDims.offCoord, GatherDims.sKept, Shape.kept, List.finRange]
    rfl
  | ⟨1, _⟩ =>
    simp [GatherDims.start, GatherDims.offCoord, GatherDims.sKept, Shape.kept, List.finRange]
    have hsi : ∀ c, (rowsGather Bn R C cnt w).siIdx (ix3 b t j) c = ix2 t 0 := by
      intro c; funext b'
      match b' with
      | ⟨0, _⟩ => exact Fin.ext rfl
      | ⟨1, _⟩ => show (_ : Fin 1) = _; exact Subsingleton.elim _ _
    rw [hsi]
  | ⟨2, _⟩ =>
    simp [GatherDims.start, GatherDims.offCoord, GatherDims.sKept, Shape.kept, List.finRange]
    rfl

/-! ## The scatter of a block of rows -/

/-- The dimension numbers of `x.at[:, s:s+cnt].set(u)` for `x : [Bn, R, C]`, `u : [Bn, cnt, C]`, one start row. -/
abbrev rowsScatter (Bn R C cnt : ℕ)
    (w : ScatterDims.WF ⟨3, ![Bn, R, C]⟩ ⟨1, ![1]⟩ ⟨3, ![Bn, cnt, C]⟩ [0, 1, 2] [] [1] 0) :
    ScatterDims ⟨3, ![Bn, R, C]⟩ ⟨1, ![1]⟩ ⟨3, ![Bn, cnt, C]⟩ where
  updateWindowDims := [0, 1, 2]
  insertedWindowDims := []
  scatterDimsToOperandDims := [1]
  indexVectorDim := 0
  wf := w

section Scatter
variable {α : Type} {Bn R C cnt wd : ℕ}
  (w : ScatterDims.WF ⟨3, ![Bn, R, C]⟩ ⟨1, ![1]⟩ ⟨3, ![Bn, cnt, C]⟩ [0, 1, 2] [] [1] 0)
  (idx : IVec ⟨1, ![1]⟩ wd)

/-- A one-element index array has one index. -/
theorem idx1_eq (k k' : (⟨1, ![1]⟩ : Shape).Idx) : k = k' := by
  funext a
  match a with
  | ⟨0, _⟩ => show (_ : Fin 1) = _; exact Subsingleton.elim _ _

theorem rowsScatter_start (u : (⟨3, ![Bn, cnt, C]⟩ : Shape).Idx) (a : Fin 3) :
    (rowsScatter Bn R C cnt w).start u idx a = if a = 1 then (idx (ix1 0)).toInt else 0 := by
  match a with
  | ⟨0, _⟩ => simp [ScatterDims.start]
  | ⟨1, _⟩ =>
    simp [ScatterDims.start]
    exact congrArg (fun k => (idx k).toInt) (idx1_eq _ _)
  | ⟨2, _⟩ => simp [ScatterDims.start]

theorem rowsScatter_window (u : (⟨3, ![Bn, cnt, C]⟩ : Shape).Idx) (a : Fin 3) :
    (rowsScatter Bn R C cnt w).window u a = (u a).val := by
  match a with
  | ⟨0, _⟩ => simp [ScatterDims.window, ScatterDims.sKept, Shape.kept, List.finRange]; rfl
  | ⟨1, _⟩ => simp [ScatterDims.window, ScatterDims.sKept, Shape.kept, List.finRange]; rfl
  | ⟨2, _⟩ => simp [ScatterDims.window, ScatterDims.sKept, Shape.kept, List.finRange]; rfl

/-- Update index `(b, t, j)` lands on row `s + t` of the operand. -/
theorem rowsScatter_resultIdx (s : ℕ) (hs : s + cnt ≤ R) (hidx : (idx (ix1 0)).toInt = (s : ℤ))
    (b : Fin Bn) (t : Fin cnt) (j : Fin C) :
    (rowsScatter Bn R C cnt w).resultIdx? (ix3 b t j) idx = some (ix3 b ⟨s + t.val, by omega⟩ j) := by
  unfold ScatterDims.resultIdx?
  have hval : ∀ a : Fin 3, (rowsScatter Bn R C cnt w).start (ix3 b t j) idx a + ((rowsScatter Bn R C cnt w).window (ix3 b t j) a : ℤ)
      = ((ix3 b (⟨s + t.val, by omega⟩ : Fin R) j a).val : ℤ) := by
    intro a
    rw [rowsScatter_start, rowsScatter_window, hidx]
    match a with
    | ⟨0, _⟩ => simp
    | ⟨1, _⟩ => simp
    | ⟨2, _⟩ => simp
  rw [dif_pos (fun a => by
    rw [hval a]
    exact ⟨Int.natCast_nonneg _, by exact_mod_cast (ix3 b (⟨s + t.val, by omega⟩ : Fin R) j a).isLt⟩)]
  refine congrArg some (funext fun a => Fin.ext ?_)
  show ((rowsScatter Bn R C cnt w).start (ix3 b t j) idx a + ((rowsScatter Bn R C cnt w).window (ix3 b t j) a : ℤ)).toNat = _
  rw [hval a, Int.toNat_natCast]

/-- The scatter of a block of `cnt` rows at start row `s`, read at `(b, n, j)`: the block's row `n - s` on the rows
    `s ≤ n < s + cnt`, the operand elsewhere. -/
theorem scatter_rows_apply (s : ℕ) (hs : s + cnt ≤ R) (hidx : (idx (ix1 0)).toInt = (s : ℤ))
    (x : (⟨3, ![Bn, R, C]⟩ : Shape).Idx → α) (upd : (⟨3, ![Bn, cnt, C]⟩ : Shape).Idx → α)
    (b : Fin Bn) (n : Fin R) (j : Fin C) :
    Host.scatter (rowsScatter Bn R C cnt w) (fun _ u => u) x idx upd (ix3 b n j)
      = if h : s ≤ n.val ∧ n.val < s + cnt then upd (ix3 b ⟨n.val - s, by omega⟩ j) else x (ix3 b n j) := by
  by_cases h : s ≤ n.val ∧ n.val < s + cnt
  · rw [dif_pos h]
    refine scatter_apply_hit _ idx upd x _ (ix3 b ⟨n.val - s, by omega⟩ j) ?_ ?_
    · rw [rowsScatter_resultIdx w idx s hs hidx]
      refine congrArg some ?_
      congr 1
      exact Fin.ext (by show s + (n.val - s) = n.val; omega)
    · intro j' hj'
      obtain ⟨b', t', c', rfl⟩ : ∃ (b' : Fin Bn) (t' : Fin cnt) (c' : Fin C), j' = ix3 b' t' c' :=
        ⟨j' 0, j' 1, j' 2, eq_ix3 j'⟩
      rw [rowsScatter_resultIdx w idx s hs hidx] at hj'
      have e := Option.some.inj hj'
      have e0 : b'.val = b.val := congrArg (fun q => (q 0).val) e
      have e1 : s + t'.val = n.val := congrArg (fun q => (q 1).val) e
      have e2 : c'.val = j.val := congrArg (fun q => (q 2).val) e
      obtain rfl : b' = b := Fin.ext e0
      obtain rfl : c' = j := Fin.ext e2
      have et : t' = ⟨n.val - s, by omega⟩ := Fin.ext (by show t'.val = n.val - s; omega)
      rw [et]
  · rw [dif_neg h]
    refine scatter_apply_miss _ idx upd x _ ?_
    intro j' hj'
    obtain ⟨b', t', c', rfl⟩ : ∃ (b' : Fin Bn) (t' : Fin cnt) (c' : Fin C), j' = ix3 b' t' c' :=
      ⟨j' 0, j' 1, j' 2, eq_ix3 j'⟩
    rw [rowsScatter_resultIdx w idx s hs hidx] at hj'
    have e1 : s + t'.val = n.val := congrArg (fun q => (q 1).val) (Option.some.inj hj')
    have := t'.isLt
    exact h ⟨by omega, by omega⟩

end Scatter

end Cert.ReferenceIdeal.RefValue
-- ==== Proof.RefLevelFn.lean ====
/-
  One stage of the bottom-up recursion as the reference program computes it, over arrays, and what it is at an index.

  A stage takes the projection `X`, the hidden and cell arrays `H`, `C`, reads the children's rows with a gather at a
  table of row numbers, forms the gate pre-activations of the `cnt` rows from row `s` on, the gates, and writes the new
  rows back with a scatter at start row `s`.  At an index it is `TreeSpec.setRows` of `TreeSpec.nodeH` / `nodeC`.
-/
import proofs.«102109_j83099027243631_1_alg».proof.Proof.RefIdx
import proofs.«102109_j83099027243631_1_alg».proof.Proof.TreeRows
import Idealize.ShloMosaic.Lib.Pipeline.Value
import Idealize.ShloMosaic.Lib.IdealHost

noncomputable section

namespace Cert.ReferenceIdeal.RefValue

open Idealize.ShloMosaic Idealize.ShloMosaic.ValueIdx Cert.TreeSpec

abbrev TA : Shape := ⟨3, ![32, 4095, 256]⟩
abbrev TX : Shape := ⟨3, ![32, 4095, 1280]⟩
abbrev TW : Shape := ⟨2, ![1280, 256]⟩
abbrev TB : Shape := ⟨1, ![1280]⟩
abbrev TB3 : Shape := ⟨3, ![1, 1, 1280]⟩
abbrev T0 : Shape := ⟨0, ![]⟩
abbrev T11 : Shape := ⟨1, ![1]⟩
abbrev TI (cnt : ℕ) : Shape := ⟨1, ![cnt]⟩
abbrev TI2 (cnt : ℕ) : Shape := ⟨2, ![cnt, 1]⟩
abbrev TR (cnt : ℕ) : Shape := ⟨3, ![32, cnt, 256]⟩
abbrev TP (cnt : ℕ) : Shape := ⟨3, ![32, cnt, 1280]⟩

/-- An array of extended reals over a shape. -/
abbrev AV (s : Shape) : Type := FVec Ideal s .f32

/-- An array of coordinates as an array over the index type. -/
def unc3 {a b c : ℕ} (A : A3 a b c) : (⟨3, ![a, b, c]⟩ : Shape).Idx → EReal := fun i => A (i 0) (i 1) (i 2)
theorem cur3_unc3 {a b c : ℕ} (A : A3 a b c) : cur3 (unc3 A) = A := rfl
theorem unc3_cur3 {a b c : ℕ} (f : (⟨3, ![a, b, c]⟩ : Shape).Idx → EReal) : unc3 (cur3 f) = f := by
  funext i; exact congrArg f (eq_ix3 i).symm
def unc2 {a b : ℕ} (A : A2 a b) : (⟨2, ![a, b]⟩ : Shape).Idx → EReal := fun i => A (i 0) (i 1)
theorem cur2_unc2 {a b : ℕ} (A : A2 a b) : cur2 (unc2 A) = A := rfl

/-- The shape facts of the gates of `cnt` rows from row `s` on. -/
structure RowFacts (cnt s : ℕ) : Prop where
  sx : TX.Slices ![0, s, 0] (TP cnt)
  s0 : (TP cnt).Slices ![0, 0, 0] (TR cnt)
  s1 : (TP cnt).Slices ![0, 0, 256] (TR cnt)
  s2 : (TP cnt).Slices ![0, 0, 512] (TR cnt)
  s3 : (TP cnt).Slices ![0, 0, 768] (TR cnt)
  s4 : (TP cnt).Slices ![0, 0, 1024] (TR cnt)
  bc : T0.BroadcastsInDim (TR cnt) (![] : Fin 0 → Fin (TR cnt).rank)
  b11 : T0.BroadcastsInDim T11 (![] : Fin 0 → Fin T11.rank)
  sc : ScatterDims.WF TA T11 (TR cnt) [0, 1, 2] [] [1] 0

/-- The shape facts of an inner level. -/
structure LevelFacts (cnt s : ℕ) : Prop extends RowFacts cnt s where
  b0 : T0.BroadcastsInDim (TI cnt) (![] : Fin 0 → Fin (TI cnt).rank)
  b1 : (TI cnt).BroadcastsInDim (TI2 cnt) (![0] : Fin 1 → Fin (TI2 cnt).rank)
  g : GatherDims.WF TA (TI2 cnt) (TR cnt) [0, 2] [1] [] [1] [] 1 ![32, 1, 256]
  d : DotDims.WF (TR cnt) TW (TP cnt) [2] [1] [0, 1] [0] [] []
  bb : TB.BroadcastsInDim TB3 (![2] : Fin 1 → Fin TB3.rank)
  bp : TB3.BroadcastsInDim (TP cnt) (![0, 1, 2] : Fin 3 → Fin (TP cnt).rank)

section Rows
variable {cnt s : ℕ} (hf : RowFacts cnt s)

/-- The logistic function as the reference spells it: `1 / (1 + exp (-x))`. -/
def sigm (x : AV (TR cnt)) : AV (TR cnt) :=
  Host.divf (broadcastInDim (TR cnt) ![] hf.bc (constant T0 .f32 0x3F800000#32))
    (addf (broadcastInDim (TR cnt) ![] hf.bc (constant T0 .f32 0x3F800000#32)) (Host.exp (Host.negf x)))

/-- The cell rows from the pre-activations and the children's cell rows. -/
def gateC (P : AV (TP cnt)) (lc rc : AV (TR cnt)) : AV (TR cnt) :=
  addf (addf (mulf (sigm hf (extractStridedSlice (TR cnt) ![0, 0, 0] P hf.s0))
        (Host.tanh (extractStridedSlice (TR cnt) ![0, 0, 1024] P hf.s4)))
      (mulf (sigm hf (extractStridedSlice (TR cnt) ![0, 0, 512] P hf.s2)) lc))
    (mulf (sigm hf (extractStridedSlice (TR cnt) ![0, 0, 768] P hf.s3)) rc)

/-- The hidden rows from the pre-activations and the cell rows. -/
def gateH (P : AV (TP cnt)) (c : AV (TR cnt)) : AV (TR cnt) :=
  mulf (sigm hf (extractStridedSlice (TR cnt) ![0, 0, 256] P hf.s1)) (Host.tanh c)

/-- The start row as the scatter reads it. -/
def startIdx : IVec T11 32 := broadcastInDim T11 ![] hf.b11 (constantI T0 32 (BitVec.ofNat 32 s))

/-- Write `cnt` rows from row `s` on. -/
def setRowsV (old : AV TA) (upd : AV (TR cnt)) : AV TA :=
  Host.scatter (rowsScatter 32 4095 256 cnt hf.sc) (fun _ b => b) old (startIdx hf) upd

theorem sigm_apply (x : AV (TR cnt)) (i : (TR cnt).Idx) : sigm hf x i = Ideal.logistic (x i) := by
  show Ideal.div (Ideal.ofBits .f32 0x3F800000#32) (Ideal.ofBits .f32 0x3F800000#32 + Ideal.exp (-(x i))) = _
  rw [Ideal.ofBits_one_f32]; rfl

theorem slice_col (P : AV (TP cnt)) (q : ℕ) (hq : q < 5) (h : (TP cnt).Slices ![0, 0, q * 256] (TR cnt))
    (b : Fin 32) (t : Fin cnt) (j : Fin 256) :
    extractStridedSlice (TR cnt) ![0, 0, q * 256] P h (ix3 b t j) = P (ix3 b t (col q j)) :=
  extractStridedSlice_apply _ P h (ix3 b t j) (ix3 b t (col q j)) fun a =>
    match a with
    | ⟨0, _⟩ => by show b.val = 0 + b.val; omega
    | ⟨1, _⟩ => by show t.val = 0 + t.val; omega
    | ⟨2, _⟩ => by show (col q j).val = q * 256 + j.val; exact col_val q hq j

theorem gateC_apply (P : AV (TP cnt)) (lc rc : AV (TR cnt)) (b : Fin 32) (t : Fin cnt) (j : Fin 256) :
    gateC hf P lc rc (ix3 b t j)
      = Ideal.logistic (P (ix3 b t (col 0 j))) * Ideal.tanh (P (ix3 b t (col 4 j)))
        + Ideal.logistic (P (ix3 b t (col 2 j))) * lc (ix3 b t j)
        + Ideal.logistic (P (ix3 b t (col 3 j))) * rc (ix3 b t j) := by
  show sigm hf _ _ * Ideal.tanh (extractStridedSlice (TR cnt) ![0, 0, 1024] P hf.s4 (ix3 b t j))
      + sigm hf _ _ * lc (ix3 b t j) + sigm hf _ _ * rc (ix3 b t j) = _
  rw [sigm_apply, sigm_apply, sigm_apply, slice_col P 0 (by decide) hf.s0, slice_col P 4 (by decide) hf.s4,
    slice_col P 2 (by decide) hf.s2, slice_col P 3 (by decide) hf.s3]

theorem gateH_apply (P : AV (TP cnt)) (c : AV (TR cnt)) (b : Fin 32) (t : Fin cnt) (j : Fin 256) :
    gateH hf P c (ix3 b t j) = Ideal.logistic (P (ix3 b t (col 1 j))) * Ideal.tanh (c (ix3 b t j)) := by
  show sigm hf _ _ * Ideal.tanh (c (ix3 b t j)) = _
  rw [sigm_apply, slice_col P 1 (by decide) hf.s1]

end Rows

section Level
variable {cnt s : ℕ} (hf : LevelFacts cnt s)

/-- A table of row numbers as the gather reads it: jax's wrap of negative entries (none: the mask is all zero), then
    a trailing unit axis. -/
def normIdx (tbl : IVec (TI cnt) 32) (mask : IVec (TI cnt) 1) : IVec (TI2 cnt) 32 :=
  broadcastInDim (TI2 cnt) ![0] hf.b1
    (select mask (addi tbl (broadcastInDim (TI cnt) ![] hf.b0 (constantI T0 32 4095#32))) tbl)

/-- The rows of `A` the table names. -/
def gath (A : AV TA) (tbl : IVec (TI cnt) 32) (mask : IVec (TI cnt) 1) : AV (TR cnt) :=
  Host.gather (rowsGather 32 4095 256 cnt hf.g) A (normIdx hf tbl mask)

/-- The gate pre-activations of the rows, added in the program's order. -/
def lvPre (X : AV TX) (lh rh : AV (TR cnt)) (Wl Wr : AV TW) (bl br : AV TB) : AV (TP cnt) :=
  addf (addf (addf (addf (extractStridedSlice (TP cnt) ![0, s, 0] X hf.sx)
          (Host.dotGeneral (rowsDot 32 cnt 256 1280 hf.d) none lh Wl))
        (broadcastInDim (TP cnt) ![0, 1, 2] hf.bp (broadcastInDim TB3 ![2] hf.bb bl)))
      (Host.dotGeneral (rowsDot 32 cnt 256 1280 hf.d) none rh Wr))
    (broadcastInDim (TP cnt) ![0, 1, 2] hf.bp (broadcastInDim TB3 ![2] hf.bb br))

theorem toInt_ofNat_small (c : ℕ) (h : c < 2 ^ 31) : (BitVec.ofNat 32 c).toInt = (c : ℤ) := by
  rw [BitVec.toInt_eq_toNat_cond, BitVec.toNat_ofNat]
  have : c % 2 ^ 32 = c := Nat.mod_eq_of_lt (by omega)
  rw [this, if_pos (by omega)]

theorem normIdx_apply (tbl : IVec (TI cnt) 32) (mask : IVec (TI cnt) 1) (hm : ∀ i, mask i = 0#1) (t : Fin cnt) :
    normIdx hf tbl mask (ix2 t 0) = tbl (ix1 t) := by
  unfold normIdx
  refine (broadcastInDim_apply _ hf.b1 _ (ix2 t 0) (ix1 t) fun a => ?_).trans ?_
  · match a with
    | ⟨0, _⟩ =>
      show t.val = if cnt = 1 then 0 else t.val
      have := t.isLt
      split <;> omega
  · rw [select_apply, hm, select_zero]

theorem gath_apply (A : AV TA) (tbl : IVec (TI cnt) 32) (mask : IVec (TI cnt) 1) (hm : ∀ i, mask i = 0#1)
    (t : Fin cnt) (c : ℕ) (hc : c < 4095) (htbl : tbl (ix1 t) = BitVec.ofNat 32 c) (b : Fin 32) (k : Fin 256) :
    gath hf A tbl mask (ix3 b t k) = A (ix3 b ⟨c, hc⟩ k) := by
  unfold gath
  rw [gather_rows_apply (by decide : 0 < 4095)]
  have e : min (normIdx hf tbl mask (ix2 t 0)).toInt.toNat (4095 - 1) = c := by
    rw [normIdx_apply hf tbl mask hm, htbl, toInt_ofNat_small c (by omega), Int.toNat_natCast]
    omega
  exact congrArg (fun q => A (ix3 b q k)) (Fin.ext e)

theorem bias_apply {n : ℕ} (h1 : TB.BroadcastsInDim TB3 (![2] : Fin 1 → Fin TB3.rank))
    (h2 : TB3.BroadcastsInDim (TP n) (![0, 1, 2] : Fin 3 → Fin (TP n).rank)) (v : AV TB)
    (b : Fin 32) (t : Fin n) (g : Fin 1280) :
    broadcastInDim (TP n) ![0, 1, 2] h2 (broadcastInDim TB3 ![2] h1 v) (ix3 b t g) = v (ix1 g) := by
  refine (broadcastInDim_apply _ h2 _ (ix3 b t g) (ix3 (0 : Fin 1) (0 : Fin 1) g) fun a => ?_).trans
    (broadcastInDim_apply _ h1 v (ix3 (0 : Fin 1) (0 : Fin 1) g) (ix1 g) fun a => ?_)
  · match a with
    | ⟨0, _⟩ => rfl
    | ⟨1, _⟩ => rfl
    | ⟨2, _⟩ => rfl
  · match a with
    | ⟨0, _⟩ => rfl

theorem lvPre_apply (hs : s + cnt ≤ 4095) (X : AV TX) (lh rh : AV (TR cnt)) (Wl Wr : AV TW) (bl br : AV TB)
    (b : Fin 32) (t : Fin cnt) (g : Fin 1280) :
    lvPre hf X lh rh Wl Wr bl br (ix3 b t g)
      = X (ix3 b ⟨s + t.val, by omega⟩ g) + (∑ k : Fin 256, lh (ix3 b t k) * Wl (ix2 g k)) + bl (ix1 g)
        + (∑ k : Fin 256, rh (ix3 b t k) * Wr (ix2 g k)) + br (ix1 g) := by
  show extractStridedSlice (TP cnt) ![0, s, 0] X hf.sx (ix3 b t g)
      + Host.dotGeneral (rowsDot 32 cnt 256 1280 hf.d) none lh Wl (ix3 b t g)
      + broadcastInDim (TP cnt) ![0, 1, 2] hf.bp (broadcastInDim TB3 ![2] hf.bb bl) (ix3 b t g)
      + Host.dotGeneral (rowsDot 32 cnt 256 1280 hf.d) none rh Wr (ix3 b t g)
      + broadcastInDim (TP cnt) ![0, 1, 2] hf.bp (broadcastInDim TB3 ![2] hf.bb br) (ix3 b t g) = _
  rw [dot_rows_apply, dot_rows_apply, bias_apply, bias_apply,
    extractStridedSlice_apply _ X hf.sx (ix3 b t g) (ix3 b ⟨s + t.val, by omega⟩ g) fun a =>
      match a with
      | ⟨0, _⟩ => by show b.val = 0 + b.val; omega
      | ⟨1, _⟩ => rfl
      | ⟨2, _⟩ => by show g.val = 0 + g.val; omega]

end Level

section LevelMain
variable {cnt s : ℕ} (hf : LevelFacts cnt s)
variable (X : AV TX) (H C : AV TA) (Wl Wr : AV TW) (bl br : AV TB) (tblL tblR : IVec (TI cnt) 32)
  (m1 m2 m3 m4 : IVec (TI cnt) 1)

/-- The rows a table names, at a row number known to be the table's entry. -/
theorem gath_apply' (A : AV TA) (tbl : IVec (TI cnt) 32) (mask : IVec (TI cnt) 1) (hm : ∀ i, mask i = 0#1)
    (t : Fin cnt) (q : Fin 4095) (htbl : tbl (ix1 t) = BitVec.ofNat 32 q.val) (b : Fin 32) (k : Fin 256) :
    gath hf A tbl mask (ix3 b t k) = A (ix3 b q k) :=
  gath_apply hf A tbl mask hm t q.val q.isLt htbl b k

/-- The level's pre-activation rows. -/
def levelP : AV (TP cnt) := lvPre hf X (gath hf H tblL m1) (gath hf H tblR m2) Wl Wr bl br
/-- The level's new cell rows. -/
def levelCrows : AV (TR cnt) :=
  gateC hf.toRowFacts (levelP hf X H Wl Wr bl br tblL tblR m1 m2) (gath hf C tblL m3) (gath hf C tblR m4)
/-- The cell array after the level. -/
def levelC : AV TA := setRowsV hf.toRowFacts C (levelCrows hf X H C Wl Wr bl br tblL tblR m1 m2 m3 m4)
/-- The hidden array after the level. -/
def levelH : AV TA :=
  setRowsV hf.toRowFacts H
    (gateH hf.toRowFacts (levelP hf X H Wl Wr bl br tblL tblR m1 m2) (levelCrows hf X H C Wl Wr bl br tblL tblR m1 m2 m3 m4))

variable (hs : s + cnt ≤ 2047)
  (hL : ∀ t : Fin cnt, tblL (ix1 t) = BitVec.ofNat 32 (2 * (s + t.val) + 1))
  (hR : ∀ t : Fin cnt, tblR (ix1 t) = BitVec.ofNat 32 (2 * (s + t.val) + 2))
  (hm1 : ∀ i, m1 i = 0#1) (hm2 : ∀ i, m2 i = 0#1) (hm3 : ∀ i, m3 i = 0#1) (hm4 : ∀ i, m4 i = 0#1)

include hs hL hR hm1 hm2 in
theorem levelP_apply (b : Fin 32) (t : Fin cnt) (n : Fin 4095) (hn : n.val = s + t.val) (g : Fin 1280) :
    levelP hf X H Wl Wr bl br tblL tblR m1 m2 (ix3 b t g)
      = pre (cur3 X) (cur3 H) (cur2 Wl) (cur2 Wr) (cur1 bl) (cur1 br) b n g := by
  have hl : tblL (ix1 t) = BitVec.ofNat 32 (lchild n).val := by rw [hL t, lchild_val n (by omega), hn]
  have hr : tblR (ix1 t) = BitVec.ofNat 32 (rchild n).val := by rw [hR t, rchild_val n (by omega), hn]
  have en : (⟨s + t.val, by omega⟩ : Fin 4095) = n := Fin.ext hn.symm
  unfold levelP
  rw [lvPre_apply hf (by omega), en]
  simp only [gath_apply' hf H tblL m1 hm1 t (lchild n) hl, gath_apply' hf H tblR m2 hm2 t (rchild n) hr]
  rfl

include hs hL hR hm1 hm2 hm3 hm4 in
theorem levelCrows_apply (b : Fin 32) (t : Fin cnt) (n : Fin 4095) (hn : n.val = s + t.val) (j : Fin 256) :
    levelCrows hf X H C Wl Wr bl br tblL tblR m1 m2 m3 m4 (ix3 b t j)
      = nodeC (pre (cur3 X) (cur3 H) (cur2 Wl) (cur2 Wr) (cur1 bl) (cur1 br)) (cur3 C) b n j := by
  have hl : tblL (ix1 t) = BitVec.ofNat 32 (lchild n).val := by rw [hL t, lchild_val n (by omega), hn]
  have hr : tblR (ix1 t) = BitVec.ofNat 32 (rchild n).val := by rw [hR t, rchild_val n (by omega), hn]
  unfold levelCrows
  rw [gateC_apply]
  simp only [levelP_apply hf X H Wl Wr bl br tblL tblR m1 m2 hs hL hR hm1 hm2 b t n hn,
    gath_apply' hf C tblL m3 hm3 t (lchild n) hl, gath_apply' hf C tblR m4 hm4 t (rchild n) hr]
  rfl

theorem startIdx_toInt (hf : RowFacts cnt s) (hs' : s < 2 ^ 31) : (startIdx hf (ix1 0)).toInt = (s : ℤ) := by
  show (BitVec.ofNat 32 s).toInt = _
  exact toInt_ofNat_small s hs'

include hs hL hR hm1 hm2 hm3 hm4 in
theorem levelC_eq :
    levelC hf X H C Wl Wr bl br tblL tblR m1 m2 m3 m4
      = unc3 (setRows s cnt (nodeC (pre (cur3 X) (cur3 H) (cur2 Wl) (cur2 Wr) (cur1 bl) (cur1 br)) (cur3 C)) (cur3 C)) := by
  funext i
  obtain ⟨b, n, j, rfl⟩ : ∃ (b : Fin 32) (n : Fin 4095) (j : Fin 256), i = ix3 b n j := ⟨i 0, i 1, i 2, eq_ix3 i⟩
  unfold levelC setRowsV
  rw [scatter_rows_apply hf.sc (startIdx hf.toRowFacts) s (by omega) (startIdx_toInt hf.toRowFacts (by omega))]
  show _ = setRows s cnt _ (cur3 C) b n j
  unfold setRows
  by_cases h : s ≤ n.val ∧ n.val < s + cnt
  · rw [dif_pos h, if_pos h,
      levelCrows_apply hf X H C Wl Wr bl br tblL tblR m1 m2 m3 m4 hs hL hR hm1 hm2 hm3 hm4 b _ n (by show n.val = s + (n.val - s); omega)]
  · rw [dif_neg h, if_neg h]; rfl

include hs hL hR hm1 hm2 hm3 hm4 in
theorem levelH_eq :
    levelH hf X H C Wl Wr bl br tblL tblR m1 m2 m3 m4
      = unc3 (setRows s cnt (nodeH (pre (cur3 X) (cur3 H) (cur2 Wl) (cur2 Wr) (cur1 bl) (cur1 br)) (cur3 C)) (cur3 H)) := by
  funext i
  obtain ⟨b, n, j, rfl⟩ : ∃ (b : Fin 32) (n : Fin 4095) (j : Fin 256), i = ix3 b n j := ⟨i 0, i 1, i 2, eq_ix3 i⟩
  unfold levelH setRowsV
  rw [scatter_rows_apply hf.sc (startIdx hf.toRowFacts) s (by omega) (startIdx_toInt hf.toRowFacts (by omega))]
  show _ = setRows s cnt _ (cur3 H) b n j
  unfold setRows
  by_cases h : s ≤ n.val ∧ n.val < s + cnt
  · rw [dif_pos h, if_pos h, gateH_apply,
      levelCrows_apply hf X H C Wl Wr bl br tblL tblR m1 m2 m3 m4 hs hL hR hm1 hm2 hm3 hm4 b _ n (by show n.val = s + (n.val - s); omega),
      levelP_apply hf X H Wl Wr bl br tblL tblR m1 m2 hs hL hR hm1 hm2 b _ n (by show n.val = s + (n.val - s); omega)]
    rfl
  · rw [dif_neg h, if_neg h]; rfl

end LevelMain

section Leaf
variable {cnt s : ℕ} (hf : RowFacts cnt s) (X : AV TX) (Z : AV TA)

/-- The leaves' cell rows: the gates on the projection's rows, the children's cells zero. -/
def lfCrows : AV (TR cnt) :=
  gateC hf (extractStridedSlice (TP cnt) ![0, s, 0] X hf.sx)
    (broadcastInDim (TR cnt) ![] hf.bc (constant T0 .f32 0x00000000#32))
    (broadcastInDim (TR cnt) ![] hf.bc (constant T0 .f32 0x00000000#32))
/-- The cell array after the leaves' stage. -/
def lfC : AV TA := setRowsV hf Z (lfCrows hf X)
/-- The hidden array after the leaves' stage. -/
def lfH : AV TA := setRowsV hf Z (gateH hf (extractStridedSlice (TP cnt) ![0, s, 0] X hf.sx) (lfCrows hf X))

variable (hs : s + cnt ≤ 4095) (hZ : ∀ i, Z i = 0)

include hs in
theorem slice_rows_apply (b : Fin 32) (t : Fin cnt) (n : Fin 4095) (hn : n.val = s + t.val) (g : Fin 1280) :
    extractStridedSlice (TP cnt) ![0, s, 0] X hf.sx (ix3 b t g) = X (ix3 b n g) :=
  extractStridedSlice_apply _ X hf.sx (ix3 b t g) (ix3 b n g) fun a =>
    match a with
    | ⟨0, _⟩ => by show b.val = 0 + b.val; omega
    | ⟨1, _⟩ => hn
    | ⟨2, _⟩ => by show g.val = 0 + g.val; omega

include hs in
theorem lfCrows_apply (b : Fin 32) (t : Fin cnt) (n : Fin 4095) (hn : n.val = s + t.val) (j : Fin 256) :
    lfCrows hf X (ix3 b t j) = Cert.TreeSpec.leafC (cur3 X) b n j := by
  unfold lfCrows
  rw [gateC_apply]
  simp only [slice_rows_apply hf X hs b t n hn]
  show _ * _ + _ * Ideal.ofBits .f32 0x00000000#32 + _ * Ideal.ofBits .f32 0x00000000#32 = _
  rw [Ideal.ofBits_zero_f32, mul_zero, mul_zero, add_zero, add_zero]
  rfl

include hs hZ in
theorem lfC_eq : lfC hf X Z = unc3 (setRows s cnt (Cert.TreeSpec.leafC (cur3 X)) (fun _ _ _ => 0)) := by
  funext i
  obtain ⟨b, n, j, rfl⟩ : ∃ (b : Fin 32) (n : Fin 4095) (j : Fin 256), i = ix3 b n j := ⟨i 0, i 1, i 2, eq_ix3 i⟩
  unfold lfC setRowsV
  rw [scatter_rows_apply hf.sc (startIdx hf) s hs (startIdx_toInt hf (by omega))]
  show _ = setRows s cnt _ _ b n j
  unfold setRows
  by_cases h : s ≤ n.val ∧ n.val < s + cnt
  · rw [dif_pos h, if_pos h, lfCrows_apply hf X hs b _ n (by show n.val = s + (n.val - s); omega)]
  · rw [dif_neg h, if_neg h, hZ]

include hs hZ in
theorem lfH_eq : lfH hf X Z = unc3 (setRows s cnt (Cert.TreeSpec.leafH (cur3 X)) (fun _ _ _ => 0)) := by
  funext i
  obtain ⟨b, n, j, rfl⟩ : ∃ (b : Fin 32) (n : Fin 4095) (j : Fin 256), i = ix3 b n j := ⟨i 0, i 1, i 2, eq_ix3 i⟩
  unfold lfH setRowsV
  rw [scatter_rows_apply hf.sc (startIdx hf) s hs (startIdx_toInt hf (by omega))]
  show _ = setRows s cnt _ _ b n j
  unfold setRows
  by_cases h : s ≤ n.val ∧ n.val < s + cnt
  · rw [dif_pos h, if_pos h, gateH_apply, lfCrows_apply hf X hs b _ n (by show n.val = s + (n.val - s); omega),
      slice_rows_apply hf X hs b _ n (by show n.val = s + (n.val - s); omega)]
    rfl
  · rw [dif_neg h, if_neg h, hZ]

end Leaf

section Ends

/-- The input projection as the program computes it. -/
def xpreV (w : DotDims.WF TA TW TX [2] [1] [0, 1] [0] [] [])
    (h1 : TB.BroadcastsInDim TB3 (![2] : Fin 1 → Fin TB3.rank))
    (h2 : TB3.BroadcastsInDim TX (![0, 1, 2] : Fin 3 → Fin TX.rank)) (feat : AV TA) (Wx : AV TW) (bx : AV TB) : AV TX :=
  addf (Host.dotGeneral (rowsDot 32 4095 256 1280 w) none feat Wx)
    (broadcastInDim TX ![0, 1, 2] h2 (broadcastInDim TB3 ![2] h1 bx))

theorem xpreV_eq (w : DotDims.WF TA TW TX [2] [1] [0, 1] [0] [] [])
    (h1 : TB.BroadcastsInDim TB3 (![2] : Fin 1 → Fin TB3.rank))
    (h2 : TB3.BroadcastsInDim TX (![0, 1, 2] : Fin 3 → Fin TX.rank)) (feat : AV TA) (Wx : AV TW) (bx : AV TB) :
    xpreV w h1 h2 feat Wx bx = unc3 (xpre (cur3 feat) (cur2 Wx) (cur1 bx)) := by
  funext i
  obtain ⟨b, n, g, rfl⟩ : ∃ (b : Fin 32) (n : Fin 4095) (g : Fin 1280), i = ix3 b n g := ⟨i 0, i 1, i 2, eq_ix3 i⟩
  show Host.dotGeneral (rowsDot 32 4095 256 1280 w) none feat Wx (ix3 b n g)
    + broadcastInDim (TP 4095) ![0, 1, 2] h2 (broadcastInDim TB3 ![2] h1 bx) (ix3 b n g) = _
  rw [dot_rows_apply, bias_apply]
  rfl

/-- The root rows of the hidden array, as the program returns them. -/
def rootV (h1 : TA.Slices ![0, 0, 0] ⟨3, ![32, 1, 256]⟩) (h2 : (⟨3, ![32, 1, 256]⟩ : Shape).ShapeCasts ⟨2, ![32, 256]⟩)
    (Hf : AV TA) : AV ⟨2, ![32, 256]⟩ :=
  shapeCast ⟨2, ![32, 256]⟩ (extractStridedSlice ⟨3, ![32, 1, 256]⟩ ![0, 0, 0] Hf h1) h2

theorem rootV_apply (h1 : TA.Slices ![0, 0, 0] ⟨3, ![32, 1, 256]⟩)
    (h2 : (⟨3, ![32, 1, 256]⟩ : Shape).ShapeCasts ⟨2, ![32, 256]⟩) (Hf : AV TA) (b : Fin 32) (j : Fin 256) :
    rootV h1 h2 Hf (ix2 b j) = Hf (ix3 b 0 j) := by
  unfold rootV
  refine (shapeCast_apply _ h2 (ix2 b j) (ix3 b (0 : Fin 1) j) ?_).trans
    (extractStridedSlice_apply _ Hf h1 (ix3 b (0 : Fin 1) j) (ix3 b 0 j) fun a => ?_)
  · rw [Shape.rowMajor_val_three, Shape.rowMajor_val_two]
    show (b.val * 1 + 0) * 256 + j.val = b.val * 256 + j.val
    omega
  · match a with
    | ⟨0, _⟩ => show b.val = 0 + b.val; omega
    | ⟨1, _⟩ => rfl
    | ⟨2, _⟩ => show j.val = 0 + j.val; omega

end Ends

end Cert.ReferenceIdeal.RefValue

end
-- ==== Proof.RefPre.lean ====
/-
  The first 74 operations of the reference program (the literal tables and masks, the input projection, the two zero
  arrays) and the leaves' stage; and the frame of everything later: the buffers the later operations never write keep
  what these left in them.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The buffer contents after the first 74 operations. -/
def Vpre (V : Valuation τ sig (Elt Ideal)) : Valuation τ sig (Elt Ideal) := after c2 (after c1 (after c0 V))

/-- Every buffer an operation after the 74th writes. -/
abbrev Wlate : List (Ref sig .tc) := c3_W ++ (c4_W ++ (c5_W ++ (c6_W ++ (c7_W ++ (c8_W ++ (c9_W ++ (c10_W ++ (c11_W ++ (c12_W ++ (c13_W ++ (c14_W ++ (c15_W ++ (c16_W ++ (c17_W ++ (c18_W ++ (c19_W ++ (c20_W ++ (c21_W ++ (c22_W ++ (c23_W ++ (c24_W ++ (c25_W ++ (c26_W ++ (c27_W ++ (c28_W ++ (c29_W ++ (c30_W ++ c31_W)))))))))))))))))))))))))))

theorem writes_mono {l : List (HloOp τ sig (Elt Ideal))} {W W' : List (Ref sig .tc)}
    (h : l.Forall fun op => op.writes ⊆ (W.map (Proc.devRef (τ := τ) .tc)).toFinset) (hW : ∀ x ∈ W, x ∈ W') :
    l.Forall fun op => op.writes ⊆ (W'.map (Proc.devRef (τ := τ) .tc)).toFinset :=
  List.forall_iff_forall_mem.mpr fun op hop x hx => by
    have := (List.forall_iff_forall_mem.mp h op hop) hx
    rw [List.mem_toFinset] at this ⊢
    obtain ⟨y, hy, rfl⟩ := List.mem_map.mp this
    exact List.mem_map_of_mem (hW y hy)

theorem c3_writes_late : (c3 : List (HloOp τ sig (Elt Ideal))).Forall fun op =>
    op.writes ⊆ (Wlate.map (Proc.devRef (τ := τ) .tc)).toFinset :=
  writes_mono c3_writes fun x hx => (List.mem_append_left _ hx)
theorem c4_writes_late : (c4 : List (HloOp τ sig (Elt Ideal))).Forall fun op =>
    op.writes ⊆ (Wlate.map (Proc.devRef (τ := τ) .tc)).toFinset :=
  writes_mono c4_writes fun x hx => (List.mem_append_right _ (List.mem_append_left _ hx))
theorem c5_writes_late : (c5 : List (HloOp τ sig (Elt Ideal))).Forall fun op =>
    op.writes ⊆ (Wlate.map (Proc.devRef (τ := τ) .tc)).toFinset :=
  writes_mono c5_writes fun x hx => (List.mem_append_right _ (List.mem_append_right _ (List.mem_append_left _ hx)))
theorem c6_writes_late : (c6 : List (HloOp τ sig (Elt Ideal))).Forall fun op =>
    op.writes ⊆ (Wlate.map (Proc.devRef (τ := τ) .tc)).toFinset :=
  writes_mono c6_writes fun x hx => (List.mem_append_right _ (List.mem_append_right _ (List.mem_append_right _ (List.mem_append_left _ hx))))
theorem c7_writes_late : (c7 : List (HloOp τ sig (Elt Ideal))).Forall fun op =>
    op.writes ⊆ (Wlate.map (Proc.devRef (τ := τ) .tc)).toFinset :=
  writes_mono c7_writes fun x hx => (List.mem_append_right _ (List.mem_append_right _ (List.mem_append_right _ (List.mem_append_right _ (List.mem_append_left _ hx)))))
theorem c8_writes_late : (c8 : List (HloOp τ sig (Elt Ideal))).Forall fun op =>
    op.writes ⊆ (Wlate.map (Proc.devRef (τ := τ) .tc)).toFinset :=
  writes_mono c8_writes fun x hx => (List.mem_append_right _ (List.mem_append_right _ (List.mem_append_right _ (List.mem_append_right _ (List.mem_append_right _ (List.mem_append_left _ hx))))))
theorem c9_writes_late : (c9 : List (HloOp τ sig (Elt Ideal))).Forall fun op =>
    op.writes ⊆ (Wlate.map (Proc.devRef (τ := τ) .tc)).toFinset :=
  writes_mono c9_writes fun x hx => (List.mem_append_right _ (List.mem_append_right _ (List.mem_append_right _ (List.mem_append_right _ (List.mem_append_right _ (List.mem_append_right _ (List.mem_append_left _ hx)))))))
theorem c10_writes_late : (c10 : List (HloOp τ sig (Elt Ideal))).Forall fun op =>
    op.writes ⊆ (Wlate.map (Proc.devRef (τ := τ) .tc)).toFinset :=
  writes_mono c10_writes fun x hx => (List.mem_append_right _ (List.mem_append_right _ (List.mem_append_right _ (List.mem_append_right _ (List.mem_append_right _ (List.mem_append_right _ (List.mem_append_right _ (List.mem_append_left _ hx))))))))
theorem c11_writes_late : (c11 : List (HloOp τ sig (Elt Ideal))).Forall fun op =>
    op.writes ⊆ (Wlate.map (Proc.devRef (τ := τ) .tc)).toFinset :=
  writes_mono c11_writes fun x hx => (List.mem_append_right _ (List.mem_append_right _ (List.mem_append_right _ (List.mem_append_right _ (List.mem_append_right _ (List.mem_append_right _ (List.mem_append_right _ (List.mem_append_right _ (List.mem_append_left _ hx)))))))))
theorem c12_writes_late : (c12 : List (HloOp τ sig (Elt Ideal))).Forall fun op =>
    op.writes ⊆ (Wlate.map (Proc.devRef (τ := τ) .tc)).toFinset :=
  writes_mono c12_writes fun x hx => (List.mem_append_right _ (List.mem_append_right _ (List.mem_append_right _ (List.mem_append_right _ (List.mem_append_right _ (List.mem_append_right _ (List.mem_append_right _ (List.mem_append_right _ (List.mem_append_right _ (List.mem_append_left _ hx))))))))))
theorem c13_writes_late : (c13 : List (HloOp τ sig (Elt Ideal))).Forall fun op =>
    op.writes ⊆ (Wlate.map (Proc.devRef (τ := τ) .tc)).toFinset :=
  writes_mono c13_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))
theorem c14_writes_late : (c14 : List (HloOp τ sig (Elt Ideal))).Forall fun op =>
    op.writes ⊆ (Wlate.map (Proc.devRef (τ := τ) .tc)).toFinset :=
  writes_mono c14_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))
theorem c15_writes_late : (c15 : List (HloOp τ sig (Elt Ideal))).Forall fun op =>
    op.writes ⊆ (Wlate.map (Proc.devRef (τ := τ) .tc)).toFinset :=
  writes_mono c15_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))
theorem c16_writes_late : (c16 : List (HloOp τ sig (Elt Ideal))).Forall fun op =>
    op.writes ⊆ (Wlate.map (Proc.devRef (τ := τ) .tc)).toFinset :=
  writes_mono c16_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))
theorem c17_writes_late : (c17 : List (HloOp τ sig (Elt Ideal))).Forall fun op =>
    op.writes ⊆ (Wlate.map (Proc.devRef (τ := τ) .tc)).toFinset :=
  writes_mono c17_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))
theorem c18_writes_late : (c18 : List (HloOp τ sig (Elt Ideal))).Forall fun op =>
    op.writes ⊆ (Wlate.map (Proc.devRef (τ := τ) .tc)).toFinset :=
  writes_mono c18_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))
theorem c19_writes_late : (c19 : List (HloOp τ sig (Elt Ideal))).Forall fun op =>
    op.writes ⊆ (Wlate.map (Proc.devRef (τ := τ) .tc)).toFinset :=
  writes_mono c19_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))
theorem c20_writes_late : (c20 : List (HloOp τ sig (Elt Ideal))).Forall fun op =>
    op.writes ⊆ (Wlate.map (Proc.devRef (τ := τ) .tc)).toFinset :=
  writes_mono c20_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))
theorem c21_writes_late : (c21 : List (HloOp τ sig (Elt Ideal))).Forall fun op =>
    op.writes ⊆ (Wlate.map (Proc.devRef (τ := τ) .tc)).toFinset :=
  writes_mono c21_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))))
theorem c22_writes_late : (c22 : List (HloOp τ sig (Elt Ideal))).Forall fun op =>
    op.writes ⊆ (Wlate.map (Proc.devRef (τ := τ) .tc)).toFinset :=
  writes_mono c22_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))))
theorem c23_writes_late : (c23 : List (HloOp τ sig (Elt Ideal))).Forall fun op =>
    op.writes ⊆ (Wlate.map (Proc.devRef (τ := τ) .tc)).toFinset :=
  writes_mono c23_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))))))
theorem c24_writes_late : (c24 : List (HloOp τ sig (Elt Ideal))).Forall fun op =>
    op.writes ⊆ (Wlate.map (Proc.devRef (τ := τ) .tc)).toFinset :=
  writes_mono c24_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))))))
theorem c25_writes_late : (c25 : List (HloOp τ sig (Elt Ideal))).Forall fun op =>
    op.writes ⊆ (Wlate.map (Proc.devRef (τ := τ) .tc)).toFinset :=
  writes_mono c25_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))))))))
theorem c26_writes_late : (c26 : List (HloOp τ sig (Elt Ideal))).Forall fun op =>
    op.writes ⊆ (Wlate.map (Proc.devRef (τ := τ) .tc)).toFinset :=
  writes_mono c26_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))))))))
theorem c27_writes_late : (c27 : List (HloOp τ sig (Elt Ideal))).Forall fun op =>
    op.writes ⊆ (Wlate.map (Proc.devRef (τ := τ) .tc)).toFinset :=
  writes_mono c27_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))))))))))
theorem c28_writes_late : (c28 : List (HloOp τ sig (Elt Ideal))).Forall fun op =>
    op.writes ⊆ (Wlate.map (Proc.devRef (τ := τ) .tc)).toFinset :=
  writes_mono c28_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))))))))))
theorem c29_writes_late : (c29 : List (HloOp τ sig (Elt Ideal))).Forall fun op =>
    op.writes ⊆ (Wlate.map (Proc.devRef (τ := τ) .tc)).toFinset :=
  writes_mono c29_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx)))))))))))))))))))))))))))
theorem c30_writes_late : (c30 : List (HloOp τ sig (Elt Ideal))).Forall fun op =>
    op.writes ⊆ (Wlate.map (Proc.devRef (τ := τ) .tc)).toFinset :=
  writes_mono c30_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hx))))))))))))))))))))))))))))
theorem c31_writes_late : (c31 : List (HloOp τ sig (Elt Ideal))).Forall fun op =>
    op.writes ⊆ (Wlate.map (Proc.devRef (τ := τ) .tc)).toFinset :=
  writes_mono c31_writes fun x hx => (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ hx))))))))))))))))))))))))))))

/-- A buffer no later operation writes keeps its contents through a later chunk. -/
theorem keep_late {l : List (HloOp τ sig (Elt Ideal))} (hl : l.Forall fun op => op.writes ⊆ (Wlate.map (Proc.devRef (τ := τ) .tc)).toFinset)
    {r : Ref sig .tc} (hr : r ∉ Wlate) (V : Valuation τ sig (Elt Ideal)) :
    after l V (Proc.devRef .tc r) = V (Proc.devRef .tc r) := after_of_writes_sub l V hl hr

theorem late_main_v3 : main_v3 ∉ Wlate := by decide
theorem late_main_arg2 : main_arg2 ∉ Wlate := by decide
theorem late_main_arg3 : main_arg3 ∉ Wlate := by decide
theorem late_main_arg5 : main_arg5 ∉ Wlate := by decide
theorem late_main_arg6 : main_arg6 ∉ Wlate := by decide
theorem late_main_c : main_c ∉ Wlate := by decide
theorem late_main_c_1 : main_c_1 ∉ Wlate := by decide
theorem late_main_c_0 : main_c_0 ∉ Wlate := by decide
theorem late_main_c_2 : main_c_2 ∉ Wlate := by decide
theorem late_main_c_3 : main_c_3 ∉ Wlate := by decide
theorem late_main_c_4 : main_c_4 ∉ Wlate := by decide
theorem late_main_c_5 : main_c_5 ∉ Wlate := by decide
theorem late_main_c_7 : main_c_7 ∉ Wlate := by decide
theorem late_main_c_6 : main_c_6 ∉ Wlate := by decide
theorem late_main_c_8 : main_c_8 ∉ Wlate := by decide
theorem late_main_c_9 : main_c_9 ∉ Wlate := by decide
theorem late_main_c_10 : main_c_10 ∉ Wlate := by decide
theorem late_main_c_11 : main_c_11 ∉ Wlate := by decide
theorem late_main_c_13 : main_c_13 ∉ Wlate := by decide
theorem late_main_c_12 : main_c_12 ∉ Wlate := by decide
theorem late_main_c_14 : main_c_14 ∉ Wlate := by decide
theorem late_main_c_15 : main_c_15 ∉ Wlate := by decide
theorem late_main_c_16 : main_c_16 ∉ Wlate := by decide
theorem late_main_c_17 : main_c_17 ∉ Wlate := by decide
theorem late_main_c_19 : main_c_19 ∉ Wlate := by decide
theorem late_main_c_18 : main_c_18 ∉ Wlate := by decide
theorem late_main_c_20 : main_c_20 ∉ Wlate := by decide
theorem late_main_c_21 : main_c_21 ∉ Wlate := by decide
theorem late_main_c_22 : main_c_22 ∉ Wlate := by decide
theorem late_main_c_23 : main_c_23 ∉ Wlate := by decide
theorem late_main_c_25 : main_c_25 ∉ Wlate := by decide
theorem late_main_c_24 : main_c_24 ∉ Wlate := by decide
theorem late_main_c_26 : main_c_26 ∉ Wlate := by decide
theorem late_main_c_27 : main_c_27 ∉ Wlate := by decide
theorem late_main_c_28 : main_c_28 ∉ Wlate := by decide
theorem late_main_c_29 : main_c_29 ∉ Wlate := by decide
theorem late_main_c_31 : main_c_31 ∉ Wlate := by decide
theorem late_main_c_30 : main_c_30 ∉ Wlate := by decide
theorem late_main_c_32 : main_c_32 ∉ Wlate := by decide
theorem late_main_c_33 : main_c_33 ∉ Wlate := by decide
theorem late_main_c_34 : main_c_34 ∉ Wlate := by decide
theorem late_main_c_35 : main_c_35 ∉ Wlate := by decide
theorem late_main_c_37 : main_c_37 ∉ Wlate := by decide
theorem late_main_c_36 : main_c_36 ∉ Wlate := by decide
theorem late_main_c_38 : main_c_38 ∉ Wlate := by decide
theorem late_main_c_39 : main_c_39 ∉ Wlate := by decide
theorem late_main_c_40 : main_c_40 ∉ Wlate := by decide
theorem late_main_c_41 : main_c_41 ∉ Wlate := by decide
theorem late_main_c_43 : main_c_43 ∉ Wlate := by decide
theorem late_main_c_42 : main_c_42 ∉ Wlate := by decide
theorem late_main_c_44 : main_c_44 ∉ Wlate := by decide
theorem late_main_c_45 : main_c_45 ∉ Wlate := by decide
theorem late_main_c_46 : main_c_46 ∉ Wlate := by decide
theorem late_main_c_47 : main_c_47 ∉ Wlate := by decide
theorem late_main_c_49 : main_c_49 ∉ Wlate := by decide
theorem late_main_c_48 : main_c_48 ∉ Wlate := by decide
theorem late_main_c_50 : main_c_50 ∉ Wlate := by decide
theorem late_main_c_51 : main_c_51 ∉ Wlate := by decide
theorem late_main_c_52 : main_c_52 ∉ Wlate := by decide
theorem late_main_c_53 : main_c_53 ∉ Wlate := by decide
theorem late_main_c_55 : main_c_55 ∉ Wlate := by decide
theorem late_main_c_54 : main_c_54 ∉ Wlate := by decide
theorem late_main_c_56 : main_c_56 ∉ Wlate := by decide
theorem late_main_c_57 : main_c_57 ∉ Wlate := by decide
theorem late_main_c_58 : main_c_58 ∉ Wlate := by decide
theorem late_main_c_59 : main_c_59 ∉ Wlate := by decide
theorem late_main_c_61 : main_c_61 ∉ Wlate := by decide
theorem late_main_c_60 : main_c_60 ∉ Wlate := by decide
theorem late_main_c_62 : main_c_62 ∉ Wlate := by decide
theorem late_main_c_63 : main_c_63 ∉ Wlate := by decide
theorem late_main_c_64 : main_c_64 ∉ Wlate := by decide

/-! ## What the first 74 operations leave -/

theorem Vpre_main_arg0 (V : Valuation τ sig (Elt Ideal)) : Vpre V (Proc.devRef .tc main_arg0) = V (Proc.devRef .tc main_arg0) := by
  unfold Vpre
  rw [after_of_writes_sub c2 _ c2_writes (by decide), after_of_writes_sub c1 _ c1_writes (by decide),
    after_of_writes_sub c0 _ c0_writes (by decide)]
theorem Vpre_main_arg1 (V : Valuation τ sig (Elt Ideal)) : Vpre V (Proc.devRef .tc main_arg1) = V (Proc.devRef .tc main_arg1) := by
  unfold Vpre
  rw [after_of_writes_sub c2 _ c2_writes (by decide), after_of_writes_sub c1 _ c1_writes (by decide),
    after_of_writes_sub c0 _ c0_writes (by decide)]
theorem Vpre_main_arg2 (V : Valuation τ sig (Elt Ideal)) : Vpre V (Proc.devRef .tc main_arg2) = V (Proc.devRef .tc main_arg2) := by
  unfold Vpre
  rw [after_of_writes_sub c2 _ c2_writes (by decide), after_of_writes_sub c1 _ c1_writes (by decide),
    after_of_writes_sub c0 _ c0_writes (by decide)]
theorem Vpre_main_arg3 (V : Valuation τ sig (Elt Ideal)) : Vpre V (Proc.devRef .tc main_arg3) = V (Proc.devRef .tc main_arg3) := by
  unfold Vpre
  rw [after_of_writes_sub c2 _ c2_writes (by decide), after_of_writes_sub c1 _ c1_writes (by decide),
    after_of_writes_sub c0 _ c0_writes (by decide)]
theorem Vpre_main_arg4 (V : Valuation τ sig (Elt Ideal)) : Vpre V (Proc.devRef .tc main_arg4) = V (Proc.devRef .tc main_arg4) := by
  unfold Vpre
  rw [after_of_writes_sub c2 _ c2_writes (by decide), after_of_writes_sub c1 _ c1_writes (by decide),
    after_of_writes_sub c0 _ c0_writes (by decide)]
theorem Vpre_main_arg5 (V : Valuation τ sig (Elt Ideal)) : Vpre V (Proc.devRef .tc main_arg5) = V (Proc.devRef .tc main_arg5) := by
  unfold Vpre
  rw [after_of_writes_sub c2 _ c2_writes (by decide), after_of_writes_sub c1 _ c1_writes (by decide),
    after_of_writes_sub c0 _ c0_writes (by decide)]
theorem Vpre_main_arg6 (V : Valuation τ sig (Elt Ideal)) : Vpre V (Proc.devRef .tc main_arg6) = V (Proc.devRef .tc main_arg6) := by
  unfold Vpre
  rw [after_of_writes_sub c2 _ c2_writes (by decide), after_of_writes_sub c1 _ c1_writes (by decide),
    after_of_writes_sub c0 _ c0_writes (by decide)]

set_option maxRecDepth 100000 in
set_option maxHeartbeats 4000000 in
theorem Vpre_X (V : Valuation τ sig (Elt Ideal)) :
    Vpre V (Proc.devRef .tc main_v3)
      = xpreV dot_S32x4095x256_S1280x256_S32x4095x1280_2_1_01_0_n_n_wf bcast_S1280_S1x1x1280_2
          bcast_S1x1x1280_S32x4095x1280_0_1_2 (V (Proc.devRef .tc main_arg0)) (V (Proc.devRef .tc main_arg1)) (V (Proc.devRef .tc main_arg4)) := by
  have e0 : after c1 (after c0 V) (Proc.devRef .tc main_arg0) = V (Proc.devRef .tc main_arg0) := by
    rw [after_of_writes_sub c1 _ c1_writes (by decide), after_of_writes_sub c0 _ c0_writes (by decide)]
  have e1 : after c1 (after c0 V) (Proc.devRef .tc main_arg1) = V (Proc.devRef .tc main_arg1) := by
    rw [after_of_writes_sub c1 _ c1_writes (by decide), after_of_writes_sub c0 _ c0_writes (by decide)]
  have e4 : after c1 (after c0 V) (Proc.devRef .tc main_arg4) = V (Proc.devRef .tc main_arg4) := by
    rw [after_of_writes_sub c1 _ c1_writes (by decide), after_of_writes_sub c0 _ c0_writes (by decide)]
  unfold Vpre
  generalize after c1 (after c0 V) = U at e0 e1 e4
  simp only [c2]
  after_results_simp
  rw [e0, e1, e4]
  rfl

set_option maxRecDepth 100000 in
theorem Vpre_Z4 (V : Valuation τ sig (Elt Ideal)) :
    Vpre V (Proc.devRef .tc main_v4) = (broadcastInDim S32x4095x256 ![] bcast_S_S32x4095x256 (constant (F := Ideal) S_ .f32 0x00000000#32) : AV TA) := by
  unfold Vpre
  generalize after c1 (after c0 V) = U
  simp only [c2]
  after_results_simp <;> rfl

set_option maxRecDepth 100000 in
theorem Vpre_Z5 (V : Valuation τ sig (Elt Ideal)) :
    Vpre V (Proc.devRef .tc main_v5) = (broadcastInDim S32x4095x256 ![] bcast_S_S32x4095x256 (constant (F := Ideal) S_ .f32 0x00000000#32) : AV TA) := by
  unfold Vpre
  generalize after c1 (after c0 V) = U
  simp only [c2]
  after_results_simp <;> rfl

theorem zeros_apply (i : S32x4095x256.Idx) :
    (broadcastInDim S32x4095x256 ![] bcast_S_S32x4095x256 (constant (F := Ideal) S_ .f32 0x00000000#32)) i = 0 := by
  show Ideal.ofBits .f32 0x00000000#32 = 0
  exact Ideal.ofBits_zero_f32

set_option maxRecDepth 100000 in
set_option maxHeartbeats 4000000 in
theorem Vpre_main_c (V : Valuation τ sig (Elt Ideal)) : Vpre V (Proc.devRef .tc main_c) = (fun i => lit0 (S1024.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_1 (V : Valuation τ sig (Elt Ideal)) : Vpre V (Proc.devRef .tc main_c_1) = (fun i => lit1 (S1024.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_0 (V : Valuation τ sig (Elt Ideal)) : Vpre V (Proc.devRef .tc main_c_0) = (constantI S1024 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_2 (V : Valuation τ sig (Elt Ideal)) : Vpre V (Proc.devRef .tc main_c_2) = (constantI S1024 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_3 (V : Valuation τ sig (Elt Ideal)) : Vpre V (Proc.devRef .tc main_c_3) = (constantI S1024 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_4 (V : Valuation τ sig (Elt Ideal)) : Vpre V (Proc.devRef .tc main_c_4) = (constantI S1024 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_5 (V : Valuation τ sig (Elt Ideal)) : Vpre V (Proc.devRef .tc main_c_5) = (fun i => lit2 (S512.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_7 (V : Valuation τ sig (Elt Ideal)) : Vpre V (Proc.devRef .tc main_c_7) = (fun i => lit3 (S512.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_6 (V : Valuation τ sig (Elt Ideal)) : Vpre V (Proc.devRef .tc main_c_6) = (constantI S512 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_8 (V : Valuation τ sig (Elt Ideal)) : Vpre V (Proc.devRef .tc main_c_8) = (constantI S512 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_9 (V : Valuation τ sig (Elt Ideal)) : Vpre V (Proc.devRef .tc main_c_9) = (constantI S512 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_10 (V : Valuation τ sig (Elt Ideal)) : Vpre V (Proc.devRef .tc main_c_10) = (constantI S512 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_11 (V : Valuation τ sig (Elt Ideal)) : Vpre V (Proc.devRef .tc main_c_11) = (fun i => lit4 (S256.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_13 (V : Valuation τ sig (Elt Ideal)) : Vpre V (Proc.devRef .tc main_c_13) = (fun i => lit5 (S256.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_12 (V : Valuation τ sig (Elt Ideal)) : Vpre V (Proc.devRef .tc main_c_12) = (constantI S256 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_14 (V : Valuation τ sig (Elt Ideal)) : Vpre V (Proc.devRef .tc main_c_14) = (constantI S256 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_15 (V : Valuation τ sig (Elt Ideal)) : Vpre V (Proc.devRef .tc main_c_15) = (constantI S256 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_16 (V : Valuation τ sig (Elt Ideal)) : Vpre V (Proc.devRef .tc main_c_16) = (constantI S256 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_17 (V : Valuation τ sig (Elt Ideal)) : Vpre V (Proc.devRef .tc main_c_17) = (fun i => lit6 (S128.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_19 (V : Valuation τ sig (Elt Ideal)) : Vpre V (Proc.devRef .tc main_c_19) = (fun i => lit7 (S128.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_18 (V : Valuation τ sig (Elt Ideal)) : Vpre V (Proc.devRef .tc main_c_18) = (constantI S128 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_20 (V : Valuation τ sig (Elt Ideal)) : Vpre V (Proc.devRef .tc main_c_20) = (constantI S128 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_21 (V : Valuation τ sig (Elt Ideal)) : Vpre V (Proc.devRef .tc main_c_21) = (constantI S128 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_22 (V : Valuation τ sig (Elt Ideal)) : Vpre V (Proc.devRef .tc main_c_22) = (constantI S128 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_23 (V : Valuation τ sig (Elt Ideal)) : Vpre V (Proc.devRef .tc main_c_23) = (fun i => lit8 (S64.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_25 (V : Valuation τ sig (Elt Ideal)) : Vpre V (Proc.devRef .tc main_c_25) = (fun i => lit9 (S64.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_24 (V : Valuation τ sig (Elt Ideal)) : Vpre V (Proc.devRef .tc main_c_24) = (constantI S64 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_26 (V : Valuation τ sig (Elt Ideal)) : Vpre V (Proc.devRef .tc main_c_26) = (constantI S64 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_27 (V : Valuation τ sig (Elt Ideal)) : Vpre V (Proc.devRef .tc main_c_27) = (constantI S64 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_28 (V : Valuation τ sig (Elt Ideal)) : Vpre V (Proc.devRef .tc main_c_28) = (constantI S64 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_29 (V : Valuation τ sig (Elt Ideal)) : Vpre V (Proc.devRef .tc main_c_29) = (fun i => lit10 (S32.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_31 (V : Valuation τ sig (Elt Ideal)) : Vpre V (Proc.devRef .tc main_c_31) = (fun i => lit11 (S32.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_30 (V : Valuation τ sig (Elt Ideal)) : Vpre V (Proc.devRef .tc main_c_30) = (constantI S32 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_32 (V : Valuation τ sig (Elt Ideal)) : Vpre V (Proc.devRef .tc main_c_32) = (constantI S32 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_33 (V : Valuation τ sig (Elt Ideal)) : Vpre V (Proc.devRef .tc main_c_33) = (constantI S32 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_34 (V : Valuation τ sig (Elt Ideal)) : Vpre V (Proc.devRef .tc main_c_34) = (constantI S32 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_35 (V : Valuation τ sig (Elt Ideal)) : Vpre V (Proc.devRef .tc main_c_35) = (fun i => lit12 (S16.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_37 (V : Valuation τ sig (Elt Ideal)) : Vpre V (Proc.devRef .tc main_c_37) = (fun i => lit13 (S16.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_36 (V : Valuation τ sig (Elt Ideal)) : Vpre V (Proc.devRef .tc main_c_36) = (constantI S16 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_38 (V : Valuation τ sig (Elt Ideal)) : Vpre V (Proc.devRef .tc main_c_38) = (constantI S16 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_39 (V : Valuation τ sig (Elt Ideal)) : Vpre V (Proc.devRef .tc main_c_39) = (constantI S16 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_40 (V : Valuation τ sig (Elt Ideal)) : Vpre V (Proc.devRef .tc main_c_40) = (constantI S16 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_41 (V : Valuation τ sig (Elt Ideal)) : Vpre V (Proc.devRef .tc main_c_41) = (fun i => lit14 (S8.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_43 (V : Valuation τ sig (Elt Ideal)) : Vpre V (Proc.devRef .tc main_c_43) = (fun i => lit15 (S8.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_42 (V : Valuation τ sig (Elt Ideal)) : Vpre V (Proc.devRef .tc main_c_42) = (constantI S8 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_44 (V : Valuation τ sig (Elt Ideal)) : Vpre V (Proc.devRef .tc main_c_44) = (constantI S8 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_45 (V : Valuation τ sig (Elt Ideal)) : Vpre V (Proc.devRef .tc main_c_45) = (constantI S8 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_46 (V : Valuation τ sig (Elt Ideal)) : Vpre V (Proc.devRef .tc main_c_46) = (constantI S8 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_47 (V : Valuation τ sig (Elt Ideal)) : Vpre V (Proc.devRef .tc main_c_47) = (fun i => lit16 (S4.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_49 (V : Valuation τ sig (Elt Ideal)) : Vpre V (Proc.devRef .tc main_c_49) = (fun i => lit17 (S4.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_48 (V : Valuation τ sig (Elt Ideal)) : Vpre V (Proc.devRef .tc main_c_48) = (constantI S4 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_50 (V : Valuation τ sig (Elt Ideal)) : Vpre V (Proc.devRef .tc main_c_50) = (constantI S4 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_51 (V : Valuation τ sig (Elt Ideal)) : Vpre V (Proc.devRef .tc main_c_51) = (constantI S4 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_52 (V : Valuation τ sig (Elt Ideal)) : Vpre V (Proc.devRef .tc main_c_52) = (constantI S4 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_53 (V : Valuation τ sig (Elt Ideal)) : Vpre V (Proc.devRef .tc main_c_53) = (fun i => lit18 (S2.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_55 (V : Valuation τ sig (Elt Ideal)) : Vpre V (Proc.devRef .tc main_c_55) = (fun i => lit19 (S2.rowMajor i)) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_54 (V : Valuation τ sig (Elt Ideal)) : Vpre V (Proc.devRef .tc main_c_54) = (constantI S2 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_56 (V : Valuation τ sig (Elt Ideal)) : Vpre V (Proc.devRef .tc main_c_56) = (constantI S2 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_57 (V : Valuation τ sig (Elt Ideal)) : Vpre V (Proc.devRef .tc main_c_57) = (constantI S2 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_58 (V : Valuation τ sig (Elt Ideal)) : Vpre V (Proc.devRef .tc main_c_58) = (constantI S2 1 0#1) := by
  unfold Vpre
  rw [after_of_writes_sub c2 _ c2_writes (by decide), after_of_writes_sub c1 _ c1_writes (by decide)]
  simp only [c0]
  after_results_simp <;> rfl
set_option maxRecDepth 100000 in
set_option maxHeartbeats 4000000 in
theorem Vpre_main_c_59 (V : Valuation τ sig (Elt Ideal)) : Vpre V (Proc.devRef .tc main_c_59) = (constantI S1 32 1#32) := by
  unfold Vpre
  rw [after_of_writes_sub c2 _ c2_writes (by decide)]
  generalize after c0 V = U
  simp only [c1]
  after_results_simp <;> rfl
set_option maxRecDepth 100000 in
set_option maxHeartbeats 4000000 in
theorem Vpre_main_c_61 (V : Valuation τ sig (Elt Ideal)) : Vpre V (Proc.devRef .tc main_c_61) = (constantI S1 32 2#32) := by
  unfold Vpre
  rw [after_of_writes_sub c2 _ c2_writes (by decide)]
  generalize after c0 V = U
  simp only [c1]
  after_results_simp <;> rfl
set_option maxRecDepth 100000 in
set_option maxHeartbeats 4000000 in
theorem Vpre_main_c_60 (V : Valuation τ sig (Elt Ideal)) : Vpre V (Proc.devRef .tc main_c_60) = (constantI S1 1 0#1) := by
  unfold Vpre
  rw [after_of_writes_sub c2 _ c2_writes (by decide)]
  generalize after c0 V = U
  simp only [c1]
  after_results_simp <;> rfl
set_option maxRecDepth 100000 in
set_option maxHeartbeats 4000000 in
theorem Vpre_main_c_62 (V : Valuation τ sig (Elt Ideal)) : Vpre V (Proc.devRef .tc main_c_62) = (constantI S1 1 0#1) := by
  unfold Vpre
  rw [after_of_writes_sub c2 _ c2_writes (by decide)]
  generalize after c0 V = U
  simp only [c1]
  after_results_simp <;> rfl
set_option maxRecDepth 100000 in
set_option maxHeartbeats 4000000 in
theorem Vpre_main_c_63 (V : Valuation τ sig (Elt Ideal)) : Vpre V (Proc.devRef .tc main_c_63) = (constantI S1 1 0#1) := by
  unfold Vpre
  rw [after_of_writes_sub c2 _ c2_writes (by decide)]
  generalize after c0 V = U
  simp only [c1]
  after_results_simp <;> rfl
set_option maxRecDepth 100000 in
set_option maxHeartbeats 4000000 in
theorem Vpre_main_c_64 (V : Valuation τ sig (Elt Ideal)) : Vpre V (Proc.devRef .tc main_c_64) = (constantI S1 1 0#1) := by
  unfold Vpre
  rw [after_of_writes_sub c2 _ c2_writes (by decide)]
  generalize after c0 V = U
  simp only [c1]
  after_results_simp <;> rfl

/-! ## The leaves' stage -/

theorem rf0 : RowFacts 2048 2047 where
  sx := slices_S32x4095x1280_S32x2048x1280_0_2047_0
  s0 := slices_S32x2048x1280_S32x2048x256_0_0_0
  s1 := slices_S32x2048x1280_S32x2048x256_0_0_256
  s2 := slices_S32x2048x1280_S32x2048x256_0_0_512
  s3 := slices_S32x2048x1280_S32x2048x256_0_0_768
  s4 := slices_S32x2048x1280_S32x2048x256_0_0_1024
  bc := bcast_S_S32x2048x256
  b11 := bcast_S_S1
  sc := scatter_S32x4095x256_S1_S32x2048x256_012_n_1_0_wf

set_option maxRecDepth 100000 in
set_option maxHeartbeats 40000000 in
theorem stage0_C (V : Valuation τ sig (Elt Ideal)) :
    after c4 (after c3 V) (Proc.devRef .tc main_v47) = lfC rf0 (V (Proc.devRef .tc main_v3)) (V (Proc.devRef .tc main_v5)) := by
  simp only [c3, c4]
  after_results_simp
  rfl

set_option maxRecDepth 100000 in
set_option maxHeartbeats 40000000 in
theorem stage0_H (V : Valuation τ sig (Elt Ideal)) :
    after c4 (after c3 V) (Proc.devRef .tc main_v49) = lfH rf0 (V (Proc.devRef .tc main_v3)) (V (Proc.devRef .tc main_v4)) := by
  simp only [c3, c4]
  after_results_simp
  rfl

end Cert.ReferenceIdeal.RefValue

end
-- ==== Proof.RefLevel0.lean ====
/-
  Stage 11 of the reference program (the level of 1 nodes from row 0): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf11 : LevelFacts 1 0 where
  sx := slices_S32x4095x1280_S32x1x1280_0_0_0
  s0 := slices_S32x1x1280_S32x1x256_0_0_0
  s1 := slices_S32x1x1280_S32x1x256_0_0_256
  s2 := slices_S32x1x1280_S32x1x256_0_0_512
  s3 := slices_S32x1x1280_S32x1x256_0_0_768
  s4 := slices_S32x1x1280_S32x1x256_0_0_1024
  bc := bcast_S_S32x1x256
  b11 := bcast_S_S1
  sc := scatter_S32x4095x256_S1_S32x1x256_012_n_1_0_wf
  b0 := bcast_S_S1
  b1 := bcast_S1_S1x1_0
  g := gather_S32x4095x256_S1x1_S32x1x256_02_1_n_n_1_1_321256_wf
  d := dot_S32x1x256_S1280x256_S32x1x1280_2_1_01_0_n_n_wf
  bb := bcast_S1280_S1x1x1280_2
  bp := bcast_S1x1x1280_S32x1x1280_0_1_2

set_option maxRecDepth 100000 in
set_option maxHeartbeats 40000000 in
theorem stage11_C (V : Valuation τ sig (Elt Ideal)) :
    after c30 (after c29 (V)) (Proc.devRef .tc main_v839)
      = levelC lf11 (V (Proc.devRef .tc main_v3)) (V (Proc.devRef .tc main_v769)) (V (Proc.devRef .tc main_v767)) (V (Proc.devRef .tc main_arg2)) (V (Proc.devRef .tc main_arg3)) (V (Proc.devRef .tc main_arg5)) (V (Proc.devRef .tc main_arg6))
        (V (Proc.devRef .tc main_c_59)) (V (Proc.devRef .tc main_c_61)) (V (Proc.devRef .tc main_c_60)) (V (Proc.devRef .tc main_c_62)) (V (Proc.devRef .tc main_c_63)) (V (Proc.devRef .tc main_c_64)) := by
  simp only [c29, c30]
  after_results_simp
  rfl

set_option maxRecDepth 100000 in
set_option maxHeartbeats 40000000 in
theorem stage11_H (V : Valuation τ sig (Elt Ideal)) :
    after c30 (after c29 (V)) (Proc.devRef .tc main_v841)
      = levelH lf11 (V (Proc.devRef .tc main_v3)) (V (Proc.devRef .tc main_v769)) (V (Proc.devRef .tc main_v767)) (V (Proc.devRef .tc main_arg2)) (V (Proc.devRef .tc main_arg3)) (V (Proc.devRef .tc main_arg5)) (V (Proc.devRef .tc main_arg6))
        (V (Proc.devRef .tc main_c_59)) (V (Proc.devRef .tc main_c_61)) (V (Proc.devRef .tc main_c_60)) (V (Proc.devRef .tc main_c_62)) (V (Proc.devRef .tc main_c_63)) (V (Proc.devRef .tc main_c_64)) := by
  simp only [c29, c30]
  after_results_simp
  rfl

end Cert.ReferenceIdeal.RefValue

end
-- ==== Proof.RefLevel1.lean ====
/-
  Stage 10 of the reference program (the level of 2 nodes from row 1): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf10 : LevelFacts 2 1 where
  sx := slices_S32x4095x1280_S32x2x1280_0_1_0
  s0 := slices_S32x2x1280_S32x2x256_0_0_0
  s1 := slices_S32x2x1280_S32x2x256_0_0_256
  s2 := slices_S32x2x1280_S32x2x256_0_0_512
  s3 := slices_S32x2x1280_S32x2x256_0_0_768
  s4 := slices_S32x2x1280_S32x2x256_0_0_1024
  bc := bcast_S_S32x2x256
  b11 := bcast_S_S1
  sc := scatter_S32x4095x256_S1_S32x2x256_012_n_1_0_wf
  b0 := bcast_S_S2
  b1 := bcast_S2_S2x1_0
  g := gather_S32x4095x256_S2x1_S32x2x256_02_1_n_n_1_1_321256_wf
  d := dot_S32x2x256_S1280x256_S32x2x1280_2_1_01_0_n_n_wf
  bb := bcast_S1280_S1x1x1280_2
  bp := bcast_S1x1x1280_S32x2x1280_0_1_2

set_option maxRecDepth 100000 in
set_option maxHeartbeats 40000000 in
theorem stage10_C (V : Valuation τ sig (Elt Ideal)) :
    after c28 (after c27 (V)) (Proc.devRef .tc main_v767)
      = levelC lf10 (V (Proc.devRef .tc main_v3)) (V (Proc.devRef .tc main_v697)) (V (Proc.devRef .tc main_v695)) (V (Proc.devRef .tc main_arg2)) (V (Proc.devRef .tc main_arg3)) (V (Proc.devRef .tc main_arg5)) (V (Proc.devRef .tc main_arg6))
        (V (Proc.devRef .tc main_c_53)) (V (Proc.devRef .tc main_c_55)) (V (Proc.devRef .tc main_c_54)) (V (Proc.devRef .tc main_c_56)) (V (Proc.devRef .tc main_c_57)) (V (Proc.devRef .tc main_c_58)) := by
  simp only [c27, c28]
  after_results_simp
  rfl

set_option maxRecDepth 100000 in
set_option maxHeartbeats 40000000 in
theorem stage10_H (V : Valuation τ sig (Elt Ideal)) :
    after c28 (after c27 (V)) (Proc.devRef .tc main_v769)
      = levelH lf10 (V (Proc.devRef .tc main_v3)) (V (Proc.devRef .tc main_v697)) (V (Proc.devRef .tc main_v695)) (V (Proc.devRef .tc main_arg2)) (V (Proc.devRef .tc main_arg3)) (V (Proc.devRef .tc main_arg5)) (V (Proc.devRef .tc main_arg6))
        (V (Proc.devRef .tc main_c_53)) (V (Proc.devRef .tc main_c_55)) (V (Proc.devRef .tc main_c_54)) (V (Proc.devRef .tc main_c_56)) (V (Proc.devRef .tc main_c_57)) (V (Proc.devRef .tc main_c_58)) := by
  simp only [c27, c28]
  after_results_simp
  rfl

end Cert.ReferenceIdeal.RefValue

end
-- ==== Proof.RefLevel2.lean ====
/-
  Stage 9 of the reference program (the level of 4 nodes from row 3): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf9 : LevelFacts 4 3 where
  sx := slices_S32x4095x1280_S32x4x1280_0_3_0
  s0 := slices_S32x4x1280_S32x4x256_0_0_0
  s1 := slices_S32x4x1280_S32x4x256_0_0_256
  s2 := slices_S32x4x1280_S32x4x256_0_0_512
  s3 := slices_S32x4x1280_S32x4x256_0_0_768
  s4 := slices_S32x4x1280_S32x4x256_0_0_1024
  bc := bcast_S_S32x4x256
  b11 := bcast_S_S1
  sc := scatter_S32x4095x256_S1_S32x4x256_012_n_1_0_wf
  b0 := bcast_S_S4
  b1 := bcast_S4_S4x1_0
  g := gather_S32x4095x256_S4x1_S32x4x256_02_1_n_n_1_1_321256_wf
  d := dot_S32x4x256_S1280x256_S32x4x1280_2_1_01_0_n_n_wf
  bb := bcast_S1280_S1x1x1280_2
  bp := bcast_S1x1x1280_S32x4x1280_0_1_2

set_option maxRecDepth 100000 in
set_option maxHeartbeats 40000000 in
theorem stage9_C (V : Valuation τ sig (Elt Ideal)) :
    after c26 (after c25 (after c24 (V))) (Proc.devRef .tc main_v695)
      = levelC lf9 (V (Proc.devRef .tc main_v3)) (V (Proc.devRef .tc main_v625)) (V (Proc.devRef .tc main_v623)) (V (Proc.devRef .tc main_arg2)) (V (Proc.devRef .tc main_arg3)) (V (Proc.devRef .tc main_arg5)) (V (Proc.devRef .tc main_arg6))
        (V (Proc.devRef .tc main_c_47)) (V (Proc.devRef .tc main_c_49)) (V (Proc.devRef .tc main_c_48)) (V (Proc.devRef .tc main_c_50)) (V (Proc.devRef .tc main_c_51)) (V (Proc.devRef .tc main_c_52)) := by
  simp only [c24, c25, c26]
  after_results_simp
  rfl

set_option maxRecDepth 100000 in
set_option maxHeartbeats 40000000 in
theorem stage9_H (V : Valuation τ sig (Elt Ideal)) :
    after c26 (after c25 (after c24 (V))) (Proc.devRef .tc main_v697)
      = levelH lf9 (V (Proc.devRef .tc main_v3)) (V (Proc.devRef .tc main_v625)) (V (Proc.devRef .tc main_v623)) (V (Proc.devRef .tc main_arg2)) (V (Proc.devRef .tc main_arg3)) (V (Proc.devRef .tc main_arg5)) (V (Proc.devRef .tc main_arg6))
        (V (Proc.devRef .tc main_c_47)) (V (Proc.devRef .tc main_c_49)) (V (Proc.devRef .tc main_c_48)) (V (Proc.devRef .tc main_c_50)) (V (Proc.devRef .tc main_c_51)) (V (Proc.devRef .tc main_c_52)) := by
  simp only [c24, c25, c26]
  after_results_simp
  rfl

end Cert.ReferenceIdeal.RefValue

end
-- ==== Proof.RefLevel3.lean ====
/-
  Stage 8 of the reference program (the level of 8 nodes from row 7): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf8 : LevelFacts 8 7 where
  sx := slices_S32x4095x1280_S32x8x1280_0_7_0
  s0 := slices_S32x8x1280_S32x8x256_0_0_0
  s1 := slices_S32x8x1280_S32x8x256_0_0_256
  s2 := slices_S32x8x1280_S32x8x256_0_0_512
  s3 := slices_S32x8x1280_S32x8x256_0_0_768
  s4 := slices_S32x8x1280_S32x8x256_0_0_1024
  bc := bcast_S_S32x8x256
  b11 := bcast_S_S1
  sc := scatter_S32x4095x256_S1_S32x8x256_012_n_1_0_wf
  b0 := bcast_S_S8
  b1 := bcast_S8_S8x1_0
  g := gather_S32x4095x256_S8x1_S32x8x256_02_1_n_n_1_1_321256_wf
  d := dot_S32x8x256_S1280x256_S32x8x1280_2_1_01_0_n_n_wf
  bb := bcast_S1280_S1x1x1280_2
  bp := bcast_S1x1x1280_S32x8x1280_0_1_2

set_option maxRecDepth 100000 in
set_option maxHeartbeats 40000000 in
theorem stage8_C (V : Valuation τ sig (Elt Ideal)) :
    after c23 (after c22 (V)) (Proc.devRef .tc main_v623)
      = levelC lf8 (V (Proc.devRef .tc main_v3)) (V (Proc.devRef .tc main_v553)) (V (Proc.devRef .tc main_v551)) (V (Proc.devRef .tc main_arg2)) (V (Proc.devRef .tc main_arg3)) (V (Proc.devRef .tc main_arg5)) (V (Proc.devRef .tc main_arg6))
        (V (Proc.devRef .tc main_c_41)) (V (Proc.devRef .tc main_c_43)) (V (Proc.devRef .tc main_c_42)) (V (Proc.devRef .tc main_c_44)) (V (Proc.devRef .tc main_c_45)) (V (Proc.devRef .tc main_c_46)) := by
  simp only [c22, c23]
  after_results_simp
  rfl

set_option maxRecDepth 100000 in
set_option maxHeartbeats 40000000 in
theorem stage8_H (V : Valuation τ sig (Elt Ideal)) :
    after c23 (after c22 (V)) (Proc.devRef .tc main_v625)
      = levelH lf8 (V (Proc.devRef .tc main_v3)) (V (Proc.devRef .tc main_v553)) (V (Proc.devRef .tc main_v551)) (V (Proc.devRef .tc main_arg2)) (V (Proc.devRef .tc main_arg3)) (V (Proc.devRef .tc main_arg5)) (V (Proc.devRef .tc main_arg6))
        (V (Proc.devRef .tc main_c_41)) (V (Proc.devRef .tc main_c_43)) (V (Proc.devRef .tc main_c_42)) (V (Proc.devRef .tc main_c_44)) (V (Proc.devRef .tc main_c_45)) (V (Proc.devRef .tc main_c_46)) := by
  simp only [c22, c23]
  after_results_simp
  rfl

end Cert.ReferenceIdeal.RefValue

end
-- ==== Proof.RefLevel4.lean ====
/-
  Stage 7 of the reference program (the level of 16 nodes from row 15): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf7 : LevelFacts 16 15 where
  sx := slices_S32x4095x1280_S32x16x1280_0_15_0
  s0 := slices_S32x16x1280_S32x16x256_0_0_0
  s1 := slices_S32x16x1280_S32x16x256_0_0_256
  s2 := slices_S32x16x1280_S32x16x256_0_0_512
  s3 := slices_S32x16x1280_S32x16x256_0_0_768
  s4 := slices_S32x16x1280_S32x16x256_0_0_1024
  bc := bcast_S_S32x16x256
  b11 := bcast_S_S1
  sc := scatter_S32x4095x256_S1_S32x16x256_012_n_1_0_wf
  b0 := bcast_S_S16
  b1 := bcast_S16_S16x1_0
  g := gather_S32x4095x256_S16x1_S32x16x256_02_1_n_n_1_1_321256_wf
  d := dot_S32x16x256_S1280x256_S32x16x1280_2_1_01_0_n_n_wf
  bb := bcast_S1280_S1x1x1280_2
  bp := bcast_S1x1x1280_S32x16x1280_0_1_2

set_option maxRecDepth 100000 in
set_option maxHeartbeats 40000000 in
theorem stage7_C (V : Valuation τ sig (Elt Ideal)) :
    after c21 (after c20 (after c19 (V))) (Proc.devRef .tc main_v551)
      = levelC lf7 (V (Proc.devRef .tc main_v3)) (V (Proc.devRef .tc main_v481)) (V (Proc.devRef .tc main_v479)) (V (Proc.devRef .tc main_arg2)) (V (Proc.devRef .tc main_arg3)) (V (Proc.devRef .tc main_arg5)) (V (Proc.devRef .tc main_arg6))
        (V (Proc.devRef .tc main_c_35)) (V (Proc.devRef .tc main_c_37)) (V (Proc.devRef .tc main_c_36)) (V (Proc.devRef .tc main_c_38)) (V (Proc.devRef .tc main_c_39)) (V (Proc.devRef .tc main_c_40)) := by
  simp only [c19, c20, c21]
  after_results_simp
  rfl

set_option maxRecDepth 100000 in
set_option maxHeartbeats 40000000 in
theorem stage7_H (V : Valuation τ sig (Elt Ideal)) :
    after c21 (after c20 (after c19 (V))) (Proc.devRef .tc main_v553)
      = levelH lf7 (V (Proc.devRef .tc main_v3)) (V (Proc.devRef .tc main_v481)) (V (Proc.devRef .tc main_v479)) (V (Proc.devRef .tc main_arg2)) (V (Proc.devRef .tc main_arg3)) (V (Proc.devRef .tc main_arg5)) (V (Proc.devRef .tc main_arg6))
        (V (Proc.devRef .tc main_c_35)) (V (Proc.devRef .tc main_c_37)) (V (Proc.devRef .tc main_c_36)) (V (Proc.devRef .tc main_c_38)) (V (Proc.devRef .tc main_c_39)) (V (Proc.devRef .tc main_c_40)) := by
  simp only [c19, c20, c21]
  after_results_simp
  rfl

end Cert.ReferenceIdeal.RefValue

end
-- ==== Proof.RefLevel5.lean ====
/-
  Stage 6 of the reference program (the level of 32 nodes from row 31): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf6 : LevelFacts 32 31 where
  sx := slices_S32x4095x1280_S32x32x1280_0_31_0
  s0 := slices_S32x32x1280_S32x32x256_0_0_0
  s1 := slices_S32x32x1280_S32x32x256_0_0_256
  s2 := slices_S32x32x1280_S32x32x256_0_0_512
  s3 := slices_S32x32x1280_S32x32x256_0_0_768
  s4 := slices_S32x32x1280_S32x32x256_0_0_1024
  bc := bcast_S_S32x32x256
  b11 := bcast_S_S1
  sc := scatter_S32x4095x256_S1_S32x32x256_012_n_1_0_wf
  b0 := bcast_S_S32
  b1 := bcast_S32_S32x1_0
  g := gather_S32x4095x256_S32x1_S32x32x256_02_1_n_n_1_1_321256_wf
  d := dot_S32x32x256_S1280x256_S32x32x1280_2_1_01_0_n_n_wf
  bb := bcast_S1280_S1x1x1280_2
  bp := bcast_S1x1x1280_S32x32x1280_0_1_2

set_option maxRecDepth 100000 in
set_option maxHeartbeats 40000000 in
theorem stage6_C (V : Valuation τ sig (Elt Ideal)) :
    after c18 (after c17 (V)) (Proc.devRef .tc main_v479)
      = levelC lf6 (V (Proc.devRef .tc main_v3)) (V (Proc.devRef .tc main_v409)) (V (Proc.devRef .tc main_v407)) (V (Proc.devRef .tc main_arg2)) (V (Proc.devRef .tc main_arg3)) (V (Proc.devRef .tc main_arg5)) (V (Proc.devRef .tc main_arg6))
        (V (Proc.devRef .tc main_c_29)) (V (Proc.devRef .tc main_c_31)) (V (Proc.devRef .tc main_c_30)) (V (Proc.devRef .tc main_c_32)) (V (Proc.devRef .tc main_c_33)) (V (Proc.devRef .tc main_c_34)) := by
  simp only [c17, c18]
  after_results_simp
  rfl

set_option maxRecDepth 100000 in
set_option maxHeartbeats 40000000 in
theorem stage6_H (V : Valuation τ sig (Elt Ideal)) :
    after c18 (after c17 (V)) (Proc.devRef .tc main_v481)
      = levelH lf6 (V (Proc.devRef .tc main_v3)) (V (Proc.devRef .tc main_v409)) (V (Proc.devRef .tc main_v407)) (V (Proc.devRef .tc main_arg2)) (V (Proc.devRef .tc main_arg3)) (V (Proc.devRef .tc main_arg5)) (V (Proc.devRef .tc main_arg6))
        (V (Proc.devRef .tc main_c_29)) (V (Proc.devRef .tc main_c_31)) (V (Proc.devRef .tc main_c_30)) (V (Proc.devRef .tc main_c_32)) (V (Proc.devRef .tc main_c_33)) (V (Proc.devRef .tc main_c_34)) := by
  simp only [c17, c18]
  after_results_simp
  rfl

end Cert.ReferenceIdeal.RefValue

end
-- ==== Proof.RefLevel6.lean ====
/-
  Stage 5 of the reference program (the level of 64 nodes from row 63): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf5 : LevelFacts 64 63 where
  sx := slices_S32x4095x1280_S32x64x1280_0_63_0
  s0 := slices_S32x64x1280_S32x64x256_0_0_0
  s1 := slices_S32x64x1280_S32x64x256_0_0_256
  s2 := slices_S32x64x1280_S32x64x256_0_0_512
  s3 := slices_S32x64x1280_S32x64x256_0_0_768
  s4 := slices_S32x64x1280_S32x64x256_0_0_1024
  bc := bcast_S_S32x64x256
  b11 := bcast_S_S1
  sc := scatter_S32x4095x256_S1_S32x64x256_012_n_1_0_wf
  b0 := bcast_S_S64
  b1 := bcast_S64_S64x1_0
  g := gather_S32x4095x256_S64x1_S32x64x256_02_1_n_n_1_1_321256_wf
  d := dot_S32x64x256_S1280x256_S32x64x1280_2_1_01_0_n_n_wf
  bb := bcast_S1280_S1x1x1280_2
  bp := bcast_S1x1x1280_S32x64x1280_0_1_2

set_option maxRecDepth 100000 in
set_option maxHeartbeats 40000000 in
theorem stage5_C (V : Valuation τ sig (Elt Ideal)) :
    after c16 (after c15 (after c14 (V))) (Proc.devRef .tc main_v407)
      = levelC lf5 (V (Proc.devRef .tc main_v3)) (V (Proc.devRef .tc main_v337)) (V (Proc.devRef .tc main_v335)) (V (Proc.devRef .tc main_arg2)) (V (Proc.devRef .tc main_arg3)) (V (Proc.devRef .tc main_arg5)) (V (Proc.devRef .tc main_arg6))
        (V (Proc.devRef .tc main_c_23)) (V (Proc.devRef .tc main_c_25)) (V (Proc.devRef .tc main_c_24)) (V (Proc.devRef .tc main_c_26)) (V (Proc.devRef .tc main_c_27)) (V (Proc.devRef .tc main_c_28)) := by
  simp only [c14, c15, c16]
  after_results_simp
  rfl

set_option maxRecDepth 100000 in
set_option maxHeartbeats 40000000 in
theorem stage5_H (V : Valuation τ sig (Elt Ideal)) :
    after c16 (after c15 (after c14 (V))) (Proc.devRef .tc main_v409)
      = levelH lf5 (V (Proc.devRef .tc main_v3)) (V (Proc.devRef .tc main_v337)) (V (Proc.devRef .tc main_v335)) (V (Proc.devRef .tc main_arg2)) (V (Proc.devRef .tc main_arg3)) (V (Proc.devRef .tc main_arg5)) (V (Proc.devRef .tc main_arg6))
        (V (Proc.devRef .tc main_c_23)) (V (Proc.devRef .tc main_c_25)) (V (Proc.devRef .tc main_c_24)) (V (Proc.devRef .tc main_c_26)) (V (Proc.devRef .tc main_c_27)) (V (Proc.devRef .tc main_c_28)) := by
  simp only [c14, c15, c16]
  after_results_simp
  rfl

end Cert.ReferenceIdeal.RefValue

end
-- ==== Proof.RefLevel7.lean ====
/-
  Stage 4 of the reference program (the level of 128 nodes from row 127): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf4 : LevelFacts 128 127 where
  sx := slices_S32x4095x1280_S32x128x1280_0_127_0
  s0 := slices_S32x128x1280_S32x128x256_0_0_0
  s1 := slices_S32x128x1280_S32x128x256_0_0_256
  s2 := slices_S32x128x1280_S32x128x256_0_0_512
  s3 := slices_S32x128x1280_S32x128x256_0_0_768
  s4 := slices_S32x128x1280_S32x128x256_0_0_1024
  bc := bcast_S_S32x128x256
  b11 := bcast_S_S1
  sc := scatter_S32x4095x256_S1_S32x128x256_012_n_1_0_wf
  b0 := bcast_S_S128
  b1 := bcast_S128_S128x1_0
  g := gather_S32x4095x256_S128x1_S32x128x256_02_1_n_n_1_1_321256_wf
  d := dot_S32x128x256_S1280x256_S32x128x1280_2_1_01_0_n_n_wf
  bb := bcast_S1280_S1x1x1280_2
  bp := bcast_S1x1x1280_S32x128x1280_0_1_2

set_option maxRecDepth 100000 in
set_option maxHeartbeats 40000000 in
theorem stage4_C (V : Valuation τ sig (Elt Ideal)) :
    after c13 (after c12 (V)) (Proc.devRef .tc main_v335)
      = levelC lf4 (V (Proc.devRef .tc main_v3)) (V (Proc.devRef .tc main_v265)) (V (Proc.devRef .tc main_v263)) (V (Proc.devRef .tc main_arg2)) (V (Proc.devRef .tc main_arg3)) (V (Proc.devRef .tc main_arg5)) (V (Proc.devRef .tc main_arg6))
        (V (Proc.devRef .tc main_c_17)) (V (Proc.devRef .tc main_c_19)) (V (Proc.devRef .tc main_c_18)) (V (Proc.devRef .tc main_c_20)) (V (Proc.devRef .tc main_c_21)) (V (Proc.devRef .tc main_c_22)) := by
  simp only [c12, c13]
  after_results_simp
  rfl

set_option maxRecDepth 100000 in
set_option maxHeartbeats 40000000 in
theorem stage4_H (V : Valuation τ sig (Elt Ideal)) :
    after c13 (after c12 (V)) (Proc.devRef .tc main_v337)
      = levelH lf4 (V (Proc.devRef .tc main_v3)) (V (Proc.devRef .tc main_v265)) (V (Proc.devRef .tc main_v263)) (V (Proc.devRef .tc main_arg2)) (V (Proc.devRef .tc main_arg3)) (V (Proc.devRef .tc main_arg5)) (V (Proc.devRef .tc main_arg6))
        (V (Proc.devRef .tc main_c_17)) (V (Proc.devRef .tc main_c_19)) (V (Proc.devRef .tc main_c_18)) (V (Proc.devRef .tc main_c_20)) (V (Proc.devRef .tc main_c_21)) (V (Proc.devRef .tc main_c_22)) := by
  simp only [c12, c13]
  after_results_simp
  rfl

end Cert.ReferenceIdeal.RefValue

end
-- ==== Proof.RefLevel8.lean ====
/-
  Stage 3 of the reference program (the level of 256 nodes from row 255): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf3 : LevelFacts 256 255 where
  sx := slices_S32x4095x1280_S32x256x1280_0_255_0
  s0 := slices_S32x256x1280_S32x256x256_0_0_0
  s1 := slices_S32x256x1280_S32x256x256_0_0_256
  s2 := slices_S32x256x1280_S32x256x256_0_0_512
  s3 := slices_S32x256x1280_S32x256x256_0_0_768
  s4 := slices_S32x256x1280_S32x256x256_0_0_1024
  bc := bcast_S_S32x256x256
  b11 := bcast_S_S1
  sc := scatter_S32x4095x256_S1_S32x256x256_012_n_1_0_wf
  b0 := bcast_S_S256
  b1 := bcast_S256_S256x1_0
  g := gather_S32x4095x256_S256x1_S32x256x256_02_1_n_n_1_1_321256_wf
  d := dot_S32x256x256_S1280x256_S32x256x1280_2_1_01_0_n_n_wf
  bb := bcast_S1280_S1x1x1280_2
  bp := bcast_S1x1x1280_S32x256x1280_0_1_2

set_option maxRecDepth 100000 in
set_option maxHeartbeats 40000000 in
theorem stage3_C (V : Valuation τ sig (Elt Ideal)) :
    after c11 (after c10 (V)) (Proc.devRef .tc main_v263)
      = levelC lf3 (V (Proc.devRef .tc main_v3)) (V (Proc.devRef .tc main_v193)) (V (Proc.devRef .tc main_v191)) (V (Proc.devRef .tc main_arg2)) (V (Proc.devRef .tc main_arg3)) (V (Proc.devRef .tc main_arg5)) (V (Proc.devRef .tc main_arg6))
        (V (Proc.devRef .tc main_c_11)) (V (Proc.devRef .tc main_c_13)) (V (Proc.devRef .tc main_c_12)) (V (Proc.devRef .tc main_c_14)) (V (Proc.devRef .tc main_c_15)) (V (Proc.devRef .tc main_c_16)) := by
  simp only [c10, c11]
  after_results_simp
  rfl

set_option maxRecDepth 100000 in
set_option maxHeartbeats 40000000 in
theorem stage3_H (V : Valuation τ sig (Elt Ideal)) :
    after c11 (after c10 (V)) (Proc.devRef .tc main_v265)
      = levelH lf3 (V (Proc.devRef .tc main_v3)) (V (Proc.devRef .tc main_v193)) (V (Proc.devRef .tc main_v191)) (V (Proc.devRef .tc main_arg2)) (V (Proc.devRef .tc main_arg3)) (V (Proc.devRef .tc main_arg5)) (V (Proc.devRef .tc main_arg6))
        (V (Proc.devRef .tc main_c_11)) (V (Proc.devRef .tc main_c_13)) (V (Proc.devRef .tc main_c_12)) (V (Proc.devRef .tc main_c_14)) (V (Proc.devRef .tc main_c_15)) (V (Proc.devRef .tc main_c_16)) := by
  simp only [c10, c11]
  after_results_simp
  rfl

end Cert.ReferenceIdeal.RefValue

end
-- ==== Proof.RefLevel9.lean ====
/-
  Stage 2 of the reference program (the level of 512 nodes from row 511): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf2 : LevelFacts 512 511 where
  sx := slices_S32x4095x1280_S32x512x1280_0_511_0
  s0 := slices_S32x512x1280_S32x512x256_0_0_0
  s1 := slices_S32x512x1280_S32x512x256_0_0_256
  s2 := slices_S32x512x1280_S32x512x256_0_0_512
  s3 := slices_S32x512x1280_S32x512x256_0_0_768
  s4 := slices_S32x512x1280_S32x512x256_0_0_1024
  bc := bcast_S_S32x512x256
  b11 := bcast_S_S1
  sc := scatter_S32x4095x256_S1_S32x512x256_012_n_1_0_wf
  b0 := bcast_S_S512
  b1 := bcast_S512_S512x1_0
  g := gather_S32x4095x256_S512x1_S32x512x256_02_1_n_n_1_1_321256_wf
  d := dot_S32x512x256_S1280x256_S32x512x1280_2_1_01_0_n_n_wf
  bb := bcast_S1280_S1x1x1280_2
  bp := bcast_S1x1x1280_S32x512x1280_0_1_2

set_option maxRecDepth 100000 in
set_option maxHeartbeats 40000000 in
theorem stage2_C (V : Valuation τ sig (Elt Ideal)) :
    after c9 (after c8 (after c7 (V))) (Proc.devRef .tc main_v191)
      = levelC lf2 (V (Proc.devRef .tc main_v3)) (V (Proc.devRef .tc main_v121)) (V (Proc.devRef .tc main_v119)) (V (Proc.devRef .tc main_arg2)) (V (Proc.devRef .tc main_arg3)) (V (Proc.devRef .tc main_arg5)) (V (Proc.devRef .tc main_arg6))
        (V (Proc.devRef .tc main_c_5)) (V (Proc.devRef .tc main_c_7)) (V (Proc.devRef .tc main_c_6)) (V (Proc.devRef .tc main_c_8)) (V (Proc.devRef .tc main_c_9)) (V (Proc.devRef .tc main_c_10)) := by
  simp only [c7, c8, c9]
  after_results_simp
  rfl

set_option maxRecDepth 100000 in
set_option maxHeartbeats 40000000 in
theorem stage2_H (V : Valuation τ sig (Elt Ideal)) :
    after c9 (after c8 (after c7 (V))) (Proc.devRef .tc main_v193)
      = levelH lf2 (V (Proc.devRef .tc main_v3)) (V (Proc.devRef .tc main_v121)) (V (Proc.devRef .tc main_v119)) (V (Proc.devRef .tc main_arg2)) (V (Proc.devRef .tc main_arg3)) (V (Proc.devRef .tc main_arg5)) (V (Proc.devRef .tc main_arg6))
        (V (Proc.devRef .tc main_c_5)) (V (Proc.devRef .tc main_c_7)) (V (Proc.devRef .tc main_c_6)) (V (Proc.devRef .tc main_c_8)) (V (Proc.devRef .tc main_c_9)) (V (Proc.devRef .tc main_c_10)) := by
  simp only [c7, c8, c9]
  after_results_simp
  rfl

end Cert.ReferenceIdeal.RefValue

end
-- ==== Proof.RefLevel10.lean ====
/-
  Stage 1 of the reference program (the level of 1024 nodes from row 1023): what its operations leave in the two
  buffers they write last is the level function of the buffers they read.
-/
import proofs.«102109_j83099027243631_1_alg».proof.Proof.RefRun
import proofs.«102109_j83099027243631_1_alg».proof.Proof.RefLevelFn

noncomputable section

namespace Cert.ReferenceIdeal.RefValue

open Cert.ReferenceIdeal Cert.ReferenceIdeal.Gen Idealize.ShloMosaic Idealize.ShloMosaic.TcCoe Idealize.SL.Sem Idealize.ShloMosaic.StableHlo

theorem lf1 : LevelFacts 1024 1023 where
  sx := slices_S32x4095x1280_S32x1024x1280_0_1023_0
  s0 := slices_S32x1024x1280_S32x1024x256_0_0_0
  s1 := slices_S32x1024x1280_S32x1024x256_0_0_256
  s2 := slices_S32x1024x1280_S32x1024x256_0_0_512
  s3 := slices_S32x1024x1280_S32x1024x256_0_0_768
  s4 := slices_S32x1024x1280_S32x1024x256_0_0_1024
  bc := bcast_S_S32x1024x256
  b11 := bcast_S_S1
  sc := scatter_S32x4095x256_S1_S32x1024x256_012_n_1_0_wf
  b0 := bcast_S_S1024
  b1 := bcast_S1024_S1024x1_0
  g := gather_S32x4095x256_S1024x1_S32x1024x256_02_1_n_n_1_1_321256_wf
  d := dot_S32x1024x256_S1280x256_S32x1024x1280_2_1_01_0_n_n_wf
  bb := bcast_S1280_S1x1x1280_2
  bp := bcast_S1x1x1280_S32x1024x1280_0_1_2

set_option maxRecDepth 100000 in
set_option maxHeartbeats 40000000 in
theorem stage1_C (V : Valuation τ sig (Elt Ideal)) :
    after c6 (after c5 (V)) (Proc.devRef .tc main_v119)
      = levelC lf1 (V (Proc.devRef .tc main_v3)) (V (Proc.devRef .tc main_v49)) (V (Proc.devRef .tc main_v47)) (V (Proc.devRef .tc main_arg2)) (V (Proc.devRef .tc main_arg3)) (V (Proc.devRef .tc main_arg5)) (V (Proc.devRef .tc main_arg6))
        (V (Proc.devRef .tc main_c)) (V (Proc.devRef .tc main_c_1)) (V (Proc.devRef .tc main_c_0)) (V (Proc.devRef .tc main_c_2)) (V (Proc.devRef .tc main_c_3)) (V (Proc.devRef .tc main_c_4)) := by
  simp only [c5, c6]
  after_results_simp
  rfl

set_option maxRecDepth 100000 in
set_option maxHeartbeats 40000000 in
theorem stage1_H (V : Valuation τ sig (Elt Ideal)) :
    after c6 (after c5 (V)) (Proc.devRef .tc main_v121)
      = levelH lf1 (V (Proc.devRef .tc main_v3)) (V (Proc.devRef .tc main_v49)) (V (Proc.devRef .tc main_v47)) (V (Proc.devRef .tc main_arg2)) (V (Proc.devRef .tc main_arg3)) (V (Proc.devRef .tc main_arg5)) (V (Proc.devRef .tc main_arg6))
        (V (Proc.devRef .tc main_c)) (V (Proc.devRef .tc main_c_1)) (V (Proc.devRef .tc main_c_0)) (V (Proc.devRef .tc main_c_2)) (V (Proc.devRef .tc main_c_3)) (V (Proc.devRef .tc main_c_4)) := by
  simp only [c5, c6]
  after_results_simp
  rfl

end Cert.ReferenceIdeal.RefValue

end
-- ==== Proof.RefValue.lean ====
/-
  The value of the reference program: the buffer its last operation writes holds the root rows of the hidden array
  after the eleven levels of the recursion, `TreeSpec.result` of the argument arrays.

  `Vs k V` is the buffer contents after stage `k` (the leaves' stage, then the levels 10 … 0).  The hidden and the cell
  buffer then hold `TreeSpec.stage … k` (`inv k`); everything a stage reads besides them — the projection, the weights
  and biases, its table of children and its masks — is what the first 74 operations left (`Vs_keep`).
-/
import proofs.«102109_j83099027243631_1_alg».proof.Proof.RefPre
import proofs.«102109_j83099027243631_1_alg».proof.Proof.RefLevel0
import proofs.«102109_j83099027243631_1_alg».proof.Proof.RefLevel1
import proofs.«102109_j83099027243631_1_alg».proof.Proof.RefLevel2
import proofs.«102109_j83099027243631_1_alg».proof.Proof.RefLevel3
import proofs.«102109_j83099027243631_1_alg».proof.Proof.RefLevel4
import proofs.«102109_j83099027243631_1_alg».proof.Proof.RefLevel5
import proofs.«102109_j83099027243631_1_alg».proof.Proof.RefLevel6
import proofs.«102109_j83099027243631_1_alg».proof.Proof.RefLevel7
import proofs.«102109_j83099027243631_1_alg».proof.Proof.RefLevel8
import proofs.«102109_j83099027243631_1_alg».proof.Proof.RefLevel9
import proofs.«102109_j83099027243631_1_alg».proof.Proof.RefLevel10

noncomputable section

namespace Cert.ReferenceIdeal.RefValue

open Cert.ReferenceIdeal Cert.ReferenceIdeal.Gen Idealize.ShloMosaic Idealize.ShloMosaic.TcCoe Idealize.SL.Sem Idealize.ShloMosaic.StableHlo

open Cert.TreeSpec Idealize.ShloMosaic.ValueIdx

/-- The input projection of the argument arrays. -/
abbrev Xs (V : Valuation τ sig (Elt Ideal)) : A3 32 4095 1280 :=
  xpre (cur3 (V (Proc.devRef .tc main_arg0) : AV TA)) (cur2 (V (Proc.devRef .tc main_arg1) : AV TW)) (cur1 (V (Proc.devRef .tc main_arg4) : AV TB))
/-- The hidden and cell arrays after stage `k`, of the argument arrays. -/
abbrev St (V : Valuation τ sig (Elt Ideal)) (k : ℕ) : A3 32 4095 256 × A3 32 4095 256 :=
  stage (Xs V) (cur2 (V (Proc.devRef .tc main_arg2) : AV TW)) (cur2 (V (Proc.devRef .tc main_arg3) : AV TW))
    (cur1 (V (Proc.devRef .tc main_arg5) : AV TB)) (cur1 (V (Proc.devRef .tc main_arg6) : AV TB)) k

/-- The buffer contents after the leaves' stage. -/
def Vs0 (V : Valuation τ sig (Elt Ideal)) : Valuation τ sig (Elt Ideal) := after c4 (after c3 (Vpre V))
/-- The buffer contents after stage 1. -/
def Vs1 (V : Valuation τ sig (Elt Ideal)) : Valuation τ sig (Elt Ideal) := after c6 (after c5 (Vs0 V))
/-- The buffer contents after stage 2. -/
def Vs2 (V : Valuation τ sig (Elt Ideal)) : Valuation τ sig (Elt Ideal) := after c9 (after c8 (after c7 (Vs1 V)))
/-- The buffer contents after stage 3. -/
def Vs3 (V : Valuation τ sig (Elt Ideal)) : Valuation τ sig (Elt Ideal) := after c11 (after c10 (Vs2 V))
/-- The buffer contents after stage 4. -/
def Vs4 (V : Valuation τ sig (Elt Ideal)) : Valuation τ sig (Elt Ideal) := after c13 (after c12 (Vs3 V))
/-- The buffer contents after stage 5. -/
def Vs5 (V : Valuation τ sig (Elt Ideal)) : Valuation τ sig (Elt Ideal) := after c16 (after c15 (after c14 (Vs4 V)))
/-- The buffer contents after stage 6. -/
def Vs6 (V : Valuation τ sig (Elt Ideal)) : Valuation τ sig (Elt Ideal) := after c18 (after c17 (Vs5 V))
/-- The buffer contents after stage 7. -/
def Vs7 (V : Valuation τ sig (Elt Ideal)) : Valuation τ sig (Elt Ideal) := after c21 (after c20 (after c19 (Vs6 V)))
/-- The buffer contents after stage 8. -/
def Vs8 (V : Valuation τ sig (Elt Ideal)) : Valuation τ sig (Elt Ideal) := after c23 (after c22 (Vs7 V))
/-- The buffer contents after stage 9. -/
def Vs9 (V : Valuation τ sig (Elt Ideal)) : Valuation τ sig (Elt Ideal) := after c26 (after c25 (after c24 (Vs8 V)))
/-- The buffer contents after stage 10. -/
def Vs10 (V : Valuation τ sig (Elt Ideal)) : Valuation τ sig (Elt Ideal) := after c28 (after c27 (Vs9 V))
/-- The buffer contents after stage 11. -/
def Vs11 (V : Valuation τ sig (Elt Ideal)) : Valuation τ sig (Elt Ideal) := after c30 (after c29 (Vs10 V))

theorem Vs0_keep (V : Valuation τ sig (Elt Ideal)) {r : Ref sig .tc} (hr : r ∉ Wlate) :
    Vs0 V (Proc.devRef .tc r) = Vpre V (Proc.devRef .tc r) := by
  unfold Vs0
  rw [keep_late c4_writes_late hr, keep_late c3_writes_late hr]
theorem Vs1_keep (V : Valuation τ sig (Elt Ideal)) {r : Ref sig .tc} (hr : r ∉ Wlate) :
    Vs1 V (Proc.devRef .tc r) = Vpre V (Proc.devRef .tc r) := by
  unfold Vs1
  rw [keep_late c6_writes_late hr, keep_late c5_writes_late hr, Vs0_keep V hr]
theorem Vs2_keep (V : Valuation τ sig (Elt Ideal)) {r : Ref sig .tc} (hr : r ∉ Wlate) :
    Vs2 V (Proc.devRef .tc r) = Vpre V (Proc.devRef .tc r) := by
  unfold Vs2
  rw [keep_late c9_writes_late hr, keep_late c8_writes_late hr, keep_late c7_writes_late hr, Vs1_keep V hr]
theorem Vs3_keep (V : Valuation τ sig (Elt Ideal)) {r : Ref sig .tc} (hr : r ∉ Wlate) :
    Vs3 V (Proc.devRef .tc r) = Vpre V (Proc.devRef .tc r) := by
  unfold Vs3
  rw [keep_late c11_writes_late hr, keep_late c10_writes_late hr, Vs2_keep V hr]
theorem Vs4_keep (V : Valuation τ sig (Elt Ideal)) {r : Ref sig .tc} (hr : r ∉ Wlate) :
    Vs4 V (Proc.devRef .tc r) = Vpre V (Proc.devRef .tc r) := by
  unfold Vs4
  rw [keep_late c13_writes_late hr, keep_late c12_writes_late hr, Vs3_keep V hr]
theorem Vs5_keep (V : Valuation τ sig (Elt Ideal)) {r : Ref sig .tc} (hr : r ∉ Wlate) :
    Vs5 V (Proc.devRef .tc r) = Vpre V (Proc.devRef .tc r) := by
  unfold Vs5
  rw [keep_late c16_writes_late hr, keep_late c15_writes_late hr, keep_late c14_writes_late hr, Vs4_keep V hr]
theorem Vs6_keep (V : Valuation τ sig (Elt Ideal)) {r : Ref sig .tc} (hr : r ∉ Wlate) :
    Vs6 V (Proc.devRef .tc r) = Vpre V (Proc.devRef .tc r) := by
  unfold Vs6
  rw [keep_late c18_writes_late hr, keep_late c17_writes_late hr, Vs5_keep V hr]
theorem Vs7_keep (V : Valuation τ sig (Elt Ideal)) {r : Ref sig .tc} (hr : r ∉ Wlate) :
    Vs7 V (Proc.devRef .tc r) = Vpre V (Proc.devRef .tc r) := by
  unfold Vs7
  rw [keep_late c21_writes_late hr, keep_late c20_writes_late hr, keep_late c19_writes_late hr, Vs6_keep V hr]
theorem Vs8_keep (V : Valuation τ sig (Elt Ideal)) {r : Ref sig .tc} (hr : r ∉ Wlate) :
    Vs8 V (Proc.devRef .tc r) = Vpre V (Proc.devRef .tc r) := by
  unfold Vs8
  rw [keep_late c23_writes_late hr, keep_late c22_writes_late hr, Vs7_keep V hr]
theorem Vs9_keep (V : Valuation τ sig (Elt Ideal)) {r : Ref sig .tc} (hr : r ∉ Wlate) :
    Vs9 V (Proc.devRef .tc r) = Vpre V (Proc.devRef .tc r) := by
  unfold Vs9
  rw [keep_late c26_writes_late hr, keep_late c25_writes_late hr, keep_late c24_writes_late hr, Vs8_keep V hr]
theorem Vs10_keep (V : Valuation τ sig (Elt Ideal)) {r : Ref sig .tc} (hr : r ∉ Wlate) :
    Vs10 V (Proc.devRef .tc r) = Vpre V (Proc.devRef .tc r) := by
  unfold Vs10
  rw [keep_late c28_writes_late hr, keep_late c27_writes_late hr, Vs9_keep V hr]
theorem Vs11_keep (V : Valuation τ sig (Elt Ideal)) {r : Ref sig .tc} (hr : r ∉ Wlate) :
    Vs11 V (Proc.devRef .tc r) = Vpre V (Proc.devRef .tc r) := by
  unfold Vs11
  rw [keep_late c30_writes_late hr, keep_late c29_writes_late hr, Vs10_keep V hr]

theorem hX_of (V : Valuation τ sig (Elt Ideal)) : Vpre V (Proc.devRef .tc main_v3) = unc3 (Xs V) := by
  rw [Vpre_X, xpreV_eq]

theorem inv0 (V : Valuation τ sig (Elt Ideal)) :
    Vs0 V (Proc.devRef .tc main_v49) = unc3 (St V 0).1 ∧ Vs0 V (Proc.devRef .tc main_v47) = unc3 (St V 0).2 := by
  constructor
  · unfold Vs0
    rw [stage0_H, hX_of, Vpre_Z4, lfH_eq rf0 _ _ (by decide) zeros_apply]
    rfl
  · unfold Vs0
    rw [stage0_C, hX_of, Vpre_Z5, lfC_eq rf0 _ _ (by decide) zeros_apply]
    rfl

/-! ### Stage 1: the 1024 nodes from row 1023 -/

theorem tbl1L : ∀ i : Fin 1024, lit0 i = BitVec.ofNat 32 (2 * (1023 + i.val) + 1) := by decide +kernel
theorem tbl1R : ∀ i : Fin 1024, lit1 i = BitVec.ofNat 32 (2 * (1023 + i.val) + 2) := by decide +kernel
theorem tbl1L' (t : Fin 1024) :
    (fun i => lit0 (S1024.rowMajor i) : IVec (TI 1024) 32) (ix1 t) = BitVec.ofNat 32 (2 * (1023 + t.val) + 1) :=
  (congrArg lit0 (Fin.ext (Shape.rowMajor_val_one (d := ![1024]) (ix1 t)))).trans (tbl1L t)
theorem tbl1R' (t : Fin 1024) :
    (fun i => lit1 (S1024.rowMajor i) : IVec (TI 1024) 32) (ix1 t) = BitVec.ofNat 32 (2 * (1023 + t.val) + 2) :=
  (congrArg lit1 (Fin.ext (Shape.rowMajor_val_one (d := ![1024]) (ix1 t)))).trans (tbl1R t)

theorem inv1 (V : Valuation τ sig (Elt Ideal)) :
    Vs1 V (Proc.devRef .tc main_v121) = unc3 (St V 1).1 ∧ Vs1 V (Proc.devRef .tc main_v119) = unc3 (St V 1).2 := by
  have hX : Vs0 V (Proc.devRef .tc main_v3) = unc3 (Xs V) := by rw [Vs0_keep V late_main_v3, hX_of]
  have hH := (inv0 V).1
  have hC := (inv0 V).2
  have hWl : Vs0 V (Proc.devRef .tc main_arg2) = V (Proc.devRef .tc main_arg2) := by rw [Vs0_keep V late_main_arg2, Vpre_main_arg2]
  have hWr : Vs0 V (Proc.devRef .tc main_arg3) = V (Proc.devRef .tc main_arg3) := by rw [Vs0_keep V late_main_arg3, Vpre_main_arg3]
  have hbl : Vs0 V (Proc.devRef .tc main_arg5) = V (Proc.devRef .tc main_arg5) := by rw [Vs0_keep V late_main_arg5, Vpre_main_arg5]
  have hbr : Vs0 V (Proc.devRef .tc main_arg6) = V (Proc.devRef .tc main_arg6) := by rw [Vs0_keep V late_main_arg6, Vpre_main_arg6]
  have hTL : Vs0 V (Proc.devRef .tc main_c) = (fun i => lit0 (S1024.rowMajor i)) := by rw [Vs0_keep V late_main_c, Vpre_main_c]
  have hTR : Vs0 V (Proc.devRef .tc main_c_1) = (fun i => lit1 (S1024.rowMajor i)) := by rw [Vs0_keep V late_main_c_1, Vpre_main_c_1]
  have hM1 : Vs0 V (Proc.devRef .tc main_c_0) = (constantI S1024 1 0#1) := by rw [Vs0_keep V late_main_c_0, Vpre_main_c_0]
  have hM2 : Vs0 V (Proc.devRef .tc main_c_2) = (constantI S1024 1 0#1) := by rw [Vs0_keep V late_main_c_2, Vpre_main_c_2]
  have hM3 : Vs0 V (Proc.devRef .tc main_c_3) = (constantI S1024 1 0#1) := by rw [Vs0_keep V late_main_c_3, Vpre_main_c_3]
  have hM4 : Vs0 V (Proc.devRef .tc main_c_4) = (constantI S1024 1 0#1) := by rw [Vs0_keep V late_main_c_4, Vpre_main_c_4]
  constructor
  · unfold Vs1
    rw [stage1_H, hX, hH, hC, hWl, hWr, hbl, hbr, hTL, hTR, hM1, hM2, hM3, hM4,
      levelH_eq lf1 _ _ _ _ _ _ _ (fun i => lit0 (S1024.rowMajor i)) (fun i => lit1 (S1024.rowMajor i)) (constantI S1024 1 0#1) (constantI S1024 1 0#1) (constantI S1024 1 0#1) (constantI S1024 1 0#1)
        (by decide) tbl1L' tbl1R' (fun _ => rfl) (fun _ => rfl) (fun _ => rfl) (fun _ => rfl)]
    rfl
  · unfold Vs1
    rw [stage1_C, hX, hH, hC, hWl, hWr, hbl, hbr, hTL, hTR, hM1, hM2, hM3, hM4,
      levelC_eq lf1 _ _ _ _ _ _ _ (fun i => lit0 (S1024.rowMajor i)) (fun i => lit1 (S1024.rowMajor i)) (constantI S1024 1 0#1) (constantI S1024 1 0#1) (constantI S1024 1 0#1) (constantI S1024 1 0#1)
        (by decide) tbl1L' tbl1R' (fun _ => rfl) (fun _ => rfl) (fun _ => rfl) (fun _ => rfl)]
    rfl

/-! ### Stage 2: the 512 nodes from row 511 -/

theorem tbl2L : ∀ i : Fin 512, lit2 i = BitVec.ofNat 32 (2 * (511 + i.val) + 1) := by decide +kernel
theorem tbl2R : ∀ i : Fin 512, lit3 i = BitVec.ofNat 32 (2 * (511 + i.val) + 2) := by decide +kernel
theorem tbl2L' (t : Fin 512) :
    (fun i => lit2 (S512.rowMajor i) : IVec (TI 512) 32) (ix1 t) = BitVec.ofNat 32 (2 * (511 + t.val) + 1) :=
  (congrArg lit2 (Fin.ext (Shape.rowMajor_val_one (d := ![512]) (ix1 t)))).trans (tbl2L t)
theorem tbl2R' (t : Fin 512) :
    (fun i => lit3 (S512.rowMajor i) : IVec (TI 512) 32) (ix1 t) = BitVec.ofNat 32 (2 * (511 + t.val) + 2) :=
  (congrArg lit3 (Fin.ext (Shape.rowMajor_val_one (d := ![512]) (ix1 t)))).trans (tbl2R t)

theorem inv2 (V : Valuation τ sig (Elt Ideal)) :
    Vs2 V (Proc.devRef .tc main_v193) = unc3 (St V 2).1 ∧ Vs2 V (Proc.devRef .tc main_v191) = unc3 (St V 2).2 := by
  have hX : Vs1 V (Proc.devRef .tc main_v3) = unc3 (Xs V) := by rw [Vs1_keep V late_main_v3, hX_of]
  have hH := (inv1 V).1
  have hC := (inv1 V).2
  have hWl : Vs1 V (Proc.devRef .tc main_arg2) = V (Proc.devRef .tc main_arg2) := by rw [Vs1_keep V late_main_arg2, Vpre_main_arg2]
  have hWr : Vs1 V (Proc.devRef .tc main_arg3) = V (Proc.devRef .tc main_arg3) := by rw [Vs1_keep V late_main_arg3, Vpre_main_arg3]
  have hbl : Vs1 V (Proc.devRef .tc main_arg5) = V (Proc.devRef .tc main_arg5) := by rw [Vs1_keep V late_main_arg5, Vpre_main_arg5]
  have hbr : Vs1 V (Proc.devRef .tc main_arg6) = V (Proc.devRef .tc main_arg6) := by rw [Vs1_keep V late_main_arg6, Vpre_main_arg6]
  have hTL : Vs1 V (Proc.devRef .tc main_c_5) = (fun i => lit2 (S512.rowMajor i)) := by rw [Vs1_keep V late_main_c_5, Vpre_main_c_5]
  have hTR : Vs1 V (Proc.devRef .tc main_c_7) = (fun i => lit3 (S512.rowMajor i)) := by rw [Vs1_keep V late_main_c_7, Vpre_main_c_7]
  have hM1 : Vs1 V (Proc.devRef .tc main_c_6) = (constantI S512 1 0#1) := by rw [Vs1_keep V late_main_c_6, Vpre_main_c_6]
  have hM2 : Vs1 V (Proc.devRef .tc main_c_8) = (constantI S512 1 0#1) := by rw [Vs1_keep V late_main_c_8, Vpre_main_c_8]
  have hM3 : Vs1 V (Proc.devRef .tc main_c_9) = (constantI S512 1 0#1) := by rw [Vs1_keep V late_main_c_9, Vpre_main_c_9]
  have hM4 : Vs1 V (Proc.devRef .tc main_c_10) = (constantI S512 1 0#1) := by rw [Vs1_keep V late_main_c_10, Vpre_main_c_10]
  constructor
  · unfold Vs2
    rw [stage2_H, hX, hH, hC, hWl, hWr, hbl, hbr, hTL, hTR, hM1, hM2, hM3, hM4,
      levelH_eq lf2 _ _ _ _ _ _ _ (fun i => lit2 (S512.rowMajor i)) (fun i => lit3 (S512.rowMajor i)) (constantI S512 1 0#1) (constantI S512 1 0#1) (constantI S512 1 0#1) (constantI S512 1 0#1)
        (by decide) tbl2L' tbl2R' (fun _ => rfl) (fun _ => rfl) (fun _ => rfl) (fun _ => rfl)]
    rfl
  · unfold Vs2
    rw [stage2_C, hX, hH, hC, hWl, hWr, hbl, hbr, hTL, hTR, hM1, hM2, hM3, hM4,
      levelC_eq lf2 _ _ _ _ _ _ _ (fun i => lit2 (S512.rowMajor i)) (fun i => lit3 (S512.rowMajor i)) (constantI S512 1 0#1) (constantI S512 1 0#1) (constantI S512 1 0#1) (constantI S512 1 0#1)
        (by decide) tbl2L' tbl2R' (fun _ => rfl) (fun _ => rfl) (fun _ => rfl) (fun _ => rfl)]
    rfl

/-! ### Stage 3: the 256 nodes from row 255 -/

theorem tbl3L : ∀ i : Fin 256, lit4 i = BitVec.ofNat 32 (2 * (255 + i.val) + 1) := by decide +kernel
theorem tbl3R : ∀ i : Fin 256, lit5 i = BitVec.ofNat 32 (2 * (255 + i.val) + 2) := by decide +kernel
theorem tbl3L' (t : Fin 256) :
    (fun i => lit4 (S256.rowMajor i) : IVec (TI 256) 32) (ix1 t) = BitVec.ofNat 32 (2 * (255 + t.val) + 1) :=
  (congrArg lit4 (Fin.ext (Shape.rowMajor_val_one (d := ![256]) (ix1 t)))).trans (tbl3L t)
theorem tbl3R' (t : Fin 256) :
    (fun i => lit5 (S256.rowMajor i) : IVec (TI 256) 32) (ix1 t) = BitVec.ofNat 32 (2 * (255 + t.val) + 2) :=
  (congrArg lit5 (Fin.ext (Shape.rowMajor_val_one (d := ![256]) (ix1 t)))).trans (tbl3R t)

theorem inv3 (V : Valuation τ sig (Elt Ideal)) :
    Vs3 V (Proc.devRef .tc main_v265) = unc3 (St V 3).1 ∧ Vs3 V (Proc.devRef .tc main_v263) = unc3 (St V 3).2 := by
  have hX : Vs2 V (Proc.devRef .tc main_v3) = unc3 (Xs V) := by rw [Vs2_keep V late_main_v3, hX_of]
  have hH := (inv2 V).1
  have hC := (inv2 V).2
  have hWl : Vs2 V (Proc.devRef .tc main_arg2) = V (Proc.devRef .tc main_arg2) := by rw [Vs2_keep V late_main_arg2, Vpre_main_arg2]
  have hWr : Vs2 V (Proc.devRef .tc main_arg3) = V (Proc.devRef .tc main_arg3) := by rw [Vs2_keep V late_main_arg3, Vpre_main_arg3]
  have hbl : Vs2 V (Proc.devRef .tc main_arg5) = V (Proc.devRef .tc main_arg5) := by rw [Vs2_keep V late_main_arg5, Vpre_main_arg5]
  have hbr : Vs2 V (Proc.devRef .tc main_arg6) = V (Proc.devRef .tc main_arg6) := by rw [Vs2_keep V late_main_arg6, Vpre_main_arg6]
  have hTL : Vs2 V (Proc.devRef .tc main_c_11) = (fun i => lit4 (S256.rowMajor i)) := by rw [Vs2_keep V late_main_c_11, Vpre_main_c_11]
  have hTR : Vs2 V (Proc.devRef .tc main_c_13) = (fun i => lit5 (S256.rowMajor i)) := by rw [Vs2_keep V late_main_c_13, Vpre_main_c_13]
  have hM1 : Vs2 V (Proc.devRef .tc main_c_12) = (constantI S256 1 0#1) := by rw [Vs2_keep V late_main_c_12, Vpre_main_c_12]
  have hM2 : Vs2 V (Proc.devRef .tc main_c_14) = (constantI S256 1 0#1) := by rw [Vs2_keep V late_main_c_14, Vpre_main_c_14]
  have hM3 : Vs2 V (Proc.devRef .tc main_c_15) = (constantI S256 1 0#1) := by rw [Vs2_keep V late_main_c_15, Vpre_main_c_15]
  have hM4 : Vs2 V (Proc.devRef .tc main_c_16) = (constantI S256 1 0#1) := by rw [Vs2_keep V late_main_c_16, Vpre_main_c_16]
  constructor
  · unfold Vs3
    rw [stage3_H, hX, hH, hC, hWl, hWr, hbl, hbr, hTL, hTR, hM1, hM2, hM3, hM4,
      levelH_eq lf3 _ _ _ _ _ _ _ (fun i => lit4 (S256.rowMajor i)) (fun i => lit5 (S256.rowMajor i)) (constantI S256 1 0#1) (constantI S256 1 0#1) (constantI S256 1 0#1) (constantI S256 1 0#1)
        (by decide) tbl3L' tbl3R' (fun _ => rfl) (fun _ => rfl) (fun _ => rfl) (fun _ => rfl)]
    rfl
  · unfold Vs3
    rw [stage3_C, hX, hH, hC, hWl, hWr, hbl, hbr, hTL, hTR, hM1, hM2, hM3, hM4,
      levelC_eq lf3 _ _ _ _ _ _ _ (fun i => lit4 (S256.rowMajor i)) (fun i => lit5 (S256.rowMajor i)) (constantI S256 1 0#1) (constantI S256 1 0#1) (constantI S256 1 0#1) (constantI S256 1 0#1)
        (by decide) tbl3L' tbl3R' (fun _ => rfl) (fun _ => rfl) (fun _ => rfl) (fun _ => rfl)]
    rfl

/-! ### Stage 4: the 128 nodes from row 127 -/

theorem tbl4L : ∀ i : Fin 128, lit6 i = BitVec.ofNat 32 (2 * (127 + i.val) + 1) := by decide +kernel
theorem tbl4R : ∀ i : Fin 128, lit7 i = BitVec.ofNat 32 (2 * (127 + i.val) + 2) := by decide +kernel
theorem tbl4L' (t : Fin 128) :
    (fun i => lit6 (S128.rowMajor i) : IVec (TI 128) 32) (ix1 t) = BitVec.ofNat 32 (2 * (127 + t.val) + 1) :=
  (congrArg lit6 (Fin.ext (Shape.rowMajor_val_one (d := ![128]) (ix1 t)))).trans (tbl4L t)
theorem tbl4R' (t : Fin 128) :
    (fun i => lit7 (S128.rowMajor i) : IVec (TI 128) 32) (ix1 t) = BitVec.ofNat 32 (2 * (127 + t.val) + 2) :=
  (congrArg lit7 (Fin.ext (Shape.rowMajor_val_one (d := ![128]) (ix1 t)))).trans (tbl4R t)

theorem inv4 (V : Valuation τ sig (Elt Ideal)) :
    Vs4 V (Proc.devRef .tc main_v337) = unc3 (St V 4).1 ∧ Vs4 V (Proc.devRef .tc main_v335) = unc3 (St V 4).2 := by
  have hX : Vs3 V (Proc.devRef .tc main_v3) = unc3 (Xs V) := by rw [Vs3_keep V late_main_v3, hX_of]
  have hH := (inv3 V).1
  have hC := (inv3 V).2
  have hWl : Vs3 V (Proc.devRef .tc main_arg2) = V (Proc.devRef .tc main_arg2) := by rw [Vs3_keep V late_main_arg2, Vpre_main_arg2]
  have hWr : Vs3 V (Proc.devRef .tc main_arg3) = V (Proc.devRef .tc main_arg3) := by rw [Vs3_keep V late_main_arg3, Vpre_main_arg3]
  have hbl : Vs3 V (Proc.devRef .tc main_arg5) = V (Proc.devRef .tc main_arg5) := by rw [Vs3_keep V late_main_arg5, Vpre_main_arg5]
  have hbr : Vs3 V (Proc.devRef .tc main_arg6) = V (Proc.devRef .tc main_arg6) := by rw [Vs3_keep V late_main_arg6, Vpre_main_arg6]
  have hTL : Vs3 V (Proc.devRef .tc main_c_17) = (fun i => lit6 (S128.rowMajor i)) := by rw [Vs3_keep V late_main_c_17, Vpre_main_c_17]
  have hTR : Vs3 V (Proc.devRef .tc main_c_19) = (fun i => lit7 (S128.rowMajor i)) := by rw [Vs3_keep V late_main_c_19, Vpre_main_c_19]
  have hM1 : Vs3 V (Proc.devRef .tc main_c_18) = (constantI S128 1 0#1) := by rw [Vs3_keep V late_main_c_18, Vpre_main_c_18]
  have hM2 : Vs3 V (Proc.devRef .tc main_c_20) = (constantI S128 1 0#1) := by rw [Vs3_keep V late_main_c_20, Vpre_main_c_20]
  have hM3 : Vs3 V (Proc.devRef .tc main_c_21) = (constantI S128 1 0#1) := by rw [Vs3_keep V late_main_c_21, Vpre_main_c_21]
  have hM4 : Vs3 V (Proc.devRef .tc main_c_22) = (constantI S128 1 0#1) := by rw [Vs3_keep V late_main_c_22, Vpre_main_c_22]
  constructor
  · unfold Vs4
    rw [stage4_H, hX, hH, hC, hWl, hWr, hbl, hbr, hTL, hTR, hM1, hM2, hM3, hM4,
      levelH_eq lf4 _ _ _ _ _ _ _ (fun i => lit6 (S128.rowMajor i)) (fun i => lit7 (S128.rowMajor i)) (constantI S128 1 0#1) (constantI S128 1 0#1) (constantI S128 1 0#1) (constantI S128 1 0#1)
        (by decide) tbl4L' tbl4R' (fun _ => rfl) (fun _ => rfl) (fun _ => rfl) (fun _ => rfl)]
    rfl
  · unfold Vs4
    rw [stage4_C, hX, hH, hC, hWl, hWr, hbl, hbr, hTL, hTR, hM1, hM2, hM3, hM4,
      levelC_eq lf4 _ _ _ _ _ _ _ (fun i => lit6 (S128.rowMajor i)) (fun i => lit7 (S128.rowMajor i)) (constantI S128 1 0#1) (constantI S128 1 0#1) (constantI S128 1 0#1) (constantI S128 1 0#1)
        (by decide) tbl4L' tbl4R' (fun _ => rfl) (fun _ => rfl) (fun _ => rfl) (fun _ => rfl)]
    rfl

/-! ### Stage 5: the 64 nodes from row 63 -/

theorem tbl5L : ∀ i : Fin 64, lit8 i = BitVec.ofNat 32 (2 * (63 + i.val) + 1) := by decide +kernel
theorem tbl5R : ∀ i : Fin 64, lit9 i = BitVec.ofNat 32 (2 * (63 + i.val) + 2) := by decide +kernel
theorem tbl5L' (t : Fin 64) :
    (fun i => lit8 (S64.rowMajor i) : IVec (TI 64) 32) (ix1 t) = BitVec.ofNat 32 (2 * (63 + t.val) + 1) :=
  (congrArg lit8 (Fin.ext (Shape.rowMajor_val_one (d := ![64]) (ix1 t)))).trans (tbl5L t)
theorem tbl5R' (t : Fin 64) :
    (fun i => lit9 (S64.rowMajor i) : IVec (TI 64) 32) (ix1 t) = BitVec.ofNat 32 (2 * (63 + t.val) + 2) :=
  (congrArg lit9 (Fin.ext (Shape.rowMajor_val_one (d := ![64]) (ix1 t)))).trans (tbl5R t)

theorem inv5 (V : Valuation τ sig (Elt Ideal)) :
    Vs5 V (Proc.devRef .tc main_v409) = unc3 (St V 5).1 ∧ Vs5 V (Proc.devRef .tc main_v407) = unc3 (St V 5).2 := by
  have hX : Vs4 V (Proc.devRef .tc main_v3) = unc3 (Xs V) := by rw [Vs4_keep V late_main_v3, hX_of]
  have hH := (inv4 V).1
  have hC := (inv4 V).2
  have hWl : Vs4 V (Proc.devRef .tc main_arg2) = V (Proc.devRef .tc main_arg2) := by rw [Vs4_keep V late_main_arg2, Vpre_main_arg2]
  have hWr : Vs4 V (Proc.devRef .tc main_arg3) = V (Proc.devRef .tc main_arg3) := by rw [Vs4_keep V late_main_arg3, Vpre_main_arg3]
  have hbl : Vs4 V (Proc.devRef .tc main_arg5) = V (Proc.devRef .tc main_arg5) := by rw [Vs4_keep V late_main_arg5, Vpre_main_arg5]
  have hbr : Vs4 V (Proc.devRef .tc main_arg6) = V (Proc.devRef .tc main_arg6) := by rw [Vs4_keep V late_main_arg6, Vpre_main_arg6]
  have hTL : Vs4 V (Proc.devRef .tc main_c_23) = (fun i => lit8 (S64.rowMajor i)) := by rw [Vs4_keep V late_main_c_23, Vpre_main_c_23]
  have hTR : Vs4 V (Proc.devRef .tc main_c_25) = (fun i => lit9 (S64.rowMajor i)) := by rw [Vs4_keep V late_main_c_25, Vpre_main_c_25]
  have hM1 : Vs4 V (Proc.devRef .tc main_c_24) = (constantI S64 1 0#1) := by rw [Vs4_keep V late_main_c_24, Vpre_main_c_24]
  have hM2 : Vs4 V (Proc.devRef .tc main_c_26) = (constantI S64 1 0#1) := by rw [Vs4_keep V late_main_c_26, Vpre_main_c_26]
  have hM3 : Vs4 V (Proc.devRef .tc main_c_27) = (constantI S64 1 0#1) := by rw [Vs4_keep V late_main_c_27, Vpre_main_c_27]
  have hM4 : Vs4 V (Proc.devRef .tc main_c_28) = (constantI S64 1 0#1) := by rw [Vs4_keep V late_main_c_28, Vpre_main_c_28]
  constructor
  · unfold Vs5
    rw [stage5_H, hX, hH, hC, hWl, hWr, hbl, hbr, hTL, hTR, hM1, hM2, hM3, hM4,
      levelH_eq lf5 _ _ _ _ _ _ _ (fun i => lit8 (S64.rowMajor i)) (fun i => lit9 (S64.rowMajor i)) (constantI S64 1 0#1) (constantI S64 1 0#1) (constantI S64 1 0#1) (constantI S64 1 0#1)
        (by decide) tbl5L' tbl5R' (fun _ => rfl) (fun _ => rfl) (fun _ => rfl) (fun _ => rfl)]
    rfl
  · unfold Vs5
    rw [stage5_C, hX, hH, hC, hWl, hWr, hbl, hbr, hTL, hTR, hM1, hM2, hM3, hM4,
      levelC_eq lf5 _ _ _ _ _ _ _ (fun i => lit8 (S64.rowMajor i)) (fun i => lit9 (S64.rowMajor i)) (constantI S64 1 0#1) (constantI S64 1 0#1) (constantI S64 1 0#1) (constantI S64 1 0#1)
        (by decide) tbl5L' tbl5R' (fun _ => rfl) (fun _ => rfl) (fun _ => rfl) (fun _ => rfl)]
    rfl

/-! ### Stage 6: the 32 nodes from row 31 -/

theorem tbl6L : ∀ i : Fin 32, lit10 i = BitVec.ofNat 32 (2 * (31 + i.val) + 1) := by decide +kernel
theorem tbl6R : ∀ i : Fin 32, lit11 i = BitVec.ofNat 32 (2 * (31 + i.val) + 2) := by decide +kernel
theorem tbl6L' (t : Fin 32) :
    (fun i => lit10 (S32.rowMajor i) : IVec (TI 32) 32) (ix1 t) = BitVec.ofNat 32 (2 * (31 + t.val) + 1) :=
  (congrArg lit10 (Fin.ext (Shape.rowMajor_val_one (d := ![32]) (ix1 t)))).trans (tbl6L t)
theorem tbl6R' (t : Fin 32) :
    (fun i => lit11 (S32.rowMajor i) : IVec (TI 32) 32) (ix1 t) = BitVec.ofNat 32 (2 * (31 + t.val) + 2) :=
  (congrArg lit11 (Fin.ext (Shape.rowMajor_val_one (d := ![32]) (ix1 t)))).trans (tbl6R t)

theorem inv6 (V : Valuation τ sig (Elt Ideal)) :
    Vs6 V (Proc.devRef .tc main_v481) = unc3 (St V 6).1 ∧ Vs6 V (Proc.devRef .tc main_v479) = unc3 (St V 6).2 := by
  have hX : Vs5 V (Proc.devRef .tc main_v3) = unc3 (Xs V) := by rw [Vs5_keep V late_main_v3, hX_of]
  have hH := (inv5 V).1
  have hC := (inv5 V).2
  have hWl : Vs5 V (Proc.devRef .tc main_arg2) = V (Proc.devRef .tc main_arg2) := by rw [Vs5_keep V late_main_arg2, Vpre_main_arg2]
  have hWr : Vs5 V (Proc.devRef .tc main_arg3) = V (Proc.devRef .tc main_arg3) := by rw [Vs5_keep V late_main_arg3, Vpre_main_arg3]
  have hbl : Vs5 V (Proc.devRef .tc main_arg5) = V (Proc.devRef .tc main_arg5) := by rw [Vs5_keep V late_main_arg5, Vpre_main_arg5]
  have hbr : Vs5 V (Proc.devRef .tc main_arg6) = V (Proc.devRef .tc main_arg6) := by rw [Vs5_keep V late_main_arg6, Vpre_main_arg6]
  have hTL : Vs5 V (Proc.devRef .tc main_c_29) = (fun i => lit10 (S32.rowMajor i)) := by rw [Vs5_keep V late_main_c_29, Vpre_main_c_29]
  have hTR : Vs5 V (Proc.devRef .tc main_c_31) = (fun i => lit11 (S32.rowMajor i)) := by rw [Vs5_keep V late_main_c_31, Vpre_main_c_31]
  have hM1 : Vs5 V (Proc.devRef .tc main_c_30) = (constantI S32 1 0#1) := by rw [Vs5_keep V late_main_c_30, Vpre_main_c_30]
  have hM2 : Vs5 V (Proc.devRef .tc main_c_32) = (constantI S32 1 0#1) := by rw [Vs5_keep V late_main_c_32, Vpre_main_c_32]
  have hM3 : Vs5 V (Proc.devRef .tc main_c_33) = (constantI S32 1 0#1) := by rw [Vs5_keep V late_main_c_33, Vpre_main_c_33]
  have hM4 : Vs5 V (Proc.devRef .tc main_c_34) = (constantI S32 1 0#1) := by rw [Vs5_keep V late_main_c_34, Vpre_main_c_34]
  constructor
  · unfold Vs6
    rw [stage6_H, hX, hH, hC, hWl, hWr, hbl, hbr, hTL, hTR, hM1, hM2, hM3, hM4,
      levelH_eq lf6 _ _ _ _ _ _ _ (fun i => lit10 (S32.rowMajor i)) (fun i => lit11 (S32.rowMajor i)) (constantI S32 1 0#1) (constantI S32 1 0#1) (constantI S32 1 0#1) (constantI S32 1 0#1)
        (by decide) tbl6L' tbl6R' (fun _ => rfl) (fun _ => rfl) (fun _ => rfl) (fun _ => rfl)]
    rfl
  · unfold Vs6
    rw [stage6_C, hX, hH, hC, hWl, hWr, hbl, hbr, hTL, hTR, hM1, hM2, hM3, hM4,
      levelC_eq lf6 _ _ _ _ _ _ _ (fun i => lit10 (S32.rowMajor i)) (fun i => lit11 (S32.rowMajor i)) (constantI S32 1 0#1) (constantI S32 1 0#1) (constantI S32 1 0#1) (constantI S32 1 0#1)
        (by decide) tbl6L' tbl6R' (fun _ => rfl) (fun _ => rfl) (fun _ => rfl) (fun _ => rfl)]
    rfl

/-! ### Stage 7: the 16 nodes from row 15 -/

theorem tbl7L : ∀ i : Fin 16, lit12 i = BitVec.ofNat 32 (2 * (15 + i.val) + 1) := by decide +kernel
theorem tbl7R : ∀ i : Fin 16, lit13 i = BitVec.ofNat 32 (2 * (15 + i.val) + 2) := by decide +kernel
theorem tbl7L' (t : Fin 16) :
    (fun i => lit12 (S16.rowMajor i) : IVec (TI 16) 32) (ix1 t) = BitVec.ofNat 32 (2 * (15 + t.val) + 1) :=
  (congrArg lit12 (Fin.ext (Shape.rowMajor_val_one (d := ![16]) (ix1 t)))).trans (tbl7L t)
theorem tbl7R' (t : Fin 16) :
    (fun i => lit13 (S16.rowMajor i) : IVec (TI 16) 32) (ix1 t) = BitVec.ofNat 32 (2 * (15 + t.val) + 2) :=
  (congrArg lit13 (Fin.ext (Shape.rowMajor_val_one (d := ![16]) (ix1 t)))).trans (tbl7R t)

theorem inv7 (V : Valuation τ sig (Elt Ideal)) :
    Vs7 V (Proc.devRef .tc main_v553) = unc3 (St V 7).1 ∧ Vs7 V (Proc.devRef .tc main_v551) = unc3 (St V 7).2 := by
  have hX : Vs6 V (Proc.devRef .tc main_v3) = unc3 (Xs V) := by rw [Vs6_keep V late_main_v3, hX_of]
  have hH := (inv6 V).1
  have hC := (inv6 V).2
  have hWl : Vs6 V (Proc.devRef .tc main_arg2) = V (Proc.devRef .tc main_arg2) := by rw [Vs6_keep V late_main_arg2, Vpre_main_arg2]
  have hWr : Vs6 V (Proc.devRef .tc main_arg3) = V (Proc.devRef .tc main_arg3) := by rw [Vs6_keep V late_main_arg3, Vpre_main_arg3]
  have hbl : Vs6 V (Proc.devRef .tc main_arg5) = V (Proc.devRef .tc main_arg5) := by rw [Vs6_keep V late_main_arg5, Vpre_main_arg5]
  have hbr : Vs6 V (Proc.devRef .tc main_arg6) = V (Proc.devRef .tc main_arg6) := by rw [Vs6_keep V late_main_arg6, Vpre_main_arg6]
  have hTL : Vs6 V (Proc.devRef .tc main_c_35) = (fun i => lit12 (S16.rowMajor i)) := by rw [Vs6_keep V late_main_c_35, Vpre_main_c_35]
  have hTR : Vs6 V (Proc.devRef .tc main_c_37) = (fun i => lit13 (S16.rowMajor i)) := by rw [Vs6_keep V late_main_c_37, Vpre_main_c_37]
  have hM1 : Vs6 V (Proc.devRef .tc main_c_36) = (constantI S16 1 0#1) := by rw [Vs6_keep V late_main_c_36, Vpre_main_c_36]
  have hM2 : Vs6 V (Proc.devRef .tc main_c_38) = (constantI S16 1 0#1) := by rw [Vs6_keep V late_main_c_38, Vpre_main_c_38]
  have hM3 : Vs6 V (Proc.devRef .tc main_c_39) = (constantI S16 1 0#1) := by rw [Vs6_keep V late_main_c_39, Vpre_main_c_39]
  have hM4 : Vs6 V (Proc.devRef .tc main_c_40) = (constantI S16 1 0#1) := by rw [Vs6_keep V late_main_c_40, Vpre_main_c_40]
  constructor
  · unfold Vs7
    rw [stage7_H, hX, hH, hC, hWl, hWr, hbl, hbr, hTL, hTR, hM1, hM2, hM3, hM4,
      levelH_eq lf7 _ _ _ _ _ _ _ (fun i => lit12 (S16.rowMajor i)) (fun i => lit13 (S16.rowMajor i)) (constantI S16 1 0#1) (constantI S16 1 0#1) (constantI S16 1 0#1) (constantI S16 1 0#1)
        (by decide) tbl7L' tbl7R' (fun _ => rfl) (fun _ => rfl) (fun _ => rfl) (fun _ => rfl)]
    rfl
  · unfold Vs7
    rw [stage7_C, hX, hH, hC, hWl, hWr, hbl, hbr, hTL, hTR, hM1, hM2, hM3, hM4,
      levelC_eq lf7 _ _ _ _ _ _ _ (fun i => lit12 (S16.rowMajor i)) (fun i => lit13 (S16.rowMajor i)) (constantI S16 1 0#1) (constantI S16 1 0#1) (constantI S16 1 0#1) (constantI S16 1 0#1)
        (by decide) tbl7L' tbl7R' (fun _ => rfl) (fun _ => rfl) (fun _ => rfl) (fun _ => rfl)]
    rfl

/-! ### Stage 8: the 8 nodes from row 7 -/

theorem tbl8L : ∀ i : Fin 8, lit14 i = BitVec.ofNat 32 (2 * (7 + i.val) + 1) := by decide +kernel
theorem tbl8R : ∀ i : Fin 8, lit15 i = BitVec.ofNat 32 (2 * (7 + i.val) + 2) := by decide +kernel
theorem tbl8L' (t : Fin 8) :
    (fun i => lit14 (S8.rowMajor i) : IVec (TI 8) 32) (ix1 t) = BitVec.ofNat 32 (2 * (7 + t.val) + 1) :=
  (congrArg lit14 (Fin.ext (Shape.rowMajor_val_one (d := ![8]) (ix1 t)))).trans (tbl8L t)
theorem tbl8R' (t : Fin 8) :
    (fun i => lit15 (S8.rowMajor i) : IVec (TI 8) 32) (ix1 t) = BitVec.ofNat 32 (2 * (7 + t.val) + 2) :=
  (congrArg lit15 (Fin.ext (Shape.rowMajor_val_one (d := ![8]) (ix1 t)))).trans (tbl8R t)

theorem inv8 (V : Valuation τ sig (Elt Ideal)) :
    Vs8 V (Proc.devRef .tc main_v625) = unc3 (St V 8).1 ∧ Vs8 V (Proc.devRef .tc main_v623) = unc3 (St V 8).2 := by
  have hX : Vs7 V (Proc.devRef .tc main_v3) = unc3 (Xs V) := by rw [Vs7_keep V late_main_v3, hX_of]
  have hH := (inv7 V).1
  have hC := (inv7 V).2
  have hWl : Vs7 V (Proc.devRef .tc main_arg2) = V (Proc.devRef .tc main_arg2) := by rw [Vs7_keep V late_main_arg2, Vpre_main_arg2]
  have hWr : Vs7 V (Proc.devRef .tc main_arg3) = V (Proc.devRef .tc main_arg3) := by rw [Vs7_keep V late_main_arg3, Vpre_main_arg3]
  have hbl : Vs7 V (Proc.devRef .tc main_arg5) = V (Proc.devRef .tc main_arg5) := by rw [Vs7_keep V late_main_arg5, Vpre_main_arg5]
  have hbr : Vs7 V (Proc.devRef .tc main_arg6) = V (Proc.devRef .tc main_arg6) := by rw [Vs7_keep V late_main_arg6, Vpre_main_arg6]
  have hTL : Vs7 V (Proc.devRef .tc main_c_41) = (fun i => lit14 (S8.rowMajor i)) := by rw [Vs7_keep V late_main_c_41, Vpre_main_c_41]
  have hTR : Vs7 V (Proc.devRef .tc main_c_43) = (fun i => lit15 (S8.rowMajor i)) := by rw [Vs7_keep V late_main_c_43, Vpre_main_c_43]
  have hM1 : Vs7 V (Proc.devRef .tc main_c_42) = (constantI S8 1 0#1) := by rw [Vs7_keep V late_main_c_42, Vpre_main_c_42]
  have hM2 : Vs7 V (Proc.devRef .tc main_c_44) = (constantI S8 1 0#1) := by rw [Vs7_keep V late_main_c_44, Vpre_main_c_44]
  have hM3 : Vs7 V (Proc.devRef .tc main_c_45) = (constantI S8 1 0#1) := by rw [Vs7_keep V late_main_c_45, Vpre_main_c_45]
  have hM4 : Vs7 V (Proc.devRef .tc main_c_46) = (constantI S8 1 0#1) := by rw [Vs7_keep V late_main_c_46, Vpre_main_c_46]
  constructor
  · unfold Vs8
    rw [stage8_H, hX, hH, hC, hWl, hWr, hbl, hbr, hTL, hTR, hM1, hM2, hM3, hM4,
      levelH_eq lf8 _ _ _ _ _ _ _ (fun i => lit14 (S8.rowMajor i)) (fun i => lit15 (S8.rowMajor i)) (constantI S8 1 0#1) (constantI S8 1 0#1) (constantI S8 1 0#1) (constantI S8 1 0#1)
        (by decide) tbl8L' tbl8R' (fun _ => rfl) (fun _ => rfl) (fun _ => rfl) (fun _ => rfl)]
    rfl
  · unfold Vs8
    rw [stage8_C, hX, hH, hC, hWl, hWr, hbl, hbr, hTL, hTR, hM1, hM2, hM3, hM4,
      levelC_eq lf8 _ _ _ _ _ _ _ (fun i => lit14 (S8.rowMajor i)) (fun i => lit15 (S8.rowMajor i)) (constantI S8 1 0#1) (constantI S8 1 0#1) (constantI S8 1 0#1) (constantI S8 1 0#1)
        (by decide) tbl8L' tbl8R' (fun _ => rfl) (fun _ => rfl) (fun _ => rfl) (fun _ => rfl)]
    rfl

/-! ### Stage 9: the 4 nodes from row 3 -/

theorem tbl9L : ∀ i : Fin 4, lit16 i = BitVec.ofNat 32 (2 * (3 + i.val) + 1) := by decide +kernel
theorem tbl9R : ∀ i : Fin 4, lit17 i = BitVec.ofNat 32 (2 * (3 + i.val) + 2) := by decide +kernel
theorem tbl9L' (t : Fin 4) :
    (fun i => lit16 (S4.rowMajor i) : IVec (TI 4) 32) (ix1 t) = BitVec.ofNat 32 (2 * (3 + t.val) + 1) :=
  (congrArg lit16 (Fin.ext (Shape.rowMajor_val_one (d := ![4]) (ix1 t)))).trans (tbl9L t)
theorem tbl9R' (t : Fin 4) :
    (fun i => lit17 (S4.rowMajor i) : IVec (TI 4) 32) (ix1 t) = BitVec.ofNat 32 (2 * (3 + t.val) + 2) :=
  (congrArg lit17 (Fin.ext (Shape.rowMajor_val_one (d := ![4]) (ix1 t)))).trans (tbl9R t)

theorem inv9 (V : Valuation τ sig (Elt Ideal)) :
    Vs9 V (Proc.devRef .tc main_v697) = unc3 (St V 9).1 ∧ Vs9 V (Proc.devRef .tc main_v695) = unc3 (St V 9).2 := by
  have hX : Vs8 V (Proc.devRef .tc main_v3) = unc3 (Xs V) := by rw [Vs8_keep V late_main_v3, hX_of]
  have hH := (inv8 V).1
  have hC := (inv8 V).2
  have hWl : Vs8 V (Proc.devRef .tc main_arg2) = V (Proc.devRef .tc main_arg2) := by rw [Vs8_keep V late_main_arg2, Vpre_main_arg2]
  have hWr : Vs8 V (Proc.devRef .tc main_arg3) = V (Proc.devRef .tc main_arg3) := by rw [Vs8_keep V late_main_arg3, Vpre_main_arg3]
  have hbl : Vs8 V (Proc.devRef .tc main_arg5) = V (Proc.devRef .tc main_arg5) := by rw [Vs8_keep V late_main_arg5, Vpre_main_arg5]
  have hbr : Vs8 V (Proc.devRef .tc main_arg6) = V (Proc.devRef .tc main_arg6) := by rw [Vs8_keep V late_main_arg6, Vpre_main_arg6]
  have hTL : Vs8 V (Proc.devRef .tc main_c_47) = (fun i => lit16 (S4.rowMajor i)) := by rw [Vs8_keep V late_main_c_47, Vpre_main_c_47]
  have hTR : Vs8 V (Proc.devRef .tc main_c_49) = (fun i => lit17 (S4.rowMajor i)) := by rw [Vs8_keep V late_main_c_49, Vpre_main_c_49]
  have hM1 : Vs8 V (Proc.devRef .tc main_c_48) = (constantI S4 1 0#1) := by rw [Vs8_keep V late_main_c_48, Vpre_main_c_48]
  have hM2 : Vs8 V (Proc.devRef .tc main_c_50) = (constantI S4 1 0#1) := by rw [Vs8_keep V late_main_c_50, Vpre_main_c_50]
  have hM3 : Vs8 V (Proc.devRef .tc main_c_51) = (constantI S4 1 0#1) := by rw [Vs8_keep V late_main_c_51, Vpre_main_c_51]
  have hM4 : Vs8 V (Proc.devRef .tc main_c_52) = (constantI S4 1 0#1) := by rw [Vs8_keep V late_main_c_52, Vpre_main_c_52]
  constructor
  · unfold Vs9
    rw [stage9_H, hX, hH, hC, hWl, hWr, hbl, hbr, hTL, hTR, hM1, hM2, hM3, hM4,
      levelH_eq lf9 _ _ _ _ _ _ _ (fun i => lit16 (S4.rowMajor i)) (fun i => lit17 (S4.rowMajor i)) (constantI S4 1 0#1) (constantI S4 1 0#1) (constantI S4 1 0#1) (constantI S4 1 0#1)
        (by decide) tbl9L' tbl9R' (fun _ => rfl) (fun _ => rfl) (fun _ => rfl) (fun _ => rfl)]
    rfl
  · unfold Vs9
    rw [stage9_C, hX, hH, hC, hWl, hWr, hbl, hbr, hTL, hTR, hM1, hM2, hM3, hM4,
      levelC_eq lf9 _ _ _ _ _ _ _ (fun i => lit16 (S4.rowMajor i)) (fun i => lit17 (S4.rowMajor i)) (constantI S4 1 0#1) (constantI S4 1 0#1) (constantI S4 1 0#1) (constantI S4 1 0#1)
        (by decide) tbl9L' tbl9R' (fun _ => rfl) (fun _ => rfl) (fun _ => rfl) (fun _ => rfl)]
    rfl

/-! ### Stage 10: the 2 nodes from row 1 -/

theorem tbl10L : ∀ i : Fin 2, lit18 i = BitVec.ofNat 32 (2 * (1 + i.val) + 1) := by decide +kernel
theorem tbl10R : ∀ i : Fin 2, lit19 i = BitVec.ofNat 32 (2 * (1 + i.val) + 2) := by decide +kernel
theorem tbl10L' (t : Fin 2) :
    (fun i => lit18 (S2.rowMajor i) : IVec (TI 2) 32) (ix1 t) = BitVec.ofNat 32 (2 * (1 + t.val) + 1) :=
  (congrArg lit18 (Fin.ext (Shape.rowMajor_val_one (d := ![2]) (ix1 t)))).trans (tbl10L t)
theorem tbl10R' (t : Fin 2) :
    (fun i => lit19 (S2.rowMajor i) : IVec (TI 2) 32) (ix1 t) = BitVec.ofNat 32 (2 * (1 + t.val) + 2) :=
  (congrArg lit19 (Fin.ext (Shape.rowMajor_val_one (d := ![2]) (ix1 t)))).trans (tbl10R t)

theorem inv10 (V : Valuation τ sig (Elt Ideal)) :
    Vs10 V (Proc.devRef .tc main_v769) = unc3 (St V 10).1 ∧ Vs10 V (Proc.devRef .tc main_v767) = unc3 (St V 10).2 := by
  have hX : Vs9 V (Proc.devRef .tc main_v3) = unc3 (Xs V) := by rw [Vs9_keep V late_main_v3, hX_of]
  have hH := (inv9 V).1
  have hC := (inv9 V).2
  have hWl : Vs9 V (Proc.devRef .tc main_arg2) = V (Proc.devRef .tc main_arg2) := by rw [Vs9_keep V late_main_arg2, Vpre_main_arg2]
  have hWr : Vs9 V (Proc.devRef .tc main_arg3) = V (Proc.devRef .tc main_arg3) := by rw [Vs9_keep V late_main_arg3, Vpre_main_arg3]
  have hbl : Vs9 V (Proc.devRef .tc main_arg5) = V (Proc.devRef .tc main_arg5) := by rw [Vs9_keep V late_main_arg5, Vpre_main_arg5]
  have hbr : Vs9 V (Proc.devRef .tc main_arg6) = V (Proc.devRef .tc main_arg6) := by rw [Vs9_keep V late_main_arg6, Vpre_main_arg6]
  have hTL : Vs9 V (Proc.devRef .tc main_c_53) = (fun i => lit18 (S2.rowMajor i)) := by rw [Vs9_keep V late_main_c_53, Vpre_main_c_53]
  have hTR : Vs9 V (Proc.devRef .tc main_c_55) = (fun i => lit19 (S2.rowMajor i)) := by rw [Vs9_keep V late_main_c_55, Vpre_main_c_55]
  have hM1 : Vs9 V (Proc.devRef .tc main_c_54) = (constantI S2 1 0#1) := by rw [Vs9_keep V late_main_c_54, Vpre_main_c_54]
  have hM2 : Vs9 V (Proc.devRef .tc main_c_56) = (constantI S2 1 0#1) := by rw [Vs9_keep V late_main_c_56, Vpre_main_c_56]
  have hM3 : Vs9 V (Proc.devRef .tc main_c_57) = (constantI S2 1 0#1) := by rw [Vs9_keep V late_main_c_57, Vpre_main_c_57]
  have hM4 : Vs9 V (Proc.devRef .tc main_c_58) = (constantI S2 1 0#1) := by rw [Vs9_keep V late_main_c_58, Vpre_main_c_58]
  constructor
  · unfold Vs10
    rw [stage10_H, hX, hH, hC, hWl, hWr, hbl, hbr, hTL, hTR, hM1, hM2, hM3, hM4,
      levelH_eq lf10 _ _ _ _ _ _ _ (fun i => lit18 (S2.rowMajor i)) (fun i => lit19 (S2.rowMajor i)) (constantI S2 1 0#1) (constantI S2 1 0#1) (constantI S2 1 0#1) (constantI S2 1 0#1)
        (by decide) tbl10L' tbl10R' (fun _ => rfl) (fun _ => rfl) (fun _ => rfl) (fun _ => rfl)]
    rfl
  · unfold Vs10
    rw [stage10_C, hX, hH, hC, hWl, hWr, hbl, hbr, hTL, hTR, hM1, hM2, hM3, hM4,
      levelC_eq lf10 _ _ _ _ _ _ _ (fun i => lit18 (S2.rowMajor i)) (fun i => lit19 (S2.rowMajor i)) (constantI S2 1 0#1) (constantI S2 1 0#1) (constantI S2 1 0#1) (constantI S2 1 0#1)
        (by decide) tbl10L' tbl10R' (fun _ => rfl) (fun _ => rfl) (fun _ => rfl) (fun _ => rfl)]
    rfl

/-! ### Stage 11: the 1 nodes from row 0 -/

theorem tbl11L' (t : Fin 1) :
    (constantI S1 32 1#32 : IVec (TI 1) 32) (ix1 t) = BitVec.ofNat 32 (2 * (0 + t.val) + 1) := by
  obtain rfl : t = 0 := Subsingleton.elim _ _
  rfl
theorem tbl11R' (t : Fin 1) :
    (constantI S1 32 2#32 : IVec (TI 1) 32) (ix1 t) = BitVec.ofNat 32 (2 * (0 + t.val) + 2) := by
  obtain rfl : t = 0 := Subsingleton.elim _ _
  rfl

theorem inv11 (V : Valuation τ sig (Elt Ideal)) :
    Vs11 V (Proc.devRef .tc main_v841) = unc3 (St V 11).1 ∧ Vs11 V (Proc.devRef .tc main_v839) = unc3 (St V 11).2 := by
  have hX : Vs10 V (Proc.devRef .tc main_v3) = unc3 (Xs V) := by rw [Vs10_keep V late_main_v3, hX_of]
  have hH := (inv10 V).1
  have hC := (inv10 V).2
  have hWl : Vs10 V (Proc.devRef .tc main_arg2) = V (Proc.devRef .tc main_arg2) := by rw [Vs10_keep V late_main_arg2, Vpre_main_arg2]
  have hWr : Vs10 V (Proc.devRef .tc main_arg3) = V (Proc.devRef .tc main_arg3) := by rw [Vs10_keep V late_main_arg3, Vpre_main_arg3]
  have hbl : Vs10 V (Proc.devRef .tc main_arg5) = V (Proc.devRef .tc main_arg5) := by rw [Vs10_keep V late_main_arg5, Vpre_main_arg5]
  have hbr : Vs10 V (Proc.devRef .tc main_arg6) = V (Proc.devRef .tc main_arg6) := by rw [Vs10_keep V late_main_arg6, Vpre_main_arg6]
  have hTL : Vs10 V (Proc.devRef .tc main_c_59) = (constantI S1 32 1#32) := by rw [Vs10_keep V late_main_c_59, Vpre_main_c_59]
  have hTR : Vs10 V (Proc.devRef .tc main_c_61) = (constantI S1 32 2#32) := by rw [Vs10_keep V late_main_c_61, Vpre_main_c_61]
  have hM1 : Vs10 V (Proc.devRef .tc main_c_60) = (constantI S1 1 0#1) := by rw [Vs10_keep V late_main_c_60, Vpre_main_c_60]
  have hM2 : Vs10 V (Proc.devRef .tc main_c_62) = (constantI S1 1 0#1) := by rw [Vs10_keep V late_main_c_62, Vpre_main_c_62]
  have hM3 : Vs10 V (Proc.devRef .tc main_c_63) = (constantI S1 1 0#1) := by rw [Vs10_keep V late_main_c_63, Vpre_main_c_63]
  have hM4 : Vs10 V (Proc.devRef .tc main_c_64) = (constantI S1 1 0#1) := by rw [Vs10_keep V late_main_c_64, Vpre_main_c_64]
  constructor
  · unfold Vs11
    rw [stage11_H, hX, hH, hC, hWl, hWr, hbl, hbr, hTL, hTR, hM1, hM2, hM3, hM4,
      levelH_eq lf11 _ _ _ _ _ _ _ (constantI S1 32 1#32) (constantI S1 32 2#32) (constantI S1 1 0#1) (constantI S1 1 0#1) (constantI S1 1 0#1) (constantI S1 1 0#1)
        (by decide) tbl11L' tbl11R' (fun _ => rfl) (fun _ => rfl) (fun _ => rfl) (fun _ => rfl)]
    rfl
  · unfold Vs11
    rw [stage11_C, hX, hH, hC, hWl, hWr, hbl, hbr, hTL, hTR, hM1, hM2, hM3, hM4,
      levelC_eq lf11 _ _ _ _ _ _ _ (constantI S1 32 1#32) (constantI S1 32 2#32) (constantI S1 1 0#1) (constantI S1 1 0#1) (constantI S1 1 0#1) (constantI S1 1 0#1)
        (by decide) tbl11L' tbl11R' (fun _ => rfl) (fun _ => rfl) (fun _ => rfl) (fun _ => rfl)]
    rfl

/-! ### The result -/

theorem after_ops_eq (V : Valuation τ sig (Elt Ideal)) : after ops V = after c31 (Vs11 V) := by
  rw [after_ops]
  rfl

set_option maxRecDepth 100000 in
theorem last_eq (U : Valuation τ sig (Elt Ideal)) :
    after c31 U (Proc.devRef .tc main_v843)
      = rootV slices_S32x4095x256_S32x1x256_0_0_0 shapeCasts_S32x1x256_S32x256 (U (Proc.devRef .tc main_v841)) := by
  simp only [c31]
  after_results_simp
  rfl

/-- The reference program's result is `TreeSpec.result` of its arguments. -/
theorem value (V : Valuation τ sig (Elt Ideal)) :
    (after ops V (Proc.devRef .tc main_v843) : AV ⟨2, ![32, 256]⟩)
      = fun i => Cert.TreeSpec.result (cur3 (V (Proc.devRef .tc main_arg0) : AV TA)) (cur2 (V (Proc.devRef .tc main_arg1) : AV TW))
          (cur2 (V (Proc.devRef .tc main_arg2) : AV TW)) (cur2 (V (Proc.devRef .tc main_arg3) : AV TW)) (cur1 (V (Proc.devRef .tc main_arg4) : AV TB))
          (cur1 (V (Proc.devRef .tc main_arg5) : AV TB)) (cur1 (V (Proc.devRef .tc main_arg6) : AV TB)) (i 0) (i 1) := by
  funext i
  obtain ⟨b, j, rfl⟩ : ∃ (b : Fin 32) (j : Fin 256), i = ix2 b j := ⟨i 0, i 1, eq_ix2 i⟩
  rw [after_ops_eq, last_eq, rootV_apply, (inv11 V).1]
  rfl

end Cert.ReferenceIdeal.RefValue

end
-- ==== Proof.RefHalf.lean ====
/-
  The reference's two claims-halves: its frame is its run with the result dropped, and from a memory agreeing
  with the kernel's on the seven arguments its result array ends at `TreeSpec.result` of the KERNEL's argument
  arrays (the reference's own arguments rewritten by the agreement).
-/
import proofs.«102109_j83099027243631_1_alg».proof.Defs
import proofs.«102109_j83099027243631_1_alg».proof.Proof.Gen.ReferenceIdeal
import proofs.«102109_j83099027243631_1_alg».proof.Proof.Gen.Pre_finite_inputs
import proofs.«102109_j83099027243631_1_alg».proof.Proof.RefValue

noncomputable section

namespace Cert.Proof.RefHalf

open Idealize.ShloMosaic Idealize.ShloMosaic.TcCoe Idealize.SL.Sem Idealize.ShloMosaic.StableHlo Cert.TreeSpec

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefValue.run (F := Ideal) m ρ)

theorem ref_half [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v843)
          = (fun i => Cert.TreeSpec.result (cur3 (m ((c.tc : Thread Cert.KernelIdeal.nD Cert.KernelIdeal.τ).loc Cert.KernelIdeal.main_arg0)))
              (cur2 (m ((c.tc : Thread Cert.KernelIdeal.nD Cert.KernelIdeal.τ).loc Cert.KernelIdeal.main_arg1)))
              (cur2 (m ((c.tc : Thread Cert.KernelIdeal.nD Cert.KernelIdeal.τ).loc Cert.KernelIdeal.main_arg2)))
              (cur2 (m ((c.tc : Thread Cert.KernelIdeal.nD Cert.KernelIdeal.τ).loc Cert.KernelIdeal.main_arg3)))
              (cur1 (m ((c.tc : Thread Cert.KernelIdeal.nD Cert.KernelIdeal.τ).loc Cert.KernelIdeal.main_arg4)))
              (cur1 (m ((c.tc : Thread Cert.KernelIdeal.nD Cert.KernelIdeal.τ).loc Cert.KernelIdeal.main_arg5)))
              (cur1 (m ((c.tc : Thread Cert.KernelIdeal.nD Cert.KernelIdeal.τ).loc Cert.KernelIdeal.main_arg6))) (i 0) (i 1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans (by
        have e0 : launchContents m' c (Proc.devRef .tc Cert.ReferenceIdeal.main_arg0) = m ((c.tc : Thread Cert.KernelIdeal.nD Cert.KernelIdeal.τ).loc Cert.KernelIdeal.main_arg0) := (hagree c).1
        have e1 : launchContents m' c (Proc.devRef .tc Cert.ReferenceIdeal.main_arg1) = m ((c.tc : Thread Cert.KernelIdeal.nD Cert.KernelIdeal.τ).loc Cert.KernelIdeal.main_arg1) := (hagree c).2.1
        have e2 : launchContents m' c (Proc.devRef .tc Cert.ReferenceIdeal.main_arg2) = m ((c.tc : Thread Cert.KernelIdeal.nD Cert.KernelIdeal.τ).loc Cert.KernelIdeal.main_arg2) := (hagree c).2.2.1
        have e3 : launchContents m' c (Proc.devRef .tc Cert.ReferenceIdeal.main_arg3) = m ((c.tc : Thread Cert.KernelIdeal.nD Cert.KernelIdeal.τ).loc Cert.KernelIdeal.main_arg3) := (hagree c).2.2.2.1
        have e4 : launchContents m' c (Proc.devRef .tc Cert.ReferenceIdeal.main_arg4) = m ((c.tc : Thread Cert.KernelIdeal.nD Cert.KernelIdeal.τ).loc Cert.KernelIdeal.main_arg4) := (hagree c).2.2.2.2.1
        have e5 : launchContents m' c (Proc.devRef .tc Cert.ReferenceIdeal.main_arg5) = m ((c.tc : Thread Cert.KernelIdeal.nD Cert.KernelIdeal.τ).loc Cert.KernelIdeal.main_arg5) := (hagree c).2.2.2.2.2.1
        have e6 : launchContents m' c (Proc.devRef .tc Cert.ReferenceIdeal.main_arg6) = m ((c.tc : Thread Cert.KernelIdeal.nD Cert.KernelIdeal.τ).loc Cert.KernelIdeal.main_arg6) := (hagree c).2.2.2.2.2.2
        rw [Cert.ReferenceIdeal.RefValue.value, e0, e1, e2, e3, e4, e5, e6]), (h c).2⟩)
    (Cert.ReferenceIdeal.RefValue.run (F := Ideal) m' ρ')

end Cert.Proof.RefHalf

end
-- ==== Proof.lean ====
/-
  The certificate's five claims.

  Both programs compute, at the extended reals, the bottom-up tree recursion written down in Proof/TreeSpec.lean:
  the input projection of every node, the leaves' gates, then level by level the inner nodes' gates from their
  children's states; they return the roots' hidden states.  The kernel's program does each of these steps on
  flattened rows inside a launch, with reshapes, slices and row updates between the launches; the reference does
  them on the three-axis arrays, gathering the children at literal index tables.  Each side's result array is
  proved equal to `TreeSpec.result` of its own argument arrays; the arguments agree, so the results do.

  No law of the extended reals beyond `x · 0 = 0` and `x + 0 = x` (the reference multiplies a leaf's forget
  gates by a zero child state) is used, so the precondition is never opened.  The idealization rewrote nothing,
  so `preserves` is the trivial proposition.  The frame claims are the runs with the result dropped.
-/
import proofs.«102109_j83099027243631_1_alg».proof.Defs
import proofs.«102109_j83099027243631_1_alg».proof.Proof.Gen.Kernel
import proofs.«102109_j83099027243631_1_alg».proof.Proof.Gen.Kernel.Frame
import proofs.«102109_j83099027243631_1_alg».proof.Proof.Gen.KernelIdeal
import proofs.«102109_j83099027243631_1_alg».proof.Proof.Gen.KernelIdeal.Frame
import proofs.«102109_j83099027243631_1_alg».proof.Proof.Gen.ReferenceIdeal
import proofs.«102109_j83099027243631_1_alg».proof.Proof.Gen.Pre_finite_inputs
import proofs.«102109_j83099027243631_1_alg».proof.Proof.KRun
import proofs.«102109_j83099027243631_1_alg».proof.Proof.KFinal
import proofs.«102109_j83099027243631_1_alg».proof.Proof.RefHalf
import Idealize.ShloMosaic.Adequacy
import Idealize.ShloMosaic.Init

noncomputable section

namespace Cert.Proof

open Idealize.ShloMosaic Idealize.ShloMosaic.TcCoe Idealize.SL.Sem Cert.TreeSpec

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem preserves : Cert.preserves_Kernel_KernelIdeal := trivial

/-- The kernel's run ends with its result array at `TreeSpec.result` of its argument arrays, the arguments
    unchanged. -/
theorem ker_half [Cert.KernelIdeal.Facts] [Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v293)
          = (fun i => Cert.TreeSpec.result (cur3 (m ((c.tc : Thread Cert.KernelIdeal.nD Cert.KernelIdeal.τ).loc Cert.KernelIdeal.main_arg0)))
              (cur2 (m ((c.tc : Thread Cert.KernelIdeal.nD Cert.KernelIdeal.τ).loc Cert.KernelIdeal.main_arg1)))
              (cur2 (m ((c.tc : Thread Cert.KernelIdeal.nD Cert.KernelIdeal.τ).loc Cert.KernelIdeal.main_arg2)))
              (cur2 (m ((c.tc : Thread Cert.KernelIdeal.nD Cert.KernelIdeal.τ).loc Cert.KernelIdeal.main_arg3)))
              (cur1 (m ((c.tc : Thread Cert.KernelIdeal.nD Cert.KernelIdeal.τ).loc Cert.KernelIdeal.main_arg4)))
              (cur1 (m ((c.tc : Thread Cert.KernelIdeal.nD Cert.KernelIdeal.τ).loc Cert.KernelIdeal.main_arg5)))
              (cur1 (m ((c.tc : Thread Cert.KernelIdeal.nD Cert.KernelIdeal.τ).loc Cert.KernelIdeal.main_arg6))) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) :=
  (θ_run Cert.KernelIdeal.defs _ _).mono
    (fun _ h c => ⟨(h c).1.trans (Cert.KernelIdeal.KValue.value m ρ c), (h c).2⟩)
    (Cert.KernelIdeal.KValue.run_result m ρ)

/-- The two runs, from memories agreeing on the arguments, end with one and the same result array. -/
theorem algebraic [Cert.KernelIdeal.Facts] [Cert.ReferenceIdeal.Facts] [Cert.Pre_finite_inputs.Facts] :
    Cert.algebraic_KernelIdeal_ReferenceIdeal :=
  fun m ρ m' ρ' _ hagree => ⟨_, ker_half m ρ, Cert.Proof.RefHalf.ref_half m m' ρ' hagree⟩

theorem claim : Cert.Claim :=
  ⟨Cert.Kernel.Gen.facts, Cert.KernelIdeal.Gen.facts, Cert.ReferenceIdeal.Gen.facts, Cert.Pre_finite_inputs.Gen.facts,
    frame_k, frame_ki, Cert.Proof.RefHalf.frame_ri, preserves, algebraic⟩

end Cert.Proof

end
